-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1257) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x256 : Shape := ⟨4, ![16, 64, 64, 256]⟩
abbrev S5 : Shape := ⟨1, ![5]⟩
abbrev S256x256 : Shape := ⟨2, ![256, 256]⟩
abbrev S_ : Shape := ⟨0, ![]⟩

class Facts : Prop where
  bcast_S_S16x64x64x256 : S_.BroadcastsInDim S16x64x64x256 (![] : Fin 0 → Fin S16x64x64x256.rank)
  reducesTo_S16x64x64x256_S_d0_1_2_3 : S16x64x64x256.ReducesTo [0, 1, 2, 3] S_
  h_S_ : 0 < S_.numel
  bcast_S_S5 : S_.BroadcastsInDim S5 (![] : Fin 0 → Fin S5.rank)
  reducesTo_S5_S_d0 : S5.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x256 .f32) (main_arg5 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  main_v28

def fn {F : FTy → Type} [FloatOps F] (main_arg0 : FVec F S16x64x64x256 .f32) (main_arg1 : FVec F S5 .f32) (main_arg2 : FVec F S5 .f32) (main_arg3 : FVec F S256x256 .f32) (main_arg4 : FVec F S256x256 .f32) (main_arg5 : FVec F S256x256 .f32) : IVec S_ 1 :=
  let main_v0 : FVec F S16x64x64x256 .f32 := Host.absf main_arg0
  let main_cst : FVec F S_ .f32 := constant S_ .f32 0x7F800000#32
  let main_v1 : FVec F S16x64x64x256 .f32 := broadcastInDim S16x64x64x256 ![] bcast_S_S16x64x64x256 main_cst
  let main_v2 : IVec S16x64x64x256 1 := cmpf .olt main_v0 main_v1
  let main_c : IVec S_ 1 := constantI S_ 1 1#1
  let main_v3 : IVec S_ 1 := (fun x v => Host.reduce IntOp.andi x v reducesTo_S16x64x64x256_S_d0_1_2_3 h_S_) main_v2 main_c
  let main_v4 : FVec F S5 .f32 := Host.absf main_arg1
  let main_cst_0 : FVec F S_ .f32 := constant S_ .f32 0x7F800000#32
  let main_v5 : FVec F S5 .f32 := broadcastInDim S5 ![] bcast_S_S5 main_cst_0
  let main_v6 : IVec S5 1 := cmpf .olt main_v4 main_v5
  let main_c_1 : IVec S_ 1 := constantI S_ 1 1#1
  let main_v7 : IVec S_ 1 := (fun x v => Host.reduce IntOp.andi x v reducesTo_S5_S_d0 h_S_) main_v6 main_c_1
  let main_v8 : IVec S_ 1 := andi main_v3 main_v7
  let main_v9 : FVec F S5 .f32 := Host.absf main_arg2
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_v13 main_v16
-- ==== Kernel.lean ====
abbrev S16x64x64x256 : Shape := ⟨4, ![16, 64, 64, 256]⟩
abbrev S5 : Shape := ⟨1, ![5]⟩
abbrev S256x256 : Shape := ⟨2, ![256, 256]⟩
abbrev S64 : Shape := ⟨1, ![64]⟩
abbrev S_ : Shape := ⟨0, ![]⟩
abbrev S1x64 : Shape := ⟨2, ![1, 64]⟩
abbrev S5x1 : Shape := ⟨2, ![5, 1]⟩
abbrev S5x64 : Shape := ⟨2, ![5, 64]⟩
abbrev S5x1x64x1 : Shape := ⟨4, ![5, 1, 64, 1]⟩
abbrev S1x5x1x64 : Shape := ⟨4, ![1, 5, 1, 64]⟩
abbrev S5x5x64x64 : Shape := ⟨4, ![5, 5, 64, 64]⟩
abbrev S1x64x64x256 : Shape := ⟨4, ![1, 64, 64, 256]⟩
abbrev S64x64 : Shape := ⟨2, ![64, 64]⟩
abbrev S72x72x256 : Shape := ⟨3, ![72, 72, 256]⟩
abbrev S72x72 : Shape := ⟨2, ![72, 72]⟩
abbrev S64x64x256 : Shape := ⟨3, ![64, 64, 256]⟩
abbrev S4096x256 : Shape := ⟨2, ![4096, 256]⟩
abbrev S1x1x64x64 : Shape := ⟨4, ![1, 1, 64, 64]⟩
abbrev S64x64x1 : Shape := ⟨3, ![64, 64, 1]⟩

abbrev nBuf : Space → Nat
  | .hbm => 76
  | .vmem => 12
  | .smem => 0
  | _ => 0

abbrev bufTy : (tb : Table) → Fin (tcTables nBuf tb) → BufTy
  | .hbm, ⟨0, _⟩ => ⟨S16x64x64x256, .f32⟩
  | .hbm, ⟨1, _⟩ => ⟨S5, .f32⟩
  | .hbm, ⟨2, _⟩ => ⟨S5, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S64, .i32⟩
  | .hbm, ⟨7, _⟩ => ⟨S64, .i32⟩
  | .hbm, ⟨8, _⟩ => ⟨S5, .i32⟩
  | .hbm, ⟨9, _⟩ => ⟨S5, .i32⟩
  | .hbm, ⟨10, _⟩ => ⟨S_, .i32⟩
  | .hbm, ⟨11, _⟩ => ⟨S5, .i32⟩
  | .hbm, ⟨12, _⟩ => ⟨S5, .i32⟩
  | .hbm, ⟨13, _⟩ => ⟨S_, .i32⟩
  | .hbm, ⟨14, _⟩ => ⟨S5, .i32⟩
  | .hbm, ⟨15, _⟩ => ⟨S5, .i32⟩
  | .hbm, ⟨16, _⟩ => ⟨S1x64, .i32⟩
  | .hbm, ⟨17, _⟩ => ⟨S5x1, .i32⟩
  | .hbm, ⟨18, _⟩ => ⟨S5x64, .i32⟩
  | .hbm, ⟨19, _⟩ => ⟨S5x64, .i32⟩
  | .hbm, ⟨20, _⟩ => ⟨S5x64, .i32⟩
  | .hbm, ⟨21, _⟩ => ⟨S1x64, .i32⟩
  | .hbm, ⟨22, _⟩ => ⟨S5x1, .i32⟩
  | .hbm, ⟨23, _⟩ => ⟨S5x64, .i32⟩
  | .hbm, ⟨24, _⟩ => ⟨S5x64, .i32⟩
  | .hbm, ⟨25, _⟩ => ⟨S5x64, .i32⟩
  | .hbm, ⟨26, _⟩ => ⟨S_, .i32⟩
  | .hbm, ⟨27, _⟩ => ⟨S5x64, .i32⟩
  | .hbm, ⟨28, _⟩ => ⟨S5x64, .i1⟩
  | .hbm, ⟨29, _⟩ => ⟨S_, .i32⟩
  | .hbm, ⟨30, _⟩ => ⟨S5x64, .i32⟩
  | .hbm, ⟨31, _⟩ => ⟨S5x64, .i1⟩
  | .hbm, ⟨32, _⟩ => ⟨S5x64, .i1⟩
  | .hbm, ⟨33, _⟩ => ⟨S_, .i32⟩
  | .hbm, ⟨34, _⟩ => ⟨S5x64, .i32⟩
  | .hbm, ⟨35, _⟩ => ⟨S5x64, .i1⟩
  | .hbm, ⟨36, _⟩ => ⟨S_, .i32⟩
  | .hbm, ⟨37, _⟩ => ⟨S5x64, .i32⟩
  | .hbm, ⟨38, _⟩ => ⟨S5x64, .i1⟩
  | .hbm, ⟨39, _⟩ => ⟨S5x64, .i1⟩
  | .hbm, ⟨40, _⟩ => ⟨S5x1x64x1, .i1⟩
  | .hbm, ⟨41, _⟩ => ⟨S1x5x1x64, .i1⟩
  | .hbm, ⟨42, _⟩ => ⟨S5x5x64x64, .i1⟩
  | .hbm, ⟨43, _⟩ => ⟨S5x5x64x64, .i1⟩
  | .hbm, ⟨44, _⟩ => ⟨S5x5x64x64, .i1⟩
  | .hbm, ⟨45, _⟩ => ⟨S5x5x64x64, .f32⟩
  | .hbm, ⟨46, _⟩ => ⟨S5x1, .f32⟩
  | .hbm, ⟨47, _⟩ => ⟨S5x1, .i32⟩
  | .hbm, ⟨48, _⟩ => ⟨S1x64, .i32⟩
  | .hbm, ⟨49, _⟩ => ⟨S5x64, .i32⟩
  | .hbm, ⟨50, _⟩ => ⟨S5x64, .i32⟩
  | .hbm, ⟨51, _⟩ => ⟨S5x64, .i32⟩
  | .hbm, ⟨52, _⟩ => ⟨S5x64, .f32⟩
  | .hbm, ⟨53, _⟩ => ⟨S5x64, .f32⟩
  | .hbm, ⟨54, _⟩ => ⟨S5x64, .f32⟩
  | .hbm, ⟨55, _⟩ => ⟨S5x1, .f32⟩
  | .hbm, ⟨56, _⟩ => ⟨S5x1, .i32⟩
  | .hbm, ⟨57, _⟩ => ⟨S1x64, .i32⟩
  | .hbm, ⟨58, _⟩ => ⟨S5x64, .i32⟩
  | .hbm, ⟨59, _⟩ => ⟨S5x64, .i32⟩
  | .hbm, ⟨60, _⟩ => ⟨S5x64, .i32⟩
  | .hbm, ⟨61, _⟩ => ⟨S5x64, .f32⟩
  | .hbm, ⟨62, _⟩ => ⟨S5x64, .f32⟩
  | .hbm, ⟨63, _⟩ => ⟨S5x64, .f32⟩
  | .hbm, ⟨64, _⟩ => ⟨S5x1x64x1, .f32⟩
  | .hbm, ⟨65, _⟩ => ⟨S1x5x1x64, .f32⟩
  | .hbm, ⟨66, _⟩ => ⟨S5x5x64x64, .f32⟩
  | .hbm, ⟨67, _⟩ => ⟨S5x5x64x64, .f32⟩
  | .hbm, ⟨68, _⟩ => ⟨S5x5x64x64, .f32⟩
  | .hbm, ⟨69, _⟩ => ⟨S5x5x64x64, .f32⟩
  | .hbm, ⟨70, _⟩ => ⟨S5x5x64x64, .f32⟩
  | .hbm, ⟨71, _⟩ => ⟨S16x64x64x256, .bf16⟩
  | .hbm, ⟨72, _⟩ => ⟨S256x256, .bf16⟩
  | .hbm, ⟨73, _⟩ => ⟨S256x256, .bf16⟩
  | .hbm, ⟨74, _⟩ => ⟨S256x256, .bf16⟩
  | .hbm, ⟨75, _⟩ => ⟨S16x64x64x256, .f32⟩
  | .local _ .vmem, ⟨0, _⟩ => ⟨S1x64x64x256, .bf16⟩
  | .local _ .vmem, ⟨1, _⟩ => ⟨S1x64x64x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S5x5x64x64, .f32⟩
  | .local _ .vmem, ⟨6, _⟩ => ⟨S1x64x64x256, .f32⟩
  | .local _ .vmem, ⟨7, _⟩ => ⟨S1x64x64x256, .f32⟩
  | .local _ .vmem, ⟨8, _⟩ => ⟨S64x64, .f32⟩
  | .local _ .vmem, ⟨9, _⟩ => ⟨S72x72x256, .f32⟩
  | .local _ .vmem, ⟨10, _⟩ => ⟨S72x72x256, .f32⟩
  | .local _ .vmem, ⟨11, _⟩ => ⟨S72x72, .f32⟩
  | _, _ => ⟨S16x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x5x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S5 : S_.BroadcastsInDim S5 (![] : Fin 0 → Fin S5.rank)
  bcast_S64_S1x64_1 : S64.BroadcastsInDim S1x64 (![1] : Fin 1 → Fin S1x64.rank)
  bcast_S5_S5x1_0 : S5.BroadcastsInDim S5x1 (![0] : Fin 1 → Fin S5x1.rank)
  bcast_S1x64_S5x64_0_1 : S1x64.BroadcastsInDim S5x64 (![0, 1] : Fin 2 → Fin S5x64.rank)
  bcast_S5x1_S5x64_0_1 : S5x1.BroadcastsInDim S5x64 (![0, 1] : Fin 2 → Fin S5x64.rank)
  bcast_S_S5x64 : S_.BroadcastsInDim S5x64 (![] : Fin 0 → Fin S5x64.rank)
  bcast_S5x64_S5x1x64x1_0_2 : S5x64.BroadcastsInDim S5x1x64x1 (![0, 2] : Fin 2 → Fin S5x1x64x1.rank)
  bcast_S5x64_S1x5x1x64_1_3 : S5x64.BroadcastsInDim S1x5x1x64 (![1, 3] : Fin 2 → Fin S1x5x1x64.rank)
  bcast_S5x1x64x1_S5x5x64x64_0_1_2_3 : S5x1x64x1.BroadcastsInDim S5x5x64x64 (![0, 1, 2, 3] : Fin 4 → Fin S5x5x64x64.rank)
  bcast_S1x5x1x64_S5x5x64x64_0_1_2_3 : S1x5x1x64.BroadcastsInDim S5x5x64x64 (![0, 1, 2, 3] : Fin 4 → Fin S5x5x64x64.rank)
  bitsLt_bf16_f32 : FTy.bits .bf16 < FTy.bits .f32
  inb_S1x64x64x256_S1x64x64x256_0_0_0_0 : ∀ a, (![0, 0, 0, 0] : Fin 4 → Nat) a + S1x64x64x256.size a ≤ S1x64x64x256.size a
  h_S1x64x64x256 : 0 < S1x64x64x256.numel
  shapeCasts_S1x64x64x256_S64x64x256 : S1x64x64x256.ShapeCasts S64x64x256
  shapeCasts_S64x64x256_S4096x256 : S64x64x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S256x256_p1_0_S256x256 : S256x256.Transposes [1, 0] S256x256
  shapeCasts_S4096x256_S64x64x256 : S4096x256.ShapeCasts S64x64x256
  reduces_S64x64x256_S64x64 : S64x64x256.Reduces [2] S64x64
  inb_S72x72x256_S72x72x256_0_0_0 : ∀ a, (![0, 0, 0] : Fin 3 → Nat) a + S72x72x256.size a ≤ S72x72x256.size a
  h_S72x72x256 : 0 < S72x72x256.numel
  shapeCasts_S72x72x256_S72x72x256 : S72x72x256.ShapeCasts S72x72x256
  inb_S72x72_S72x72_0_0 : ∀ a, (![0, 0] : Fin 2 → Nat) a + S72x72.size a ≤ S72x72.size a
  h_S72x72 : 0 < S72x72.numel
  shapeCasts_S72x72_S72x72 : S72x72.ShapeCasts S72x72
  inb_S72x72x256_S64x64x256_4_4_0 : ∀ a, (![4, 4, 0] : Fin 3 → Nat) a + S64x64x256.size a ≤ S72x72x256.size a
  h_S64x64x256 : 0 < S64x64x256.numel
  shapeCasts_S64x64x256_S64x64x256 : S64x64x256.ShapeCasts S64x64x256
  inb_S72x72_S64x64_4_4 : ∀ a, (![4, 4] : Fin 2 → Nat) a + S64x64.size a ≤ S72x72.size a
  h_S64x64 : 0 < S64x64.numel
  shapeCasts_S64x64_S64x64 : S64x64.ShapeCasts S64x64
  shapeCasts_S64x64x256_S1x64x64x256 : S64x64x256.ShapeCasts S1x64x64x256
  inb_S64x64_S64x64_0_0 : ∀ a, (![0, 0] : Fin 2 → Nat) a + S64x64.size a ≤ S64x64.size a
  inb_S72x72x256_S64x64x256_2_2_0 : ∀ a, (![2, 2, 0] : Fin 3 → Nat) a + S64x64x256.size a ≤ S72x72x256.size a
  inb_S72x72_S64x64_2_2 : ∀ a, (![2, 2] : Fin 2 → Nat) a + S64x64.size a ≤ S72x72.size a
  inb_S5x5x64x64_S1x1x64x64_0_0_0_0 : ∀ a, (![0, 0, 0, 0] : Fin 4 → Nat) a + S1x1x64x64.size a ≤ S5x5x64x64.size a
  h_S1x1x64x64 : 0 < S1x1x64x64.numel
  shapeCasts_S1x1x64x64_S64x64 : S1x1x64x64.ShapeCasts S64x64
  shapeCasts_S64x64_S64x64x1 : S64x64.ShapeCasts S64x64x1
  broadcasts_S64x64x1_S64x64x256 : S64x64x1.Broadcasts S64x64x256
  inb_S72x72x256_S64x64x256_2_3_0 : ∀ a, (![2, 3, 0] : Fin 3 → Nat) a + S64x64x256.size a ≤ S72x72x256.size a
  inb_S72x72_S64x64_2_3 : ∀ a, (![2, 3] : Fin 2 → Nat) a + S64x64.size a ≤ S72x72.size a
  inb_S5x5x64x64_S1x1x64x64_0_1_0_0 : ∀ a, (![0, 1, 0, 0] : Fin 4 → Nat) a + S1x1x64x64.size a ≤ S5x5x64x64.size a
  inb_S72x72x256_S64x64x256_2_4_0 : ∀ a, (![2, 4, 0] : Fin 3 → Nat) a + S64x64x256.size a ≤ S72x72x256.size a
  inb_S72x72_S64x64_2_4 : ∀ a, (![2, 4] : Fin 2 → Nat) a + S64x64.size a ≤ S72x72.size a
  inb_S5x5x64x64_S1x1x64x64_0_2_0_0 : ∀ a, (![0, 2, 0, 0] : Fin 4 → Nat) a + S1x1x64x64.size a ≤ S5x5x64x64.size a
  inb_S72x72x256_S64x64x256_2_5_0 : ∀ a, (![2, 5, 0] : Fin 3 → Nat) a + S64x64x256.size a ≤ S72x72x256.size a
  inb_S72x72_S64x64_2_5 : ∀ a, (![2, 5] : Fin 2 → Nat) a + S64x64.size a ≤ S72x72.size a
  inb_S5x5x64x64_S1x1x64x64_0_3_0_0 : ∀ a, (![0, 3, 0, 0] : Fin 4 → Nat) a + S1x1x64x64.size a ≤ S5x5x64x64.size a
  inb_S72x72x256_S64x64x256_2_6_0 : ∀ a, (![2, 6, 0] : Fin 3 → Nat) a + S64x64x256.size a ≤ S72x72x256.size a
  inb_S72x72_S64x64_2_6 : ∀ a, (![2, 6] : Fin 2 → Nat) a + S64x64.size a ≤ S72x72.size a
  inb_S5x5x64x64_S1x1x64x64_0_4_0_0 : ∀ a, (![0, 4, 0, 0] : Fin 4 → Nat) a + S1x1x64x64.size a ≤ S5x5x64x64.size a
  inb_S72x72x256_S64x64x256_3_2_0 : ∀ a, (![3, 2, 0] : Fin 3 → Nat) a + S64x64x256.size a ≤ S72x72x256.size a
  inb_S72x72_S64x64_3_2 : ∀ a, (![3, 2] : Fin 2 → Nat) a + S64x64.size a ≤ S72x72.size a
  inb_S5x5x64x64_S1x1x64x64_1_0_0_0 : ∀ a, (![1, 0, 0, 0] : Fin 4 → Nat) a + S1x1x64x64.size a ≤ S5x5x64x64.size a
  inb_S72x72x256_S64x64x256_3_3_0 : ∀ a, (![3, 3, 0] : Fin 3 → Nat) a + S64x64x256.size a ≤ S72x72x256.size a
  inb_S72x72_S64x64_3_3 : ∀ a, (![3, 3] : Fin 2 → Nat) a + S64x64.size a ≤ S72x72.size a
  inb_S5x5x64x64_S1x1x64x64_1_1_0_0 : ∀ a, (![1, 1, 0, 0] : Fin 4 → Nat) a + S1x1x64x64.size a ≤ S5x5x64x64.size a
  inb_S72x72x256_S64x64x256_3_4_0 : ∀ a, (![3, 4, 0] : Fin 3 → Nat) a + S64x64x256.size a ≤ S72x72x256.size a
  inb_S72x72_S64x64_3_4 : ∀ a, (![3, 4] : Fin 2 → Nat) a + S64x64.size a ≤ S72x72.size a
  inb_S5x5x64x64_S1x1x64x64_1_2_0_0 : ∀ a, (![1, 2, 0, 0] : Fin 4 → Nat) a + S1x1x64x64.size a ≤ S5x5x64x64.size a
  inb_S72x72x256_S64x64x256_3_5_0 : ∀ a, (![3, 5, 0] : Fin 3 → Nat) a + S64x64x256.size a ≤ S72x72x256.size a
  inb_S72x72_S64x64_3_5 : ∀ a, (![3, 5] : Fin 2 → Nat) a + S64x64.size a ≤ S72x72.size a
  inb_S5x5x64x64_S1x1x64x64_1_3_0_0 : ∀ a, (![1, 3, 0, 0] : Fin 4 → Nat) a + S1x1x64x64.size a ≤ S5x5x64x64.size a
  inb_S72x72x256_S64x64x256_3_6_0 : ∀ a, (![3, 6, 0] : Fin 3 → Nat) a + S64x64x256.size a ≤ S72x72x256.size a
  inb_S72x72_S64x64_3_6 : ∀ a, (![3, 6] : Fin 2 → Nat) a + S64x64.size a ≤ S72x72.size a
  inb_S5x5x64x64_S1x1x64x64_1_4_0_0 : ∀ a, (![1, 4, 0, 0] : Fin 4 → Nat) a + S1x1x64x64.size a ≤ S5x5x64x64.size a
  inb_S72x72x256_S64x64x256_4_2_0 : ∀ a, (![4, 2, 0] : Fin 3 → Nat) a + S64x64x256.size a ≤ S72x72x256.size a
  inb_S72x72_S64x64_4_2 : ∀ a, (![4, 2] : Fin 2 → Nat) a + S64x64.size a ≤ S72x72.size a
  inb_S5x5x64x64_S1x1x64x64_2_0_0_0 : ∀ a, (![2, 0, 0, 0] : Fin 4 → Nat) a + S1x1x64x64.size a ≤ S5x5x64x64.size a
  inb_S72x72x256_S64x64x256_4_3_0 : ∀ a, (![4, 3, 0] : Fin 3 → Nat) a + S64x64x256.size a ≤ S72x72x256.size a
  inb_S72x72_S64x64_4_3 : ∀ a, (![4, 3] : Fin 2 → Nat) a + S64x64.size a ≤ S72x72.size a
  inb_S5x5x64x64_S1x1x64x64_2_1_0_0 : ∀ a, (![2, 1, 0, 0] : Fin 4 → Nat) a + S1x1x64x64.size a ≤ S5x5x64x64.size a
  inb_S5x5x64x64_S1x1x64x64_2_2_0_0 : ∀ a, (![2, 2, 0, 0] : Fin 4 → Nat) a + S1x1x64x64.size a ≤ S5x5x64x64.size a
  inb_S72x72x256_S64x64x256_4_5_0 : ∀ a, (![4, 5, 0] : Fin 3 → Nat) a + S64x64x256.size a ≤ S72x72x256.size a
  inb_S72x72_S64x64_4_5 : ∀ a, (![4, 5] : Fin 2 → Nat) a + S64x64.size a ≤ S72x72.size a
  inb_S5x5x64x64_S1x1x64x64_2_3_0_0 : ∀ a, (![2, 3, 0, 0] : Fin 4 → Nat) a + S1x1x64x64.size a ≤ S5x5x64x64.size a
  inb_S72x72x256_S64x64x256_4_6_0 : ∀ a, (![4, 6, 0] : Fin 3 → Nat) a + S64x64x256.size a ≤ S72x72x256.size a
  inb_S72x72_S64x64_4_6 : ∀ a, (![4, 6] : Fin 2 → Nat) a + S64x64.size a ≤ S72x72.size a
  inb_S5x5x64x64_S1x1x64x64_2_4_0_0 : ∀ a, (![2, 4, 0, 0] : Fin 4 → Nat) a + S1x1x64x64.size a ≤ S5x5x64x64.size a
  inb_S72x72x256_S64x64x256_5_2_0 : ∀ a, (![5, 2, 0] : Fin 3 → Nat) a + S64x64x256.size a ≤ S72x72x256.size a
  inb_S72x72_S64x64_5_2 : ∀ a, (![5, 2] : Fin 2 → Nat) a + S64x64.size a ≤ S72x72.size a
  inb_S5x5x64x64_S1x1x64x64_3_0_0_0 : ∀ a, (![3, 0, 0, 0] : Fin 4 → Nat) a + S1x1x64x64.size a ≤ S5x5x64x64.size a
  inb_S72x72x256_S64x64x256_5_3_0 : ∀ a, (![5, 3, 0] : Fin 3 → Nat) a + S64x64x256.size a ≤ S72x72x256.size a
  inb_S72x72_S64x64_5_3 : ∀ a, (![5, 3] : Fin 2 → Nat) a + S64x64.size a ≤ S72x72.size a
  inb_S5x5x64x64_S1x1x64x64_3_1_0_0 : ∀ a, (![3, 1, 0, 0] : Fin 4 → Nat) a + S1x1x64x64.size a ≤ S5x5x64x64.size a
  inb_S72x72x256_S64x64x256_5_4_0 : ∀ a, (![5, 4, 0] : Fin 3 → Nat) a + S64x64x256.size a ≤ S72x72x256.size a
  inb_S72x72_S64x64_5_4 : ∀ a, (![5, 4] : Fin 2 → Nat) a + S64x64.size a ≤ S72x72.size a
  inb_S5x5x64x64_S1x1x64x64_3_2_0_0 : ∀ a, (![3, 2, 0, 0] : Fin 4 → Nat) a + S1x1x64x64.size a ≤ S5x5x64x64.size a
  inb_S72x72x256_S64x64x256_5_5_0 : ∀ a, (![5, 5, 0] : Fin 3 → Nat) a + S64x64x256.size a ≤ S72x72x256.size a
  inb_S72x72_S64x64_5_5 : ∀ a, (![5, 5] : Fin 2 → Nat) a + S64x64.size a ≤ S72x72.size a
  inb_S5x5x64x64_S1x1x64x64_3_3_0_0 : ∀ a, (![3, 3, 0, 0] : Fin 4 → Nat) a + S1x1x64x64.size a ≤ S5x5x64x64.size a
  inb_S72x72x256_S64x64x256_5_6_0 : ∀ a, (![5, 6, 0] : Fin 3 → Nat) a + S64x64x256.size a ≤ S72x72x256.size a
  inb_S72x72_S64x64_5_6 : ∀ a, (![5, 6] : Fin 2 → Nat) a + S64x64.size a ≤ S72x72.size a
  inb_S5x5x64x64_S1x1x64x64_3_4_0_0 : ∀ a, (![3, 4, 0, 0] : Fin 4 → Nat) a + S1x1x64x64.size a ≤ S5x5x64x64.size a
  inb_S72x72x256_S64x64x256_6_2_0 : ∀ a, (![6, 2, 0] : Fin 3 → Nat) a + S64x64x256.size a ≤ S72x72x256.size a
  inb_S72x72_S64x64_6_2 : ∀ a, (![6, 2] : Fin 2 → Nat) a + S64x64.size a ≤ S72x72.size a
  inb_S5x5x64x64_S1x1x64x64_4_0_0_0 : ∀ a, (![4, 0, 0, 0] : Fin 4 → Nat) a + S1x1x64x64.size a ≤ S5x5x64x64.size a
  inb_S72x72x256_S64x64x256_6_3_0 : ∀ a, (![6, 3, 0] : Fin 3 → Nat) a + S64x64x256.size a ≤ S72x72x256.size a
  inb_S72x72_S64x64_6_3 : ∀ a, (![6, 3] : Fin 2 → Nat) a + S64x64.size a ≤ S72x72.size a
  inb_S5x5x64x64_S1x1x64x64_4_1_0_0 : ∀ a, (![4, 1, 0, 0] : Fin 4 → Nat) a + S1x1x64x64.size a ≤ S5x5x64x64.size a
  inb_S72x72x256_S64x64x256_6_4_0 : ∀ a, (![6, 4, 0] : Fin 3 → Nat) a + S64x64x256.size a ≤ S72x72x256.size a
  inb_S72x72_S64x64_6_4 : ∀ a, (![6, 4] : Fin 2 → Nat) a + S64x64.size a ≤ S72x72.size a
  inb_S5x5x64x64_S1x1x64x64_4_2_0_0 : ∀ a, (![4, 2, 0, 0] : Fin 4 → Nat) a + S1x1x64x64.size a ≤ S5x5x64x64.size a
  inb_S72x72x256_S64x64x256_6_5_0 : ∀ a, (![6, 5, 0] : Fin 3 → Nat) a + S64x64x256.size a ≤ S72x72x256.size a
  inb_S72x72_S64x64_6_5 : ∀ a, (![6, 5] : Fin 2 → Nat) a + S64x64.size a ≤ S72x72.size a
  inb_S5x5x64x64_S1x1x64x64_4_3_0_0 : ∀ a, (![4, 3, 0, 0] : Fin 4 → Nat) a + S1x1x64x64.size a ≤ S5x5x64x64.size a
  inb_S72x72x256_S64x64x256_6_6_0 : ∀ a, (![6, 6, 0] : Fin 3 → Nat) a + S64x64x256.size a ≤ S72x72x256.size a
  inb_S72x72_S64x64_6_6 : ∀ a, (![6, 6] : Fin 2 → Nat) a + S64x64.size a ≤ S72x72.size a
  inb_S5x5x64x64_S1x1x64x64_4_4_0_0 : ∀ a, (![4, 4, 0, 0] : Fin 4 → Nat) a + S1x1x64x64.size a ≤ S5x5x64x64.size a
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x256.size a ≤ S16x64x64x256.size a
  hwx0_0 : ∀ i : grid0.Coords, EltTy.bits .bf16 = 32 ∨ (Rect.block (s := S16x64x64x256) S1x64x64x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x5x64x64.size a ≤ S5x5x64x64.size a
  hwx0_4 : ∀ i : grid0.Coords, EltTy.bits .f32 = 32 ∨ (Rect.block (s := S5x5x64x64) S5x5x64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x64x256.size a ≤ S16x64x64x256.size a
  hwx0_5 : ∀ i : grid0.Coords, EltTy.bits .f32 = 32 ∨ (Rect.block (s := S16x64x64x256) S1x64x64x256.size (cc0_transform_5 i) (hinb0_5 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v59) S1x64x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v61) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v62) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v58) S5x5x64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v63) S1x64x64x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x64x64x256 : Shape := ⟨4, ![16, 64, 64, 256]⟩
abbrev S5 : Shape := ⟨1, ![5]⟩
abbrev S256x256 : Shape := ⟨2, ![256, 256]⟩
abbrev S_ : Shape := ⟨0, ![]⟩
abbrev S16x68x68x256 : Shape := ⟨4, ![16, 68, 68, 256]⟩
abbrev S64 : Shape := ⟨1, ![64]⟩
abbrev S16x64x64x1 : Shape := ⟨4, ![16, 64, 64, 1]⟩
abbrev S64x1 : Shape := ⟨2, ![64, 1]⟩
abbrev S1x64 : Shape := ⟨2, ![1, 64]⟩
abbrev S64x64 : Shape := ⟨2, ![64, 64]⟩
abbrev S1 : Shape := ⟨1, ![1]⟩
abbrev S1x64x64x1 : Shape := ⟨4, ![1, 64, 64, 1]⟩
abbrev S16x64x64 : Shape := ⟨3, ![16, 64, 64]⟩

abbrev nBuf : Space → Nat
  | .hbm => 1466
  | .vmem => 0
  | .smem => 0
  | _ => 0

abbrev hbmTy0_0 (i : Nat) : BufTy := match i % 128 with
  | 0 => ⟨S16x64x64x256, .f32⟩
  | 1 => ⟨S5, .f32⟩
  | 2 => ⟨S5, .f32⟩
  | 3 => ⟨S256x256, .f32⟩
  | 4 => ⟨S256x256, .f32⟩
  | 5 => ⟨S256x256, .f32⟩
  | 6 => ⟨S16x64x64x256, .f32⟩
  | 7 => ⟨S16x64x64x256, .f32⟩
  | 8 => ⟨S_, .i32⟩
  | 9 => ⟨S_, .f32⟩
  | 10 => ⟨S16x68x68x256, .f32⟩
  | 11 => ⟨S_, .i32⟩
  | 12 => ⟨S_, .f32⟩
  | 13 => ⟨S16x68x68x256, .f32⟩
  | 14 => ⟨S64, .i32⟩
  | 15 => ⟨S64, .i32⟩
  | 16 => ⟨S_, .f32⟩
  | 17 => ⟨S16x64x64x256, .f32⟩
  | 18 => ⟨S_, .f32⟩
  | 19 => ⟨S16x64x64x1, .f32⟩
  | 20 => ⟨S_, .i32⟩
  | 21 => ⟨S64, .i32⟩
  | 22 => ⟨S64, .i32⟩
  | 23 => ⟨S_, .i32⟩
  | 24 => ⟨S64, .i32⟩
  | 25 => ⟨S64, .i1⟩
  | 26 => ⟨S_, .i32⟩
  | 27 => ⟨S64, .i32⟩
  | 28 => ⟨S64, .i32⟩
  | 29 => ⟨S_, .i32⟩
  | 30 => ⟨S64, .i32⟩
  | 31 => ⟨S64, .i1⟩
  | 32 => ⟨S64, .i1⟩
  | 33 => ⟨S_, .i32⟩
  | 34 => ⟨S64, .i32⟩
  | 35 => ⟨S64, .i32⟩
  | 36 => ⟨S_, .i32⟩
  | 37 => ⟨S64, .i32⟩
  | 38 => ⟨S64, .i1⟩
  | 39 => ⟨S_, .i32⟩
  | 40 => ⟨S64, .i32⟩
  | 41 => ⟨S64, .i32⟩
  | 42 => ⟨S_, .i32⟩
  | 43 => ⟨S64, .i32⟩
  | 44 => ⟨S64, .i1⟩
  | 45 => ⟨S64, .i1⟩
  | 46 => ⟨S64x1, .i1⟩
  | 47 => ⟨S1x64, .i1⟩
  | 48 => ⟨S64x64, .i1⟩
  | 49 => ⟨S64x64, .i1⟩
  | 50 => ⟨S64x64, .i1⟩
  | 51 => ⟨S64x64, .f32⟩
  | 52 => ⟨S1, .f32⟩
  | 53 => ⟨S_, .f32⟩
  | 54 => ⟨S_, .i32⟩
  | 55 => ⟨S64, .i32⟩
  | 56 => ⟨S64, .i32⟩
  | 57 => ⟨S64x1, .i32⟩
  | 58 => ⟨S64x1, .f32⟩
  | 59 => ⟨S64x1, .f32⟩
  | 60 => ⟨S64x1, .f32⟩
  | 61 => ⟨S1, .f32⟩
  | 62 => ⟨S_, .f32⟩
  | 63 => ⟨S_, .i32⟩
  | 64 => ⟨S64, .i32⟩
  | 65 => ⟨S64, .i32⟩
  | 66 => ⟨S1x64, .i32⟩
  | 67 => ⟨S1x64, .f32⟩
  | 68 => ⟨S1x64, .f32⟩
  | 69 => ⟨S1x64, .f32⟩
  | 70 => ⟨S64x64, .f32⟩
  | 71 => ⟨S64x64, .f32⟩
  | 72 => ⟨S64x64, .f32⟩
  | 73 => ⟨S16x64x64x256, .f32⟩
  | 74 => ⟨S16x64x64x256, .f32⟩
  | 75 => ⟨S1x64x64x1, .f32⟩
  | 76 => ⟨S16x64x64x256, .f32⟩
  | 77 => ⟨S16x64x64x256, .f32⟩
  | 78 => ⟨S16x64x64x256, .f32⟩
  | 79 => ⟨S1x64x64x1, .f32⟩
  | 80 => ⟨S16x64x64x256, .f32⟩
  | 81 => ⟨S16x64x64x256, .f32⟩
  | 82 => ⟨S16x64x64x256, .f32⟩
  | 83 => ⟨S16x64x64x256, .f32⟩
  | 84 => ⟨S_, .f32⟩
  | 85 => ⟨S16x64x64, .f32⟩
  | 86 => ⟨S16x64x64x1, .f32⟩
  | 87 => ⟨S16x64x64x1, .f32⟩
  | 88 => ⟨S_, .i32⟩
  | 89 => ⟨S64, .i32⟩
  | 90 => ⟨S64, .i32⟩
  | 91 => ⟨S_, .i32⟩
  | 92 => ⟨S64, .i32⟩
  | 93 => ⟨S64, .i1⟩
  | 94 => ⟨S_, .i32⟩
  | 95 => ⟨S64, .i32⟩
  | 96 => ⟨S64, .i32⟩
  | 97 => ⟨S_, .i32⟩
  | 98 => ⟨S64, .i32⟩
  | 99 => ⟨S64, .i1⟩
  | 100 => ⟨S64, .i1⟩
  | 101 => ⟨S64x1, .i1⟩
  | 102 => ⟨S1x64, .i1⟩
  | 103 => ⟨S64x64, .i1⟩
  | 104 => ⟨S64x64, .i1⟩
  | 105 => ⟨S64x64, .i1⟩
  | 106 => ⟨S64x64, .f32⟩
  | 107 => ⟨S1, .f32⟩
  | 108 => ⟨S_, .f32⟩
  | 109 => ⟨S_, .i32⟩
  | 110 => ⟨S64, .i32⟩
  | 111 => ⟨S64, .i32⟩
  | 112 => ⟨S64x1, .i32⟩
  | 113 => ⟨S64x1, .f32⟩
  | 114 => ⟨S64x1, .f32⟩
  | 115 => ⟨S64x1, .f32⟩
  | 116 => ⟨S1, .f32⟩
  | 117 => ⟨S_, .f32⟩
  | 118 => ⟨S_, .i32⟩
  | 119 => ⟨S64, .i32⟩
  | 120 => ⟨S64, .i32⟩
  | 121 => ⟨S1x64, .i32⟩
  | 122 => ⟨S1x64, .f32⟩
  | 123 => ⟨S1x64, .f32⟩
  | 124 => ⟨S1x64, .f32⟩
  | 125 => ⟨S64x64, .f32⟩
  | 126 => ⟨S64x64, .f32⟩
  | 127 => ⟨S64x64, .f32⟩
  | _ => ⟨S16x64x64x256, .f32⟩

abbrev hbmTy0_1 (i : Nat) : BufTy := match i % 128 with
  | 0 => ⟨S16x64x64x256, .f32⟩
  | 1 => ⟨S16x64x64x256, .f32⟩
  | 2 => ⟨S1x64x64x1, .f32⟩
  | 3 => ⟨S16x64x64x256, .f32⟩
  | 4 => ⟨S16x64x64x256, .f32⟩
  | 5 => ⟨S16x64x64x256, .f32⟩
  | 6 => ⟨S1x64x64x1, .f32⟩
  | 7 => ⟨S16x64x64x256, .f32⟩
  | 8 => ⟨S16x64x64x256, .f32⟩
  | 9 => ⟨S16x64x64x256, .f32⟩
  | 10 => ⟨S16x64x64x256, .f32⟩
  | 11 => ⟨S_, .f32⟩
  | 12 => ⟨S16x64x64, .f32⟩
  | 13 => ⟨S16x64x64x1, .f32⟩
  | 14 => ⟨S16x64x64x1, .f32⟩
  | 15 => ⟨S_, .i32⟩
  | 16 => ⟨S64, .i32⟩
  | 17 => ⟨S64, .i32⟩
  | 18 => ⟨S_, .i32⟩
  | 19 => ⟨S64, .i32⟩
  | 20 => ⟨S64, .i1⟩
  | 21 => ⟨S_, .i32⟩
  | 22 => ⟨S64, .i32⟩
  | 23 => ⟨S64, .i32⟩
  | 24 => ⟨S_, .i32⟩
  | 25 => ⟨S64, .i32⟩
  | 26 => ⟨S64, .i1⟩
  | 27 => ⟨S64, .i1⟩
  | 28 => ⟨S64x1, .i1⟩
  | 29 => ⟨S1x64, .i1⟩
  | 30 => ⟨S64x64, .i1⟩
  | 31 => ⟨S64x64, .i1⟩
  | 32 => ⟨S64x64, .i1⟩
  | 33 => ⟨S64x64, .f32⟩
  | 34 => ⟨S1, .f32⟩
  | 35 => ⟨S_, .f32⟩
  | 36 => ⟨S_, .i32⟩
  | 37 => ⟨S64, .i32⟩
  | 38 => ⟨S64, .i32⟩
  | 39 => ⟨S64x1, .i32⟩
  | 40 => ⟨S64x1, .f32⟩
  | 41 => ⟨S64x1, .f32⟩
  | 42 => ⟨S64x1, .f32⟩
  | 43 => ⟨S1, .f32⟩
  | 44 => ⟨S_, .f32⟩
  | 45 => ⟨S_, .i32⟩
  | 46 => ⟨S64, .i32⟩
  | 47 => ⟨S64, .i32⟩
  | 48 => ⟨S1x64, .i32⟩
  | 49 => ⟨S1x64, .f32⟩
  | 50 => ⟨S1x64, .f32⟩
  | 51 => ⟨S1x64, .f32⟩
  | 52 => ⟨S64x64, .f32⟩
  | 53 => ⟨S64x64, .f32⟩
  | 54 => ⟨S64x64, .f32⟩
  | 55 => ⟨S16x64x64x256, .f32⟩
  | 56 => ⟨S16x64x64x256, .f32⟩
  | 57 => ⟨S1x64x64x1, .f32⟩
  | 58 => ⟨S16x64x64x256, .f32⟩
  | 59 => ⟨S16x64x64x256, .f32⟩
  | 60 => ⟨S16x64x64x256, .f32⟩
  | 61 => ⟨S1x64x64x1, .f32⟩
  | 62 => ⟨S16x64x64x256, .f32⟩
  | 63 => ⟨S16x64x64x256, .f32⟩
  | 64 => ⟨S16x64x64x256, .f32⟩
  | 65 => ⟨S16x64x64x256, .f32⟩
  | 66 => ⟨S_, .f32⟩
  | 67 => ⟨S16x64x64, .f32⟩
  | 68 => ⟨S16x64x64x1, .f32⟩
  | 69 => ⟨S16x64x64x1, .f32⟩
  | 70 => ⟨S_, .i32⟩
  | 71 => ⟨S64, .i32⟩
  | 72 => ⟨S64, .i32⟩
  | 73 => ⟨S_, .i32⟩
  | 74 => ⟨S64, .i32⟩
  | 75 => ⟨S64, .i1⟩
  | 76 => ⟨S_, .i32⟩
  | 77 => ⟨S64, .i32⟩
  | 78 => ⟨S64, .i32⟩
  | 79 => ⟨S_, .i32⟩
  | 80 => ⟨S64, .i32⟩
  | 81 => ⟨S64, .i1⟩
  | 82 => ⟨S64, .i1⟩
  | 83 => ⟨S64x1, .i1⟩
  | 84 => ⟨S1x64, .i1⟩
  | 85 => ⟨S64x64, .i1⟩
  | 86 => ⟨S64x64, .i1⟩
  | 87 => ⟨S64x64, .i1⟩
  | 88 => ⟨S64x64, .f32⟩
  | 89 => ⟨S1, .f32⟩
  | 90 => ⟨S_, .f32⟩
  | 91 => ⟨S_, .i32⟩
  | 92 => ⟨S64, .i32⟩
  | 93 => ⟨S64, .i32⟩
  | 94 => ⟨S64x1, .i32⟩
  | 95 => ⟨S64x1, .f32⟩
  | 96 => ⟨S64x1, .f32⟩
  | 97 => ⟨S64x1, .f32⟩
  | 98 => ⟨S1, .f32⟩
  | 99 => ⟨S_, .f32⟩
  | 100 => ⟨S_, .i32⟩
  | 101 => ⟨S64, .i32⟩
  | 102 => ⟨S64, .i32⟩
  | 103 => ⟨S1x64, .i32⟩
  | 104 => ⟨S1x64, .f32⟩
  | 105 => ⟨S1x64, .f32⟩
  | 106 => ⟨S1x64, .f32⟩
  | 107 => ⟨S64x64, .f32⟩
  | 108 => ⟨S64x64, .f32⟩
  | 109 => ⟨S64x64, .f32⟩
  | 110 => ⟨S16x64x64x256, .f32⟩
  | 111 => ⟨S16x64x64x256, .f32⟩
  | 112 => ⟨S1x64x64x1, .f32⟩
  | 113 => ⟨S16x64x64x256, .f32⟩
  | 114 => ⟨S16x64x64x256, .f32⟩
  | 115 => ⟨S16x64x64x256, .f32⟩
  | 116 => ⟨S1x64x64x1, .f32⟩
  | 117 => ⟨S16x64x64x256, .f32⟩
  | 118 => ⟨S16x64x64x256, .f32⟩
  | 119 => ⟨S16x64x64x256, .f32⟩
  | 120 => ⟨S16x64x64x256, .f32⟩
  | 121 => ⟨S_, .f32⟩
  | 122 => ⟨S16x64x64, .f32⟩
  | 123 => ⟨S16x64x64x1, .f32⟩
  | 124 => ⟨S16x64x64x1, .f32⟩
  | 125 => ⟨S_, .i32⟩
  | 126 => ⟨S64, .i32⟩
  | 127 => ⟨S64, .i32⟩
  | _ => ⟨S16x64x64x256, .f32⟩

abbrev hbmTy0_2 (i : Nat) : BufTy := match i % 128 with
  | 0 => ⟨S_, .i32⟩
  | 1 => ⟨S64, .i32⟩
  | 2 => ⟨S64, .i1⟩
  | 3 => ⟨S_, .i32⟩
  | 4 => ⟨S64, .i32⟩
  | 5 => ⟨S64, .i32⟩
  | 6 => ⟨S_, .i32⟩
  | 7 => ⟨S64, .i32⟩
  | 8 => ⟨S64, .i1⟩
  | 9 => ⟨S64, .i1⟩
  | 10 => ⟨S64x1, .i1⟩
  | 11 => ⟨S1x64, .i1⟩
  | 12 => ⟨S64x64, .i1⟩
  | 13 => ⟨S64x64, .i1⟩
  | 14 => ⟨S64x64, .i1⟩
  | 15 => ⟨S64x64, .f32⟩
  | 16 => ⟨S1, .f32⟩
  | 17 => ⟨S_, .f32⟩
  | 18 => ⟨S_, .i32⟩
  | 19 => ⟨S64, .i32⟩
  | 20 => ⟨S64, .i32⟩
  | 21 => ⟨S64x1, .i32⟩
  | 22 => ⟨S64x1, .f32⟩
  | 23 => ⟨S64x1, .f32⟩
  | 24 => ⟨S64x1, .f32⟩
  | 25 => ⟨S1, .f32⟩
  | 26 => ⟨S_, .f32⟩
  | 27 => ⟨S_, .i32⟩
  | 28 => ⟨S64, .i32⟩
  | 29 => ⟨S64, .i32⟩
  | 30 => ⟨S1x64, .i32⟩
  | 31 => ⟨S1x64, .f32⟩
  | 32 => ⟨S1x64, .f32⟩
  | 33 => ⟨S1x64, .f32⟩
  | 34 => ⟨S64x64, .f32⟩
  | 35 => ⟨S64x64, .f32⟩
  | 36 => ⟨S64x64, .f32⟩
  | 37 => ⟨S16x64x64x256, .f32⟩
  | 38 => ⟨S16x64x64x256, .f32⟩
  | 39 => ⟨S1x64x64x1, .f32⟩
  | 40 => ⟨S16x64x64x256, .f32⟩
  | 41 => ⟨S16x64x64x256, .f32⟩
  | 42 => ⟨S16x64x64x256, .f32⟩
  | 43 => ⟨S1x64x64x1, .f32⟩
  | 44 => ⟨S16x64x64x256, .f32⟩
  | 45 => ⟨S16x64x64x256, .f32⟩
  | 46 => ⟨S16x64x64x256, .f32⟩
  | 47 => ⟨S16x64x64x256, .f32⟩
  | 48 => ⟨S_, .f32⟩
  | 49 => ⟨S16x64x64, .f32⟩
  | 50 => ⟨S16x64x64x1, .f32⟩
  | 51 => ⟨S16x64x64x1, .f32⟩
  | 52 => ⟨S_, .i32⟩
  | 53 => ⟨S64, .i32⟩
  | 54 => ⟨S64, .i32⟩
  | 55 => ⟨S_, .i32⟩
  | 56 => ⟨S64, .i32⟩
  | 57 => ⟨S64, .i1⟩
  | 58 => ⟨S_, .i32⟩
  | 59 => ⟨S64, .i32⟩
  | 60 => ⟨S64, .i32⟩
  | 61 => ⟨S_, .i32⟩
  | 62 => ⟨S64, .i32⟩
  | 63 => ⟨S64, .i1⟩
  | 64 => ⟨S64, .i1⟩
  | 65 => ⟨S_, .i32⟩
  | 66 => ⟨S64, .i32⟩
  | 67 => ⟨S64, .i32⟩
  | 68 => ⟨S_, .i32⟩
  | 69 => ⟨S64, .i32⟩
  | 70 => ⟨S64, .i1⟩
  | 71 => ⟨S_, .i32⟩
  | 72 => ⟨S64, .i32⟩
  | 73 => ⟨S64, .i32⟩
  | 74 => ⟨S_, .i32⟩
  | 75 => ⟨S64, .i32⟩
  | 76 => ⟨S64, .i1⟩
  | 77 => ⟨S64, .i1⟩
  | 78 => ⟨S64x1, .i1⟩
  | 79 => ⟨S1x64, .i1⟩
  | 80 => ⟨S64x64, .i1⟩
  | 81 => ⟨S64x64, .i1⟩
  | 82 => ⟨S64x64, .i1⟩
  | 83 => ⟨S64x64, .f32⟩
  | 84 => ⟨S1, .f32⟩
  | 85 => ⟨S_, .f32⟩
  | 86 => ⟨S_, .i32⟩
  | 87 => ⟨S64, .i32⟩
  | 88 => ⟨S64, .i32⟩
  | 89 => ⟨S64x1, .i32⟩
  | 90 => ⟨S64x1, .f32⟩
  | 91 => ⟨S64x1, .f32⟩
  | 92 => ⟨S64x1, .f32⟩
  | 93 => ⟨S1, .f32⟩
  | 94 => ⟨S_, .f32⟩
  | 95 => ⟨S_, .i32⟩
  | 96 => ⟨S64, .i32⟩
  | 97 => ⟨S64, .i32⟩
  | 98 => ⟨S1x64, .i32⟩
  | 99 => ⟨S1x64, .f32⟩
  | 100 => ⟨S1x64, .f32⟩
  | 101 => ⟨S1x64, .f32⟩
  | 102 => ⟨S64x64, .f32⟩
  | 103 => ⟨S64x64, .f32⟩
  | 104 => ⟨S64x64, .f32⟩
  | 105 => ⟨S16x64x64x256, .f32⟩
  | 106 => ⟨S16x64x64x256, .f32⟩
  | 107 => ⟨S1x64x64x1, .f32⟩
  | 108 => ⟨S16x64x64x256, .f32⟩
  | 109 => ⟨S16x64x64x256, .f32⟩
  | 110 => ⟨S16x64x64x256, .f32⟩
  | 111 => ⟨S1x64x64x1, .f32⟩
  | 112 => ⟨S16x64x64x256, .f32⟩
  | 113 => ⟨S16x64x64x256, .f32⟩
  | 114 => ⟨S16x64x64x256, .f32⟩
  | 115 => ⟨S16x64x64x256, .f32⟩
  | 116 => ⟨S_, .f32⟩
  | 117 => ⟨S16x64x64, .f32⟩
  | 118 => ⟨S16x64x64x1, .f32⟩
  | 119 => ⟨S16x64x64x1, .f32⟩
  | 120 => ⟨S_, .i32⟩
  | 121 => ⟨S64, .i32⟩
  | 122 => ⟨S64, .i32⟩
  | 123 => ⟨S_, .i32⟩
  | 124 => ⟨S64, .i32⟩
  | 125 => ⟨S64, .i1⟩
  | 126 => ⟨S_, .i32⟩
  | 127 => ⟨S64, .i32⟩
  | _ => ⟨S16x64x64x256, .f32⟩

abbrev hbmTy0_3 (i : Nat) : BufTy := match i % 128 with
  | 0 => ⟨S64, .i32⟩
  | 1 => ⟨S_, .i32⟩
  | 2 => ⟨S64, .i32⟩
  | 3 => ⟨S64, .i1⟩
  | 4 => ⟨S64, .i1⟩
  | 5 => ⟨S64x1, .i1⟩
  | 6 => ⟨S1x64, .i1⟩
  | 7 => ⟨S64x64, .i1⟩
  | 8 => ⟨S64x64, .i1⟩
  | 9 => ⟨S64x64, .i1⟩
  | 10 => ⟨S64x64, .f32⟩
  | 11 => ⟨S1, .f32⟩
  | 12 => ⟨S_, .f32⟩
  | 13 => ⟨S_, .i32⟩
  | 14 => ⟨S64, .i32⟩
  | 15 => ⟨S64, .i32⟩
  | 16 => ⟨S64x1, .i32⟩
  | 17 => ⟨S64x1, .f32⟩
  | 18 => ⟨S64x1, .f32⟩
  | 19 => ⟨S64x1, .f32⟩
  | 20 => ⟨S1, .f32⟩
  | 21 => ⟨S_, .f32⟩
  | 22 => ⟨S_, .i32⟩
  | 23 => ⟨S64, .i32⟩
  | 24 => ⟨S64, .i32⟩
  | 25 => ⟨S1x64, .i32⟩
  | 26 => ⟨S1x64, .f32⟩
  | 27 => ⟨S1x64, .f32⟩
  | 28 => ⟨S1x64, .f32⟩
  | 29 => ⟨S64x64, .f32⟩
  | 30 => ⟨S64x64, .f32⟩
  | 31 => ⟨S64x64, .f32⟩
  | 32 => ⟨S16x64x64x256, .f32⟩
  | 33 => ⟨S16x64x64x256, .f32⟩
  | 34 => ⟨S1x64x64x1, .f32⟩
  | 35 => ⟨S16x64x64x256, .f32⟩
  | 36 => ⟨S16x64x64x256, .f32⟩
  | 37 => ⟨S16x64x64x256, .f32⟩
  | 38 => ⟨S1x64x64x1, .f32⟩
  | 39 => ⟨S16x64x64x256, .f32⟩
  | 40 => ⟨S16x64x64x256, .f32⟩
  | 41 => ⟨S16x64x64x256, .f32⟩
  | 42 => ⟨S16x64x64x256, .f32⟩
  | 43 => ⟨S_, .f32⟩
  | 44 => ⟨S16x64x64, .f32⟩
  | 45 => ⟨S16x64x64x1, .f32⟩
  | 46 => ⟨S16x64x64x1, .f32⟩
  | 47 => ⟨S_, .i32⟩
  | 48 => ⟨S64, .i32⟩
  | 49 => ⟨S64, .i32⟩
  | 50 => ⟨S_, .i32⟩
  | 51 => ⟨S64, .i32⟩
  | 52 => ⟨S64, .i1⟩
  | 53 => ⟨S_, .i32⟩
  | 54 => ⟨S64, .i32⟩
  | 55 => ⟨S64, .i32⟩
  | 56 => ⟨S_, .i32⟩
  | 57 => ⟨S64, .i32⟩
  | 58 => ⟨S64, .i1⟩
  | 59 => ⟨S64, .i1⟩
  | 60 => ⟨S64x1, .i1⟩
  | 61 => ⟨S1x64, .i1⟩
  | 62 => ⟨S64x64, .i1⟩
  | 63 => ⟨S64x64, .i1⟩
  | 64 => ⟨S64x64, .i1⟩
  | 65 => ⟨S64x64, .f32⟩
  | 66 => ⟨S1, .f32⟩
  | 67 => ⟨S_, .f32⟩
  | 68 => ⟨S_, .i32⟩
  | 69 => ⟨S64, .i32⟩
  | 70 => ⟨S64, .i32⟩
  | 71 => ⟨S64x1, .i32⟩
  | 72 => ⟨S64x1, .f32⟩
  | 73 => ⟨S64x1, .f32⟩
  | 74 => ⟨S64x1, .f32⟩
  | 75 => ⟨S1, .f32⟩
  | 76 => ⟨S_, .f32⟩
  | 77 => ⟨S_, .i32⟩
  | 78 => ⟨S64, .i32⟩
  | 79 => ⟨S64, .i32⟩
  | 80 => ⟨S1x64, .i32⟩
  | 81 => ⟨S1x64, .f32⟩
  | 82 => ⟨S1x64, .f32⟩
  | 83 => ⟨S1x64, .f32⟩
  | 84 => ⟨S64x64, .f32⟩
  | 85 => ⟨S64x64, .f32⟩
  | 86 => ⟨S64x64, .f32⟩
  | 87 => ⟨S16x64x64x256, .f32⟩
  | 88 => ⟨S16x64x64x256, .f32⟩
  | 89 => ⟨S1x64x64x1, .f32⟩
  | 90 => ⟨S16x64x64x256, .f32⟩
  | 91 => ⟨S16x64x64x256, .f32⟩
  | 92 => ⟨S16x64x64x256, .f32⟩
  | 93 => ⟨S1x64x64x1, .f32⟩
  | 94 => ⟨S16x64x64x256, .f32⟩
  | 95 => ⟨S16x64x64x256, .f32⟩
  | 96 => ⟨S16x64x64x256, .f32⟩
  | 97 => ⟨S16x64x64x256, .f32⟩
  | 98 => ⟨S_, .f32⟩
  | 99 => ⟨S16x64x64, .f32⟩
  | 100 => ⟨S16x64x64x1, .f32⟩
  | 101 => ⟨S16x64x64x1, .f32⟩
  | 102 => ⟨S_, .i32⟩
  | 103 => ⟨S64, .i32⟩
  | 104 => ⟨S64, .i32⟩
  | 105 => ⟨S_, .i32⟩
  | 106 => ⟨S64, .i32⟩
  | 107 => ⟨S64, .i1⟩
  | 108 => ⟨S_, .i32⟩
  | 109 => ⟨S64, .i32⟩
  | 110 => ⟨S64, .i32⟩
  | 111 => ⟨S_, .i32⟩
  | 112 => ⟨S64, .i32⟩
  | 113 => ⟨S64, .i1⟩
  | 114 => ⟨S64, .i1⟩
  | 115 => ⟨S64x1, .i1⟩
  | 116 => ⟨S1x64, .i1⟩
  | 117 => ⟨S64x64, .i1⟩
  | 118 => ⟨S64x64, .i1⟩
  | 119 => ⟨S64x64, .i1⟩
  | 120 => ⟨S64x64, .f32⟩
  | 121 => ⟨S1, .f32⟩
  | 122 => ⟨S_, .f32⟩
  | 123 => ⟨S_, .i32⟩
  | 124 => ⟨S64, .i32⟩
  | 125 => ⟨S64, .i32⟩
  | 126 => ⟨S64x1, .i32⟩
  | 127 => ⟨S64x1, .f32⟩
  | _ => ⟨S16x64x64x256, .f32⟩

abbrev hbmTy0_4 (i : Nat) : BufTy := match i % 128 with
  | 0 => ⟨S64x1, .f32⟩
  | 1 => ⟨S64x1, .f32⟩
  | 2 => ⟨S1, .f32⟩
  | 3 => ⟨S_, .f32⟩
  | 4 => ⟨S_, .i32⟩
  | 5 => ⟨S64, .i32⟩
  | 6 => ⟨S64, .i32⟩
  | 7 => ⟨S1x64, .i32⟩
  | 8 => ⟨S1x64, .f32⟩
  | 9 => ⟨S1x64, .f32⟩
  | 10 => ⟨S1x64, .f32⟩
  | 11 => ⟨S64x64, .f32⟩
  | 12 => ⟨S64x64, .f32⟩
  | 13 => ⟨S64x64, .f32⟩
  | 14 => ⟨S16x64x64x256, .f32⟩
  | 15 => ⟨S16x64x64x256, .f32⟩
  | 16 => ⟨S1x64x64x1, .f32⟩
  | 17 => ⟨S16x64x64x256, .f32⟩
  | 18 => ⟨S16x64x64x256, .f32⟩
  | 19 => ⟨S16x64x64x256, .f32⟩
  | 20 => ⟨S1x64x64x1, .f32⟩
  | 21 => ⟨S16x64x64x256, .f32⟩
  | 22 => ⟨S16x64x64x256, .f32⟩
  | 23 => ⟨S16x64x64x256, .f32⟩
  | 24 => ⟨S16x64x64x256, .f32⟩
  | 25 => ⟨S_, .f32⟩
  | 26 => ⟨S16x64x64, .f32⟩
  | 27 => ⟨S16x64x64x1, .f32⟩
  | 28 => ⟨S16x64x64x1, .f32⟩
  | 29 => ⟨S_, .i32⟩
  | 30 => ⟨S64, .i32⟩
  | 31 => ⟨S64, .i32⟩
  | 32 => ⟨S_, .i32⟩
  | 33 => ⟨S64, .i32⟩
  | 34 => ⟨S64, .i1⟩
  | 35 => ⟨S_, .i32⟩
  | 36 => ⟨S64, .i32⟩
  | 37 => ⟨S64, .i32⟩
  | 38 => ⟨S_, .i32⟩
  | 39 => ⟨S64, .i32⟩
  | 40 => ⟨S64, .i1⟩
  | 41 => ⟨S64, .i1⟩
  | 42 => ⟨S64x1, .i1⟩
  | 43 => ⟨S1x64, .i1⟩
  | 44 => ⟨S64x64, .i1⟩
  | 45 => ⟨S64x64, .i1⟩
  | 46 => ⟨S64x64, .i1⟩
  | 47 => ⟨S64x64, .f32⟩
  | 48 => ⟨S1, .f32⟩
  | 49 => ⟨S_, .f32⟩
  | 50 => ⟨S_, .i32⟩
  | 51 => ⟨S64, .i32⟩
  | 52 => ⟨S64, .i32⟩
  | 53 => ⟨S64x1, .i32⟩
  | 54 => ⟨S64x1, .f32⟩
  | 55 => ⟨S64x1, .f32⟩
  | 56 => ⟨S64x1, .f32⟩
  | 57 => ⟨S1, .f32⟩
  | 58 => ⟨S_, .f32⟩
  | 59 => ⟨S_, .i32⟩
  | 60 => ⟨S64, .i32⟩
  | 61 => ⟨S64, .i32⟩
  | 62 => ⟨S1x64, .i32⟩
  | 63 => ⟨S1x64, .f32⟩
  | 64 => ⟨S1x64, .f32⟩
  | 65 => ⟨S1x64, .f32⟩
  | 66 => ⟨S64x64, .f32⟩
  | 67 => ⟨S64x64, .f32⟩
  | 68 => ⟨S64x64, .f32⟩
  | 69 => ⟨S16x64x64x256, .f32⟩
  | 70 => ⟨S16x64x64x256, .f32⟩
  | 71 => ⟨S1x64x64x1, .f32⟩
  | 72 => ⟨S16x64x64x256, .f32⟩
  | 73 => ⟨S16x64x64x256, .f32⟩
  | 74 => ⟨S16x64x64x256, .f32⟩
  | 75 => ⟨S1x64x64x1, .f32⟩
  | 76 => ⟨S16x64x64x256, .f32⟩
  | 77 => ⟨S16x64x64x256, .f32⟩
  | 78 => ⟨S16x64x64x256, .f32⟩
  | 79 => ⟨S16x64x64x256, .f32⟩
  | 80 => ⟨S_, .f32⟩
  | 81 => ⟨S16x64x64, .f32⟩
  | 82 => ⟨S16x64x64x1, .f32⟩
  | 83 => ⟨S16x64x64x1, .f32⟩
  | 84 => ⟨S_, .i32⟩
  | 85 => ⟨S64, .i32⟩
  | 86 => ⟨S64, .i32⟩
  | 87 => ⟨S_, .i32⟩
  | 88 => ⟨S64, .i32⟩
  | 89 => ⟨S64, .i1⟩
  | 90 => ⟨S_, .i32⟩
  | 91 => ⟨S64, .i32⟩
  | 92 => ⟨S64, .i32⟩
  | 93 => ⟨S_, .i32⟩
  | 94 => ⟨S64, .i32⟩
  | 95 => ⟨S64, .i1⟩
  | 96 => ⟨S64, .i1⟩
  | 97 => ⟨S_, .i32⟩
  | 98 => ⟨S64, .i32⟩
  | 99 => ⟨S64, .i32⟩
  | 100 => ⟨S_, .i32⟩
  | 101 => ⟨S64, .i32⟩
  | 102 => ⟨S64, .i1⟩
  | 103 => ⟨S_, .i32⟩
  | 104 => ⟨S64, .i32⟩
  | 105 => ⟨S64, .i32⟩
  | 106 => ⟨S_, .i32⟩
  | 107 => ⟨S64, .i32⟩
  | 108 => ⟨S64, .i1⟩
  | 109 => ⟨S64, .i1⟩
  | 110 => ⟨S64x1, .i1⟩
  | 111 => ⟨S1x64, .i1⟩
  | 112 => ⟨S64x64, .i1⟩
  | 113 => ⟨S64x64, .i1⟩
  | 114 => ⟨S64x64, .i1⟩
  | 115 => ⟨S64x64, .f32⟩
  | 116 => ⟨S1, .f32⟩
  | 117 => ⟨S_, .f32⟩
  | 118 => ⟨S_, .i32⟩
  | 119 => ⟨S64, .i32⟩
  | 120 => ⟨S64, .i32⟩
  | 121 => ⟨S64x1, .i32⟩
  | 122 => ⟨S64x1, .f32⟩
  | 123 => ⟨S64x1, .f32⟩
  | 124 => ⟨S64x1, .f32⟩
  | 125 => ⟨S1, .f32⟩
  | 126 => ⟨S_, .f32⟩
  | 127 => ⟨S_, .i32⟩
  | _ => ⟨S16x64x64x256, .f32⟩

abbrev hbmTy0_5 (i : Nat) : BufTy := match i % 128 with
  | 0 => ⟨S64, .i32⟩
  | 1 => ⟨S64, .i32⟩
  | 2 => ⟨S1x64, .i32⟩
  | 3 => ⟨S1x64, .f32⟩
  | 4 => ⟨S1x64, .f32⟩
  | 5 => ⟨S1x64, .f32⟩
  | 6 => ⟨S64x64, .f32⟩
  | 7 => ⟨S64x64, .f32⟩
  | 8 => ⟨S64x64, .f32⟩
  | 9 => ⟨S16x64x64x256, .f32⟩
  | 10 => ⟨S16x64x64x256, .f32⟩
  | 11 => ⟨S1x64x64x1, .f32⟩
  | 12 => ⟨S16x64x64x256, .f32⟩
  | 13 => ⟨S16x64x64x256, .f32⟩
  | 14 => ⟨S16x64x64x256, .f32⟩
  | 15 => ⟨S1x64x64x1, .f32⟩
  | 16 => ⟨S16x64x64x256, .f32⟩
  | 17 => ⟨S16x64x64x256, .f32⟩
  | 18 => ⟨S16x64x64x256, .f32⟩
  | 19 => ⟨S16x64x64x256, .f32⟩
  | 20 => ⟨S_, .f32⟩
  | 21 => ⟨S16x64x64, .f32⟩
  | 22 => ⟨S16x64x64x1, .f32⟩
  | 23 => ⟨S16x64x64x1, .f32⟩
  | 24 => ⟨S_, .i32⟩
  | 25 => ⟨S64, .i32⟩
  | 26 => ⟨S64, .i32⟩
  | 27 => ⟨S_, .i32⟩
  | 28 => ⟨S64, .i32⟩
  | 29 => ⟨S64, .i1⟩
  | 30 => ⟨S_, .i32⟩
  | 31 => ⟨S64, .i32⟩
  | 32 => ⟨S64, .i32⟩
  | 33 => ⟨S_, .i32⟩
  | 34 => ⟨S64, .i32⟩
  | 35 => ⟨S64, .i1⟩
  | 36 => ⟨S64, .i1⟩
  | 37 => ⟨S64x1, .i1⟩
  | 38 => ⟨S1x64, .i1⟩
  | 39 => ⟨S64x64, .i1⟩
  | 40 => ⟨S64x64, .i1⟩
  | 41 => ⟨S64x64, .i1⟩
  | 42 => ⟨S64x64, .f32⟩
  | 43 => ⟨S1, .f32⟩
  | 44 => ⟨S_, .f32⟩
  | 45 => ⟨S_, .i32⟩
  | 46 => ⟨S64, .i32⟩
  | 47 => ⟨S64, .i32⟩
  | 48 => ⟨S64x1, .i32⟩
  | 49 => ⟨S64x1, .f32⟩
  | 50 => ⟨S64x1, .f32⟩
  | 51 => ⟨S64x1, .f32⟩
  | 52 => ⟨S1, .f32⟩
  | 53 => ⟨S_, .f32⟩
  | 54 => ⟨S_, .i32⟩
  | 55 => ⟨S64, .i32⟩
  | 56 => ⟨S64, .i32⟩
  | 57 => ⟨S1x64, .i32⟩
  | 58 => ⟨S1x64, .f32⟩
  | 59 => ⟨S1x64, .f32⟩
  | 60 => ⟨S1x64, .f32⟩
  | 61 => ⟨S64x64, .f32⟩
  | 62 => ⟨S64x64, .f32⟩
  | 63 => ⟨S64x64, .f32⟩
  | 64 => ⟨S16x64x64x256, .f32⟩
  | 65 => ⟨S16x64x64x256, .f32⟩
  | 66 => ⟨S1x64x64x1, .f32⟩
  | 67 => ⟨S16x64x64x256, .f32⟩
  | 68 => ⟨S16x64x64x256, .f32⟩
  | 69 => ⟨S16x64x64x256, .f32⟩
  | 70 => ⟨S1x64x64x1, .f32⟩
  | 71 => ⟨S16x64x64x256, .f32⟩
  | 72 => ⟨S16x64x64x256, .f32⟩
  | 73 => ⟨S16x64x64x256, .f32⟩
  | 74 => ⟨S16x64x64x256, .f32⟩
  | 75 => ⟨S_, .f32⟩
  | 76 => ⟨S16x64x64, .f32⟩
  | 77 => ⟨S16x64x64x1, .f32⟩
  | 78 => ⟨S16x64x64x1, .f32⟩
  | 79 => ⟨S_, .i32⟩
  | 80 => ⟨S64, .i32⟩
  | 81 => ⟨S64, .i32⟩
  | 82 => ⟨S_, .i32⟩
  | 83 => ⟨S64, .i32⟩
  | 84 => ⟨S64, .i1⟩
  | 85 => ⟨S_, .i32⟩
  | 86 => ⟨S64, .i32⟩
  | 87 => ⟨S64, .i32⟩
  | 88 => ⟨S_, .i32⟩
  | 89 => ⟨S64, .i32⟩
  | 90 => ⟨S64, .i1⟩
  | 91 => ⟨S64, .i1⟩
  | 92 => ⟨S64x1, .i1⟩
  | 93 => ⟨S1x64, .i1⟩
  | 94 => ⟨S64x64, .i1⟩
  | 95 => ⟨S64x64, .i1⟩
  | 96 => ⟨S64x64, .i1⟩
  | 97 => ⟨S64x64, .f32⟩
  | 98 => ⟨S1, .f32⟩
  | 99 => ⟨S_, .f32⟩
  | 100 => ⟨S_, .i32⟩
  | 101 => ⟨S64, .i32⟩
  | 102 => ⟨S64, .i32⟩
  | 103 => ⟨S64x1, .i32⟩
  | 104 => ⟨S64x1, .f32⟩
  | 105 => ⟨S64x1, .f32⟩
  | 106 => ⟨S64x1, .f32⟩
  | 107 => ⟨S1, .f32⟩
  | 108 => ⟨S_, .f32⟩
  | 109 => ⟨S_, .i32⟩
  | 110 => ⟨S64, .i32⟩
  | 111 => ⟨S64, .i32⟩
  | 112 => ⟨S1x64, .i32⟩
  | 113 => ⟨S1x64, .f32⟩
  | 114 => ⟨S1x64, .f32⟩
  | 115 => ⟨S1x64, .f32⟩
  | 116 => ⟨S64x64, .f32⟩
  | 117 => ⟨S64x64, .f32⟩
  | 118 => ⟨S64x64, .f32⟩
  | 119 => ⟨S16x64x64x256, .f32⟩
  | 120 => ⟨S16x64x64x256, .f32⟩
  | 121 => ⟨S1x64x64x1, .f32⟩
  | 122 => ⟨S16x64x64x256, .f32⟩
  | 123 => ⟨S16x64x64x256, .f32⟩
  | 124 => ⟨S16x64x64x256, .f32⟩
  | 125 => ⟨S1x64x64x1, .f32⟩
  | 126 => ⟨S16x64x64x256, .f32⟩
  | 127 => ⟨S16x64x64x256, .f32⟩
  | _ => ⟨S16x64x64x256, .f32⟩

abbrev hbmTy0_6 (i : Nat) : BufTy := match i % 128 with
  | 0 => ⟨S16x64x64x256, .f32⟩
  | 1 => ⟨S16x64x64x256, .f32⟩
  | 2 => ⟨S_, .f32⟩
  | 3 => ⟨S16x64x64, .f32⟩
  | 4 => ⟨S16x64x64x1, .f32⟩
  | 5 => ⟨S16x64x64x1, .f32⟩
  | 6 => ⟨S_, .i32⟩
  | 7 => ⟨S64, .i32⟩
  | 8 => ⟨S64, .i32⟩
  | 9 => ⟨S_, .i32⟩
  | 10 => ⟨S64, .i32⟩
  | 11 => ⟨S64, .i1⟩
  | 12 => ⟨S_, .i32⟩
  | 13 => ⟨S64, .i32⟩
  | 14 => ⟨S64, .i32⟩
  | 15 => ⟨S_, .i32⟩
  | 16 => ⟨S64, .i32⟩
  | 17 => ⟨S64, .i1⟩
  | 18 => ⟨S64, .i1⟩
  | 19 => ⟨S64x1, .i1⟩
  | 20 => ⟨S1x64, .i1⟩
  | 21 => ⟨S64x64, .i1⟩
  | 22 => ⟨S64x64, .i1⟩
  | 23 => ⟨S64x64, .i1⟩
  | 24 => ⟨S64x64, .f32⟩
  | 25 => ⟨S1, .f32⟩
  | 26 => ⟨S_, .f32⟩
  | 27 => ⟨S_, .i32⟩
  | 28 => ⟨S64, .i32⟩
  | 29 => ⟨S64, .i32⟩
  | 30 => ⟨S64x1, .i32⟩
  | 31 => ⟨S64x1, .f32⟩
  | 32 => ⟨S64x1, .f32⟩
  | 33 => ⟨S64x1, .f32⟩
  | 34 => ⟨S1, .f32⟩
  | 35 => ⟨S_, .f32⟩
  | 36 => ⟨S_, .i32⟩
  | 37 => ⟨S64, .i32⟩
  | 38 => ⟨S64, .i32⟩
  | 39 => ⟨S1x64, .i32⟩
  | 40 => ⟨S1x64, .f32⟩
  | 41 => ⟨S1x64, .f32⟩
  | 42 => ⟨S1x64, .f32⟩
  | 43 => ⟨S64x64, .f32⟩
  | 44 => ⟨S64x64, .f32⟩
  | 45 => ⟨S64x64, .f32⟩
  | 46 => ⟨S16x64x64x256, .f32⟩
  | 47 => ⟨S16x64x64x256, .f32⟩
  | 48 => ⟨S1x64x64x1, .f32⟩
  | 49 => ⟨S16x64x64x256, .f32⟩
  | 50 => ⟨S16x64x64x256, .f32⟩
  | 51 => ⟨S16x64x64x256, .f32⟩
  | 52 => ⟨S1x64x64x1, .f32⟩
  | 53 => ⟨S16x64x64x256, .f32⟩
  | 54 => ⟨S16x64x64x256, .f32⟩
  | 55 => ⟨S16x64x64x256, .f32⟩
  | 56 => ⟨S16x64x64x256, .f32⟩
  | 57 => ⟨S_, .f32⟩
  | 58 => ⟨S16x64x64, .f32⟩
  | 59 => ⟨S16x64x64x1, .f32⟩
  | 60 => ⟨S16x64x64x1, .f32⟩
  | 61 => ⟨S_, .i32⟩
  | 62 => ⟨S64, .i32⟩
  | 63 => ⟨S64, .i32⟩
  | 64 => ⟨S_, .i32⟩
  | 65 => ⟨S64, .i32⟩
  | 66 => ⟨S64, .i1⟩
  | 67 => ⟨S_, .i32⟩
  | 68 => ⟨S64, .i32⟩
  | 69 => ⟨S64, .i32⟩
  | 70 => ⟨S_, .i32⟩
  | 71 => ⟨S64, .i32⟩
  | 72 => ⟨S64, .i1⟩
  | 73 => ⟨S64, .i1⟩
  | 74 => ⟨S64x1, .i1⟩
  | 75 => ⟨S1x64, .i1⟩
  | 76 => ⟨S64x64, .i1⟩
  | 77 => ⟨S64x64, .i1⟩
  | 78 => ⟨S64x64, .i1⟩
  | 79 => ⟨S64x64, .f32⟩
  | 80 => ⟨S1, .f32⟩
  | 81 => ⟨S_, .f32⟩
  | 82 => ⟨S_, .i32⟩
  | 83 => ⟨S64, .i32⟩
  | 84 => ⟨S64, .i32⟩
  | 85 => ⟨S64x1, .i32⟩
  | 86 => ⟨S64x1, .f32⟩
  | 87 => ⟨S64x1, .f32⟩
  | 88 => ⟨S64x1, .f32⟩
  | 89 => ⟨S1, .f32⟩
  | 90 => ⟨S_, .f32⟩
  | 91 => ⟨S_, .i32⟩
  | 92 => ⟨S64, .i32⟩
  | 93 => ⟨S64, .i32⟩
  | 94 => ⟨S1x64, .i32⟩
  | 95 => ⟨S1x64, .f32⟩
  | 96 => ⟨S1x64, .f32⟩
  | 97 => ⟨S1x64, .f32⟩
  | 98 => ⟨S64x64, .f32⟩
  | 99 => ⟨S64x64, .f32⟩
  | 100 => ⟨S64x64, .f32⟩
  | 101 => ⟨S16x64x64x256, .f32⟩
  | 102 => ⟨S16x64x64x256, .f32⟩
  | 103 => ⟨S1x64x64x1, .f32⟩
  | 104 => ⟨S16x64x64x256, .f32⟩
  | 105 => ⟨S16x64x64x256, .f32⟩
  | 106 => ⟨S16x64x64x256, .f32⟩
  | 107 => ⟨S1x64x64x1, .f32⟩
  | 108 => ⟨S16x64x64x256, .f32⟩
  | 109 => ⟨S16x64x64x256, .f32⟩
  | 110 => ⟨S16x64x64x256, .f32⟩
  | 111 => ⟨S16x64x64x256, .f32⟩
  | 112 => ⟨S_, .f32⟩
  | 113 => ⟨S16x64x64, .f32⟩
  | 114 => ⟨S16x64x64x1, .f32⟩
  | 115 => ⟨S16x64x64x1, .f32⟩
  | 116 => ⟨S_, .i32⟩
  | 117 => ⟨S64, .i32⟩
  | 118 => ⟨S64, .i32⟩
  | 119 => ⟨S_, .i32⟩
  | 120 => ⟨S64, .i32⟩
  | 121 => ⟨S64, .i1⟩
  | 122 => ⟨S_, .i32⟩
  | 123 => ⟨S64, .i32⟩
  | 124 => ⟨S64, .i32⟩
  | 125 => ⟨S_, .i32⟩
  | 126 => ⟨S64, .i32⟩
  | 127 => ⟨S64, .i1⟩
  | _ => ⟨S16x64x64x256, .f32⟩

abbrev hbmTy0_7 (i : Nat) : BufTy := match i % 128 with
  | 0 => ⟨S64, .i1⟩
  | 1 => ⟨S_, .i32⟩
  | 2 => ⟨S64, .i32⟩
  | 3 => ⟨S64, .i32⟩
  | 4 => ⟨S_, .i32⟩
  | 5 => ⟨S64, .i32⟩
  | 6 => ⟨S64, .i1⟩
  | 7 => ⟨S_, .i32⟩
  | 8 => ⟨S64, .i32⟩
  | 9 => ⟨S64, .i32⟩
  | 10 => ⟨S_, .i32⟩
  | 11 => ⟨S64, .i32⟩
  | 12 => ⟨S64, .i1⟩
  | 13 => ⟨S64, .i1⟩
  | 14 => ⟨S64x1, .i1⟩
  | 15 => ⟨S1x64, .i1⟩
  | 16 => ⟨S64x64, .i1⟩
  | 17 => ⟨S64x64, .i1⟩
  | 18 => ⟨S64x64, .i1⟩
  | 19 => ⟨S64x64, .f32⟩
  | 20 => ⟨S1, .f32⟩
  | 21 => ⟨S_, .f32⟩
  | 22 => ⟨S_, .i32⟩
  | 23 => ⟨S64, .i32⟩
  | 24 => ⟨S64, .i32⟩
  | 25 => ⟨S64x1, .i32⟩
  | 26 => ⟨S64x1, .f32⟩
  | 27 => ⟨S64x1, .f32⟩
  | 28 => ⟨S64x1, .f32⟩
  | 29 => ⟨S1, .f32⟩
  | 30 => ⟨S_, .f32⟩
  | 31 => ⟨S_, .i32⟩
  | 32 => ⟨S64, .i32⟩
  | 33 => ⟨S64, .i32⟩
  | 34 => ⟨S1x64, .i32⟩
  | 35 => ⟨S1x64, .f32⟩
  | 36 => ⟨S1x64, .f32⟩
  | 37 => ⟨S1x64, .f32⟩
  | 38 => ⟨S64x64, .f32⟩
  | 39 => ⟨S64x64, .f32⟩
  | 40 => ⟨S64x64, .f32⟩
  | 41 => ⟨S16x64x64x256, .f32⟩
  | 42 => ⟨S16x64x64x256, .f32⟩
  | 43 => ⟨S1x64x64x1, .f32⟩
  | 44 => ⟨S16x64x64x256, .f32⟩
  | 45 => ⟨S16x64x64x256, .f32⟩
  | 46 => ⟨S16x64x64x256, .f32⟩
  | 47 => ⟨S1x64x64x1, .f32⟩
  | 48 => ⟨S16x64x64x256, .f32⟩
  | 49 => ⟨S16x64x64x256, .f32⟩
  | 50 => ⟨S16x64x64x256, .f32⟩
  | 51 => ⟨S16x64x64x256, .f32⟩
  | 52 => ⟨S_, .f32⟩
  | 53 => ⟨S16x64x64, .f32⟩
  | 54 => ⟨S16x64x64x1, .f32⟩
  | 55 => ⟨S16x64x64x1, .f32⟩
  | 56 => ⟨S_, .i32⟩
  | 57 => ⟨S64, .i32⟩
  | 58 => ⟨S64, .i32⟩
  | 59 => ⟨S_, .i32⟩
  | 60 => ⟨S64, .i32⟩
  | 61 => ⟨S64, .i1⟩
  | 62 => ⟨S_, .i32⟩
  | 63 => ⟨S64, .i32⟩
  | 64 => ⟨S64, .i32⟩
  | 65 => ⟨S_, .i32⟩
  | 66 => ⟨S64, .i32⟩
  | 67 => ⟨S64, .i1⟩
  | 68 => ⟨S64, .i1⟩
  | 69 => ⟨S64x1, .i1⟩
  | 70 => ⟨S1x64, .i1⟩
  | 71 => ⟨S64x64, .i1⟩
  | 72 => ⟨S64x64, .i1⟩
  | 73 => ⟨S64x64, .i1⟩
  | 74 => ⟨S64x64, .f32⟩
  | 75 => ⟨S1, .f32⟩
  | 76 => ⟨S_, .f32⟩
  | 77 => ⟨S_, .i32⟩
  | 78 => ⟨S64, .i32⟩
  | 79 => ⟨S64, .i32⟩
  | 80 => ⟨S64x1, .i32⟩
  | 81 => ⟨S64x1, .f32⟩
  | 82 => ⟨S64x1, .f32⟩
  | 83 => ⟨S64x1, .f32⟩
  | 84 => ⟨S1, .f32⟩
  | 85 => ⟨S_, .f32⟩
  | 86 => ⟨S_, .i32⟩
  | 87 => ⟨S64, .i32⟩
  | 88 => ⟨S64, .i32⟩
  | 89 => ⟨S1x64, .i32⟩
  | 90 => ⟨S1x64, .f32⟩
  | 91 => ⟨S1x64, .f32⟩
  | 92 => ⟨S1x64, .f32⟩
  | 93 => ⟨S64x64, .f32⟩
  | 94 => ⟨S64x64, .f32⟩
  | 95 => ⟨S64x64, .f32⟩
  | 96 => ⟨S16x64x64x256, .f32⟩
  | 97 => ⟨S16x64x64x256, .f32⟩
  | 98 => ⟨S1x64x64x1, .f32⟩
  | 99 => ⟨S16x64x64x256, .f32⟩
  | 100 => ⟨S16x64x64x256, .f32⟩
  | 101 => ⟨S16x64x64x256, .f32⟩
  | 102 => ⟨S1x64x64x1, .f32⟩
  | 103 => ⟨S16x64x64x256, .f32⟩
  | 104 => ⟨S16x64x64x256, .f32⟩
  | 105 => ⟨S16x64x64x256, .f32⟩
  | 106 => ⟨S16x64x64x256, .f32⟩
  | 107 => ⟨S_, .f32⟩
  | 108 => ⟨S16x64x64, .f32⟩
  | 109 => ⟨S16x64x64x1, .f32⟩
  | 110 => ⟨S16x64x64x1, .f32⟩
  | 111 => ⟨S_, .i32⟩
  | 112 => ⟨S64, .i32⟩
  | 113 => ⟨S64, .i32⟩
  | 114 => ⟨S_, .i32⟩
  | 115 => ⟨S64, .i32⟩
  | 116 => ⟨S64, .i1⟩
  | 117 => ⟨S_, .i32⟩
  | 118 => ⟨S64, .i32⟩
  | 119 => ⟨S64, .i32⟩
  | 120 => ⟨S_, .i32⟩
  | 121 => ⟨S64, .i32⟩
  | 122 => ⟨S64, .i1⟩
  | 123 => ⟨S64, .i1⟩
  | 124 => ⟨S64x1, .i1⟩
  | 125 => ⟨S1x64, .i1⟩
  | 126 => ⟨S64x64, .i1⟩
  | 127 => ⟨S64x64, .i1⟩
  | _ => ⟨S16x64x64x256, .f32⟩

abbrev hbmTy0_8 (i : Nat) : BufTy := match i % 128 with
  | 0 => ⟨S64x64, .i1⟩
  | 1 => ⟨S64x64, .f32⟩
  | 2 => ⟨S1, .f32⟩
  | 3 => ⟨S_, .f32⟩
  | 4 => ⟨S_, .i32⟩
  | 5 => ⟨S64, .i32⟩
  | 6 => ⟨S64, .i32⟩
  | 7 => ⟨S64x1, .i32⟩
  | 8 => ⟨S64x1, .f32⟩
  | 9 => ⟨S64x1, .f32⟩
  | 10 => ⟨S64x1, .f32⟩
  | 11 => ⟨S1, .f32⟩
  | 12 => ⟨S_, .f32⟩
  | 13 => ⟨S_, .i32⟩
  | 14 => ⟨S64, .i32⟩
  | 15 => ⟨S64, .i32⟩
  | 16 => ⟨S1x64, .i32⟩
  | 17 => ⟨S1x64, .f32⟩
  | 18 => ⟨S1x64, .f32⟩
  | 19 => ⟨S1x64, .f32⟩
  | 20 => ⟨S64x64, .f32⟩
  | 21 => ⟨S64x64, .f32⟩
  | 22 => ⟨S64x64, .f32⟩
  | 23 => ⟨S16x64x64x256, .f32⟩
  | 24 => ⟨S16x64x64x256, .f32⟩
  | 25 => ⟨S1x64x64x1, .f32⟩
  | 26 => ⟨S16x64x64x256, .f32⟩
  | 27 => ⟨S16x64x64x256, .f32⟩
  | 28 => ⟨S16x64x64x256, .f32⟩
  | 29 => ⟨S1x64x64x1, .f32⟩
  | 30 => ⟨S16x64x64x256, .f32⟩
  | 31 => ⟨S16x64x64x256, .f32⟩
  | 32 => ⟨S16x64x64x256, .f32⟩
  | 33 => ⟨S16x64x64x256, .f32⟩
  | 34 => ⟨S_, .f32⟩
  | 35 => ⟨S16x64x64, .f32⟩
  | 36 => ⟨S16x64x64x1, .f32⟩
  | 37 => ⟨S16x64x64x1, .f32⟩
  | 38 => ⟨S_, .i32⟩
  | 39 => ⟨S64, .i32⟩
  | 40 => ⟨S64, .i32⟩
  | 41 => ⟨S_, .i32⟩
  | 42 => ⟨S64, .i32⟩
  | 43 => ⟨S64, .i1⟩
  | 44 => ⟨S_, .i32⟩
  | 45 => ⟨S64, .i32⟩
  | 46 => ⟨S64, .i32⟩
  | 47 => ⟨S_, .i32⟩
  | 48 => ⟨S64, .i32⟩
  | 49 => ⟨S64, .i1⟩
  | 50 => ⟨S64, .i1⟩
  | 51 => ⟨S64x1, .i1⟩
  | 52 => ⟨S1x64, .i1⟩
  | 53 => ⟨S64x64, .i1⟩
  | 54 => ⟨S64x64, .i1⟩
  | 55 => ⟨S64x64, .i1⟩
  | 56 => ⟨S64x64, .f32⟩
  | 57 => ⟨S1, .f32⟩
  | 58 => ⟨S_, .f32⟩
  | 59 => ⟨S_, .i32⟩
  | 60 => ⟨S64, .i32⟩
  | 61 => ⟨S64, .i32⟩
  | 62 => ⟨S64x1, .i32⟩
  | 63 => ⟨S64x1, .f32⟩
  | 64 => ⟨S64x1, .f32⟩
  | 65 => ⟨S64x1, .f32⟩
  | 66 => ⟨S1, .f32⟩
  | 67 => ⟨S_, .f32⟩
  | 68 => ⟨S_, .i32⟩
  | 69 => ⟨S64, .i32⟩
  | 70 => ⟨S64, .i32⟩
  | 71 => ⟨S1x64, .i32⟩
  | 72 => ⟨S1x64, .f32⟩
  | 73 => ⟨S1x64, .f32⟩
  | 74 => ⟨S1x64, .f32⟩
  | 75 => ⟨S64x64, .f32⟩
  | 76 => ⟨S64x64, .f32⟩
  | 77 => ⟨S64x64, .f32⟩
  | 78 => ⟨S16x64x64x256, .f32⟩
  | 79 => ⟨S16x64x64x256, .f32⟩
  | 80 => ⟨S1x64x64x1, .f32⟩
  | 81 => ⟨S16x64x64x256, .f32⟩
  | 82 => ⟨S16x64x64x256, .f32⟩
  | 83 => ⟨S16x64x64x256, .f32⟩
  | 84 => ⟨S1x64x64x1, .f32⟩
  | 85 => ⟨S16x64x64x256, .f32⟩
  | 86 => ⟨S16x64x64x256, .f32⟩
  | 87 => ⟨S16x64x64x256, .f32⟩
  | 88 => ⟨S16x64x64x256, .f32⟩
  | 89 => ⟨S_, .f32⟩
  | 90 => ⟨S16x64x64, .f32⟩
  | 91 => ⟨S16x64x64x1, .f32⟩
  | 92 => ⟨S16x64x64x1, .f32⟩
  | 93 => ⟨S_, .i32⟩
  | 94 => ⟨S64, .i32⟩
  | 95 => ⟨S64, .i32⟩
  | 96 => ⟨S_, .i32⟩
  | 97 => ⟨S64, .i32⟩
  | 98 => ⟨S64, .i1⟩
  | 99 => ⟨S_, .i32⟩
  | 100 => ⟨S64, .i32⟩
  | 101 => ⟨S64, .i32⟩
  | 102 => ⟨S_, .i32⟩
  | 103 => ⟨S64, .i32⟩
  | 104 => ⟨S64, .i1⟩
  | 105 => ⟨S64, .i1⟩
  | 106 => ⟨S64x1, .i1⟩
  | 107 => ⟨S1x64, .i1⟩
  | 108 => ⟨S64x64, .i1⟩
  | 109 => ⟨S64x64, .i1⟩
  | 110 => ⟨S64x64, .i1⟩
  | 111 => ⟨S64x64, .f32⟩
  | 112 => ⟨S1, .f32⟩
  | 113 => ⟨S_, .f32⟩
  | 114 => ⟨S_, .i32⟩
  | 115 => ⟨S64, .i32⟩
  | 116 => ⟨S64, .i32⟩
  | 117 => ⟨S64x1, .i32⟩
  | 118 => ⟨S64x1, .f32⟩
  | 119 => ⟨S64x1, .f32⟩
  | 120 => ⟨S64x1, .f32⟩
  | 121 => ⟨S1, .f32⟩
  | 122 => ⟨S_, .f32⟩
  | 123 => ⟨S_, .i32⟩
  | 124 => ⟨S64, .i32⟩
  | 125 => ⟨S64, .i32⟩
  | 126 => ⟨S1x64, .i32⟩
  | 127 => ⟨S1x64, .f32⟩
  | _ => ⟨S16x64x64x256, .f32⟩

abbrev hbmTy0_9 (i : Nat) : BufTy := match i % 128 with
  | 0 => ⟨S1x64, .f32⟩
  | 1 => ⟨S1x64, .f32⟩
  | 2 => ⟨S64x64, .f32⟩
  | 3 => ⟨S64x64, .f32⟩
  | 4 => ⟨S64x64, .f32⟩
  | 5 => ⟨S16x64x64x256, .f32⟩
  | 6 => ⟨S16x64x64x256, .f32⟩
  | 7 => ⟨S1x64x64x1, .f32⟩
  | 8 => ⟨S16x64x64x256, .f32⟩
  | 9 => ⟨S16x64x64x256, .f32⟩
  | 10 => ⟨S16x64x64x256, .f32⟩
  | 11 => ⟨S1x64x64x1, .f32⟩
  | 12 => ⟨S16x64x64x256, .f32⟩
  | 13 => ⟨S16x64x64x256, .f32⟩
  | 14 => ⟨S16x64x64x256, .f32⟩
  | 15 => ⟨S16x64x64x256, .f32⟩
  | 16 => ⟨S_, .f32⟩
  | 17 => ⟨S16x64x64, .f32⟩
  | 18 => ⟨S16x64x64x1, .f32⟩
  | 19 => ⟨S16x64x64x1, .f32⟩
  | 20 => ⟨S_, .i32⟩
  | 21 => ⟨S64, .i32⟩
  | 22 => ⟨S64, .i32⟩
  | 23 => ⟨S_, .i32⟩
  | 24 => ⟨S64, .i32⟩
  | 25 => ⟨S64, .i1⟩
  | 26 => ⟨S_, .i32⟩
  | 27 => ⟨S64, .i32⟩
  | 28 => ⟨S64, .i32⟩
  | 29 => ⟨S_, .i32⟩
  | 30 => ⟨S64, .i32⟩
  | 31 => ⟨S64, .i1⟩
  | 32 => ⟨S64, .i1⟩
  | 33 => ⟨S_, .i32⟩
  | 34 => ⟨S64, .i32⟩
  | 35 => ⟨S64, .i32⟩
  | 36 => ⟨S_, .i32⟩
  | 37 => ⟨S64, .i32⟩
  | 38 => ⟨S64, .i1⟩
  | 39 => ⟨S_, .i32⟩
  | 40 => ⟨S64, .i32⟩
  | 41 => ⟨S64, .i32⟩
  | 42 => ⟨S_, .i32⟩
  | 43 => ⟨S64, .i32⟩
  | 44 => ⟨S64, .i1⟩
  | 45 => ⟨S64, .i1⟩
  | 46 => ⟨S64x1, .i1⟩
  | 47 => ⟨S1x64, .i1⟩
  | 48 => ⟨S64x64, .i1⟩
  | 49 => ⟨S64x64, .i1⟩
  | 50 => ⟨S64x64, .i1⟩
  | 51 => ⟨S64x64, .f32⟩
  | 52 => ⟨S1, .f32⟩
  | 53 => ⟨S_, .f32⟩
  | 54 => ⟨S_, .i32⟩
  | 55 => ⟨S64, .i32⟩
  | 56 => ⟨S64, .i32⟩
  | 57 => ⟨S64x1, .i32⟩
  | 58 => ⟨S64x1, .f32⟩
  | 59 => ⟨S64x1, .f32⟩
  | 60 => ⟨S64x1, .f32⟩
  | 61 => ⟨S1, .f32⟩
  | 62 => ⟨S_, .f32⟩
  | 63 => ⟨S_, .i32⟩
  | 64 => ⟨S64, .i32⟩
  | 65 => ⟨S64, .i32⟩
  | 66 => ⟨S1x64, .i32⟩
  | 67 => ⟨S1x64, .f32⟩
  | 68 => ⟨S1x64, .f32⟩
  | 69 => ⟨S1x64, .f32⟩
  | 70 => ⟨S64x64, .f32⟩
  | 71 => ⟨S64x64, .f32⟩
  | 72 => ⟨S64x64, .f32⟩
  | 73 => ⟨S16x64x64x256, .f32⟩
  | 74 => ⟨S16x64x64x256, .f32⟩
  | 75 => ⟨S1x64x64x1, .f32⟩
  | 76 => ⟨S16x64x64x256, .f32⟩
  | 77 => ⟨S16x64x64x256, .f32⟩
  | 78 => ⟨S16x64x64x256, .f32⟩
  | 79 => ⟨S1x64x64x1, .f32⟩
  | 80 => ⟨S16x64x64x256, .f32⟩
  | 81 => ⟨S16x64x64x256, .f32⟩
  | 82 => ⟨S16x64x64x256, .f32⟩
  | 83 => ⟨S16x64x64x256, .f32⟩
  | 84 => ⟨S_, .f32⟩
  | 85 => ⟨S16x64x64, .f32⟩
  | 86 => ⟨S16x64x64x1, .f32⟩
  | 87 => ⟨S16x64x64x1, .f32⟩
  | 88 => ⟨S_, .i32⟩
  | 89 => ⟨S64, .i32⟩
  | 90 => ⟨S64, .i32⟩
  | 91 => ⟨S_, .i32⟩
  | 92 => ⟨S64, .i32⟩
  | 93 => ⟨S64, .i1⟩
  | 94 => ⟨S_, .i32⟩
  | 95 => ⟨S64, .i32⟩
  | 96 => ⟨S64, .i32⟩
  | 97 => ⟨S_, .i32⟩
  | 98 => ⟨S64, .i32⟩
  | 99 => ⟨S64, .i1⟩
  | 100 => ⟨S64, .i1⟩
  | 101 => ⟨S64x1, .i1⟩
  | 102 => ⟨S1x64, .i1⟩
  | 103 => ⟨S64x64, .i1⟩
  | 104 => ⟨S64x64, .i1⟩
  | 105 => ⟨S64x64, .i1⟩
  | 106 => ⟨S64x64, .f32⟩
  | 107 => ⟨S1, .f32⟩
  | 108 => ⟨S_, .f32⟩
  | 109 => ⟨S_, .i32⟩
  | 110 => ⟨S64, .i32⟩
  | 111 => ⟨S64, .i32⟩
  | 112 => ⟨S64x1, .i32⟩
  | 113 => ⟨S64x1, .f32⟩
  | 114 => ⟨S64x1, .f32⟩
  | 115 => ⟨S64x1, .f32⟩
  | 116 => ⟨S1, .f32⟩
  | 117 => ⟨S_, .f32⟩
  | 118 => ⟨S_, .i32⟩
  | 119 => ⟨S64, .i32⟩
  | 120 => ⟨S64, .i32⟩
  | 121 => ⟨S1x64, .i32⟩
  | 122 => ⟨S1x64, .f32⟩
  | 123 => ⟨S1x64, .f32⟩
  | 124 => ⟨S1x64, .f32⟩
  | 125 => ⟨S64x64, .f32⟩
  | 126 => ⟨S64x64, .f32⟩
  | 127 => ⟨S64x64, .f32⟩
  | _ => ⟨S16x64x64x256, .f32⟩

abbrev hbmTy0_10 (i : Nat) : BufTy := match i % 128 with
  | 0 => ⟨S16x64x64x256, .f32⟩
  | 1 => ⟨S16x64x64x256, .f32⟩
  | 2 => ⟨S1x64x64x1, .f32⟩
  | 3 => ⟨S16x64x64x256, .f32⟩
  | 4 => ⟨S16x64x64x256, .f32⟩
  | 5 => ⟨S16x64x64x256, .f32⟩
  | 6 => ⟨S1x64x64x1, .f32⟩
  | 7 => ⟨S16x64x64x256, .f32⟩
  | 8 => ⟨S16x64x64x256, .f32⟩
  | 9 => ⟨S16x64x64x256, .f32⟩
  | 10 => ⟨S16x64x64x256, .f32⟩
  | 11 => ⟨S_, .f32⟩
  | 12 => ⟨S16x64x64, .f32⟩
  | 13 => ⟨S16x64x64x1, .f32⟩
  | 14 => ⟨S16x64x64x1, .f32⟩
  | 15 => ⟨S_, .i32⟩
  | 16 => ⟨S64, .i32⟩
  | 17 => ⟨S64, .i32⟩
  | 18 => ⟨S_, .i32⟩
  | 19 => ⟨S64, .i32⟩
  | 20 => ⟨S64, .i1⟩
  | 21 => ⟨S_, .i32⟩
  | 22 => ⟨S64, .i32⟩
  | 23 => ⟨S64, .i32⟩
  | 24 => ⟨S_, .i32⟩
  | 25 => ⟨S64, .i32⟩
  | 26 => ⟨S64, .i1⟩
  | 27 => ⟨S64, .i1⟩
  | 28 => ⟨S64x1, .i1⟩
  | 29 => ⟨S1x64, .i1⟩
  | 30 => ⟨S64x64, .i1⟩
  | 31 => ⟨S64x64, .i1⟩
  | 32 => ⟨S64x64, .i1⟩
  | 33 => ⟨S64x64, .f32⟩
  | 34 => ⟨S1, .f32⟩
  | 35 => ⟨S_, .f32⟩
  | 36 => ⟨S_, .i32⟩
  | 37 => ⟨S64, .i32⟩
  | 38 => ⟨S64, .i32⟩
  | 39 => ⟨S64x1, .i32⟩
  | 40 => ⟨S64x1, .f32⟩
  | 41 => ⟨S64x1, .f32⟩
  | 42 => ⟨S64x1, .f32⟩
  | 43 => ⟨S1, .f32⟩
  | 44 => ⟨S_, .f32⟩
  | 45 => ⟨S_, .i32⟩
  | 46 => ⟨S64, .i32⟩
  | 47 => ⟨S64, .i32⟩
  | 48 => ⟨S1x64, .i32⟩
  | 49 => ⟨S1x64, .f32⟩
  | 50 => ⟨S1x64, .f32⟩
  | 51 => ⟨S1x64, .f32⟩
  | 52 => ⟨S64x64, .f32⟩
  | 53 => ⟨S64x64, .f32⟩
  | 54 => ⟨S64x64, .f32⟩
  | 55 => ⟨S16x64x64x256, .f32⟩
  | 56 => ⟨S16x64x64x256, .f32⟩
  | 57 => ⟨S1x64x64x1, .f32⟩
  | 58 => ⟨S16x64x64x256, .f32⟩
  | 59 => ⟨S16x64x64x256, .f32⟩
  | 60 => ⟨S16x64x64x256, .f32⟩
  | 61 => ⟨S1x64x64x1, .f32⟩
  | 62 => ⟨S16x64x64x256, .f32⟩
  | 63 => ⟨S16x64x64x256, .f32⟩
  | 64 => ⟨S16x64x64x256, .f32⟩
  | 65 => ⟨S16x64x64x256, .f32⟩
  | 66 => ⟨S_, .f32⟩
  | 67 => ⟨S16x64x64, .f32⟩
  | 68 => ⟨S16x64x64x1, .f32⟩
  | 69 => ⟨S16x64x64x1, .f32⟩
  | 70 => ⟨S_, .i32⟩
  | 71 => ⟨S64, .i32⟩
  | 72 => ⟨S64, .i32⟩
  | 73 => ⟨S_, .i32⟩
  | 74 => ⟨S64, .i32⟩
  | 75 => ⟨S64, .i1⟩
  | 76 => ⟨S_, .i32⟩
  | 77 => ⟨S64, .i32⟩
  | 78 => ⟨S64, .i32⟩
  | 79 => ⟨S_, .i32⟩
  | 80 => ⟨S64, .i32⟩
  | 81 => ⟨S64, .i1⟩
  | 82 => ⟨S64, .i1⟩
  | 83 => ⟨S64x1, .i1⟩
  | 84 => ⟨S1x64, .i1⟩
  | 85 => ⟨S64x64, .i1⟩
  | 86 => ⟨S64x64, .i1⟩
  | 87 => ⟨S64x64, .i1⟩
  | 88 => ⟨S64x64, .f32⟩
  | 89 => ⟨S1, .f32⟩
  | 90 => ⟨S_, .f32⟩
  | 91 => ⟨S_, .i32⟩
  | 92 => ⟨S64, .i32⟩
  | 93 => ⟨S64, .i32⟩
  | 94 => ⟨S64x1, .i32⟩
  | 95 => ⟨S64x1, .f32⟩
  | 96 => ⟨S64x1, .f32⟩
  | 97 => ⟨S64x1, .f32⟩
  | 98 => ⟨S1, .f32⟩
  | 99 => ⟨S_, .f32⟩
  | 100 => ⟨S_, .i32⟩
  | 101 => ⟨S64, .i32⟩
  | 102 => ⟨S64, .i32⟩
  | 103 => ⟨S1x64, .i32⟩
  | 104 => ⟨S1x64, .f32⟩
  | 105 => ⟨S1x64, .f32⟩
  | 106 => ⟨S1x64, .f32⟩
  | 107 => ⟨S64x64, .f32⟩
  | 108 => ⟨S64x64, .f32⟩
  | 109 => ⟨S64x64, .f32⟩
  | 110 => ⟨S16x64x64x256, .f32⟩
  | 111 => ⟨S16x64x64x256, .f32⟩
  | 112 => ⟨S1x64x64x1, .f32⟩
  | 113 => ⟨S16x64x64x256, .f32⟩
  | 114 => ⟨S16x64x64x256, .f32⟩
  | 115 => ⟨S16x64x64x256, .f32⟩
  | 116 => ⟨S1x64x64x1, .f32⟩
  | 117 => ⟨S16x64x64x256, .f32⟩
  | 118 => ⟨S16x64x64x256, .f32⟩
  | 119 => ⟨S16x64x64x256, .f32⟩
  | 120 => ⟨S16x64x64x256, .f32⟩
  | 121 => ⟨S_, .f32⟩
  | 122 => ⟨S16x64x64, .f32⟩
  | 123 => ⟨S16x64x64x1, .f32⟩
  | 124 => ⟨S16x64x64x1, .f32⟩
  | 125 => ⟨S_, .i32⟩
  | 126 => ⟨S64, .i32⟩
  | 127 => ⟨S64, .i32⟩
  | _ => ⟨S16x64x64x256, .f32⟩

abbrev hbmTy0_11 (i : Nat) : BufTy := match i % 128 with
  | 0 => ⟨S_, .i32⟩
  | 1 => ⟨S64, .i32⟩
  | 2 => ⟨S64, .i1⟩
  | 3 => ⟨S_, .i32⟩
  | 4 => ⟨S64, .i32⟩
  | 5 => ⟨S64, .i32⟩
  | 6 => ⟨S_, .i32⟩
  | 7 => ⟨S64, .i32⟩
  | 8 => ⟨S64, .i1⟩
  | 9 => ⟨S64, .i1⟩
  | 10 => ⟨S64x1, .i1⟩
  | 11 => ⟨S1x64, .i1⟩
  | 12 => ⟨S64x64, .i1⟩
  | 13 => ⟨S64x64, .i1⟩
  | 14 => ⟨S64x64, .i1⟩
  | 15 => ⟨S64x64, .f32⟩
  | 16 => ⟨S1, .f32⟩
  | 17 => ⟨S_, .f32⟩
  | 18 => ⟨S_, .i32⟩
  | 19 => ⟨S64, .i32⟩
  | 20 => ⟨S64, .i32⟩
  | 21 => ⟨S64x1, .i32⟩
  | 22 => ⟨S64x1, .f32⟩
  | 23 => ⟨S64x1, .f32⟩
  | 24 => ⟨S64x1, .f32⟩
  | 25 => ⟨S1, .f32⟩
  | 26 => ⟨S_, .f32⟩
  | 27 => ⟨S_, .i32⟩
  | 28 => ⟨S64, .i32⟩
  | 29 => ⟨S64, .i32⟩
  | 30 => ⟨S1x64, .i32⟩
  | 31 => ⟨S1x64, .f32⟩
  | 32 => ⟨S1x64, .f32⟩
  | 33 => ⟨S1x64, .f32⟩
  | 34 => ⟨S64x64, .f32⟩
  | 35 => ⟨S64x64, .f32⟩
  | 36 => ⟨S64x64, .f32⟩
  | 37 => ⟨S16x64x64x256, .f32⟩
  | 38 => ⟨S16x64x64x256, .f32⟩
  | 39 => ⟨S1x64x64x1, .f32⟩
  | 40 => ⟨S16x64x64x256, .f32⟩
  | 41 => ⟨S16x64x64x256, .f32⟩
  | 42 => ⟨S16x64x64x256, .f32⟩
  | 43 => ⟨S1x64x64x1, .f32⟩
  | 44 => ⟨S16x64x64x256, .f32⟩
  | 45 => ⟨S16x64x64x256, .f32⟩
  | 46 => ⟨S16x64x64x256, .f32⟩
  | 47 => ⟨S16x64x64x256, .f32⟩
  | 48 => ⟨S_, .f32⟩
  | 49 => ⟨S16x64x64, .f32⟩
  | 50 => ⟨S16x64x64x1, .f32⟩
  | 51 => ⟨S16x64x64x1, .f32⟩
  | 52 => ⟨S_, .f32⟩
  | 53 => ⟨S16x64x64x1, .f32⟩
  | 54 => ⟨S16x64x64x1, .f32⟩
  | 55 => ⟨S16x64x64x256, .f32⟩
  | 56 => ⟨S16x64x64x256, .f32⟩
  | 57 => ⟨S16x64x64x256, .f32⟩
  | _ => ⟨S16x64x64x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S16x64x64x256, .f32⟩

abbrev bufTy : (tb : Table) → Fin (tcTables nBuf tb) → BufTy
  | .hbm, ⟨i, _⟩ => hbmTy i
  | _, _ => ⟨S16x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_c_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_6 : Ref sig .tc := ⟨.hbm, 33, rfl⟩
abbrev main_v17 : Ref sig .tc := ⟨.hbm, 34, rfl⟩
abbrev main_v18 : Ref sig .tc := ⟨.hbm, 35, rfl⟩
abbrev main_c_7 : Ref sig .tc := ⟨.hbm, 36, rfl⟩
abbrev main_v19 : Ref sig .tc := ⟨.hbm, 37, rfl⟩
abbrev main_v20 : Ref sig .tc := ⟨.hbm, 38, rfl⟩
abbrev main_c_8 : Ref sig .tc := ⟨.hbm, 39, rfl⟩
abbrev main_v21 : Ref sig .tc := ⟨.hbm, 40, rfl⟩
abbrev main_v22 : Ref sig .tc := ⟨.hbm, 41, rfl⟩
abbrev main_c_9 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_11 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_c_15 : Ref sig .tc := ⟨.hbm, 94, rfl⟩
abbrev main_v69 : Ref sig .tc := ⟨.hbm, 95, rfl⟩
abbrev main_v70 : Ref sig .tc := ⟨.hbm, 96, rfl⟩
abbrev main_c_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_c_18 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_19 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_c_20 : Ref sig .tc := ⟨.hbm, 143, rfl⟩
abbrev main_v113 : Ref sig .tc := ⟨.hbm, 144, rfl⟩
abbrev main_v114 : Ref sig .tc := ⟨.hbm, 145, rfl⟩
abbrev main_c_21 : Ref sig .tc := ⟨.hbm, 146, rfl⟩
abbrev main_v115 : Ref sig .tc := ⟨.hbm, 147, rfl⟩
abbrev main_v116 : Ref sig .tc := ⟨.hbm, 148, rfl⟩
abbrev main_c_22 : Ref sig .tc := ⟨.hbm, 149, rfl⟩
abbrev main_v117 : Ref sig .tc := ⟨.hbm, 150, rfl⟩
abbrev main_v118 : Ref sig .tc := ⟨.hbm, 151, rfl⟩
abbrev main_c_23 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_c_24 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_c_25 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_cst_26 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_c_27 : Ref sig .tc := ⟨.hbm, 198, rfl⟩
abbrev main_v161 : Ref sig .tc := ⟨.hbm, 199, rfl⟩
abbrev main_v162 : Ref sig .tc := ⟨.hbm, 200, rfl⟩
abbrev main_c_28 : Ref sig .tc := ⟨.hbm, 201, rfl⟩
abbrev main_v163 : Ref sig .tc := ⟨.hbm, 202, rfl⟩
abbrev main_v164 : Ref sig .tc := ⟨.hbm, 203, rfl⟩
abbrev main_c_29 : Ref sig .tc := ⟨.hbm, 204, rfl⟩
abbrev main_v165 : Ref sig .tc := ⟨.hbm, 205, rfl⟩
abbrev main_v166 : Ref sig .tc := ⟨.hbm, 206, rfl⟩
abbrev main_c_30 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_c_31 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_c_32 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_cst_33 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_c_34 : Ref sig .tc := ⟨.hbm, 253, rfl⟩
abbrev main_v209 : Ref sig .tc := ⟨.hbm, 254, rfl⟩
abbrev main_v210 : Ref sig .tc := ⟨.hbm, 255, rfl⟩
abbrev main_c_35 : Ref sig .tc := ⟨.hbm, 256, rfl⟩
abbrev main_v211 : Ref sig .tc := ⟨.hbm, 257, rfl⟩
abbrev main_v212 : Ref sig .tc := ⟨.hbm, 258, rfl⟩
abbrev main_c_36 : Ref sig .tc := ⟨.hbm, 259, rfl⟩
abbrev main_v213 : Ref sig .tc := ⟨.hbm, 260, rfl⟩
abbrev main_v214 : Ref sig .tc := ⟨.hbm, 261, rfl⟩
abbrev main_c_37 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_c_38 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_c_39 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_v244 : Ref sig .tc := ⟨.hbm, 294, rfl⟩
abbrev main_v245 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_v249 : Ref sig .tc := ⟨.hbm, 299, rfl⟩
abbrev main_v250 : Ref sig .tc := ⟨.hbm, 300, rfl⟩
abbrev main_v251 : Ref sig .tc := ⟨.hbm, 301, rfl⟩
abbrev main_v252 : Ref sig .tc := ⟨.hbm, 302, rfl⟩
abbrev main_v253 : Ref sig .tc := ⟨.hbm, 303, rfl⟩
abbrev main_cst_40 : Ref sig .tc := ⟨.hbm, 304, rfl⟩
abbrev main_v254 : Ref sig .tc := ⟨.hbm, 305, rfl⟩
abbrev main_v255 : Ref sig .tc := ⟨.hbm, 306, rfl⟩
abbrev main_v256 : Ref sig .tc := ⟨.hbm, 307, rfl⟩
abbrev main_c_41 : Ref sig .tc := ⟨.hbm, 308, rfl⟩
abbrev main_v257 : Ref sig .tc := ⟨.hbm, 309, rfl⟩
abbrev main_v258 : Ref sig .tc := ⟨.hbm, 310, rfl⟩
abbrev main_c_42 : Ref sig .tc := ⟨.hbm, 311, rfl⟩
abbrev main_v259 : Ref sig .tc := ⟨.hbm, 312, rfl⟩
abbrev main_v260 : Ref sig .tc := ⟨.hbm, 313, rfl⟩
abbrev main_c_43 : Ref sig .tc := ⟨.hbm, 314, rfl⟩
abbrev main_v261 : Ref sig .tc := ⟨.hbm, 315, rfl⟩
abbrev main_v262 : Ref sig .tc := ⟨.hbm, 316, rfl⟩
abbrev main_c_44 : Ref sig .tc := ⟨.hbm, 317, rfl⟩
abbrev main_v263 : Ref sig .tc := ⟨.hbm, 318, rfl⟩
abbrev main_v264 : Ref sig .tc := ⟨.hbm, 319, rfl⟩
abbrev main_v265 : Ref sig .tc := ⟨.hbm, 320, rfl⟩
abbrev main_c_45 : Ref sig .tc := ⟨.hbm, 321, rfl⟩
abbrev main_v266 : Ref sig .tc := ⟨.hbm, 322, rfl⟩
abbrev main_v267 : Ref sig .tc := ⟨.hbm, 323, rfl⟩
abbrev main_c_46 : Ref sig .tc := ⟨.hbm, 324, rfl⟩
abbrev main_v268 : Ref sig .tc := ⟨.hbm, 325, rfl⟩
abbrev main_v269 : Ref sig .tc := ⟨.hbm, 326, rfl⟩
abbrev main_c_47 : Ref sig .tc := ⟨.hbm, 327, rfl⟩
abbrev main_v270 : Ref sig .tc := ⟨.hbm, 328, rfl⟩
abbrev main_v271 : Ref sig .tc := ⟨.hbm, 329, rfl⟩
abbrev main_c_48 : Ref sig .tc := ⟨.hbm, 330, rfl⟩
abbrev main_v272 : Ref sig .tc := ⟨.hbm, 331, rfl⟩
abbrev main_v273 : Ref sig .tc := ⟨.hbm, 332, rfl⟩
abbrev main_v274 : Ref sig .tc := ⟨.hbm, 333, rfl⟩
abbrev main_v275 : Ref sig .tc := ⟨.hbm, 334, rfl⟩
abbrev main_v276 : Ref sig .tc := ⟨.hbm, 335, rfl⟩
abbrev main_v277 : Ref sig .tc := ⟨.hbm, 336, rfl⟩
abbrev main_v278 : Ref sig .tc := ⟨.hbm, 337, rfl⟩
abbrev main_v279 : Ref sig .tc := ⟨.hbm, 338, rfl⟩
abbrev main_v280 : Ref sig .tc := ⟨.hbm, 339, rfl⟩
abbrev main_v281 : Ref sig .tc := ⟨.hbm, 340, rfl⟩
abbrev main_v282 : Ref sig .tc := ⟨.hbm, 341, rfl⟩
abbrev main_c_49 : Ref sig .tc := ⟨.hbm, 342, rfl⟩
abbrev main_v283 : Ref sig .tc := ⟨.hbm, 343, rfl⟩
abbrev main_v284 : Ref sig .tc := ⟨.hbm, 344, rfl⟩
abbrev main_v285 : Ref sig .tc := ⟨.hbm, 345, rfl⟩
abbrev main_v286 : Ref sig .tc := ⟨.hbm, 346, rfl⟩
abbrev main_v287 : Ref sig .tc := ⟨.hbm, 347, rfl⟩
abbrev main_v288 : Ref sig .tc := ⟨.hbm, 348, rfl⟩
abbrev main_v289 : Ref sig .tc := ⟨.hbm, 349, rfl⟩
abbrev main_v290 : Ref sig .tc := ⟨.hbm, 350, rfl⟩
abbrev main_c_50 : Ref sig .tc := ⟨.hbm, 351, rfl⟩
abbrev main_v291 : Ref sig .tc := ⟨.hbm, 352, rfl⟩
abbrev main_v292 : Ref sig .tc := ⟨.hbm, 353, rfl⟩
abbrev main_v293 : Ref sig .tc := ⟨.hbm, 354, rfl⟩
abbrev main_v294 : Ref sig .tc := ⟨.hbm, 355, rfl⟩
abbrev main_v295 : Ref sig .tc := ⟨.hbm, 356, rfl⟩
abbrev main_v296 : Ref sig .tc := ⟨.hbm, 357, rfl⟩
abbrev main_v297 : Ref sig .tc := ⟨.hbm, 358, rfl⟩
abbrev main_v298 : Ref sig .tc := ⟨.hbm, 359, rfl⟩
abbrev main_v299 : Ref sig .tc := ⟨.hbm, 360, rfl⟩
abbrev main_v300 : Ref sig .tc := ⟨.hbm, 361, rfl⟩
abbrev main_v301 : Ref sig .tc := ⟨.hbm, 362, rfl⟩
abbrev main_v302 : Ref sig .tc := ⟨.hbm, 363, rfl⟩
abbrev main_v303 : Ref sig .tc := ⟨.hbm, 364, rfl⟩
abbrev main_v304 : Ref sig .tc := ⟨.hbm, 365, rfl⟩
abbrev main_v305 : Ref sig .tc := ⟨.hbm, 366, rfl⟩
abbrev main_v306 : Ref sig .tc := ⟨.hbm, 367, rfl⟩
abbrev main_v307 : Ref sig .tc := ⟨.hbm, 368, rfl⟩
abbrev main_v308 : Ref sig .tc := ⟨.hbm, 369, rfl⟩
abbrev main_v309 : Ref sig .tc := ⟨.hbm, 370, rfl⟩
abbrev main_v310 : Ref sig .tc := ⟨.hbm, 371, rfl⟩
abbrev main_cst_51 : Ref sig .tc := ⟨.hbm, 372, rfl⟩
abbrev main_v311 : Ref sig .tc := ⟨.hbm, 373, rfl⟩
abbrev main_v312 : Ref sig .tc := ⟨.hbm, 374, rfl⟩
abbrev main_v313 : Ref sig .tc := ⟨.hbm, 375, rfl⟩
abbrev main_c_52 : Ref sig .tc := ⟨.hbm, 376, rfl⟩
abbrev main_v314 : Ref sig .tc := ⟨.hbm, 377, rfl⟩
abbrev main_v315 : Ref sig .tc := ⟨.hbm, 378, rfl⟩
abbrev main_c_53 : Ref sig .tc := ⟨.hbm, 379, rfl⟩
abbrev main_v316 : Ref sig .tc := ⟨.hbm, 380, rfl⟩
abbrev main_v317 : Ref sig .tc := ⟨.hbm, 381, rfl⟩
abbrev main_c_54 : Ref sig .tc := ⟨.hbm, 382, rfl⟩
abbrev main_v318 : Ref sig .tc := ⟨.hbm, 383, rfl⟩
abbrev main_v319 : Ref sig .tc := ⟨.hbm, 384, rfl⟩
abbrev main_c_55 : Ref sig .tc := ⟨.hbm, 385, rfl⟩
abbrev main_v320 : Ref sig .tc := ⟨.hbm, 386, rfl⟩
abbrev main_v321 : Ref sig .tc := ⟨.hbm, 387, rfl⟩
abbrev main_v322 : Ref sig .tc := ⟨.hbm, 388, rfl⟩
abbrev main_v323 : Ref sig .tc := ⟨.hbm, 389, rfl⟩
abbrev main_v324 : Ref sig .tc := ⟨.hbm, 390, rfl⟩
abbrev main_v325 : Ref sig .tc := ⟨.hbm, 391, rfl⟩
abbrev main_v326 : Ref sig .tc := ⟨.hbm, 392, rfl⟩
abbrev main_v327 : Ref sig .tc := ⟨.hbm, 393, rfl⟩
abbrev main_v328 : Ref sig .tc := ⟨.hbm, 394, rfl⟩
abbrev main_v329 : Ref sig .tc := ⟨.hbm, 395, rfl⟩
abbrev main_v330 : Ref sig .tc := ⟨.hbm, 396, rfl⟩
abbrev main_c_56 : Ref sig .tc := ⟨.hbm, 397, rfl⟩
abbrev main_v331 : Ref sig .tc := ⟨.hbm, 398, rfl⟩
abbrev main_v332 : Ref sig .tc := ⟨.hbm, 399, rfl⟩
abbrev main_v333 : Ref sig .tc := ⟨.hbm, 400, rfl⟩
abbrev main_v334 : Ref sig .tc := ⟨.hbm, 401, rfl⟩
abbrev main_v335 : Ref sig .tc := ⟨.hbm, 402, rfl⟩
abbrev main_v336 : Ref sig .tc := ⟨.hbm, 403, rfl⟩
abbrev main_v337 : Ref sig .tc := ⟨.hbm, 404, rfl⟩
abbrev main_v338 : Ref sig .tc := ⟨.hbm, 405, rfl⟩
abbrev main_c_57 : Ref sig .tc := ⟨.hbm, 406, rfl⟩
abbrev main_v339 : Ref sig .tc := ⟨.hbm, 407, rfl⟩
abbrev main_v340 : Ref sig .tc := ⟨.hbm, 408, rfl⟩
abbrev main_v341 : Ref sig .tc := ⟨.hbm, 409, rfl⟩
abbrev main_v342 : Ref sig .tc := ⟨.hbm, 410, rfl⟩
abbrev main_v343 : Ref sig .tc := ⟨.hbm, 411, rfl⟩
abbrev main_v344 : Ref sig .tc := ⟨.hbm, 412, rfl⟩
abbrev main_v345 : Ref sig .tc := ⟨.hbm, 413, rfl⟩
abbrev main_v346 : Ref sig .tc := ⟨.hbm, 414, rfl⟩
abbrev main_v347 : Ref sig .tc := ⟨.hbm, 415, rfl⟩
abbrev main_v348 : Ref sig .tc := ⟨.hbm, 416, rfl⟩
abbrev main_v349 : Ref sig .tc := ⟨.hbm, 417, rfl⟩
abbrev main_v350 : Ref sig .tc := ⟨.hbm, 418, rfl⟩
abbrev main_v351 : Ref sig .tc := ⟨.hbm, 419, rfl⟩
abbrev main_v352 : Ref sig .tc := ⟨.hbm, 420, rfl⟩
abbrev main_v353 : Ref sig .tc := ⟨.hbm, 421, rfl⟩
abbrev main_v354 : Ref sig .tc := ⟨.hbm, 422, rfl⟩
abbrev main_v355 : Ref sig .tc := ⟨.hbm, 423, rfl⟩
abbrev main_v356 : Ref sig .tc := ⟨.hbm, 424, rfl⟩
abbrev main_v357 : Ref sig .tc := ⟨.hbm, 425, rfl⟩
abbrev main_v358 : Ref sig .tc := ⟨.hbm, 426, rfl⟩
abbrev main_cst_58 : Ref sig .tc := ⟨.hbm, 427, rfl⟩
abbrev main_v359 : Ref sig .tc := ⟨.hbm, 428, rfl⟩
abbrev main_v360 : Ref sig .tc := ⟨.hbm, 429, rfl⟩
abbrev main_v361 : Ref sig .tc := ⟨.hbm, 430, rfl⟩
abbrev main_c_59 : Ref sig .tc := ⟨.hbm, 431, rfl⟩
abbrev main_v362 : Ref sig .tc := ⟨.hbm, 432, rfl⟩
abbrev main_v363 : Ref sig .tc := ⟨.hbm, 433, rfl⟩
abbrev main_c_60 : Ref sig .tc := ⟨.hbm, 434, rfl⟩
abbrev main_v364 : Ref sig .tc := ⟨.hbm, 435, rfl⟩
abbrev main_v365 : Ref sig .tc := ⟨.hbm, 436, rfl⟩
abbrev main_c_61 : Ref sig .tc := ⟨.hbm, 437, rfl⟩
abbrev main_v366 : Ref sig .tc := ⟨.hbm, 438, rfl⟩
abbrev main_v367 : Ref sig .tc := ⟨.hbm, 439, rfl⟩
abbrev main_c_62 : Ref sig .tc := ⟨.hbm, 440, rfl⟩
abbrev main_v368 : Ref sig .tc := ⟨.hbm, 441, rfl⟩
abbrev main_v369 : Ref sig .tc := ⟨.hbm, 442, rfl⟩
abbrev main_v370 : Ref sig .tc := ⟨.hbm, 443, rfl⟩
abbrev main_v371 : Ref sig .tc := ⟨.hbm, 444, rfl⟩
abbrev main_v372 : Ref sig .tc := ⟨.hbm, 445, rfl⟩
abbrev main_v373 : Ref sig .tc := ⟨.hbm, 446, rfl⟩
abbrev main_v374 : Ref sig .tc := ⟨.hbm, 447, rfl⟩
abbrev main_v375 : Ref sig .tc := ⟨.hbm, 448, rfl⟩
abbrev main_v376 : Ref sig .tc := ⟨.hbm, 449, rfl⟩
abbrev main_v377 : Ref sig .tc := ⟨.hbm, 450, rfl⟩
abbrev main_v378 : Ref sig .tc := ⟨.hbm, 451, rfl⟩
abbrev main_c_63 : Ref sig .tc := ⟨.hbm, 452, rfl⟩
abbrev main_v379 : Ref sig .tc := ⟨.hbm, 453, rfl⟩
abbrev main_v380 : Ref sig .tc := ⟨.hbm, 454, rfl⟩
abbrev main_v381 : Ref sig .tc := ⟨.hbm, 455, rfl⟩
abbrev main_v382 : Ref sig .tc := ⟨.hbm, 456, rfl⟩
abbrev main_v383 : Ref sig .tc := ⟨.hbm, 457, rfl⟩
abbrev main_v384 : Ref sig .tc := ⟨.hbm, 458, rfl⟩
abbrev main_v385 : Ref sig .tc := ⟨.hbm, 459, rfl⟩
abbrev main_v386 : Ref sig .tc := ⟨.hbm, 460, rfl⟩
abbrev main_c_64 : Ref sig .tc := ⟨.hbm, 461, rfl⟩
abbrev main_v387 : Ref sig .tc := ⟨.hbm, 462, rfl⟩
abbrev main_v388 : Ref sig .tc := ⟨.hbm, 463, rfl⟩
abbrev main_v389 : Ref sig .tc := ⟨.hbm, 464, rfl⟩
abbrev main_v390 : Ref sig .tc := ⟨.hbm, 465, rfl⟩
abbrev main_v391 : Ref sig .tc := ⟨.hbm, 466, rfl⟩
abbrev main_v392 : Ref sig .tc := ⟨.hbm, 467, rfl⟩
abbrev main_v393 : Ref sig .tc := ⟨.hbm, 468, rfl⟩
abbrev main_v394 : Ref sig .tc := ⟨.hbm, 469, rfl⟩
abbrev main_v395 : Ref sig .tc := ⟨.hbm, 470, rfl⟩
abbrev main_v396 : Ref sig .tc := ⟨.hbm, 471, rfl⟩
abbrev main_v397 : Ref sig .tc := ⟨.hbm, 472, rfl⟩
abbrev main_v398 : Ref sig .tc := ⟨.hbm, 473, rfl⟩
abbrev main_v399 : Ref sig .tc := ⟨.hbm, 474, rfl⟩
abbrev main_v400 : Ref sig .tc := ⟨.hbm, 475, rfl⟩
abbrev main_v401 : Ref sig .tc := ⟨.hbm, 476, rfl⟩
abbrev main_v402 : Ref sig .tc := ⟨.hbm, 477, rfl⟩
abbrev main_v403 : Ref sig .tc := ⟨.hbm, 478, rfl⟩
abbrev main_v404 : Ref sig .tc := ⟨.hbm, 479, rfl⟩
abbrev main_v405 : Ref sig .tc := ⟨.hbm, 480, rfl⟩
abbrev main_v406 : Ref sig .tc := ⟨.hbm, 481, rfl⟩
abbrev main_cst_65 : Ref sig .tc := ⟨.hbm, 482, rfl⟩
abbrev main_v407 : Ref sig .tc := ⟨.hbm, 483, rfl⟩
abbrev main_v408 : Ref sig .tc := ⟨.hbm, 484, rfl⟩
abbrev main_v409 : Ref sig .tc := ⟨.hbm, 485, rfl⟩
abbrev main_c_66 : Ref sig .tc := ⟨.hbm, 486, rfl⟩
abbrev main_v410 : Ref sig .tc := ⟨.hbm, 487, rfl⟩
abbrev main_v411 : Ref sig .tc := ⟨.hbm, 488, rfl⟩
abbrev main_c_67 : Ref sig .tc := ⟨.hbm, 489, rfl⟩
abbrev main_v412 : Ref sig .tc := ⟨.hbm, 490, rfl⟩
abbrev main_v413 : Ref sig .tc := ⟨.hbm, 491, rfl⟩
abbrev main_c_68 : Ref sig .tc := ⟨.hbm, 492, rfl⟩
abbrev main_v414 : Ref sig .tc := ⟨.hbm, 493, rfl⟩
abbrev main_v415 : Ref sig .tc := ⟨.hbm, 494, rfl⟩
abbrev main_c_69 : Ref sig .tc := ⟨.hbm, 495, rfl⟩
abbrev main_v416 : Ref sig .tc := ⟨.hbm, 496, rfl⟩
abbrev main_v417 : Ref sig .tc := ⟨.hbm, 497, rfl⟩
abbrev main_v418 : Ref sig .tc := ⟨.hbm, 498, rfl⟩
abbrev main_v419 : Ref sig .tc := ⟨.hbm, 499, rfl⟩
abbrev main_v420 : Ref sig .tc := ⟨.hbm, 500, rfl⟩
abbrev main_v421 : Ref sig .tc := ⟨.hbm, 501, rfl⟩
abbrev main_v422 : Ref sig .tc := ⟨.hbm, 502, rfl⟩
abbrev main_v423 : Ref sig .tc := ⟨.hbm, 503, rfl⟩
abbrev main_v424 : Ref sig .tc := ⟨.hbm, 504, rfl⟩
abbrev main_v425 : Ref sig .tc := ⟨.hbm, 505, rfl⟩
abbrev main_v426 : Ref sig .tc := ⟨.hbm, 506, rfl⟩
abbrev main_c_70 : Ref sig .tc := ⟨.hbm, 507, rfl⟩
abbrev main_v427 : Ref sig .tc := ⟨.hbm, 508, rfl⟩
abbrev main_v428 : Ref sig .tc := ⟨.hbm, 509, rfl⟩
abbrev main_v429 : Ref sig .tc := ⟨.hbm, 510, rfl⟩
abbrev main_v430 : Ref sig .tc := ⟨.hbm, 511, rfl⟩
abbrev main_v431 : Ref sig .tc := ⟨.hbm, 512, rfl⟩
abbrev main_v432 : Ref sig .tc := ⟨.hbm, 513, rfl⟩
abbrev main_v433 : Ref sig .tc := ⟨.hbm, 514, rfl⟩
abbrev main_v434 : Ref sig .tc := ⟨.hbm, 515, rfl⟩
abbrev main_c_71 : Ref sig .tc := ⟨.hbm, 516, rfl⟩
abbrev main_v435 : Ref sig .tc := ⟨.hbm, 517, rfl⟩
abbrev main_v436 : Ref sig .tc := ⟨.hbm, 518, rfl⟩
abbrev main_v437 : Ref sig .tc := ⟨.hbm, 519, rfl⟩
abbrev main_v438 : Ref sig .tc := ⟨.hbm, 520, rfl⟩
abbrev main_v439 : Ref sig .tc := ⟨.hbm, 521, rfl⟩
abbrev main_v440 : Ref sig .tc := ⟨.hbm, 522, rfl⟩
abbrev main_v441 : Ref sig .tc := ⟨.hbm, 523, rfl⟩
abbrev main_v442 : Ref sig .tc := ⟨.hbm, 524, rfl⟩
abbrev main_v443 : Ref sig .tc := ⟨.hbm, 525, rfl⟩
abbrev main_v444 : Ref sig .tc := ⟨.hbm, 526, rfl⟩
abbrev main_v445 : Ref sig .tc := ⟨.hbm, 527, rfl⟩
abbrev main_v446 : Ref sig .tc := ⟨.hbm, 528, rfl⟩
abbrev main_v447 : Ref sig .tc := ⟨.hbm, 529, rfl⟩
abbrev main_v448 : Ref sig .tc := ⟨.hbm, 530, rfl⟩
abbrev main_v449 : Ref sig .tc := ⟨.hbm, 531, rfl⟩
abbrev main_v450 : Ref sig .tc := ⟨.hbm, 532, rfl⟩
abbrev main_v451 : Ref sig .tc := ⟨.hbm, 533, rfl⟩
abbrev main_v452 : Ref sig .tc := ⟨.hbm, 534, rfl⟩
abbrev main_v453 : Ref sig .tc := ⟨.hbm, 535, rfl⟩
abbrev main_v454 : Ref sig .tc := ⟨.hbm, 536, rfl⟩
abbrev main_cst_72 : Ref sig .tc := ⟨.hbm, 537, rfl⟩
abbrev main_v455 : Ref sig .tc := ⟨.hbm, 538, rfl⟩
abbrev main_v456 : Ref sig .tc := ⟨.hbm, 539, rfl⟩
abbrev main_v457 : Ref sig .tc := ⟨.hbm, 540, rfl⟩
abbrev main_c_73 : Ref sig .tc := ⟨.hbm, 541, rfl⟩
abbrev main_v458 : Ref sig .tc := ⟨.hbm, 542, rfl⟩
abbrev main_v459 : Ref sig .tc := ⟨.hbm, 543, rfl⟩
abbrev main_c_74 : Ref sig .tc := ⟨.hbm, 544, rfl⟩
abbrev main_v460 : Ref sig .tc := ⟨.hbm, 545, rfl⟩
abbrev main_v461 : Ref sig .tc := ⟨.hbm, 546, rfl⟩
abbrev main_c_75 : Ref sig .tc := ⟨.hbm, 547, rfl⟩
abbrev main_v462 : Ref sig .tc := ⟨.hbm, 548, rfl⟩
abbrev main_v463 : Ref sig .tc := ⟨.hbm, 549, rfl⟩
abbrev main_c_76 : Ref sig .tc := ⟨.hbm, 550, rfl⟩
abbrev main_v464 : Ref sig .tc := ⟨.hbm, 551, rfl⟩
abbrev main_v465 : Ref sig .tc := ⟨.hbm, 552, rfl⟩
abbrev main_v466 : Ref sig .tc := ⟨.hbm, 553, rfl⟩
abbrev main_v467 : Ref sig .tc := ⟨.hbm, 554, rfl⟩
abbrev main_v468 : Ref sig .tc := ⟨.hbm, 555, rfl⟩
abbrev main_v469 : Ref sig .tc := ⟨.hbm, 556, rfl⟩
abbrev main_v470 : Ref sig .tc := ⟨.hbm, 557, rfl⟩
abbrev main_v471 : Ref sig .tc := ⟨.hbm, 558, rfl⟩
abbrev main_v472 : Ref sig .tc := ⟨.hbm, 559, rfl⟩
abbrev main_v473 : Ref sig .tc := ⟨.hbm, 560, rfl⟩
abbrev main_v474 : Ref sig .tc := ⟨.hbm, 561, rfl⟩
abbrev main_c_77 : Ref sig .tc := ⟨.hbm, 562, rfl⟩
abbrev main_v475 : Ref sig .tc := ⟨.hbm, 563, rfl⟩
abbrev main_v476 : Ref sig .tc := ⟨.hbm, 564, rfl⟩
abbrev main_v477 : Ref sig .tc := ⟨.hbm, 565, rfl⟩
abbrev main_v478 : Ref sig .tc := ⟨.hbm, 566, rfl⟩
abbrev main_v479 : Ref sig .tc := ⟨.hbm, 567, rfl⟩
abbrev main_v480 : Ref sig .tc := ⟨.hbm, 568, rfl⟩
abbrev main_v481 : Ref sig .tc := ⟨.hbm, 569, rfl⟩
abbrev main_v482 : Ref sig .tc := ⟨.hbm, 570, rfl⟩
abbrev main_c_78 : Ref sig .tc := ⟨.hbm, 571, rfl⟩
abbrev main_v483 : Ref sig .tc := ⟨.hbm, 572, rfl⟩
abbrev main_v484 : Ref sig .tc := ⟨.hbm, 573, rfl⟩
abbrev main_v485 : Ref sig .tc := ⟨.hbm, 574, rfl⟩
abbrev main_v486 : Ref sig .tc := ⟨.hbm, 575, rfl⟩
abbrev main_v487 : Ref sig .tc := ⟨.hbm, 576, rfl⟩
abbrev main_v488 : Ref sig .tc := ⟨.hbm, 577, rfl⟩
abbrev main_v489 : Ref sig .tc := ⟨.hbm, 578, rfl⟩
abbrev main_v490 : Ref sig .tc := ⟨.hbm, 579, rfl⟩
abbrev main_v491 : Ref sig .tc := ⟨.hbm, 580, rfl⟩
abbrev main_v492 : Ref sig .tc := ⟨.hbm, 581, rfl⟩
abbrev main_v493 : Ref sig .tc := ⟨.hbm, 582, rfl⟩
abbrev main_v494 : Ref sig .tc := ⟨.hbm, 583, rfl⟩
abbrev main_v495 : Ref sig .tc := ⟨.hbm, 584, rfl⟩
abbrev main_v496 : Ref sig .tc := ⟨.hbm, 585, rfl⟩
abbrev main_v497 : Ref sig .tc := ⟨.hbm, 586, rfl⟩
abbrev main_v498 : Ref sig .tc := ⟨.hbm, 587, rfl⟩
abbrev main_v499 : Ref sig .tc := ⟨.hbm, 588, rfl⟩
abbrev main_v500 : Ref sig .tc := ⟨.hbm, 589, rfl⟩
abbrev main_v501 : Ref sig .tc := ⟨.hbm, 590, rfl⟩
abbrev main_v502 : Ref sig .tc := ⟨.hbm, 591, rfl⟩
abbrev main_cst_79 : Ref sig .tc := ⟨.hbm, 592, rfl⟩
abbrev main_v503 : Ref sig .tc := ⟨.hbm, 593, rfl⟩
abbrev main_v504 : Ref sig .tc := ⟨.hbm, 594, rfl⟩
abbrev main_v505 : Ref sig .tc := ⟨.hbm, 595, rfl⟩
abbrev main_c_80 : Ref sig .tc := ⟨.hbm, 596, rfl⟩
abbrev main_v506 : Ref sig .tc := ⟨.hbm, 597, rfl⟩
abbrev main_v507 : Ref sig .tc := ⟨.hbm, 598, rfl⟩
abbrev main_c_81 : Ref sig .tc := ⟨.hbm, 599, rfl⟩
abbrev main_v508 : Ref sig .tc := ⟨.hbm, 600, rfl⟩
abbrev main_v509 : Ref sig .tc := ⟨.hbm, 601, rfl⟩
abbrev main_c_82 : Ref sig .tc := ⟨.hbm, 602, rfl⟩
abbrev main_v510 : Ref sig .tc := ⟨.hbm, 603, rfl⟩
abbrev main_v511 : Ref sig .tc := ⟨.hbm, 604, rfl⟩
abbrev main_c_83 : Ref sig .tc := ⟨.hbm, 605, rfl⟩
abbrev main_v512 : Ref sig .tc := ⟨.hbm, 606, rfl⟩
abbrev main_v513 : Ref sig .tc := ⟨.hbm, 607, rfl⟩
abbrev main_v514 : Ref sig .tc := ⟨.hbm, 608, rfl⟩
abbrev main_c_84 : Ref sig .tc := ⟨.hbm, 609, rfl⟩
abbrev main_v515 : Ref sig .tc := ⟨.hbm, 610, rfl⟩
abbrev main_v516 : Ref sig .tc := ⟨.hbm, 611, rfl⟩
abbrev main_c_85 : Ref sig .tc := ⟨.hbm, 612, rfl⟩
abbrev main_v517 : Ref sig .tc := ⟨.hbm, 613, rfl⟩
abbrev main_v518 : Ref sig .tc := ⟨.hbm, 614, rfl⟩
abbrev main_c_86 : Ref sig .tc := ⟨.hbm, 615, rfl⟩
abbrev main_v519 : Ref sig .tc := ⟨.hbm, 616, rfl⟩
abbrev main_v520 : Ref sig .tc := ⟨.hbm, 617, rfl⟩
abbrev main_c_87 : Ref sig .tc := ⟨.hbm, 618, rfl⟩
abbrev main_v521 : Ref sig .tc := ⟨.hbm, 619, rfl⟩
abbrev main_v522 : Ref sig .tc := ⟨.hbm, 620, rfl⟩
abbrev main_v523 : Ref sig .tc := ⟨.hbm, 621, rfl⟩
abbrev main_v524 : Ref sig .tc := ⟨.hbm, 622, rfl⟩
abbrev main_v525 : Ref sig .tc := ⟨.hbm, 623, rfl⟩
abbrev main_v526 : Ref sig .tc := ⟨.hbm, 624, rfl⟩
abbrev main_v527 : Ref sig .tc := ⟨.hbm, 625, rfl⟩
abbrev main_v528 : Ref sig .tc := ⟨.hbm, 626, rfl⟩
abbrev main_v529 : Ref sig .tc := ⟨.hbm, 627, rfl⟩
abbrev main_v530 : Ref sig .tc := ⟨.hbm, 628, rfl⟩
abbrev main_v531 : Ref sig .tc := ⟨.hbm, 629, rfl⟩
abbrev main_c_88 : Ref sig .tc := ⟨.hbm, 630, rfl⟩
abbrev main_v532 : Ref sig .tc := ⟨.hbm, 631, rfl⟩
abbrev main_v533 : Ref sig .tc := ⟨.hbm, 632, rfl⟩
abbrev main_v534 : Ref sig .tc := ⟨.hbm, 633, rfl⟩
abbrev main_v535 : Ref sig .tc := ⟨.hbm, 634, rfl⟩
abbrev main_v536 : Ref sig .tc := ⟨.hbm, 635, rfl⟩
abbrev main_v537 : Ref sig .tc := ⟨.hbm, 636, rfl⟩
abbrev main_v538 : Ref sig .tc := ⟨.hbm, 637, rfl⟩
abbrev main_v539 : Ref sig .tc := ⟨.hbm, 638, rfl⟩
abbrev main_c_89 : Ref sig .tc := ⟨.hbm, 639, rfl⟩
abbrev main_v540 : Ref sig .tc := ⟨.hbm, 640, rfl⟩
abbrev main_v541 : Ref sig .tc := ⟨.hbm, 641, rfl⟩
abbrev main_v542 : Ref sig .tc := ⟨.hbm, 642, rfl⟩
abbrev main_v543 : Ref sig .tc := ⟨.hbm, 643, rfl⟩
abbrev main_v544 : Ref sig .tc := ⟨.hbm, 644, rfl⟩
abbrev main_v545 : Ref sig .tc := ⟨.hbm, 645, rfl⟩
abbrev main_v546 : Ref sig .tc := ⟨.hbm, 646, rfl⟩
abbrev main_v547 : Ref sig .tc := ⟨.hbm, 647, rfl⟩
abbrev main_v548 : Ref sig .tc := ⟨.hbm, 648, rfl⟩
abbrev main_v549 : Ref sig .tc := ⟨.hbm, 649, rfl⟩
abbrev main_v550 : Ref sig .tc := ⟨.hbm, 650, rfl⟩
abbrev main_v551 : Ref sig .tc := ⟨.hbm, 651, rfl⟩
abbrev main_v552 : Ref sig .tc := ⟨.hbm, 652, rfl⟩
abbrev main_v553 : Ref sig .tc := ⟨.hbm, 653, rfl⟩
abbrev main_v554 : Ref sig .tc := ⟨.hbm, 654, rfl⟩
abbrev main_v555 : Ref sig .tc := ⟨.hbm, 655, rfl⟩
abbrev main_v556 : Ref sig .tc := ⟨.hbm, 656, rfl⟩
abbrev main_v557 : Ref sig .tc := ⟨.hbm, 657, rfl⟩
abbrev main_v558 : Ref sig .tc := ⟨.hbm, 658, rfl⟩
abbrev main_v559 : Ref sig .tc := ⟨.hbm, 659, rfl⟩
abbrev main_cst_90 : Ref sig .tc := ⟨.hbm, 660, rfl⟩
abbrev main_v560 : Ref sig .tc := ⟨.hbm, 661, rfl⟩
abbrev main_v561 : Ref sig .tc := ⟨.hbm, 662, rfl⟩
abbrev main_v562 : Ref sig .tc := ⟨.hbm, 663, rfl⟩
abbrev main_c_91 : Ref sig .tc := ⟨.hbm, 664, rfl⟩
abbrev main_v563 : Ref sig .tc := ⟨.hbm, 665, rfl⟩
abbrev main_v564 : Ref sig .tc := ⟨.hbm, 666, rfl⟩
abbrev main_c_92 : Ref sig .tc := ⟨.hbm, 667, rfl⟩
abbrev main_v565 : Ref sig .tc := ⟨.hbm, 668, rfl⟩
abbrev main_v566 : Ref sig .tc := ⟨.hbm, 669, rfl⟩
abbrev main_c_93 : Ref sig .tc := ⟨.hbm, 670, rfl⟩
abbrev main_v567 : Ref sig .tc := ⟨.hbm, 671, rfl⟩
abbrev main_v568 : Ref sig .tc := ⟨.hbm, 672, rfl⟩
abbrev main_c_94 : Ref sig .tc := ⟨.hbm, 673, rfl⟩
abbrev main_v569 : Ref sig .tc := ⟨.hbm, 674, rfl⟩
abbrev main_v570 : Ref sig .tc := ⟨.hbm, 675, rfl⟩
abbrev main_v571 : Ref sig .tc := ⟨.hbm, 676, rfl⟩
abbrev main_v572 : Ref sig .tc := ⟨.hbm, 677, rfl⟩
abbrev main_v573 : Ref sig .tc := ⟨.hbm, 678, rfl⟩
abbrev main_v574 : Ref sig .tc := ⟨.hbm, 679, rfl⟩
abbrev main_v575 : Ref sig .tc := ⟨.hbm, 680, rfl⟩
abbrev main_v576 : Ref sig .tc := ⟨.hbm, 681, rfl⟩
abbrev main_v577 : Ref sig .tc := ⟨.hbm, 682, rfl⟩
abbrev main_v578 : Ref sig .tc := ⟨.hbm, 683, rfl⟩
abbrev main_v579 : Ref sig .tc := ⟨.hbm, 684, rfl⟩
abbrev main_c_95 : Ref sig .tc := ⟨.hbm, 685, rfl⟩
abbrev main_v580 : Ref sig .tc := ⟨.hbm, 686, rfl⟩
abbrev main_v581 : Ref sig .tc := ⟨.hbm, 687, rfl⟩
abbrev main_v582 : Ref sig .tc := ⟨.hbm, 688, rfl⟩
abbrev main_v583 : Ref sig .tc := ⟨.hbm, 689, rfl⟩
abbrev main_v584 : Ref sig .tc := ⟨.hbm, 690, rfl⟩
abbrev main_v585 : Ref sig .tc := ⟨.hbm, 691, rfl⟩
abbrev main_v586 : Ref sig .tc := ⟨.hbm, 692, rfl⟩
abbrev main_v587 : Ref sig .tc := ⟨.hbm, 693, rfl⟩
abbrev main_c_96 : Ref sig .tc := ⟨.hbm, 694, rfl⟩
abbrev main_v588 : Ref sig .tc := ⟨.hbm, 695, rfl⟩
abbrev main_v589 : Ref sig .tc := ⟨.hbm, 696, rfl⟩
abbrev main_v590 : Ref sig .tc := ⟨.hbm, 697, rfl⟩
abbrev main_v591 : Ref sig .tc := ⟨.hbm, 698, rfl⟩
abbrev main_v592 : Ref sig .tc := ⟨.hbm, 699, rfl⟩
abbrev main_v593 : Ref sig .tc := ⟨.hbm, 700, rfl⟩
abbrev main_v594 : Ref sig .tc := ⟨.hbm, 701, rfl⟩
abbrev main_v595 : Ref sig .tc := ⟨.hbm, 702, rfl⟩
abbrev main_v596 : Ref sig .tc := ⟨.hbm, 703, rfl⟩
abbrev main_v597 : Ref sig .tc := ⟨.hbm, 704, rfl⟩
abbrev main_v598 : Ref sig .tc := ⟨.hbm, 705, rfl⟩
abbrev main_v599 : Ref sig .tc := ⟨.hbm, 706, rfl⟩
abbrev main_v600 : Ref sig .tc := ⟨.hbm, 707, rfl⟩
abbrev main_v601 : Ref sig .tc := ⟨.hbm, 708, rfl⟩
abbrev main_v602 : Ref sig .tc := ⟨.hbm, 709, rfl⟩
abbrev main_v603 : Ref sig .tc := ⟨.hbm, 710, rfl⟩
abbrev main_v604 : Ref sig .tc := ⟨.hbm, 711, rfl⟩
abbrev main_v605 : Ref sig .tc := ⟨.hbm, 712, rfl⟩
abbrev main_v606 : Ref sig .tc := ⟨.hbm, 713, rfl⟩
abbrev main_v607 : Ref sig .tc := ⟨.hbm, 714, rfl⟩
abbrev main_cst_97 : Ref sig .tc := ⟨.hbm, 715, rfl⟩
abbrev main_v608 : Ref sig .tc := ⟨.hbm, 716, rfl⟩
abbrev main_v609 : Ref sig .tc := ⟨.hbm, 717, rfl⟩
abbrev main_v610 : Ref sig .tc := ⟨.hbm, 718, rfl⟩
abbrev main_c_98 : Ref sig .tc := ⟨.hbm, 719, rfl⟩
abbrev main_v611 : Ref sig .tc := ⟨.hbm, 720, rfl⟩
abbrev main_v612 : Ref sig .tc := ⟨.hbm, 721, rfl⟩
abbrev main_c_99 : Ref sig .tc := ⟨.hbm, 722, rfl⟩
abbrev main_v613 : Ref sig .tc := ⟨.hbm, 723, rfl⟩
abbrev main_v614 : Ref sig .tc := ⟨.hbm, 724, rfl⟩
abbrev main_c_100 : Ref sig .tc := ⟨.hbm, 725, rfl⟩
abbrev main_v615 : Ref sig .tc := ⟨.hbm, 726, rfl⟩
abbrev main_v616 : Ref sig .tc := ⟨.hbm, 727, rfl⟩
abbrev main_c_101 : Ref sig .tc := ⟨.hbm, 728, rfl⟩
abbrev main_v617 : Ref sig .tc := ⟨.hbm, 729, rfl⟩
abbrev main_v618 : Ref sig .tc := ⟨.hbm, 730, rfl⟩
abbrev main_v619 : Ref sig .tc := ⟨.hbm, 731, rfl⟩
abbrev main_v620 : Ref sig .tc := ⟨.hbm, 732, rfl⟩
abbrev main_v621 : Ref sig .tc := ⟨.hbm, 733, rfl⟩
abbrev main_v622 : Ref sig .tc := ⟨.hbm, 734, rfl⟩
abbrev main_v623 : Ref sig .tc := ⟨.hbm, 735, rfl⟩
abbrev main_v624 : Ref sig .tc := ⟨.hbm, 736, rfl⟩
abbrev main_v625 : Ref sig .tc := ⟨.hbm, 737, rfl⟩
abbrev main_v626 : Ref sig .tc := ⟨.hbm, 738, rfl⟩
abbrev main_v627 : Ref sig .tc := ⟨.hbm, 739, rfl⟩
abbrev main_c_102 : Ref sig .tc := ⟨.hbm, 740, rfl⟩
abbrev main_v628 : Ref sig .tc := ⟨.hbm, 741, rfl⟩
abbrev main_v629 : Ref sig .tc := ⟨.hbm, 742, rfl⟩
abbrev main_v630 : Ref sig .tc := ⟨.hbm, 743, rfl⟩
abbrev main_v631 : Ref sig .tc := ⟨.hbm, 744, rfl⟩
abbrev main_v632 : Ref sig .tc := ⟨.hbm, 745, rfl⟩
abbrev main_v633 : Ref sig .tc := ⟨.hbm, 746, rfl⟩
abbrev main_v634 : Ref sig .tc := ⟨.hbm, 747, rfl⟩
abbrev main_v635 : Ref sig .tc := ⟨.hbm, 748, rfl⟩
abbrev main_c_103 : Ref sig .tc := ⟨.hbm, 749, rfl⟩
abbrev main_v636 : Ref sig .tc := ⟨.hbm, 750, rfl⟩
abbrev main_v637 : Ref sig .tc := ⟨.hbm, 751, rfl⟩
abbrev main_v638 : Ref sig .tc := ⟨.hbm, 752, rfl⟩
abbrev main_v639 : Ref sig .tc := ⟨.hbm, 753, rfl⟩
abbrev main_v640 : Ref sig .tc := ⟨.hbm, 754, rfl⟩
abbrev main_v641 : Ref sig .tc := ⟨.hbm, 755, rfl⟩
abbrev main_v642 : Ref sig .tc := ⟨.hbm, 756, rfl⟩
abbrev main_v643 : Ref sig .tc := ⟨.hbm, 757, rfl⟩
abbrev main_v644 : Ref sig .tc := ⟨.hbm, 758, rfl⟩
abbrev main_v645 : Ref sig .tc := ⟨.hbm, 759, rfl⟩
abbrev main_v646 : Ref sig .tc := ⟨.hbm, 760, rfl⟩
abbrev main_v647 : Ref sig .tc := ⟨.hbm, 761, rfl⟩
abbrev main_v648 : Ref sig .tc := ⟨.hbm, 762, rfl⟩
abbrev main_v649 : Ref sig .tc := ⟨.hbm, 763, rfl⟩
abbrev main_v650 : Ref sig .tc := ⟨.hbm, 764, rfl⟩
abbrev main_v651 : Ref sig .tc := ⟨.hbm, 765, rfl⟩
abbrev main_v652 : Ref sig .tc := ⟨.hbm, 766, rfl⟩
abbrev main_v653 : Ref sig .tc := ⟨.hbm, 767, rfl⟩
abbrev main_v654 : Ref sig .tc := ⟨.hbm, 768, rfl⟩
abbrev main_v655 : Ref sig .tc := ⟨.hbm, 769, rfl⟩
abbrev main_cst_104 : Ref sig .tc := ⟨.hbm, 770, rfl⟩
abbrev main_v656 : Ref sig .tc := ⟨.hbm, 771, rfl⟩
abbrev main_v657 : Ref sig .tc := ⟨.hbm, 772, rfl⟩
abbrev main_v658 : Ref sig .tc := ⟨.hbm, 773, rfl⟩
abbrev main_c_105 : Ref sig .tc := ⟨.hbm, 774, rfl⟩
abbrev main_v659 : Ref sig .tc := ⟨.hbm, 775, rfl⟩
abbrev main_v660 : Ref sig .tc := ⟨.hbm, 776, rfl⟩
abbrev main_c_106 : Ref sig .tc := ⟨.hbm, 777, rfl⟩
abbrev main_v661 : Ref sig .tc := ⟨.hbm, 778, rfl⟩
abbrev main_v662 : Ref sig .tc := ⟨.hbm, 779, rfl⟩
abbrev main_c_107 : Ref sig .tc := ⟨.hbm, 780, rfl⟩
abbrev main_v663 : Ref sig .tc := ⟨.hbm, 781, rfl⟩
abbrev main_v664 : Ref sig .tc := ⟨.hbm, 782, rfl⟩
abbrev main_c_108 : Ref sig .tc := ⟨.hbm, 783, rfl⟩
abbrev main_v665 : Ref sig .tc := ⟨.hbm, 784, rfl⟩
abbrev main_v666 : Ref sig .tc := ⟨.hbm, 785, rfl⟩
abbrev main_v667 : Ref sig .tc := ⟨.hbm, 786, rfl⟩
abbrev main_v668 : Ref sig .tc := ⟨.hbm, 787, rfl⟩
abbrev main_v669 : Ref sig .tc := ⟨.hbm, 788, rfl⟩
abbrev main_v670 : Ref sig .tc := ⟨.hbm, 789, rfl⟩
abbrev main_v671 : Ref sig .tc := ⟨.hbm, 790, rfl⟩
abbrev main_v672 : Ref sig .tc := ⟨.hbm, 791, rfl⟩
abbrev main_v673 : Ref sig .tc := ⟨.hbm, 792, rfl⟩
abbrev main_v674 : Ref sig .tc := ⟨.hbm, 793, rfl⟩
abbrev main_v675 : Ref sig .tc := ⟨.hbm, 794, rfl⟩
abbrev main_c_109 : Ref sig .tc := ⟨.hbm, 795, rfl⟩
abbrev main_v676 : Ref sig .tc := ⟨.hbm, 796, rfl⟩
abbrev main_v677 : Ref sig .tc := ⟨.hbm, 797, rfl⟩
abbrev main_v678 : Ref sig .tc := ⟨.hbm, 798, rfl⟩
abbrev main_v679 : Ref sig .tc := ⟨.hbm, 799, rfl⟩
abbrev main_v680 : Ref sig .tc := ⟨.hbm, 800, rfl⟩
abbrev main_v681 : Ref sig .tc := ⟨.hbm, 801, rfl⟩
abbrev main_v682 : Ref sig .tc := ⟨.hbm, 802, rfl⟩
abbrev main_v683 : Ref sig .tc := ⟨.hbm, 803, rfl⟩
abbrev main_c_110 : Ref sig .tc := ⟨.hbm, 804, rfl⟩
abbrev main_v684 : Ref sig .tc := ⟨.hbm, 805, rfl⟩
abbrev main_v685 : Ref sig .tc := ⟨.hbm, 806, rfl⟩
abbrev main_v686 : Ref sig .tc := ⟨.hbm, 807, rfl⟩
abbrev main_v687 : Ref sig .tc := ⟨.hbm, 808, rfl⟩
abbrev main_v688 : Ref sig .tc := ⟨.hbm, 809, rfl⟩
abbrev main_v689 : Ref sig .tc := ⟨.hbm, 810, rfl⟩
abbrev main_v690 : Ref sig .tc := ⟨.hbm, 811, rfl⟩
abbrev main_v691 : Ref sig .tc := ⟨.hbm, 812, rfl⟩
abbrev main_v692 : Ref sig .tc := ⟨.hbm, 813, rfl⟩
abbrev main_v693 : Ref sig .tc := ⟨.hbm, 814, rfl⟩
abbrev main_v694 : Ref sig .tc := ⟨.hbm, 815, rfl⟩
abbrev main_v695 : Ref sig .tc := ⟨.hbm, 816, rfl⟩
abbrev main_v696 : Ref sig .tc := ⟨.hbm, 817, rfl⟩
abbrev main_v697 : Ref sig .tc := ⟨.hbm, 818, rfl⟩
abbrev main_v698 : Ref sig .tc := ⟨.hbm, 819, rfl⟩
abbrev main_v699 : Ref sig .tc := ⟨.hbm, 820, rfl⟩
abbrev main_v700 : Ref sig .tc := ⟨.hbm, 821, rfl⟩
abbrev main_v701 : Ref sig .tc := ⟨.hbm, 822, rfl⟩
abbrev main_v702 : Ref sig .tc := ⟨.hbm, 823, rfl⟩
abbrev main_v703 : Ref sig .tc := ⟨.hbm, 824, rfl⟩
abbrev main_cst_111 : Ref sig .tc := ⟨.hbm, 825, rfl⟩
abbrev main_v704 : Ref sig .tc := ⟨.hbm, 826, rfl⟩
abbrev main_v705 : Ref sig .tc := ⟨.hbm, 827, rfl⟩
abbrev main_v706 : Ref sig .tc := ⟨.hbm, 828, rfl⟩
abbrev main_c_112 : Ref sig .tc := ⟨.hbm, 829, rfl⟩
abbrev main_v707 : Ref sig .tc := ⟨.hbm, 830, rfl⟩
abbrev main_v708 : Ref sig .tc := ⟨.hbm, 831, rfl⟩
abbrev main_c_113 : Ref sig .tc := ⟨.hbm, 832, rfl⟩
abbrev main_v709 : Ref sig .tc := ⟨.hbm, 833, rfl⟩
abbrev main_v710 : Ref sig .tc := ⟨.hbm, 834, rfl⟩
abbrev main_c_114 : Ref sig .tc := ⟨.hbm, 835, rfl⟩
abbrev main_v711 : Ref sig .tc := ⟨.hbm, 836, rfl⟩
abbrev main_v712 : Ref sig .tc := ⟨.hbm, 837, rfl⟩
abbrev main_c_115 : Ref sig .tc := ⟨.hbm, 838, rfl⟩
abbrev main_v713 : Ref sig .tc := ⟨.hbm, 839, rfl⟩
abbrev main_v714 : Ref sig .tc := ⟨.hbm, 840, rfl⟩
abbrev main_v715 : Ref sig .tc := ⟨.hbm, 841, rfl⟩
abbrev main_v716 : Ref sig .tc := ⟨.hbm, 842, rfl⟩
abbrev main_v717 : Ref sig .tc := ⟨.hbm, 843, rfl⟩
abbrev main_v718 : Ref sig .tc := ⟨.hbm, 844, rfl⟩
abbrev main_v719 : Ref sig .tc := ⟨.hbm, 845, rfl⟩
abbrev main_v720 : Ref sig .tc := ⟨.hbm, 846, rfl⟩
abbrev main_v721 : Ref sig .tc := ⟨.hbm, 847, rfl⟩
abbrev main_v722 : Ref sig .tc := ⟨.hbm, 848, rfl⟩
abbrev main_v723 : Ref sig .tc := ⟨.hbm, 849, rfl⟩
abbrev main_c_116 : Ref sig .tc := ⟨.hbm, 850, rfl⟩
abbrev main_v724 : Ref sig .tc := ⟨.hbm, 851, rfl⟩
abbrev main_v725 : Ref sig .tc := ⟨.hbm, 852, rfl⟩
abbrev main_v726 : Ref sig .tc := ⟨.hbm, 853, rfl⟩
abbrev main_v727 : Ref sig .tc := ⟨.hbm, 854, rfl⟩
abbrev main_v728 : Ref sig .tc := ⟨.hbm, 855, rfl⟩
abbrev main_v729 : Ref sig .tc := ⟨.hbm, 856, rfl⟩
abbrev main_v730 : Ref sig .tc := ⟨.hbm, 857, rfl⟩
abbrev main_v731 : Ref sig .tc := ⟨.hbm, 858, rfl⟩
abbrev main_c_117 : Ref sig .tc := ⟨.hbm, 859, rfl⟩
abbrev main_v732 : Ref sig .tc := ⟨.hbm, 860, rfl⟩
abbrev main_v733 : Ref sig .tc := ⟨.hbm, 861, rfl⟩
abbrev main_v734 : Ref sig .tc := ⟨.hbm, 862, rfl⟩
abbrev main_v735 : Ref sig .tc := ⟨.hbm, 863, rfl⟩
abbrev main_v736 : Ref sig .tc := ⟨.hbm, 864, rfl⟩
abbrev main_v737 : Ref sig .tc := ⟨.hbm, 865, rfl⟩
abbrev main_v738 : Ref sig .tc := ⟨.hbm, 866, rfl⟩
abbrev main_v739 : Ref sig .tc := ⟨.hbm, 867, rfl⟩
abbrev main_v740 : Ref sig .tc := ⟨.hbm, 868, rfl⟩
abbrev main_v741 : Ref sig .tc := ⟨.hbm, 869, rfl⟩
abbrev main_v742 : Ref sig .tc := ⟨.hbm, 870, rfl⟩
abbrev main_v743 : Ref sig .tc := ⟨.hbm, 871, rfl⟩
abbrev main_v744 : Ref sig .tc := ⟨.hbm, 872, rfl⟩
abbrev main_v745 : Ref sig .tc := ⟨.hbm, 873, rfl⟩
abbrev main_v746 : Ref sig .tc := ⟨.hbm, 874, rfl⟩
abbrev main_v747 : Ref sig .tc := ⟨.hbm, 875, rfl⟩
abbrev main_v748 : Ref sig .tc := ⟨.hbm, 876, rfl⟩
abbrev main_v749 : Ref sig .tc := ⟨.hbm, 877, rfl⟩
abbrev main_v750 : Ref sig .tc := ⟨.hbm, 878, rfl⟩
abbrev main_v751 : Ref sig .tc := ⟨.hbm, 879, rfl⟩
abbrev main_cst_118 : Ref sig .tc := ⟨.hbm, 880, rfl⟩
abbrev main_v752 : Ref sig .tc := ⟨.hbm, 881, rfl⟩
abbrev main_v753 : Ref sig .tc := ⟨.hbm, 882, rfl⟩
abbrev main_v754 : Ref sig .tc := ⟨.hbm, 883, rfl⟩
abbrev main_c_119 : Ref sig .tc := ⟨.hbm, 884, rfl⟩
abbrev main_v755 : Ref sig .tc := ⟨.hbm, 885, rfl⟩
abbrev main_v756 : Ref sig .tc := ⟨.hbm, 886, rfl⟩
abbrev main_c_120 : Ref sig .tc := ⟨.hbm, 887, rfl⟩
abbrev main_v757 : Ref sig .tc := ⟨.hbm, 888, rfl⟩
abbrev main_v758 : Ref sig .tc := ⟨.hbm, 889, rfl⟩
abbrev main_c_121 : Ref sig .tc := ⟨.hbm, 890, rfl⟩
abbrev main_v759 : Ref sig .tc := ⟨.hbm, 891, rfl⟩
abbrev main_v760 : Ref sig .tc := ⟨.hbm, 892, rfl⟩
abbrev main_c_122 : Ref sig .tc := ⟨.hbm, 893, rfl⟩
abbrev main_v761 : Ref sig .tc := ⟨.hbm, 894, rfl⟩
abbrev main_v762 : Ref sig .tc := ⟨.hbm, 895, rfl⟩
abbrev main_v763 : Ref sig .tc := ⟨.hbm, 896, rfl⟩
abbrev main_c_123 : Ref sig .tc := ⟨.hbm, 897, rfl⟩
abbrev main_v764 : Ref sig .tc := ⟨.hbm, 898, rfl⟩
abbrev main_v765 : Ref sig .tc := ⟨.hbm, 899, rfl⟩
abbrev main_c_124 : Ref sig .tc := ⟨.hbm, 900, rfl⟩
abbrev main_v766 : Ref sig .tc := ⟨.hbm, 901, rfl⟩
abbrev main_v767 : Ref sig .tc := ⟨.hbm, 902, rfl⟩
abbrev main_c_125 : Ref sig .tc := ⟨.hbm, 903, rfl⟩
abbrev main_v768 : Ref sig .tc := ⟨.hbm, 904, rfl⟩
abbrev main_v769 : Ref sig .tc := ⟨.hbm, 905, rfl⟩
abbrev main_c_126 : Ref sig .tc := ⟨.hbm, 906, rfl⟩
abbrev main_v770 : Ref sig .tc := ⟨.hbm, 907, rfl⟩
abbrev main_v771 : Ref sig .tc := ⟨.hbm, 908, rfl⟩
abbrev main_v772 : Ref sig .tc := ⟨.hbm, 909, rfl⟩
abbrev main_v773 : Ref sig .tc := ⟨.hbm, 910, rfl⟩
abbrev main_v774 : Ref sig .tc := ⟨.hbm, 911, rfl⟩
abbrev main_v775 : Ref sig .tc := ⟨.hbm, 912, rfl⟩
abbrev main_v776 : Ref sig .tc := ⟨.hbm, 913, rfl⟩
abbrev main_v777 : Ref sig .tc := ⟨.hbm, 914, rfl⟩
abbrev main_v778 : Ref sig .tc := ⟨.hbm, 915, rfl⟩
abbrev main_v779 : Ref sig .tc := ⟨.hbm, 916, rfl⟩
abbrev main_v780 : Ref sig .tc := ⟨.hbm, 917, rfl⟩
abbrev main_c_127 : Ref sig .tc := ⟨.hbm, 918, rfl⟩
abbrev main_v781 : Ref sig .tc := ⟨.hbm, 919, rfl⟩
abbrev main_v782 : Ref sig .tc := ⟨.hbm, 920, rfl⟩
abbrev main_v783 : Ref sig .tc := ⟨.hbm, 921, rfl⟩
abbrev main_v784 : Ref sig .tc := ⟨.hbm, 922, rfl⟩
abbrev main_v785 : Ref sig .tc := ⟨.hbm, 923, rfl⟩
abbrev main_v786 : Ref sig .tc := ⟨.hbm, 924, rfl⟩
abbrev main_v787 : Ref sig .tc := ⟨.hbm, 925, rfl⟩
abbrev main_v788 : Ref sig .tc := ⟨.hbm, 926, rfl⟩
abbrev main_c_128 : Ref sig .tc := ⟨.hbm, 927, rfl⟩
abbrev main_v789 : Ref sig .tc := ⟨.hbm, 928, rfl⟩
abbrev main_v790 : Ref sig .tc := ⟨.hbm, 929, rfl⟩
abbrev main_v791 : Ref sig .tc := ⟨.hbm, 930, rfl⟩
abbrev main_v792 : Ref sig .tc := ⟨.hbm, 931, rfl⟩
abbrev main_v793 : Ref sig .tc := ⟨.hbm, 932, rfl⟩
abbrev main_v794 : Ref sig .tc := ⟨.hbm, 933, rfl⟩
abbrev main_v795 : Ref sig .tc := ⟨.hbm, 934, rfl⟩
abbrev main_v796 : Ref sig .tc := ⟨.hbm, 935, rfl⟩
abbrev main_v797 : Ref sig .tc := ⟨.hbm, 936, rfl⟩
abbrev main_v798 : Ref sig .tc := ⟨.hbm, 937, rfl⟩
abbrev main_v799 : Ref sig .tc := ⟨.hbm, 938, rfl⟩
abbrev main_v800 : Ref sig .tc := ⟨.hbm, 939, rfl⟩
abbrev main_v801 : Ref sig .tc := ⟨.hbm, 940, rfl⟩
abbrev main_v802 : Ref sig .tc := ⟨.hbm, 941, rfl⟩
abbrev main_v803 : Ref sig .tc := ⟨.hbm, 942, rfl⟩
abbrev main_v804 : Ref sig .tc := ⟨.hbm, 943, rfl⟩
abbrev main_v805 : Ref sig .tc := ⟨.hbm, 944, rfl⟩
abbrev main_v806 : Ref sig .tc := ⟨.hbm, 945, rfl⟩
abbrev main_v807 : Ref sig .tc := ⟨.hbm, 946, rfl⟩
abbrev main_v808 : Ref sig .tc := ⟨.hbm, 947, rfl⟩
abbrev main_cst_129 : Ref sig .tc := ⟨.hbm, 948, rfl⟩
abbrev main_v809 : Ref sig .tc := ⟨.hbm, 949, rfl⟩
abbrev main_v810 : Ref sig .tc := ⟨.hbm, 950, rfl⟩
abbrev main_v811 : Ref sig .tc := ⟨.hbm, 951, rfl⟩
abbrev main_c_130 : Ref sig .tc := ⟨.hbm, 952, rfl⟩
abbrev main_v812 : Ref sig .tc := ⟨.hbm, 953, rfl⟩
abbrev main_v813 : Ref sig .tc := ⟨.hbm, 954, rfl⟩
abbrev main_c_131 : Ref sig .tc := ⟨.hbm, 955, rfl⟩
abbrev main_v814 : Ref sig .tc := ⟨.hbm, 956, rfl⟩
abbrev main_v815 : Ref sig .tc := ⟨.hbm, 957, rfl⟩
abbrev main_c_132 : Ref sig .tc := ⟨.hbm, 958, rfl⟩
abbrev main_v816 : Ref sig .tc := ⟨.hbm, 959, rfl⟩
abbrev main_v817 : Ref sig .tc := ⟨.hbm, 960, rfl⟩
abbrev main_c_133 : Ref sig .tc := ⟨.hbm, 961, rfl⟩
abbrev main_v818 : Ref sig .tc := ⟨.hbm, 962, rfl⟩
abbrev main_v819 : Ref sig .tc := ⟨.hbm, 963, rfl⟩
abbrev main_v820 : Ref sig .tc := ⟨.hbm, 964, rfl⟩
abbrev main_v821 : Ref sig .tc := ⟨.hbm, 965, rfl⟩
abbrev main_v822 : Ref sig .tc := ⟨.hbm, 966, rfl⟩
abbrev main_v823 : Ref sig .tc := ⟨.hbm, 967, rfl⟩
abbrev main_v824 : Ref sig .tc := ⟨.hbm, 968, rfl⟩
abbrev main_v825 : Ref sig .tc := ⟨.hbm, 969, rfl⟩
abbrev main_v826 : Ref sig .tc := ⟨.hbm, 970, rfl⟩
abbrev main_v827 : Ref sig .tc := ⟨.hbm, 971, rfl⟩
abbrev main_v828 : Ref sig .tc := ⟨.hbm, 972, rfl⟩
abbrev main_c_134 : Ref sig .tc := ⟨.hbm, 973, rfl⟩
abbrev main_v829 : Ref sig .tc := ⟨.hbm, 974, rfl⟩
abbrev main_v830 : Ref sig .tc := ⟨.hbm, 975, rfl⟩
abbrev main_v831 : Ref sig .tc := ⟨.hbm, 976, rfl⟩
abbrev main_v832 : Ref sig .tc := ⟨.hbm, 977, rfl⟩
abbrev main_v833 : Ref sig .tc := ⟨.hbm, 978, rfl⟩
abbrev main_v834 : Ref sig .tc := ⟨.hbm, 979, rfl⟩
abbrev main_v835 : Ref sig .tc := ⟨.hbm, 980, rfl⟩
abbrev main_v836 : Ref sig .tc := ⟨.hbm, 981, rfl⟩
abbrev main_c_135 : Ref sig .tc := ⟨.hbm, 982, rfl⟩
abbrev main_v837 : Ref sig .tc := ⟨.hbm, 983, rfl⟩
abbrev main_v838 : Ref sig .tc := ⟨.hbm, 984, rfl⟩
abbrev main_v839 : Ref sig .tc := ⟨.hbm, 985, rfl⟩
abbrev main_v840 : Ref sig .tc := ⟨.hbm, 986, rfl⟩
abbrev main_v841 : Ref sig .tc := ⟨.hbm, 987, rfl⟩
abbrev main_v842 : Ref sig .tc := ⟨.hbm, 988, rfl⟩
abbrev main_v843 : Ref sig .tc := ⟨.hbm, 989, rfl⟩
abbrev main_v844 : Ref sig .tc := ⟨.hbm, 990, rfl⟩
abbrev main_v845 : Ref sig .tc := ⟨.hbm, 991, rfl⟩
abbrev main_v846 : Ref sig .tc := ⟨.hbm, 992, rfl⟩
abbrev main_v847 : Ref sig .tc := ⟨.hbm, 993, rfl⟩
abbrev main_v848 : Ref sig .tc := ⟨.hbm, 994, rfl⟩
abbrev main_v849 : Ref sig .tc := ⟨.hbm, 995, rfl⟩
abbrev main_v850 : Ref sig .tc := ⟨.hbm, 996, rfl⟩
abbrev main_v851 : Ref sig .tc := ⟨.hbm, 997, rfl⟩
abbrev main_v852 : Ref sig .tc := ⟨.hbm, 998, rfl⟩
abbrev main_v853 : Ref sig .tc := ⟨.hbm, 999, rfl⟩
abbrev main_v854 : Ref sig .tc := ⟨.hbm, 1000, rfl⟩
abbrev main_v855 : Ref sig .tc := ⟨.hbm, 1001, rfl⟩
abbrev main_v856 : Ref sig .tc := ⟨.hbm, 1002, rfl⟩
abbrev main_cst_136 : Ref sig .tc := ⟨.hbm, 1003, rfl⟩
abbrev main_v857 : Ref sig .tc := ⟨.hbm, 1004, rfl⟩
abbrev main_v858 : Ref sig .tc := ⟨.hbm, 1005, rfl⟩
abbrev main_v859 : Ref sig .tc := ⟨.hbm, 1006, rfl⟩
abbrev main_c_137 : Ref sig .tc := ⟨.hbm, 1007, rfl⟩
abbrev main_v860 : Ref sig .tc := ⟨.hbm, 1008, rfl⟩
abbrev main_v861 : Ref sig .tc := ⟨.hbm, 1009, rfl⟩
abbrev main_c_138 : Ref sig .tc := ⟨.hbm, 1010, rfl⟩
abbrev main_v862 : Ref sig .tc := ⟨.hbm, 1011, rfl⟩
abbrev main_v863 : Ref sig .tc := ⟨.hbm, 1012, rfl⟩
abbrev main_c_139 : Ref sig .tc := ⟨.hbm, 1013, rfl⟩
abbrev main_v864 : Ref sig .tc := ⟨.hbm, 1014, rfl⟩
abbrev main_v865 : Ref sig .tc := ⟨.hbm, 1015, rfl⟩
abbrev main_c_140 : Ref sig .tc := ⟨.hbm, 1016, rfl⟩
abbrev main_v866 : Ref sig .tc := ⟨.hbm, 1017, rfl⟩
abbrev main_v867 : Ref sig .tc := ⟨.hbm, 1018, rfl⟩
abbrev main_v868 : Ref sig .tc := ⟨.hbm, 1019, rfl⟩
abbrev main_v869 : Ref sig .tc := ⟨.hbm, 1020, rfl⟩
abbrev main_v870 : Ref sig .tc := ⟨.hbm, 1021, rfl⟩
abbrev main_v871 : Ref sig .tc := ⟨.hbm, 1022, rfl⟩
abbrev main_v872 : Ref sig .tc := ⟨.hbm, 1023, rfl⟩
abbrev main_v873 : Ref sig .tc := ⟨.hbm, 1024, rfl⟩
abbrev main_v874 : Ref sig .tc := ⟨.hbm, 1025, rfl⟩
abbrev main_v875 : Ref sig .tc := ⟨.hbm, 1026, rfl⟩
abbrev main_v876 : Ref sig .tc := ⟨.hbm, 1027, rfl⟩
abbrev main_c_141 : Ref sig .tc := ⟨.hbm, 1028, rfl⟩
abbrev main_v877 : Ref sig .tc := ⟨.hbm, 1029, rfl⟩
abbrev main_v878 : Ref sig .tc := ⟨.hbm, 1030, rfl⟩
abbrev main_v879 : Ref sig .tc := ⟨.hbm, 1031, rfl⟩
abbrev main_v880 : Ref sig .tc := ⟨.hbm, 1032, rfl⟩
abbrev main_v881 : Ref sig .tc := ⟨.hbm, 1033, rfl⟩
abbrev main_v882 : Ref sig .tc := ⟨.hbm, 1034, rfl⟩
abbrev main_v883 : Ref sig .tc := ⟨.hbm, 1035, rfl⟩
abbrev main_v884 : Ref sig .tc := ⟨.hbm, 1036, rfl⟩
abbrev main_c_142 : Ref sig .tc := ⟨.hbm, 1037, rfl⟩
abbrev main_v885 : Ref sig .tc := ⟨.hbm, 1038, rfl⟩
abbrev main_v886 : Ref sig .tc := ⟨.hbm, 1039, rfl⟩
abbrev main_v887 : Ref sig .tc := ⟨.hbm, 1040, rfl⟩
abbrev main_v888 : Ref sig .tc := ⟨.hbm, 1041, rfl⟩
abbrev main_v889 : Ref sig .tc := ⟨.hbm, 1042, rfl⟩
abbrev main_v890 : Ref sig .tc := ⟨.hbm, 1043, rfl⟩
abbrev main_v891 : Ref sig .tc := ⟨.hbm, 1044, rfl⟩
abbrev main_v892 : Ref sig .tc := ⟨.hbm, 1045, rfl⟩
abbrev main_v893 : Ref sig .tc := ⟨.hbm, 1046, rfl⟩
abbrev main_v894 : Ref sig .tc := ⟨.hbm, 1047, rfl⟩
abbrev main_v895 : Ref sig .tc := ⟨.hbm, 1048, rfl⟩
abbrev main_v896 : Ref sig .tc := ⟨.hbm, 1049, rfl⟩
abbrev main_v897 : Ref sig .tc := ⟨.hbm, 1050, rfl⟩
abbrev main_v898 : Ref sig .tc := ⟨.hbm, 1051, rfl⟩
abbrev main_v899 : Ref sig .tc := ⟨.hbm, 1052, rfl⟩
abbrev main_v900 : Ref sig .tc := ⟨.hbm, 1053, rfl⟩
abbrev main_v901 : Ref sig .tc := ⟨.hbm, 1054, rfl⟩
abbrev main_v902 : Ref sig .tc := ⟨.hbm, 1055, rfl⟩
abbrev main_v903 : Ref sig .tc := ⟨.hbm, 1056, rfl⟩
abbrev main_v904 : Ref sig .tc := ⟨.hbm, 1057, rfl⟩
abbrev main_cst_143 : Ref sig .tc := ⟨.hbm, 1058, rfl⟩
abbrev main_v905 : Ref sig .tc := ⟨.hbm, 1059, rfl⟩
abbrev main_v906 : Ref sig .tc := ⟨.hbm, 1060, rfl⟩
abbrev main_v907 : Ref sig .tc := ⟨.hbm, 1061, rfl⟩
abbrev main_c_144 : Ref sig .tc := ⟨.hbm, 1062, rfl⟩
abbrev main_v908 : Ref sig .tc := ⟨.hbm, 1063, rfl⟩
abbrev main_v909 : Ref sig .tc := ⟨.hbm, 1064, rfl⟩
abbrev main_c_145 : Ref sig .tc := ⟨.hbm, 1065, rfl⟩
abbrev main_v910 : Ref sig .tc := ⟨.hbm, 1066, rfl⟩
abbrev main_v911 : Ref sig .tc := ⟨.hbm, 1067, rfl⟩
abbrev main_c_146 : Ref sig .tc := ⟨.hbm, 1068, rfl⟩
abbrev main_v912 : Ref sig .tc := ⟨.hbm, 1069, rfl⟩
abbrev main_v913 : Ref sig .tc := ⟨.hbm, 1070, rfl⟩
abbrev main_c_147 : Ref sig .tc := ⟨.hbm, 1071, rfl⟩
abbrev main_v914 : Ref sig .tc := ⟨.hbm, 1072, rfl⟩
abbrev main_v915 : Ref sig .tc := ⟨.hbm, 1073, rfl⟩
abbrev main_v916 : Ref sig .tc := ⟨.hbm, 1074, rfl⟩
abbrev main_v917 : Ref sig .tc := ⟨.hbm, 1075, rfl⟩
abbrev main_v918 : Ref sig .tc := ⟨.hbm, 1076, rfl⟩
abbrev main_v919 : Ref sig .tc := ⟨.hbm, 1077, rfl⟩
abbrev main_v920 : Ref sig .tc := ⟨.hbm, 1078, rfl⟩
abbrev main_v921 : Ref sig .tc := ⟨.hbm, 1079, rfl⟩
abbrev main_v922 : Ref sig .tc := ⟨.hbm, 1080, rfl⟩
abbrev main_v923 : Ref sig .tc := ⟨.hbm, 1081, rfl⟩
abbrev main_v924 : Ref sig .tc := ⟨.hbm, 1082, rfl⟩
abbrev main_c_148 : Ref sig .tc := ⟨.hbm, 1083, rfl⟩
abbrev main_v925 : Ref sig .tc := ⟨.hbm, 1084, rfl⟩
abbrev main_v926 : Ref sig .tc := ⟨.hbm, 1085, rfl⟩
abbrev main_v927 : Ref sig .tc := ⟨.hbm, 1086, rfl⟩
abbrev main_v928 : Ref sig .tc := ⟨.hbm, 1087, rfl⟩
abbrev main_v929 : Ref sig .tc := ⟨.hbm, 1088, rfl⟩
abbrev main_v930 : Ref sig .tc := ⟨.hbm, 1089, rfl⟩
abbrev main_v931 : Ref sig .tc := ⟨.hbm, 1090, rfl⟩
abbrev main_v932 : Ref sig .tc := ⟨.hbm, 1091, rfl⟩
abbrev main_c_149 : Ref sig .tc := ⟨.hbm, 1092, rfl⟩
abbrev main_v933 : Ref sig .tc := ⟨.hbm, 1093, rfl⟩
abbrev main_v934 : Ref sig .tc := ⟨.hbm, 1094, rfl⟩
abbrev main_v935 : Ref sig .tc := ⟨.hbm, 1095, rfl⟩
abbrev main_v936 : Ref sig .tc := ⟨.hbm, 1096, rfl⟩
abbrev main_v937 : Ref sig .tc := ⟨.hbm, 1097, rfl⟩
abbrev main_v938 : Ref sig .tc := ⟨.hbm, 1098, rfl⟩
abbrev main_v939 : Ref sig .tc := ⟨.hbm, 1099, rfl⟩
abbrev main_v940 : Ref sig .tc := ⟨.hbm, 1100, rfl⟩
abbrev main_v941 : Ref sig .tc := ⟨.hbm, 1101, rfl⟩
abbrev main_v942 : Ref sig .tc := ⟨.hbm, 1102, rfl⟩
abbrev main_v943 : Ref sig .tc := ⟨.hbm, 1103, rfl⟩
abbrev main_v944 : Ref sig .tc := ⟨.hbm, 1104, rfl⟩
abbrev main_v945 : Ref sig .tc := ⟨.hbm, 1105, rfl⟩
abbrev main_v946 : Ref sig .tc := ⟨.hbm, 1106, rfl⟩
abbrev main_v947 : Ref sig .tc := ⟨.hbm, 1107, rfl⟩
abbrev main_v948 : Ref sig .tc := ⟨.hbm, 1108, rfl⟩
abbrev main_v949 : Ref sig .tc := ⟨.hbm, 1109, rfl⟩
abbrev main_v950 : Ref sig .tc := ⟨.hbm, 1110, rfl⟩
abbrev main_v951 : Ref sig .tc := ⟨.hbm, 1111, rfl⟩
abbrev main_v952 : Ref sig .tc := ⟨.hbm, 1112, rfl⟩
abbrev main_cst_150 : Ref sig .tc := ⟨.hbm, 1113, rfl⟩
abbrev main_v953 : Ref sig .tc := ⟨.hbm, 1114, rfl⟩
abbrev main_v954 : Ref sig .tc := ⟨.hbm, 1115, rfl⟩
abbrev main_v955 : Ref sig .tc := ⟨.hbm, 1116, rfl⟩
abbrev main_c_151 : Ref sig .tc := ⟨.hbm, 1117, rfl⟩
abbrev main_v956 : Ref sig .tc := ⟨.hbm, 1118, rfl⟩
abbrev main_v957 : Ref sig .tc := ⟨.hbm, 1119, rfl⟩
abbrev main_c_152 : Ref sig .tc := ⟨.hbm, 1120, rfl⟩
abbrev main_v958 : Ref sig .tc := ⟨.hbm, 1121, rfl⟩
abbrev main_v959 : Ref sig .tc := ⟨.hbm, 1122, rfl⟩
abbrev main_c_153 : Ref sig .tc := ⟨.hbm, 1123, rfl⟩
abbrev main_v960 : Ref sig .tc := ⟨.hbm, 1124, rfl⟩
abbrev main_v961 : Ref sig .tc := ⟨.hbm, 1125, rfl⟩
abbrev main_c_154 : Ref sig .tc := ⟨.hbm, 1126, rfl⟩
abbrev main_v962 : Ref sig .tc := ⟨.hbm, 1127, rfl⟩
abbrev main_v963 : Ref sig .tc := ⟨.hbm, 1128, rfl⟩
abbrev main_v964 : Ref sig .tc := ⟨.hbm, 1129, rfl⟩
abbrev main_v965 : Ref sig .tc := ⟨.hbm, 1130, rfl⟩
abbrev main_v966 : Ref sig .tc := ⟨.hbm, 1131, rfl⟩
abbrev main_v967 : Ref sig .tc := ⟨.hbm, 1132, rfl⟩
abbrev main_v968 : Ref sig .tc := ⟨.hbm, 1133, rfl⟩
abbrev main_v969 : Ref sig .tc := ⟨.hbm, 1134, rfl⟩
abbrev main_v970 : Ref sig .tc := ⟨.hbm, 1135, rfl⟩
abbrev main_v971 : Ref sig .tc := ⟨.hbm, 1136, rfl⟩
abbrev main_v972 : Ref sig .tc := ⟨.hbm, 1137, rfl⟩
abbrev main_c_155 : Ref sig .tc := ⟨.hbm, 1138, rfl⟩
abbrev main_v973 : Ref sig .tc := ⟨.hbm, 1139, rfl⟩
abbrev main_v974 : Ref sig .tc := ⟨.hbm, 1140, rfl⟩
abbrev main_v975 : Ref sig .tc := ⟨.hbm, 1141, rfl⟩
abbrev main_v976 : Ref sig .tc := ⟨.hbm, 1142, rfl⟩
abbrev main_v977 : Ref sig .tc := ⟨.hbm, 1143, rfl⟩
abbrev main_v978 : Ref sig .tc := ⟨.hbm, 1144, rfl⟩
abbrev main_v979 : Ref sig .tc := ⟨.hbm, 1145, rfl⟩
abbrev main_v980 : Ref sig .tc := ⟨.hbm, 1146, rfl⟩
abbrev main_c_156 : Ref sig .tc := ⟨.hbm, 1147, rfl⟩
abbrev main_v981 : Ref sig .tc := ⟨.hbm, 1148, rfl⟩
abbrev main_v982 : Ref sig .tc := ⟨.hbm, 1149, rfl⟩
abbrev main_v983 : Ref sig .tc := ⟨.hbm, 1150, rfl⟩
abbrev main_v984 : Ref sig .tc := ⟨.hbm, 1151, rfl⟩
abbrev main_v985 : Ref sig .tc := ⟨.hbm, 1152, rfl⟩
abbrev main_v986 : Ref sig .tc := ⟨.hbm, 1153, rfl⟩
abbrev main_v987 : Ref sig .tc := ⟨.hbm, 1154, rfl⟩
abbrev main_v988 : Ref sig .tc := ⟨.hbm, 1155, rfl⟩
abbrev main_v989 : Ref sig .tc := ⟨.hbm, 1156, rfl⟩
abbrev main_v990 : Ref sig .tc := ⟨.hbm, 1157, rfl⟩
abbrev main_v991 : Ref sig .tc := ⟨.hbm, 1158, rfl⟩
abbrev main_v992 : Ref sig .tc := ⟨.hbm, 1159, rfl⟩
abbrev main_v993 : Ref sig .tc := ⟨.hbm, 1160, rfl⟩
abbrev main_v994 : Ref sig .tc := ⟨.hbm, 1161, rfl⟩
abbrev main_v995 : Ref sig .tc := ⟨.hbm, 1162, rfl⟩
abbrev main_v996 : Ref sig .tc := ⟨.hbm, 1163, rfl⟩
abbrev main_v997 : Ref sig .tc := ⟨.hbm, 1164, rfl⟩
abbrev main_v998 : Ref sig .tc := ⟨.hbm, 1165, rfl⟩
abbrev main_v999 : Ref sig .tc := ⟨.hbm, 1166, rfl⟩
abbrev main_v1000 : Ref sig .tc := ⟨.hbm, 1167, rfl⟩
abbrev main_cst_157 : Ref sig .tc := ⟨.hbm, 1168, rfl⟩
abbrev main_v1001 : Ref sig .tc := ⟨.hbm, 1169, rfl⟩
abbrev main_v1002 : Ref sig .tc := ⟨.hbm, 1170, rfl⟩
abbrev main_v1003 : Ref sig .tc := ⟨.hbm, 1171, rfl⟩
abbrev main_c_158 : Ref sig .tc := ⟨.hbm, 1172, rfl⟩
abbrev main_v1004 : Ref sig .tc := ⟨.hbm, 1173, rfl⟩
abbrev main_v1005 : Ref sig .tc := ⟨.hbm, 1174, rfl⟩
abbrev main_c_159 : Ref sig .tc := ⟨.hbm, 1175, rfl⟩
abbrev main_v1006 : Ref sig .tc := ⟨.hbm, 1176, rfl⟩
abbrev main_v1007 : Ref sig .tc := ⟨.hbm, 1177, rfl⟩
abbrev main_c_160 : Ref sig .tc := ⟨.hbm, 1178, rfl⟩
abbrev main_v1008 : Ref sig .tc := ⟨.hbm, 1179, rfl⟩
abbrev main_v1009 : Ref sig .tc := ⟨.hbm, 1180, rfl⟩
abbrev main_c_161 : Ref sig .tc := ⟨.hbm, 1181, rfl⟩
abbrev main_v1010 : Ref sig .tc := ⟨.hbm, 1182, rfl⟩
abbrev main_v1011 : Ref sig .tc := ⟨.hbm, 1183, rfl⟩
abbrev main_v1012 : Ref sig .tc := ⟨.hbm, 1184, rfl⟩
abbrev main_c_162 : Ref sig .tc := ⟨.hbm, 1185, rfl⟩
abbrev main_v1013 : Ref sig .tc := ⟨.hbm, 1186, rfl⟩
abbrev main_v1014 : Ref sig .tc := ⟨.hbm, 1187, rfl⟩
abbrev main_c_163 : Ref sig .tc := ⟨.hbm, 1188, rfl⟩
abbrev main_v1015 : Ref sig .tc := ⟨.hbm, 1189, rfl⟩
abbrev main_v1016 : Ref sig .tc := ⟨.hbm, 1190, rfl⟩
abbrev main_c_164 : Ref sig .tc := ⟨.hbm, 1191, rfl⟩
abbrev main_v1017 : Ref sig .tc := ⟨.hbm, 1192, rfl⟩
abbrev main_v1018 : Ref sig .tc := ⟨.hbm, 1193, rfl⟩
abbrev main_c_165 : Ref sig .tc := ⟨.hbm, 1194, rfl⟩
abbrev main_v1019 : Ref sig .tc := ⟨.hbm, 1195, rfl⟩
abbrev main_v1020 : Ref sig .tc := ⟨.hbm, 1196, rfl⟩
abbrev main_v1021 : Ref sig .tc := ⟨.hbm, 1197, rfl⟩
abbrev main_v1022 : Ref sig .tc := ⟨.hbm, 1198, rfl⟩
abbrev main_v1023 : Ref sig .tc := ⟨.hbm, 1199, rfl⟩
abbrev main_v1024 : Ref sig .tc := ⟨.hbm, 1200, rfl⟩
abbrev main_v1025 : Ref sig .tc := ⟨.hbm, 1201, rfl⟩
abbrev main_v1026 : Ref sig .tc := ⟨.hbm, 1202, rfl⟩
abbrev main_v1027 : Ref sig .tc := ⟨.hbm, 1203, rfl⟩
abbrev main_v1028 : Ref sig .tc := ⟨.hbm, 1204, rfl⟩
abbrev main_v1029 : Ref sig .tc := ⟨.hbm, 1205, rfl⟩
abbrev main_c_166 : Ref sig .tc := ⟨.hbm, 1206, rfl⟩
abbrev main_v1030 : Ref sig .tc := ⟨.hbm, 1207, rfl⟩
abbrev main_v1031 : Ref sig .tc := ⟨.hbm, 1208, rfl⟩
abbrev main_v1032 : Ref sig .tc := ⟨.hbm, 1209, rfl⟩
abbrev main_v1033 : Ref sig .tc := ⟨.hbm, 1210, rfl⟩
abbrev main_v1034 : Ref sig .tc := ⟨.hbm, 1211, rfl⟩
abbrev main_v1035 : Ref sig .tc := ⟨.hbm, 1212, rfl⟩
abbrev main_v1036 : Ref sig .tc := ⟨.hbm, 1213, rfl⟩
abbrev main_v1037 : Ref sig .tc := ⟨.hbm, 1214, rfl⟩
abbrev main_c_167 : Ref sig .tc := ⟨.hbm, 1215, rfl⟩
abbrev main_v1038 : Ref sig .tc := ⟨.hbm, 1216, rfl⟩
abbrev main_v1039 : Ref sig .tc := ⟨.hbm, 1217, rfl⟩
abbrev main_v1040 : Ref sig .tc := ⟨.hbm, 1218, rfl⟩
abbrev main_v1041 : Ref sig .tc := ⟨.hbm, 1219, rfl⟩
abbrev main_v1042 : Ref sig .tc := ⟨.hbm, 1220, rfl⟩
abbrev main_v1043 : Ref sig .tc := ⟨.hbm, 1221, rfl⟩
abbrev main_v1044 : Ref sig .tc := ⟨.hbm, 1222, rfl⟩
abbrev main_v1045 : Ref sig .tc := ⟨.hbm, 1223, rfl⟩
abbrev main_v1046 : Ref sig .tc := ⟨.hbm, 1224, rfl⟩
abbrev main_v1047 : Ref sig .tc := ⟨.hbm, 1225, rfl⟩
abbrev main_v1048 : Ref sig .tc := ⟨.hbm, 1226, rfl⟩
abbrev main_v1049 : Ref sig .tc := ⟨.hbm, 1227, rfl⟩
abbrev main_v1050 : Ref sig .tc := ⟨.hbm, 1228, rfl⟩
abbrev main_v1051 : Ref sig .tc := ⟨.hbm, 1229, rfl⟩
abbrev main_v1052 : Ref sig .tc := ⟨.hbm, 1230, rfl⟩
abbrev main_v1053 : Ref sig .tc := ⟨.hbm, 1231, rfl⟩
abbrev main_v1054 : Ref sig .tc := ⟨.hbm, 1232, rfl⟩
abbrev main_v1055 : Ref sig .tc := ⟨.hbm, 1233, rfl⟩
abbrev main_v1056 : Ref sig .tc := ⟨.hbm, 1234, rfl⟩
abbrev main_v1057 : Ref sig .tc := ⟨.hbm, 1235, rfl⟩
abbrev main_cst_168 : Ref sig .tc := ⟨.hbm, 1236, rfl⟩
abbrev main_v1058 : Ref sig .tc := ⟨.hbm, 1237, rfl⟩
abbrev main_v1059 : Ref sig .tc := ⟨.hbm, 1238, rfl⟩
abbrev main_v1060 : Ref sig .tc := ⟨.hbm, 1239, rfl⟩
abbrev main_c_169 : Ref sig .tc := ⟨.hbm, 1240, rfl⟩
abbrev main_v1061 : Ref sig .tc := ⟨.hbm, 1241, rfl⟩
abbrev main_v1062 : Ref sig .tc := ⟨.hbm, 1242, rfl⟩
abbrev main_c_170 : Ref sig .tc := ⟨.hbm, 1243, rfl⟩
abbrev main_v1063 : Ref sig .tc := ⟨.hbm, 1244, rfl⟩
abbrev main_v1064 : Ref sig .tc := ⟨.hbm, 1245, rfl⟩
abbrev main_c_171 : Ref sig .tc := ⟨.hbm, 1246, rfl⟩
abbrev main_v1065 : Ref sig .tc := ⟨.hbm, 1247, rfl⟩
abbrev main_v1066 : Ref sig .tc := ⟨.hbm, 1248, rfl⟩
abbrev main_c_172 : Ref sig .tc := ⟨.hbm, 1249, rfl⟩
abbrev main_v1067 : Ref sig .tc := ⟨.hbm, 1250, rfl⟩
abbrev main_v1068 : Ref sig .tc := ⟨.hbm, 1251, rfl⟩
abbrev main_v1069 : Ref sig .tc := ⟨.hbm, 1252, rfl⟩
abbrev main_v1070 : Ref sig .tc := ⟨.hbm, 1253, rfl⟩
abbrev main_v1071 : Ref sig .tc := ⟨.hbm, 1254, rfl⟩
abbrev main_v1072 : Ref sig .tc := ⟨.hbm, 1255, rfl⟩
abbrev main_v1073 : Ref sig .tc := ⟨.hbm, 1256, rfl⟩
abbrev main_v1074 : Ref sig .tc := ⟨.hbm, 1257, rfl⟩
abbrev main_v1075 : Ref sig .tc := ⟨.hbm, 1258, rfl⟩
abbrev main_v1076 : Ref sig .tc := ⟨.hbm, 1259, rfl⟩
abbrev main_v1077 : Ref sig .tc := ⟨.hbm, 1260, rfl⟩
abbrev main_c_173 : Ref sig .tc := ⟨.hbm, 1261, rfl⟩
abbrev main_v1078 : Ref sig .tc := ⟨.hbm, 1262, rfl⟩
abbrev main_v1079 : Ref sig .tc := ⟨.hbm, 1263, rfl⟩
abbrev main_v1080 : Ref sig .tc := ⟨.hbm, 1264, rfl⟩
abbrev main_v1081 : Ref sig .tc := ⟨.hbm, 1265, rfl⟩
abbrev main_v1082 : Ref sig .tc := ⟨.hbm, 1266, rfl⟩
abbrev main_v1083 : Ref sig .tc := ⟨.hbm, 1267, rfl⟩
abbrev main_v1084 : Ref sig .tc := ⟨.hbm, 1268, rfl⟩
abbrev main_v1085 : Ref sig .tc := ⟨.hbm, 1269, rfl⟩
abbrev main_c_174 : Ref sig .tc := ⟨.hbm, 1270, rfl⟩
abbrev main_v1086 : Ref sig .tc := ⟨.hbm, 1271, rfl⟩
abbrev main_v1087 : Ref sig .tc := ⟨.hbm, 1272, rfl⟩
abbrev main_v1088 : Ref sig .tc := ⟨.hbm, 1273, rfl⟩
abbrev main_v1089 : Ref sig .tc := ⟨.hbm, 1274, rfl⟩
abbrev main_v1090 : Ref sig .tc := ⟨.hbm, 1275, rfl⟩
abbrev main_v1091 : Ref sig .tc := ⟨.hbm, 1276, rfl⟩
abbrev main_v1092 : Ref sig .tc := ⟨.hbm, 1277, rfl⟩
abbrev main_v1093 : Ref sig .tc := ⟨.hbm, 1278, rfl⟩
abbrev main_v1094 : Ref sig .tc := ⟨.hbm, 1279, rfl⟩
abbrev main_v1095 : Ref sig .tc := ⟨.hbm, 1280, rfl⟩
abbrev main_v1096 : Ref sig .tc := ⟨.hbm, 1281, rfl⟩
abbrev main_v1097 : Ref sig .tc := ⟨.hbm, 1282, rfl⟩
abbrev main_v1098 : Ref sig .tc := ⟨.hbm, 1283, rfl⟩
abbrev main_v1099 : Ref sig .tc := ⟨.hbm, 1284, rfl⟩
abbrev main_v1100 : Ref sig .tc := ⟨.hbm, 1285, rfl⟩
abbrev main_v1101 : Ref sig .tc := ⟨.hbm, 1286, rfl⟩
abbrev main_v1102 : Ref sig .tc := ⟨.hbm, 1287, rfl⟩
abbrev main_v1103 : Ref sig .tc := ⟨.hbm, 1288, rfl⟩
abbrev main_v1104 : Ref sig .tc := ⟨.hbm, 1289, rfl⟩
abbrev main_v1105 : Ref sig .tc := ⟨.hbm, 1290, rfl⟩
abbrev main_cst_175 : Ref sig .tc := ⟨.hbm, 1291, rfl⟩
abbrev main_v1106 : Ref sig .tc := ⟨.hbm, 1292, rfl⟩
abbrev main_v1107 : Ref sig .tc := ⟨.hbm, 1293, rfl⟩
abbrev main_v1108 : Ref sig .tc := ⟨.hbm, 1294, rfl⟩
abbrev main_c_176 : Ref sig .tc := ⟨.hbm, 1295, rfl⟩
abbrev main_v1109 : Ref sig .tc := ⟨.hbm, 1296, rfl⟩
abbrev main_v1110 : Ref sig .tc := ⟨.hbm, 1297, rfl⟩
abbrev main_c_177 : Ref sig .tc := ⟨.hbm, 1298, rfl⟩
abbrev main_v1111 : Ref sig .tc := ⟨.hbm, 1299, rfl⟩
abbrev main_v1112 : Ref sig .tc := ⟨.hbm, 1300, rfl⟩
abbrev main_c_178 : Ref sig .tc := ⟨.hbm, 1301, rfl⟩
abbrev main_v1113 : Ref sig .tc := ⟨.hbm, 1302, rfl⟩
abbrev main_v1114 : Ref sig .tc := ⟨.hbm, 1303, rfl⟩
abbrev main_c_179 : Ref sig .tc := ⟨.hbm, 1304, rfl⟩
abbrev main_v1115 : Ref sig .tc := ⟨.hbm, 1305, rfl⟩
abbrev main_v1116 : Ref sig .tc := ⟨.hbm, 1306, rfl⟩
abbrev main_v1117 : Ref sig .tc := ⟨.hbm, 1307, rfl⟩
abbrev main_v1118 : Ref sig .tc := ⟨.hbm, 1308, rfl⟩
abbrev main_v1119 : Ref sig .tc := ⟨.hbm, 1309, rfl⟩
abbrev main_v1120 : Ref sig .tc := ⟨.hbm, 1310, rfl⟩
abbrev main_v1121 : Ref sig .tc := ⟨.hbm, 1311, rfl⟩
abbrev main_v1122 : Ref sig .tc := ⟨.hbm, 1312, rfl⟩
abbrev main_v1123 : Ref sig .tc := ⟨.hbm, 1313, rfl⟩
abbrev main_v1124 : Ref sig .tc := ⟨.hbm, 1314, rfl⟩
abbrev main_v1125 : Ref sig .tc := ⟨.hbm, 1315, rfl⟩
abbrev main_c_180 : Ref sig .tc := ⟨.hbm, 1316, rfl⟩
abbrev main_v1126 : Ref sig .tc := ⟨.hbm, 1317, rfl⟩
abbrev main_v1127 : Ref sig .tc := ⟨.hbm, 1318, rfl⟩
abbrev main_v1128 : Ref sig .tc := ⟨.hbm, 1319, rfl⟩
abbrev main_v1129 : Ref sig .tc := ⟨.hbm, 1320, rfl⟩
abbrev main_v1130 : Ref sig .tc := ⟨.hbm, 1321, rfl⟩
abbrev main_v1131 : Ref sig .tc := ⟨.hbm, 1322, rfl⟩
abbrev main_v1132 : Ref sig .tc := ⟨.hbm, 1323, rfl⟩
abbrev main_v1133 : Ref sig .tc := ⟨.hbm, 1324, rfl⟩
abbrev main_c_181 : Ref sig .tc := ⟨.hbm, 1325, rfl⟩
abbrev main_v1134 : Ref sig .tc := ⟨.hbm, 1326, rfl⟩
abbrev main_v1135 : Ref sig .tc := ⟨.hbm, 1327, rfl⟩
abbrev main_v1136 : Ref sig .tc := ⟨.hbm, 1328, rfl⟩
abbrev main_v1137 : Ref sig .tc := ⟨.hbm, 1329, rfl⟩
abbrev main_v1138 : Ref sig .tc := ⟨.hbm, 1330, rfl⟩
abbrev main_v1139 : Ref sig .tc := ⟨.hbm, 1331, rfl⟩
abbrev main_v1140 : Ref sig .tc := ⟨.hbm, 1332, rfl⟩
abbrev main_v1141 : Ref sig .tc := ⟨.hbm, 1333, rfl⟩
abbrev main_v1142 : Ref sig .tc := ⟨.hbm, 1334, rfl⟩
abbrev main_v1143 : Ref sig .tc := ⟨.hbm, 1335, rfl⟩
abbrev main_v1144 : Ref sig .tc := ⟨.hbm, 1336, rfl⟩
abbrev main_v1145 : Ref sig .tc := ⟨.hbm, 1337, rfl⟩
abbrev main_v1146 : Ref sig .tc := ⟨.hbm, 1338, rfl⟩
abbrev main_v1147 : Ref sig .tc := ⟨.hbm, 1339, rfl⟩
abbrev main_v1148 : Ref sig .tc := ⟨.hbm, 1340, rfl⟩
abbrev main_v1149 : Ref sig .tc := ⟨.hbm, 1341, rfl⟩
abbrev main_v1150 : Ref sig .tc := ⟨.hbm, 1342, rfl⟩
abbrev main_v1151 : Ref sig .tc := ⟨.hbm, 1343, rfl⟩
abbrev main_v1152 : Ref sig .tc := ⟨.hbm, 1344, rfl⟩
abbrev main_v1153 : Ref sig .tc := ⟨.hbm, 1345, rfl⟩
abbrev main_cst_182 : Ref sig .tc := ⟨.hbm, 1346, rfl⟩
abbrev main_v1154 : Ref sig .tc := ⟨.hbm, 1347, rfl⟩
abbrev main_v1155 : Ref sig .tc := ⟨.hbm, 1348, rfl⟩
abbrev main_v1156 : Ref sig .tc := ⟨.hbm, 1349, rfl⟩
abbrev main_c_183 : Ref sig .tc := ⟨.hbm, 1350, rfl⟩
abbrev main_v1157 : Ref sig .tc := ⟨.hbm, 1351, rfl⟩
abbrev main_v1158 : Ref sig .tc := ⟨.hbm, 1352, rfl⟩
abbrev main_c_184 : Ref sig .tc := ⟨.hbm, 1353, rfl⟩
abbrev main_v1159 : Ref sig .tc := ⟨.hbm, 1354, rfl⟩
abbrev main_v1160 : Ref sig .tc := ⟨.hbm, 1355, rfl⟩
abbrev main_c_185 : Ref sig .tc := ⟨.hbm, 1356, rfl⟩
abbrev main_v1161 : Ref sig .tc := ⟨.hbm, 1357, rfl⟩
abbrev main_v1162 : Ref sig .tc := ⟨.hbm, 1358, rfl⟩
abbrev main_c_186 : Ref sig .tc := ⟨.hbm, 1359, rfl⟩
abbrev main_v1163 : Ref sig .tc := ⟨.hbm, 1360, rfl⟩
abbrev main_v1164 : Ref sig .tc := ⟨.hbm, 1361, rfl⟩
abbrev main_v1165 : Ref sig .tc := ⟨.hbm, 1362, rfl⟩
abbrev main_v1166 : Ref sig .tc := ⟨.hbm, 1363, rfl⟩
abbrev main_v1167 : Ref sig .tc := ⟨.hbm, 1364, rfl⟩
abbrev main_v1168 : Ref sig .tc := ⟨.hbm, 1365, rfl⟩
abbrev main_v1169 : Ref sig .tc := ⟨.hbm, 1366, rfl⟩
abbrev main_v1170 : Ref sig .tc := ⟨.hbm, 1367, rfl⟩
abbrev main_v1171 : Ref sig .tc := ⟨.hbm, 1368, rfl⟩
abbrev main_v1172 : Ref sig .tc := ⟨.hbm, 1369, rfl⟩
abbrev main_v1173 : Ref sig .tc := ⟨.hbm, 1370, rfl⟩
abbrev main_c_187 : Ref sig .tc := ⟨.hbm, 1371, rfl⟩
abbrev main_v1174 : Ref sig .tc := ⟨.hbm, 1372, rfl⟩
abbrev main_v1175 : Ref sig .tc := ⟨.hbm, 1373, rfl⟩
abbrev main_v1176 : Ref sig .tc := ⟨.hbm, 1374, rfl⟩
abbrev main_v1177 : Ref sig .tc := ⟨.hbm, 1375, rfl⟩
abbrev main_v1178 : Ref sig .tc := ⟨.hbm, 1376, rfl⟩
abbrev main_v1179 : Ref sig .tc := ⟨.hbm, 1377, rfl⟩
abbrev main_v1180 : Ref sig .tc := ⟨.hbm, 1378, rfl⟩
abbrev main_v1181 : Ref sig .tc := ⟨.hbm, 1379, rfl⟩
abbrev main_c_188 : Ref sig .tc := ⟨.hbm, 1380, rfl⟩
abbrev main_v1182 : Ref sig .tc := ⟨.hbm, 1381, rfl⟩
abbrev main_v1183 : Ref sig .tc := ⟨.hbm, 1382, rfl⟩
abbrev main_v1184 : Ref sig .tc := ⟨.hbm, 1383, rfl⟩
abbrev main_v1185 : Ref sig .tc := ⟨.hbm, 1384, rfl⟩
abbrev main_v1186 : Ref sig .tc := ⟨.hbm, 1385, rfl⟩
abbrev main_v1187 : Ref sig .tc := ⟨.hbm, 1386, rfl⟩
abbrev main_v1188 : Ref sig .tc := ⟨.hbm, 1387, rfl⟩
abbrev main_v1189 : Ref sig .tc := ⟨.hbm, 1388, rfl⟩
abbrev main_v1190 : Ref sig .tc := ⟨.hbm, 1389, rfl⟩
abbrev main_v1191 : Ref sig .tc := ⟨.hbm, 1390, rfl⟩
abbrev main_v1192 : Ref sig .tc := ⟨.hbm, 1391, rfl⟩
abbrev main_v1193 : Ref sig .tc := ⟨.hbm, 1392, rfl⟩
abbrev main_v1194 : Ref sig .tc := ⟨.hbm, 1393, rfl⟩
abbrev main_v1195 : Ref sig .tc := ⟨.hbm, 1394, rfl⟩
abbrev main_v1196 : Ref sig .tc := ⟨.hbm, 1395, rfl⟩
abbrev main_v1197 : Ref sig .tc := ⟨.hbm, 1396, rfl⟩
abbrev main_v1198 : Ref sig .tc := ⟨.hbm, 1397, rfl⟩
abbrev main_v1199 : Ref sig .tc := ⟨.hbm, 1398, rfl⟩
abbrev main_v1200 : Ref sig .tc := ⟨.hbm, 1399, rfl⟩
abbrev main_v1201 : Ref sig .tc := ⟨.hbm, 1400, rfl⟩
abbrev main_cst_189 : Ref sig .tc := ⟨.hbm, 1401, rfl⟩
abbrev main_v1202 : Ref sig .tc := ⟨.hbm, 1402, rfl⟩
abbrev main_v1203 : Ref sig .tc := ⟨.hbm, 1403, rfl⟩
abbrev main_v1204 : Ref sig .tc := ⟨.hbm, 1404, rfl⟩
abbrev main_c_190 : Ref sig .tc := ⟨.hbm, 1405, rfl⟩
abbrev main_v1205 : Ref sig .tc := ⟨.hbm, 1406, rfl⟩
abbrev main_v1206 : Ref sig .tc := ⟨.hbm, 1407, rfl⟩
abbrev main_c_191 : Ref sig .tc := ⟨.hbm, 1408, rfl⟩
abbrev main_v1207 : Ref sig .tc := ⟨.hbm, 1409, rfl⟩
abbrev main_v1208 : Ref sig .tc := ⟨.hbm, 1410, rfl⟩
abbrev main_c_192 : Ref sig .tc := ⟨.hbm, 1411, rfl⟩
abbrev main_v1209 : Ref sig .tc := ⟨.hbm, 1412, rfl⟩
abbrev main_v1210 : Ref sig .tc := ⟨.hbm, 1413, rfl⟩
abbrev main_c_193 : Ref sig .tc := ⟨.hbm, 1414, rfl⟩
abbrev main_v1211 : Ref sig .tc := ⟨.hbm, 1415, rfl⟩
abbrev main_v1212 : Ref sig .tc := ⟨.hbm, 1416, rfl⟩
abbrev main_v1213 : Ref sig .tc := ⟨.hbm, 1417, rfl⟩
abbrev main_v1214 : Ref sig .tc := ⟨.hbm, 1418, rfl⟩
abbrev main_v1215 : Ref sig .tc := ⟨.hbm, 1419, rfl⟩
abbrev main_v1216 : Ref sig .tc := ⟨.hbm, 1420, rfl⟩
abbrev main_v1217 : Ref sig .tc := ⟨.hbm, 1421, rfl⟩
abbrev main_v1218 : Ref sig .tc := ⟨.hbm, 1422, rfl⟩
abbrev main_v1219 : Ref sig .tc := ⟨.hbm, 1423, rfl⟩
abbrev main_v1220 : Ref sig .tc := ⟨.hbm, 1424, rfl⟩
abbrev main_v1221 : Ref sig .tc := ⟨.hbm, 1425, rfl⟩
abbrev main_c_194 : Ref sig .tc := ⟨.hbm, 1426, rfl⟩
abbrev main_v1222 : Ref sig .tc := ⟨.hbm, 1427, rfl⟩
abbrev main_v1223 : Ref sig .tc := ⟨.hbm, 1428, rfl⟩
abbrev main_v1224 : Ref sig .tc := ⟨.hbm, 1429, rfl⟩
abbrev main_v1225 : Ref sig .tc := ⟨.hbm, 1430, rfl⟩
abbrev main_v1226 : Ref sig .tc := ⟨.hbm, 1431, rfl⟩
abbrev main_v1227 : Ref sig .tc := ⟨.hbm, 1432, rfl⟩
abbrev main_v1228 : Ref sig .tc := ⟨.hbm, 1433, rfl⟩
abbrev main_v1229 : Ref sig .tc := ⟨.hbm, 1434, rfl⟩
abbrev main_c_195 : Ref sig .tc := ⟨.hbm, 1435, rfl⟩
abbrev main_v1230 : Ref sig .tc := ⟨.hbm, 1436, rfl⟩
abbrev main_v1231 : Ref sig .tc := ⟨.hbm, 1437, rfl⟩
abbrev main_v1232 : Ref sig .tc := ⟨.hbm, 1438, rfl⟩
abbrev main_v1233 : Ref sig .tc := ⟨.hbm, 1439, rfl⟩
abbrev main_v1234 : Ref sig .tc := ⟨.hbm, 1440, rfl⟩
abbrev main_v1235 : Ref sig .tc := ⟨.hbm, 1441, rfl⟩
abbrev main_v1236 : Ref sig .tc := ⟨.hbm, 1442, rfl⟩
abbrev main_v1237 : Ref sig .tc := ⟨.hbm, 1443, rfl⟩
abbrev main_v1238 : Ref sig .tc := ⟨.hbm, 1444, rfl⟩
abbrev main_v1239 : Ref sig .tc := ⟨.hbm, 1445, rfl⟩
abbrev main_v1240 : Ref sig .tc := ⟨.hbm, 1446, rfl⟩
abbrev main_v1241 : Ref sig .tc := ⟨.hbm, 1447, rfl⟩
abbrev main_v1242 : Ref sig .tc := ⟨.hbm, 1448, rfl⟩
abbrev main_v1243 : Ref sig .tc := ⟨.hbm, 1449, rfl⟩
abbrev main_v1244 : Ref sig .tc := ⟨.hbm, 1450, rfl⟩
abbrev main_v1245 : Ref sig .tc := ⟨.hbm, 1451, rfl⟩
abbrev main_v1246 : Ref sig .tc := ⟨.hbm, 1452, rfl⟩
abbrev main_v1247 : Ref sig .tc := ⟨.hbm, 1453, rfl⟩
abbrev main_v1248 : Ref sig .tc := ⟨.hbm, 1454, rfl⟩
abbrev main_v1249 : Ref sig .tc := ⟨.hbm, 1455, rfl⟩
abbrev main_cst_196 : Ref sig .tc := ⟨.hbm, 1456, rfl⟩
abbrev main_v1250 : Ref sig .tc := ⟨.hbm, 1457, rfl⟩
abbrev main_v1251 : Ref sig .tc := ⟨.hbm, 1458, rfl⟩
abbrev main_v1252 : Ref sig .tc := ⟨.hbm, 1459, rfl⟩
abbrev main_cst_197 : Ref sig .tc := ⟨.hbm, 1460, rfl⟩
abbrev main_v1253 : Ref sig .tc := ⟨.hbm, 1461, rfl⟩
abbrev main_v1254 : Ref sig .tc := ⟨.hbm, 1462, rfl⟩
abbrev main_v1255 : Ref sig .tc := ⟨.hbm, 1463, rfl⟩
abbrev main_v1256 : Ref sig .tc := ⟨.hbm, 1464, rfl⟩
abbrev main_v1257 : Ref sig .tc := ⟨.hbm, 1465, rfl⟩

abbrev nD : Nat := 1
abbrev τ : Topo := Topo.v7x

variable {F : FTy → Type} [FloatOps F]

class Facts₀ : Prop where
  pads_S16x64x64x256_S16x68x68x256_000_220_220_000 : S16x64x64x256.Pads (![0, 2, 2, 0] : Fin 4 → Nat) ![0, 2, 2, 0] ![0, 0, 0, 0] S16x68x68x256
  h_S_ : 0 < S_.numel
  bcast_S_S16x64x64x256 : S_.BroadcastsInDim S16x64x64x256 (![] : Fin 0 → Fin S16x64x64x256.rank)
  bcast_S_S16x64x64x1 : S_.BroadcastsInDim S16x64x64x1 (![] : Fin 0 → Fin S16x64x64x1.rank)
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  slices_S5_S1_0 : S5.Slices ![0] S1
  shapeCasts_S1_S_ : S1.ShapeCasts S_
  bcast_S_S64x1 : S_.BroadcastsInDim S64x1 (![] : Fin 0 → Fin S64x1.rank)
  bcast_S_S1x64 : S_.BroadcastsInDim S1x64 (![] : Fin 0 → Fin S1x64.rank)
  slices_S16x68x68x256_S16x64x64x256_0_0_0_0 : S16x68x68x256.Slices ![0, 0, 0, 0] S16x64x64x256
  bcast_S64x64_S1x64x64x1_1_2 : S64x64.BroadcastsInDim S1x64x64x1 (![1, 2] : Fin 2 → Fin S1x64x64x1.rank)
  bcast_S1x64x64x1_S16x64x64x256_0_1_2_3 : S1x64x64x1.BroadcastsInDim S16x64x64x256 (![0, 1, 2, 3] : Fin 4 → Fin S16x64x64x256.rank)
  reducesTo_S16x64x64x256_S16x64x64_d3 : S16x64x64x256.ReducesTo [3] S16x64x64
  bcast_S16x64x64_S16x64x64x1_0_1_2 : S16x64x64.BroadcastsInDim S16x64x64x1 (![0, 1, 2] : Fin 3 → Fin S16x64x64x1.rank)
  slices_S5_S1_1 : S5.Slices ![1] S1
  slices_S16x68x68x256_S16x64x64x256_0_0_1_0 : S16x68x68x256.Slices ![0, 0, 1, 0] S16x64x64x256
  slices_S5_S1_2 : S5.Slices ![2] S1
  slices_S16x68x68x256_S16x64x64x256_0_0_2_0 : S16x68x68x256.Slices ![0, 0, 2, 0] S16x64x64x256
  slices_S5_S1_3 : S5.Slices ![3] S1
  slices_S16x68x68x256_S16x64x64x256_0_0_3_0 : S16x68x68x256.Slices ![0, 0, 3, 0] S16x64x64x256
  slices_S5_S1_4 : S5.Slices ![4] S1
  slices_S16x68x68x256_S16x64x64x256_0_0_4_0 : S16x68x68x256.Slices ![0, 0, 4, 0] S16x64x64x256
  slices_S16x68x68x256_S16x64x64x256_0_1_0_0 : S16x68x68x256.Slices ![0, 1, 0, 0] S16x64x64x256
  slices_S16x68x68x256_S16x64x64x256_0_1_1_0 : S16x68x68x256.Slices ![0, 1, 1, 0] S16x64x64x256
  slices_S16x68x68x256_S16x64x64x256_0_1_2_0 : S16x68x68x256.Slices ![0, 1, 2, 0] S16x64x64x256
  slices_S16x68x68x256_S16x64x64x256_0_1_3_0 : S16x68x68x256.Slices ![0, 1, 3, 0] S16x64x64x256
  slices_S16x68x68x256_S16x64x64x256_0_1_4_0 : S16x68x68x256.Slices ![0, 1, 4, 0] S16x64x64x256
  slices_S16x68x68x256_S16x64x64x256_0_2_0_0 : S16x68x68x256.Slices ![0, 2, 0, 0] S16x64x64x256
  slices_S16x68x68x256_S16x64x64x256_0_2_1_0 : S16x68x68x256.Slices ![0, 2, 1, 0] S16x64x64x256
  slices_S16x68x68x256_S16x64x64x256_0_2_2_0 : S16x68x68x256.Slices ![0, 2, 2, 0] S16x64x64x256
  slices_S16x68x68x256_S16x64x64x256_0_2_3_0 : S16x68x68x256.Slices ![0, 2, 3, 0] S16x64x64x256
  slices_S16x68x68x256_S16x64x64x256_0_2_4_0 : S16x68x68x256.Slices ![0, 2, 4, 0] S16x64x64x256
  slices_S16x68x68x256_S16x64x64x256_0_3_0_0 : S16x68x68x256.Slices ![0, 3, 0, 0] S16x64x64x256
  slices_S16x68x68x256_S16x64x64x256_0_3_1_0 : S16x68x68x256.Slices ![0, 3, 1, 0] S16x64x64x256
  slices_S16x68x68x256_S16x64x64x256_0_3_2_0 : S16x68x68x256.Slices ![0, 3, 2, 0] S16x64x64x256
  slices_S16x68x68x256_S16x64x64x256_0_3_3_0 : S16x68x68x256.Slices ![0, 3, 3, 0] S16x64x64x256
  slices_S16x68x68x256_S16x64x64x256_0_3_4_0 : S16x68x68x256.Slices ![0, 3, 4, 0] S16x64x64x256
  slices_S16x68x68x256_S16x64x64x256_0_4_0_0 : S16x68x68x256.Slices ![0, 4, 0, 0] S16x64x64x256
  slices_S16x68x68x256_S16x64x64x256_0_4_1_0 : S16x68x68x256.Slices ![0, 4, 1, 0] S16x64x64x256
  slices_S16x68x68x256_S16x64x64x256_0_4_2_0 : S16x68x68x256.Slices ![0, 4, 2, 0] S16x64x64x256
  slices_S16x68x68x256_S16x64x64x256_0_4_3_0 : S16x68x68x256.Slices ![0, 4, 3, 0] S16x64x64x256
  slices_S16x68x68x256_S16x64x64x256_0_4_4_0 : S16x68x68x256.Slices ![0, 4, 4, 0] S16x64x64x256
  bcast_S16x64x64x1_S16x64x64x256_0_1_2_3 : S16x64x64x1.BroadcastsInDim S16x64x64x256 (![0, 1, 2, 3] : Fin 4 → Fin S16x64x64x256.rank)
  dot_S16x64x64x256_S256x256_S16x64x64x256_3_1_012_0_n_n_wf : DotDims.WF S16x64x64x256 S256x256 S16x64x64x256 [3] [1] [0, 1, 2] [0] [] []

variable [Facts₀]

def dot_S16x64x64x256_S256x256_S16x64x64x256_3_1_012_0_n_n : DotDims S16x64x64x256 S256x256 S16x64x64x256 where
  lhsContracting := [3]
  rhsContracting := [1]
  lhsNonContracting := [0, 1, 2]
  rhsNonContracting := [0]
  lhsBatch := []
  rhsBatch := []
  wf := dot_S16x64x64x256_S256x256_S16x64x64x256_3_1_012_0_n_n_wf

class Facts : Prop extends Facts₀ where

variable [Facts]
-- ==== Proof.RefRun0.lean ====
/- The reference program's @main, statements 1 … 60 of 1459, as the list of its 62 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops0 : List (HloOp τ sig (Elt F)) :=
  [ binary main_arg0 main_arg3 main_v0 ((fun l r => Host.dotGeneral dot_S16x64x64x256_S256x256_S16x64x64x256_3_1_012_0_n_n none l r) : (⟨S16x64x64x256, .f32⟩ : BufTy).Contents (Elt F) → (⟨S256x256, .f32⟩ : BufTy).Contents (Elt F) → (⟨S16x64x64x256, .f32⟩ : BufTy).Contents (Elt F)),
    binary main_arg0 main_arg4 main_v1 ((fun l r => Host.dotGeneral dot_S16x64x64x256_S256x256_S16x64x64x256_3_1_012_0_n_n none l r) : (⟨S16x64x64x256, .f32⟩ : BufTy).Contents (Elt F) → (⟨S256x256, .f32⟩ : BufTy).Contents (Elt F) → (⟨S16x64x64x256, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S16x64x64x256, .f32⟩) main_v0) (TRef.of (T := ⟨S_, .f32⟩) main_call0_v0) (TRef.of (T := ⟨S16x68x68x256, .f32⟩) main_v2) (fun x v => pad S16x68x68x256 ![0, 2, 2, 0] ![0, 2, 2, 0] ![0, 0, 0, 0] x v pads_S16x64x64x256_S16x68x68x256_000_220_220_000 h_S_),
    nullary main_c_0 (constantI S_ 32 0#32),
    TRef.unary (TRef.of (T := ⟨S_, .i32⟩) main_c_0) (TRef.of (T := ⟨S_, .f32⟩) main_call1_v0) (sitofp .f32),
    TRef.binary (TRef.of (T := ⟨S16x64x64x256, .f32⟩) main_v1) (TRef.of (T := ⟨S_, .f32⟩) main_call1_v0) (TRef.of (T := ⟨S16x68x68x256, .f32⟩) main_v3) (fun x v => pad S16x68x68x256 ![0, 2, 2, 0] ![0, 2, 2, 0] ![0, 0, 0, 0] x v pads_S16x64x64x256_S16x68x68x256_000_220_220_000 h_S_),
    nullary main_v4 (iotaInDim S64 32 0),
    nullary main_v5 (iotaInDim S64 32 0),
    nullary main_cst (constant S_ .f32 0x00000000#32),
    unary main_cst main_v6 (broadcastInDim S16x64x64x256 ![] bcast_S_S16x64x64x256 : (⟨S_, .f32⟩ : BufTy).Contents (Elt F) → (⟨S16x64x64x256, .f32⟩ : BufTy).Contents (Elt F)),
    nullary main_cst_1 (constant S_ .f32 0x00000000#32),
    unary main_cst_1 main_v7 (broadcastInDim S16x64x64x1 ![] bcast_S_S16x64x64x1 : (⟨S_, .f32⟩ : BufTy).Contents (Elt F) → (⟨S16x64x64x1, .f32⟩ : BufTy).Contents (Elt F)),
    nullary main_c_2 (constantI S_ 32 4294967294#32),
    unary main_c_2 main_v8 (broadcastInDim S64 ![] bcast_S_S64 : (⟨S_, .i32⟩ : BufTy).Contents (Elt F) → (⟨S64, .i32⟩ : BufTy).Contents (Elt F)),
    binary main_v4 main_v8 main_v9 (addi : (⟨S64, .i32⟩ : BufTy).Contents (Elt F) → (⟨S64, .i32⟩ : BufTy).Contents (Elt F) → (⟨S64, .i32⟩ : BufTy).Contents (Elt F)),
    nullary main_c_3 (constantI S_ 32 0#32),
    unary main_c_3 main_v10 (broadcastInDim S64 ![] bcast_S_S64 : (⟨S_, .i32⟩ : BufTy).Contents (Elt F) → (⟨S64, .i32⟩ : BufTy).Contents (Elt F)),
    binary main_v9 main_v10 main_v11 (cmpi .sge : (⟨S64, .i32⟩ : BufTy).Contents (Elt F) → (⟨S64, .i32⟩ : BufTy).Contents (Elt F) → (⟨S64, .i1⟩ : BufTy).Contents (Elt F)),
    nullary main_c_4 (constantI S_ 32 4294967294#32),
    unary main_c_4 main_v12 (broadcastInDim S64 ![] bcast_S_S64 : (⟨S_, .i32⟩ : BufTy).Contents (Elt F) → (⟨S64, .i32⟩ : BufTy).Contents (Elt F)),
    binary main_v4 main_v12 main_v13 (addi : (⟨S64, .i32⟩ : BufTy).Contents (Elt F) → (⟨S64, .i32⟩ : BufTy).Contents (Elt F) → (⟨S64, .i32⟩ : BufTy).Contents (Elt F)),
    nullary main_c_5 (constantI S_ 32 64#32),
    unary main_c_5 main_v14 (broadcastInDim S64 ![] bcast_S_S64 : (⟨S_, .i32⟩ : BufTy).Contents (Elt F) → (⟨S64, .i32⟩ : BufTy).Contents (Elt F)),
    binary main_v13 main_v14 main_v15 (cmpi .slt : (⟨S64, .i32⟩ : BufTy).Contents (Elt F) → (⟨S64, .i32⟩ : BufTy).Contents (Elt F) → (⟨S64, .i1⟩ : BufTy).Contents (Elt F)),
    binary main_v11 main_v15 main_v16 (andi : (⟨S64, .i1⟩ : BufTy).Contents (Elt F) → (⟨S64, .i1⟩ : BufTy).Contents (Elt F) → (⟨S64, .i1⟩ : BufTy).Contents (Elt F)),
    nullary main_c_6 (constantI S_ 32 4294967294#32),
    unary main_c_6 main_v17 (broadcastInDim S64 ![] bcast_S_S64 : (⟨S_, .i32⟩ : BufTy).Contents (Elt F) → (⟨S64, .i32⟩ : BufTy).Contents (Elt F)),
    binary main_v5 main_v17 main_v18 (addi : (⟨S64, .i32⟩ : BufTy).Contents (Elt F) → (⟨S64, .i32⟩ : BufTy).Contents (Elt F) → (⟨S64, .i32⟩ : BufTy).Contents (Elt F)),
    nullary main_c_7 (constantI S_ 32 0#32),
    unary main_c_7 main_v19 (broadcastInDim S64 ![] bcast_S_S64 : (⟨S_, .i32⟩ : BufTy).Contents (Elt F) → (⟨S64, .i32⟩ : BufTy).Contents (Elt F)),
    binary main_v18 main_v19 main_v20 (cmpi .sge : (⟨S64, .i32⟩ : BufTy).Contents (Elt F) → (⟨S64, .i32⟩ : BufTy).Contents (Elt F) → (⟨S64, .i1⟩ : BufTy).Contents (Elt F)),
    nullary main_c_8 (constantI S_ 32 4294967294#32),
    unary main_c_8 main_v21 (broadcastInDim S64 ![] bcast_S_S64 : (⟨S_, .i32⟩ : BufTy).Contents (Elt F) → (⟨S64, .i32⟩ : BufTy).Contents (Elt F)),
    binary main_v5 main_v21 main_v22 (addi : (⟨S64, .i32⟩ : BufTy).Contents (Elt F) → (⟨S64, .i32⟩ : BufTy).Contents (Elt F) → (⟨S64, .i32⟩ : BufTy).Contents (Elt F)),
    nullary main_c_9 (constantI S_ 32 64#32),
    unary main_c_9 main_v23 (broadcastInDim S64 ![] bcast_S_S64 : (⟨S_, .i32⟩ : BufTy).Contents (Elt F) → (⟨S64, .i32⟩ : BufTy).Contents (Elt F)),
    binary main_v22 main_v23 main_v24 (cmpi .slt : (⟨S64, .i32⟩ : BufTy).Contents (Elt F) → (⟨S64, .i32⟩ : BufTy).Contents (Elt F) → (⟨S64, .i1⟩ : BufTy).Contents (Elt F)),
    binary main_v20 main_v24 main_v25 (andi : (⟨S64, .i1⟩ : BufTy).Contents (Elt F) → (⟨S64, .i1⟩ : BufTy).Contents (Elt F) → (⟨S64, .i1⟩ : BufTy).Contents (Elt F)),
    unary main_v16 main_v26 (broadcastInDim S64x1 ![0] bcast_S64_S64x1_0 : (⟨S64, .i1⟩ : BufTy).Contents (Elt F) → (⟨S64x1, .i1⟩ : BufTy).Contents (Elt F)),
    unary main_v25 main_v27 (broadcastInDim S1x64 ![1] bcast_S64_S1x64_1 : (⟨S64, .i1⟩ : BufTy).Contents (Elt F) → (⟨S1x64, .i1⟩ : BufTy).Contents (Elt F)),
    unary main_v26 main_v28 (broadcastInDim S64x64 ![0, 1] bcast_S64x1_S64x64_0_1 : (⟨S64x1, .i1⟩ : BufTy).Contents (Elt F) → (⟨S64x64, .i1⟩ : BufTy).Contents (Elt F)),
    unary main_v27 main_v29 (broadcastInDim S64x64 ![0, 1] bcast_S1x64_S64x64_0_1 : (⟨S1x64, .i1⟩ : BufTy).Contents (Elt F) → (⟨S64x64, .i1⟩ : BufTy).Contents (Elt F)),
    binary main_v28 main_v29 main_v30 (andi : (⟨S64x64, .i1⟩ : BufTy).Contents (Elt F) → (⟨S64x64, .i1⟩ : BufTy).Contents (Elt F) → (⟨S64x64, .i1⟩ : BufTy).Contents (Elt F)),
    unary main_v30 main_v31 (uitofp .f32 : (⟨S64x64, .i1⟩ : BufTy).Contents (Elt F) → (⟨S64x64, .f32⟩ : BufTy).Contents (Elt F)),
    unary main_arg1 main_v32 ((extractStridedSlice S1 ![0] · slices_S5_S1_0) : (⟨S5, .f32⟩ : BufTy).Contents (Elt F) → (⟨S1, .f32⟩ : BufTy).Contents (Elt F)),
    reshape main_v32 main_v33 rfl shapeCasts_S1_S_,
    nullary main_c_10 (constantI S_ 32 4294967294#32),
    unary main_c_10 main_v34 (broadcastInDim S64 ![] bcast_S_S64 : (⟨S_, .i32⟩ : BufTy).Contents (Elt F) → (⟨S64, .i32⟩ : BufTy).Contents (Elt F)),
    binary main_v34 main_v4 main_v35 (subi : (⟨S64, .i32⟩ : BufTy).Contents (Elt F) → (⟨S64, .i32⟩ : BufTy).Contents (Elt F) → (⟨S64, .i32⟩ : BufTy).Contents (Elt F)),
    unary main_v35 main_v36 (broadcastInDim S64x1 ![0] bcast_S64_S64x1_0 : (⟨S64, .i32⟩ : BufTy).Contents (Elt F) → (⟨S64x1, .i32⟩ : BufTy).Contents (Elt F)),
    unary main_v36 main_v37 (sitofp .f32 : (⟨S64x1, .i32⟩ : BufTy).Contents (Elt F) → (⟨S64x1, .f32⟩ : BufTy).Contents (Elt F)),
    unary main_v33 main_v38 (broadcastInDim S64x1 ![] bcast_S_S64x1 : (⟨S_, .f32⟩ : BufTy).Contents (Elt F) → (⟨S64x1, .f32⟩ : BufTy).Contents (Elt F)),
    binary main_v38 main_v37 main_v39 (mulf : (⟨S64x1, .f32⟩ : BufTy).Contents (Elt F) → (⟨S64x1, .f32⟩ : BufTy).Contents (Elt F) → (⟨S64x1, .f32⟩ : BufTy).Contents (Elt F)),
    unary main_arg2 main_v40 ((extractStridedSlice S1 ![0] · slices_S5_S1_0) : (⟨S5, .f32⟩ : BufTy).Contents (Elt F) → (⟨S1, .f32⟩ : BufTy).Contents (Elt F)),
    reshape main_v40 main_v41 rfl shapeCasts_S1_S_,
    nullary main_c_11 (constantI S_ 32 4294967294#32),
    unary main_c_11 main_v42 (broadcastInDim S64 ![] bcast_S_S64 : (⟨S_, .i32⟩ : BufTy).Contents (Elt F) → (⟨S64, .i32⟩ : BufTy).Contents (Elt F)),
    binary main_v42 main_v5 main_v43 (subi : (⟨S64, .i32⟩ : BufTy).Contents (Elt F) → (⟨S64, .i32⟩ : BufTy).Contents (Elt F) → (⟨S64, .i32⟩ : BufTy).Contents (Elt F)),
    unary main_v43 main_v44 (broadcastInDim S1x64 ![1] bcast_S64_S1x64_1 : (⟨S64, .i32⟩ : BufTy).Contents (Elt F) → (⟨S1x64, .i32⟩ : BufTy).Contents (Elt F)),
    unary main_v44 main_v45 (sitofp .f32 : (⟨S1x64, .i32⟩ : BufTy).Contents (Elt F) → (⟨S1x64, .f32⟩ : BufTy).Contents (Elt F)) ]

set_option maxRecDepth 8192 in
set_option maxHeartbeats 4000000 in
theorem part0_eq (d : Dev nD) : main_part0 (F := F) d = seq ops0 := rfl

set_option maxRecDepth 8192 in
theorem ops0_sub : (ops0 : List (HloOp τ sig (Elt F))).Forall fun op => op.bufs ⊆ tcRefs τ sig := by
  unfold ops0
  exact ⟨binary_bufs_sub .., binary_bufs_sub .., nullary_bufs_sub .., unary_bufs_sub .., binary_bufs_sub .., nullary_bufs_sub .., unary_bufs_sub .., binary_bufs_sub .., nullary_bufs_sub .., nullary_bufs_sub .., nullary_bufs_sub .., unary_bufs_sub .., nullary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., nullary_bufs_sub .., unary_bufs_sub .., binary_bufs_sub .., unary_bufs_sub .., unary_bufs_sub ..⟩

set_option maxRecDepth 8192 in
theorem ops0_fresh : ∀ op ∈ (ops0 : List (HloOp τ sig (Elt F))), op.fresh = ∅ := by
  unfold ops0
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value0 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5) :
    after ops0 W (Proc.devRef .tc main_arg0) = x0 ∧
    after ops0 W (Proc.devRef .tc main_arg1) = x1 ∧
    after ops0 W (Proc.devRef .tc main_arg2) = x2 ∧
    after ops0 W (Proc.devRef .tc main_arg3) = x3 ∧
    after ops0 W (Proc.devRef .tc main_arg4) = x4 ∧
    after ops0 W (Proc.devRef .tc main_arg5) = x5 ∧
    after ops0 W (Proc.devRef .tc main_v2) = ReadP.val_main_v2 (F := F) x0 x3 ∧
    after ops0 W (Proc.devRef .tc main_v3) = ReadP.val_main_v3 (F := F) x0 x4 ∧
    after ops0 W (Proc.devRef .tc main_v4) = ReadP.val_main_v4 (F := F) ∧
    after ops0 W (Proc.devRef .tc main_v5) = ReadP.val_main_v5 (F := F) ∧
    after ops0 W (Proc.devRef .tc main_v6) = ReadP.val_main_v6 (F := F) ∧
    after ops0 W (Proc.devRef .tc main_v7) = ReadP.val_main_v7 (F := F) ∧
    after ops0 W (Proc.devRef .tc main_v16) = ReadP.val_main_v16 (F := F) ∧
    after ops0 W (Proc.devRef .tc main_v31) = ReadP.val_main_v31 (F := F) ∧
    after ops0 W (Proc.devRef .tc main_v39) = ReadP.val_main_v39 (F := F) x1 ∧
    after ops0 W (Proc.devRef .tc main_v41) = ReadP.val_main_v41 (F := F) x2 ∧
    after ops0 W (Proc.devRef .tc main_v45) = ReadP.val_main_v45 (F := F) := by
  unfold ops0
  refine ⟨?_, ?_, ?_, ?_, ?_, ?_, ?_, ?_, ?_, ?_, ?_, ?_, ?_, ?_, ?_, ?_, ?_⟩
  · (after_results_simp <;> (try simp only [a0, a1, a2, a3, a4, a5]) <;> (first | rfl | assumption))
  · (after_results_simp <;> (try simp only [a0, a1, a2, a3, a4, a5]) <;> (first | rfl | assumption))
  · (after_results_simp <;> (try simp only [a0, a1, a2, a3, a4, a5]) <;> (first | rfl | assumption))
  · (after_results_simp <;> (try simp only [a0, a1, a2, a3, a4, a5]) <;> (first | rfl | assumption))
  · (after_results_simp <;> (try simp only [a0, a1, a2, a3, a4, a5]) <;> (first | rfl | assumption))
  · (after_results_simp <;> (try simp only [a0, a1, a2, a3, a4, a5]) <;> (first | rfl | assumption))
  · (after_results_simp <;> (try simp only [a0, a1, a2, a3, a4, a5]) <;> (first | rfl | assumption))
  · (after_results_simp <;> (try simp only [a0, a1, a2, a3, a4, a5]) <;> (first | rfl | assumption))
  · (after_results_simp <;> (try simp only [a0, a1, a2, a3, a4, a5]) <;> (first | rfl | assumption))
  · (after_results_simp <;> (try simp only [a0, a1, a2, a3, a4, a5]) <;> (first | rfl | assumption))
  · (after_results_simp <;> (try simp only [a0, a1, a2, a3, a4, a5]) <;> (first | rfl | assumption))
  · (after_results_simp <;> (try simp only [a0, a1, a2, a3, a4, a5]) <;> (first | rfl | assumption))
  · (after_results_simp <;> (try simp only [a0, a1, a2, a3, a4, a5]) <;> (first | rfl | assumption))
  · (after_results_simp <;> (try simp only [a0, a1, a2, a3, a4, a5]) <;> (first | rfl | assumption))
  · (after_results_simp <;> (try simp only [a0, a1, a2, a3, a4, a5]) <;> (first | rfl | assumption))
  · (after_results_simp <;> (try simp only [a0, a1, a2, a3, a4, a5]) <;> (first | rfl | assumption))
  · (after_results_simp <;> (try simp only [a0, a1, a2, a3, a4, a5]) <;> (first | rfl | assumption))

end Cert.ReferenceIdeal.RunH

end
-- ==== Proof.RefRun1.lean ====
/- The reference program's @main, statements 61 … 120 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops1 : List (HloOp τ sig (Elt F)) :=
  [ unary main_v41 main_v46 (broadcastInDim S1x64 ![] bcast_S_S1x64 : (⟨S_, .f32⟩ : BufTy).Contents (Elt F) → (⟨S1x64, .f32⟩ : BufTy).Contents (Elt F)),
    binary main_v46 main_v45 main_v47 (mulf : (⟨S1x64, .f32⟩ : BufTy).Contents (Elt F) → (⟨S1x64, .f32⟩ : BufTy).Contents (Elt F) → (⟨S1x64, .f32⟩ : BufTy).Contents (Elt F)),
    unary main_v39 main_v48 (broadcastInDim S64x64 ![0, 1] bcast_S64x1_S64x64_0_1 : (⟨S64x1, .f32⟩ : BufTy).Contents (Elt F) → (⟨S64x64, .f32⟩ : BufTy).Contents (Elt F)),
    unary main_v47 main_v49 (broadcastInDim S64x64 ![0, 1] bcast_S1x64_S64x64_0_1 : (⟨S1x64, .f32⟩ : BufTy).Contents (Elt F) → (⟨S64x64, .f32⟩ : BufTy).Contents (Elt F)),
    binary main_v48 main_v49 main_v50 (addf : (⟨S64x64, .f32⟩ : BufTy).Contents (Elt F) → (⟨S64x64, .f32⟩ : BufTy).Contents (Elt F) → (⟨S64x64, .f32⟩ : BufTy).Contents (Elt F)),
    unary main_v2 main_v51 ((extractStridedSlice S16x64x64x256 ![0, 0, 0, 0] · slices_S16x68x68x256_S16x64x64x256_0_0_0_0) : (⟨S16x68x68x256, .f32⟩ : BufTy).Contents (Elt F) → (⟨S16x64x64x256, .f32⟩ : BufTy).Contents (Elt F)),
    unary main_v3 main_v52 ((extractStridedSlice S16x64x64x256 ![0, 0, 0, 0] · slices_S16x68x68x256_S16x64x64x256_0_0_0_0) : (⟨S16x68x68x256, .f32⟩ : BufTy).Contents (Elt F) → (⟨S16x64x64x256, .f32⟩ : BufTy).Contents (Elt F)),
    unary main_v50 main_v53 (broadcastInDim S1x64x64x1 ![1, 2] bcast_S64x64_S1x64x64x1_1_2 : (⟨S64x64, .f32⟩ : BufTy).Contents (Elt F) → (⟨S1x64x64x1, .f32⟩ : BufTy).Contents (Elt F)),
    unary main_v53 main_v54 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v54 main_v51 main_v55 (addf : (⟨S16x64x64x256, .f32⟩ : BufTy).Contents (Elt F) → (⟨S16x64x64x256, .f32⟩ : BufTy).Contents (Elt F) → (⟨S16x64x64x256, .f32⟩ : BufTy).Contents (Elt F)),
    unary main_v55 main_v56 (Host.exp : (⟨S16x64x64x256, .f32⟩ : BufTy).Contents (Elt F) → (⟨S16x64x64x256, .f32⟩ : BufTy).Contents (Elt F)),
    unary main_v31 main_v57 (broadcastInDim S1x64x64x1 ![1, 2] bcast_S64x64_S1x64x64x1_1_2 : (⟨S64x64, .f32⟩ : BufTy).Contents (Elt F) → (⟨S1x64x64x1, .f32⟩ : BufTy).Contents (Elt F)),
    unary main_v57 main_v58 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v56 main_v58 main_v59 (mulf : (⟨S16x64x64x256, .f32⟩ : BufTy).Contents (Elt F) → (⟨S16x64x64x256, .f32⟩ : BufTy).Contents (Elt F) → (⟨S16x64x64x256, .f32⟩ : BufTy).Contents (Elt F)),
    binary main_v59 main_v52 main_v60 (mulf : (⟨S16x64x64x256, .f32⟩ : BufTy).Contents (Elt F) → (⟨S16x64x64x256, .f32⟩ : BufTy).Contents (Elt F) → (⟨S16x64x64x256, .f32⟩ : BufTy).Contents (Elt F)),
    binary main_v6 main_v60 main_v61 (addf : (⟨S16x64x64x256, .f32⟩ : BufTy).Contents (Elt F) → (⟨S16x64x64x256, .f32⟩ : BufTy).Contents (Elt F) → (⟨S16x64x64x256, .f32⟩ : BufTy).Contents (Elt F)),
    nullary main_cst_12 (constant S_ .f32 0x00000000#32),
    binary main_v59 main_cst_12 main_v62 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v62 main_v63 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v7 main_v63 main_v64 (addf : (⟨S16x64x64x1, .f32⟩ : BufTy).Contents (Elt F) → (⟨S16x64x64x1, .f32⟩ : BufTy).Contents (Elt F) → (⟨S16x64x64x1, .f32⟩ : BufTy).Contents (Elt F)),
    nullary main_c_13 (constantI S_ 32 4294967295#32),
    unary main_c_13 main_v65 (broadcastInDim S64 ![] bcast_S_S64 : (⟨S_, .i32⟩ : BufTy).Contents (Elt F) → (⟨S64, .i32⟩ : BufTy).Contents (Elt F)),
    binary main_v5 main_v65 main_v66 (addi : (⟨S64, .i32⟩ : BufTy).Contents (Elt F) → (⟨S64, .i32⟩ : BufTy).Contents (Elt F) → (⟨S64, .i32⟩ : BufTy).Contents (Elt F)),
    nullary main_c_14 (constantI S_ 32 0#32),
    unary main_c_14 main_v67 (broadcastInDim S64 ![] bcast_S_S64 : (⟨S_, .i32⟩ : BufTy).Contents (Elt F) → (⟨S64, .i32⟩ : BufTy).Contents (Elt F)),
    binary main_v66 main_v67 main_v68 (cmpi .sge : (⟨S64, .i32⟩ : BufTy).Contents (Elt F) → (⟨S64, .i32⟩ : BufTy).Contents (Elt F) → (⟨S64, .i1⟩ : BufTy).Contents (Elt F)),
    nullary main_c_15 (constantI S_ 32 4294967295#32),
    unary main_c_15 main_v69 (broadcastInDim S64 ![] bcast_S_S64 : (⟨S_, .i32⟩ : BufTy).Contents (Elt F) → (⟨S64, .i32⟩ : BufTy).Contents (Elt F)),
    binary main_v5 main_v69 main_v70 (addi : (⟨S64, .i32⟩ : BufTy).Contents (Elt F) → (⟨S64, .i32⟩ : BufTy).Contents (Elt F) → (⟨S64, .i32⟩ : BufTy).Contents (Elt F)),
    nullary main_c_16 (constantI S_ 32 64#32),
    unary main_c_16 main_v71 (broadcastInDim S64 ![] bcast_S_S64 : (⟨S_, .i32⟩ : BufTy).Contents (Elt F) → (⟨S64, .i32⟩ : BufTy).Contents (Elt F)),
    binary main_v70 main_v71 main_v72 (cmpi .slt : (⟨S64, .i32⟩ : BufTy).Contents (Elt F) → (⟨S64, .i32⟩ : BufTy).Contents (Elt F) → (⟨S64, .i1⟩ : BufTy).Contents (Elt F)),
    binary main_v68 main_v72 main_v73 (andi : (⟨S64, .i1⟩ : BufTy).Contents (Elt F) → (⟨S64, .i1⟩ : BufTy).Contents (Elt F) → (⟨S64, .i1⟩ : BufTy).Contents (Elt F)),
    unary main_v16 main_v74 (broadcastInDim S64x1 ![0] bcast_S64_S64x1_0 : (⟨S64, .i1⟩ : BufTy).Contents (Elt F) → (⟨S64x1, .i1⟩ : BufTy).Contents (Elt F)),
    unary main_v73 main_v75 (broadcastInDim S1x64 ![1] bcast_S64_S1x64_1 : (⟨S64, .i1⟩ : BufTy).Contents (Elt F) → (⟨S1x64, .i1⟩ : BufTy).Contents (Elt F)),
    unary main_v74 main_v76 (broadcastInDim S64x64 ![0, 1] bcast_S64x1_S64x64_0_1 : (⟨S64x1, .i1⟩ : BufTy).Contents (Elt F) → (⟨S64x64, .i1⟩ : BufTy).Contents (Elt F)),
    unary main_v75 main_v77 (broadcastInDim S64x64 ![0, 1] bcast_S1x64_S64x64_0_1 : (⟨S1x64, .i1⟩ : BufTy).Contents (Elt F) → (⟨S64x64, .i1⟩ : BufTy).Contents (Elt F)),
    binary main_v76 main_v77 main_v78 (andi : (⟨S64x64, .i1⟩ : BufTy).Contents (Elt F) → (⟨S64x64, .i1⟩ : BufTy).Contents (Elt F) → (⟨S64x64, .i1⟩ : BufTy).Contents (Elt F)),
    unary main_v78 main_v79 (uitofp .f32 : (⟨S64x64, .i1⟩ : BufTy).Contents (Elt F) → (⟨S64x64, .f32⟩ : BufTy).Contents (Elt F)),
    unary main_arg1 main_v80 ((extractStridedSlice S1 ![0] · slices_S5_S1_0) : (⟨S5, .f32⟩ : BufTy).Contents (Elt F) → (⟨S1, .f32⟩ : BufTy).Contents (Elt F)),
    reshape main_v80 main_v81 rfl shapeCasts_S1_S_,
    nullary main_c_17 (constantI S_ 32 4294967294#32),
    unary main_c_17 main_v82 (broadcastInDim S64 ![] bcast_S_S64 : (⟨S_, .i32⟩ : BufTy).Contents (Elt F) → (⟨S64, .i32⟩ : BufTy).Contents (Elt F)),
    binary main_v82 main_v4 main_v83 (subi : (⟨S64, .i32⟩ : BufTy).Contents (Elt F) → (⟨S64, .i32⟩ : BufTy).Contents (Elt F) → (⟨S64, .i32⟩ : BufTy).Contents (Elt F)),
    unary main_v83 main_v84 (broadcastInDim S64x1 ![0] bcast_S64_S64x1_0 : (⟨S64, .i32⟩ : BufTy).Contents (Elt F) → (⟨S64x1, .i32⟩ : BufTy).Contents (Elt F)),
    unary main_v84 main_v85 (sitofp .f32 : (⟨S64x1, .i32⟩ : BufTy).Contents (Elt F) → (⟨S64x1, .f32⟩ : BufTy).Contents (Elt F)),
    unary main_v81 main_v86 (broadcastInDim S64x1 ![] bcast_S_S64x1 : (⟨S_, .f32⟩ : BufTy).Contents (Elt F) → (⟨S64x1, .f32⟩ : BufTy).Contents (Elt F)),
    binary main_v86 main_v85 main_v87 (mulf : (⟨S64x1, .f32⟩ : BufTy).Contents (Elt F) → (⟨S64x1, .f32⟩ : BufTy).Contents (Elt F) → (⟨S64x1, .f32⟩ : BufTy).Contents (Elt F)),
    unary main_arg2 main_v88 ((extractStridedSlice S1 ![1] · slices_S5_S1_1) : (⟨S5, .f32⟩ : BufTy).Contents (Elt F) → (⟨S1, .f32⟩ : BufTy).Contents (Elt F)),
    reshape main_v88 main_v89 rfl shapeCasts_S1_S_,
    nullary main_c_18 (constantI S_ 32 4294967295#32),
    unary main_c_18 main_v90 (broadcastInDim S64 ![] bcast_S_S64 : (⟨S_, .i32⟩ : BufTy).Contents (Elt F) → (⟨S64, .i32⟩ : BufTy).Contents (Elt F)),
    binary main_v90 main_v5 main_v91 (subi : (⟨S64, .i32⟩ : BufTy).Contents (Elt F) → (⟨S64, .i32⟩ : BufTy).Contents (Elt F) → (⟨S64, .i32⟩ : BufTy).Contents (Elt F)),
    unary main_v91 main_v92 (broadcastInDim S1x64 ![1] bcast_S64_S1x64_1 : (⟨S64, .i32⟩ : BufTy).Contents (Elt F) → (⟨S1x64, .i32⟩ : BufTy).Contents (Elt F)),
    unary main_v92 main_v93 (sitofp .f32 : (⟨S1x64, .i32⟩ : BufTy).Contents (Elt F) → (⟨S1x64, .f32⟩ : BufTy).Contents (Elt F)),
    unary main_v89 main_v94 (broadcastInDim S1x64 ![] bcast_S_S1x64 : (⟨S_, .f32⟩ : BufTy).Contents (Elt F) → (⟨S1x64, .f32⟩ : BufTy).Contents (Elt F)),
    binary main_v94 main_v93 main_v95 (mulf : (⟨S1x64, .f32⟩ : BufTy).Contents (Elt F) → (⟨S1x64, .f32⟩ : BufTy).Contents (Elt F) → (⟨S1x64, .f32⟩ : BufTy).Contents (Elt F)),
    unary main_v87 main_v96 (broadcastInDim S64x64 ![0, 1] bcast_S64x1_S64x64_0_1 : (⟨S64x1, .f32⟩ : BufTy).Contents (Elt F) → (⟨S64x64, .f32⟩ : BufTy).Contents (Elt F)),
    unary main_v95 main_v97 (broadcastInDim S64x64 ![0, 1] bcast_S1x64_S64x64_0_1 : (⟨S1x64, .f32⟩ : BufTy).Contents (Elt F) → (⟨S64x64, .f32⟩ : BufTy).Contents (Elt F)),
    binary main_v96 main_v97 main_v98 (addf : (⟨S64x64, .f32⟩ : BufTy).Contents (Elt F) → (⟨S64x64, .f32⟩ : BufTy).Contents (Elt F) → (⟨S64x64, .f32⟩ : BufTy).Contents (Elt F)) ]

set_option maxRecDepth 8192 in
set_option maxHeartbeats 4000000 in
theorem part1_eq (d : Dev nD) : main_part1 (F := F) d = seq ops1 := rfl

set_option maxRecDepth 8192 in
theorem ops1_sub : (ops1 : List (HloOp τ sig (Elt F))).Forall fun op => op.bufs ⊆ tcRefs τ sig := by
  unfold ops1
  exact ⟨unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., unary_bufs_sub .., binary_bufs_sub ..⟩

set_option maxRecDepth 8192 in
theorem ops1_fresh : ∀ op ∈ (ops1 : List (HloOp τ sig (Elt F))), op.fresh = ∅ := by
  unfold ops1
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value1 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v6 : W (Proc.devRef .tc main_v6) = ReadP.val_main_v6 (F := F))
    (h_main_v7 : W (Proc.devRef .tc main_v7) = ReadP.val_main_v7 (F := F))
    (h_main_v16 : W (Proc.devRef .tc main_v16) = ReadP.val_main_v16 (F := F))
    (h_main_v31 : W (Proc.devRef .tc main_v31) = ReadP.val_main_v31 (F := F))
    (h_main_v39 : W (Proc.devRef .tc main_v39) = ReadP.val_main_v39 (F := F) x1)
    (h_main_v41 : W (Proc.devRef .tc main_v41) = ReadP.val_main_v41 (F := F) x2)
    (h_main_v45 : W (Proc.devRef .tc main_v45) = ReadP.val_main_v45 (F := F)) :
    after ops1 W (Proc.devRef .tc main_arg0) = x0 ∧
    after ops1 W (Proc.devRef .tc main_arg1) = x1 ∧
    after ops1 W (Proc.devRef .tc main_arg2) = x2 ∧
    after ops1 W (Proc.devRef .tc main_arg3) = x3 ∧
    after ops1 W (Proc.devRef .tc main_arg4) = x4 ∧
    after ops1 W (Proc.devRef .tc main_arg5) = x5 ∧
    after ops1 W (Proc.devRef .tc main_v2) = ReadP.val_main_v2 (F := F) x0 x3 ∧
    after ops1 W (Proc.devRef .tc main_v3) = ReadP.val_main_v3 (F := F) x0 x4 ∧
    after ops1 W (Proc.devRef .tc main_v4) = ReadP.val_main_v4 (F := F) ∧
    after ops1 W (Proc.devRef .tc main_v5) = ReadP.val_main_v5 (F := F) ∧
    after ops1 W (Proc.devRef .tc main_v16) = ReadP.val_main_v16 (F := F) ∧
    after ops1 W (Proc.devRef .tc main_v61) = ReadP.val_main_v61 (F := F) x0 x1 x2 x3 x4 ∧
    after ops1 W (Proc.devRef .tc main_v64) = ReadP.val_main_v64 (F := F) x0 x1 x2 x3 ∧
    after ops1 W (Proc.devRef .tc main_v79) = ReadP.val_main_v79 (F := F) ∧
    after ops1 W (Proc.devRef .tc main_v98) = ReadP.val_main_v98 (F := F) x1 x2 := by
  unfold ops1
  refine ⟨?_, ?_, ?_, ?_, ?_, ?_, ?_, ?_, ?_, ?_, ?_, ?_, ?_, ?_, ?_⟩
  · (after_results_simp <;> (try simp only [a0, a1, a2, a3, a4, a5, h_main_v2, h_main_v3, h_main_v4, h_main_v5, h_main_v6, h_main_v7, h_main_v16, h_main_v31, h_main_v39, h_main_v41, h_main_v45]) <;> (first | rfl | assumption))
  · (after_results_simp <;> (try simp only [a0, a1, a2, a3, a4, a5, h_main_v2, h_main_v3, h_main_v4, h_main_v5, h_main_v6, h_main_v7, h_main_v16, h_main_v31, h_main_v39, h_main_v41, h_main_v45]) <;> (first | rfl | assumption))
  · (after_results_simp <;> (try simp only [a0, a1, a2, a3, a4, a5, h_main_v2, h_main_v3, h_main_v4, h_main_v5, h_main_v6, h_main_v7, h_main_v16, h_main_v31, h_main_v39, h_main_v41, h_main_v45]) <;> (first | rfl | assumption))
  · (after_results_simp <;> (try simp only [a0, a1, a2, a3, a4, a5, h_main_v2, h_main_v3, h_main_v4, h_main_v5, h_main_v6, h_main_v7, h_main_v16, h_main_v31, h_main_v39, h_main_v41, h_main_v45]) <;> (first | rfl | assumption))
  · (after_results_simp <;> (try simp only [a0, a1, a2, a3, a4, a5, h_main_v2, h_main_v3, h_main_v4, h_main_v5, h_main_v6, h_main_v7, h_main_v16, h_main_v31, h_main_v39, h_main_v41, h_main_v45]) <;> (first | rfl | assumption))
  · (after_results_simp <;> (try simp only [a0, a1, a2, a3, a4, a5, h_main_v2, h_main_v3, h_main_v4, h_main_v5, h_main_v6, h_main_v7, h_main_v16, h_main_v31, h_main_v39, h_main_v41, h_main_v45]) <;> (first | rfl | assumption))
  · (after_results_simp <;> (try simp only [a0, a1, a2, a3, a4, a5, h_main_v2, h_main_v3, h_main_v4, h_main_v5, h_main_v6, h_main_v7, h_main_v16, h_main_v31, h_main_v39, h_main_v41, h_main_v45]) <;> (first | rfl | assumption))
  · (after_results_simp <;> (try simp only [a0, a1, a2, a3, a4, a5, h_main_v2, h_main_v3, h_main_v4, h_main_v5, h_main_v6, h_main_v7, h_main_v16, h_main_v31, h_main_v39, h_main_v41, h_main_v45]) <;> (first | rfl | assumption))
  · (after_results_simp <;> (try simp only [a0, a1, a2, a3, a4, a5, h_main_v2, h_main_v3, h_main_v4, h_main_v5, h_main_v6, h_main_v7, h_main_v16, h_main_v31, h_main_v39, h_main_v41, h_main_v45]) <;> (first | rfl | assumption))
  · (after_results_simp <;> (try simp only [a0, a1, a2, a3, a4, a5, h_main_v2, h_main_v3, h_main_v4, h_main_v5, h_main_v6, h_main_v7, h_main_v16, h_main_v31, h_main_v39, h_main_v41, h_main_v45]) <;> (first | rfl | assumption))
  · (after_results_simp <;> (try simp only [a0, a1, a2, a3, a4, a5, h_main_v2, h_main_v3, h_main_v4, h_main_v5, h_main_v6, h_main_v7, h_main_v16, h_main_v31, h_main_v39, h_main_v41, h_main_v45]) <;> (first | rfl | assumption))
  · (after_results_simp <;> (try simp only [a0, a1, a2, a3, a4, a5, h_main_v2, h_main_v3, h_main_v4, h_main_v5, h_main_v6, h_main_v7, h_main_v16, h_main_v31, h_main_v39, h_main_v41, h_main_v45]) <;> (first | rfl | assumption))
  · (after_results_simp <;> (try simp only [a0, a1, a2, a3, a4, a5, h_main_v2, h_main_v3, h_main_v4, h_main_v5, h_main_v6, h_main_v7, h_main_v16, h_main_v31, h_main_v39, h_main_v41, h_main_v45]) <;> (first | rfl | assumption))
  · (after_results_simp <;> (try simp only [a0, a1, a2, a3, a4, a5, h_main_v2, h_main_v3, h_main_v4, h_main_v5, h_main_v6, h_main_v7, h_main_v16, h_main_v31, h_main_v39, h_main_v41, h_main_v45]) <;> (first | rfl | assumption))
  · (after_results_simp <;> (try simp only [a0, a1, a2, a3, a4, a5, h_main_v2, h_main_v3, h_main_v4, h_main_v5, h_main_v6, h_main_v7, h_main_v16, h_main_v31, h_main_v39, h_main_v41, h_main_v45]) <;> (first | rfl | assumption))

end Cert.ReferenceIdeal.RunH

end
-- ==== Proof.RefRun2.lean ====
/- The reference program's @main, statements 121 … 180 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops2 : List (HloOp τ sig (Elt F)) :=
  [ unary main_v2 main_v99 ((extractStridedSlice S16x64x64x256 ![0, 0, 1, 0] · slices_S16x68x68x256_S16x64x64x256_0_0_1_0) : (⟨S16x68x68x256, .f32⟩ : BufTy).Contents (Elt F) → (⟨S16x64x64x256, .f32⟩ : BufTy).Contents (Elt F)),
    unary main_v3 main_v100 ((extractStridedSlice S16x64x64x256 ![0, 0, 1, 0] · slices_S16x68x68x256_S16x64x64x256_0_0_1_0) : (⟨S16x68x68x256, .f32⟩ : BufTy).Contents (Elt F) → (⟨S16x64x64x256, .f32⟩ : BufTy).Contents (Elt F)),
    unary main_v98 main_v101 (broadcastInDim S1x64x64x1 ![1, 2] bcast_S64x64_S1x64x64x1_1_2 : (⟨S64x64, .f32⟩ : BufTy).Contents (Elt F) → (⟨S1x64x64x1, .f32⟩ : BufTy).Contents (Elt F)),
    unary main_v101 main_v102 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v102 main_v99 main_v103 (addf : (⟨S16x64x64x256, .f32⟩ : BufTy).Contents (Elt F) → (⟨S16x64x64x256, .f32⟩ : BufTy).Contents (Elt F) → (⟨S16x64x64x256, .f32⟩ : BufTy).Contents (Elt F)),
    unary main_v103 main_v104 (Host.exp : (⟨S16x64x64x256, .f32⟩ : BufTy).Contents (Elt F) → (⟨S16x64x64x256, .f32⟩ : BufTy).Contents (Elt F)),
    unary main_v79 main_v105 (broadcastInDim S1x64x64x1 ![1, 2] bcast_S64x64_S1x64x64x1_1_2 : (⟨S64x64, .f32⟩ : BufTy).Contents (Elt F) → (⟨S1x64x64x1, .f32⟩ : BufTy).Contents (Elt F)),
    unary main_v105 main_v106 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v104 main_v106 main_v107 (mulf : (⟨S16x64x64x256, .f32⟩ : BufTy).Contents (Elt F) → (⟨S16x64x64x256, .f32⟩ : BufTy).Contents (Elt F) → (⟨S16x64x64x256, .f32⟩ : BufTy).Contents (Elt F)),
    binary main_v107 main_v100 main_v108 (mulf : (⟨S16x64x64x256, .f32⟩ : BufTy).Contents (Elt F) → (⟨S16x64x64x256, .f32⟩ : BufTy).Contents (Elt F) → (⟨S16x64x64x256, .f32⟩ : BufTy).Contents (Elt F)),
    binary main_v61 main_v108 main_v109 (addf : (⟨S16x64x64x256, .f32⟩ : BufTy).Contents (Elt F) → (⟨S16x64x64x256, .f32⟩ : BufTy).Contents (Elt F) → (⟨S16x64x64x256, .f32⟩ : BufTy).Contents (Elt F)),
    nullary main_cst_19 (constant S_ .f32 0x00000000#32),
    binary main_v107 main_cst_19 main_v110 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v110 main_v111 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v64 main_v111 main_v112 (addf : (⟨S16x64x64x1, .f32⟩ : BufTy).Contents (Elt F) → (⟨S16x64x64x1, .f32⟩ : BufTy).Contents (Elt F) → (⟨S16x64x64x1, .f32⟩ : BufTy).Contents (Elt F)),
    nullary main_c_20 (constantI S_ 32 0#32),
    unary main_c_20 main_v113 (broadcastInDim S64 ![] bcast_S_S64 : (⟨S_, .i32⟩ : BufTy).Contents (Elt F) → (⟨S64, .i32⟩ : BufTy).Contents (Elt F)),
    binary main_v5 main_v113 main_v114 (addi : (⟨S64, .i32⟩ : BufTy).Contents (Elt F) → (⟨S64, .i32⟩ : BufTy).Contents (Elt F) → (⟨S64, .i32⟩ : BufTy).Contents (Elt F)),
    nullary main_c_21 (constantI S_ 32 0#32),
    unary main_c_21 main_v115 (broadcastInDim S64 ![] bcast_S_S64 : (⟨S_, .i32⟩ : BufTy).Contents (Elt F) → (⟨S64, .i32⟩ : BufTy).Contents (Elt F)),
    binary main_v114 main_v115 main_v116 (cmpi .sge : (⟨S64, .i32⟩ : BufTy).Contents (Elt F) → (⟨S64, .i32⟩ : BufTy).Contents (Elt F) → (⟨S64, .i1⟩ : BufTy).Contents (Elt F)),
    nullary main_c_22 (constantI S_ 32 0#32),
    unary main_c_22 main_v117 (broadcastInDim S64 ![] bcast_S_S64 : (⟨S_, .i32⟩ : BufTy).Contents (Elt F) → (⟨S64, .i32⟩ : BufTy).Contents (Elt F)),
    binary main_v5 main_v117 main_v118 (addi : (⟨S64, .i32⟩ : BufTy).Contents (Elt F) → (⟨S64, .i32⟩ : BufTy).Contents (Elt F) → (⟨S64, .i32⟩ : BufTy).Contents (Elt F)),
    nullary main_c_23 (constantI S_ 32 64#32),
    unary main_c_23 main_v119 (broadcastInDim S64 ![] bcast_S_S64 : (⟨S_, .i32⟩ : BufTy).Contents (Elt F) → (⟨S64, .i32⟩ : BufTy).Contents (Elt F)),
    binary main_v118 main_v119 main_v120 (cmpi .slt : (⟨S64, .i32⟩ : BufTy).Contents (Elt F) → (⟨S64, .i32⟩ : BufTy).Contents (Elt F) → (⟨S64, .i1⟩ : BufTy).Contents (Elt F)),
    binary main_v116 main_v120 main_v121 (andi : (⟨S64, .i1⟩ : BufTy).Contents (Elt F) → (⟨S64, .i1⟩ : BufTy).Contents (Elt F) → (⟨S64, .i1⟩ : BufTy).Contents (Elt F)),
    unary main_v16 main_v122 (broadcastInDim S64x1 ![0] bcast_S64_S64x1_0 : (⟨S64, .i1⟩ : BufTy).Contents (Elt F) → (⟨S64x1, .i1⟩ : BufTy).Contents (Elt F)),
    unary main_v121 main_v123 (broadcastInDim S1x64 ![1] bcast_S64_S1x64_1 : (⟨S64, .i1⟩ : BufTy).Contents (Elt F) → (⟨S1x64, .i1⟩ : BufTy).Contents (Elt F)),
    unary main_v122 main_v124 (broadcastInDim S64x64 ![0, 1] bcast_S64x1_S64x64_0_1 : (⟨S64x1, .i1⟩ : BufTy).Contents (Elt F) → (⟨S64x64, .i1⟩ : BufTy).Contents (Elt F)),
    unary main_v123 main_v125 (broadcastInDim S64x64 ![0, 1] bcast_S1x64_S64x64_0_1 : (⟨S1x64, .i1⟩ : BufTy).Contents (Elt F) → (⟨S64x64, .i1⟩ : BufTy).Contents (Elt F)),
    binary main_v124 main_v125 main_v126 (andi : (⟨S64x64, .i1⟩ : BufTy).Contents (Elt F) → (⟨S64x64, .i1⟩ : BufTy).Contents (Elt F) → (⟨S64x64, .i1⟩ : BufTy).Contents (Elt F)),
    unary main_v126 main_v127 (uitofp .f32 : (⟨S64x64, .i1⟩ : BufTy).Contents (Elt F) → (⟨S64x64, .f32⟩ : BufTy).Contents (Elt F)),
    unary main_arg1 main_v128 ((extractStridedSlice S1 ![0] · slices_S5_S1_0) : (⟨S5, .f32⟩ : BufTy).Contents (Elt F) → (⟨S1, .f32⟩ : BufTy).Contents (Elt F)),
    reshape main_v128 main_v129 rfl shapeCasts_S1_S_,
    nullary main_c_24 (constantI S_ 32 4294967294#32),
    unary main_c_24 main_v130 (broadcastInDim S64 ![] bcast_S_S64 : (⟨S_, .i32⟩ : BufTy).Contents (Elt F) → (⟨S64, .i32⟩ : BufTy).Contents (Elt F)),
    binary main_v130 main_v4 main_v131 (subi : (⟨S64, .i32⟩ : BufTy).Contents (Elt F) → (⟨S64, .i32⟩ : BufTy).Contents (Elt F) → (⟨S64, .i32⟩ : BufTy).Contents (Elt F)),
    unary main_v131 main_v132 (broadcastInDim S64x1 ![0] bcast_S64_S64x1_0 : (⟨S64, .i32⟩ : BufTy).Contents (Elt F) → (⟨S64x1, .i32⟩ : BufTy).Contents (Elt F)),
    unary main_v132 main_v133 (sitofp .f32 : (⟨S64x1, .i32⟩ : BufTy).Contents (Elt F) → (⟨S64x1, .f32⟩ : BufTy).Contents (Elt F)),
    unary main_v129 main_v134 (broadcastInDim S64x1 ![] bcast_S_S64x1 : (⟨S_, .f32⟩ : BufTy).Contents (Elt F) → (⟨S64x1, .f32⟩ : BufTy).Contents (Elt F)),
    binary main_v134 main_v133 main_v135 (mulf : (⟨S64x1, .f32⟩ : BufTy).Contents (Elt F) → (⟨S64x1, .f32⟩ : BufTy).Contents (Elt F) → (⟨S64x1, .f32⟩ : BufTy).Contents (Elt F)),
    unary main_arg2 main_v136 ((extractStridedSlice S1 ![2] · slices_S5_S1_2) : (⟨S5, .f32⟩ : BufTy).Contents (Elt F) → (⟨S1, .f32⟩ : BufTy).Contents (Elt F)),
    reshape main_v136 main_v137 rfl shapeCasts_S1_S_,
    nullary main_c_25 (constantI S_ 32 0#32),
    unary main_c_25 main_v138 (broadcastInDim S64 ![] bcast_S_S64 : (⟨S_, .i32⟩ : BufTy).Contents (Elt F) → (⟨S64, .i32⟩ : BufTy).Contents (Elt F)),
    binary main_v138 main_v5 main_v139 (subi : (⟨S64, .i32⟩ : BufTy).Contents (Elt F) → (⟨S64, .i32⟩ : BufTy).Contents (Elt F) → (⟨S64, .i32⟩ : BufTy).Contents (Elt F)),
    unary main_v139 main_v140 (broadcastInDim S1x64 ![1] bcast_S64_S1x64_1 : (⟨S64, .i32⟩ : BufTy).Contents (Elt F) → (⟨S1x64, .i32⟩ : BufTy).Contents (Elt F)),
    unary main_v140 main_v141 (sitofp .f32 : (⟨S1x64, .i32⟩ : BufTy).Contents (Elt F) → (⟨S1x64, .f32⟩ : BufTy).Contents (Elt F)),
    unary main_v137 main_v142 (broadcastInDim S1x64 ![] bcast_S_S1x64 : (⟨S_, .f32⟩ : BufTy).Contents (Elt F) → (⟨S1x64, .f32⟩ : BufTy).Contents (Elt F)),
    binary main_v142 main_v141 main_v143 (mulf : (⟨S1x64, .f32⟩ : BufTy).Contents (Elt F) → (⟨S1x64, .f32⟩ : BufTy).Contents (Elt F) → (⟨S1x64, .f32⟩ : BufTy).Contents (Elt F)),
    unary main_v135 main_v144 (broadcastInDim S64x64 ![0, 1] bcast_S64x1_S64x64_0_1 : (⟨S64x1, .f32⟩ : BufTy).Contents (Elt F) → (⟨S64x64, .f32⟩ : BufTy).Contents (Elt F)),
    unary main_v143 main_v145 (broadcastInDim S64x64 ![0, 1] bcast_S1x64_S64x64_0_1 : (⟨S1x64, .f32⟩ : BufTy).Contents (Elt F) → (⟨S64x64, .f32⟩ : BufTy).Contents (Elt F)),
    binary main_v144 main_v145 main_v146 (addf : (⟨S64x64, .f32⟩ : BufTy).Contents (Elt F) → (⟨S64x64, .f32⟩ : BufTy).Contents (Elt F) → (⟨S64x64, .f32⟩ : BufTy).Contents (Elt F)),
    unary main_v2 main_v147 ((extractStridedSlice S16x64x64x256 ![0, 0, 2, 0] · slices_S16x68x68x256_S16x64x64x256_0_0_2_0) : (⟨S16x68x68x256, .f32⟩ : BufTy).Contents (Elt F) → (⟨S16x64x64x256, .f32⟩ : BufTy).Contents (Elt F)),
    unary main_v3 main_v148 ((extractStridedSlice S16x64x64x256 ![0, 0, 2, 0] · slices_S16x68x68x256_S16x64x64x256_0_0_2_0) : (⟨S16x68x68x256, .f32⟩ : BufTy).Contents (Elt F) → (⟨S16x64x64x256, .f32⟩ : BufTy).Contents (Elt F)),
    unary main_v146 main_v149 (broadcastInDim S1x64x64x1 ![1, 2] bcast_S64x64_S1x64x64x1_1_2 : (⟨S64x64, .f32⟩ : BufTy).Contents (Elt F) → (⟨S1x64x64x1, .f32⟩ : BufTy).Contents (Elt F)),
    unary main_v149 main_v150 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v150 main_v147 main_v151 (addf : (⟨S16x64x64x256, .f32⟩ : BufTy).Contents (Elt F) → (⟨S16x64x64x256, .f32⟩ : BufTy).Contents (Elt F) → (⟨S16x64x64x256, .f32⟩ : BufTy).Contents (Elt F)) ]

set_option maxRecDepth 8192 in
set_option maxHeartbeats 4000000 in
theorem part2_eq (d : Dev nD) : main_part2 (F := F) d = seq ops2 := rfl

set_option maxRecDepth 8192 in
theorem ops2_sub : (ops2 : List (HloOp τ sig (Elt F))).Forall fun op => op.bufs ⊆ tcRefs τ sig := by
  unfold ops2
  exact ⟨unary_bufs_sub .., unary_bufs_sub .., unary_bufs_sub .., unary_bufs_sub .., binary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub ..⟩

set_option maxRecDepth 8192 in
theorem ops2_fresh : ∀ op ∈ (ops2 : List (HloOp τ sig (Elt F))), op.fresh = ∅ := by
  unfold ops2
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value2 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v16 : W (Proc.devRef .tc main_v16) = ReadP.val_main_v16 (F := F))
    (h_main_v61 : W (Proc.devRef .tc main_v61) = ReadP.val_main_v61 (F := F) x0 x1 x2 x3 x4)
    (h_main_v64 : W (Proc.devRef .tc main_v64) = ReadP.val_main_v64 (F := F) x0 x1 x2 x3)
    (h_main_v79 : W (Proc.devRef .tc main_v79) = ReadP.val_main_v79 (F := F))
    (h_main_v98 : W (Proc.devRef .tc main_v98) = ReadP.val_main_v98 (F := F) x1 x2) :
    after ops2 W (Proc.devRef .tc main_arg0) = x0 ∧
    after ops2 W (Proc.devRef .tc main_arg1) = x1 ∧
    after ops2 W (Proc.devRef .tc main_arg2) = x2 ∧
    after ops2 W (Proc.devRef .tc main_arg3) = x3 ∧
    after ops2 W (Proc.devRef .tc main_arg4) = x4 ∧
    after ops2 W (Proc.devRef .tc main_arg5) = x5 ∧
    after ops2 W (Proc.devRef .tc main_v2) = ReadP.val_main_v2 (F := F) x0 x3 ∧
    after ops2 W (Proc.devRef .tc main_v3) = ReadP.val_main_v3 (F := F) x0 x4 ∧
    after ops2 W (Proc.devRef .tc main_v4) = ReadP.val_main_v4 (F := F) ∧
    after ops2 W (Proc.devRef .tc main_v5) = ReadP.val_main_v5 (F := F) ∧
    after ops2 W (Proc.devRef .tc main_v16) = ReadP.val_main_v16 (F := F) ∧
    after ops2 W (Proc.devRef .tc main_v109) = ReadP.val_main_v109 (F := F) x0 x1 x2 x3 x4 ∧
    after ops2 W (Proc.devRef .tc main_v112) = ReadP.val_main_v112 (F := F) x0 x1 x2 x3 ∧
    after ops2 W (Proc.devRef .tc main_v127) = ReadP.val_main_v127 (F := F) ∧
    after ops2 W (Proc.devRef .tc main_v148) = ReadP.val_main_v148 (F := F) x0 x4 ∧
    after ops2 W (Proc.devRef .tc main_v151) = ReadP.val_main_v151 (F := F) x0 x1 x2 x3 := by
  unfold ops2
  refine ⟨?_, ?_, ?_, ?_, ?_, ?_, ?_, ?_, ?_, ?_, ?_, ?_, ?_, ?_, ?_, ?_⟩
  · (after_results_simp <;> (try simp only [a0, a1, a2, a3, a4, a5, h_main_v2, h_main_v3, h_main_v4, h_main_v5, h_main_v16, h_main_v61, h_main_v64, h_main_v79, h_main_v98]) <;> (first | rfl | assumption))
  · (after_results_simp <;> (try simp only [a0, a1, a2, a3, a4, a5, h_main_v2, h_main_v3, h_main_v4, h_main_v5, h_main_v16, h_main_v61, h_main_v64, h_main_v79, h_main_v98]) <;> (first | rfl | assumption))
  · (after_results_simp <;> (try simp only [a0, a1, a2, a3, a4, a5, h_main_v2, h_main_v3, h_main_v4, h_main_v5, h_main_v16, h_main_v61, h_main_v64, h_main_v79, h_main_v98]) <;> (first | rfl | assumption))
  · (after_results_simp <;> (try simp only [a0, a1, a2, a3, a4, a5, h_main_v2, h_main_v3, h_main_v4, h_main_v5, h_main_v16, h_main_v61, h_main_v64, h_main_v79, h_main_v98]) <;> (first | rfl | assumption))
  · (after_results_simp <;> (try simp only [a0, a1, a2, a3, a4, a5, h_main_v2, h_main_v3, h_main_v4, h_main_v5, h_main_v16, h_main_v61, h_main_v64, h_main_v79, h_main_v98]) <;> (first | rfl | assumption))
  · (after_results_simp <;> (try simp only [a0, a1, a2, a3, a4, a5, h_main_v2, h_main_v3, h_main_v4, h_main_v5, h_main_v16, h_main_v61, h_main_v64, h_main_v79, h_main_v98]) <;> (first | rfl | assumption))
  · (after_results_simp <;> (try simp only [a0, a1, a2, a3, a4, a5, h_main_v2, h_main_v3, h_main_v4, h_main_v5, h_main_v16, h_main_v61, h_main_v64, h_main_v79, h_main_v98]) <;> (first | rfl | assumption))
  · (after_results_simp <;> (try simp only [a0, a1, a2, a3, a4, a5, h_main_v2, h_main_v3, h_main_v4, h_main_v5, h_main_v16, h_main_v61, h_main_v64, h_main_v79, h_main_v98]) <;> (first | rfl | assumption))
  · (after_results_simp <;> (try simp only [a0, a1, a2, a3, a4, a5, h_main_v2, h_main_v3, h_main_v4, h_main_v5, h_main_v16, h_main_v61, h_main_v64, h_main_v79, h_main_v98]) <;> (first | rfl | assumption))
  · (after_results_simp <;> (try simp only [a0, a1, a2, a3, a4, a5, h_main_v2, h_main_v3, h_main_v4, h_main_v5, h_main_v16, h_main_v61, h_main_v64, h_main_v79, h_main_v98]) <;> (first | rfl | assumption))
  · (after_results_simp <;> (try simp only [a0, a1, a2, a3, a4, a5, h_main_v2, h_main_v3, h_main_v4, h_main_v5, h_main_v16, h_main_v61, h_main_v64, h_main_v79, h_main_v98]) <;> (first | rfl | assumption))
  · (after_results_simp <;> (try simp only [a0, a1, a2, a3, a4, a5, h_main_v2, h_main_v3, h_main_v4, h_main_v5, h_main_v16, h_main_v61, h_main_v64, h_main_v79, h_main_v98]) <;> (first | rfl | assumption))
  · (after_results_simp <;> (try simp only [a0, a1, a2, a3, a4, a5, h_main_v2, h_main_v3, h_main_v4, h_main_v5, h_main_v16, h_main_v61, h_main_v64, h_main_v79, h_main_v98]) <;> (first | rfl | assumption))
  · (after_results_simp <;> (try simp only [a0, a1, a2, a3, a4, a5, h_main_v2, h_main_v3, h_main_v4, h_main_v5, h_main_v16, h_main_v61, h_main_v64, h_main_v79, h_main_v98]) <;> (first | rfl | assumption))
  · (after_results_simp <;> (try simp only [a0, a1, a2, a3, a4, a5, h_main_v2, h_main_v3, h_main_v4, h_main_v5, h_main_v16, h_main_v61, h_main_v64, h_main_v79, h_main_v98]) <;> (first | rfl | assumption))
  · (after_results_simp <;> (try simp only [a0, a1, a2, a3, a4, a5, h_main_v2, h_main_v3, h_main_v4, h_main_v5, h_main_v16, h_main_v61, h_main_v64, h_main_v79, h_main_v98]) <;> (first | rfl | assumption))

end Cert.ReferenceIdeal.RunH

end
-- ==== Proof.RefRun3.lean ====
/- The reference program's @main, statements 181 … 240 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops3 : List (HloOp τ sig (Elt F)) :=
  [ unary main_v151 main_v152 (Host.exp : (⟨S16x64x64x256, .f32⟩ : BufTy).Contents (Elt F) → (⟨S16x64x64x256, .f32⟩ : BufTy).Contents (Elt F)),
    unary main_v127 main_v153 (broadcastInDim S1x64x64x1 ![1, 2] bcast_S64x64_S1x64x64x1_1_2 : (⟨S64x64, .f32⟩ : BufTy).Contents (Elt F) → (⟨S1x64x64x1, .f32⟩ : BufTy).Contents (Elt F)),
    unary main_v153 main_v154 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v152 main_v154 main_v155 (mulf : (⟨S16x64x64x256, .f32⟩ : BufTy).Contents (Elt F) → (⟨S16x64x64x256, .f32⟩ : BufTy).Contents (Elt F) → (⟨S16x64x64x256, .f32⟩ : BufTy).Contents (Elt F)),
    binary main_v155 main_v148 main_v156 (mulf : (⟨S16x64x64x256, .f32⟩ : BufTy).Contents (Elt F) → (⟨S16x64x64x256, .f32⟩ : BufTy).Contents (Elt F) → (⟨S16x64x64x256, .f32⟩ : BufTy).Contents (Elt F)),
    binary main_v109 main_v156 main_v157 (addf : (⟨S16x64x64x256, .f32⟩ : BufTy).Contents (Elt F) → (⟨S16x64x64x256, .f32⟩ : BufTy).Contents (Elt F) → (⟨S16x64x64x256, .f32⟩ : BufTy).Contents (Elt F)),
    nullary main_cst_26 (constant S_ .f32 0x00000000#32),
    binary main_v155 main_cst_26 main_v158 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v158 main_v159 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v112 main_v159 main_v160 (addf : (⟨S16x64x64x1, .f32⟩ : BufTy).Contents (Elt F) → (⟨S16x64x64x1, .f32⟩ : BufTy).Contents (Elt F) → (⟨S16x64x64x1, .f32⟩ : BufTy).Contents (Elt F)),
    nullary main_c_27 (constantI S_ 32 1#32),
    unary main_c_27 main_v161 (broadcastInDim S64 ![] bcast_S_S64 : (⟨S_, .i32⟩ : BufTy).Contents (Elt F) → (⟨S64, .i32⟩ : BufTy).Contents (Elt F)),
    binary main_v5 main_v161 main_v162 (addi : (⟨S64, .i32⟩ : BufTy).Contents (Elt F) → (⟨S64, .i32⟩ : BufTy).Contents (Elt F) → (⟨S64, .i32⟩ : BufTy).Contents (Elt F)),
    nullary main_c_28 (constantI S_ 32 0#32),
    unary main_c_28 main_v163 (broadcastInDim S64 ![] bcast_S_S64 : (⟨S_, .i32⟩ : BufTy).Contents (Elt F) → (⟨S64, .i32⟩ : BufTy).Contents (Elt F)),
    binary main_v162 main_v163 main_v164 (cmpi .sge : (⟨S64, .i32⟩ : BufTy).Contents (Elt F) → (⟨S64, .i32⟩ : BufTy).Contents (Elt F) → (⟨S64, .i1⟩ : BufTy).Contents (Elt F)),
    nullary main_c_29 (constantI S_ 32 1#32),
    unary main_c_29 main_v165 (broadcastInDim S64 ![] bcast_S_S64 : (⟨S_, .i32⟩ : BufTy).Contents (Elt F) → (⟨S64, .i32⟩ : BufTy).Contents (Elt F)),
    binary main_v5 main_v165 main_v166 (addi : (⟨S64, .i32⟩ : BufTy).Contents (Elt F) → (⟨S64, .i32⟩ : BufTy).Contents (Elt F) → (⟨S64, .i32⟩ : BufTy).Contents (Elt F)),
    nullary main_c_30 (constantI S_ 32 64#32),
    unary main_c_30 main_v167 (broadcastInDim S64 ![] bcast_S_S64 : (⟨S_, .i32⟩ : BufTy).Contents (Elt F) → (⟨S64, .i32⟩ : BufTy).Contents (Elt F)),
    binary main_v166 main_v167 main_v168 (cmpi .slt : (⟨S64, .i32⟩ : BufTy).Contents (Elt F) → (⟨S64, .i32⟩ : BufTy).Contents (Elt F) → (⟨S64, .i1⟩ : BufTy).Contents (Elt F)),
    binary main_v164 main_v168 main_v169 (andi : (⟨S64, .i1⟩ : BufTy).Contents (Elt F) → (⟨S64, .i1⟩ : BufTy).Contents (Elt F) → (⟨S64, .i1⟩ : BufTy).Contents (Elt F)),
    unary main_v16 main_v170 (broadcastInDim S64x1 ![0] bcast_S64_S64x1_0 : (⟨S64, .i1⟩ : BufTy).Contents (Elt F) → (⟨S64x1, .i1⟩ : BufTy).Contents (Elt F)),
    unary main_v169 main_v171 (broadcastInDim S1x64 ![1] bcast_S64_S1x64_1 : (⟨S64, .i1⟩ : BufTy).Contents (Elt F) → (⟨S1x64, .i1⟩ : BufTy).Contents (Elt F)),
    unary main_v170 main_v172 (broadcastInDim S64x64 ![0, 1] bcast_S64x1_S64x64_0_1 : (⟨S64x1, .i1⟩ : BufTy).Contents (Elt F) → (⟨S64x64, .i1⟩ : BufTy).Contents (Elt F)),
    unary main_v171 main_v173 (broadcastInDim S64x64 ![0, 1] bcast_S1x64_S64x64_0_1 : (⟨S1x64, .i1⟩ : BufTy).Contents (Elt F) → (⟨S64x64, .i1⟩ : BufTy).Contents (Elt F)),
    binary main_v172 main_v173 main_v174 (andi : (⟨S64x64, .i1⟩ : BufTy).Contents (Elt F) → (⟨S64x64, .i1⟩ : BufTy).Contents (Elt F) → (⟨S64x64, .i1⟩ : BufTy).Contents (Elt F)),
    unary main_v174 main_v175 (uitofp .f32 : (⟨S64x64, .i1⟩ : BufTy).Contents (Elt F) → (⟨S64x64, .f32⟩ : BufTy).Contents (Elt F)),
    unary main_arg1 main_v176 ((extractStridedSlice S1 ![0] · slices_S5_S1_0) : (⟨S5, .f32⟩ : BufTy).Contents (Elt F) → (⟨S1, .f32⟩ : BufTy).Contents (Elt F)),
    reshape main_v176 main_v177 rfl shapeCasts_S1_S_,
    nullary main_c_31 (constantI S_ 32 4294967294#32),
    unary main_c_31 main_v178 (broadcastInDim S64 ![] bcast_S_S64 : (⟨S_, .i32⟩ : BufTy).Contents (Elt F) → (⟨S64, .i32⟩ : BufTy).Contents (Elt F)),
    binary main_v178 main_v4 main_v179 (subi : (⟨S64, .i32⟩ : BufTy).Contents (Elt F) → (⟨S64, .i32⟩ : BufTy).Contents (Elt F) → (⟨S64, .i32⟩ : BufTy).Contents (Elt F)),
    unary main_v179 main_v180 (broadcastInDim S64x1 ![0] bcast_S64_S64x1_0 : (⟨S64, .i32⟩ : BufTy).Contents (Elt F) → (⟨S64x1, .i32⟩ : BufTy).Contents (Elt F)),
    unary main_v180 main_v181 (sitofp .f32 : (⟨S64x1, .i32⟩ : BufTy).Contents (Elt F) → (⟨S64x1, .f32⟩ : BufTy).Contents (Elt F)),
    unary main_v177 main_v182 (broadcastInDim S64x1 ![] bcast_S_S64x1 : (⟨S_, .f32⟩ : BufTy).Contents (Elt F) → (⟨S64x1, .f32⟩ : BufTy).Contents (Elt F)),
    binary main_v182 main_v181 main_v183 (mulf : (⟨S64x1, .f32⟩ : BufTy).Contents (Elt F) → (⟨S64x1, .f32⟩ : BufTy).Contents (Elt F) → (⟨S64x1, .f32⟩ : BufTy).Contents (Elt F)),
    unary main_arg2 main_v184 ((extractStridedSlice S1 ![3] · slices_S5_S1_3) : (⟨S5, .f32⟩ : BufTy).Contents (Elt F) → (⟨S1, .f32⟩ : BufTy).Contents (Elt F)),
    reshape main_v184 main_v185 rfl shapeCasts_S1_S_,
    nullary main_c_32 (constantI S_ 32 1#32),
    unary main_c_32 main_v186 (broadcastInDim S64 ![] bcast_S_S64 : (⟨S_, .i32⟩ : BufTy).Contents (Elt F) → (⟨S64, .i32⟩ : BufTy).Contents (Elt F)),
    binary main_v186 main_v5 main_v187 (subi : (⟨S64, .i32⟩ : BufTy).Contents (Elt F) → (⟨S64, .i32⟩ : BufTy).Contents (Elt F) → (⟨S64, .i32⟩ : BufTy).Contents (Elt F)),
    unary main_v187 main_v188 (broadcastInDim S1x64 ![1] bcast_S64_S1x64_1 : (⟨S64, .i32⟩ : BufTy).Contents (Elt F) → (⟨S1x64, .i32⟩ : BufTy).Contents (Elt F)),
    unary main_v188 main_v189 (sitofp .f32 : (⟨S1x64, .i32⟩ : BufTy).Contents (Elt F) → (⟨S1x64, .f32⟩ : BufTy).Contents (Elt F)),
    unary main_v185 main_v190 (broadcastInDim S1x64 ![] bcast_S_S1x64 : (⟨S_, .f32⟩ : BufTy).Contents (Elt F) → (⟨S1x64, .f32⟩ : BufTy).Contents (Elt F)),
    binary main_v190 main_v189 main_v191 (mulf : (⟨S1x64, .f32⟩ : BufTy).Contents (Elt F) → (⟨S1x64, .f32⟩ : BufTy).Contents (Elt F) → (⟨S1x64, .f32⟩ : BufTy).Contents (Elt F)),
    unary main_v183 main_v192 (broadcastInDim S64x64 ![0, 1] bcast_S64x1_S64x64_0_1 : (⟨S64x1, .f32⟩ : BufTy).Contents (Elt F) → (⟨S64x64, .f32⟩ : BufTy).Contents (Elt F)),
    unary main_v191 main_v193 (broadcastInDim S64x64 ![0, 1] bcast_S1x64_S64x64_0_1 : (⟨S1x64, .f32⟩ : BufTy).Contents (Elt F) → (⟨S64x64, .f32⟩ : BufTy).Contents (Elt F)),
    binary main_v192 main_v193 main_v194 (addf : (⟨S64x64, .f32⟩ : BufTy).Contents (Elt F) → (⟨S64x64, .f32⟩ : BufTy).Contents (Elt F) → (⟨S64x64, .f32⟩ : BufTy).Contents (Elt F)),
    unary main_v2 main_v195 ((extractStridedSlice S16x64x64x256 ![0, 0, 3, 0] · slices_S16x68x68x256_S16x64x64x256_0_0_3_0) : (⟨S16x68x68x256, .f32⟩ : BufTy).Contents (Elt F) → (⟨S16x64x64x256, .f32⟩ : BufTy).Contents (Elt F)),
    unary main_v3 main_v196 ((extractStridedSlice S16x64x64x256 ![0, 0, 3, 0] · slices_S16x68x68x256_S16x64x64x256_0_0_3_0) : (⟨S16x68x68x256, .f32⟩ : BufTy).Contents (Elt F) → (⟨S16x64x64x256, .f32⟩ : BufTy).Contents (Elt F)),
    unary main_v194 main_v197 (broadcastInDim S1x64x64x1 ![1, 2] bcast_S64x64_S1x64x64x1_1_2 : (⟨S64x64, .f32⟩ : BufTy).Contents (Elt F) → (⟨S1x64x64x1, .f32⟩ : BufTy).Contents (Elt F)),
    unary main_v197 main_v198 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v198 main_v195 main_v199 (addf : (⟨S16x64x64x256, .f32⟩ : BufTy).Contents (Elt F) → (⟨S16x64x64x256, .f32⟩ : BufTy).Contents (Elt F) → (⟨S16x64x64x256, .f32⟩ : BufTy).Contents (Elt F)),
    unary main_v199 main_v200 (Host.exp : (⟨S16x64x64x256, .f32⟩ : BufTy).Contents (Elt F) → (⟨S16x64x64x256, .f32⟩ : BufTy).Contents (Elt F)),
    unary main_v175 main_v201 (broadcastInDim S1x64x64x1 ![1, 2] bcast_S64x64_S1x64x64x1_1_2 : (⟨S64x64, .f32⟩ : BufTy).Contents (Elt F) → (⟨S1x64x64x1, .f32⟩ : BufTy).Contents (Elt F)),
    unary main_v201 main_v202 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v200 main_v202 main_v203 (mulf : (⟨S16x64x64x256, .f32⟩ : BufTy).Contents (Elt F) → (⟨S16x64x64x256, .f32⟩ : BufTy).Contents (Elt F) → (⟨S16x64x64x256, .f32⟩ : BufTy).Contents (Elt F)),
    binary main_v203 main_v196 main_v204 (mulf : (⟨S16x64x64x256, .f32⟩ : BufTy).Contents (Elt F) → (⟨S16x64x64x256, .f32⟩ : BufTy).Contents (Elt F) → (⟨S16x64x64x256, .f32⟩ : BufTy).Contents (Elt F)) ]

set_option maxRecDepth 8192 in
set_option maxHeartbeats 4000000 in
theorem part3_eq (d : Dev nD) : main_part3 (F := F) d = seq ops3 := rfl

set_option maxRecDepth 8192 in
theorem ops3_sub : (ops3 : List (HloOp τ sig (Elt F))).Forall fun op => op.bufs ⊆ tcRefs τ sig := by
  unfold ops3
  exact ⟨unary_bufs_sub .., unary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub ..⟩

set_option maxRecDepth 8192 in
theorem ops3_fresh : ∀ op ∈ (ops3 : List (HloOp τ sig (Elt F))), op.fresh = ∅ := by
  unfold ops3
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value3 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v16 : W (Proc.devRef .tc main_v16) = ReadP.val_main_v16 (F := F))
    (h_main_v109 : W (Proc.devRef .tc main_v109) = ReadP.val_main_v109 (F := F) x0 x1 x2 x3 x4)
    (h_main_v112 : W (Proc.devRef .tc main_v112) = ReadP.val_main_v112 (F := F) x0 x1 x2 x3)
    (h_main_v127 : W (Proc.devRef .tc main_v127) = ReadP.val_main_v127 (F := F))
    (h_main_v148 : W (Proc.devRef .tc main_v148) = ReadP.val_main_v148 (F := F) x0 x4)
    (h_main_v151 : W (Proc.devRef .tc main_v151) = ReadP.val_main_v151 (F := F) x0 x1 x2 x3) :
    after ops3 W (Proc.devRef .tc main_arg0) = x0 ∧
    after ops3 W (Proc.devRef .tc main_arg1) = x1 ∧
    after ops3 W (Proc.devRef .tc main_arg2) = x2 ∧
    after ops3 W (Proc.devRef .tc main_arg3) = x3 ∧
    after ops3 W (Proc.devRef .tc main_arg4) = x4 ∧
    after ops3 W (Proc.devRef .tc main_arg5) = x5 ∧
    after ops3 W (Proc.devRef .tc main_v2) = ReadP.val_main_v2 (F := F) x0 x3 ∧
    after ops3 W (Proc.devRef .tc main_v3) = ReadP.val_main_v3 (F := F) x0 x4 ∧
    after ops3 W (Proc.devRef .tc main_v4) = ReadP.val_main_v4 (F := F) ∧
    after ops3 W (Proc.devRef .tc main_v5) = ReadP.val_main_v5 (F := F) ∧
    after ops3 W (Proc.devRef .tc main_v16) = ReadP.val_main_v16 (F := F) ∧
    after ops3 W (Proc.devRef .tc main_v157) = ReadP.val_main_v157 (F := F) x0 x1 x2 x3 x4 ∧
    after ops3 W (Proc.devRef .tc main_v160) = ReadP.val_main_v160 (F := F) x0 x1 x2 x3 ∧
    after ops3 W (Proc.devRef .tc main_v203) = ReadP.val_main_v203 (F := F) x0 x1 x2 x3 ∧
    after ops3 W (Proc.devRef .tc main_v204) = ReadP.val_main_v204 (F := F) x0 x1 x2 x3 x4 := by
  unfold ops3
  refine ⟨?_, ?_, ?_, ?_, ?_, ?_, ?_, ?_, ?_, ?_, ?_, ?_, ?_, ?_, ?_⟩
  · (after_results_simp <;> (try simp only [a0, a1, a2, a3, a4, a5, h_main_v2, h_main_v3, h_main_v4, h_main_v5, h_main_v16, h_main_v109, h_main_v112, h_main_v127, h_main_v148, h_main_v151]) <;> (first | rfl | assumption))
  · (after_results_simp <;> (try simp only [a0, a1, a2, a3, a4, a5, h_main_v2, h_main_v3, h_main_v4, h_main_v5, h_main_v16, h_main_v109, h_main_v112, h_main_v127, h_main_v148, h_main_v151]) <;> (first | rfl | assumption))
  · (after_results_simp <;> (try simp only [a0, a1, a2, a3, a4, a5, h_main_v2, h_main_v3, h_main_v4, h_main_v5, h_main_v16, h_main_v109, h_main_v112, h_main_v127, h_main_v148, h_main_v151]) <;> (first | rfl | assumption))
  · (after_results_simp <;> (try simp only [a0, a1, a2, a3, a4, a5, h_main_v2, h_main_v3, h_main_v4, h_main_v5, h_main_v16, h_main_v109, h_main_v112, h_main_v127, h_main_v148, h_main_v151]) <;> (first | rfl | assumption))
  · (after_results_simp <;> (try simp only [a0, a1, a2, a3, a4, a5, h_main_v2, h_main_v3, h_main_v4, h_main_v5, h_main_v16, h_main_v109, h_main_v112, h_main_v127, h_main_v148, h_main_v151]) <;> (first | rfl | assumption))
  · (after_results_simp <;> (try simp only [a0, a1, a2, a3, a4, a5, h_main_v2, h_main_v3, h_main_v4, h_main_v5, h_main_v16, h_main_v109, h_main_v112, h_main_v127, h_main_v148, h_main_v151]) <;> (first | rfl | assumption))
  · (after_results_simp <;> (try simp only [a0, a1, a2, a3, a4, a5, h_main_v2, h_main_v3, h_main_v4, h_main_v5, h_main_v16, h_main_v109, h_main_v112, h_main_v127, h_main_v148, h_main_v151]) <;> (first | rfl | assumption))
  · (after_results_simp <;> (try simp only [a0, a1, a2, a3, a4, a5, h_main_v2, h_main_v3, h_main_v4, h_main_v5, h_main_v16, h_main_v109, h_main_v112, h_main_v127, h_main_v148, h_main_v151]) <;> (first | rfl | assumption))
  · (after_results_simp <;> (try simp only [a0, a1, a2, a3, a4, a5, h_main_v2, h_main_v3, h_main_v4, h_main_v5, h_main_v16, h_main_v109, h_main_v112, h_main_v127, h_main_v148, h_main_v151]) <;> (first | rfl | assumption))
  · (after_results_simp <;> (try simp only [a0, a1, a2, a3, a4, a5, h_main_v2, h_main_v3, h_main_v4, h_main_v5, h_main_v16, h_main_v109, h_main_v112, h_main_v127, h_main_v148, h_main_v151]) <;> (first | rfl | assumption))
  · (after_results_simp <;> (try simp only [a0, a1, a2, a3, a4, a5, h_main_v2, h_main_v3, h_main_v4, h_main_v5, h_main_v16, h_main_v109, h_main_v112, h_main_v127, h_main_v148, h_main_v151]) <;> (first | rfl | assumption))
  · (after_results_simp <;> (try simp only [a0, a1, a2, a3, a4, a5, h_main_v2, h_main_v3, h_main_v4, h_main_v5, h_main_v16, h_main_v109, h_main_v112, h_main_v127, h_main_v148, h_main_v151]) <;> (first | rfl | assumption))
  · (after_results_simp <;> (try simp only [a0, a1, a2, a3, a4, a5, h_main_v2, h_main_v3, h_main_v4, h_main_v5, h_main_v16, h_main_v109, h_main_v112, h_main_v127, h_main_v148, h_main_v151]) <;> (first | rfl | assumption))
  · (after_results_simp <;> (try simp only [a0, a1, a2, a3, a4, a5, h_main_v2, h_main_v3, h_main_v4, h_main_v5, h_main_v16, h_main_v109, h_main_v112, h_main_v127, h_main_v148, h_main_v151]) <;> (first | rfl | assumption))
  · (after_results_simp <;> (try simp only [a0, a1, a2, a3, a4, a5, h_main_v2, h_main_v3, h_main_v4, h_main_v5, h_main_v16, h_main_v109, h_main_v112, h_main_v127, h_main_v148, h_main_v151]) <;> (first | rfl | assumption))

end Cert.ReferenceIdeal.RunH

end
-- ==== Proof.RefRun4.lean ====
/- The reference program's @main, statements 241 … 300 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops4 : List (HloOp τ sig (Elt F)) :=
  [ binary main_v157 main_v204 main_v205 (addf : (⟨S16x64x64x256, .f32⟩ : BufTy).Contents (Elt F) → (⟨S16x64x64x256, .f32⟩ : BufTy).Contents (Elt F) → (⟨S16x64x64x256, .f32⟩ : BufTy).Contents (Elt F)),
    nullary main_cst_33 (constant S_ .f32 0x00000000#32),
    binary main_v203 main_cst_33 main_v206 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v206 main_v207 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v160 main_v207 main_v208 (addf : (⟨S16x64x64x1, .f32⟩ : BufTy).Contents (Elt F) → (⟨S16x64x64x1, .f32⟩ : BufTy).Contents (Elt F) → (⟨S16x64x64x1, .f32⟩ : BufTy).Contents (Elt F)),
    nullary main_c_34 (constantI S_ 32 2#32),
    unary main_c_34 main_v209 (broadcastInDim S64 ![] bcast_S_S64 : (⟨S_, .i32⟩ : BufTy).Contents (Elt F) → (⟨S64, .i32⟩ : BufTy).Contents (Elt F)),
    binary main_v5 main_v209 main_v210 (addi : (⟨S64, .i32⟩ : BufTy).Contents (Elt F) → (⟨S64, .i32⟩ : BufTy).Contents (Elt F) → (⟨S64, .i32⟩ : BufTy).Contents (Elt F)),
    nullary main_c_35 (constantI S_ 32 0#32),
    unary main_c_35 main_v211 (broadcastInDim S64 ![] bcast_S_S64 : (⟨S_, .i32⟩ : BufTy).Contents (Elt F) → (⟨S64, .i32⟩ : BufTy).Contents (Elt F)),
    binary main_v210 main_v211 main_v212 (cmpi .sge : (⟨S64, .i32⟩ : BufTy).Contents (Elt F) → (⟨S64, .i32⟩ : BufTy).Contents (Elt F) → (⟨S64, .i1⟩ : BufTy).Contents (Elt F)),
    nullary main_c_36 (constantI S_ 32 2#32),
    unary main_c_36 main_v213 (broadcastInDim S64 ![] bcast_S_S64 : (⟨S_, .i32⟩ : BufTy).Contents (Elt F) → (⟨S64, .i32⟩ : BufTy).Contents (Elt F)),
    binary main_v5 main_v213 main_v214 (addi : (⟨S64, .i32⟩ : BufTy).Contents (Elt F) → (⟨S64, .i32⟩ : BufTy).Contents (Elt F) → (⟨S64, .i32⟩ : BufTy).Contents (Elt F)),
    nullary main_c_37 (constantI S_ 32 64#32),
    unary main_c_37 main_v215 (broadcastInDim S64 ![] bcast_S_S64 : (⟨S_, .i32⟩ : BufTy).Contents (Elt F) → (⟨S64, .i32⟩ : BufTy).Contents (Elt F)),
    binary main_v214 main_v215 main_v216 (cmpi .slt : (⟨S64, .i32⟩ : BufTy).Contents (Elt F) → (⟨S64, .i32⟩ : BufTy).Contents (Elt F) → (⟨S64, .i1⟩ : BufTy).Contents (Elt F)),
    binary main_v212 main_v216 main_v217 (andi : (⟨S64, .i1⟩ : BufTy).Contents (Elt F) → (⟨S64, .i1⟩ : BufTy).Contents (Elt F) → (⟨S64, .i1⟩ : BufTy).Contents (Elt F)),
    unary main_v16 main_v218 (broadcastInDim S64x1 ![0] bcast_S64_S64x1_0 : (⟨S64, .i1⟩ : BufTy).Contents (Elt F) → (⟨S64x1, .i1⟩ : BufTy).Contents (Elt F)),
    unary main_v217 main_v219 (broadcastInDim S1x64 ![1] bcast_S64_S1x64_1 : (⟨S64, .i1⟩ : BufTy).Contents (Elt F) → (⟨S1x64, .i1⟩ : BufTy).Contents (Elt F)),
    unary main_v218 main_v220 (broadcastInDim S64x64 ![0, 1] bcast_S64x1_S64x64_0_1 : (⟨S64x1, .i1⟩ : BufTy).Contents (Elt F) → (⟨S64x64, .i1⟩ : BufTy).Contents (Elt F)),
    unary main_v219 main_v221 (broadcastInDim S64x64 ![0, 1] bcast_S1x64_S64x64_0_1 : (⟨S1x64, .i1⟩ : BufTy).Contents (Elt F) → (⟨S64x64, .i1⟩ : BufTy).Contents (Elt F)),
    binary main_v220 main_v221 main_v222 (andi : (⟨S64x64, .i1⟩ : BufTy).Contents (Elt F) → (⟨S64x64, .i1⟩ : BufTy).Contents (Elt F) → (⟨S64x64, .i1⟩ : BufTy).Contents (Elt F)),
    unary main_v222 main_v223 (uitofp .f32 : (⟨S64x64, .i1⟩ : BufTy).Contents (Elt F) → (⟨S64x64, .f32⟩ : BufTy).Contents (Elt F)),
    unary main_arg1 main_v224 ((extractStridedSlice S1 ![0] · slices_S5_S1_0) : (⟨S5, .f32⟩ : BufTy).Contents (Elt F) → (⟨S1, .f32⟩ : BufTy).Contents (Elt F)),
    reshape main_v224 main_v225 rfl shapeCasts_S1_S_,
    nullary main_c_38 (constantI S_ 32 4294967294#32),
    unary main_c_38 main_v226 (broadcastInDim S64 ![] bcast_S_S64 : (⟨S_, .i32⟩ : BufTy).Contents (Elt F) → (⟨S64, .i32⟩ : BufTy).Contents (Elt F)),
    binary main_v226 main_v4 main_v227 (subi : (⟨S64, .i32⟩ : BufTy).Contents (Elt F) → (⟨S64, .i32⟩ : BufTy).Contents (Elt F) → (⟨S64, .i32⟩ : BufTy).Contents (Elt F)),
    unary main_v227 main_v228 (broadcastInDim S64x1 ![0] bcast_S64_S64x1_0 : (⟨S64, .i32⟩ : BufTy).Contents (Elt F) → (⟨S64x1, .i32⟩ : BufTy).Contents (Elt F)),
    unary main_v228 main_v229 (sitofp .f32 : (⟨S64x1, .i32⟩ : BufTy).Contents (Elt F) → (⟨S64x1, .f32⟩ : BufTy).Contents (Elt F)),
    unary main_v225 main_v230 (broadcastInDim S64x1 ![] bcast_S_S64x1 : (⟨S_, .f32⟩ : BufTy).Contents (Elt F) → (⟨S64x1, .f32⟩ : BufTy).Contents (Elt F)),
    binary main_v230 main_v229 main_v231 (mulf : (⟨S64x1, .f32⟩ : BufTy).Contents (Elt F) → (⟨S64x1, .f32⟩ : BufTy).Contents (Elt F) → (⟨S64x1, .f32⟩ : BufTy).Contents (Elt F)),
    unary main_arg2 main_v232 ((extractStridedSlice S1 ![4] · slices_S5_S1_4) : (⟨S5, .f32⟩ : BufTy).Contents (Elt F) → (⟨S1, .f32⟩ : BufTy).Contents (Elt F)),
    reshape main_v232 main_v233 rfl shapeCasts_S1_S_,
    nullary main_c_39 (constantI S_ 32 2#32),
    unary main_c_39 main_v234 (broadcastInDim S64 ![] bcast_S_S64 : (⟨S_, .i32⟩ : BufTy).Contents (Elt F) → (⟨S64, .i32⟩ : BufTy).Contents (Elt F)),
    binary main_v234 main_v5 main_v235 (subi : (⟨S64, .i32⟩ : BufTy).Contents (Elt F) → (⟨S64, .i32⟩ : BufTy).Contents (Elt F) → (⟨S64, .i32⟩ : BufTy).Contents (Elt F)),
    unary main_v235 main_v236 (broadcastInDim S1x64 ![1] bcast_S64_S1x64_1 : (⟨S64, .i32⟩ : BufTy).Contents (Elt F) → (⟨S1x64, .i32⟩ : BufTy).Contents (Elt F)),
    unary main_v236 main_v237 (sitofp .f32 : (⟨S1x64, .i32⟩ : BufTy).Contents (Elt F) → (⟨S1x64, .f32⟩ : BufTy).Contents (Elt F)),
    unary main_v233 main_v238 (broadcastInDim S1x64 ![] bcast_S_S1x64 : (⟨S_, .f32⟩ : BufTy).Contents (Elt F) → (⟨S1x64, .f32⟩ : BufTy).Contents (Elt F)),
    binary main_v238 main_v237 main_v239 (mulf : (⟨S1x64, .f32⟩ : BufTy).Contents (Elt F) → (⟨S1x64, .f32⟩ : BufTy).Contents (Elt F) → (⟨S1x64, .f32⟩ : BufTy).Contents (Elt F)),
    unary main_v231 main_v240 (broadcastInDim S64x64 ![0, 1] bcast_S64x1_S64x64_0_1 : (⟨S64x1, .f32⟩ : BufTy).Contents (Elt F) → (⟨S64x64, .f32⟩ : BufTy).Contents (Elt F)),
    unary main_v239 main_v241 (broadcastInDim S64x64 ![0, 1] bcast_S1x64_S64x64_0_1 : (⟨S1x64, .f32⟩ : BufTy).Contents (Elt F) → (⟨S64x64, .f32⟩ : BufTy).Contents (Elt F)),
    binary main_v240 main_v241 main_v242 (addf : (⟨S64x64, .f32⟩ : BufTy).Contents (Elt F) → (⟨S64x64, .f32⟩ : BufTy).Contents (Elt F) → (⟨S64x64, .f32⟩ : BufTy).Contents (Elt F)),
    unary main_v2 main_v243 ((extractStridedSlice S16x64x64x256 ![0, 0, 4, 0] · slices_S16x68x68x256_S16x64x64x256_0_0_4_0) : (⟨S16x68x68x256, .f32⟩ : BufTy).Contents (Elt F) → (⟨S16x64x64x256, .f32⟩ : BufTy).Contents (Elt F)),
    unary main_v3 main_v244 ((extractStridedSlice S16x64x64x256 ![0, 0, 4, 0] · slices_S16x68x68x256_S16x64x64x256_0_0_4_0) : (⟨S16x68x68x256, .f32⟩ : BufTy).Contents (Elt F) → (⟨S16x64x64x256, .f32⟩ : BufTy).Contents (Elt F)),
    unary main_v242 main_v245 (broadcastInDim S1x64x64x1 ![1, 2] bcast_S64x64_S1x64x64x1_1_2 : (⟨S64x64, .f32⟩ : BufTy).Contents (Elt F) → (⟨S1x64x64x1, .f32⟩ : BufTy).Contents (Elt F)),
    unary main_v245 main_v246 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v246 main_v243 main_v247 (addf : (⟨S16x64x64x256, .f32⟩ : BufTy).Contents (Elt F) → (⟨S16x64x64x256, .f32⟩ : BufTy).Contents (Elt F) → (⟨S16x64x64x256, .f32⟩ : BufTy).Contents (Elt F)),
    unary main_v247 main_v248 (Host.exp : (⟨S16x64x64x256, .f32⟩ : BufTy).Contents (Elt F) → (⟨S16x64x64x256, .f32⟩ : BufTy).Contents (Elt F)),
    unary main_v223 main_v249 (broadcastInDim S1x64x64x1 ![1, 2] bcast_S64x64_S1x64x64x1_1_2 : (⟨S64x64, .f32⟩ : BufTy).Contents (Elt F) → (⟨S1x64x64x1, .f32⟩ : BufTy).Contents (Elt F)),
    unary main_v249 main_v250 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v248 main_v250 main_v251 (mulf : (⟨S16x64x64x256, .f32⟩ : BufTy).Contents (Elt F) → (⟨S16x64x64x256, .f32⟩ : BufTy).Contents (Elt F) → (⟨S16x64x64x256, .f32⟩ : BufTy).Contents (Elt F)),
    binary main_v251 main_v244 main_v252 (mulf : (⟨S16x64x64x256, .f32⟩ : BufTy).Contents (Elt F) → (⟨S16x64x64x256, .f32⟩ : BufTy).Contents (Elt F) → (⟨S16x64x64x256, .f32⟩ : BufTy).Contents (Elt F)),
    binary main_v205 main_v252 main_v253 (addf : (⟨S16x64x64x256, .f32⟩ : BufTy).Contents (Elt F) → (⟨S16x64x64x256, .f32⟩ : BufTy).Contents (Elt F) → (⟨S16x64x64x256, .f32⟩ : BufTy).Contents (Elt F)),
    nullary main_cst_40 (constant S_ .f32 0x00000000#32),
    binary main_v251 main_cst_40 main_v254 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v254 main_v255 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v208 main_v255 main_v256 (addf : (⟨S16x64x64x1, .f32⟩ : BufTy).Contents (Elt F) → (⟨S16x64x64x1, .f32⟩ : BufTy).Contents (Elt F) → (⟨S16x64x64x1, .f32⟩ : BufTy).Contents (Elt F)) ]

set_option maxRecDepth 8192 in
set_option maxHeartbeats 4000000 in
theorem part4_eq (d : Dev nD) : main_part4 (F := F) d = seq ops4 := rfl

set_option maxRecDepth 8192 in
theorem ops4_sub : (ops4 : List (HloOp τ sig (Elt F))).Forall fun op => op.bufs ⊆ tcRefs τ sig := by
  unfold ops4
  exact ⟨binary_bufs_sub .., nullary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., binary_bufs_sub .., nullary_bufs_sub .., binary_bufs_sub .., unary_bufs_sub .., binary_bufs_sub ..⟩

set_option maxRecDepth 8192 in
theorem ops4_fresh : ∀ op ∈ (ops4 : List (HloOp τ sig (Elt F))), op.fresh = ∅ := by
  unfold ops4
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value4 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v16 : W (Proc.devRef .tc main_v16) = ReadP.val_main_v16 (F := F))
    (h_main_v157 : W (Proc.devRef .tc main_v157) = ReadP.val_main_v157 (F := F) x0 x1 x2 x3 x4)
    (h_main_v160 : W (Proc.devRef .tc main_v160) = ReadP.val_main_v160 (F := F) x0 x1 x2 x3)
    (h_main_v203 : W (Proc.devRef .tc main_v203) = ReadP.val_main_v203 (F := F) x0 x1 x2 x3)
    (h_main_v204 : W (Proc.devRef .tc main_v204) = ReadP.val_main_v204 (F := F) x0 x1 x2 x3 x4) :
    after ops4 W (Proc.devRef .tc main_arg0) = x0 ∧
    after ops4 W (Proc.devRef .tc main_arg1) = x1 ∧
    after ops4 W (Proc.devRef .tc main_arg2) = x2 ∧
    after ops4 W (Proc.devRef .tc main_arg3) = x3 ∧
    after ops4 W (Proc.devRef .tc main_arg4) = x4 ∧
    after ops4 W (Proc.devRef .tc main_arg5) = x5 ∧
    after ops4 W (Proc.devRef .tc main_v2) = ReadP.val_main_v2 (F := F) x0 x3 ∧
    after ops4 W (Proc.devRef .tc main_v3) = ReadP.val_main_v3 (F := F) x0 x4 ∧
    after ops4 W (Proc.devRef .tc main_v4) = ReadP.val_main_v4 (F := F) ∧
    after ops4 W (Proc.devRef .tc main_v5) = ReadP.val_main_v5 (F := F) ∧
    after ops4 W (Proc.devRef .tc main_v253) = ReadP.val_main_v253 (F := F) x0 x1 x2 x3 x4 ∧
    after ops4 W (Proc.devRef .tc main_v256) = ReadP.val_main_v256 (F := F) x0 x1 x2 x3 := by
  unfold ops4
  refine ⟨?_, ?_, ?_, ?_, ?_, ?_, ?_, ?_, ?_, ?_, ?_, ?_⟩
  · (after_results_simp <;> (try simp only [a0, a1, a2, a3, a4, a5, h_main_v2, h_main_v3, h_main_v4, h_main_v5, h_main_v16, h_main_v157, h_main_v160, h_main_v203, h_main_v204]) <;> (first | rfl | assumption))
  · (after_results_simp <;> (try simp only [a0, a1, a2, a3, a4, a5, h_main_v2, h_main_v3, h_main_v4, h_main_v5, h_main_v16, h_main_v157, h_main_v160, h_main_v203, h_main_v204]) <;> (first | rfl | assumption))
  · (after_results_simp <;> (try simp only [a0, a1, a2, a3, a4, a5, h_main_v2, h_main_v3, h_main_v4, h_main_v5, h_main_v16, h_main_v157, h_main_v160, h_main_v203, h_main_v204]) <;> (first | rfl | assumption))
  · (after_results_simp <;> (try simp only [a0, a1, a2, a3, a4, a5, h_main_v2, h_main_v3, h_main_v4, h_main_v5, h_main_v16, h_main_v157, h_main_v160, h_main_v203, h_main_v204]) <;> (first | rfl | assumption))
  · (after_results_simp <;> (try simp only [a0, a1, a2, a3, a4, a5, h_main_v2, h_main_v3, h_main_v4, h_main_v5, h_main_v16, h_main_v157, h_main_v160, h_main_v203, h_main_v204]) <;> (first | rfl | assumption))
  · (after_results_simp <;> (try simp only [a0, a1, a2, a3, a4, a5, h_main_v2, h_main_v3, h_main_v4, h_main_v5, h_main_v16, h_main_v157, h_main_v160, h_main_v203, h_main_v204]) <;> (first | rfl | assumption))
  · (after_results_simp <;> (try simp only [a0, a1, a2, a3, a4, a5, h_main_v2, h_main_v3, h_main_v4, h_main_v5, h_main_v16, h_main_v157, h_main_v160, h_main_v203, h_main_v204]) <;> (first | rfl | assumption))
  · (after_results_simp <;> (try simp only [a0, a1, a2, a3, a4, a5, h_main_v2, h_main_v3, h_main_v4, h_main_v5, h_main_v16, h_main_v157, h_main_v160, h_main_v203, h_main_v204]) <;> (first | rfl | assumption))
  · (after_results_simp <;> (try simp only [a0, a1, a2, a3, a4, a5, h_main_v2, h_main_v3, h_main_v4, h_main_v5, h_main_v16, h_main_v157, h_main_v160, h_main_v203, h_main_v204]) <;> (first | rfl | assumption))
  · (after_results_simp <;> (try simp only [a0, a1, a2, a3, a4, a5, h_main_v2, h_main_v3, h_main_v4, h_main_v5, h_main_v16, h_main_v157, h_main_v160, h_main_v203, h_main_v204]) <;> (first | rfl | assumption))
  · (after_results_simp <;> (try simp only [a0, a1, a2, a3, a4, a5, h_main_v2, h_main_v3, h_main_v4, h_main_v5, h_main_v16, h_main_v157, h_main_v160, h_main_v203, h_main_v204]) <;> (first | rfl | assumption))
  · (after_results_simp <;> (try simp only [a0, a1, a2, a3, a4, a5, h_main_v2, h_main_v3, h_main_v4, h_main_v5, h_main_v16, h_main_v157, h_main_v160, h_main_v203, h_main_v204]) <;> (first | rfl | assumption))

end Cert.ReferenceIdeal.RunH

end
-- ==== Proof.RefRun5.lean ====
/- The reference program's @main, statements 301 … 360 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops5 : List (HloOp τ sig (Elt F)) :=
  [ nullary main_c_41 (constantI S_ 32 4294967295#32),
    unary main_c_41 main_v257 (broadcastInDim S64 ![] bcast_S_S64 : (⟨S_, .i32⟩ : BufTy).Contents (Elt F) → (⟨S64, .i32⟩ : BufTy).Contents (Elt F)),
    binary main_v4 main_v257 main_v258 (addi : (⟨S64, .i32⟩ : BufTy).Contents (Elt F) → (⟨S64, .i32⟩ : BufTy).Contents (Elt F) → (⟨S64, .i32⟩ : BufTy).Contents (Elt F)),
    nullary main_c_42 (constantI S_ 32 0#32),
    unary main_c_42 main_v259 (broadcastInDim S64 ![] bcast_S_S64 : (⟨S_, .i32⟩ : BufTy).Contents (Elt F) → (⟨S64, .i32⟩ : BufTy).Contents (Elt F)),
    binary main_v258 main_v259 main_v260 (cmpi .sge : (⟨S64, .i32⟩ : BufTy).Contents (Elt F) → (⟨S64, .i32⟩ : BufTy).Contents (Elt F) → (⟨S64, .i1⟩ : BufTy).Contents (Elt F)),
    nullary main_c_43 (constantI S_ 32 4294967295#32),
    unary main_c_43 main_v261 (broadcastInDim S64 ![] bcast_S_S64 : (⟨S_, .i32⟩ : BufTy).Contents (Elt F) → (⟨S64, .i32⟩ : BufTy).Contents (Elt F)),
    binary main_v4 main_v261 main_v262 (addi : (⟨S64, .i32⟩ : BufTy).Contents (Elt F) → (⟨S64, .i32⟩ : BufTy).Contents (Elt F) → (⟨S64, .i32⟩ : BufTy).Contents (Elt F)),
    nullary main_c_44 (constantI S_ 32 64#32),
    unary main_c_44 main_v263 (broadcastInDim S64 ![] bcast_S_S64 : (⟨S_, .i32⟩ : BufTy).Contents (Elt F) → (⟨S64, .i32⟩ : BufTy).Contents (Elt F)),
    binary main_v262 main_v263 main_v264 (cmpi .slt : (⟨S64, .i32⟩ : BufTy).Contents (Elt F) → (⟨S64, .i32⟩ : BufTy).Contents (Elt F) → (⟨S64, .i1⟩ : BufTy).Contents (Elt F)),
    binary main_v260 main_v264 main_v265 (andi : (⟨S64, .i1⟩ : BufTy).Contents (Elt F) → (⟨S64, .i1⟩ : BufTy).Contents (Elt F) → (⟨S64, .i1⟩ : BufTy).Contents (Elt F)),
    nullary main_c_45 (constantI S_ 32 4294967294#32),
    unary main_c_45 main_v266 (broadcastInDim S64 ![] bcast_S_S64 : (⟨S_, .i32⟩ : BufTy).Contents (Elt F) → (⟨S64, .i32⟩ : BufTy).Contents (Elt F)),
    binary main_v5 main_v266 main_v267 (addi : (⟨S64, .i32⟩ : BufTy).Contents (Elt F) → (⟨S64, .i32⟩ : BufTy).Contents (Elt F) → (⟨S64, .i32⟩ : BufTy).Contents (Elt F)),
    nullary main_c_46 (constantI S_ 32 0#32),
    unary main_c_46 main_v268 (broadcastInDim S64 ![] bcast_S_S64 : (⟨S_, .i32⟩ : BufTy).Contents (Elt F) → (⟨S64, .i32⟩ : BufTy).Contents (Elt F)),
    binary main_v267 main_v268 main_v269 (cmpi .sge : (⟨S64, .i32⟩ : BufTy).Contents (Elt F) → (⟨S64, .i32⟩ : BufTy).Contents (Elt F) → (⟨S64, .i1⟩ : BufTy).Contents (Elt F)),
    nullary main_c_47 (constantI S_ 32 4294967294#32),
    unary main_c_47 main_v270 (broadcastInDim S64 ![] bcast_S_S64 : (⟨S_, .i32⟩ : BufTy).Contents (Elt F) → (⟨S64, .i32⟩ : BufTy).Contents (Elt F)),
    binary main_v5 main_v270 main_v271 (addi : (⟨S64, .i32⟩ : BufTy).Contents (Elt F) → (⟨S64, .i32⟩ : BufTy).Contents (Elt F) → (⟨S64, .i32⟩ : BufTy).Contents (Elt F)),
    nullary main_c_48 (constantI S_ 32 64#32),
    unary main_c_48 main_v272 (broadcastInDim S64 ![] bcast_S_S64 : (⟨S_, .i32⟩ : BufTy).Contents (Elt F) → (⟨S64, .i32⟩ : BufTy).Contents (Elt F)),
    binary main_v271 main_v272 main_v273 (cmpi .slt : (⟨S64, .i32⟩ : BufTy).Contents (Elt F) → (⟨S64, .i32⟩ : BufTy).Contents (Elt F) → (⟨S64, .i1⟩ : BufTy).Contents (Elt F)),
    binary main_v269 main_v273 main_v274 (andi : (⟨S64, .i1⟩ : BufTy).Contents (Elt F) → (⟨S64, .i1⟩ : BufTy).Contents (Elt F) → (⟨S64, .i1⟩ : BufTy).Contents (Elt F)),
    unary main_v265 main_v275 (broadcastInDim S64x1 ![0] bcast_S64_S64x1_0 : (⟨S64, .i1⟩ : BufTy).Contents (Elt F) → (⟨S64x1, .i1⟩ : BufTy).Contents (Elt F)),
    unary main_v274 main_v276 (broadcastInDim S1x64 ![1] bcast_S64_S1x64_1 : (⟨S64, .i1⟩ : BufTy).Contents (Elt F) → (⟨S1x64, .i1⟩ : BufTy).Contents (Elt F)),
    unary main_v275 main_v277 (broadcastInDim S64x64 ![0, 1] bcast_S64x1_S64x64_0_1 : (⟨S64x1, .i1⟩ : BufTy).Contents (Elt F) → (⟨S64x64, .i1⟩ : BufTy).Contents (Elt F)),
    unary main_v276 main_v278 (broadcastInDim S64x64 ![0, 1] bcast_S1x64_S64x64_0_1 : (⟨S1x64, .i1⟩ : BufTy).Contents (Elt F) → (⟨S64x64, .i1⟩ : BufTy).Contents (Elt F)),
    binary main_v277 main_v278 main_v279 (andi : (⟨S64x64, .i1⟩ : BufTy).Contents (Elt F) → (⟨S64x64, .i1⟩ : BufTy).Contents (Elt F) → (⟨S64x64, .i1⟩ : BufTy).Contents (Elt F)),
    unary main_v279 main_v280 (uitofp .f32 : (⟨S64x64, .i1⟩ : BufTy).Contents (Elt F) → (⟨S64x64, .f32⟩ : BufTy).Contents (Elt F)),
    unary main_arg1 main_v281 ((extractStridedSlice S1 ![1] · slices_S5_S1_1) : (⟨S5, .f32⟩ : BufTy).Contents (Elt F) → (⟨S1, .f32⟩ : BufTy).Contents (Elt F)),
    reshape main_v281 main_v282 rfl shapeCasts_S1_S_,
    nullary main_c_49 (constantI S_ 32 4294967295#32),
    unary main_c_49 main_v283 (broadcastInDim S64 ![] bcast_S_S64 : (⟨S_, .i32⟩ : BufTy).Contents (Elt F) → (⟨S64, .i32⟩ : BufTy).Contents (Elt F)),
    binary main_v283 main_v4 main_v284 (subi : (⟨S64, .i32⟩ : BufTy).Contents (Elt F) → (⟨S64, .i32⟩ : BufTy).Contents (Elt F) → (⟨S64, .i32⟩ : BufTy).Contents (Elt F)),
    unary main_v284 main_v285 (broadcastInDim S64x1 ![0] bcast_S64_S64x1_0 : (⟨S64, .i32⟩ : BufTy).Contents (Elt F) → (⟨S64x1, .i32⟩ : BufTy).Contents (Elt F)),
    unary main_v285 main_v286 (sitofp .f32 : (⟨S64x1, .i32⟩ : BufTy).Contents (Elt F) → (⟨S64x1, .f32⟩ : BufTy).Contents (Elt F)),
    unary main_v282 main_v287 (broadcastInDim S64x1 ![] bcast_S_S64x1 : (⟨S_, .f32⟩ : BufTy).Contents (Elt F) → (⟨S64x1, .f32⟩ : BufTy).Contents (Elt F)),
    binary main_v287 main_v286 main_v288 (mulf : (⟨S64x1, .f32⟩ : BufTy).Contents (Elt F) → (⟨S64x1, .f32⟩ : BufTy).Contents (Elt F) → (⟨S64x1, .f32⟩ : BufTy).Contents (Elt F)),
    unary main_arg2 main_v289 ((extractStridedSlice S1 ![0] · slices_S5_S1_0) : (⟨S5, .f32⟩ : BufTy).Contents (Elt F) → (⟨S1, .f32⟩ : BufTy).Contents (Elt F)),
    reshape main_v289 main_v290 rfl shapeCasts_S1_S_,
    nullary main_c_50 (constantI S_ 32 4294967294#32),
    unary main_c_50 main_v291 (broadcastInDim S64 ![] bcast_S_S64 : (⟨S_, .i32⟩ : BufTy).Contents (Elt F) → (⟨S64, .i32⟩ : BufTy).Contents (Elt F)),
    binary main_v291 main_v5 main_v292 (subi : (⟨S64, .i32⟩ : BufTy).Contents (Elt F) → (⟨S64, .i32⟩ : BufTy).Contents (Elt F) → (⟨S64, .i32⟩ : BufTy).Contents (Elt F)),
    unary main_v292 main_v293 (broadcastInDim S1x64 ![1] bcast_S64_S1x64_1 : (⟨S64, .i32⟩ : BufTy).Contents (Elt F) → (⟨S1x64, .i32⟩ : BufTy).Contents (Elt F)),
    unary main_v293 main_v294 (sitofp .f32 : (⟨S1x64, .i32⟩ : BufTy).Contents (Elt F) → (⟨S1x64, .f32⟩ : BufTy).Contents (Elt F)),
    unary main_v290 main_v295 (broadcastInDim S1x64 ![] bcast_S_S1x64 : (⟨S_, .f32⟩ : BufTy).Contents (Elt F) → (⟨S1x64, .f32⟩ : BufTy).Contents (Elt F)),
    binary main_v295 main_v294 main_v296 (mulf : (⟨S1x64, .f32⟩ : BufTy).Contents (Elt F) → (⟨S1x64, .f32⟩ : BufTy).Contents (Elt F) → (⟨S1x64, .f32⟩ : BufTy).Contents (Elt F)),
    unary main_v288 main_v297 (broadcastInDim S64x64 ![0, 1] bcast_S64x1_S64x64_0_1 : (⟨S64x1, .f32⟩ : BufTy).Contents (Elt F) → (⟨S64x64, .f32⟩ : BufTy).Contents (Elt F)),
    unary main_v296 main_v298 (broadcastInDim S64x64 ![0, 1] bcast_S1x64_S64x64_0_1 : (⟨S1x64, .f32⟩ : BufTy).Contents (Elt F) → (⟨S64x64, .f32⟩ : BufTy).Contents (Elt F)),
    binary main_v297 main_v298 main_v299 (addf : (⟨S64x64, .f32⟩ : BufTy).Contents (Elt F) → (⟨S64x64, .f32⟩ : BufTy).Contents (Elt F) → (⟨S64x64, .f32⟩ : BufTy).Contents (Elt F)),
    unary main_v2 main_v300 ((extractStridedSlice S16x64x64x256 ![0, 1, 0, 0] · slices_S16x68x68x256_S16x64x64x256_0_1_0_0) : (⟨S16x68x68x256, .f32⟩ : BufTy).Contents (Elt F) → (⟨S16x64x64x256, .f32⟩ : BufTy).Contents (Elt F)),
    unary main_v3 main_v301 ((extractStridedSlice S16x64x64x256 ![0, 1, 0, 0] · slices_S16x68x68x256_S16x64x64x256_0_1_0_0) : (⟨S16x68x68x256, .f32⟩ : BufTy).Contents (Elt F) → (⟨S16x64x64x256, .f32⟩ : BufTy).Contents (Elt F)),
    unary main_v299 main_v302 (broadcastInDim S1x64x64x1 ![1, 2] bcast_S64x64_S1x64x64x1_1_2 : (⟨S64x64, .f32⟩ : BufTy).Contents (Elt F) → (⟨S1x64x64x1, .f32⟩ : BufTy).Contents (Elt F)),
    unary main_v302 main_v303 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v303 main_v300 main_v304 (addf : (⟨S16x64x64x256, .f32⟩ : BufTy).Contents (Elt F) → (⟨S16x64x64x256, .f32⟩ : BufTy).Contents (Elt F) → (⟨S16x64x64x256, .f32⟩ : BufTy).Contents (Elt F)),
    unary main_v304 main_v305 (Host.exp : (⟨S16x64x64x256, .f32⟩ : BufTy).Contents (Elt F) → (⟨S16x64x64x256, .f32⟩ : BufTy).Contents (Elt F)),
    unary main_v280 main_v306 (broadcastInDim S1x64x64x1 ![1, 2] bcast_S64x64_S1x64x64x1_1_2 : (⟨S64x64, .f32⟩ : BufTy).Contents (Elt F) → (⟨S1x64x64x1, .f32⟩ : BufTy).Contents (Elt F)) ]

set_option maxRecDepth 8192 in
set_option maxHeartbeats 4000000 in
theorem part5_eq (d : Dev nD) : main_part5 (F := F) d = seq ops5 := rfl

set_option maxRecDepth 8192 in
theorem ops5_sub : (ops5 : List (HloOp τ sig (Elt F))).Forall fun op => op.bufs ⊆ tcRefs τ sig := by
  unfold ops5
  exact ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub ..⟩

set_option maxRecDepth 8192 in
theorem ops5_fresh : ∀ op ∈ (ops5 : List (HloOp τ sig (Elt F))), op.fresh = ∅ := by
  unfold ops5
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value5 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v253 : W (Proc.devRef .tc main_v253) = ReadP.val_main_v253 (F := F) x0 x1 x2 x3 x4)
    (h_main_v256 : W (Proc.devRef .tc main_v256) = ReadP.val_main_v256 (F := F) x0 x1 x2 x3) :
    after ops5 W (Proc.devRef .tc main_arg0) = x0 ∧
    after ops5 W (Proc.devRef .tc main_arg1) = x1 ∧
    after ops5 W (Proc.devRef .tc main_arg2) = x2 ∧
    after ops5 W (Proc.devRef .tc main_arg3) = x3 ∧
    after ops5 W (Proc.devRef .tc main_arg4) = x4 ∧
    after ops5 W (Proc.devRef .tc main_arg5) = x5 ∧
    after ops5 W (Proc.devRef .tc main_v2) = ReadP.val_main_v2 (F := F) x0 x3 ∧
    after ops5 W (Proc.devRef .tc main_v3) = ReadP.val_main_v3 (F := F) x0 x4 ∧
    after ops5 W (Proc.devRef .tc main_v4) = ReadP.val_main_v4 (F := F) ∧
    after ops5 W (Proc.devRef .tc main_v5) = ReadP.val_main_v5 (F := F) ∧
    after ops5 W (Proc.devRef .tc main_v253) = ReadP.val_main_v253 (F := F) x0 x1 x2 x3 x4 ∧
    after ops5 W (Proc.devRef .tc main_v256) = ReadP.val_main_v256 (F := F) x0 x1 x2 x3 ∧
    after ops5 W (Proc.devRef .tc main_v265) = ReadP.val_main_v265 (F := F) ∧
    after ops5 W (Proc.devRef .tc main_v301) = ReadP.val_main_v301 (F := F) x0 x4 ∧
    after ops5 W (Proc.devRef .tc main_v305) = ReadP.val_main_v305 (F := F) x0 x1 x2 x3 ∧
    after ops5 W (Proc.devRef .tc main_v306) = ReadP.val_main_v306 (F := F) := by
  unfold ops5
  refine ⟨?_, ?_, ?_, ?_, ?_, ?_, ?_, ?_, ?_, ?_, ?_, ?_, ?_, ?_, ?_, ?_⟩
  · (after_results_simp <;> (try simp only [a0, a1, a2, a3, a4, a5, h_main_v2, h_main_v3, h_main_v4, h_main_v5, h_main_v253, h_main_v256]) <;> (first | rfl | assumption))
  · (after_results_simp <;> (try simp only [a0, a1, a2, a3, a4, a5, h_main_v2, h_main_v3, h_main_v4, h_main_v5, h_main_v253, h_main_v256]) <;> (first | rfl | assumption))
  · (after_results_simp <;> (try simp only [a0, a1, a2, a3, a4, a5, h_main_v2, h_main_v3, h_main_v4, h_main_v5, h_main_v253, h_main_v256]) <;> (first | rfl | assumption))
  · (after_results_simp <;> (try simp only [a0, a1, a2, a3, a4, a5, h_main_v2, h_main_v3, h_main_v4, h_main_v5, h_main_v253, h_main_v256]) <;> (first | rfl | assumption))
  · (after_results_simp <;> (try simp only [a0, a1, a2, a3, a4, a5, h_main_v2, h_main_v3, h_main_v4, h_main_v5, h_main_v253, h_main_v256]) <;> (first | rfl | assumption))
  · (after_results_simp <;> (try simp only [a0, a1, a2, a3, a4, a5, h_main_v2, h_main_v3, h_main_v4, h_main_v5, h_main_v253, h_main_v256]) <;> (first | rfl | assumption))
  · (after_results_simp <;> (try simp only [a0, a1, a2, a3, a4, a5, h_main_v2, h_main_v3, h_main_v4, h_main_v5, h_main_v253, h_main_v256]) <;> (first | rfl | assumption))
  · (after_results_simp <;> (try simp only [a0, a1, a2, a3, a4, a5, h_main_v2, h_main_v3, h_main_v4, h_main_v5, h_main_v253, h_main_v256]) <;> (first | rfl | assumption))
  · (after_results_simp <;> (try simp only [a0, a1, a2, a3, a4, a5, h_main_v2, h_main_v3, h_main_v4, h_main_v5, h_main_v253, h_main_v256]) <;> (first | rfl | assumption))
  · (after_results_simp <;> (try simp only [a0, a1, a2, a3, a4, a5, h_main_v2, h_main_v3, h_main_v4, h_main_v5, h_main_v253, h_main_v256]) <;> (first | rfl | assumption))
  · (after_results_simp <;> (try simp only [a0, a1, a2, a3, a4, a5, h_main_v2, h_main_v3, h_main_v4, h_main_v5, h_main_v253, h_main_v256]) <;> (first | rfl | assumption))
  · (after_results_simp <;> (try simp only [a0, a1, a2, a3, a4, a5, h_main_v2, h_main_v3, h_main_v4, h_main_v5, h_main_v253, h_main_v256]) <;> (first | rfl | assumption))
  · (after_results_simp <;> (try simp only [a0, a1, a2, a3, a4, a5, h_main_v2, h_main_v3, h_main_v4, h_main_v5, h_main_v253, h_main_v256]) <;> (first | rfl | assumption))
  · (after_results_simp <;> (try simp only [a0, a1, a2, a3, a4, a5, h_main_v2, h_main_v3, h_main_v4, h_main_v5, h_main_v253, h_main_v256]) <;> (first | rfl | assumption))
  · (after_results_simp <;> (try simp only [a0, a1, a2, a3, a4, a5, h_main_v2, h_main_v3, h_main_v4, h_main_v5, h_main_v253, h_main_v256]) <;> (first | rfl | assumption))
  · (after_results_simp <;> (try simp only [a0, a1, a2, a3, a4, a5, h_main_v2, h_main_v3, h_main_v4, h_main_v5, h_main_v253, h_main_v256]) <;> (first | rfl | assumption))

end Cert.ReferenceIdeal.RunH

end
-- ==== Proof.RefRun6.lean ====
/- The reference program's @main, statements 361 … 420 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops6 : List (HloOp τ sig (Elt F)) :=
  [ unary main_v306 main_v307 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v305 main_v307 main_v308 (mulf : (⟨S16x64x64x256, .f32⟩ : BufTy).Contents (Elt F) → (⟨S16x64x64x256, .f32⟩ : BufTy).Contents (Elt F) → (⟨S16x64x64x256, .f32⟩ : BufTy).Contents (Elt F)),
    binary main_v308 main_v301 main_v309 (mulf : (⟨S16x64x64x256, .f32⟩ : BufTy).Contents (Elt F) → (⟨S16x64x64x256, .f32⟩ : BufTy).Contents (Elt F) → (⟨S16x64x64x256, .f32⟩ : BufTy).Contents (Elt F)),
    binary main_v253 main_v309 main_v310 (addf : (⟨S16x64x64x256, .f32⟩ : BufTy).Contents (Elt F) → (⟨S16x64x64x256, .f32⟩ : BufTy).Contents (Elt F) → (⟨S16x64x64x256, .f32⟩ : BufTy).Contents (Elt F)),
    nullary main_cst_51 (constant S_ .f32 0x00000000#32),
    binary main_v308 main_cst_51 main_v311 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v311 main_v312 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v256 main_v312 main_v313 (addf : (⟨S16x64x64x1, .f32⟩ : BufTy).Contents (Elt F) → (⟨S16x64x64x1, .f32⟩ : BufTy).Contents (Elt F) → (⟨S16x64x64x1, .f32⟩ : BufTy).Contents (Elt F)),
    nullary main_c_52 (constantI S_ 32 4294967295#32),
    unary main_c_52 main_v314 (broadcastInDim S64 ![] bcast_S_S64 : (⟨S_, .i32⟩ : BufTy).Contents (Elt F) → (⟨S64, .i32⟩ : BufTy).Contents (Elt F)),
    binary main_v5 main_v314 main_v315 (addi : (⟨S64, .i32⟩ : BufTy).Contents (Elt F) → (⟨S64, .i32⟩ : BufTy).Contents (Elt F) → (⟨S64, .i32⟩ : BufTy).Contents (Elt F)),
    nullary main_c_53 (constantI S_ 32 0#32),
    unary main_c_53 main_v316 (broadcastInDim S64 ![] bcast_S_S64 : (⟨S_, .i32⟩ : BufTy).Contents (Elt F) → (⟨S64, .i32⟩ : BufTy).Contents (Elt F)),
    binary main_v315 main_v316 main_v317 (cmpi .sge : (⟨S64, .i32⟩ : BufTy).Contents (Elt F) → (⟨S64, .i32⟩ : BufTy).Contents (Elt F) → (⟨S64, .i1⟩ : BufTy).Contents (Elt F)),
    nullary main_c_54 (constantI S_ 32 4294967295#32),
    unary main_c_54 main_v318 (broadcastInDim S64 ![] bcast_S_S64 : (⟨S_, .i32⟩ : BufTy).Contents (Elt F) → (⟨S64, .i32⟩ : BufTy).Contents (Elt F)),
    binary main_v5 main_v318 main_v319 (addi : (⟨S64, .i32⟩ : BufTy).Contents (Elt F) → (⟨S64, .i32⟩ : BufTy).Contents (Elt F) → (⟨S64, .i32⟩ : BufTy).Contents (Elt F)),
    nullary main_c_55 (constantI S_ 32 64#32),
    unary main_c_55 main_v320 (broadcastInDim S64 ![] bcast_S_S64 : (⟨S_, .i32⟩ : BufTy).Contents (Elt F) → (⟨S64, .i32⟩ : BufTy).Contents (Elt F)),
    binary main_v319 main_v320 main_v321 (cmpi .slt : (⟨S64, .i32⟩ : BufTy).Contents (Elt F) → (⟨S64, .i32⟩ : BufTy).Contents (Elt F) → (⟨S64, .i1⟩ : BufTy).Contents (Elt F)),
    binary main_v317 main_v321 main_v322 (andi : (⟨S64, .i1⟩ : BufTy).Contents (Elt F) → (⟨S64, .i1⟩ : BufTy).Contents (Elt F) → (⟨S64, .i1⟩ : BufTy).Contents (Elt F)),
    unary main_v265 main_v323 (broadcastInDim S64x1 ![0] bcast_S64_S64x1_0 : (⟨S64, .i1⟩ : BufTy).Contents (Elt F) → (⟨S64x1, .i1⟩ : BufTy).Contents (Elt F)),
    unary main_v322 main_v324 (broadcastInDim S1x64 ![1] bcast_S64_S1x64_1 : (⟨S64, .i1⟩ : BufTy).Contents (Elt F) → (⟨S1x64, .i1⟩ : BufTy).Contents (Elt F)),
    unary main_v323 main_v325 (broadcastInDim S64x64 ![0, 1] bcast_S64x1_S64x64_0_1 : (⟨S64x1, .i1⟩ : BufTy).Contents (Elt F) → (⟨S64x64, .i1⟩ : BufTy).Contents (Elt F)),
    unary main_v324 main_v326 (broadcastInDim S64x64 ![0, 1] bcast_S1x64_S64x64_0_1 : (⟨S1x64, .i1⟩ : BufTy).Contents (Elt F) → (⟨S64x64, .i1⟩ : BufTy).Contents (Elt F)),
    binary main_v325 main_v326 main_v327 (andi : (⟨S64x64, .i1⟩ : BufTy).Contents (Elt F) → (⟨S64x64, .i1⟩ : BufTy).Contents (Elt F) → (⟨S64x64, .i1⟩ : BufTy).Contents (Elt F)),
    unary main_v327 main_v328 (uitofp .f32 : (⟨S64x64, .i1⟩ : BufTy).Contents (Elt F) → (⟨S64x64, .f32⟩ : BufTy).Contents (Elt F)),
    unary main_arg1 main_v329 ((extractStridedSlice S1 ![1] · slices_S5_S1_1) : (⟨S5, .f32⟩ : BufTy).Contents (Elt F) → (⟨S1, .f32⟩ : BufTy).Contents (Elt F)),
    reshape main_v329 main_v330 rfl shapeCasts_S1_S_,
    nullary main_c_56 (constantI S_ 32 4294967295#32),
    unary main_c_56 main_v331 (broadcastInDim S64 ![] bcast_S_S64 : (⟨S_, .i32⟩ : BufTy).Contents (Elt F) → (⟨S64, .i32⟩ : BufTy).Contents (Elt F)),
    binary main_v331 main_v4 main_v332 (subi : (⟨S64, .i32⟩ : BufTy).Contents (Elt F) → (⟨S64, .i32⟩ : BufTy).Contents (Elt F) → (⟨S64, .i32⟩ : BufTy).Contents (Elt F)),
    unary main_v332 main_v333 (broadcastInDim S64x1 ![0] bcast_S64_S64x1_0 : (⟨S64, .i32⟩ : BufTy).Contents (Elt F) → (⟨S64x1, .i32⟩ : BufTy).Contents (Elt F)),
    unary main_v333 main_v334 (sitofp .f32 : (⟨S64x1, .i32⟩ : BufTy).Contents (Elt F) → (⟨S64x1, .f32⟩ : BufTy).Contents (Elt F)),
    unary main_v330 main_v335 (broadcastInDim S64x1 ![] bcast_S_S64x1 : (⟨S_, .f32⟩ : BufTy).Contents (Elt F) → (⟨S64x1, .f32⟩ : BufTy).Contents (Elt F)),
    binary main_v335 main_v334 main_v336 (mulf : (⟨S64x1, .f32⟩ : BufTy).Contents (Elt F) → (⟨S64x1, .f32⟩ : BufTy).Contents (Elt F) → (⟨S64x1, .f32⟩ : BufTy).Contents (Elt F)),
    unary main_arg2 main_v337 ((extractStridedSlice S1 ![1] · slices_S5_S1_1) : (⟨S5, .f32⟩ : BufTy).Contents (Elt F) → (⟨S1, .f32⟩ : BufTy).Contents (Elt F)),
    reshape main_v337 main_v338 rfl shapeCasts_S1_S_,
    nullary main_c_57 (constantI S_ 32 4294967295#32),
    unary main_c_57 main_v339 (broadcastInDim S64 ![] bcast_S_S64 : (⟨S_, .i32⟩ : BufTy).Contents (Elt F) → (⟨S64, .i32⟩ : BufTy).Contents (Elt F)),
    binary main_v339 main_v5 main_v340 (subi : (⟨S64, .i32⟩ : BufTy).Contents (Elt F) → (⟨S64, .i32⟩ : BufTy).Contents (Elt F) → (⟨S64, .i32⟩ : BufTy).Contents (Elt F)),
    unary main_v340 main_v341 (broadcastInDim S1x64 ![1] bcast_S64_S1x64_1 : (⟨S64, .i32⟩ : BufTy).Contents (Elt F) → (⟨S1x64, .i32⟩ : BufTy).Contents (Elt F)),
    unary main_v341 main_v342 (sitofp .f32 : (⟨S1x64, .i32⟩ : BufTy).Contents (Elt F) → (⟨S1x64, .f32⟩ : BufTy).Contents (Elt F)),
    unary main_v338 main_v343 (broadcastInDim S1x64 ![] bcast_S_S1x64 : (⟨S_, .f32⟩ : BufTy).Contents (Elt F) → (⟨S1x64, .f32⟩ : BufTy).Contents (Elt F)),
    binary main_v343 main_v342 main_v344 (mulf : (⟨S1x64, .f32⟩ : BufTy).Contents (Elt F) → (⟨S1x64, .f32⟩ : BufTy).Contents (Elt F) → (⟨S1x64, .f32⟩ : BufTy).Contents (Elt F)),
    unary main_v336 main_v345 (broadcastInDim S64x64 ![0, 1] bcast_S64x1_S64x64_0_1 : (⟨S64x1, .f32⟩ : BufTy).Contents (Elt F) → (⟨S64x64, .f32⟩ : BufTy).Contents (Elt F)),
    unary main_v344 main_v346 (broadcastInDim S64x64 ![0, 1] bcast_S1x64_S64x64_0_1 : (⟨S1x64, .f32⟩ : BufTy).Contents (Elt F) → (⟨S64x64, .f32⟩ : BufTy).Contents (Elt F)),
    binary main_v345 main_v346 main_v347 (addf : (⟨S64x64, .f32⟩ : BufTy).Contents (Elt F) → (⟨S64x64, .f32⟩ : BufTy).Contents (Elt F) → (⟨S64x64, .f32⟩ : BufTy).Contents (Elt F)),
    unary main_v2 main_v348 ((extractStridedSlice S16x64x64x256 ![0, 1, 1, 0] · slices_S16x68x68x256_S16x64x64x256_0_1_1_0) : (⟨S16x68x68x256, .f32⟩ : BufTy).Contents (Elt F) → (⟨S16x64x64x256, .f32⟩ : BufTy).Contents (Elt F)),
    unary main_v3 main_v349 ((extractStridedSlice S16x64x64x256 ![0, 1, 1, 0] · slices_S16x68x68x256_S16x64x64x256_0_1_1_0) : (⟨S16x68x68x256, .f32⟩ : BufTy).Contents (Elt F) → (⟨S16x64x64x256, .f32⟩ : BufTy).Contents (Elt F)),
    unary main_v347 main_v350 (broadcastInDim S1x64x64x1 ![1, 2] bcast_S64x64_S1x64x64x1_1_2 : (⟨S64x64, .f32⟩ : BufTy).Contents (Elt F) → (⟨S1x64x64x1, .f32⟩ : BufTy).Contents (Elt F)),
    unary main_v350 main_v351 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v351 main_v348 main_v352 (addf : (⟨S16x64x64x256, .f32⟩ : BufTy).Contents (Elt F) → (⟨S16x64x64x256, .f32⟩ : BufTy).Contents (Elt F) → (⟨S16x64x64x256, .f32⟩ : BufTy).Contents (Elt F)),
    unary main_v352 main_v353 (Host.exp : (⟨S16x64x64x256, .f32⟩ : BufTy).Contents (Elt F) → (⟨S16x64x64x256, .f32⟩ : BufTy).Contents (Elt F)),
    unary main_v328 main_v354 (broadcastInDim S1x64x64x1 ![1, 2] bcast_S64x64_S1x64x64x1_1_2 : (⟨S64x64, .f32⟩ : BufTy).Contents (Elt F) → (⟨S1x64x64x1, .f32⟩ : BufTy).Contents (Elt F)),
    unary main_v354 main_v355 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v353 main_v355 main_v356 (mulf : (⟨S16x64x64x256, .f32⟩ : BufTy).Contents (Elt F) → (⟨S16x64x64x256, .f32⟩ : BufTy).Contents (Elt F) → (⟨S16x64x64x256, .f32⟩ : BufTy).Contents (Elt F)),
    binary main_v356 main_v349 main_v357 (mulf : (⟨S16x64x64x256, .f32⟩ : BufTy).Contents (Elt F) → (⟨S16x64x64x256, .f32⟩ : BufTy).Contents (Elt F) → (⟨S16x64x64x256, .f32⟩ : BufTy).Contents (Elt F)),
    binary main_v310 main_v357 main_v358 (addf : (⟨S16x64x64x256, .f32⟩ : BufTy).Contents (Elt F) → (⟨S16x64x64x256, .f32⟩ : BufTy).Contents (Elt F) → (⟨S16x64x64x256, .f32⟩ : BufTy).Contents (Elt F)),
    nullary main_cst_58 (constant S_ .f32 0x00000000#32) ]

set_option maxRecDepth 8192 in
set_option maxHeartbeats 4000000 in
theorem part6_eq (d : Dev nD) : main_part6 (F := F) d = seq ops6 := rfl

set_option maxRecDepth 8192 in
theorem ops6_sub : (ops6 : List (HloOp τ sig (Elt F))).Forall fun op => op.bufs ⊆ tcRefs τ sig := by
  unfold ops6
  exact ⟨unary_bufs_sub .., binary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., binary_bufs_sub .., nullary_bufs_sub ..⟩

set_option maxRecDepth 8192 in
theorem ops6_fresh : ∀ op ∈ (ops6 : List (HloOp τ sig (Elt F))), op.fresh = ∅ := by
  unfold ops6
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value6 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v253 : W (Proc.devRef .tc main_v253) = ReadP.val_main_v253 (F := F) x0 x1 x2 x3 x4)
    (h_main_v256 : W (Proc.devRef .tc main_v256) = ReadP.val_main_v256 (F := F) x0 x1 x2 x3)
    (h_main_v265 : W (Proc.devRef .tc main_v265) = ReadP.val_main_v265 (F := F))
    (h_main_v301 : W (Proc.devRef .tc main_v301) = ReadP.val_main_v301 (F := F) x0 x4)
    (h_main_v305 : W (Proc.devRef .tc main_v305) = ReadP.val_main_v305 (F := F) x0 x1 x2 x3)
    (h_main_v306 : W (Proc.devRef .tc main_v306) = ReadP.val_main_v306 (F := F)) :
    after ops6 W (Proc.devRef .tc main_arg0) = x0 ∧
    after ops6 W (Proc.devRef .tc main_arg1) = x1 ∧
    after ops6 W (Proc.devRef .tc main_arg2) = x2 ∧
    after ops6 W (Proc.devRef .tc main_arg3) = x3 ∧
    after ops6 W (Proc.devRef .tc main_arg4) = x4 ∧
    after ops6 W (Proc.devRef .tc main_arg5) = x5 ∧
    after ops6 W (Proc.devRef .tc main_v2) = ReadP.val_main_v2 (F := F) x0 x3 ∧
    after ops6 W (Proc.devRef .tc main_v3) = ReadP.val_main_v3 (F := F) x0 x4 ∧
    after ops6 W (Proc.devRef .tc main_v4) = ReadP.val_main_v4 (F := F) ∧
    after ops6 W (Proc.devRef .tc main_v5) = ReadP.val_main_v5 (F := F) ∧
    after ops6 W (Proc.devRef .tc main_v265) = ReadP.val_main_v265 (F := F) ∧
    after ops6 W (Proc.devRef .tc main_v313) = ReadP.val_main_v313 (F := F) x0 x1 x2 x3 ∧
    after ops6 W (Proc.devRef .tc main_v356) = ReadP.val_main_v356 (F := F) x0 x1 x2 x3 ∧
    after ops6 W (Proc.devRef .tc main_v358) = ReadP.val_main_v358 (F := F) x0 x1 x2 x3 x4 ∧
    after ops6 W (Proc.devRef .tc main_cst_58) = ReadP.val_main_cst_58 (F := F) := by
  unfold ops6
  refine ⟨?_, ?_, ?_, ?_, ?_, ?_, ?_, ?_, ?_, ?_, ?_, ?_, ?_, ?_, ?_⟩
  · (after_results_simp <;> (try simp only [a0, a1, a2, a3, a4, a5, h_main_v2, h_main_v3, h_main_v4, h_main_v5, h_main_v253, h_main_v256, h_main_v265, h_main_v301, h_main_v305, h_main_v306]) <;> (first | rfl | assumption))
  · (after_results_simp <;> (try simp only [a0, a1, a2, a3, a4, a5, h_main_v2, h_main_v3, h_main_v4, h_main_v5, h_main_v253, h_main_v256, h_main_v265, h_main_v301, h_main_v305, h_main_v306]) <;> (first | rfl | assumption))
  · (after_results_simp <;> (try simp only [a0, a1, a2, a3, a4, a5, h_main_v2, h_main_v3, h_main_v4, h_main_v5, h_main_v253, h_main_v256, h_main_v265, h_main_v301, h_main_v305, h_main_v306]) <;> (first | rfl | assumption))
  · (after_results_simp <;> (try simp only [a0, a1, a2, a3, a4, a5, h_main_v2, h_main_v3, h_main_v4, h_main_v5, h_main_v253, h_main_v256, h_main_v265, h_main_v301, h_main_v305, h_main_v306]) <;> (first | rfl | assumption))
  · (after_results_simp <;> (try simp only [a0, a1, a2, a3, a4, a5, h_main_v2, h_main_v3, h_main_v4, h_main_v5, h_main_v253, h_main_v256, h_main_v265, h_main_v301, h_main_v305, h_main_v306]) <;> (first | rfl | assumption))
  · (after_results_simp <;> (try simp only [a0, a1, a2, a3, a4, a5, h_main_v2, h_main_v3, h_main_v4, h_main_v5, h_main_v253, h_main_v256, h_main_v265, h_main_v301, h_main_v305, h_main_v306]) <;> (first | rfl | assumption))
  · (after_results_simp <;> (try simp only [a0, a1, a2, a3, a4, a5, h_main_v2, h_main_v3, h_main_v4, h_main_v5, h_main_v253, h_main_v256, h_main_v265, h_main_v301, h_main_v305, h_main_v306]) <;> (first | rfl | assumption))
  · (after_results_simp <;> (try simp only [a0, a1, a2, a3, a4, a5, h_main_v2, h_main_v3, h_main_v4, h_main_v5, h_main_v253, h_main_v256, h_main_v265, h_main_v301, h_main_v305, h_main_v306]) <;> (first | rfl | assumption))
  · (after_results_simp <;> (try simp only [a0, a1, a2, a3, a4, a5, h_main_v2, h_main_v3, h_main_v4, h_main_v5, h_main_v253, h_main_v256, h_main_v265, h_main_v301, h_main_v305, h_main_v306]) <;> (first | rfl | assumption))
  · (after_results_simp <;> (try simp only [a0, a1, a2, a3, a4, a5, h_main_v2, h_main_v3, h_main_v4, h_main_v5, h_main_v253, h_main_v256, h_main_v265, h_main_v301, h_main_v305, h_main_v306]) <;> (first | rfl | assumption))
  · (after_results_simp <;> (try simp only [a0, a1, a2, a3, a4, a5, h_main_v2, h_main_v3, h_main_v4, h_main_v5, h_main_v253, h_main_v256, h_main_v265, h_main_v301, h_main_v305, h_main_v306]) <;> (first | rfl | assumption))
  · (after_results_simp <;> (try simp only [a0, a1, a2, a3, a4, a5, h_main_v2, h_main_v3, h_main_v4, h_main_v5, h_main_v253, h_main_v256, h_main_v265, h_main_v301, h_main_v305, h_main_v306]) <;> (first | rfl | assumption))
  · (after_results_simp <;> (try simp only [a0, a1, a2, a3, a4, a5, h_main_v2, h_main_v3, h_main_v4, h_main_v5, h_main_v253, h_main_v256, h_main_v265, h_main_v301, h_main_v305, h_main_v306]) <;> (first | rfl | assumption))
  · (after_results_simp <;> (try simp only [a0, a1, a2, a3, a4, a5, h_main_v2, h_main_v3, h_main_v4, h_main_v5, h_main_v253, h_main_v256, h_main_v265, h_main_v301, h_main_v305, h_main_v306]) <;> (first | rfl | assumption))
  · (after_results_simp <;> (try simp only [a0, a1, a2, a3, a4, a5, h_main_v2, h_main_v3, h_main_v4, h_main_v5, h_main_v253, h_main_v256, h_main_v265, h_main_v301, h_main_v305, h_main_v306]) <;> (first | rfl | assumption))

end Cert.ReferenceIdeal.RunH

end
-- ==== Proof.RefRun7.lean ====
/- The reference program's @main, statements 421 … 480 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops7 : List (HloOp τ sig (Elt F)) :=
  [ binary main_v356 main_cst_58 main_v359 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v359 main_v360 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v313 main_v360 main_v361 (addf : (⟨S16x64x64x1, .f32⟩ : BufTy).Contents (Elt F) → (⟨S16x64x64x1, .f32⟩ : BufTy).Contents (Elt F) → (⟨S16x64x64x1, .f32⟩ : BufTy).Contents (Elt F)),
    nullary main_c_59 (constantI S_ 32 0#32),
    unary main_c_59 main_v362 (broadcastInDim S64 ![] bcast_S_S64 : (⟨S_, .i32⟩ : BufTy).Contents (Elt F) → (⟨S64, .i32⟩ : BufTy).Contents (Elt F)),
    binary main_v5 main_v362 main_v363 (addi : (⟨S64, .i32⟩ : BufTy).Contents (Elt F) → (⟨S64, .i32⟩ : BufTy).Contents (Elt F) → (⟨S64, .i32⟩ : BufTy).Contents (Elt F)),
    nullary main_c_60 (constantI S_ 32 0#32),
    unary main_c_60 main_v364 (broadcastInDim S64 ![] bcast_S_S64 : (⟨S_, .i32⟩ : BufTy).Contents (Elt F) → (⟨S64, .i32⟩ : BufTy).Contents (Elt F)),
    binary main_v363 main_v364 main_v365 (cmpi .sge : (⟨S64, .i32⟩ : BufTy).Contents (Elt F) → (⟨S64, .i32⟩ : BufTy).Contents (Elt F) → (⟨S64, .i1⟩ : BufTy).Contents (Elt F)),
    nullary main_c_61 (constantI S_ 32 0#32),
    unary main_c_61 main_v366 (broadcastInDim S64 ![] bcast_S_S64 : (⟨S_, .i32⟩ : BufTy).Contents (Elt F) → (⟨S64, .i32⟩ : BufTy).Contents (Elt F)),
    binary main_v5 main_v366 main_v367 (addi : (⟨S64, .i32⟩ : BufTy).Contents (Elt F) → (⟨S64, .i32⟩ : BufTy).Contents (Elt F) → (⟨S64, .i32⟩ : BufTy).Contents (Elt F)),
    nullary main_c_62 (constantI S_ 32 64#32),
    unary main_c_62 main_v368 (broadcastInDim S64 ![] bcast_S_S64 : (⟨S_, .i32⟩ : BufTy).Contents (Elt F) → (⟨S64, .i32⟩ : BufTy).Contents (Elt F)),
    binary main_v367 main_v368 main_v369 (cmpi .slt : (⟨S64, .i32⟩ : BufTy).Contents (Elt F) → (⟨S64, .i32⟩ : BufTy).Contents (Elt F) → (⟨S64, .i1⟩ : BufTy).Contents (Elt F)),
    binary main_v365 main_v369 main_v370 (andi : (⟨S64, .i1⟩ : BufTy).Contents (Elt F) → (⟨S64, .i1⟩ : BufTy).Contents (Elt F) → (⟨S64, .i1⟩ : BufTy).Contents (Elt F)),
    unary main_v265 main_v371 (broadcastInDim S64x1 ![0] bcast_S64_S64x1_0 : (⟨S64, .i1⟩ : BufTy).Contents (Elt F) → (⟨S64x1, .i1⟩ : BufTy).Contents (Elt F)),
    unary main_v370 main_v372 (broadcastInDim S1x64 ![1] bcast_S64_S1x64_1 : (⟨S64, .i1⟩ : BufTy).Contents (Elt F) → (⟨S1x64, .i1⟩ : BufTy).Contents (Elt F)),
    unary main_v371 main_v373 (broadcastInDim S64x64 ![0, 1] bcast_S64x1_S64x64_0_1 : (⟨S64x1, .i1⟩ : BufTy).Contents (Elt F) → (⟨S64x64, .i1⟩ : BufTy).Contents (Elt F)),
    unary main_v372 main_v374 (broadcastInDim S64x64 ![0, 1] bcast_S1x64_S64x64_0_1 : (⟨S1x64, .i1⟩ : BufTy).Contents (Elt F) → (⟨S64x64, .i1⟩ : BufTy).Contents (Elt F)),
    binary main_v373 main_v374 main_v375 (andi : (⟨S64x64, .i1⟩ : BufTy).Contents (Elt F) → (⟨S64x64, .i1⟩ : BufTy).Contents (Elt F) → (⟨S64x64, .i1⟩ : BufTy).Contents (Elt F)),
    unary main_v375 main_v376 (uitofp .f32 : (⟨S64x64, .i1⟩ : BufTy).Contents (Elt F) → (⟨S64x64, .f32⟩ : BufTy).Contents (Elt F)),
    unary main_arg1 main_v377 ((extractStridedSlice S1 ![1] · slices_S5_S1_1) : (⟨S5, .f32⟩ : BufTy).Contents (Elt F) → (⟨S1, .f32⟩ : BufTy).Contents (Elt F)),
    reshape main_v377 main_v378 rfl shapeCasts_S1_S_,
    nullary main_c_63 (constantI S_ 32 4294967295#32),
    unary main_c_63 main_v379 (broadcastInDim S64 ![] bcast_S_S64 : (⟨S_, .i32⟩ : BufTy).Contents (Elt F) → (⟨S64, .i32⟩ : BufTy).Contents (Elt F)),
    binary main_v379 main_v4 main_v380 (subi : (⟨S64, .i32⟩ : BufTy).Contents (Elt F) → (⟨S64, .i32⟩ : BufTy).Contents (Elt F) → (⟨S64, .i32⟩ : BufTy).Contents (Elt F)),
    unary main_v380 main_v381 (broadcastInDim S64x1 ![0] bcast_S64_S64x1_0 : (⟨S64, .i32⟩ : BufTy).Contents (Elt F) → (⟨S64x1, .i32⟩ : BufTy).Contents (Elt F)),
    unary main_v381 main_v382 (sitofp .f32 : (⟨S64x1, .i32⟩ : BufTy).Contents (Elt F) → (⟨S64x1, .f32⟩ : BufTy).Contents (Elt F)),
    unary main_v378 main_v383 (broadcastInDim S64x1 ![] bcast_S_S64x1 : (⟨S_, .f32⟩ : BufTy).Contents (Elt F) → (⟨S64x1, .f32⟩ : BufTy).Contents (Elt F)),
    binary main_v383 main_v382 main_v384 (mulf : (⟨S64x1, .f32⟩ : BufTy).Contents (Elt F) → (⟨S64x1, .f32⟩ : BufTy).Contents (Elt F) → (⟨S64x1, .f32⟩ : BufTy).Contents (Elt F)),
    unary main_arg2 main_v385 ((extractStridedSlice S1 ![2] · slices_S5_S1_2) : (⟨S5, .f32⟩ : BufTy).Contents (Elt F) → (⟨S1, .f32⟩ : BufTy).Contents (Elt F)),
    reshape main_v385 main_v386 rfl shapeCasts_S1_S_,
    nullary main_c_64 (constantI S_ 32 0#32),
    unary main_c_64 main_v387 (broadcastInDim S64 ![] bcast_S_S64 : (⟨S_, .i32⟩ : BufTy).Contents (Elt F) → (⟨S64, .i32⟩ : BufTy).Contents (Elt F)),
    binary main_v387 main_v5 main_v388 (subi : (⟨S64, .i32⟩ : BufTy).Contents (Elt F) → (⟨S64, .i32⟩ : BufTy).Contents (Elt F) → (⟨S64, .i32⟩ : BufTy).Contents (Elt F)),
    unary main_v388 main_v389 (broadcastInDim S1x64 ![1] bcast_S64_S1x64_1 : (⟨S64, .i32⟩ : BufTy).Contents (Elt F) → (⟨S1x64, .i32⟩ : BufTy).Contents (Elt F)),
    unary main_v389 main_v390 (sitofp .f32 : (⟨S1x64, .i32⟩ : BufTy).Contents (Elt F) → (⟨S1x64, .f32⟩ : BufTy).Contents (Elt F)),
    unary main_v386 main_v391 (broadcastInDim S1x64 ![] bcast_S_S1x64 : (⟨S_, .f32⟩ : BufTy).Contents (Elt F) → (⟨S1x64, .f32⟩ : BufTy).Contents (Elt F)),
    binary main_v391 main_v390 main_v392 (mulf : (⟨S1x64, .f32⟩ : BufTy).Contents (Elt F) → (⟨S1x64, .f32⟩ : BufTy).Contents (Elt F) → (⟨S1x64, .f32⟩ : BufTy).Contents (Elt F)),
    unary main_v384 main_v393 (broadcastInDim S64x64 ![0, 1] bcast_S64x1_S64x64_0_1 : (⟨S64x1, .f32⟩ : BufTy).Contents (Elt F) → (⟨S64x64, .f32⟩ : BufTy).Contents (Elt F)),
    unary main_v392 main_v394 (broadcastInDim S64x64 ![0, 1] bcast_S1x64_S64x64_0_1 : (⟨S1x64, .f32⟩ : BufTy).Contents (Elt F) → (⟨S64x64, .f32⟩ : BufTy).Contents (Elt F)),
    binary main_v393 main_v394 main_v395 (addf : (⟨S64x64, .f32⟩ : BufTy).Contents (Elt F) → (⟨S64x64, .f32⟩ : BufTy).Contents (Elt F) → (⟨S64x64, .f32⟩ : BufTy).Contents (Elt F)),
    unary main_v2 main_v396 ((extractStridedSlice S16x64x64x256 ![0, 1, 2, 0] · slices_S16x68x68x256_S16x64x64x256_0_1_2_0) : (⟨S16x68x68x256, .f32⟩ : BufTy).Contents (Elt F) → (⟨S16x64x64x256, .f32⟩ : BufTy).Contents (Elt F)),
    unary main_v3 main_v397 ((extractStridedSlice S16x64x64x256 ![0, 1, 2, 0] · slices_S16x68x68x256_S16x64x64x256_0_1_2_0) : (⟨S16x68x68x256, .f32⟩ : BufTy).Contents (Elt F) → (⟨S16x64x64x256, .f32⟩ : BufTy).Contents (Elt F)),
    unary main_v395 main_v398 (broadcastInDim S1x64x64x1 ![1, 2] bcast_S64x64_S1x64x64x1_1_2 : (⟨S64x64, .f32⟩ : BufTy).Contents (Elt F) → (⟨S1x64x64x1, .f32⟩ : BufTy).Contents (Elt F)),
    unary main_v398 main_v399 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v399 main_v396 main_v400 (addf : (⟨S16x64x64x256, .f32⟩ : BufTy).Contents (Elt F) → (⟨S16x64x64x256, .f32⟩ : BufTy).Contents (Elt F) → (⟨S16x64x64x256, .f32⟩ : BufTy).Contents (Elt F)),
    unary main_v400 main_v401 (Host.exp : (⟨S16x64x64x256, .f32⟩ : BufTy).Contents (Elt F) → (⟨S16x64x64x256, .f32⟩ : BufTy).Contents (Elt F)),
    unary main_v376 main_v402 (broadcastInDim S1x64x64x1 ![1, 2] bcast_S64x64_S1x64x64x1_1_2 : (⟨S64x64, .f32⟩ : BufTy).Contents (Elt F) → (⟨S1x64x64x1, .f32⟩ : BufTy).Contents (Elt F)),
    unary main_v402 main_v403 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v401 main_v403 main_v404 (mulf : (⟨S16x64x64x256, .f32⟩ : BufTy).Contents (Elt F) → (⟨S16x64x64x256, .f32⟩ : BufTy).Contents (Elt F) → (⟨S16x64x64x256, .f32⟩ : BufTy).Contents (Elt F)),
    binary main_v404 main_v397 main_v405 (mulf : (⟨S16x64x64x256, .f32⟩ : BufTy).Contents (Elt F) → (⟨S16x64x64x256, .f32⟩ : BufTy).Contents (Elt F) → (⟨S16x64x64x256, .f32⟩ : BufTy).Contents (Elt F)),
    binary main_v358 main_v405 main_v406 (addf : (⟨S16x64x64x256, .f32⟩ : BufTy).Contents (Elt F) → (⟨S16x64x64x256, .f32⟩ : BufTy).Contents (Elt F) → (⟨S16x64x64x256, .f32⟩ : BufTy).Contents (Elt F)),
    nullary main_cst_65 (constant S_ .f32 0x00000000#32),
    binary main_v404 main_cst_65 main_v407 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v407 main_v408 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v361 main_v408 main_v409 (addf : (⟨S16x64x64x1, .f32⟩ : BufTy).Contents (Elt F) → (⟨S16x64x64x1, .f32⟩ : BufTy).Contents (Elt F) → (⟨S16x64x64x1, .f32⟩ : BufTy).Contents (Elt F)),
    nullary main_c_66 (constantI S_ 32 1#32),
    unary main_c_66 main_v410 (broadcastInDim S64 ![] bcast_S_S64 : (⟨S_, .i32⟩ : BufTy).Contents (Elt F) → (⟨S64, .i32⟩ : BufTy).Contents (Elt F)) ]

set_option maxRecDepth 8192 in
set_option maxHeartbeats 4000000 in
theorem part7_eq (d : Dev nD) : main_part7 (F := F) d = seq ops7 := rfl

set_option maxRecDepth 8192 in
theorem ops7_sub : (ops7 : List (HloOp τ sig (Elt F))).Forall fun op => op.bufs ⊆ tcRefs τ sig := by
  unfold ops7
  exact ⟨binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., unary_bufs_sub ..⟩

set_option maxRecDepth 8192 in
theorem ops7_fresh : ∀ op ∈ (ops7 : List (HloOp τ sig (Elt F))), op.fresh = ∅ := by
  unfold ops7
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value7 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v265 : W (Proc.devRef .tc main_v265) = ReadP.val_main_v265 (F := F))
    (h_main_v313 : W (Proc.devRef .tc main_v313) = ReadP.val_main_v313 (F := F) x0 x1 x2 x3)
    (h_main_v356 : W (Proc.devRef .tc main_v356) = ReadP.val_main_v356 (F := F) x0 x1 x2 x3)
    (h_main_v358 : W (Proc.devRef .tc main_v358) = ReadP.val_main_v358 (F := F) x0 x1 x2 x3 x4)
    (h_main_cst_58 : W (Proc.devRef .tc main_cst_58) = ReadP.val_main_cst_58 (F := F)) :
    after ops7 W (Proc.devRef .tc main_arg0) = x0 ∧
    after ops7 W (Proc.devRef .tc main_arg1) = x1 ∧
    after ops7 W (Proc.devRef .tc main_arg2) = x2 ∧
    after ops7 W (Proc.devRef .tc main_arg3) = x3 ∧
    after ops7 W (Proc.devRef .tc main_arg4) = x4 ∧
    after ops7 W (Proc.devRef .tc main_arg5) = x5 ∧
    after ops7 W (Proc.devRef .tc main_v2) = ReadP.val_main_v2 (F := F) x0 x3 ∧
    after ops7 W (Proc.devRef .tc main_v3) = ReadP.val_main_v3 (F := F) x0 x4 ∧
    after ops7 W (Proc.devRef .tc main_v4) = ReadP.val_main_v4 (F := F) ∧
    after ops7 W (Proc.devRef .tc main_v5) = ReadP.val_main_v5 (F := F) ∧
    after ops7 W (Proc.devRef .tc main_v265) = ReadP.val_main_v265 (F := F) ∧
    after ops7 W (Proc.devRef .tc main_v406) = ReadP.val_main_v406 (F := F) x0 x1 x2 x3 x4 ∧
    after ops7 W (Proc.devRef .tc main_v409) = ReadP.val_main_v409 (F := F) x0 x1 x2 x3 ∧
    after ops7 W (Proc.devRef .tc main_v410) = ReadP.val_main_v410 (F := F) := by
  unfold ops7
  refine ⟨?_, ?_, ?_, ?_, ?_, ?_, ?_, ?_, ?_, ?_, ?_, ?_, ?_, ?_⟩
  · (after_results_simp <;> (try simp only [a0, a1, a2, a3, a4, a5, h_main_v2, h_main_v3, h_main_v4, h_main_v5, h_main_v265, h_main_v313, h_main_v356, h_main_v358, h_main_cst_58]) <;> (first | rfl | assumption))
  · (after_results_simp <;> (try simp only [a0, a1, a2, a3, a4, a5, h_main_v2, h_main_v3, h_main_v4, h_main_v5, h_main_v265, h_main_v313, h_main_v356, h_main_v358, h_main_cst_58]) <;> (first | rfl | assumption))
  · (after_results_simp <;> (try simp only [a0, a1, a2, a3, a4, a5, h_main_v2, h_main_v3, h_main_v4, h_main_v5, h_main_v265, h_main_v313, h_main_v356, h_main_v358, h_main_cst_58]) <;> (first | rfl | assumption))
  · (after_results_simp <;> (try simp only [a0, a1, a2, a3, a4, a5, h_main_v2, h_main_v3, h_main_v4, h_main_v5, h_main_v265, h_main_v313, h_main_v356, h_main_v358, h_main_cst_58]) <;> (first | rfl | assumption))
  · (after_results_simp <;> (try simp only [a0, a1, a2, a3, a4, a5, h_main_v2, h_main_v3, h_main_v4, h_main_v5, h_main_v265, h_main_v313, h_main_v356, h_main_v358, h_main_cst_58]) <;> (first | rfl | assumption))
  · (after_results_simp <;> (try simp only [a0, a1, a2, a3, a4, a5, h_main_v2, h_main_v3, h_main_v4, h_main_v5, h_main_v265, h_main_v313, h_main_v356, h_main_v358, h_main_cst_58]) <;> (first | rfl | assumption))
  · (after_results_simp <;> (try simp only [a0, a1, a2, a3, a4, a5, h_main_v2, h_main_v3, h_main_v4, h_main_v5, h_main_v265, h_main_v313, h_main_v356, h_main_v358, h_main_cst_58]) <;> (first | rfl | assumption))
  · (after_results_simp <;> (try simp only [a0, a1, a2, a3, a4, a5, h_main_v2, h_main_v3, h_main_v4, h_main_v5, h_main_v265, h_main_v313, h_main_v356, h_main_v358, h_main_cst_58]) <;> (first | rfl | assumption))
  · (after_results_simp <;> (try simp only [a0, a1, a2, a3, a4, a5, h_main_v2, h_main_v3, h_main_v4, h_main_v5, h_main_v265, h_main_v313, h_main_v356, h_main_v358, h_main_cst_58]) <;> (first | rfl | assumption))
  · (after_results_simp <;> (try simp only [a0, a1, a2, a3, a4, a5, h_main_v2, h_main_v3, h_main_v4, h_main_v5, h_main_v265, h_main_v313, h_main_v356, h_main_v358, h_main_cst_58]) <;> (first | rfl | assumption))
  · (after_results_simp <;> (try simp only [a0, a1, a2, a3, a4, a5, h_main_v2, h_main_v3, h_main_v4, h_main_v5, h_main_v265, h_main_v313, h_main_v356, h_main_v358, h_main_cst_58]) <;> (first | rfl | assumption))
  · (after_results_simp <;> (try simp only [a0, a1, a2, a3, a4, a5, h_main_v2, h_main_v3, h_main_v4, h_main_v5, h_main_v265, h_main_v313, h_main_v356, h_main_v358, h_main_cst_58]) <;> (first | rfl | assumption))
  · (after_results_simp <;> (try simp only [a0, a1, a2, a3, a4, a5, h_main_v2, h_main_v3, h_main_v4, h_main_v5, h_main_v265, h_main_v313, h_main_v356, h_main_v358, h_main_cst_58]) <;> (first | rfl | assumption))
  · (after_results_simp <;> (try simp only [a0, a1, a2, a3, a4, a5, h_main_v2, h_main_v3, h_main_v4, h_main_v5, h_main_v265, h_main_v313, h_main_v356, h_main_v358, h_main_cst_58]) <;> (first | rfl | assumption))

end Cert.ReferenceIdeal.RunH

end
-- ==== Proof.RefRun8.lean ====
/- The reference program's @main, statements 481 … 540 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops8 : List (HloOp τ sig (Elt F)) :=
  [ binary main_v5 main_v410 main_v411 (addi : (⟨S64, .i32⟩ : BufTy).Contents (Elt F) → (⟨S64, .i32⟩ : BufTy).Contents (Elt F) → (⟨S64, .i32⟩ : BufTy).Contents (Elt F)),
    nullary main_c_67 (constantI S_ 32 0#32),
    unary main_c_67 main_v412 (broadcastInDim S64 ![] bcast_S_S64 : (⟨S_, .i32⟩ : BufTy).Contents (Elt F) → (⟨S64, .i32⟩ : BufTy).Contents (Elt F)),
    binary main_v411 main_v412 main_v413 (cmpi .sge : (⟨S64, .i32⟩ : BufTy).Contents (Elt F) → (⟨S64, .i32⟩ : BufTy).Contents (Elt F) → (⟨S64, .i1⟩ : BufTy).Contents (Elt F)),
    nullary main_c_68 (constantI S_ 32 1#32),
    unary main_c_68 main_v414 (broadcastInDim S64 ![] bcast_S_S64 : (⟨S_, .i32⟩ : BufTy).Contents (Elt F) → (⟨S64, .i32⟩ : BufTy).Contents (Elt F)),
    binary main_v5 main_v414 main_v415 (addi : (⟨S64, .i32⟩ : BufTy).Contents (Elt F) → (⟨S64, .i32⟩ : BufTy).Contents (Elt F) → (⟨S64, .i32⟩ : BufTy).Contents (Elt F)),
    nullary main_c_69 (constantI S_ 32 64#32),
    unary main_c_69 main_v416 (broadcastInDim S64 ![] bcast_S_S64 : (⟨S_, .i32⟩ : BufTy).Contents (Elt F) → (⟨S64, .i32⟩ : BufTy).Contents (Elt F)),
    binary main_v415 main_v416 main_v417 (cmpi .slt : (⟨S64, .i32⟩ : BufTy).Contents (Elt F) → (⟨S64, .i32⟩ : BufTy).Contents (Elt F) → (⟨S64, .i1⟩ : BufTy).Contents (Elt F)),
    binary main_v413 main_v417 main_v418 (andi : (⟨S64, .i1⟩ : BufTy).Contents (Elt F) → (⟨S64, .i1⟩ : BufTy).Contents (Elt F) → (⟨S64, .i1⟩ : BufTy).Contents (Elt F)),
    unary main_v265 main_v419 (broadcastInDim S64x1 ![0] bcast_S64_S64x1_0 : (⟨S64, .i1⟩ : BufTy).Contents (Elt F) → (⟨S64x1, .i1⟩ : BufTy).Contents (Elt F)),
    unary main_v418 main_v420 (broadcastInDim S1x64 ![1] bcast_S64_S1x64_1 : (⟨S64, .i1⟩ : BufTy).Contents (Elt F) → (⟨S1x64, .i1⟩ : BufTy).Contents (Elt F)),
    unary main_v419 main_v421 (broadcastInDim S64x64 ![0, 1] bcast_S64x1_S64x64_0_1 : (⟨S64x1, .i1⟩ : BufTy).Contents (Elt F) → (⟨S64x64, .i1⟩ : BufTy).Contents (Elt F)),
    unary main_v420 main_v422 (broadcastInDim S64x64 ![0, 1] bcast_S1x64_S64x64_0_1 : (⟨S1x64, .i1⟩ : BufTy).Contents (Elt F) → (⟨S64x64, .i1⟩ : BufTy).Contents (Elt F)),
    binary main_v421 main_v422 main_v423 (andi : (⟨S64x64, .i1⟩ : BufTy).Contents (Elt F) → (⟨S64x64, .i1⟩ : BufTy).Contents (Elt F) → (⟨S64x64, .i1⟩ : BufTy).Contents (Elt F)),
    unary main_v423 main_v424 (uitofp .f32 : (⟨S64x64, .i1⟩ : BufTy).Contents (Elt F) → (⟨S64x64, .f32⟩ : BufTy).Contents (Elt F)),
    unary main_arg1 main_v425 ((extractStridedSlice S1 ![1] · slices_S5_S1_1) : (⟨S5, .f32⟩ : BufTy).Contents (Elt F) → (⟨S1, .f32⟩ : BufTy).Contents (Elt F)),
    reshape main_v425 main_v426 rfl shapeCasts_S1_S_,
    nullary main_c_70 (constantI S_ 32 4294967295#32),
    unary main_c_70 main_v427 (broadcastInDim S64 ![] bcast_S_S64 : (⟨S_, .i32⟩ : BufTy).Contents (Elt F) → (⟨S64, .i32⟩ : BufTy).Contents (Elt F)),
    binary main_v427 main_v4 main_v428 (subi : (⟨S64, .i32⟩ : BufTy).Contents (Elt F) → (⟨S64, .i32⟩ : BufTy).Contents (Elt F) → (⟨S64, .i32⟩ : BufTy).Contents (Elt F)),
    unary main_v428 main_v429 (broadcastInDim S64x1 ![0] bcast_S64_S64x1_0 : (⟨S64, .i32⟩ : BufTy).Contents (Elt F) → (⟨S64x1, .i32⟩ : BufTy).Contents (Elt F)),
    unary main_v429 main_v430 (sitofp .f32 : (⟨S64x1, .i32⟩ : BufTy).Contents (Elt F) → (⟨S64x1, .f32⟩ : BufTy).Contents (Elt F)),
    unary main_v426 main_v431 (broadcastInDim S64x1 ![] bcast_S_S64x1 : (⟨S_, .f32⟩ : BufTy).Contents (Elt F) → (⟨S64x1, .f32⟩ : BufTy).Contents (Elt F)),
    binary main_v431 main_v430 main_v432 (mulf : (⟨S64x1, .f32⟩ : BufTy).Contents (Elt F) → (⟨S64x1, .f32⟩ : BufTy).Contents (Elt F) → (⟨S64x1, .f32⟩ : BufTy).Contents (Elt F)),
    unary main_arg2 main_v433 ((extractStridedSlice S1 ![3] · slices_S5_S1_3) : (⟨S5, .f32⟩ : BufTy).Contents (Elt F) → (⟨S1, .f32⟩ : BufTy).Contents (Elt F)),
    reshape main_v433 main_v434 rfl shapeCasts_S1_S_,
    nullary main_c_71 (constantI S_ 32 1#32),
    unary main_c_71 main_v435 (broadcastInDim S64 ![] bcast_S_S64 : (⟨S_, .i32⟩ : BufTy).Contents (Elt F) → (⟨S64, .i32⟩ : BufTy).Contents (Elt F)),
    binary main_v435 main_v5 main_v436 (subi : (⟨S64, .i32⟩ : BufTy).Contents (Elt F) → (⟨S64, .i32⟩ : BufTy).Contents (Elt F) → (⟨S64, .i32⟩ : BufTy).Contents (Elt F)),
    unary main_v436 main_v437 (broadcastInDim S1x64 ![1] bcast_S64_S1x64_1 : (⟨S64, .i32⟩ : BufTy).Contents (Elt F) → (⟨S1x64, .i32⟩ : BufTy).Contents (Elt F)),
    unary main_v437 main_v438 (sitofp .f32 : (⟨S1x64, .i32⟩ : BufTy).Contents (Elt F) → (⟨S1x64, .f32⟩ : BufTy).Contents (Elt F)),
    unary main_v434 main_v439 (broadcastInDim S1x64 ![] bcast_S_S1x64 : (⟨S_, .f32⟩ : BufTy).Contents (Elt F) → (⟨S1x64, .f32⟩ : BufTy).Contents (Elt F)),
    binary main_v439 main_v438 main_v440 (mulf : (⟨S1x64, .f32⟩ : BufTy).Contents (Elt F) → (⟨S1x64, .f32⟩ : BufTy).Contents (Elt F) → (⟨S1x64, .f32⟩ : BufTy).Contents (Elt F)),
    unary main_v432 main_v441 (broadcastInDim S64x64 ![0, 1] bcast_S64x1_S64x64_0_1 : (⟨S64x1, .f32⟩ : BufTy).Contents (Elt F) → (⟨S64x64, .f32⟩ : BufTy).Contents (Elt F)),
    unary main_v440 main_v442 (broadcastInDim S64x64 ![0, 1] bcast_S1x64_S64x64_0_1 : (⟨S1x64, .f32⟩ : BufTy).Contents (Elt F) → (⟨S64x64, .f32⟩ : BufTy).Contents (Elt F)),
    binary main_v441 main_v442 main_v443 (addf : (⟨S64x64, .f32⟩ : BufTy).Contents (Elt F) → (⟨S64x64, .f32⟩ : BufTy).Contents (Elt F) → (⟨S64x64, .f32⟩ : BufTy).Contents (Elt F)),
    unary main_v2 main_v444 ((extractStridedSlice S16x64x64x256 ![0, 1, 3, 0] · slices_S16x68x68x256_S16x64x64x256_0_1_3_0) : (⟨S16x68x68x256, .f32⟩ : BufTy).Contents (Elt F) → (⟨S16x64x64x256, .f32⟩ : BufTy).Contents (Elt F)),
    unary main_v3 main_v445 ((extractStridedSlice S16x64x64x256 ![0, 1, 3, 0] · slices_S16x68x68x256_S16x64x64x256_0_1_3_0) : (⟨S16x68x68x256, .f32⟩ : BufTy).Contents (Elt F) → (⟨S16x64x64x256, .f32⟩ : BufTy).Contents (Elt F)),
    unary main_v443 main_v446 (broadcastInDim S1x64x64x1 ![1, 2] bcast_S64x64_S1x64x64x1_1_2 : (⟨S64x64, .f32⟩ : BufTy).Contents (Elt F) → (⟨S1x64x64x1, .f32⟩ : BufTy).Contents (Elt F)),
    unary main_v446 main_v447 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v447 main_v444 main_v448 (addf : (⟨S16x64x64x256, .f32⟩ : BufTy).Contents (Elt F) → (⟨S16x64x64x256, .f32⟩ : BufTy).Contents (Elt F) → (⟨S16x64x64x256, .f32⟩ : BufTy).Contents (Elt F)),
    unary main_v448 main_v449 (Host.exp : (⟨S16x64x64x256, .f32⟩ : BufTy).Contents (Elt F) → (⟨S16x64x64x256, .f32⟩ : BufTy).Contents (Elt F)),
    unary main_v424 main_v450 (broadcastInDim S1x64x64x1 ![1, 2] bcast_S64x64_S1x64x64x1_1_2 : (⟨S64x64, .f32⟩ : BufTy).Contents (Elt F) → (⟨S1x64x64x1, .f32⟩ : BufTy).Contents (Elt F)),
    unary main_v450 main_v451 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v449 main_v451 main_v452 (mulf : (⟨S16x64x64x256, .f32⟩ : BufTy).Contents (Elt F) → (⟨S16x64x64x256, .f32⟩ : BufTy).Contents (Elt F) → (⟨S16x64x64x256, .f32⟩ : BufTy).Contents (Elt F)),
    binary main_v452 main_v445 main_v453 (mulf : (⟨S16x64x64x256, .f32⟩ : BufTy).Contents (Elt F) → (⟨S16x64x64x256, .f32⟩ : BufTy).Contents (Elt F) → (⟨S16x64x64x256, .f32⟩ : BufTy).Contents (Elt F)),
    binary main_v406 main_v453 main_v454 (addf : (⟨S16x64x64x256, .f32⟩ : BufTy).Contents (Elt F) → (⟨S16x64x64x256, .f32⟩ : BufTy).Contents (Elt F) → (⟨S16x64x64x256, .f32⟩ : BufTy).Contents (Elt F)),
    nullary main_cst_72 (constant S_ .f32 0x00000000#32),
    binary main_v452 main_cst_72 main_v455 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v455 main_v456 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v409 main_v456 main_v457 (addf : (⟨S16x64x64x1, .f32⟩ : BufTy).Contents (Elt F) → (⟨S16x64x64x1, .f32⟩ : BufTy).Contents (Elt F) → (⟨S16x64x64x1, .f32⟩ : BufTy).Contents (Elt F)),
    nullary main_c_73 (constantI S_ 32 2#32),
    unary main_c_73 main_v458 (broadcastInDim S64 ![] bcast_S_S64 : (⟨S_, .i32⟩ : BufTy).Contents (Elt F) → (⟨S64, .i32⟩ : BufTy).Contents (Elt F)),
    binary main_v5 main_v458 main_v459 (addi : (⟨S64, .i32⟩ : BufTy).Contents (Elt F) → (⟨S64, .i32⟩ : BufTy).Contents (Elt F) → (⟨S64, .i32⟩ : BufTy).Contents (Elt F)),
    nullary main_c_74 (constantI S_ 32 0#32),
    unary main_c_74 main_v460 (broadcastInDim S64 ![] bcast_S_S64 : (⟨S_, .i32⟩ : BufTy).Contents (Elt F) → (⟨S64, .i32⟩ : BufTy).Contents (Elt F)),
    binary main_v459 main_v460 main_v461 (cmpi .sge : (⟨S64, .i32⟩ : BufTy).Contents (Elt F) → (⟨S64, .i32⟩ : BufTy).Contents (Elt F) → (⟨S64, .i1⟩ : BufTy).Contents (Elt F)),
    nullary main_c_75 (constantI S_ 32 2#32) ]

set_option maxRecDepth 8192 in
set_option maxHeartbeats 4000000 in
theorem part8_eq (d : Dev nD) : main_part8 (F := F) d = seq ops8 := rfl

set_option maxRecDepth 8192 in
theorem ops8_sub : (ops8 : List (HloOp τ sig (Elt F))).Forall fun op => op.bufs ⊆ tcRefs τ sig := by
  unfold ops8
  exact ⟨binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., nullary_bufs_sub ..⟩

set_option maxRecDepth 8192 in
theorem ops8_fresh : ∀ op ∈ (ops8 : List (HloOp τ sig (Elt F))), op.fresh = ∅ := by
  unfold ops8
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value8 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v265 : W (Proc.devRef .tc main_v265) = ReadP.val_main_v265 (F := F))
    (h_main_v406 : W (Proc.devRef .tc main_v406) = ReadP.val_main_v406 (F := F) x0 x1 x2 x3 x4)
    (h_main_v409 : W (Proc.devRef .tc main_v409) = ReadP.val_main_v409 (F := F) x0 x1 x2 x3)
    (h_main_v410 : W (Proc.devRef .tc main_v410) = ReadP.val_main_v410 (F := F)) :
    after ops8 W (Proc.devRef .tc main_arg0) = x0 ∧
    after ops8 W (Proc.devRef .tc main_arg1) = x1 ∧
    after ops8 W (Proc.devRef .tc main_arg2) = x2 ∧
    after ops8 W (Proc.devRef .tc main_arg3) = x3 ∧
    after ops8 W (Proc.devRef .tc main_arg4) = x4 ∧
    after ops8 W (Proc.devRef .tc main_arg5) = x5 ∧
    after ops8 W (Proc.devRef .tc main_v2) = ReadP.val_main_v2 (F := F) x0 x3 ∧
    after ops8 W (Proc.devRef .tc main_v3) = ReadP.val_main_v3 (F := F) x0 x4 ∧
    after ops8 W (Proc.devRef .tc main_v4) = ReadP.val_main_v4 (F := F) ∧
    after ops8 W (Proc.devRef .tc main_v5) = ReadP.val_main_v5 (F := F) ∧
    after ops8 W (Proc.devRef .tc main_v265) = ReadP.val_main_v265 (F := F) ∧
    after ops8 W (Proc.devRef .tc main_v454) = ReadP.val_main_v454 (F := F) x0 x1 x2 x3 x4 ∧
    after ops8 W (Proc.devRef .tc main_v457) = ReadP.val_main_v457 (F := F) x0 x1 x2 x3 ∧
    after ops8 W (Proc.devRef .tc main_v461) = ReadP.val_main_v461 (F := F) ∧
    after ops8 W (Proc.devRef .tc main_c_75) = ReadP.val_main_c_75 (F := F) := by
  unfold ops8
  refine ⟨?_, ?_, ?_, ?_, ?_, ?_, ?_, ?_, ?_, ?_, ?_, ?_, ?_, ?_, ?_⟩
  · (after_results_simp <;> (try simp only [a0, a1, a2, a3, a4, a5, h_main_v2, h_main_v3, h_main_v4, h_main_v5, h_main_v265, h_main_v406, h_main_v409, h_main_v410]) <;> (first | rfl | assumption))
  · (after_results_simp <;> (try simp only [a0, a1, a2, a3, a4, a5, h_main_v2, h_main_v3, h_main_v4, h_main_v5, h_main_v265, h_main_v406, h_main_v409, h_main_v410]) <;> (first | rfl | assumption))
  · (after_results_simp <;> (try simp only [a0, a1, a2, a3, a4, a5, h_main_v2, h_main_v3, h_main_v4, h_main_v5, h_main_v265, h_main_v406, h_main_v409, h_main_v410]) <;> (first | rfl | assumption))
  · (after_results_simp <;> (try simp only [a0, a1, a2, a3, a4, a5, h_main_v2, h_main_v3, h_main_v4, h_main_v5, h_main_v265, h_main_v406, h_main_v409, h_main_v410]) <;> (first | rfl | assumption))
  · (after_results_simp <;> (try simp only [a0, a1, a2, a3, a4, a5, h_main_v2, h_main_v3, h_main_v4, h_main_v5, h_main_v265, h_main_v406, h_main_v409, h_main_v410]) <;> (first | rfl | assumption))
  · (after_results_simp <;> (try simp only [a0, a1, a2, a3, a4, a5, h_main_v2, h_main_v3, h_main_v4, h_main_v5, h_main_v265, h_main_v406, h_main_v409, h_main_v410]) <;> (first | rfl | assumption))
  · (after_results_simp <;> (try simp only [a0, a1, a2, a3, a4, a5, h_main_v2, h_main_v3, h_main_v4, h_main_v5, h_main_v265, h_main_v406, h_main_v409, h_main_v410]) <;> (first | rfl | assumption))
  · (after_results_simp <;> (try simp only [a0, a1, a2, a3, a4, a5, h_main_v2, h_main_v3, h_main_v4, h_main_v5, h_main_v265, h_main_v406, h_main_v409, h_main_v410]) <;> (first | rfl | assumption))
  · (after_results_simp <;> (try simp only [a0, a1, a2, a3, a4, a5, h_main_v2, h_main_v3, h_main_v4, h_main_v5, h_main_v265, h_main_v406, h_main_v409, h_main_v410]) <;> (first | rfl | assumption))
  · (after_results_simp <;> (try simp only [a0, a1, a2, a3, a4, a5, h_main_v2, h_main_v3, h_main_v4, h_main_v5, h_main_v265, h_main_v406, h_main_v409, h_main_v410]) <;> (first | rfl | assumption))
  · (after_results_simp <;> (try simp only [a0, a1, a2, a3, a4, a5, h_main_v2, h_main_v3, h_main_v4, h_main_v5, h_main_v265, h_main_v406, h_main_v409, h_main_v410]) <;> (first | rfl | assumption))
  · (after_results_simp <;> (try simp only [a0, a1, a2, a3, a4, a5, h_main_v2, h_main_v3, h_main_v4, h_main_v5, h_main_v265, h_main_v406, h_main_v409, h_main_v410]) <;> (first | rfl | assumption))
  · (after_results_simp <;> (try simp only [a0, a1, a2, a3, a4, a5, h_main_v2, h_main_v3, h_main_v4, h_main_v5, h_main_v265, h_main_v406, h_main_v409, h_main_v410]) <;> (first | rfl | assumption))
  · (after_results_simp <;> (try simp only [a0, a1, a2, a3, a4, a5, h_main_v2, h_main_v3, h_main_v4, h_main_v5, h_main_v265, h_main_v406, h_main_v409, h_main_v410]) <;> (first | rfl | assumption))
  · (after_results_simp <;> (try simp only [a0, a1, a2, a3, a4, a5, h_main_v2, h_main_v3, h_main_v4, h_main_v5, h_main_v265, h_main_v406, h_main_v409, h_main_v410]) <;> (first | rfl | assumption))

end Cert.ReferenceIdeal.RunH

end
-- ==== Proof.RefRun9.lean ====
/- The reference program's @main, statements 541 … 600 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops9 : List (HloOp τ sig (Elt F)) :=
  [ unary main_c_75 main_v462 (broadcastInDim S64 ![] bcast_S_S64 : (⟨S_, .i32⟩ : BufTy).Contents (Elt F) → (⟨S64, .i32⟩ : BufTy).Contents (Elt F)),
    binary main_v5 main_v462 main_v463 (addi : (⟨S64, .i32⟩ : BufTy).Contents (Elt F) → (⟨S64, .i32⟩ : BufTy).Contents (Elt F) → (⟨S64, .i32⟩ : BufTy).Contents (Elt F)),
    nullary main_c_76 (constantI S_ 32 64#32),
    unary main_c_76 main_v464 (broadcastInDim S64 ![] bcast_S_S64 : (⟨S_, .i32⟩ : BufTy).Contents (Elt F) → (⟨S64, .i32⟩ : BufTy).Contents (Elt F)),
    binary main_v463 main_v464 main_v465 (cmpi .slt : (⟨S64, .i32⟩ : BufTy).Contents (Elt F) → (⟨S64, .i32⟩ : BufTy).Contents (Elt F) → (⟨S64, .i1⟩ : BufTy).Contents (Elt F)),
    binary main_v461 main_v465 main_v466 (andi : (⟨S64, .i1⟩ : BufTy).Contents (Elt F) → (⟨S64, .i1⟩ : BufTy).Contents (Elt F) → (⟨S64, .i1⟩ : BufTy).Contents (Elt F)),
    unary main_v265 main_v467 (broadcastInDim S64x1 ![0] bcast_S64_S64x1_0 : (⟨S64, .i1⟩ : BufTy).Contents (Elt F) → (⟨S64x1, .i1⟩ : BufTy).Contents (Elt F)),
    unary main_v466 main_v468 (broadcastInDim S1x64 ![1] bcast_S64_S1x64_1 : (⟨S64, .i1⟩ : BufTy).Contents (Elt F) → (⟨S1x64, .i1⟩ : BufTy).Contents (Elt F)),
    unary main_v467 main_v469 (broadcastInDim S64x64 ![0, 1] bcast_S64x1_S64x64_0_1 : (⟨S64x1, .i1⟩ : BufTy).Contents (Elt F) → (⟨S64x64, .i1⟩ : BufTy).Contents (Elt F)),
    unary main_v468 main_v470 (broadcastInDim S64x64 ![0, 1] bcast_S1x64_S64x64_0_1 : (⟨S1x64, .i1⟩ : BufTy).Contents (Elt F) → (⟨S64x64, .i1⟩ : BufTy).Contents (Elt F)),
    binary main_v469 main_v470 main_v471 (andi : (⟨S64x64, .i1⟩ : BufTy).Contents (Elt F) → (⟨S64x64, .i1⟩ : BufTy).Contents (Elt F) → (⟨S64x64, .i1⟩ : BufTy).Contents (Elt F)),
    unary main_v471 main_v472 (uitofp .f32 : (⟨S64x64, .i1⟩ : BufTy).Contents (Elt F) → (⟨S64x64, .f32⟩ : BufTy).Contents (Elt F)),
    unary main_arg1 main_v473 ((extractStridedSlice S1 ![1] · slices_S5_S1_1) : (⟨S5, .f32⟩ : BufTy).Contents (Elt F) → (⟨S1, .f32⟩ : BufTy).Contents (Elt F)),
    reshape main_v473 main_v474 rfl shapeCasts_S1_S_,
    nullary main_c_77 (constantI S_ 32 4294967295#32),
    unary main_c_77 main_v475 (broadcastInDim S64 ![] bcast_S_S64 : (⟨S_, .i32⟩ : BufTy).Contents (Elt F) → (⟨S64, .i32⟩ : BufTy).Contents (Elt F)),
    binary main_v475 main_v4 main_v476 (subi : (⟨S64, .i32⟩ : BufTy).Contents (Elt F) → (⟨S64, .i32⟩ : BufTy).Contents (Elt F) → (⟨S64, .i32⟩ : BufTy).Contents (Elt F)),
    unary main_v476 main_v477 (broadcastInDim S64x1 ![0] bcast_S64_S64x1_0 : (⟨S64, .i32⟩ : BufTy).Contents (Elt F) → (⟨S64x1, .i32⟩ : BufTy).Contents (Elt F)),
    unary main_v477 main_v478 (sitofp .f32 : (⟨S64x1, .i32⟩ : BufTy).Contents (Elt F) → (⟨S64x1, .f32⟩ : BufTy).Contents (Elt F)),
    unary main_v474 main_v479 (broadcastInDim S64x1 ![] bcast_S_S64x1 : (⟨S_, .f32⟩ : BufTy).Contents (Elt F) → (⟨S64x1, .f32⟩ : BufTy).Contents (Elt F)),
    binary main_v479 main_v478 main_v480 (mulf : (⟨S64x1, .f32⟩ : BufTy).Contents (Elt F) → (⟨S64x1, .f32⟩ : BufTy).Contents (Elt F) → (⟨S64x1, .f32⟩ : BufTy).Contents (Elt F)),
    unary main_arg2 main_v481 ((extractStridedSlice S1 ![4] · slices_S5_S1_4) : (⟨S5, .f32⟩ : BufTy).Contents (Elt F) → (⟨S1, .f32⟩ : BufTy).Contents (Elt F)),
    reshape main_v481 main_v482 rfl shapeCasts_S1_S_,
    nullary main_c_78 (constantI S_ 32 2#32),
    unary main_c_78 main_v483 (broadcastInDim S64 ![] bcast_S_S64 : (⟨S_, .i32⟩ : BufTy).Contents (Elt F) → (⟨S64, .i32⟩ : BufTy).Contents (Elt F)),
    binary main_v483 main_v5 main_v484 (subi : (⟨S64, .i32⟩ : BufTy).Contents (Elt F) → (⟨S64, .i32⟩ : BufTy).Contents (Elt F) → (⟨S64, .i32⟩ : BufTy).Contents (Elt F)),
    unary main_v484 main_v485 (broadcastInDim S1x64 ![1] bcast_S64_S1x64_1 : (⟨S64, .i32⟩ : BufTy).Contents (Elt F) → (⟨S1x64, .i32⟩ : BufTy).Contents (Elt F)),
    unary main_v485 main_v486 (sitofp .f32 : (⟨S1x64, .i32⟩ : BufTy).Contents (Elt F) → (⟨S1x64, .f32⟩ : BufTy).Contents (Elt F)),
    unary main_v482 main_v487 (broadcastInDim S1x64 ![] bcast_S_S1x64 : (⟨S_, .f32⟩ : BufTy).Contents (Elt F) → (⟨S1x64, .f32⟩ : BufTy).Contents (Elt F)),
    binary main_v487 main_v486 main_v488 (mulf : (⟨S1x64, .f32⟩ : BufTy).Contents (Elt F) → (⟨S1x64, .f32⟩ : BufTy).Contents (Elt F) → (⟨S1x64, .f32⟩ : BufTy).Contents (Elt F)),
    unary main_v480 main_v489 (broadcastInDim S64x64 ![0, 1] bcast_S64x1_S64x64_0_1 : (⟨S64x1, .f32⟩ : BufTy).Contents (Elt F) → (⟨S64x64, .f32⟩ : BufTy).Contents (Elt F)),
    unary main_v488 main_v490 (broadcastInDim S64x64 ![0, 1] bcast_S1x64_S64x64_0_1 : (⟨S1x64, .f32⟩ : BufTy).Contents (Elt F) → (⟨S64x64, .f32⟩ : BufTy).Contents (Elt F)),
    binary main_v489 main_v490 main_v491 (addf : (⟨S64x64, .f32⟩ : BufTy).Contents (Elt F) → (⟨S64x64, .f32⟩ : BufTy).Contents (Elt F) → (⟨S64x64, .f32⟩ : BufTy).Contents (Elt F)),
    unary main_v2 main_v492 ((extractStridedSlice S16x64x64x256 ![0, 1, 4, 0] · slices_S16x68x68x256_S16x64x64x256_0_1_4_0) : (⟨S16x68x68x256, .f32⟩ : BufTy).Contents (Elt F) → (⟨S16x64x64x256, .f32⟩ : BufTy).Contents (Elt F)),
    unary main_v3 main_v493 ((extractStridedSlice S16x64x64x256 ![0, 1, 4, 0] · slices_S16x68x68x256_S16x64x64x256_0_1_4_0) : (⟨S16x68x68x256, .f32⟩ : BufTy).Contents (Elt F) → (⟨S16x64x64x256, .f32⟩ : BufTy).Contents (Elt F)),
    unary main_v491 main_v494 (broadcastInDim S1x64x64x1 ![1, 2] bcast_S64x64_S1x64x64x1_1_2 : (⟨S64x64, .f32⟩ : BufTy).Contents (Elt F) → (⟨S1x64x64x1, .f32⟩ : BufTy).Contents (Elt F)),
    unary main_v494 main_v495 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v495 main_v492 main_v496 (addf : (⟨S16x64x64x256, .f32⟩ : BufTy).Contents (Elt F) → (⟨S16x64x64x256, .f32⟩ : BufTy).Contents (Elt F) → (⟨S16x64x64x256, .f32⟩ : BufTy).Contents (Elt F)),
    unary main_v496 main_v497 (Host.exp : (⟨S16x64x64x256, .f32⟩ : BufTy).Contents (Elt F) → (⟨S16x64x64x256, .f32⟩ : BufTy).Contents (Elt F)),
    unary main_v472 main_v498 (broadcastInDim S1x64x64x1 ![1, 2] bcast_S64x64_S1x64x64x1_1_2 : (⟨S64x64, .f32⟩ : BufTy).Contents (Elt F) → (⟨S1x64x64x1, .f32⟩ : BufTy).Contents (Elt F)),
    unary main_v498 main_v499 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v497 main_v499 main_v500 (mulf : (⟨S16x64x64x256, .f32⟩ : BufTy).Contents (Elt F) → (⟨S16x64x64x256, .f32⟩ : BufTy).Contents (Elt F) → (⟨S16x64x64x256, .f32⟩ : BufTy).Contents (Elt F)),
    binary main_v500 main_v493 main_v501 (mulf : (⟨S16x64x64x256, .f32⟩ : BufTy).Contents (Elt F) → (⟨S16x64x64x256, .f32⟩ : BufTy).Contents (Elt F) → (⟨S16x64x64x256, .f32⟩ : BufTy).Contents (Elt F)),
    binary main_v454 main_v501 main_v502 (addf : (⟨S16x64x64x256, .f32⟩ : BufTy).Contents (Elt F) → (⟨S16x64x64x256, .f32⟩ : BufTy).Contents (Elt F) → (⟨S16x64x64x256, .f32⟩ : BufTy).Contents (Elt F)),
    nullary main_cst_79 (constant S_ .f32 0x00000000#32),
    binary main_v500 main_cst_79 main_v503 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v503 main_v504 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v457 main_v504 main_v505 (addf : (⟨S16x64x64x1, .f32⟩ : BufTy).Contents (Elt F) → (⟨S16x64x64x1, .f32⟩ : BufTy).Contents (Elt F) → (⟨S16x64x64x1, .f32⟩ : BufTy).Contents (Elt F)),
    nullary main_c_80 (constantI S_ 32 0#32),
    unary main_c_80 main_v506 (broadcastInDim S64 ![] bcast_S_S64 : (⟨S_, .i32⟩ : BufTy).Contents (Elt F) → (⟨S64, .i32⟩ : BufTy).Contents (Elt F)),
    binary main_v4 main_v506 main_v507 (addi : (⟨S64, .i32⟩ : BufTy).Contents (Elt F) → (⟨S64, .i32⟩ : BufTy).Contents (Elt F) → (⟨S64, .i32⟩ : BufTy).Contents (Elt F)),
    nullary main_c_81 (constantI S_ 32 0#32),
    unary main_c_81 main_v508 (broadcastInDim S64 ![] bcast_S_S64 : (⟨S_, .i32⟩ : BufTy).Contents (Elt F) → (⟨S64, .i32⟩ : BufTy).Contents (Elt F)),
    binary main_v507 main_v508 main_v509 (cmpi .sge : (⟨S64, .i32⟩ : BufTy).Contents (Elt F) → (⟨S64, .i32⟩ : BufTy).Contents (Elt F) → (⟨S64, .i1⟩ : BufTy).Contents (Elt F)),
    nullary main_c_82 (constantI S_ 32 0#32),
    unary main_c_82 main_v510 (broadcastInDim S64 ![] bcast_S_S64 : (⟨S_, .i32⟩ : BufTy).Contents (Elt F) → (⟨S64, .i32⟩ : BufTy).Contents (Elt F)),
    binary main_v4 main_v510 main_v511 (addi : (⟨S64, .i32⟩ : BufTy).Contents (Elt F) → (⟨S64, .i32⟩ : BufTy).Contents (Elt F) → (⟨S64, .i32⟩ : BufTy).Contents (Elt F)),
    nullary main_c_83 (constantI S_ 32 64#32),
    unary main_c_83 main_v512 (broadcastInDim S64 ![] bcast_S_S64 : (⟨S_, .i32⟩ : BufTy).Contents (Elt F) → (⟨S64, .i32⟩ : BufTy).Contents (Elt F)),
    binary main_v511 main_v512 main_v513 (cmpi .slt : (⟨S64, .i32⟩ : BufTy).Contents (Elt F) → (⟨S64, .i32⟩ : BufTy).Contents (Elt F) → (⟨S64, .i1⟩ : BufTy).Contents (Elt F)) ]

set_option maxRecDepth 8192 in
set_option maxHeartbeats 4000000 in
theorem part9_eq (d : Dev nD) : main_part9 (F := F) d = seq ops9 := rfl

set_option maxRecDepth 8192 in
theorem ops9_sub : (ops9 : List (HloOp τ sig (Elt F))).Forall fun op => op.bufs ⊆ tcRefs τ sig := by
  unfold ops9
  exact ⟨unary_bufs_sub .., binary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩

set_option maxRecDepth 8192 in
theorem ops9_fresh : ∀ op ∈ (ops9 : List (HloOp τ sig (Elt F))), op.fresh = ∅ := by
  unfold ops9
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value9 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v265 : W (Proc.devRef .tc main_v265) = ReadP.val_main_v265 (F := F))
    (h_main_v454 : W (Proc.devRef .tc main_v454) = ReadP.val_main_v454 (F := F) x0 x1 x2 x3 x4)
    (h_main_v457 : W (Proc.devRef .tc main_v457) = ReadP.val_main_v457 (F := F) x0 x1 x2 x3)
    (h_main_v461 : W (Proc.devRef .tc main_v461) = ReadP.val_main_v461 (F := F))
    (h_main_c_75 : W (Proc.devRef .tc main_c_75) = ReadP.val_main_c_75 (F := F)) :
    after ops9 W (Proc.devRef .tc main_arg0) = x0 ∧
    after ops9 W (Proc.devRef .tc main_arg1) = x1 ∧
    after ops9 W (Proc.devRef .tc main_arg2) = x2 ∧
    after ops9 W (Proc.devRef .tc main_arg3) = x3 ∧
    after ops9 W (Proc.devRef .tc main_arg4) = x4 ∧
    after ops9 W (Proc.devRef .tc main_arg5) = x5 ∧
    after ops9 W (Proc.devRef .tc main_v2) = ReadP.val_main_v2 (F := F) x0 x3 ∧
    after ops9 W (Proc.devRef .tc main_v3) = ReadP.val_main_v3 (F := F) x0 x4 ∧
    after ops9 W (Proc.devRef .tc main_v4) = ReadP.val_main_v4 (F := F) ∧
    after ops9 W (Proc.devRef .tc main_v5) = ReadP.val_main_v5 (F := F) ∧
    after ops9 W (Proc.devRef .tc main_v502) = ReadP.val_main_v502 (F := F) x0 x1 x2 x3 x4 ∧
    after ops9 W (Proc.devRef .tc main_v505) = ReadP.val_main_v505 (F := F) x0 x1 x2 x3 ∧
    after ops9 W (Proc.devRef .tc main_v509) = ReadP.val_main_v509 (F := F) ∧
    after ops9 W (Proc.devRef .tc main_v513) = ReadP.val_main_v513 (F := F) := by
  unfold ops9
  refine ⟨?_, ?_, ?_, ?_, ?_, ?_, ?_, ?_, ?_, ?_, ?_, ?_, ?_, ?_⟩
  · (after_results_simp <;> (try simp only [a0, a1, a2, a3, a4, a5, h_main_v2, h_main_v3, h_main_v4, h_main_v5, h_main_v265, h_main_v454, h_main_v457, h_main_v461, h_main_c_75]) <;> (first | rfl | assumption))
  · (after_results_simp <;> (try simp only [a0, a1, a2, a3, a4, a5, h_main_v2, h_main_v3, h_main_v4, h_main_v5, h_main_v265, h_main_v454, h_main_v457, h_main_v461, h_main_c_75]) <;> (first | rfl | assumption))
  · (after_results_simp <;> (try simp only [a0, a1, a2, a3, a4, a5, h_main_v2, h_main_v3, h_main_v4, h_main_v5, h_main_v265, h_main_v454, h_main_v457, h_main_v461, h_main_c_75]) <;> (first | rfl | assumption))
  · (after_results_simp <;> (try simp only [a0, a1, a2, a3, a4, a5, h_main_v2, h_main_v3, h_main_v4, h_main_v5, h_main_v265, h_main_v454, h_main_v457, h_main_v461, h_main_c_75]) <;> (first | rfl | assumption))
  · (after_results_simp <;> (try simp only [a0, a1, a2, a3, a4, a5, h_main_v2, h_main_v3, h_main_v4, h_main_v5, h_main_v265, h_main_v454, h_main_v457, h_main_v461, h_main_c_75]) <;> (first | rfl | assumption))
  · (after_results_simp <;> (try simp only [a0, a1, a2, a3, a4, a5, h_main_v2, h_main_v3, h_main_v4, h_main_v5, h_main_v265, h_main_v454, h_main_v457, h_main_v461, h_main_c_75]) <;> (first | rfl | assumption))
  · (after_results_simp <;> (try simp only [a0, a1, a2, a3, a4, a5, h_main_v2, h_main_v3, h_main_v4, h_main_v5, h_main_v265, h_main_v454, h_main_v457, h_main_v461, h_main_c_75]) <;> (first | rfl | assumption))
  · (after_results_simp <;> (try simp only [a0, a1, a2, a3, a4, a5, h_main_v2, h_main_v3, h_main_v4, h_main_v5, h_main_v265, h_main_v454, h_main_v457, h_main_v461, h_main_c_75]) <;> (first | rfl | assumption))
  · (after_results_simp <;> (try simp only [a0, a1, a2, a3, a4, a5, h_main_v2, h_main_v3, h_main_v4, h_main_v5, h_main_v265, h_main_v454, h_main_v457, h_main_v461, h_main_c_75]) <;> (first | rfl | assumption))
  · (after_results_simp <;> (try simp only [a0, a1, a2, a3, a4, a5, h_main_v2, h_main_v3, h_main_v4, h_main_v5, h_main_v265, h_main_v454, h_main_v457, h_main_v461, h_main_c_75]) <;> (first | rfl | assumption))
  · (after_results_simp <;> (try simp only [a0, a1, a2, a3, a4, a5, h_main_v2, h_main_v3, h_main_v4, h_main_v5, h_main_v265, h_main_v454, h_main_v457, h_main_v461, h_main_c_75]) <;> (first | rfl | assumption))
  · (after_results_simp <;> (try simp only [a0, a1, a2, a3, a4, a5, h_main_v2, h_main_v3, h_main_v4, h_main_v5, h_main_v265, h_main_v454, h_main_v457, h_main_v461, h_main_c_75]) <;> (first | rfl | assumption))
  · (after_results_simp <;> (try simp only [a0, a1, a2, a3, a4, a5, h_main_v2, h_main_v3, h_main_v4, h_main_v5, h_main_v265, h_main_v454, h_main_v457, h_main_v461, h_main_c_75]) <;> (first | rfl | assumption))
  · (after_results_simp <;> (try simp only [a0, a1, a2, a3, a4, a5, h_main_v2, h_main_v3, h_main_v4, h_main_v5, h_main_v265, h_main_v454, h_main_v457, h_main_v461, h_main_c_75]) <;> (first | rfl | assumption))

end Cert.ReferenceIdeal.RunH

end
-- ==== Proof.RefRun10.lean ====
/- The reference program's @main, statements 601 … 660 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops10 : List (HloOp τ sig (Elt F)) :=
  [ binary main_v509 main_v513 main_v514 (andi : (⟨S64, .i1⟩ : BufTy).Contents (Elt F) → (⟨S64, .i1⟩ : BufTy).Contents (Elt F) → (⟨S64, .i1⟩ : BufTy).Contents (Elt F)),
    nullary main_c_84 (constantI S_ 32 4294967294#32),
    unary main_c_84 main_v515 (broadcastInDim S64 ![] bcast_S_S64 : (⟨S_, .i32⟩ : BufTy).Contents (Elt F) → (⟨S64, .i32⟩ : BufTy).Contents (Elt F)),
    binary main_v5 main_v515 main_v516 (addi : (⟨S64, .i32⟩ : BufTy).Contents (Elt F) → (⟨S64, .i32⟩ : BufTy).Contents (Elt F) → (⟨S64, .i32⟩ : BufTy).Contents (Elt F)),
    nullary main_c_85 (constantI S_ 32 0#32),
    unary main_c_85 main_v517 (broadcastInDim S64 ![] bcast_S_S64 : (⟨S_, .i32⟩ : BufTy).Contents (Elt F) → (⟨S64, .i32⟩ : BufTy).Contents (Elt F)),
    binary main_v516 main_v517 main_v518 (cmpi .sge : (⟨S64, .i32⟩ : BufTy).Contents (Elt F) → (⟨S64, .i32⟩ : BufTy).Contents (Elt F) → (⟨S64, .i1⟩ : BufTy).Contents (Elt F)),
    nullary main_c_86 (constantI S_ 32 4294967294#32),
    unary main_c_86 main_v519 (broadcastInDim S64 ![] bcast_S_S64 : (⟨S_, .i32⟩ : BufTy).Contents (Elt F) → (⟨S64, .i32⟩ : BufTy).Contents (Elt F)),
    binary main_v5 main_v519 main_v520 (addi : (⟨S64, .i32⟩ : BufTy).Contents (Elt F) → (⟨S64, .i32⟩ : BufTy).Contents (Elt F) → (⟨S64, .i32⟩ : BufTy).Contents (Elt F)),
    nullary main_c_87 (constantI S_ 32 64#32),
    unary main_c_87 main_v521 (broadcastInDim S64 ![] bcast_S_S64 : (⟨S_, .i32⟩ : BufTy).Contents (Elt F) → (⟨S64, .i32⟩ : BufTy).Contents (Elt F)),
    binary main_v520 main_v521 main_v522 (cmpi .slt : (⟨S64, .i32⟩ : BufTy).Contents (Elt F) → (⟨S64, .i32⟩ : BufTy).Contents (Elt F) → (⟨S64, .i1⟩ : BufTy).Contents (Elt F)),
    binary main_v518 main_v522 main_v523 (andi : (⟨S64, .i1⟩ : BufTy).Contents (Elt F) → (⟨S64, .i1⟩ : BufTy).Contents (Elt F) → (⟨S64, .i1⟩ : BufTy).Contents (Elt F)),
    unary main_v514 main_v524 (broadcastInDim S64x1 ![0] bcast_S64_S64x1_0 : (⟨S64, .i1⟩ : BufTy).Contents (Elt F) → (⟨S64x1, .i1⟩ : BufTy).Contents (Elt F)),
    unary main_v523 main_v525 (broadcastInDim S1x64 ![1] bcast_S64_S1x64_1 : (⟨S64, .i1⟩ : BufTy).Contents (Elt F) → (⟨S1x64, .i1⟩ : BufTy).Contents (Elt F)),
    unary main_v524 main_v526 (broadcastInDim S64x64 ![0, 1] bcast_S64x1_S64x64_0_1 : (⟨S64x1, .i1⟩ : BufTy).Contents (Elt F) → (⟨S64x64, .i1⟩ : BufTy).Contents (Elt F)),
    unary main_v525 main_v527 (broadcastInDim S64x64 ![0, 1] bcast_S1x64_S64x64_0_1 : (⟨S1x64, .i1⟩ : BufTy).Contents (Elt F) → (⟨S64x64, .i1⟩ : BufTy).Contents (Elt F)),
    binary main_v526 main_v527 main_v528 (andi : (⟨S64x64, .i1⟩ : BufTy).Contents (Elt F) → (⟨S64x64, .i1⟩ : BufTy).Contents (Elt F) → (⟨S64x64, .i1⟩ : BufTy).Contents (Elt F)),
    unary main_v528 main_v529 (uitofp .f32 : (⟨S64x64, .i1⟩ : BufTy).Contents (Elt F) → (⟨S64x64, .f32⟩ : BufTy).Contents (Elt F)),
    unary main_arg1 main_v530 ((extractStridedSlice S1 ![2] · slices_S5_S1_2) : (⟨S5, .f32⟩ : BufTy).Contents (Elt F) → (⟨S1, .f32⟩ : BufTy).Contents (Elt F)),
    reshape main_v530 main_v531 rfl shapeCasts_S1_S_,
    nullary main_c_88 (constantI S_ 32 0#32),
    unary main_c_88 main_v532 (broadcastInDim S64 ![] bcast_S_S64 : (⟨S_, .i32⟩ : BufTy).Contents (Elt F) → (⟨S64, .i32⟩ : BufTy).Contents (Elt F)),
    binary main_v532 main_v4 main_v533 (subi : (⟨S64, .i32⟩ : BufTy).Contents (Elt F) → (⟨S64, .i32⟩ : BufTy).Contents (Elt F) → (⟨S64, .i32⟩ : BufTy).Contents (Elt F)),
    unary main_v533 main_v534 (broadcastInDim S64x1 ![0] bcast_S64_S64x1_0 : (⟨S64, .i32⟩ : BufTy).Contents (Elt F) → (⟨S64x1, .i32⟩ : BufTy).Contents (Elt F)),
    unary main_v534 main_v535 (sitofp .f32 : (⟨S64x1, .i32⟩ : BufTy).Contents (Elt F) → (⟨S64x1, .f32⟩ : BufTy).Contents (Elt F)),
    unary main_v531 main_v536 (broadcastInDim S64x1 ![] bcast_S_S64x1 : (⟨S_, .f32⟩ : BufTy).Contents (Elt F) → (⟨S64x1, .f32⟩ : BufTy).Contents (Elt F)),
    binary main_v536 main_v535 main_v537 (mulf : (⟨S64x1, .f32⟩ : BufTy).Contents (Elt F) → (⟨S64x1, .f32⟩ : BufTy).Contents (Elt F) → (⟨S64x1, .f32⟩ : BufTy).Contents (Elt F)),
    unary main_arg2 main_v538 ((extractStridedSlice S1 ![0] · slices_S5_S1_0) : (⟨S5, .f32⟩ : BufTy).Contents (Elt F) → (⟨S1, .f32⟩ : BufTy).Contents (Elt F)),
    reshape main_v538 main_v539 rfl shapeCasts_S1_S_,
    nullary main_c_89 (constantI S_ 32 4294967294#32),
    unary main_c_89 main_v540 (broadcastInDim S64 ![] bcast_S_S64 : (⟨S_, .i32⟩ : BufTy).Contents (Elt F) → (⟨S64, .i32⟩ : BufTy).Contents (Elt F)),
    binary main_v540 main_v5 main_v541 (subi : (⟨S64, .i32⟩ : BufTy).Contents (Elt F) → (⟨S64, .i32⟩ : BufTy).Contents (Elt F) → (⟨S64, .i32⟩ : BufTy).Contents (Elt F)),
    unary main_v541 main_v542 (broadcastInDim S1x64 ![1] bcast_S64_S1x64_1 : (⟨S64, .i32⟩ : BufTy).Contents (Elt F) → (⟨S1x64, .i32⟩ : BufTy).Contents (Elt F)),
    unary main_v542 main_v543 (sitofp .f32 : (⟨S1x64, .i32⟩ : BufTy).Contents (Elt F) → (⟨S1x64, .f32⟩ : BufTy).Contents (Elt F)),
    unary main_v539 main_v544 (broadcastInDim S1x64 ![] bcast_S_S1x64 : (⟨S_, .f32⟩ : BufTy).Contents (Elt F) → (⟨S1x64, .f32⟩ : BufTy).Contents (Elt F)),
    binary main_v544 main_v543 main_v545 (mulf : (⟨S1x64, .f32⟩ : BufTy).Contents (Elt F) → (⟨S1x64, .f32⟩ : BufTy).Contents (Elt F) → (⟨S1x64, .f32⟩ : BufTy).Contents (Elt F)),
    unary main_v537 main_v546 (broadcastInDim S64x64 ![0, 1] bcast_S64x1_S64x64_0_1 : (⟨S64x1, .f32⟩ : BufTy).Contents (Elt F) → (⟨S64x64, .f32⟩ : BufTy).Contents (Elt F)),
    unary main_v545 main_v547 (broadcastInDim S64x64 ![0, 1] bcast_S1x64_S64x64_0_1 : (⟨S1x64, .f32⟩ : BufTy).Contents (Elt F) → (⟨S64x64, .f32⟩ : BufTy).Contents (Elt F)),
    binary main_v546 main_v547 main_v548 (addf : (⟨S64x64, .f32⟩ : BufTy).Contents (Elt F) → (⟨S64x64, .f32⟩ : BufTy).Contents (Elt F) → (⟨S64x64, .f32⟩ : BufTy).Contents (Elt F)),
    unary main_v2 main_v549 ((extractStridedSlice S16x64x64x256 ![0, 2, 0, 0] · slices_S16x68x68x256_S16x64x64x256_0_2_0_0) : (⟨S16x68x68x256, .f32⟩ : BufTy).Contents (Elt F) → (⟨S16x64x64x256, .f32⟩ : BufTy).Contents (Elt F)),
    unary main_v3 main_v550 ((extractStridedSlice S16x64x64x256 ![0, 2, 0, 0] · slices_S16x68x68x256_S16x64x64x256_0_2_0_0) : (⟨S16x68x68x256, .f32⟩ : BufTy).Contents (Elt F) → (⟨S16x64x64x256, .f32⟩ : BufTy).Contents (Elt F)),
    unary main_v548 main_v551 (broadcastInDim S1x64x64x1 ![1, 2] bcast_S64x64_S1x64x64x1_1_2 : (⟨S64x64, .f32⟩ : BufTy).Contents (Elt F) → (⟨S1x64x64x1, .f32⟩ : BufTy).Contents (Elt F)),
    unary main_v551 main_v552 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v552 main_v549 main_v553 (addf : (⟨S16x64x64x256, .f32⟩ : BufTy).Contents (Elt F) → (⟨S16x64x64x256, .f32⟩ : BufTy).Contents (Elt F) → (⟨S16x64x64x256, .f32⟩ : BufTy).Contents (Elt F)),
    unary main_v553 main_v554 (Host.exp : (⟨S16x64x64x256, .f32⟩ : BufTy).Contents (Elt F) → (⟨S16x64x64x256, .f32⟩ : BufTy).Contents (Elt F)),
    unary main_v529 main_v555 (broadcastInDim S1x64x64x1 ![1, 2] bcast_S64x64_S1x64x64x1_1_2 : (⟨S64x64, .f32⟩ : BufTy).Contents (Elt F) → (⟨S1x64x64x1, .f32⟩ : BufTy).Contents (Elt F)),
    unary main_v555 main_v556 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v554 main_v556 main_v557 (mulf : (⟨S16x64x64x256, .f32⟩ : BufTy).Contents (Elt F) → (⟨S16x64x64x256, .f32⟩ : BufTy).Contents (Elt F) → (⟨S16x64x64x256, .f32⟩ : BufTy).Contents (Elt F)),
    binary main_v557 main_v550 main_v558 (mulf : (⟨S16x64x64x256, .f32⟩ : BufTy).Contents (Elt F) → (⟨S16x64x64x256, .f32⟩ : BufTy).Contents (Elt F) → (⟨S16x64x64x256, .f32⟩ : BufTy).Contents (Elt F)),
    binary main_v502 main_v558 main_v559 (addf : (⟨S16x64x64x256, .f32⟩ : BufTy).Contents (Elt F) → (⟨S16x64x64x256, .f32⟩ : BufTy).Contents (Elt F) → (⟨S16x64x64x256, .f32⟩ : BufTy).Contents (Elt F)),
    nullary main_cst_90 (constant S_ .f32 0x00000000#32),
    binary main_v557 main_cst_90 main_v560 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v560 main_v561 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v505 main_v561 main_v562 (addf : (⟨S16x64x64x1, .f32⟩ : BufTy).Contents (Elt F) → (⟨S16x64x64x1, .f32⟩ : BufTy).Contents (Elt F) → (⟨S16x64x64x1, .f32⟩ : BufTy).Contents (Elt F)),
    nullary main_c_91 (constantI S_ 32 4294967295#32),
    unary main_c_91 main_v563 (broadcastInDim S64 ![] bcast_S_S64 : (⟨S_, .i32⟩ : BufTy).Contents (Elt F) → (⟨S64, .i32⟩ : BufTy).Contents (Elt F)),
    binary main_v5 main_v563 main_v564 (addi : (⟨S64, .i32⟩ : BufTy).Contents (Elt F) → (⟨S64, .i32⟩ : BufTy).Contents (Elt F) → (⟨S64, .i32⟩ : BufTy).Contents (Elt F)),
    nullary main_c_92 (constantI S_ 32 0#32) ]

set_option maxRecDepth 8192 in
set_option maxHeartbeats 4000000 in
theorem part10_eq (d : Dev nD) : main_part10 (F := F) d = seq ops10 := rfl

set_option maxRecDepth 8192 in
theorem ops10_sub : (ops10 : List (HloOp τ sig (Elt F))).Forall fun op => op.bufs ⊆ tcRefs τ sig := by
  unfold ops10
  exact ⟨binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., nullary_bufs_sub ..⟩

set_option maxRecDepth 8192 in
theorem ops10_fresh : ∀ op ∈ (ops10 : List (HloOp τ sig (Elt F))), op.fresh = ∅ := by
  unfold ops10
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value10 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v502 : W (Proc.devRef .tc main_v502) = ReadP.val_main_v502 (F := F) x0 x1 x2 x3 x4)
    (h_main_v505 : W (Proc.devRef .tc main_v505) = ReadP.val_main_v505 (F := F) x0 x1 x2 x3)
    (h_main_v509 : W (Proc.devRef .tc main_v509) = ReadP.val_main_v509 (F := F))
    (h_main_v513 : W (Proc.devRef .tc main_v513) = ReadP.val_main_v513 (F := F)) :
    after ops10 W (Proc.devRef .tc main_arg0) = x0 ∧
    after ops10 W (Proc.devRef .tc main_arg1) = x1 ∧
    after ops10 W (Proc.devRef .tc main_arg2) = x2 ∧
    after ops10 W (Proc.devRef .tc main_arg3) = x3 ∧
    after ops10 W (Proc.devRef .tc main_arg4) = x4 ∧
    after ops10 W (Proc.devRef .tc main_arg5) = x5 ∧
    after ops10 W (Proc.devRef .tc main_v2) = ReadP.val_main_v2 (F := F) x0 x3 ∧
    after ops10 W (Proc.devRef .tc main_v3) = ReadP.val_main_v3 (F := F) x0 x4 ∧
    after ops10 W (Proc.devRef .tc main_v4) = ReadP.val_main_v4 (F := F) ∧
    after ops10 W (Proc.devRef .tc main_v5) = ReadP.val_main_v5 (F := F) ∧
    after ops10 W (Proc.devRef .tc main_v514) = ReadP.val_main_v514 (F := F) ∧
    after ops10 W (Proc.devRef .tc main_v559) = ReadP.val_main_v559 (F := F) x0 x1 x2 x3 x4 ∧
    after ops10 W (Proc.devRef .tc main_v562) = ReadP.val_main_v562 (F := F) x0 x1 x2 x3 ∧
    after ops10 W (Proc.devRef .tc main_v564) = ReadP.val_main_v564 (F := F) ∧
    after ops10 W (Proc.devRef .tc main_c_92) = ReadP.val_main_c_92 (F := F) := by
  unfold ops10
  refine ⟨?_, ?_, ?_, ?_, ?_, ?_, ?_, ?_, ?_, ?_, ?_, ?_, ?_, ?_, ?_⟩
  · (after_results_simp <;> (try simp only [a0, a1, a2, a3, a4, a5, h_main_v2, h_main_v3, h_main_v4, h_main_v5, h_main_v502, h_main_v505, h_main_v509, h_main_v513]) <;> (first | rfl | assumption))
  · (after_results_simp <;> (try simp only [a0, a1, a2, a3, a4, a5, h_main_v2, h_main_v3, h_main_v4, h_main_v5, h_main_v502, h_main_v505, h_main_v509, h_main_v513]) <;> (first | rfl | assumption))
  · (after_results_simp <;> (try simp only [a0, a1, a2, a3, a4, a5, h_main_v2, h_main_v3, h_main_v4, h_main_v5, h_main_v502, h_main_v505, h_main_v509, h_main_v513]) <;> (first | rfl | assumption))
  · (after_results_simp <;> (try simp only [a0, a1, a2, a3, a4, a5, h_main_v2, h_main_v3, h_main_v4, h_main_v5, h_main_v502, h_main_v505, h_main_v509, h_main_v513]) <;> (first | rfl | assumption))
  · (after_results_simp <;> (try simp only [a0, a1, a2, a3, a4, a5, h_main_v2, h_main_v3, h_main_v4, h_main_v5, h_main_v502, h_main_v505, h_main_v509, h_main_v513]) <;> (first | rfl | assumption))
  · (after_results_simp <;> (try simp only [a0, a1, a2, a3, a4, a5, h_main_v2, h_main_v3, h_main_v4, h_main_v5, h_main_v502, h_main_v505, h_main_v509, h_main_v513]) <;> (first | rfl | assumption))
  · (after_results_simp <;> (try simp only [a0, a1, a2, a3, a4, a5, h_main_v2, h_main_v3, h_main_v4, h_main_v5, h_main_v502, h_main_v505, h_main_v509, h_main_v513]) <;> (first | rfl | assumption))
  · (after_results_simp <;> (try simp only [a0, a1, a2, a3, a4, a5, h_main_v2, h_main_v3, h_main_v4, h_main_v5, h_main_v502, h_main_v505, h_main_v509, h_main_v513]) <;> (first | rfl | assumption))
  · (after_results_simp <;> (try simp only [a0, a1, a2, a3, a4, a5, h_main_v2, h_main_v3, h_main_v4, h_main_v5, h_main_v502, h_main_v505, h_main_v509, h_main_v513]) <;> (first | rfl | assumption))
  · (after_results_simp <;> (try simp only [a0, a1, a2, a3, a4, a5, h_main_v2, h_main_v3, h_main_v4, h_main_v5, h_main_v502, h_main_v505, h_main_v509, h_main_v513]) <;> (first | rfl | assumption))
  · (after_results_simp <;> (try simp only [a0, a1, a2, a3, a4, a5, h_main_v2, h_main_v3, h_main_v4, h_main_v5, h_main_v502, h_main_v505, h_main_v509, h_main_v513]) <;> (first | rfl | assumption))
  · (after_results_simp <;> (try simp only [a0, a1, a2, a3, a4, a5, h_main_v2, h_main_v3, h_main_v4, h_main_v5, h_main_v502, h_main_v505, h_main_v509, h_main_v513]) <;> (first | rfl | assumption))
  · (after_results_simp <;> (try simp only [a0, a1, a2, a3, a4, a5, h_main_v2, h_main_v3, h_main_v4, h_main_v5, h_main_v502, h_main_v505, h_main_v509, h_main_v513]) <;> (first | rfl | assumption))
  · (after_results_simp <;> (try simp only [a0, a1, a2, a3, a4, a5, h_main_v2, h_main_v3, h_main_v4, h_main_v5, h_main_v502, h_main_v505, h_main_v509, h_main_v513]) <;> (first | rfl | assumption))
  · (after_results_simp <;> (try simp only [a0, a1, a2, a3, a4, a5, h_main_v2, h_main_v3, h_main_v4, h_main_v5, h_main_v502, h_main_v505, h_main_v509, h_main_v513]) <;> (first | rfl | assumption))

end Cert.ReferenceIdeal.RunH

end
-- ==== Proof.RefRun11.lean ====
/- The reference program's @main, statements 661 … 720 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops11 : List (HloOp τ sig (Elt F)) :=
  [ unary main_c_92 main_v565 (broadcastInDim S64 ![] bcast_S_S64 : (⟨S_, .i32⟩ : BufTy).Contents (Elt F) → (⟨S64, .i32⟩ : BufTy).Contents (Elt F)),
    binary main_v564 main_v565 main_v566 (cmpi .sge : (⟨S64, .i32⟩ : BufTy).Contents (Elt F) → (⟨S64, .i32⟩ : BufTy).Contents (Elt F) → (⟨S64, .i1⟩ : BufTy).Contents (Elt F)),
    nullary main_c_93 (constantI S_ 32 4294967295#32),
    unary main_c_93 main_v567 (broadcastInDim S64 ![] bcast_S_S64 : (⟨S_, .i32⟩ : BufTy).Contents (Elt F) → (⟨S64, .i32⟩ : BufTy).Contents (Elt F)),
    binary main_v5 main_v567 main_v568 (addi : (⟨S64, .i32⟩ : BufTy).Contents (Elt F) → (⟨S64, .i32⟩ : BufTy).Contents (Elt F) → (⟨S64, .i32⟩ : BufTy).Contents (Elt F)),
    nullary main_c_94 (constantI S_ 32 64#32),
    unary main_c_94 main_v569 (broadcastInDim S64 ![] bcast_S_S64 : (⟨S_, .i32⟩ : BufTy).Contents (Elt F) → (⟨S64, .i32⟩ : BufTy).Contents (Elt F)),
    binary main_v568 main_v569 main_v570 (cmpi .slt : (⟨S64, .i32⟩ : BufTy).Contents (Elt F) → (⟨S64, .i32⟩ : BufTy).Contents (Elt F) → (⟨S64, .i1⟩ : BufTy).Contents (Elt F)),
    binary main_v566 main_v570 main_v571 (andi : (⟨S64, .i1⟩ : BufTy).Contents (Elt F) → (⟨S64, .i1⟩ : BufTy).Contents (Elt F) → (⟨S64, .i1⟩ : BufTy).Contents (Elt F)),
    unary main_v514 main_v572 (broadcastInDim S64x1 ![0] bcast_S64_S64x1_0 : (⟨S64, .i1⟩ : BufTy).Contents (Elt F) → (⟨S64x1, .i1⟩ : BufTy).Contents (Elt F)),
    unary main_v571 main_v573 (broadcastInDim S1x64 ![1] bcast_S64_S1x64_1 : (⟨S64, .i1⟩ : BufTy).Contents (Elt F) → (⟨S1x64, .i1⟩ : BufTy).Contents (Elt F)),
    unary main_v572 main_v574 (broadcastInDim S64x64 ![0, 1] bcast_S64x1_S64x64_0_1 : (⟨S64x1, .i1⟩ : BufTy).Contents (Elt F) → (⟨S64x64, .i1⟩ : BufTy).Contents (Elt F)),
    unary main_v573 main_v575 (broadcastInDim S64x64 ![0, 1] bcast_S1x64_S64x64_0_1 : (⟨S1x64, .i1⟩ : BufTy).Contents (Elt F) → (⟨S64x64, .i1⟩ : BufTy).Contents (Elt F)),
    binary main_v574 main_v575 main_v576 (andi : (⟨S64x64, .i1⟩ : BufTy).Contents (Elt F) → (⟨S64x64, .i1⟩ : BufTy).Contents (Elt F) → (⟨S64x64, .i1⟩ : BufTy).Contents (Elt F)),
    unary main_v576 main_v577 (uitofp .f32 : (⟨S64x64, .i1⟩ : BufTy).Contents (Elt F) → (⟨S64x64, .f32⟩ : BufTy).Contents (Elt F)),
    unary main_arg1 main_v578 ((extractStridedSlice S1 ![2] · slices_S5_S1_2) : (⟨S5, .f32⟩ : BufTy).Contents (Elt F) → (⟨S1, .f32⟩ : BufTy).Contents (Elt F)),
    reshape main_v578 main_v579 rfl shapeCasts_S1_S_,
    nullary main_c_95 (constantI S_ 32 0#32),
    unary main_c_95 main_v580 (broadcastInDim S64 ![] bcast_S_S64 : (⟨S_, .i32⟩ : BufTy).Contents (Elt F) → (⟨S64, .i32⟩ : BufTy).Contents (Elt F)),
    binary main_v580 main_v4 main_v581 (subi : (⟨S64, .i32⟩ : BufTy).Contents (Elt F) → (⟨S64, .i32⟩ : BufTy).Contents (Elt F) → (⟨S64, .i32⟩ : BufTy).Contents (Elt F)),
    unary main_v581 main_v582 (broadcastInDim S64x1 ![0] bcast_S64_S64x1_0 : (⟨S64, .i32⟩ : BufTy).Contents (Elt F) → (⟨S64x1, .i32⟩ : BufTy).Contents (Elt F)),
    unary main_v582 main_v583 (sitofp .f32 : (⟨S64x1, .i32⟩ : BufTy).Contents (Elt F) → (⟨S64x1, .f32⟩ : BufTy).Contents (Elt F)),
    unary main_v579 main_v584 (broadcastInDim S64x1 ![] bcast_S_S64x1 : (⟨S_, .f32⟩ : BufTy).Contents (Elt F) → (⟨S64x1, .f32⟩ : BufTy).Contents (Elt F)),
    binary main_v584 main_v583 main_v585 (mulf : (⟨S64x1, .f32⟩ : BufTy).Contents (Elt F) → (⟨S64x1, .f32⟩ : BufTy).Contents (Elt F) → (⟨S64x1, .f32⟩ : BufTy).Contents (Elt F)),
    unary main_arg2 main_v586 ((extractStridedSlice S1 ![1] · slices_S5_S1_1) : (⟨S5, .f32⟩ : BufTy).Contents (Elt F) → (⟨S1, .f32⟩ : BufTy).Contents (Elt F)),
    reshape main_v586 main_v587 rfl shapeCasts_S1_S_,
    nullary main_c_96 (constantI S_ 32 4294967295#32),
    unary main_c_96 main_v588 (broadcastInDim S64 ![] bcast_S_S64 : (⟨S_, .i32⟩ : BufTy).Contents (Elt F) → (⟨S64, .i32⟩ : BufTy).Contents (Elt F)),
    binary main_v588 main_v5 main_v589 (subi : (⟨S64, .i32⟩ : BufTy).Contents (Elt F) → (⟨S64, .i32⟩ : BufTy).Contents (Elt F) → (⟨S64, .i32⟩ : BufTy).Contents (Elt F)),
    unary main_v589 main_v590 (broadcastInDim S1x64 ![1] bcast_S64_S1x64_1 : (⟨S64, .i32⟩ : BufTy).Contents (Elt F) → (⟨S1x64, .i32⟩ : BufTy).Contents (Elt F)),
    unary main_v590 main_v591 (sitofp .f32 : (⟨S1x64, .i32⟩ : BufTy).Contents (Elt F) → (⟨S1x64, .f32⟩ : BufTy).Contents (Elt F)),
    unary main_v587 main_v592 (broadcastInDim S1x64 ![] bcast_S_S1x64 : (⟨S_, .f32⟩ : BufTy).Contents (Elt F) → (⟨S1x64, .f32⟩ : BufTy).Contents (Elt F)),
    binary main_v592 main_v591 main_v593 (mulf : (⟨S1x64, .f32⟩ : BufTy).Contents (Elt F) → (⟨S1x64, .f32⟩ : BufTy).Contents (Elt F) → (⟨S1x64, .f32⟩ : BufTy).Contents (Elt F)),
    unary main_v585 main_v594 (broadcastInDim S64x64 ![0, 1] bcast_S64x1_S64x64_0_1 : (⟨S64x1, .f32⟩ : BufTy).Contents (Elt F) → (⟨S64x64, .f32⟩ : BufTy).Contents (Elt F)),
    unary main_v593 main_v595 (broadcastInDim S64x64 ![0, 1] bcast_S1x64_S64x64_0_1 : (⟨S1x64, .f32⟩ : BufTy).Contents (Elt F) → (⟨S64x64, .f32⟩ : BufTy).Contents (Elt F)),
    binary main_v594 main_v595 main_v596 (addf : (⟨S64x64, .f32⟩ : BufTy).Contents (Elt F) → (⟨S64x64, .f32⟩ : BufTy).Contents (Elt F) → (⟨S64x64, .f32⟩ : BufTy).Contents (Elt F)),
    unary main_v2 main_v597 ((extractStridedSlice S16x64x64x256 ![0, 2, 1, 0] · slices_S16x68x68x256_S16x64x64x256_0_2_1_0) : (⟨S16x68x68x256, .f32⟩ : BufTy).Contents (Elt F) → (⟨S16x64x64x256, .f32⟩ : BufTy).Contents (Elt F)),
    unary main_v3 main_v598 ((extractStridedSlice S16x64x64x256 ![0, 2, 1, 0] · slices_S16x68x68x256_S16x64x64x256_0_2_1_0) : (⟨S16x68x68x256, .f32⟩ : BufTy).Contents (Elt F) → (⟨S16x64x64x256, .f32⟩ : BufTy).Contents (Elt F)),
    unary main_v596 main_v599 (broadcastInDim S1x64x64x1 ![1, 2] bcast_S64x64_S1x64x64x1_1_2 : (⟨S64x64, .f32⟩ : BufTy).Contents (Elt F) → (⟨S1x64x64x1, .f32⟩ : BufTy).Contents (Elt F)),
    unary main_v599 main_v600 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v600 main_v597 main_v601 (addf : (⟨S16x64x64x256, .f32⟩ : BufTy).Contents (Elt F) → (⟨S16x64x64x256, .f32⟩ : BufTy).Contents (Elt F) → (⟨S16x64x64x256, .f32⟩ : BufTy).Contents (Elt F)),
    unary main_v601 main_v602 (Host.exp : (⟨S16x64x64x256, .f32⟩ : BufTy).Contents (Elt F) → (⟨S16x64x64x256, .f32⟩ : BufTy).Contents (Elt F)),
    unary main_v577 main_v603 (broadcastInDim S1x64x64x1 ![1, 2] bcast_S64x64_S1x64x64x1_1_2 : (⟨S64x64, .f32⟩ : BufTy).Contents (Elt F) → (⟨S1x64x64x1, .f32⟩ : BufTy).Contents (Elt F)),
    unary main_v603 main_v604 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v602 main_v604 main_v605 (mulf : (⟨S16x64x64x256, .f32⟩ : BufTy).Contents (Elt F) → (⟨S16x64x64x256, .f32⟩ : BufTy).Contents (Elt F) → (⟨S16x64x64x256, .f32⟩ : BufTy).Contents (Elt F)),
    binary main_v605 main_v598 main_v606 (mulf : (⟨S16x64x64x256, .f32⟩ : BufTy).Contents (Elt F) → (⟨S16x64x64x256, .f32⟩ : BufTy).Contents (Elt F) → (⟨S16x64x64x256, .f32⟩ : BufTy).Contents (Elt F)),
    binary main_v559 main_v606 main_v607 (addf : (⟨S16x64x64x256, .f32⟩ : BufTy).Contents (Elt F) → (⟨S16x64x64x256, .f32⟩ : BufTy).Contents (Elt F) → (⟨S16x64x64x256, .f32⟩ : BufTy).Contents (Elt F)),
    nullary main_cst_97 (constant S_ .f32 0x00000000#32),
    binary main_v605 main_cst_97 main_v608 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v608 main_v609 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v562 main_v609 main_v610 (addf : (⟨S16x64x64x1, .f32⟩ : BufTy).Contents (Elt F) → (⟨S16x64x64x1, .f32⟩ : BufTy).Contents (Elt F) → (⟨S16x64x64x1, .f32⟩ : BufTy).Contents (Elt F)),
    nullary main_c_98 (constantI S_ 32 0#32),
    unary main_c_98 main_v611 (broadcastInDim S64 ![] bcast_S_S64 : (⟨S_, .i32⟩ : BufTy).Contents (Elt F) → (⟨S64, .i32⟩ : BufTy).Contents (Elt F)),
    binary main_v5 main_v611 main_v612 (addi : (⟨S64, .i32⟩ : BufTy).Contents (Elt F) → (⟨S64, .i32⟩ : BufTy).Contents (Elt F) → (⟨S64, .i32⟩ : BufTy).Contents (Elt F)),
    nullary main_c_99 (constantI S_ 32 0#32),
    unary main_c_99 main_v613 (broadcastInDim S64 ![] bcast_S_S64 : (⟨S_, .i32⟩ : BufTy).Contents (Elt F) → (⟨S64, .i32⟩ : BufTy).Contents (Elt F)),
    binary main_v612 main_v613 main_v614 (cmpi .sge : (⟨S64, .i32⟩ : BufTy).Contents (Elt F) → (⟨S64, .i32⟩ : BufTy).Contents (Elt F) → (⟨S64, .i1⟩ : BufTy).Contents (Elt F)),
    nullary main_c_100 (constantI S_ 32 0#32),
    unary main_c_100 main_v615 (broadcastInDim S64 ![] bcast_S_S64 : (⟨S_, .i32⟩ : BufTy).Contents (Elt F) → (⟨S64, .i32⟩ : BufTy).Contents (Elt F)),
    binary main_v5 main_v615 main_v616 (addi : (⟨S64, .i32⟩ : BufTy).Contents (Elt F) → (⟨S64, .i32⟩ : BufTy).Contents (Elt F) → (⟨S64, .i32⟩ : BufTy).Contents (Elt F)) ]

set_option maxRecDepth 8192 in
set_option maxHeartbeats 4000000 in
theorem part11_eq (d : Dev nD) : main_part11 (F := F) d = seq ops11 := rfl

set_option maxRecDepth 8192 in
theorem ops11_sub : (ops11 : List (HloOp τ sig (Elt F))).Forall fun op => op.bufs ⊆ tcRefs τ sig := by
  unfold ops11
  exact ⟨unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩

set_option maxRecDepth 8192 in
theorem ops11_fresh : ∀ op ∈ (ops11 : List (HloOp τ sig (Elt F))), op.fresh = ∅ := by
  unfold ops11
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value11 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v514 : W (Proc.devRef .tc main_v514) = ReadP.val_main_v514 (F := F))
    (h_main_v559 : W (Proc.devRef .tc main_v559) = ReadP.val_main_v559 (F := F) x0 x1 x2 x3 x4)
    (h_main_v562 : W (Proc.devRef .tc main_v562) = ReadP.val_main_v562 (F := F) x0 x1 x2 x3)
    (h_main_v564 : W (Proc.devRef .tc main_v564) = ReadP.val_main_v564 (F := F))
    (h_main_c_92 : W (Proc.devRef .tc main_c_92) = ReadP.val_main_c_92 (F := F)) :
    after ops11 W (Proc.devRef .tc main_arg0) = x0 ∧
    after ops11 W (Proc.devRef .tc main_arg1) = x1 ∧
    after ops11 W (Proc.devRef .tc main_arg2) = x2 ∧
    after ops11 W (Proc.devRef .tc main_arg3) = x3 ∧
    after ops11 W (Proc.devRef .tc main_arg4) = x4 ∧
    after ops11 W (Proc.devRef .tc main_arg5) = x5 ∧
    after ops11 W (Proc.devRef .tc main_v2) = ReadP.val_main_v2 (F := F) x0 x3 ∧
    after ops11 W (Proc.devRef .tc main_v3) = ReadP.val_main_v3 (F := F) x0 x4 ∧
    after ops11 W (Proc.devRef .tc main_v4) = ReadP.val_main_v4 (F := F) ∧
    after ops11 W (Proc.devRef .tc main_v5) = ReadP.val_main_v5 (F := F) ∧
    after ops11 W (Proc.devRef .tc main_v514) = ReadP.val_main_v514 (F := F) ∧
    after ops11 W (Proc.devRef .tc main_v607) = ReadP.val_main_v607 (F := F) x0 x1 x2 x3 x4 ∧
    after ops11 W (Proc.devRef .tc main_v610) = ReadP.val_main_v610 (F := F) x0 x1 x2 x3 ∧
    after ops11 W (Proc.devRef .tc main_v614) = ReadP.val_main_v614 (F := F) ∧
    after ops11 W (Proc.devRef .tc main_v616) = ReadP.val_main_v616 (F := F) := by
  unfold ops11
  refine ⟨?_, ?_, ?_, ?_, ?_, ?_, ?_, ?_, ?_, ?_, ?_, ?_, ?_, ?_, ?_⟩
  · (after_results_simp <;> (try simp only [a0, a1, a2, a3, a4, a5, h_main_v2, h_main_v3, h_main_v4, h_main_v5, h_main_v514, h_main_v559, h_main_v562, h_main_v564, h_main_c_92]) <;> (first | rfl | assumption))
  · (after_results_simp <;> (try simp only [a0, a1, a2, a3, a4, a5, h_main_v2, h_main_v3, h_main_v4, h_main_v5, h_main_v514, h_main_v559, h_main_v562, h_main_v564, h_main_c_92]) <;> (first | rfl | assumption))
  · (after_results_simp <;> (try simp only [a0, a1, a2, a3, a4, a5, h_main_v2, h_main_v3, h_main_v4, h_main_v5, h_main_v514, h_main_v559, h_main_v562, h_main_v564, h_main_c_92]) <;> (first | rfl | assumption))
  · (after_results_simp <;> (try simp only [a0, a1, a2, a3, a4, a5, h_main_v2, h_main_v3, h_main_v4, h_main_v5, h_main_v514, h_main_v559, h_main_v562, h_main_v564, h_main_c_92]) <;> (first | rfl | assumption))
  · (after_results_simp <;> (try simp only [a0, a1, a2, a3, a4, a5, h_main_v2, h_main_v3, h_main_v4, h_main_v5, h_main_v514, h_main_v559, h_main_v562, h_main_v564, h_main_c_92]) <;> (first | rfl | assumption))
  · (after_results_simp <;> (try simp only [a0, a1, a2, a3, a4, a5, h_main_v2, h_main_v3, h_main_v4, h_main_v5, h_main_v514, h_main_v559, h_main_v562, h_main_v564, h_main_c_92]) <;> (first | rfl | assumption))
  · (after_results_simp <;> (try simp only [a0, a1, a2, a3, a4, a5, h_main_v2, h_main_v3, h_main_v4, h_main_v5, h_main_v514, h_main_v559, h_main_v562, h_main_v564, h_main_c_92]) <;> (first | rfl | assumption))
  · (after_results_simp <;> (try simp only [a0, a1, a2, a3, a4, a5, h_main_v2, h_main_v3, h_main_v4, h_main_v5, h_main_v514, h_main_v559, h_main_v562, h_main_v564, h_main_c_92]) <;> (first | rfl | assumption))
  · (after_results_simp <;> (try simp only [a0, a1, a2, a3, a4, a5, h_main_v2, h_main_v3, h_main_v4, h_main_v5, h_main_v514, h_main_v559, h_main_v562, h_main_v564, h_main_c_92]) <;> (first | rfl | assumption))
  · (after_results_simp <;> (try simp only [a0, a1, a2, a3, a4, a5, h_main_v2, h_main_v3, h_main_v4, h_main_v5, h_main_v514, h_main_v559, h_main_v562, h_main_v564, h_main_c_92]) <;> (first | rfl | assumption))
  · (after_results_simp <;> (try simp only [a0, a1, a2, a3, a4, a5, h_main_v2, h_main_v3, h_main_v4, h_main_v5, h_main_v514, h_main_v559, h_main_v562, h_main_v564, h_main_c_92]) <;> (first | rfl | assumption))
  · (after_results_simp <;> (try simp only [a0, a1, a2, a3, a4, a5, h_main_v2, h_main_v3, h_main_v4, h_main_v5, h_main_v514, h_main_v559, h_main_v562, h_main_v564, h_main_c_92]) <;> (first | rfl | assumption))
  · (after_results_simp <;> (try simp only [a0, a1, a2, a3, a4, a5, h_main_v2, h_main_v3, h_main_v4, h_main_v5, h_main_v514, h_main_v559, h_main_v562, h_main_v564, h_main_c_92]) <;> (first | rfl | assumption))
  · (after_results_simp <;> (try simp only [a0, a1, a2, a3, a4, a5, h_main_v2, h_main_v3, h_main_v4, h_main_v5, h_main_v514, h_main_v559, h_main_v562, h_main_v564, h_main_c_92]) <;> (first | rfl | assumption))
  · (after_results_simp <;> (try simp only [a0, a1, a2, a3, a4, a5, h_main_v2, h_main_v3, h_main_v4, h_main_v5, h_main_v514, h_main_v559, h_main_v562, h_main_v564, h_main_c_92]) <;> (first | rfl | assumption))

end Cert.ReferenceIdeal.RunH

end
-- ==== Proof.RefRun12.lean ====
/- The reference program's @main, statements 721 … 780 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops12 : List (HloOp τ sig (Elt F)) :=
  [ nullary main_c_101 (constantI S_ 32 64#32),
    unary main_c_101 main_v617 (broadcastInDim S64 ![] bcast_S_S64 : (⟨S_, .i32⟩ : BufTy).Contents (Elt F) → (⟨S64, .i32⟩ : BufTy).Contents (Elt F)),
    binary main_v616 main_v617 main_v618 (cmpi .slt : (⟨S64, .i32⟩ : BufTy).Contents (Elt F) → (⟨S64, .i32⟩ : BufTy).Contents (Elt F) → (⟨S64, .i1⟩ : BufTy).Contents (Elt F)),
    binary main_v614 main_v618 main_v619 (andi : (⟨S64, .i1⟩ : BufTy).Contents (Elt F) → (⟨S64, .i1⟩ : BufTy).Contents (Elt F) → (⟨S64, .i1⟩ : BufTy).Contents (Elt F)),
    unary main_v514 main_v620 (broadcastInDim S64x1 ![0] bcast_S64_S64x1_0 : (⟨S64, .i1⟩ : BufTy).Contents (Elt F) → (⟨S64x1, .i1⟩ : BufTy).Contents (Elt F)),
    unary main_v619 main_v621 (broadcastInDim S1x64 ![1] bcast_S64_S1x64_1 : (⟨S64, .i1⟩ : BufTy).Contents (Elt F) → (⟨S1x64, .i1⟩ : BufTy).Contents (Elt F)),
    unary main_v620 main_v622 (broadcastInDim S64x64 ![0, 1] bcast_S64x1_S64x64_0_1 : (⟨S64x1, .i1⟩ : BufTy).Contents (Elt F) → (⟨S64x64, .i1⟩ : BufTy).Contents (Elt F)),
    unary main_v621 main_v623 (broadcastInDim S64x64 ![0, 1] bcast_S1x64_S64x64_0_1 : (⟨S1x64, .i1⟩ : BufTy).Contents (Elt F) → (⟨S64x64, .i1⟩ : BufTy).Contents (Elt F)),
    binary main_v622 main_v623 main_v624 (andi : (⟨S64x64, .i1⟩ : BufTy).Contents (Elt F) → (⟨S64x64, .i1⟩ : BufTy).Contents (Elt F) → (⟨S64x64, .i1⟩ : BufTy).Contents (Elt F)),
    unary main_v624 main_v625 (uitofp .f32 : (⟨S64x64, .i1⟩ : BufTy).Contents (Elt F) → (⟨S64x64, .f32⟩ : BufTy).Contents (Elt F)),
    unary main_arg1 main_v626 ((extractStridedSlice S1 ![2] · slices_S5_S1_2) : (⟨S5, .f32⟩ : BufTy).Contents (Elt F) → (⟨S1, .f32⟩ : BufTy).Contents (Elt F)),
    reshape main_v626 main_v627 rfl shapeCasts_S1_S_,
    nullary main_c_102 (constantI S_ 32 0#32),
    unary main_c_102 main_v628 (broadcastInDim S64 ![] bcast_S_S64 : (⟨S_, .i32⟩ : BufTy).Contents (Elt F) → (⟨S64, .i32⟩ : BufTy).Contents (Elt F)),
    binary main_v628 main_v4 main_v629 (subi : (⟨S64, .i32⟩ : BufTy).Contents (Elt F) → (⟨S64, .i32⟩ : BufTy).Contents (Elt F) → (⟨S64, .i32⟩ : BufTy).Contents (Elt F)),
    unary main_v629 main_v630 (broadcastInDim S64x1 ![0] bcast_S64_S64x1_0 : (⟨S64, .i32⟩ : BufTy).Contents (Elt F) → (⟨S64x1, .i32⟩ : BufTy).Contents (Elt F)),
    unary main_v630 main_v631 (sitofp .f32 : (⟨S64x1, .i32⟩ : BufTy).Contents (Elt F) → (⟨S64x1, .f32⟩ : BufTy).Contents (Elt F)),
    unary main_v627 main_v632 (broadcastInDim S64x1 ![] bcast_S_S64x1 : (⟨S_, .f32⟩ : BufTy).Contents (Elt F) → (⟨S64x1, .f32⟩ : BufTy).Contents (Elt F)),
    binary main_v632 main_v631 main_v633 (mulf : (⟨S64x1, .f32⟩ : BufTy).Contents (Elt F) → (⟨S64x1, .f32⟩ : BufTy).Contents (Elt F) → (⟨S64x1, .f32⟩ : BufTy).Contents (Elt F)),
    unary main_arg2 main_v634 ((extractStridedSlice S1 ![2] · slices_S5_S1_2) : (⟨S5, .f32⟩ : BufTy).Contents (Elt F) → (⟨S1, .f32⟩ : BufTy).Contents (Elt F)),
    reshape main_v634 main_v635 rfl shapeCasts_S1_S_,
    nullary main_c_103 (constantI S_ 32 0#32),
    unary main_c_103 main_v636 (broadcastInDim S64 ![] bcast_S_S64 : (⟨S_, .i32⟩ : BufTy).Contents (Elt F) → (⟨S64, .i32⟩ : BufTy).Contents (Elt F)),
    binary main_v636 main_v5 main_v637 (subi : (⟨S64, .i32⟩ : BufTy).Contents (Elt F) → (⟨S64, .i32⟩ : BufTy).Contents (Elt F) → (⟨S64, .i32⟩ : BufTy).Contents (Elt F)),
    unary main_v637 main_v638 (broadcastInDim S1x64 ![1] bcast_S64_S1x64_1 : (⟨S64, .i32⟩ : BufTy).Contents (Elt F) → (⟨S1x64, .i32⟩ : BufTy).Contents (Elt F)),
    unary main_v638 main_v639 (sitofp .f32 : (⟨S1x64, .i32⟩ : BufTy).Contents (Elt F) → (⟨S1x64, .f32⟩ : BufTy).Contents (Elt F)),
    unary main_v635 main_v640 (broadcastInDim S1x64 ![] bcast_S_S1x64 : (⟨S_, .f32⟩ : BufTy).Contents (Elt F) → (⟨S1x64, .f32⟩ : BufTy).Contents (Elt F)),
    binary main_v640 main_v639 main_v641 (mulf : (⟨S1x64, .f32⟩ : BufTy).Contents (Elt F) → (⟨S1x64, .f32⟩ : BufTy).Contents (Elt F) → (⟨S1x64, .f32⟩ : BufTy).Contents (Elt F)),
    unary main_v633 main_v642 (broadcastInDim S64x64 ![0, 1] bcast_S64x1_S64x64_0_1 : (⟨S64x1, .f32⟩ : BufTy).Contents (Elt F) → (⟨S64x64, .f32⟩ : BufTy).Contents (Elt F)),
    unary main_v641 main_v643 (broadcastInDim S64x64 ![0, 1] bcast_S1x64_S64x64_0_1 : (⟨S1x64, .f32⟩ : BufTy).Contents (Elt F) → (⟨S64x64, .f32⟩ : BufTy).Contents (Elt F)),
    binary main_v642 main_v643 main_v644 (addf : (⟨S64x64, .f32⟩ : BufTy).Contents (Elt F) → (⟨S64x64, .f32⟩ : BufTy).Contents (Elt F) → (⟨S64x64, .f32⟩ : BufTy).Contents (Elt F)),
    unary main_v2 main_v645 ((extractStridedSlice S16x64x64x256 ![0, 2, 2, 0] · slices_S16x68x68x256_S16x64x64x256_0_2_2_0) : (⟨S16x68x68x256, .f32⟩ : BufTy).Contents (Elt F) → (⟨S16x64x64x256, .f32⟩ : BufTy).Contents (Elt F)),
    unary main_v3 main_v646 ((extractStridedSlice S16x64x64x256 ![0, 2, 2, 0] · slices_S16x68x68x256_S16x64x64x256_0_2_2_0) : (⟨S16x68x68x256, .f32⟩ : BufTy).Contents (Elt F) → (⟨S16x64x64x256, .f32⟩ : BufTy).Contents (Elt F)),
    unary main_v644 main_v647 (broadcastInDim S1x64x64x1 ![1, 2] bcast_S64x64_S1x64x64x1_1_2 : (⟨S64x64, .f32⟩ : BufTy).Contents (Elt F) → (⟨S1x64x64x1, .f32⟩ : BufTy).Contents (Elt F)),
    unary main_v647 main_v648 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v648 main_v645 main_v649 (addf : (⟨S16x64x64x256, .f32⟩ : BufTy).Contents (Elt F) → (⟨S16x64x64x256, .f32⟩ : BufTy).Contents (Elt F) → (⟨S16x64x64x256, .f32⟩ : BufTy).Contents (Elt F)),
    unary main_v649 main_v650 (Host.exp : (⟨S16x64x64x256, .f32⟩ : BufTy).Contents (Elt F) → (⟨S16x64x64x256, .f32⟩ : BufTy).Contents (Elt F)),
    unary main_v625 main_v651 (broadcastInDim S1x64x64x1 ![1, 2] bcast_S64x64_S1x64x64x1_1_2 : (⟨S64x64, .f32⟩ : BufTy).Contents (Elt F) → (⟨S1x64x64x1, .f32⟩ : BufTy).Contents (Elt F)),
    unary main_v651 main_v652 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v650 main_v652 main_v653 (mulf : (⟨S16x64x64x256, .f32⟩ : BufTy).Contents (Elt F) → (⟨S16x64x64x256, .f32⟩ : BufTy).Contents (Elt F) → (⟨S16x64x64x256, .f32⟩ : BufTy).Contents (Elt F)),
    binary main_v653 main_v646 main_v654 (mulf : (⟨S16x64x64x256, .f32⟩ : BufTy).Contents (Elt F) → (⟨S16x64x64x256, .f32⟩ : BufTy).Contents (Elt F) → (⟨S16x64x64x256, .f32⟩ : BufTy).Contents (Elt F)),
    binary main_v607 main_v654 main_v655 (addf : (⟨S16x64x64x256, .f32⟩ : BufTy).Contents (Elt F) → (⟨S16x64x64x256, .f32⟩ : BufTy).Contents (Elt F) → (⟨S16x64x64x256, .f32⟩ : BufTy).Contents (Elt F)),
    nullary main_cst_104 (constant S_ .f32 0x00000000#32),
    binary main_v653 main_cst_104 main_v656 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v656 main_v657 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v610 main_v657 main_v658 (addf : (⟨S16x64x64x1, .f32⟩ : BufTy).Contents (Elt F) → (⟨S16x64x64x1, .f32⟩ : BufTy).Contents (Elt F) → (⟨S16x64x64x1, .f32⟩ : BufTy).Contents (Elt F)),
    nullary main_c_105 (constantI S_ 32 1#32),
    unary main_c_105 main_v659 (broadcastInDim S64 ![] bcast_S_S64 : (⟨S_, .i32⟩ : BufTy).Contents (Elt F) → (⟨S64, .i32⟩ : BufTy).Contents (Elt F)),
    binary main_v5 main_v659 main_v660 (addi : (⟨S64, .i32⟩ : BufTy).Contents (Elt F) → (⟨S64, .i32⟩ : BufTy).Contents (Elt F) → (⟨S64, .i32⟩ : BufTy).Contents (Elt F)),
    nullary main_c_106 (constantI S_ 32 0#32),
    unary main_c_106 main_v661 (broadcastInDim S64 ![] bcast_S_S64 : (⟨S_, .i32⟩ : BufTy).Contents (Elt F) → (⟨S64, .i32⟩ : BufTy).Contents (Elt F)),
    binary main_v660 main_v661 main_v662 (cmpi .sge : (⟨S64, .i32⟩ : BufTy).Contents (Elt F) → (⟨S64, .i32⟩ : BufTy).Contents (Elt F) → (⟨S64, .i1⟩ : BufTy).Contents (Elt F)),
    nullary main_c_107 (constantI S_ 32 1#32),
    unary main_c_107 main_v663 (broadcastInDim S64 ![] bcast_S_S64 : (⟨S_, .i32⟩ : BufTy).Contents (Elt F) → (⟨S64, .i32⟩ : BufTy).Contents (Elt F)),
    binary main_v5 main_v663 main_v664 (addi : (⟨S64, .i32⟩ : BufTy).Contents (Elt F) → (⟨S64, .i32⟩ : BufTy).Contents (Elt F) → (⟨S64, .i32⟩ : BufTy).Contents (Elt F)),
    nullary main_c_108 (constantI S_ 32 64#32),
    unary main_c_108 main_v665 (broadcastInDim S64 ![] bcast_S_S64 : (⟨S_, .i32⟩ : BufTy).Contents (Elt F) → (⟨S64, .i32⟩ : BufTy).Contents (Elt F)),
    binary main_v664 main_v665 main_v666 (cmpi .slt : (⟨S64, .i32⟩ : BufTy).Contents (Elt F) → (⟨S64, .i32⟩ : BufTy).Contents (Elt F) → (⟨S64, .i1⟩ : BufTy).Contents (Elt F)),
    binary main_v662 main_v666 main_v667 (andi : (⟨S64, .i1⟩ : BufTy).Contents (Elt F) → (⟨S64, .i1⟩ : BufTy).Contents (Elt F) → (⟨S64, .i1⟩ : BufTy).Contents (Elt F)),
    unary main_v514 main_v668 (broadcastInDim S64x1 ![0] bcast_S64_S64x1_0 : (⟨S64, .i1⟩ : BufTy).Contents (Elt F) → (⟨S64x1, .i1⟩ : BufTy).Contents (Elt F)) ]

set_option maxRecDepth 8192 in
set_option maxHeartbeats 4000000 in
theorem part12_eq (d : Dev nD) : main_part12 (F := F) d = seq ops12 := rfl

set_option maxRecDepth 8192 in
theorem ops12_sub : (ops12 : List (HloOp τ sig (Elt F))).Forall fun op => op.bufs ⊆ tcRefs τ sig := by
  unfold ops12
  exact ⟨nullary_bufs_sub .., unary_bufs_sub .., binary_bufs_sub .., binary_bufs_sub .., unary_bufs_sub .., unary_bufs_sub .., unary_bufs_sub .., unary_bufs_sub .., binary_bufs_sub .., unary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub ..⟩

set_option maxRecDepth 8192 in
theorem ops12_fresh : ∀ op ∈ (ops12 : List (HloOp τ sig (Elt F))), op.fresh = ∅ := by
  unfold ops12
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value12 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v514 : W (Proc.devRef .tc main_v514) = ReadP.val_main_v514 (F := F))
    (h_main_v607 : W (Proc.devRef .tc main_v607) = ReadP.val_main_v607 (F := F) x0 x1 x2 x3 x4)
    (h_main_v610 : W (Proc.devRef .tc main_v610) = ReadP.val_main_v610 (F := F) x0 x1 x2 x3)
    (h_main_v614 : W (Proc.devRef .tc main_v614) = ReadP.val_main_v614 (F := F))
    (h_main_v616 : W (Proc.devRef .tc main_v616) = ReadP.val_main_v616 (F := F)) :
    after ops12 W (Proc.devRef .tc main_arg0) = x0 ∧
    after ops12 W (Proc.devRef .tc main_arg1) = x1 ∧
    after ops12 W (Proc.devRef .tc main_arg2) = x2 ∧
    after ops12 W (Proc.devRef .tc main_arg3) = x3 ∧
    after ops12 W (Proc.devRef .tc main_arg4) = x4 ∧
    after ops12 W (Proc.devRef .tc main_arg5) = x5 ∧
    after ops12 W (Proc.devRef .tc main_v2) = ReadP.val_main_v2 (F := F) x0 x3 ∧
    after ops12 W (Proc.devRef .tc main_v3) = ReadP.val_main_v3 (F := F) x0 x4 ∧
    after ops12 W (Proc.devRef .tc main_v4) = ReadP.val_main_v4 (F := F) ∧
    after ops12 W (Proc.devRef .tc main_v5) = ReadP.val_main_v5 (F := F) ∧
    after ops12 W (Proc.devRef .tc main_v514) = ReadP.val_main_v514 (F := F) ∧
    after ops12 W (Proc.devRef .tc main_v655) = ReadP.val_main_v655 (F := F) x0 x1 x2 x3 x4 ∧
    after ops12 W (Proc.devRef .tc main_v658) = ReadP.val_main_v658 (F := F) x0 x1 x2 x3 ∧
    after ops12 W (Proc.devRef .tc main_v667) = ReadP.val_main_v667 (F := F) ∧
    after ops12 W (Proc.devRef .tc main_v668) = ReadP.val_main_v668 (F := F) := by
  unfold ops12
  refine ⟨?_, ?_, ?_, ?_, ?_, ?_, ?_, ?_, ?_, ?_, ?_, ?_, ?_, ?_, ?_⟩
  · (after_results_simp <;> (try simp only [a0, a1, a2, a3, a4, a5, h_main_v2, h_main_v3, h_main_v4, h_main_v5, h_main_v514, h_main_v607, h_main_v610, h_main_v614, h_main_v616]) <;> (first | rfl | assumption))
  · (after_results_simp <;> (try simp only [a0, a1, a2, a3, a4, a5, h_main_v2, h_main_v3, h_main_v4, h_main_v5, h_main_v514, h_main_v607, h_main_v610, h_main_v614, h_main_v616]) <;> (first | rfl | assumption))
  · (after_results_simp <;> (try simp only [a0, a1, a2, a3, a4, a5, h_main_v2, h_main_v3, h_main_v4, h_main_v5, h_main_v514, h_main_v607, h_main_v610, h_main_v614, h_main_v616]) <;> (first | rfl | assumption))
  · (after_results_simp <;> (try simp only [a0, a1, a2, a3, a4, a5, h_main_v2, h_main_v3, h_main_v4, h_main_v5, h_main_v514, h_main_v607, h_main_v610, h_main_v614, h_main_v616]) <;> (first | rfl | assumption))
  · (after_results_simp <;> (try simp only [a0, a1, a2, a3, a4, a5, h_main_v2, h_main_v3, h_main_v4, h_main_v5, h_main_v514, h_main_v607, h_main_v610, h_main_v614, h_main_v616]) <;> (first | rfl | assumption))
  · (after_results_simp <;> (try simp only [a0, a1, a2, a3, a4, a5, h_main_v2, h_main_v3, h_main_v4, h_main_v5, h_main_v514, h_main_v607, h_main_v610, h_main_v614, h_main_v616]) <;> (first | rfl | assumption))
  · (after_results_simp <;> (try simp only [a0, a1, a2, a3, a4, a5, h_main_v2, h_main_v3, h_main_v4, h_main_v5, h_main_v514, h_main_v607, h_main_v610, h_main_v614, h_main_v616]) <;> (first | rfl | assumption))
  · (after_results_simp <;> (try simp only [a0, a1, a2, a3, a4, a5, h_main_v2, h_main_v3, h_main_v4, h_main_v5, h_main_v514, h_main_v607, h_main_v610, h_main_v614, h_main_v616]) <;> (first | rfl | assumption))
  · (after_results_simp <;> (try simp only [a0, a1, a2, a3, a4, a5, h_main_v2, h_main_v3, h_main_v4, h_main_v5, h_main_v514, h_main_v607, h_main_v610, h_main_v614, h_main_v616]) <;> (first | rfl | assumption))
  · (after_results_simp <;> (try simp only [a0, a1, a2, a3, a4, a5, h_main_v2, h_main_v3, h_main_v4, h_main_v5, h_main_v514, h_main_v607, h_main_v610, h_main_v614, h_main_v616]) <;> (first | rfl | assumption))
  · (after_results_simp <;> (try simp only [a0, a1, a2, a3, a4, a5, h_main_v2, h_main_v3, h_main_v4, h_main_v5, h_main_v514, h_main_v607, h_main_v610, h_main_v614, h_main_v616]) <;> (first | rfl | assumption))
  · (after_results_simp <;> (try simp only [a0, a1, a2, a3, a4, a5, h_main_v2, h_main_v3, h_main_v4, h_main_v5, h_main_v514, h_main_v607, h_main_v610, h_main_v614, h_main_v616]) <;> (first | rfl | assumption))
  · (after_results_simp <;> (try simp only [a0, a1, a2, a3, a4, a5, h_main_v2, h_main_v3, h_main_v4, h_main_v5, h_main_v514, h_main_v607, h_main_v610, h_main_v614, h_main_v616]) <;> (first | rfl | assumption))
  · (after_results_simp <;> (try simp only [a0, a1, a2, a3, a4, a5, h_main_v2, h_main_v3, h_main_v4, h_main_v5, h_main_v514, h_main_v607, h_main_v610, h_main_v614, h_main_v616]) <;> (first | rfl | assumption))
  · (after_results_simp <;> (try simp only [a0, a1, a2, a3, a4, a5, h_main_v2, h_main_v3, h_main_v4, h_main_v5, h_main_v514, h_main_v607, h_main_v610, h_main_v614, h_main_v616]) <;> (first | rfl | assumption))

end Cert.ReferenceIdeal.RunH

end
-- ==== Proof.RefRun13.lean ====
/- The reference program's @main, statements 781 … 840 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops13 : List (HloOp τ sig (Elt F)) :=
  [ unary main_v667 main_v669 (broadcastInDim S1x64 ![1] bcast_S64_S1x64_1 : (⟨S64, .i1⟩ : BufTy).Contents (Elt F) → (⟨S1x64, .i1⟩ : BufTy).Contents (Elt F)),
    unary main_v668 main_v670 (broadcastInDim S64x64 ![0, 1] bcast_S64x1_S64x64_0_1 : (⟨S64x1, .i1⟩ : BufTy).Contents (Elt F) → (⟨S64x64, .i1⟩ : BufTy).Contents (Elt F)),
    unary main_v669 main_v671 (broadcastInDim S64x64 ![0, 1] bcast_S1x64_S64x64_0_1 : (⟨S1x64, .i1⟩ : BufTy).Contents (Elt F) → (⟨S64x64, .i1⟩ : BufTy).Contents (Elt F)),
    binary main_v670 main_v671 main_v672 (andi : (⟨S64x64, .i1⟩ : BufTy).Contents (Elt F) → (⟨S64x64, .i1⟩ : BufTy).Contents (Elt F) → (⟨S64x64, .i1⟩ : BufTy).Contents (Elt F)),
    unary main_v672 main_v673 (uitofp .f32 : (⟨S64x64, .i1⟩ : BufTy).Contents (Elt F) → (⟨S64x64, .f32⟩ : BufTy).Contents (Elt F)),
    unary main_arg1 main_v674 ((extractStridedSlice S1 ![2] · slices_S5_S1_2) : (⟨S5, .f32⟩ : BufTy).Contents (Elt F) → (⟨S1, .f32⟩ : BufTy).Contents (Elt F)),
    reshape main_v674 main_v675 rfl shapeCasts_S1_S_,
    nullary main_c_109 (constantI S_ 32 0#32),
    unary main_c_109 main_v676 (broadcastInDim S64 ![] bcast_S_S64 : (⟨S_, .i32⟩ : BufTy).Contents (Elt F) → (⟨S64, .i32⟩ : BufTy).Contents (Elt F)),
    binary main_v676 main_v4 main_v677 (subi : (⟨S64, .i32⟩ : BufTy).Contents (Elt F) → (⟨S64, .i32⟩ : BufTy).Contents (Elt F) → (⟨S64, .i32⟩ : BufTy).Contents (Elt F)),
    unary main_v677 main_v678 (broadcastInDim S64x1 ![0] bcast_S64_S64x1_0 : (⟨S64, .i32⟩ : BufTy).Contents (Elt F) → (⟨S64x1, .i32⟩ : BufTy).Contents (Elt F)),
    unary main_v678 main_v679 (sitofp .f32 : (⟨S64x1, .i32⟩ : BufTy).Contents (Elt F) → (⟨S64x1, .f32⟩ : BufTy).Contents (Elt F)),
    unary main_v675 main_v680 (broadcastInDim S64x1 ![] bcast_S_S64x1 : (⟨S_, .f32⟩ : BufTy).Contents (Elt F) → (⟨S64x1, .f32⟩ : BufTy).Contents (Elt F)),
    binary main_v680 main_v679 main_v681 (mulf : (⟨S64x1, .f32⟩ : BufTy).Contents (Elt F) → (⟨S64x1, .f32⟩ : BufTy).Contents (Elt F) → (⟨S64x1, .f32⟩ : BufTy).Contents (Elt F)),
    unary main_arg2 main_v682 ((extractStridedSlice S1 ![3] · slices_S5_S1_3) : (⟨S5, .f32⟩ : BufTy).Contents (Elt F) → (⟨S1, .f32⟩ : BufTy).Contents (Elt F)),
    reshape main_v682 main_v683 rfl shapeCasts_S1_S_,
    nullary main_c_110 (constantI S_ 32 1#32),
    unary main_c_110 main_v684 (broadcastInDim S64 ![] bcast_S_S64 : (⟨S_, .i32⟩ : BufTy).Contents (Elt F) → (⟨S64, .i32⟩ : BufTy).Contents (Elt F)),
    binary main_v684 main_v5 main_v685 (subi : (⟨S64, .i32⟩ : BufTy).Contents (Elt F) → (⟨S64, .i32⟩ : BufTy).Contents (Elt F) → (⟨S64, .i32⟩ : BufTy).Contents (Elt F)),
    unary main_v685 main_v686 (broadcastInDim S1x64 ![1] bcast_S64_S1x64_1 : (⟨S64, .i32⟩ : BufTy).Contents (Elt F) → (⟨S1x64, .i32⟩ : BufTy).Contents (Elt F)),
    unary main_v686 main_v687 (sitofp .f32 : (⟨S1x64, .i32⟩ : BufTy).Contents (Elt F) → (⟨S1x64, .f32⟩ : BufTy).Contents (Elt F)),
    unary main_v683 main_v688 (broadcastInDim S1x64 ![] bcast_S_S1x64 : (⟨S_, .f32⟩ : BufTy).Contents (Elt F) → (⟨S1x64, .f32⟩ : BufTy).Contents (Elt F)),
    binary main_v688 main_v687 main_v689 (mulf : (⟨S1x64, .f32⟩ : BufTy).Contents (Elt F) → (⟨S1x64, .f32⟩ : BufTy).Contents (Elt F) → (⟨S1x64, .f32⟩ : BufTy).Contents (Elt F)),
    unary main_v681 main_v690 (broadcastInDim S64x64 ![0, 1] bcast_S64x1_S64x64_0_1 : (⟨S64x1, .f32⟩ : BufTy).Contents (Elt F) → (⟨S64x64, .f32⟩ : BufTy).Contents (Elt F)),
    unary main_v689 main_v691 (broadcastInDim S64x64 ![0, 1] bcast_S1x64_S64x64_0_1 : (⟨S1x64, .f32⟩ : BufTy).Contents (Elt F) → (⟨S64x64, .f32⟩ : BufTy).Contents (Elt F)),
    binary main_v690 main_v691 main_v692 (addf : (⟨S64x64, .f32⟩ : BufTy).Contents (Elt F) → (⟨S64x64, .f32⟩ : BufTy).Contents (Elt F) → (⟨S64x64, .f32⟩ : BufTy).Contents (Elt F)),
    unary main_v2 main_v693 ((extractStridedSlice S16x64x64x256 ![0, 2, 3, 0] · slices_S16x68x68x256_S16x64x64x256_0_2_3_0) : (⟨S16x68x68x256, .f32⟩ : BufTy).Contents (Elt F) → (⟨S16x64x64x256, .f32⟩ : BufTy).Contents (Elt F)),
    unary main_v3 main_v694 ((extractStridedSlice S16x64x64x256 ![0, 2, 3, 0] · slices_S16x68x68x256_S16x64x64x256_0_2_3_0) : (⟨S16x68x68x256, .f32⟩ : BufTy).Contents (Elt F) → (⟨S16x64x64x256, .f32⟩ : BufTy).Contents (Elt F)),
    unary main_v692 main_v695 (broadcastInDim S1x64x64x1 ![1, 2] bcast_S64x64_S1x64x64x1_1_2 : (⟨S64x64, .f32⟩ : BufTy).Contents (Elt F) → (⟨S1x64x64x1, .f32⟩ : BufTy).Contents (Elt F)),
    unary main_v695 main_v696 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v696 main_v693 main_v697 (addf : (⟨S16x64x64x256, .f32⟩ : BufTy).Contents (Elt F) → (⟨S16x64x64x256, .f32⟩ : BufTy).Contents (Elt F) → (⟨S16x64x64x256, .f32⟩ : BufTy).Contents (Elt F)),
    unary main_v697 main_v698 (Host.exp : (⟨S16x64x64x256, .f32⟩ : BufTy).Contents (Elt F) → (⟨S16x64x64x256, .f32⟩ : BufTy).Contents (Elt F)),
    unary main_v673 main_v699 (broadcastInDim S1x64x64x1 ![1, 2] bcast_S64x64_S1x64x64x1_1_2 : (⟨S64x64, .f32⟩ : BufTy).Contents (Elt F) → (⟨S1x64x64x1, .f32⟩ : BufTy).Contents (Elt F)),
    unary main_v699 main_v700 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v698 main_v700 main_v701 (mulf : (⟨S16x64x64x256, .f32⟩ : BufTy).Contents (Elt F) → (⟨S16x64x64x256, .f32⟩ : BufTy).Contents (Elt F) → (⟨S16x64x64x256, .f32⟩ : BufTy).Contents (Elt F)),
    binary main_v701 main_v694 main_v702 (mulf : (⟨S16x64x64x256, .f32⟩ : BufTy).Contents (Elt F) → (⟨S16x64x64x256, .f32⟩ : BufTy).Contents (Elt F) → (⟨S16x64x64x256, .f32⟩ : BufTy).Contents (Elt F)),
    binary main_v655 main_v702 main_v703 (addf : (⟨S16x64x64x256, .f32⟩ : BufTy).Contents (Elt F) → (⟨S16x64x64x256, .f32⟩ : BufTy).Contents (Elt F) → (⟨S16x64x64x256, .f32⟩ : BufTy).Contents (Elt F)),
    nullary main_cst_111 (constant S_ .f32 0x00000000#32),
    binary main_v701 main_cst_111 main_v704 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v704 main_v705 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v658 main_v705 main_v706 (addf : (⟨S16x64x64x1, .f32⟩ : BufTy).Contents (Elt F) → (⟨S16x64x64x1, .f32⟩ : BufTy).Contents (Elt F) → (⟨S16x64x64x1, .f32⟩ : BufTy).Contents (Elt F)),
    nullary main_c_112 (constantI S_ 32 2#32),
    unary main_c_112 main_v707 (broadcastInDim S64 ![] bcast_S_S64 : (⟨S_, .i32⟩ : BufTy).Contents (Elt F) → (⟨S64, .i32⟩ : BufTy).Contents (Elt F)),
    binary main_v5 main_v707 main_v708 (addi : (⟨S64, .i32⟩ : BufTy).Contents (Elt F) → (⟨S64, .i32⟩ : BufTy).Contents (Elt F) → (⟨S64, .i32⟩ : BufTy).Contents (Elt F)),
    nullary main_c_113 (constantI S_ 32 0#32),
    unary main_c_113 main_v709 (broadcastInDim S64 ![] bcast_S_S64 : (⟨S_, .i32⟩ : BufTy).Contents (Elt F) → (⟨S64, .i32⟩ : BufTy).Contents (Elt F)),
    binary main_v708 main_v709 main_v710 (cmpi .sge : (⟨S64, .i32⟩ : BufTy).Contents (Elt F) → (⟨S64, .i32⟩ : BufTy).Contents (Elt F) → (⟨S64, .i1⟩ : BufTy).Contents (Elt F)),
    nullary main_c_114 (constantI S_ 32 2#32),
    unary main_c_114 main_v711 (broadcastInDim S64 ![] bcast_S_S64 : (⟨S_, .i32⟩ : BufTy).Contents (Elt F) → (⟨S64, .i32⟩ : BufTy).Contents (Elt F)),
    binary main_v5 main_v711 main_v712 (addi : (⟨S64, .i32⟩ : BufTy).Contents (Elt F) → (⟨S64, .i32⟩ : BufTy).Contents (Elt F) → (⟨S64, .i32⟩ : BufTy).Contents (Elt F)),
    nullary main_c_115 (constantI S_ 32 64#32),
    unary main_c_115 main_v713 (broadcastInDim S64 ![] bcast_S_S64 : (⟨S_, .i32⟩ : BufTy).Contents (Elt F) → (⟨S64, .i32⟩ : BufTy).Contents (Elt F)),
    binary main_v712 main_v713 main_v714 (cmpi .slt : (⟨S64, .i32⟩ : BufTy).Contents (Elt F) → (⟨S64, .i32⟩ : BufTy).Contents (Elt F) → (⟨S64, .i1⟩ : BufTy).Contents (Elt F)),
    binary main_v710 main_v714 main_v715 (andi : (⟨S64, .i1⟩ : BufTy).Contents (Elt F) → (⟨S64, .i1⟩ : BufTy).Contents (Elt F) → (⟨S64, .i1⟩ : BufTy).Contents (Elt F)),
    unary main_v514 main_v716 (broadcastInDim S64x1 ![0] bcast_S64_S64x1_0 : (⟨S64, .i1⟩ : BufTy).Contents (Elt F) → (⟨S64x1, .i1⟩ : BufTy).Contents (Elt F)),
    unary main_v715 main_v717 (broadcastInDim S1x64 ![1] bcast_S64_S1x64_1 : (⟨S64, .i1⟩ : BufTy).Contents (Elt F) → (⟨S1x64, .i1⟩ : BufTy).Contents (Elt F)),
    unary main_v716 main_v718 (broadcastInDim S64x64 ![0, 1] bcast_S64x1_S64x64_0_1 : (⟨S64x1, .i1⟩ : BufTy).Contents (Elt F) → (⟨S64x64, .i1⟩ : BufTy).Contents (Elt F)),
    unary main_v717 main_v719 (broadcastInDim S64x64 ![0, 1] bcast_S1x64_S64x64_0_1 : (⟨S1x64, .i1⟩ : BufTy).Contents (Elt F) → (⟨S64x64, .i1⟩ : BufTy).Contents (Elt F)),
    binary main_v718 main_v719 main_v720 (andi : (⟨S64x64, .i1⟩ : BufTy).Contents (Elt F) → (⟨S64x64, .i1⟩ : BufTy).Contents (Elt F) → (⟨S64x64, .i1⟩ : BufTy).Contents (Elt F)),
    unary main_v720 main_v721 (uitofp .f32 : (⟨S64x64, .i1⟩ : BufTy).Contents (Elt F) → (⟨S64x64, .f32⟩ : BufTy).Contents (Elt F)) ]

set_option maxRecDepth 8192 in
set_option maxHeartbeats 4000000 in
theorem part13_eq (d : Dev nD) : main_part13 (F := F) d = seq ops13 := rfl

set_option maxRecDepth 8192 in
theorem ops13_sub : (ops13 : List (HloOp τ sig (Elt F))).Forall fun op => op.bufs ⊆ tcRefs τ sig := by
  unfold ops13
  exact ⟨unary_bufs_sub .., unary_bufs_sub .., unary_bufs_sub .., binary_bufs_sub .., unary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., unary_bufs_sub ..⟩

set_option maxRecDepth 8192 in
theorem ops13_fresh : ∀ op ∈ (ops13 : List (HloOp τ sig (Elt F))), op.fresh = ∅ := by
  unfold ops13
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value13 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v514 : W (Proc.devRef .tc main_v514) = ReadP.val_main_v514 (F := F))
    (h_main_v655 : W (Proc.devRef .tc main_v655) = ReadP.val_main_v655 (F := F) x0 x1 x2 x3 x4)
    (h_main_v658 : W (Proc.devRef .tc main_v658) = ReadP.val_main_v658 (F := F) x0 x1 x2 x3)
    (h_main_v667 : W (Proc.devRef .tc main_v667) = ReadP.val_main_v667 (F := F))
    (h_main_v668 : W (Proc.devRef .tc main_v668) = ReadP.val_main_v668 (F := F)) :
    after ops13 W (Proc.devRef .tc main_arg0) = x0 ∧
    after ops13 W (Proc.devRef .tc main_arg1) = x1 ∧
    after ops13 W (Proc.devRef .tc main_arg2) = x2 ∧
    after ops13 W (Proc.devRef .tc main_arg3) = x3 ∧
    after ops13 W (Proc.devRef .tc main_arg4) = x4 ∧
    after ops13 W (Proc.devRef .tc main_arg5) = x5 ∧
    after ops13 W (Proc.devRef .tc main_v2) = ReadP.val_main_v2 (F := F) x0 x3 ∧
    after ops13 W (Proc.devRef .tc main_v3) = ReadP.val_main_v3 (F := F) x0 x4 ∧
    after ops13 W (Proc.devRef .tc main_v4) = ReadP.val_main_v4 (F := F) ∧
    after ops13 W (Proc.devRef .tc main_v5) = ReadP.val_main_v5 (F := F) ∧
    after ops13 W (Proc.devRef .tc main_v703) = ReadP.val_main_v703 (F := F) x0 x1 x2 x3 x4 ∧
    after ops13 W (Proc.devRef .tc main_v706) = ReadP.val_main_v706 (F := F) x0 x1 x2 x3 ∧
    after ops13 W (Proc.devRef .tc main_v721) = ReadP.val_main_v721 (F := F) := by
  unfold ops13
  refine ⟨?_, ?_, ?_, ?_, ?_, ?_, ?_, ?_, ?_, ?_, ?_, ?_, ?_⟩
  · (after_results_simp <;> (try simp only [a0, a1, a2, a3, a4, a5, h_main_v2, h_main_v3, h_main_v4, h_main_v5, h_main_v514, h_main_v655, h_main_v658, h_main_v667, h_main_v668]) <;> (first | rfl | assumption))
  · (after_results_simp <;> (try simp only [a0, a1, a2, a3, a4, a5, h_main_v2, h_main_v3, h_main_v4, h_main_v5, h_main_v514, h_main_v655, h_main_v658, h_main_v667, h_main_v668]) <;> (first | rfl | assumption))
  · (after_results_simp <;> (try simp only [a0, a1, a2, a3, a4, a5, h_main_v2, h_main_v3, h_main_v4, h_main_v5, h_main_v514, h_main_v655, h_main_v658, h_main_v667, h_main_v668]) <;> (first | rfl | assumption))
  · (after_results_simp <;> (try simp only [a0, a1, a2, a3, a4, a5, h_main_v2, h_main_v3, h_main_v4, h_main_v5, h_main_v514, h_main_v655, h_main_v658, h_main_v667, h_main_v668]) <;> (first | rfl | assumption))
  · (after_results_simp <;> (try simp only [a0, a1, a2, a3, a4, a5, h_main_v2, h_main_v3, h_main_v4, h_main_v5, h_main_v514, h_main_v655, h_main_v658, h_main_v667, h_main_v668]) <;> (first | rfl | assumption))
  · (after_results_simp <;> (try simp only [a0, a1, a2, a3, a4, a5, h_main_v2, h_main_v3, h_main_v4, h_main_v5, h_main_v514, h_main_v655, h_main_v658, h_main_v667, h_main_v668]) <;> (first | rfl | assumption))
  · (after_results_simp <;> (try simp only [a0, a1, a2, a3, a4, a5, h_main_v2, h_main_v3, h_main_v4, h_main_v5, h_main_v514, h_main_v655, h_main_v658, h_main_v667, h_main_v668]) <;> (first | rfl | assumption))
  · (after_results_simp <;> (try simp only [a0, a1, a2, a3, a4, a5, h_main_v2, h_main_v3, h_main_v4, h_main_v5, h_main_v514, h_main_v655, h_main_v658, h_main_v667, h_main_v668]) <;> (first | rfl | assumption))
  · (after_results_simp <;> (try simp only [a0, a1, a2, a3, a4, a5, h_main_v2, h_main_v3, h_main_v4, h_main_v5, h_main_v514, h_main_v655, h_main_v658, h_main_v667, h_main_v668]) <;> (first | rfl | assumption))
  · (after_results_simp <;> (try simp only [a0, a1, a2, a3, a4, a5, h_main_v2, h_main_v3, h_main_v4, h_main_v5, h_main_v514, h_main_v655, h_main_v658, h_main_v667, h_main_v668]) <;> (first | rfl | assumption))
  · (after_results_simp <;> (try simp only [a0, a1, a2, a3, a4, a5, h_main_v2, h_main_v3, h_main_v4, h_main_v5, h_main_v514, h_main_v655, h_main_v658, h_main_v667, h_main_v668]) <;> (first | rfl | assumption))
  · (after_results_simp <;> (try simp only [a0, a1, a2, a3, a4, a5, h_main_v2, h_main_v3, h_main_v4, h_main_v5, h_main_v514, h_main_v655, h_main_v658, h_main_v667, h_main_v668]) <;> (first | rfl | assumption))
  · (after_results_simp <;> (try simp only [a0, a1, a2, a3, a4, a5, h_main_v2, h_main_v3, h_main_v4, h_main_v5, h_main_v514, h_main_v655, h_main_v658, h_main_v667, h_main_v668]) <;> (first | rfl | assumption))

end Cert.ReferenceIdeal.RunH

end
-- ==== Proof.RefRun14.lean ====
/- The reference program's @main, statements 841 … 900 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops14 : List (HloOp τ sig (Elt F)) :=
  [ unary main_arg1 main_v722 ((extractStridedSlice S1 ![2] · slices_S5_S1_2) : (⟨S5, .f32⟩ : BufTy).Contents (Elt F) → (⟨S1, .f32⟩ : BufTy).Contents (Elt F)),
    reshape main_v722 main_v723 rfl shapeCasts_S1_S_,
    nullary main_c_116 (constantI S_ 32 0#32),
    unary main_c_116 main_v724 (broadcastInDim S64 ![] bcast_S_S64 : (⟨S_, .i32⟩ : BufTy).Contents (Elt F) → (⟨S64, .i32⟩ : BufTy).Contents (Elt F)),
    binary main_v724 main_v4 main_v725 (subi : (⟨S64, .i32⟩ : BufTy).Contents (Elt F) → (⟨S64, .i32⟩ : BufTy).Contents (Elt F) → (⟨S64, .i32⟩ : BufTy).Contents (Elt F)),
    unary main_v725 main_v726 (broadcastInDim S64x1 ![0] bcast_S64_S64x1_0 : (⟨S64, .i32⟩ : BufTy).Contents (Elt F) → (⟨S64x1, .i32⟩ : BufTy).Contents (Elt F)),
    unary main_v726 main_v727 (sitofp .f32 : (⟨S64x1, .i32⟩ : BufTy).Contents (Elt F) → (⟨S64x1, .f32⟩ : BufTy).Contents (Elt F)),
    unary main_v723 main_v728 (broadcastInDim S64x1 ![] bcast_S_S64x1 : (⟨S_, .f32⟩ : BufTy).Contents (Elt F) → (⟨S64x1, .f32⟩ : BufTy).Contents (Elt F)),
    binary main_v728 main_v727 main_v729 (mulf : (⟨S64x1, .f32⟩ : BufTy).Contents (Elt F) → (⟨S64x1, .f32⟩ : BufTy).Contents (Elt F) → (⟨S64x1, .f32⟩ : BufTy).Contents (Elt F)),
    unary main_arg2 main_v730 ((extractStridedSlice S1 ![4] · slices_S5_S1_4) : (⟨S5, .f32⟩ : BufTy).Contents (Elt F) → (⟨S1, .f32⟩ : BufTy).Contents (Elt F)),
    reshape main_v730 main_v731 rfl shapeCasts_S1_S_,
    nullary main_c_117 (constantI S_ 32 2#32),
    unary main_c_117 main_v732 (broadcastInDim S64 ![] bcast_S_S64 : (⟨S_, .i32⟩ : BufTy).Contents (Elt F) → (⟨S64, .i32⟩ : BufTy).Contents (Elt F)),
    binary main_v732 main_v5 main_v733 (subi : (⟨S64, .i32⟩ : BufTy).Contents (Elt F) → (⟨S64, .i32⟩ : BufTy).Contents (Elt F) → (⟨S64, .i32⟩ : BufTy).Contents (Elt F)),
    unary main_v733 main_v734 (broadcastInDim S1x64 ![1] bcast_S64_S1x64_1 : (⟨S64, .i32⟩ : BufTy).Contents (Elt F) → (⟨S1x64, .i32⟩ : BufTy).Contents (Elt F)),
    unary main_v734 main_v735 (sitofp .f32 : (⟨S1x64, .i32⟩ : BufTy).Contents (Elt F) → (⟨S1x64, .f32⟩ : BufTy).Contents (Elt F)),
    unary main_v731 main_v736 (broadcastInDim S1x64 ![] bcast_S_S1x64 : (⟨S_, .f32⟩ : BufTy).Contents (Elt F) → (⟨S1x64, .f32⟩ : BufTy).Contents (Elt F)),
    binary main_v736 main_v735 main_v737 (mulf : (⟨S1x64, .f32⟩ : BufTy).Contents (Elt F) → (⟨S1x64, .f32⟩ : BufTy).Contents (Elt F) → (⟨S1x64, .f32⟩ : BufTy).Contents (Elt F)),
    unary main_v729 main_v738 (broadcastInDim S64x64 ![0, 1] bcast_S64x1_S64x64_0_1 : (⟨S64x1, .f32⟩ : BufTy).Contents (Elt F) → (⟨S64x64, .f32⟩ : BufTy).Contents (Elt F)),
    unary main_v737 main_v739 (broadcastInDim S64x64 ![0, 1] bcast_S1x64_S64x64_0_1 : (⟨S1x64, .f32⟩ : BufTy).Contents (Elt F) → (⟨S64x64, .f32⟩ : BufTy).Contents (Elt F)),
    binary main_v738 main_v739 main_v740 (addf : (⟨S64x64, .f32⟩ : BufTy).Contents (Elt F) → (⟨S64x64, .f32⟩ : BufTy).Contents (Elt F) → (⟨S64x64, .f32⟩ : BufTy).Contents (Elt F)),
    unary main_v2 main_v741 ((extractStridedSlice S16x64x64x256 ![0, 2, 4, 0] · slices_S16x68x68x256_S16x64x64x256_0_2_4_0) : (⟨S16x68x68x256, .f32⟩ : BufTy).Contents (Elt F) → (⟨S16x64x64x256, .f32⟩ : BufTy).Contents (Elt F)),
    unary main_v3 main_v742 ((extractStridedSlice S16x64x64x256 ![0, 2, 4, 0] · slices_S16x68x68x256_S16x64x64x256_0_2_4_0) : (⟨S16x68x68x256, .f32⟩ : BufTy).Contents (Elt F) → (⟨S16x64x64x256, .f32⟩ : BufTy).Contents (Elt F)),
    unary main_v740 main_v743 (broadcastInDim S1x64x64x1 ![1, 2] bcast_S64x64_S1x64x64x1_1_2 : (⟨S64x64, .f32⟩ : BufTy).Contents (Elt F) → (⟨S1x64x64x1, .f32⟩ : BufTy).Contents (Elt F)),
    unary main_v743 main_v744 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v744 main_v741 main_v745 (addf : (⟨S16x64x64x256, .f32⟩ : BufTy).Contents (Elt F) → (⟨S16x64x64x256, .f32⟩ : BufTy).Contents (Elt F) → (⟨S16x64x64x256, .f32⟩ : BufTy).Contents (Elt F)),
    unary main_v745 main_v746 (Host.exp : (⟨S16x64x64x256, .f32⟩ : BufTy).Contents (Elt F) → (⟨S16x64x64x256, .f32⟩ : BufTy).Contents (Elt F)),
    unary main_v721 main_v747 (broadcastInDim S1x64x64x1 ![1, 2] bcast_S64x64_S1x64x64x1_1_2 : (⟨S64x64, .f32⟩ : BufTy).Contents (Elt F) → (⟨S1x64x64x1, .f32⟩ : BufTy).Contents (Elt F)),
    unary main_v747 main_v748 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v746 main_v748 main_v749 (mulf : (⟨S16x64x64x256, .f32⟩ : BufTy).Contents (Elt F) → (⟨S16x64x64x256, .f32⟩ : BufTy).Contents (Elt F) → (⟨S16x64x64x256, .f32⟩ : BufTy).Contents (Elt F)),
    binary main_v749 main_v742 main_v750 (mulf : (⟨S16x64x64x256, .f32⟩ : BufTy).Contents (Elt F) → (⟨S16x64x64x256, .f32⟩ : BufTy).Contents (Elt F) → (⟨S16x64x64x256, .f32⟩ : BufTy).Contents (Elt F)),
    binary main_v703 main_v750 main_v751 (addf : (⟨S16x64x64x256, .f32⟩ : BufTy).Contents (Elt F) → (⟨S16x64x64x256, .f32⟩ : BufTy).Contents (Elt F) → (⟨S16x64x64x256, .f32⟩ : BufTy).Contents (Elt F)),
    nullary main_cst_118 (constant S_ .f32 0x00000000#32),
    binary main_v749 main_cst_118 main_v752 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v752 main_v753 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v706 main_v753 main_v754 (addf : (⟨S16x64x64x1, .f32⟩ : BufTy).Contents (Elt F) → (⟨S16x64x64x1, .f32⟩ : BufTy).Contents (Elt F) → (⟨S16x64x64x1, .f32⟩ : BufTy).Contents (Elt F)),
    nullary main_c_119 (constantI S_ 32 1#32),
    unary main_c_119 main_v755 (broadcastInDim S64 ![] bcast_S_S64 : (⟨S_, .i32⟩ : BufTy).Contents (Elt F) → (⟨S64, .i32⟩ : BufTy).Contents (Elt F)),
    binary main_v4 main_v755 main_v756 (addi : (⟨S64, .i32⟩ : BufTy).Contents (Elt F) → (⟨S64, .i32⟩ : BufTy).Contents (Elt F) → (⟨S64, .i32⟩ : BufTy).Contents (Elt F)),
    nullary main_c_120 (constantI S_ 32 0#32),
    unary main_c_120 main_v757 (broadcastInDim S64 ![] bcast_S_S64 : (⟨S_, .i32⟩ : BufTy).Contents (Elt F) → (⟨S64, .i32⟩ : BufTy).Contents (Elt F)),
    binary main_v756 main_v757 main_v758 (cmpi .sge : (⟨S64, .i32⟩ : BufTy).Contents (Elt F) → (⟨S64, .i32⟩ : BufTy).Contents (Elt F) → (⟨S64, .i1⟩ : BufTy).Contents (Elt F)),
    nullary main_c_121 (constantI S_ 32 1#32),
    unary main_c_121 main_v759 (broadcastInDim S64 ![] bcast_S_S64 : (⟨S_, .i32⟩ : BufTy).Contents (Elt F) → (⟨S64, .i32⟩ : BufTy).Contents (Elt F)),
    binary main_v4 main_v759 main_v760 (addi : (⟨S64, .i32⟩ : BufTy).Contents (Elt F) → (⟨S64, .i32⟩ : BufTy).Contents (Elt F) → (⟨S64, .i32⟩ : BufTy).Contents (Elt F)),
    nullary main_c_122 (constantI S_ 32 64#32),
    unary main_c_122 main_v761 (broadcastInDim S64 ![] bcast_S_S64 : (⟨S_, .i32⟩ : BufTy).Contents (Elt F) → (⟨S64, .i32⟩ : BufTy).Contents (Elt F)),
    binary main_v760 main_v761 main_v762 (cmpi .slt : (⟨S64, .i32⟩ : BufTy).Contents (Elt F) → (⟨S64, .i32⟩ : BufTy).Contents (Elt F) → (⟨S64, .i1⟩ : BufTy).Contents (Elt F)),
    binary main_v758 main_v762 main_v763 (andi : (⟨S64, .i1⟩ : BufTy).Contents (Elt F) → (⟨S64, .i1⟩ : BufTy).Contents (Elt F) → (⟨S64, .i1⟩ : BufTy).Contents (Elt F)),
    nullary main_c_123 (constantI S_ 32 4294967294#32),
    unary main_c_123 main_v764 (broadcastInDim S64 ![] bcast_S_S64 : (⟨S_, .i32⟩ : BufTy).Contents (Elt F) → (⟨S64, .i32⟩ : BufTy).Contents (Elt F)),
    binary main_v5 main_v764 main_v765 (addi : (⟨S64, .i32⟩ : BufTy).Contents (Elt F) → (⟨S64, .i32⟩ : BufTy).Contents (Elt F) → (⟨S64, .i32⟩ : BufTy).Contents (Elt F)),
    nullary main_c_124 (constantI S_ 32 0#32),
    unary main_c_124 main_v766 (broadcastInDim S64 ![] bcast_S_S64 : (⟨S_, .i32⟩ : BufTy).Contents (Elt F) → (⟨S64, .i32⟩ : BufTy).Contents (Elt F)),
    binary main_v765 main_v766 main_v767 (cmpi .sge : (⟨S64, .i32⟩ : BufTy).Contents (Elt F) → (⟨S64, .i32⟩ : BufTy).Contents (Elt F) → (⟨S64, .i1⟩ : BufTy).Contents (Elt F)),
    nullary main_c_125 (constantI S_ 32 4294967294#32),
    unary main_c_125 main_v768 (broadcastInDim S64 ![] bcast_S_S64 : (⟨S_, .i32⟩ : BufTy).Contents (Elt F) → (⟨S64, .i32⟩ : BufTy).Contents (Elt F)),
    binary main_v5 main_v768 main_v769 (addi : (⟨S64, .i32⟩ : BufTy).Contents (Elt F) → (⟨S64, .i32⟩ : BufTy).Contents (Elt F) → (⟨S64, .i32⟩ : BufTy).Contents (Elt F)),
    nullary main_c_126 (constantI S_ 32 64#32),
    unary main_c_126 main_v770 (broadcastInDim S64 ![] bcast_S_S64 : (⟨S_, .i32⟩ : BufTy).Contents (Elt F) → (⟨S64, .i32⟩ : BufTy).Contents (Elt F)) ]

set_option maxRecDepth 8192 in
set_option maxHeartbeats 4000000 in
theorem part14_eq (d : Dev nD) : main_part14 (F := F) d = seq ops14 := rfl

set_option maxRecDepth 8192 in
theorem ops14_sub : (ops14 : List (HloOp τ sig (Elt F))).Forall fun op => op.bufs ⊆ tcRefs τ sig := by
  unfold ops14
  exact ⟨unary_bufs_sub .., reshape_bufs_sub .., nullary_bufs_sub .., unary_bufs_sub .., binary_bufs_sub .., unary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub ..⟩

set_option maxRecDepth 8192 in
theorem ops14_fresh : ∀ op ∈ (ops14 : List (HloOp τ sig (Elt F))), op.fresh = ∅ := by
  unfold ops14
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value14 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v703 : W (Proc.devRef .tc main_v703) = ReadP.val_main_v703 (F := F) x0 x1 x2 x3 x4)
    (h_main_v706 : W (Proc.devRef .tc main_v706) = ReadP.val_main_v706 (F := F) x0 x1 x2 x3)
    (h_main_v721 : W (Proc.devRef .tc main_v721) = ReadP.val_main_v721 (F := F)) :
    after ops14 W (Proc.devRef .tc main_arg0) = x0 ∧
    after ops14 W (Proc.devRef .tc main_arg1) = x1 ∧
    after ops14 W (Proc.devRef .tc main_arg2) = x2 ∧
    after ops14 W (Proc.devRef .tc main_arg3) = x3 ∧
    after ops14 W (Proc.devRef .tc main_arg4) = x4 ∧
    after ops14 W (Proc.devRef .tc main_arg5) = x5 ∧
    after ops14 W (Proc.devRef .tc main_v2) = ReadP.val_main_v2 (F := F) x0 x3 ∧
    after ops14 W (Proc.devRef .tc main_v3) = ReadP.val_main_v3 (F := F) x0 x4 ∧
    after ops14 W (Proc.devRef .tc main_v4) = ReadP.val_main_v4 (F := F) ∧
    after ops14 W (Proc.devRef .tc main_v5) = ReadP.val_main_v5 (F := F) ∧
    after ops14 W (Proc.devRef .tc main_v751) = ReadP.val_main_v751 (F := F) x0 x1 x2 x3 x4 ∧
    after ops14 W (Proc.devRef .tc main_v754) = ReadP.val_main_v754 (F := F) x0 x1 x2 x3 ∧
    after ops14 W (Proc.devRef .tc main_v763) = ReadP.val_main_v763 (F := F) ∧
    after ops14 W (Proc.devRef .tc main_v767) = ReadP.val_main_v767 (F := F) ∧
    after ops14 W (Proc.devRef .tc main_v769) = ReadP.val_main_v769 (F := F) ∧
    after ops14 W (Proc.devRef .tc main_v770) = ReadP.val_main_v770 (F := F) := by
  unfold ops14
  refine ⟨?_, ?_, ?_, ?_, ?_, ?_, ?_, ?_, ?_, ?_, ?_, ?_, ?_, ?_, ?_, ?_⟩
  · (after_results_simp <;> (try simp only [a0, a1, a2, a3, a4, a5, h_main_v2, h_main_v3, h_main_v4, h_main_v5, h_main_v703, h_main_v706, h_main_v721]) <;> (first | rfl | assumption))
  · (after_results_simp <;> (try simp only [a0, a1, a2, a3, a4, a5, h_main_v2, h_main_v3, h_main_v4, h_main_v5, h_main_v703, h_main_v706, h_main_v721]) <;> (first | rfl | assumption))
  · (after_results_simp <;> (try simp only [a0, a1, a2, a3, a4, a5, h_main_v2, h_main_v3, h_main_v4, h_main_v5, h_main_v703, h_main_v706, h_main_v721]) <;> (first | rfl | assumption))
  · (after_results_simp <;> (try simp only [a0, a1, a2, a3, a4, a5, h_main_v2, h_main_v3, h_main_v4, h_main_v5, h_main_v703, h_main_v706, h_main_v721]) <;> (first | rfl | assumption))
  · (after_results_simp <;> (try simp only [a0, a1, a2, a3, a4, a5, h_main_v2, h_main_v3, h_main_v4, h_main_v5, h_main_v703, h_main_v706, h_main_v721]) <;> (first | rfl | assumption))
  · (after_results_simp <;> (try simp only [a0, a1, a2, a3, a4, a5, h_main_v2, h_main_v3, h_main_v4, h_main_v5, h_main_v703, h_main_v706, h_main_v721]) <;> (first | rfl | assumption))
  · (after_results_simp <;> (try simp only [a0, a1, a2, a3, a4, a5, h_main_v2, h_main_v3, h_main_v4, h_main_v5, h_main_v703, h_main_v706, h_main_v721]) <;> (first | rfl | assumption))
  · (after_results_simp <;> (try simp only [a0, a1, a2, a3, a4, a5, h_main_v2, h_main_v3, h_main_v4, h_main_v5, h_main_v703, h_main_v706, h_main_v721]) <;> (first | rfl | assumption))
  · (after_results_simp <;> (try simp only [a0, a1, a2, a3, a4, a5, h_main_v2, h_main_v3, h_main_v4, h_main_v5, h_main_v703, h_main_v706, h_main_v721]) <;> (first | rfl | assumption))
  · (after_results_simp <;> (try simp only [a0, a1, a2, a3, a4, a5, h_main_v2, h_main_v3, h_main_v4, h_main_v5, h_main_v703, h_main_v706, h_main_v721]) <;> (first | rfl | assumption))
  · (after_results_simp <;> (try simp only [a0, a1, a2, a3, a4, a5, h_main_v2, h_main_v3, h_main_v4, h_main_v5, h_main_v703, h_main_v706, h_main_v721]) <;> (first | rfl | assumption))
  · (after_results_simp <;> (try simp only [a0, a1, a2, a3, a4, a5, h_main_v2, h_main_v3, h_main_v4, h_main_v5, h_main_v703, h_main_v706, h_main_v721]) <;> (first | rfl | assumption))
  · (after_results_simp <;> (try simp only [a0, a1, a2, a3, a4, a5, h_main_v2, h_main_v3, h_main_v4, h_main_v5, h_main_v703, h_main_v706, h_main_v721]) <;> (first | rfl | assumption))
  · (after_results_simp <;> (try simp only [a0, a1, a2, a3, a4, a5, h_main_v2, h_main_v3, h_main_v4, h_main_v5, h_main_v703, h_main_v706, h_main_v721]) <;> (first | rfl | assumption))
  · (after_results_simp <;> (try simp only [a0, a1, a2, a3, a4, a5, h_main_v2, h_main_v3, h_main_v4, h_main_v5, h_main_v703, h_main_v706, h_main_v721]) <;> (first | rfl | assumption))
  · (after_results_simp <;> (try simp only [a0, a1, a2, a3, a4, a5, h_main_v2, h_main_v3, h_main_v4, h_main_v5, h_main_v703, h_main_v706, h_main_v721]) <;> (first | rfl | assumption))

end Cert.ReferenceIdeal.RunH

end
-- ==== Proof.RefRun15.lean ====
/- The reference program's @main, statements 901 … 960 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops15 : List (HloOp τ sig (Elt F)) :=
  [ binary main_v769 main_v770 main_v771 (cmpi .slt : (⟨S64, .i32⟩ : BufTy).Contents (Elt F) → (⟨S64, .i32⟩ : BufTy).Contents (Elt F) → (⟨S64, .i1⟩ : BufTy).Contents (Elt F)),
    binary main_v767 main_v771 main_v772 (andi : (⟨S64, .i1⟩ : BufTy).Contents (Elt F) → (⟨S64, .i1⟩ : BufTy).Contents (Elt F) → (⟨S64, .i1⟩ : BufTy).Contents (Elt F)),
    unary main_v763 main_v773 (broadcastInDim S64x1 ![0] bcast_S64_S64x1_0 : (⟨S64, .i1⟩ : BufTy).Contents (Elt F) → (⟨S64x1, .i1⟩ : BufTy).Contents (Elt F)),
    unary main_v772 main_v774 (broadcastInDim S1x64 ![1] bcast_S64_S1x64_1 : (⟨S64, .i1⟩ : BufTy).Contents (Elt F) → (⟨S1x64, .i1⟩ : BufTy).Contents (Elt F)),
    unary main_v773 main_v775 (broadcastInDim S64x64 ![0, 1] bcast_S64x1_S64x64_0_1 : (⟨S64x1, .i1⟩ : BufTy).Contents (Elt F) → (⟨S64x64, .i1⟩ : BufTy).Contents (Elt F)),
    unary main_v774 main_v776 (broadcastInDim S64x64 ![0, 1] bcast_S1x64_S64x64_0_1 : (⟨S1x64, .i1⟩ : BufTy).Contents (Elt F) → (⟨S64x64, .i1⟩ : BufTy).Contents (Elt F)),
    binary main_v775 main_v776 main_v777 (andi : (⟨S64x64, .i1⟩ : BufTy).Contents (Elt F) → (⟨S64x64, .i1⟩ : BufTy).Contents (Elt F) → (⟨S64x64, .i1⟩ : BufTy).Contents (Elt F)),
    unary main_v777 main_v778 (uitofp .f32 : (⟨S64x64, .i1⟩ : BufTy).Contents (Elt F) → (⟨S64x64, .f32⟩ : BufTy).Contents (Elt F)),
    unary main_arg1 main_v779 ((extractStridedSlice S1 ![3] · slices_S5_S1_3) : (⟨S5, .f32⟩ : BufTy).Contents (Elt F) → (⟨S1, .f32⟩ : BufTy).Contents (Elt F)),
    reshape main_v779 main_v780 rfl shapeCasts_S1_S_,
    nullary main_c_127 (constantI S_ 32 1#32),
    unary main_c_127 main_v781 (broadcastInDim S64 ![] bcast_S_S64 : (⟨S_, .i32⟩ : BufTy).Contents (Elt F) → (⟨S64, .i32⟩ : BufTy).Contents (Elt F)),
    binary main_v781 main_v4 main_v782 (subi : (⟨S64, .i32⟩ : BufTy).Contents (Elt F) → (⟨S64, .i32⟩ : BufTy).Contents (Elt F) → (⟨S64, .i32⟩ : BufTy).Contents (Elt F)),
    unary main_v782 main_v783 (broadcastInDim S64x1 ![0] bcast_S64_S64x1_0 : (⟨S64, .i32⟩ : BufTy).Contents (Elt F) → (⟨S64x1, .i32⟩ : BufTy).Contents (Elt F)),
    unary main_v783 main_v784 (sitofp .f32 : (⟨S64x1, .i32⟩ : BufTy).Contents (Elt F) → (⟨S64x1, .f32⟩ : BufTy).Contents (Elt F)),
    unary main_v780 main_v785 (broadcastInDim S64x1 ![] bcast_S_S64x1 : (⟨S_, .f32⟩ : BufTy).Contents (Elt F) → (⟨S64x1, .f32⟩ : BufTy).Contents (Elt F)),
    binary main_v785 main_v784 main_v786 (mulf : (⟨S64x1, .f32⟩ : BufTy).Contents (Elt F) → (⟨S64x1, .f32⟩ : BufTy).Contents (Elt F) → (⟨S64x1, .f32⟩ : BufTy).Contents (Elt F)),
    unary main_arg2 main_v787 ((extractStridedSlice S1 ![0] · slices_S5_S1_0) : (⟨S5, .f32⟩ : BufTy).Contents (Elt F) → (⟨S1, .f32⟩ : BufTy).Contents (Elt F)),
    reshape main_v787 main_v788 rfl shapeCasts_S1_S_,
    nullary main_c_128 (constantI S_ 32 4294967294#32),
    unary main_c_128 main_v789 (broadcastInDim S64 ![] bcast_S_S64 : (⟨S_, .i32⟩ : BufTy).Contents (Elt F) → (⟨S64, .i32⟩ : BufTy).Contents (Elt F)),
    binary main_v789 main_v5 main_v790 (subi : (⟨S64, .i32⟩ : BufTy).Contents (Elt F) → (⟨S64, .i32⟩ : BufTy).Contents (Elt F) → (⟨S64, .i32⟩ : BufTy).Contents (Elt F)),
    unary main_v790 main_v791 (broadcastInDim S1x64 ![1] bcast_S64_S1x64_1 : (⟨S64, .i32⟩ : BufTy).Contents (Elt F) → (⟨S1x64, .i32⟩ : BufTy).Contents (Elt F)),
    unary main_v791 main_v792 (sitofp .f32 : (⟨S1x64, .i32⟩ : BufTy).Contents (Elt F) → (⟨S1x64, .f32⟩ : BufTy).Contents (Elt F)),
    unary main_v788 main_v793 (broadcastInDim S1x64 ![] bcast_S_S1x64 : (⟨S_, .f32⟩ : BufTy).Contents (Elt F) → (⟨S1x64, .f32⟩ : BufTy).Contents (Elt F)),
    binary main_v793 main_v792 main_v794 (mulf : (⟨S1x64, .f32⟩ : BufTy).Contents (Elt F) → (⟨S1x64, .f32⟩ : BufTy).Contents (Elt F) → (⟨S1x64, .f32⟩ : BufTy).Contents (Elt F)),
    unary main_v786 main_v795 (broadcastInDim S64x64 ![0, 1] bcast_S64x1_S64x64_0_1 : (⟨S64x1, .f32⟩ : BufTy).Contents (Elt F) → (⟨S64x64, .f32⟩ : BufTy).Contents (Elt F)),
    unary main_v794 main_v796 (broadcastInDim S64x64 ![0, 1] bcast_S1x64_S64x64_0_1 : (⟨S1x64, .f32⟩ : BufTy).Contents (Elt F) → (⟨S64x64, .f32⟩ : BufTy).Contents (Elt F)),
    binary main_v795 main_v796 main_v797 (addf : (⟨S64x64, .f32⟩ : BufTy).Contents (Elt F) → (⟨S64x64, .f32⟩ : BufTy).Contents (Elt F) → (⟨S64x64, .f32⟩ : BufTy).Contents (Elt F)),
    unary main_v2 main_v798 ((extractStridedSlice S16x64x64x256 ![0, 3, 0, 0] · slices_S16x68x68x256_S16x64x64x256_0_3_0_0) : (⟨S16x68x68x256, .f32⟩ : BufTy).Contents (Elt F) → (⟨S16x64x64x256, .f32⟩ : BufTy).Contents (Elt F)),
    unary main_v3 main_v799 ((extractStridedSlice S16x64x64x256 ![0, 3, 0, 0] · slices_S16x68x68x256_S16x64x64x256_0_3_0_0) : (⟨S16x68x68x256, .f32⟩ : BufTy).Contents (Elt F) → (⟨S16x64x64x256, .f32⟩ : BufTy).Contents (Elt F)),
    unary main_v797 main_v800 (broadcastInDim S1x64x64x1 ![1, 2] bcast_S64x64_S1x64x64x1_1_2 : (⟨S64x64, .f32⟩ : BufTy).Contents (Elt F) → (⟨S1x64x64x1, .f32⟩ : BufTy).Contents (Elt F)),
    unary main_v800 main_v801 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v801 main_v798 main_v802 (addf : (⟨S16x64x64x256, .f32⟩ : BufTy).Contents (Elt F) → (⟨S16x64x64x256, .f32⟩ : BufTy).Contents (Elt F) → (⟨S16x64x64x256, .f32⟩ : BufTy).Contents (Elt F)),
    unary main_v802 main_v803 (Host.exp : (⟨S16x64x64x256, .f32⟩ : BufTy).Contents (Elt F) → (⟨S16x64x64x256, .f32⟩ : BufTy).Contents (Elt F)),
    unary main_v778 main_v804 (broadcastInDim S1x64x64x1 ![1, 2] bcast_S64x64_S1x64x64x1_1_2 : (⟨S64x64, .f32⟩ : BufTy).Contents (Elt F) → (⟨S1x64x64x1, .f32⟩ : BufTy).Contents (Elt F)),
    unary main_v804 main_v805 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v803 main_v805 main_v806 (mulf : (⟨S16x64x64x256, .f32⟩ : BufTy).Contents (Elt F) → (⟨S16x64x64x256, .f32⟩ : BufTy).Contents (Elt F) → (⟨S16x64x64x256, .f32⟩ : BufTy).Contents (Elt F)),
    binary main_v806 main_v799 main_v807 (mulf : (⟨S16x64x64x256, .f32⟩ : BufTy).Contents (Elt F) → (⟨S16x64x64x256, .f32⟩ : BufTy).Contents (Elt F) → (⟨S16x64x64x256, .f32⟩ : BufTy).Contents (Elt F)),
    binary main_v751 main_v807 main_v808 (addf : (⟨S16x64x64x256, .f32⟩ : BufTy).Contents (Elt F) → (⟨S16x64x64x256, .f32⟩ : BufTy).Contents (Elt F) → (⟨S16x64x64x256, .f32⟩ : BufTy).Contents (Elt F)),
    nullary main_cst_129 (constant S_ .f32 0x00000000#32),
    binary main_v806 main_cst_129 main_v809 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v809 main_v810 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v754 main_v810 main_v811 (addf : (⟨S16x64x64x1, .f32⟩ : BufTy).Contents (Elt F) → (⟨S16x64x64x1, .f32⟩ : BufTy).Contents (Elt F) → (⟨S16x64x64x1, .f32⟩ : BufTy).Contents (Elt F)),
    nullary main_c_130 (constantI S_ 32 4294967295#32),
    unary main_c_130 main_v812 (broadcastInDim S64 ![] bcast_S_S64 : (⟨S_, .i32⟩ : BufTy).Contents (Elt F) → (⟨S64, .i32⟩ : BufTy).Contents (Elt F)),
    binary main_v5 main_v812 main_v813 (addi : (⟨S64, .i32⟩ : BufTy).Contents (Elt F) → (⟨S64, .i32⟩ : BufTy).Contents (Elt F) → (⟨S64, .i32⟩ : BufTy).Contents (Elt F)),
    nullary main_c_131 (constantI S_ 32 0#32),
    unary main_c_131 main_v814 (broadcastInDim S64 ![] bcast_S_S64 : (⟨S_, .i32⟩ : BufTy).Contents (Elt F) → (⟨S64, .i32⟩ : BufTy).Contents (Elt F)),
    binary main_v813 main_v814 main_v815 (cmpi .sge : (⟨S64, .i32⟩ : BufTy).Contents (Elt F) → (⟨S64, .i32⟩ : BufTy).Contents (Elt F) → (⟨S64, .i1⟩ : BufTy).Contents (Elt F)),
    nullary main_c_132 (constantI S_ 32 4294967295#32),
    unary main_c_132 main_v816 (broadcastInDim S64 ![] bcast_S_S64 : (⟨S_, .i32⟩ : BufTy).Contents (Elt F) → (⟨S64, .i32⟩ : BufTy).Contents (Elt F)),
    binary main_v5 main_v816 main_v817 (addi : (⟨S64, .i32⟩ : BufTy).Contents (Elt F) → (⟨S64, .i32⟩ : BufTy).Contents (Elt F) → (⟨S64, .i32⟩ : BufTy).Contents (Elt F)),
    nullary main_c_133 (constantI S_ 32 64#32),
    unary main_c_133 main_v818 (broadcastInDim S64 ![] bcast_S_S64 : (⟨S_, .i32⟩ : BufTy).Contents (Elt F) → (⟨S64, .i32⟩ : BufTy).Contents (Elt F)),
    binary main_v817 main_v818 main_v819 (cmpi .slt : (⟨S64, .i32⟩ : BufTy).Contents (Elt F) → (⟨S64, .i32⟩ : BufTy).Contents (Elt F) → (⟨S64, .i1⟩ : BufTy).Contents (Elt F)),
    binary main_v815 main_v819 main_v820 (andi : (⟨S64, .i1⟩ : BufTy).Contents (Elt F) → (⟨S64, .i1⟩ : BufTy).Contents (Elt F) → (⟨S64, .i1⟩ : BufTy).Contents (Elt F)),
    unary main_v763 main_v821 (broadcastInDim S64x1 ![0] bcast_S64_S64x1_0 : (⟨S64, .i1⟩ : BufTy).Contents (Elt F) → (⟨S64x1, .i1⟩ : BufTy).Contents (Elt F)),
    unary main_v820 main_v822 (broadcastInDim S1x64 ![1] bcast_S64_S1x64_1 : (⟨S64, .i1⟩ : BufTy).Contents (Elt F) → (⟨S1x64, .i1⟩ : BufTy).Contents (Elt F)),
    unary main_v821 main_v823 (broadcastInDim S64x64 ![0, 1] bcast_S64x1_S64x64_0_1 : (⟨S64x1, .i1⟩ : BufTy).Contents (Elt F) → (⟨S64x64, .i1⟩ : BufTy).Contents (Elt F)) ]

set_option maxRecDepth 8192 in
set_option maxHeartbeats 4000000 in
theorem part15_eq (d : Dev nD) : main_part15 (F := F) d = seq ops15 := rfl

set_option maxRecDepth 8192 in
theorem ops15_sub : (ops15 : List (HloOp τ sig (Elt F))).Forall fun op => op.bufs ⊆ tcRefs τ sig := by
  unfold ops15
  exact ⟨binary_bufs_sub .., binary_bufs_sub .., unary_bufs_sub .., unary_bufs_sub .., unary_bufs_sub .., unary_bufs_sub .., binary_bufs_sub .., unary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub ..⟩

set_option maxRecDepth 8192 in
theorem ops15_fresh : ∀ op ∈ (ops15 : List (HloOp τ sig (Elt F))), op.fresh = ∅ := by
  unfold ops15
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value15 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v751 : W (Proc.devRef .tc main_v751) = ReadP.val_main_v751 (F := F) x0 x1 x2 x3 x4)
    (h_main_v754 : W (Proc.devRef .tc main_v754) = ReadP.val_main_v754 (F := F) x0 x1 x2 x3)
    (h_main_v763 : W (Proc.devRef .tc main_v763) = ReadP.val_main_v763 (F := F))
    (h_main_v767 : W (Proc.devRef .tc main_v767) = ReadP.val_main_v767 (F := F))
    (h_main_v769 : W (Proc.devRef .tc main_v769) = ReadP.val_main_v769 (F := F))
    (h_main_v770 : W (Proc.devRef .tc main_v770) = ReadP.val_main_v770 (F := F)) :
    after ops15 W (Proc.devRef .tc main_arg0) = x0 ∧
    after ops15 W (Proc.devRef .tc main_arg1) = x1 ∧
    after ops15 W (Proc.devRef .tc main_arg2) = x2 ∧
    after ops15 W (Proc.devRef .tc main_arg3) = x3 ∧
    after ops15 W (Proc.devRef .tc main_arg4) = x4 ∧
    after ops15 W (Proc.devRef .tc main_arg5) = x5 ∧
    after ops15 W (Proc.devRef .tc main_v2) = ReadP.val_main_v2 (F := F) x0 x3 ∧
    after ops15 W (Proc.devRef .tc main_v3) = ReadP.val_main_v3 (F := F) x0 x4 ∧
    after ops15 W (Proc.devRef .tc main_v4) = ReadP.val_main_v4 (F := F) ∧
    after ops15 W (Proc.devRef .tc main_v5) = ReadP.val_main_v5 (F := F) ∧
    after ops15 W (Proc.devRef .tc main_v763) = ReadP.val_main_v763 (F := F) ∧
    after ops15 W (Proc.devRef .tc main_v808) = ReadP.val_main_v808 (F := F) x0 x1 x2 x3 x4 ∧
    after ops15 W (Proc.devRef .tc main_v811) = ReadP.val_main_v811 (F := F) x0 x1 x2 x3 ∧
    after ops15 W (Proc.devRef .tc main_v822) = ReadP.val_main_v822 (F := F) ∧
    after ops15 W (Proc.devRef .tc main_v823) = ReadP.val_main_v823 (F := F) := by
  unfold ops15
  refine ⟨?_, ?_, ?_, ?_, ?_, ?_, ?_, ?_, ?_, ?_, ?_, ?_, ?_, ?_, ?_⟩
  · (after_results_simp <;> (try simp only [a0, a1, a2, a3, a4, a5, h_main_v2, h_main_v3, h_main_v4, h_main_v5, h_main_v751, h_main_v754, h_main_v763, h_main_v767, h_main_v769, h_main_v770]) <;> (first | rfl | assumption))
  · (after_results_simp <;> (try simp only [a0, a1, a2, a3, a4, a5, h_main_v2, h_main_v3, h_main_v4, h_main_v5, h_main_v751, h_main_v754, h_main_v763, h_main_v767, h_main_v769, h_main_v770]) <;> (first | rfl | assumption))
  · (after_results_simp <;> (try simp only [a0, a1, a2, a3, a4, a5, h_main_v2, h_main_v3, h_main_v4, h_main_v5, h_main_v751, h_main_v754, h_main_v763, h_main_v767, h_main_v769, h_main_v770]) <;> (first | rfl | assumption))
  · (after_results_simp <;> (try simp only [a0, a1, a2, a3, a4, a5, h_main_v2, h_main_v3, h_main_v4, h_main_v5, h_main_v751, h_main_v754, h_main_v763, h_main_v767, h_main_v769, h_main_v770]) <;> (first | rfl | assumption))
  · (after_results_simp <;> (try simp only [a0, a1, a2, a3, a4, a5, h_main_v2, h_main_v3, h_main_v4, h_main_v5, h_main_v751, h_main_v754, h_main_v763, h_main_v767, h_main_v769, h_main_v770]) <;> (first | rfl | assumption))
  · (after_results_simp <;> (try simp only [a0, a1, a2, a3, a4, a5, h_main_v2, h_main_v3, h_main_v4, h_main_v5, h_main_v751, h_main_v754, h_main_v763, h_main_v767, h_main_v769, h_main_v770]) <;> (first | rfl | assumption))
  · (after_results_simp <;> (try simp only [a0, a1, a2, a3, a4, a5, h_main_v2, h_main_v3, h_main_v4, h_main_v5, h_main_v751, h_main_v754, h_main_v763, h_main_v767, h_main_v769, h_main_v770]) <;> (first | rfl | assumption))
  · (after_results_simp <;> (try simp only [a0, a1, a2, a3, a4, a5, h_main_v2, h_main_v3, h_main_v4, h_main_v5, h_main_v751, h_main_v754, h_main_v763, h_main_v767, h_main_v769, h_main_v770]) <;> (first | rfl | assumption))
  · (after_results_simp <;> (try simp only [a0, a1, a2, a3, a4, a5, h_main_v2, h_main_v3, h_main_v4, h_main_v5, h_main_v751, h_main_v754, h_main_v763, h_main_v767, h_main_v769, h_main_v770]) <;> (first | rfl | assumption))
  · (after_results_simp <;> (try simp only [a0, a1, a2, a3, a4, a5, h_main_v2, h_main_v3, h_main_v4, h_main_v5, h_main_v751, h_main_v754, h_main_v763, h_main_v767, h_main_v769, h_main_v770]) <;> (first | rfl | assumption))
  · (after_results_simp <;> (try simp only [a0, a1, a2, a3, a4, a5, h_main_v2, h_main_v3, h_main_v4, h_main_v5, h_main_v751, h_main_v754, h_main_v763, h_main_v767, h_main_v769, h_main_v770]) <;> (first | rfl | assumption))
  · (after_results_simp <;> (try simp only [a0, a1, a2, a3, a4, a5, h_main_v2, h_main_v3, h_main_v4, h_main_v5, h_main_v751, h_main_v754, h_main_v763, h_main_v767, h_main_v769, h_main_v770]) <;> (first | rfl | assumption))
  · (after_results_simp <;> (try simp only [a0, a1, a2, a3, a4, a5, h_main_v2, h_main_v3, h_main_v4, h_main_v5, h_main_v751, h_main_v754, h_main_v763, h_main_v767, h_main_v769, h_main_v770]) <;> (first | rfl | assumption))
  · (after_results_simp <;> (try simp only [a0, a1, a2, a3, a4, a5, h_main_v2, h_main_v3, h_main_v4, h_main_v5, h_main_v751, h_main_v754, h_main_v763, h_main_v767, h_main_v769, h_main_v770]) <;> (first | rfl | assumption))
  · (after_results_simp <;> (try simp only [a0, a1, a2, a3, a4, a5, h_main_v2, h_main_v3, h_main_v4, h_main_v5, h_main_v751, h_main_v754, h_main_v763, h_main_v767, h_main_v769, h_main_v770]) <;> (first | rfl | assumption))

end Cert.ReferenceIdeal.RunH

end
-- ==== Proof.RefRun16.lean ====
/- The reference program's @main, statements 961 … 1020 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops16 : List (HloOp τ sig (Elt F)) :=
  [ unary main_v822 main_v824 (broadcastInDim S64x64 ![0, 1] bcast_S1x64_S64x64_0_1 : (⟨S1x64, .i1⟩ : BufTy).Contents (Elt F) → (⟨S64x64, .i1⟩ : BufTy).Contents (Elt F)),
    binary main_v823 main_v824 main_v825 (andi : (⟨S64x64, .i1⟩ : BufTy).Contents (Elt F) → (⟨S64x64, .i1⟩ : BufTy).Contents (Elt F) → (⟨S64x64, .i1⟩ : BufTy).Contents (Elt F)),
    unary main_v825 main_v826 (uitofp .f32 : (⟨S64x64, .i1⟩ : BufTy).Contents (Elt F) → (⟨S64x64, .f32⟩ : BufTy).Contents (Elt F)),
    unary main_arg1 main_v827 ((extractStridedSlice S1 ![3] · slices_S5_S1_3) : (⟨S5, .f32⟩ : BufTy).Contents (Elt F) → (⟨S1, .f32⟩ : BufTy).Contents (Elt F)),
    reshape main_v827 main_v828 rfl shapeCasts_S1_S_,
    nullary main_c_134 (constantI S_ 32 1#32),
    unary main_c_134 main_v829 (broadcastInDim S64 ![] bcast_S_S64 : (⟨S_, .i32⟩ : BufTy).Contents (Elt F) → (⟨S64, .i32⟩ : BufTy).Contents (Elt F)),
    binary main_v829 main_v4 main_v830 (subi : (⟨S64, .i32⟩ : BufTy).Contents (Elt F) → (⟨S64, .i32⟩ : BufTy).Contents (Elt F) → (⟨S64, .i32⟩ : BufTy).Contents (Elt F)),
    unary main_v830 main_v831 (broadcastInDim S64x1 ![0] bcast_S64_S64x1_0 : (⟨S64, .i32⟩ : BufTy).Contents (Elt F) → (⟨S64x1, .i32⟩ : BufTy).Contents (Elt F)),
    unary main_v831 main_v832 (sitofp .f32 : (⟨S64x1, .i32⟩ : BufTy).Contents (Elt F) → (⟨S64x1, .f32⟩ : BufTy).Contents (Elt F)),
    unary main_v828 main_v833 (broadcastInDim S64x1 ![] bcast_S_S64x1 : (⟨S_, .f32⟩ : BufTy).Contents (Elt F) → (⟨S64x1, .f32⟩ : BufTy).Contents (Elt F)),
    binary main_v833 main_v832 main_v834 (mulf : (⟨S64x1, .f32⟩ : BufTy).Contents (Elt F) → (⟨S64x1, .f32⟩ : BufTy).Contents (Elt F) → (⟨S64x1, .f32⟩ : BufTy).Contents (Elt F)),
    unary main_arg2 main_v835 ((extractStridedSlice S1 ![1] · slices_S5_S1_1) : (⟨S5, .f32⟩ : BufTy).Contents (Elt F) → (⟨S1, .f32⟩ : BufTy).Contents (Elt F)),
    reshape main_v835 main_v836 rfl shapeCasts_S1_S_,
    nullary main_c_135 (constantI S_ 32 4294967295#32),
    unary main_c_135 main_v837 (broadcastInDim S64 ![] bcast_S_S64 : (⟨S_, .i32⟩ : BufTy).Contents (Elt F) → (⟨S64, .i32⟩ : BufTy).Contents (Elt F)),
    binary main_v837 main_v5 main_v838 (subi : (⟨S64, .i32⟩ : BufTy).Contents (Elt F) → (⟨S64, .i32⟩ : BufTy).Contents (Elt F) → (⟨S64, .i32⟩ : BufTy).Contents (Elt F)),
    unary main_v838 main_v839 (broadcastInDim S1x64 ![1] bcast_S64_S1x64_1 : (⟨S64, .i32⟩ : BufTy).Contents (Elt F) → (⟨S1x64, .i32⟩ : BufTy).Contents (Elt F)),
    unary main_v839 main_v840 (sitofp .f32 : (⟨S1x64, .i32⟩ : BufTy).Contents (Elt F) → (⟨S1x64, .f32⟩ : BufTy).Contents (Elt F)),
    unary main_v836 main_v841 (broadcastInDim S1x64 ![] bcast_S_S1x64 : (⟨S_, .f32⟩ : BufTy).Contents (Elt F) → (⟨S1x64, .f32⟩ : BufTy).Contents (Elt F)),
    binary main_v841 main_v840 main_v842 (mulf : (⟨S1x64, .f32⟩ : BufTy).Contents (Elt F) → (⟨S1x64, .f32⟩ : BufTy).Contents (Elt F) → (⟨S1x64, .f32⟩ : BufTy).Contents (Elt F)),
    unary main_v834 main_v843 (broadcastInDim S64x64 ![0, 1] bcast_S64x1_S64x64_0_1 : (⟨S64x1, .f32⟩ : BufTy).Contents (Elt F) → (⟨S64x64, .f32⟩ : BufTy).Contents (Elt F)),
    unary main_v842 main_v844 (broadcastInDim S64x64 ![0, 1] bcast_S1x64_S64x64_0_1 : (⟨S1x64, .f32⟩ : BufTy).Contents (Elt F) → (⟨S64x64, .f32⟩ : BufTy).Contents (Elt F)),
    binary main_v843 main_v844 main_v845 (addf : (⟨S64x64, .f32⟩ : BufTy).Contents (Elt F) → (⟨S64x64, .f32⟩ : BufTy).Contents (Elt F) → (⟨S64x64, .f32⟩ : BufTy).Contents (Elt F)),
    unary main_v2 main_v846 ((extractStridedSlice S16x64x64x256 ![0, 3, 1, 0] · slices_S16x68x68x256_S16x64x64x256_0_3_1_0) : (⟨S16x68x68x256, .f32⟩ : BufTy).Contents (Elt F) → (⟨S16x64x64x256, .f32⟩ : BufTy).Contents (Elt F)),
    unary main_v3 main_v847 ((extractStridedSlice S16x64x64x256 ![0, 3, 1, 0] · slices_S16x68x68x256_S16x64x64x256_0_3_1_0) : (⟨S16x68x68x256, .f32⟩ : BufTy).Contents (Elt F) → (⟨S16x64x64x256, .f32⟩ : BufTy).Contents (Elt F)),
    unary main_v845 main_v848 (broadcastInDim S1x64x64x1 ![1, 2] bcast_S64x64_S1x64x64x1_1_2 : (⟨S64x64, .f32⟩ : BufTy).Contents (Elt F) → (⟨S1x64x64x1, .f32⟩ : BufTy).Contents (Elt F)),
    unary main_v848 main_v849 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v849 main_v846 main_v850 (addf : (⟨S16x64x64x256, .f32⟩ : BufTy).Contents (Elt F) → (⟨S16x64x64x256, .f32⟩ : BufTy).Contents (Elt F) → (⟨S16x64x64x256, .f32⟩ : BufTy).Contents (Elt F)),
    unary main_v850 main_v851 (Host.exp : (⟨S16x64x64x256, .f32⟩ : BufTy).Contents (Elt F) → (⟨S16x64x64x256, .f32⟩ : BufTy).Contents (Elt F)),
    unary main_v826 main_v852 (broadcastInDim S1x64x64x1 ![1, 2] bcast_S64x64_S1x64x64x1_1_2 : (⟨S64x64, .f32⟩ : BufTy).Contents (Elt F) → (⟨S1x64x64x1, .f32⟩ : BufTy).Contents (Elt F)),
    unary main_v852 main_v853 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v851 main_v853 main_v854 (mulf : (⟨S16x64x64x256, .f32⟩ : BufTy).Contents (Elt F) → (⟨S16x64x64x256, .f32⟩ : BufTy).Contents (Elt F) → (⟨S16x64x64x256, .f32⟩ : BufTy).Contents (Elt F)),
    binary main_v854 main_v847 main_v855 (mulf : (⟨S16x64x64x256, .f32⟩ : BufTy).Contents (Elt F) → (⟨S16x64x64x256, .f32⟩ : BufTy).Contents (Elt F) → (⟨S16x64x64x256, .f32⟩ : BufTy).Contents (Elt F)),
    binary main_v808 main_v855 main_v856 (addf : (⟨S16x64x64x256, .f32⟩ : BufTy).Contents (Elt F) → (⟨S16x64x64x256, .f32⟩ : BufTy).Contents (Elt F) → (⟨S16x64x64x256, .f32⟩ : BufTy).Contents (Elt F)),
    nullary main_cst_136 (constant S_ .f32 0x00000000#32),
    binary main_v854 main_cst_136 main_v857 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v857 main_v858 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v811 main_v858 main_v859 (addf : (⟨S16x64x64x1, .f32⟩ : BufTy).Contents (Elt F) → (⟨S16x64x64x1, .f32⟩ : BufTy).Contents (Elt F) → (⟨S16x64x64x1, .f32⟩ : BufTy).Contents (Elt F)),
    nullary main_c_137 (constantI S_ 32 0#32),
    unary main_c_137 main_v860 (broadcastInDim S64 ![] bcast_S_S64 : (⟨S_, .i32⟩ : BufTy).Contents (Elt F) → (⟨S64, .i32⟩ : BufTy).Contents (Elt F)),
    binary main_v5 main_v860 main_v861 (addi : (⟨S64, .i32⟩ : BufTy).Contents (Elt F) → (⟨S64, .i32⟩ : BufTy).Contents (Elt F) → (⟨S64, .i32⟩ : BufTy).Contents (Elt F)),
    nullary main_c_138 (constantI S_ 32 0#32),
    unary main_c_138 main_v862 (broadcastInDim S64 ![] bcast_S_S64 : (⟨S_, .i32⟩ : BufTy).Contents (Elt F) → (⟨S64, .i32⟩ : BufTy).Contents (Elt F)),
    binary main_v861 main_v862 main_v863 (cmpi .sge : (⟨S64, .i32⟩ : BufTy).Contents (Elt F) → (⟨S64, .i32⟩ : BufTy).Contents (Elt F) → (⟨S64, .i1⟩ : BufTy).Contents (Elt F)),
    nullary main_c_139 (constantI S_ 32 0#32),
    unary main_c_139 main_v864 (broadcastInDim S64 ![] bcast_S_S64 : (⟨S_, .i32⟩ : BufTy).Contents (Elt F) → (⟨S64, .i32⟩ : BufTy).Contents (Elt F)),
    binary main_v5 main_v864 main_v865 (addi : (⟨S64, .i32⟩ : BufTy).Contents (Elt F) → (⟨S64, .i32⟩ : BufTy).Contents (Elt F) → (⟨S64, .i32⟩ : BufTy).Contents (Elt F)),
    nullary main_c_140 (constantI S_ 32 64#32),
    unary main_c_140 main_v866 (broadcastInDim S64 ![] bcast_S_S64 : (⟨S_, .i32⟩ : BufTy).Contents (Elt F) → (⟨S64, .i32⟩ : BufTy).Contents (Elt F)),
    binary main_v865 main_v866 main_v867 (cmpi .slt : (⟨S64, .i32⟩ : BufTy).Contents (Elt F) → (⟨S64, .i32⟩ : BufTy).Contents (Elt F) → (⟨S64, .i1⟩ : BufTy).Contents (Elt F)),
    binary main_v863 main_v867 main_v868 (andi : (⟨S64, .i1⟩ : BufTy).Contents (Elt F) → (⟨S64, .i1⟩ : BufTy).Contents (Elt F) → (⟨S64, .i1⟩ : BufTy).Contents (Elt F)),
    unary main_v763 main_v869 (broadcastInDim S64x1 ![0] bcast_S64_S64x1_0 : (⟨S64, .i1⟩ : BufTy).Contents (Elt F) → (⟨S64x1, .i1⟩ : BufTy).Contents (Elt F)),
    unary main_v868 main_v870 (broadcastInDim S1x64 ![1] bcast_S64_S1x64_1 : (⟨S64, .i1⟩ : BufTy).Contents (Elt F) → (⟨S1x64, .i1⟩ : BufTy).Contents (Elt F)),
    unary main_v869 main_v871 (broadcastInDim S64x64 ![0, 1] bcast_S64x1_S64x64_0_1 : (⟨S64x1, .i1⟩ : BufTy).Contents (Elt F) → (⟨S64x64, .i1⟩ : BufTy).Contents (Elt F)),
    unary main_v870 main_v872 (broadcastInDim S64x64 ![0, 1] bcast_S1x64_S64x64_0_1 : (⟨S1x64, .i1⟩ : BufTy).Contents (Elt F) → (⟨S64x64, .i1⟩ : BufTy).Contents (Elt F)),
    binary main_v871 main_v872 main_v873 (andi : (⟨S64x64, .i1⟩ : BufTy).Contents (Elt F) → (⟨S64x64, .i1⟩ : BufTy).Contents (Elt F) → (⟨S64x64, .i1⟩ : BufTy).Contents (Elt F)),
    unary main_v873 main_v874 (uitofp .f32 : (⟨S64x64, .i1⟩ : BufTy).Contents (Elt F) → (⟨S64x64, .f32⟩ : BufTy).Contents (Elt F)),
    unary main_arg1 main_v875 ((extractStridedSlice S1 ![3] · slices_S5_S1_3) : (⟨S5, .f32⟩ : BufTy).Contents (Elt F) → (⟨S1, .f32⟩ : BufTy).Contents (Elt F)),
    reshape main_v875 main_v876 rfl shapeCasts_S1_S_ ]

set_option maxRecDepth 8192 in
set_option maxHeartbeats 4000000 in
theorem part16_eq (d : Dev nD) : main_part16 (F := F) d = seq ops16 := rfl

set_option maxRecDepth 8192 in
theorem ops16_sub : (ops16 : List (HloOp τ sig (Elt F))).Forall fun op => op.bufs ⊆ tcRefs τ sig := by
  unfold ops16
  exact ⟨unary_bufs_sub .., binary_bufs_sub .., unary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., reshape_bufs_sub ..⟩

set_option maxRecDepth 8192 in
theorem ops16_fresh : ∀ op ∈ (ops16 : List (HloOp τ sig (Elt F))), op.fresh = ∅ := by
  unfold ops16
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value16 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v763 : W (Proc.devRef .tc main_v763) = ReadP.val_main_v763 (F := F))
    (h_main_v808 : W (Proc.devRef .tc main_v808) = ReadP.val_main_v808 (F := F) x0 x1 x2 x3 x4)
    (h_main_v811 : W (Proc.devRef .tc main_v811) = ReadP.val_main_v811 (F := F) x0 x1 x2 x3)
    (h_main_v822 : W (Proc.devRef .tc main_v822) = ReadP.val_main_v822 (F := F))
    (h_main_v823 : W (Proc.devRef .tc main_v823) = ReadP.val_main_v823 (F := F)) :
    after ops16 W (Proc.devRef .tc main_arg0) = x0 ∧
    after ops16 W (Proc.devRef .tc main_arg1) = x1 ∧
    after ops16 W (Proc.devRef .tc main_arg2) = x2 ∧
    after ops16 W (Proc.devRef .tc main_arg3) = x3 ∧
    after ops16 W (Proc.devRef .tc main_arg4) = x4 ∧
    after ops16 W (Proc.devRef .tc main_arg5) = x5 ∧
    after ops16 W (Proc.devRef .tc main_v2) = ReadP.val_main_v2 (F := F) x0 x3 ∧
    after ops16 W (Proc.devRef .tc main_v3) = ReadP.val_main_v3 (F := F) x0 x4 ∧
    after ops16 W (Proc.devRef .tc main_v4) = ReadP.val_main_v4 (F := F) ∧
    after ops16 W (Proc.devRef .tc main_v5) = ReadP.val_main_v5 (F := F) ∧
    after ops16 W (Proc.devRef .tc main_v763) = ReadP.val_main_v763 (F := F) ∧
    after ops16 W (Proc.devRef .tc main_v856) = ReadP.val_main_v856 (F := F) x0 x1 x2 x3 x4 ∧
    after ops16 W (Proc.devRef .tc main_v859) = ReadP.val_main_v859 (F := F) x0 x1 x2 x3 ∧
    after ops16 W (Proc.devRef .tc main_v874) = ReadP.val_main_v874 (F := F) ∧
    after ops16 W (Proc.devRef .tc main_v876) = ReadP.val_main_v876 (F := F) x1 := by
  unfold ops16
  refine ⟨?_, ?_, ?_, ?_, ?_, ?_, ?_, ?_, ?_, ?_, ?_, ?_, ?_, ?_, ?_⟩
  · (after_results_simp <;> (try simp only [a0, a1, a2, a3, a4, a5, h_main_v2, h_main_v3, h_main_v4, h_main_v5, h_main_v763, h_main_v808, h_main_v811, h_main_v822, h_main_v823]) <;> (first | rfl | assumption))
  · (after_results_simp <;> (try simp only [a0, a1, a2, a3, a4, a5, h_main_v2, h_main_v3, h_main_v4, h_main_v5, h_main_v763, h_main_v808, h_main_v811, h_main_v822, h_main_v823]) <;> (first | rfl | assumption))
  · (after_results_simp <;> (try simp only [a0, a1, a2, a3, a4, a5, h_main_v2, h_main_v3, h_main_v4, h_main_v5, h_main_v763, h_main_v808, h_main_v811, h_main_v822, h_main_v823]) <;> (first | rfl | assumption))
  · (after_results_simp <;> (try simp only [a0, a1, a2, a3, a4, a5, h_main_v2, h_main_v3, h_main_v4, h_main_v5, h_main_v763, h_main_v808, h_main_v811, h_main_v822, h_main_v823]) <;> (first | rfl | assumption))
  · (after_results_simp <;> (try simp only [a0, a1, a2, a3, a4, a5, h_main_v2, h_main_v3, h_main_v4, h_main_v5, h_main_v763, h_main_v808, h_main_v811, h_main_v822, h_main_v823]) <;> (first | rfl | assumption))
  · (after_results_simp <;> (try simp only [a0, a1, a2, a3, a4, a5, h_main_v2, h_main_v3, h_main_v4, h_main_v5, h_main_v763, h_main_v808, h_main_v811, h_main_v822, h_main_v823]) <;> (first | rfl | assumption))
  · (after_results_simp <;> (try simp only [a0, a1, a2, a3, a4, a5, h_main_v2, h_main_v3, h_main_v4, h_main_v5, h_main_v763, h_main_v808, h_main_v811, h_main_v822, h_main_v823]) <;> (first | rfl | assumption))
  · (after_results_simp <;> (try simp only [a0, a1, a2, a3, a4, a5, h_main_v2, h_main_v3, h_main_v4, h_main_v5, h_main_v763, h_main_v808, h_main_v811, h_main_v822, h_main_v823]) <;> (first | rfl | assumption))
  · (after_results_simp <;> (try simp only [a0, a1, a2, a3, a4, a5, h_main_v2, h_main_v3, h_main_v4, h_main_v5, h_main_v763, h_main_v808, h_main_v811, h_main_v822, h_main_v823]) <;> (first | rfl | assumption))
  · (after_results_simp <;> (try simp only [a0, a1, a2, a3, a4, a5, h_main_v2, h_main_v3, h_main_v4, h_main_v5, h_main_v763, h_main_v808, h_main_v811, h_main_v822, h_main_v823]) <;> (first | rfl | assumption))
  · (after_results_simp <;> (try simp only [a0, a1, a2, a3, a4, a5, h_main_v2, h_main_v3, h_main_v4, h_main_v5, h_main_v763, h_main_v808, h_main_v811, h_main_v822, h_main_v823]) <;> (first | rfl | assumption))
  · (after_results_simp <;> (try simp only [a0, a1, a2, a3, a4, a5, h_main_v2, h_main_v3, h_main_v4, h_main_v5, h_main_v763, h_main_v808, h_main_v811, h_main_v822, h_main_v823]) <;> (first | rfl | assumption))
  · (after_results_simp <;> (try simp only [a0, a1, a2, a3, a4, a5, h_main_v2, h_main_v3, h_main_v4, h_main_v5, h_main_v763, h_main_v808, h_main_v811, h_main_v822, h_main_v823]) <;> (first | rfl | assumption))
  · (after_results_simp <;> (try simp only [a0, a1, a2, a3, a4, a5, h_main_v2, h_main_v3, h_main_v4, h_main_v5, h_main_v763, h_main_v808, h_main_v811, h_main_v822, h_main_v823]) <;> (first | rfl | assumption))
  · (after_results_simp <;> (try simp only [a0, a1, a2, a3, a4, a5, h_main_v2, h_main_v3, h_main_v4, h_main_v5, h_main_v763, h_main_v808, h_main_v811, h_main_v822, h_main_v823]) <;> (first | rfl | assumption))

end Cert.ReferenceIdeal.RunH

end
-- ==== Proof.RefRun17.lean ====
/- The reference program's @main, statements 1021 … 1080 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops17 : List (HloOp τ sig (Elt F)) :=
  [ nullary main_c_141 (constantI S_ 32 1#32),
    unary main_c_141 main_v877 (broadcastInDim S64 ![] bcast_S_S64 : (⟨S_, .i32⟩ : BufTy).Contents (Elt F) → (⟨S64, .i32⟩ : BufTy).Contents (Elt F)),
    binary main_v877 main_v4 main_v878 (subi : (⟨S64, .i32⟩ : BufTy).Contents (Elt F) → (⟨S64, .i32⟩ : BufTy).Contents (Elt F) → (⟨S64, .i32⟩ : BufTy).Contents (Elt F)),
    unary main_v878 main_v879 (broadcastInDim S64x1 ![0] bcast_S64_S64x1_0 : (⟨S64, .i32⟩ : BufTy).Contents (Elt F) → (⟨S64x1, .i32⟩ : BufTy).Contents (Elt F)),
    unary main_v879 main_v880 (sitofp .f32 : (⟨S64x1, .i32⟩ : BufTy).Contents (Elt F) → (⟨S64x1, .f32⟩ : BufTy).Contents (Elt F)),
    unary main_v876 main_v881 (broadcastInDim S64x1 ![] bcast_S_S64x1 : (⟨S_, .f32⟩ : BufTy).Contents (Elt F) → (⟨S64x1, .f32⟩ : BufTy).Contents (Elt F)),
    binary main_v881 main_v880 main_v882 (mulf : (⟨S64x1, .f32⟩ : BufTy).Contents (Elt F) → (⟨S64x1, .f32⟩ : BufTy).Contents (Elt F) → (⟨S64x1, .f32⟩ : BufTy).Contents (Elt F)),
    unary main_arg2 main_v883 ((extractStridedSlice S1 ![2] · slices_S5_S1_2) : (⟨S5, .f32⟩ : BufTy).Contents (Elt F) → (⟨S1, .f32⟩ : BufTy).Contents (Elt F)),
    reshape main_v883 main_v884 rfl shapeCasts_S1_S_,
    nullary main_c_142 (constantI S_ 32 0#32),
    unary main_c_142 main_v885 (broadcastInDim S64 ![] bcast_S_S64 : (⟨S_, .i32⟩ : BufTy).Contents (Elt F) → (⟨S64, .i32⟩ : BufTy).Contents (Elt F)),
    binary main_v885 main_v5 main_v886 (subi : (⟨S64, .i32⟩ : BufTy).Contents (Elt F) → (⟨S64, .i32⟩ : BufTy).Contents (Elt F) → (⟨S64, .i32⟩ : BufTy).Contents (Elt F)),
    unary main_v886 main_v887 (broadcastInDim S1x64 ![1] bcast_S64_S1x64_1 : (⟨S64, .i32⟩ : BufTy).Contents (Elt F) → (⟨S1x64, .i32⟩ : BufTy).Contents (Elt F)),
    unary main_v887 main_v888 (sitofp .f32 : (⟨S1x64, .i32⟩ : BufTy).Contents (Elt F) → (⟨S1x64, .f32⟩ : BufTy).Contents (Elt F)),
    unary main_v884 main_v889 (broadcastInDim S1x64 ![] bcast_S_S1x64 : (⟨S_, .f32⟩ : BufTy).Contents (Elt F) → (⟨S1x64, .f32⟩ : BufTy).Contents (Elt F)),
    binary main_v889 main_v888 main_v890 (mulf : (⟨S1x64, .f32⟩ : BufTy).Contents (Elt F) → (⟨S1x64, .f32⟩ : BufTy).Contents (Elt F) → (⟨S1x64, .f32⟩ : BufTy).Contents (Elt F)),
    unary main_v882 main_v891 (broadcastInDim S64x64 ![0, 1] bcast_S64x1_S64x64_0_1 : (⟨S64x1, .f32⟩ : BufTy).Contents (Elt F) → (⟨S64x64, .f32⟩ : BufTy).Contents (Elt F)),
    unary main_v890 main_v892 (broadcastInDim S64x64 ![0, 1] bcast_S1x64_S64x64_0_1 : (⟨S1x64, .f32⟩ : BufTy).Contents (Elt F) → (⟨S64x64, .f32⟩ : BufTy).Contents (Elt F)),
    binary main_v891 main_v892 main_v893 (addf : (⟨S64x64, .f32⟩ : BufTy).Contents (Elt F) → (⟨S64x64, .f32⟩ : BufTy).Contents (Elt F) → (⟨S64x64, .f32⟩ : BufTy).Contents (Elt F)),
    unary main_v2 main_v894 ((extractStridedSlice S16x64x64x256 ![0, 3, 2, 0] · slices_S16x68x68x256_S16x64x64x256_0_3_2_0) : (⟨S16x68x68x256, .f32⟩ : BufTy).Contents (Elt F) → (⟨S16x64x64x256, .f32⟩ : BufTy).Contents (Elt F)),
    unary main_v3 main_v895 ((extractStridedSlice S16x64x64x256 ![0, 3, 2, 0] · slices_S16x68x68x256_S16x64x64x256_0_3_2_0) : (⟨S16x68x68x256, .f32⟩ : BufTy).Contents (Elt F) → (⟨S16x64x64x256, .f32⟩ : BufTy).Contents (Elt F)),
    unary main_v893 main_v896 (broadcastInDim S1x64x64x1 ![1, 2] bcast_S64x64_S1x64x64x1_1_2 : (⟨S64x64, .f32⟩ : BufTy).Contents (Elt F) → (⟨S1x64x64x1, .f32⟩ : BufTy).Contents (Elt F)),
    unary main_v896 main_v897 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v897 main_v894 main_v898 (addf : (⟨S16x64x64x256, .f32⟩ : BufTy).Contents (Elt F) → (⟨S16x64x64x256, .f32⟩ : BufTy).Contents (Elt F) → (⟨S16x64x64x256, .f32⟩ : BufTy).Contents (Elt F)),
    unary main_v898 main_v899 (Host.exp : (⟨S16x64x64x256, .f32⟩ : BufTy).Contents (Elt F) → (⟨S16x64x64x256, .f32⟩ : BufTy).Contents (Elt F)),
    unary main_v874 main_v900 (broadcastInDim S1x64x64x1 ![1, 2] bcast_S64x64_S1x64x64x1_1_2 : (⟨S64x64, .f32⟩ : BufTy).Contents (Elt F) → (⟨S1x64x64x1, .f32⟩ : BufTy).Contents (Elt F)),
    unary main_v900 main_v901 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v899 main_v901 main_v902 (mulf : (⟨S16x64x64x256, .f32⟩ : BufTy).Contents (Elt F) → (⟨S16x64x64x256, .f32⟩ : BufTy).Contents (Elt F) → (⟨S16x64x64x256, .f32⟩ : BufTy).Contents (Elt F)),
    binary main_v902 main_v895 main_v903 (mulf : (⟨S16x64x64x256, .f32⟩ : BufTy).Contents (Elt F) → (⟨S16x64x64x256, .f32⟩ : BufTy).Contents (Elt F) → (⟨S16x64x64x256, .f32⟩ : BufTy).Contents (Elt F)),
    binary main_v856 main_v903 main_v904 (addf : (⟨S16x64x64x256, .f32⟩ : BufTy).Contents (Elt F) → (⟨S16x64x64x256, .f32⟩ : BufTy).Contents (Elt F) → (⟨S16x64x64x256, .f32⟩ : BufTy).Contents (Elt F)),
    nullary main_cst_143 (constant S_ .f32 0x00000000#32),
    binary main_v902 main_cst_143 main_v905 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v905 main_v906 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v859 main_v906 main_v907 (addf : (⟨S16x64x64x1, .f32⟩ : BufTy).Contents (Elt F) → (⟨S16x64x64x1, .f32⟩ : BufTy).Contents (Elt F) → (⟨S16x64x64x1, .f32⟩ : BufTy).Contents (Elt F)),
    nullary main_c_144 (constantI S_ 32 1#32),
    unary main_c_144 main_v908 (broadcastInDim S64 ![] bcast_S_S64 : (⟨S_, .i32⟩ : BufTy).Contents (Elt F) → (⟨S64, .i32⟩ : BufTy).Contents (Elt F)),
    binary main_v5 main_v908 main_v909 (addi : (⟨S64, .i32⟩ : BufTy).Contents (Elt F) → (⟨S64, .i32⟩ : BufTy).Contents (Elt F) → (⟨S64, .i32⟩ : BufTy).Contents (Elt F)),
    nullary main_c_145 (constantI S_ 32 0#32),
    unary main_c_145 main_v910 (broadcastInDim S64 ![] bcast_S_S64 : (⟨S_, .i32⟩ : BufTy).Contents (Elt F) → (⟨S64, .i32⟩ : BufTy).Contents (Elt F)),
    binary main_v909 main_v910 main_v911 (cmpi .sge : (⟨S64, .i32⟩ : BufTy).Contents (Elt F) → (⟨S64, .i32⟩ : BufTy).Contents (Elt F) → (⟨S64, .i1⟩ : BufTy).Contents (Elt F)),
    nullary main_c_146 (constantI S_ 32 1#32),
    unary main_c_146 main_v912 (broadcastInDim S64 ![] bcast_S_S64 : (⟨S_, .i32⟩ : BufTy).Contents (Elt F) → (⟨S64, .i32⟩ : BufTy).Contents (Elt F)),
    binary main_v5 main_v912 main_v913 (addi : (⟨S64, .i32⟩ : BufTy).Contents (Elt F) → (⟨S64, .i32⟩ : BufTy).Contents (Elt F) → (⟨S64, .i32⟩ : BufTy).Contents (Elt F)),
    nullary main_c_147 (constantI S_ 32 64#32),
    unary main_c_147 main_v914 (broadcastInDim S64 ![] bcast_S_S64 : (⟨S_, .i32⟩ : BufTy).Contents (Elt F) → (⟨S64, .i32⟩ : BufTy).Contents (Elt F)),
    binary main_v913 main_v914 main_v915 (cmpi .slt : (⟨S64, .i32⟩ : BufTy).Contents (Elt F) → (⟨S64, .i32⟩ : BufTy).Contents (Elt F) → (⟨S64, .i1⟩ : BufTy).Contents (Elt F)),
    binary main_v911 main_v915 main_v916 (andi : (⟨S64, .i1⟩ : BufTy).Contents (Elt F) → (⟨S64, .i1⟩ : BufTy).Contents (Elt F) → (⟨S64, .i1⟩ : BufTy).Contents (Elt F)),
    unary main_v763 main_v917 (broadcastInDim S64x1 ![0] bcast_S64_S64x1_0 : (⟨S64, .i1⟩ : BufTy).Contents (Elt F) → (⟨S64x1, .i1⟩ : BufTy).Contents (Elt F)),
    unary main_v916 main_v918 (broadcastInDim S1x64 ![1] bcast_S64_S1x64_1 : (⟨S64, .i1⟩ : BufTy).Contents (Elt F) → (⟨S1x64, .i1⟩ : BufTy).Contents (Elt F)),
    unary main_v917 main_v919 (broadcastInDim S64x64 ![0, 1] bcast_S64x1_S64x64_0_1 : (⟨S64x1, .i1⟩ : BufTy).Contents (Elt F) → (⟨S64x64, .i1⟩ : BufTy).Contents (Elt F)),
    unary main_v918 main_v920 (broadcastInDim S64x64 ![0, 1] bcast_S1x64_S64x64_0_1 : (⟨S1x64, .i1⟩ : BufTy).Contents (Elt F) → (⟨S64x64, .i1⟩ : BufTy).Contents (Elt F)),
    binary main_v919 main_v920 main_v921 (andi : (⟨S64x64, .i1⟩ : BufTy).Contents (Elt F) → (⟨S64x64, .i1⟩ : BufTy).Contents (Elt F) → (⟨S64x64, .i1⟩ : BufTy).Contents (Elt F)),
    unary main_v921 main_v922 (uitofp .f32 : (⟨S64x64, .i1⟩ : BufTy).Contents (Elt F) → (⟨S64x64, .f32⟩ : BufTy).Contents (Elt F)),
    unary main_arg1 main_v923 ((extractStridedSlice S1 ![3] · slices_S5_S1_3) : (⟨S5, .f32⟩ : BufTy).Contents (Elt F) → (⟨S1, .f32⟩ : BufTy).Contents (Elt F)),
    reshape main_v923 main_v924 rfl shapeCasts_S1_S_,
    nullary main_c_148 (constantI S_ 32 1#32),
    unary main_c_148 main_v925 (broadcastInDim S64 ![] bcast_S_S64 : (⟨S_, .i32⟩ : BufTy).Contents (Elt F) → (⟨S64, .i32⟩ : BufTy).Contents (Elt F)),
    binary main_v925 main_v4 main_v926 (subi : (⟨S64, .i32⟩ : BufTy).Contents (Elt F) → (⟨S64, .i32⟩ : BufTy).Contents (Elt F) → (⟨S64, .i32⟩ : BufTy).Contents (Elt F)),
    unary main_v926 main_v927 (broadcastInDim S64x1 ![0] bcast_S64_S64x1_0 : (⟨S64, .i32⟩ : BufTy).Contents (Elt F) → (⟨S64x1, .i32⟩ : BufTy).Contents (Elt F)),
    unary main_v927 main_v928 (sitofp .f32 : (⟨S64x1, .i32⟩ : BufTy).Contents (Elt F) → (⟨S64x1, .f32⟩ : BufTy).Contents (Elt F)) ]

set_option maxRecDepth 8192 in
set_option maxHeartbeats 4000000 in
theorem part17_eq (d : Dev nD) : main_part17 (F := F) d = seq ops17 := rfl

set_option maxRecDepth 8192 in
theorem ops17_sub : (ops17 : List (HloOp τ sig (Elt F))).Forall fun op => op.bufs ⊆ tcRefs τ sig := by
  unfold ops17
  exact ⟨nullary_bufs_sub .., unary_bufs_sub .., binary_bufs_sub .., unary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., reshape_bufs_sub .., nullary_bufs_sub .., unary_bufs_sub .., binary_bufs_sub .., unary_bufs_sub .., unary_bufs_sub ..⟩

set_option maxRecDepth 8192 in
theorem ops17_fresh : ∀ op ∈ (ops17 : List (HloOp τ sig (Elt F))), op.fresh = ∅ := by
  unfold ops17
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value17 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v763 : W (Proc.devRef .tc main_v763) = ReadP.val_main_v763 (F := F))
    (h_main_v856 : W (Proc.devRef .tc main_v856) = ReadP.val_main_v856 (F := F) x0 x1 x2 x3 x4)
    (h_main_v859 : W (Proc.devRef .tc main_v859) = ReadP.val_main_v859 (F := F) x0 x1 x2 x3)
    (h_main_v874 : W (Proc.devRef .tc main_v874) = ReadP.val_main_v874 (F := F))
    (h_main_v876 : W (Proc.devRef .tc main_v876) = ReadP.val_main_v876 (F := F) x1) :
    after ops17 W (Proc.devRef .tc main_arg0) = x0 ∧
    after ops17 W (Proc.devRef .tc main_arg1) = x1 ∧
    after ops17 W (Proc.devRef .tc main_arg2) = x2 ∧
    after ops17 W (Proc.devRef .tc main_arg3) = x3 ∧
    after ops17 W (Proc.devRef .tc main_arg4) = x4 ∧
    after ops17 W (Proc.devRef .tc main_arg5) = x5 ∧
    after ops17 W (Proc.devRef .tc main_v2) = ReadP.val_main_v2 (F := F) x0 x3 ∧
    after ops17 W (Proc.devRef .tc main_v3) = ReadP.val_main_v3 (F := F) x0 x4 ∧
    after ops17 W (Proc.devRef .tc main_v4) = ReadP.val_main_v4 (F := F) ∧
    after ops17 W (Proc.devRef .tc main_v5) = ReadP.val_main_v5 (F := F) ∧
    after ops17 W (Proc.devRef .tc main_v763) = ReadP.val_main_v763 (F := F) ∧
    after ops17 W (Proc.devRef .tc main_v904) = ReadP.val_main_v904 (F := F) x0 x1 x2 x3 x4 ∧
    after ops17 W (Proc.devRef .tc main_v907) = ReadP.val_main_v907 (F := F) x0 x1 x2 x3 ∧
    after ops17 W (Proc.devRef .tc main_v922) = ReadP.val_main_v922 (F := F) ∧
    after ops17 W (Proc.devRef .tc main_v924) = ReadP.val_main_v924 (F := F) x1 ∧
    after ops17 W (Proc.devRef .tc main_v928) = ReadP.val_main_v928 (F := F) := by
  unfold ops17
  refine ⟨?_, ?_, ?_, ?_, ?_, ?_, ?_, ?_, ?_, ?_, ?_, ?_, ?_, ?_, ?_, ?_⟩
  · (after_results_simp <;> (try simp only [a0, a1, a2, a3, a4, a5, h_main_v2, h_main_v3, h_main_v4, h_main_v5, h_main_v763, h_main_v856, h_main_v859, h_main_v874, h_main_v876]) <;> (first | rfl | assumption))
  · (after_results_simp <;> (try simp only [a0, a1, a2, a3, a4, a5, h_main_v2, h_main_v3, h_main_v4, h_main_v5, h_main_v763, h_main_v856, h_main_v859, h_main_v874, h_main_v876]) <;> (first | rfl | assumption))
  · (after_results_simp <;> (try simp only [a0, a1, a2, a3, a4, a5, h_main_v2, h_main_v3, h_main_v4, h_main_v5, h_main_v763, h_main_v856, h_main_v859, h_main_v874, h_main_v876]) <;> (first | rfl | assumption))
  · (after_results_simp <;> (try simp only [a0, a1, a2, a3, a4, a5, h_main_v2, h_main_v3, h_main_v4, h_main_v5, h_main_v763, h_main_v856, h_main_v859, h_main_v874, h_main_v876]) <;> (first | rfl | assumption))
  · (after_results_simp <;> (try simp only [a0, a1, a2, a3, a4, a5, h_main_v2, h_main_v3, h_main_v4, h_main_v5, h_main_v763, h_main_v856, h_main_v859, h_main_v874, h_main_v876]) <;> (first | rfl | assumption))
  · (after_results_simp <;> (try simp only [a0, a1, a2, a3, a4, a5, h_main_v2, h_main_v3, h_main_v4, h_main_v5, h_main_v763, h_main_v856, h_main_v859, h_main_v874, h_main_v876]) <;> (first | rfl | assumption))
  · (after_results_simp <;> (try simp only [a0, a1, a2, a3, a4, a5, h_main_v2, h_main_v3, h_main_v4, h_main_v5, h_main_v763, h_main_v856, h_main_v859, h_main_v874, h_main_v876]) <;> (first | rfl | assumption))
  · (after_results_simp <;> (try simp only [a0, a1, a2, a3, a4, a5, h_main_v2, h_main_v3, h_main_v4, h_main_v5, h_main_v763, h_main_v856, h_main_v859, h_main_v874, h_main_v876]) <;> (first | rfl | assumption))
  · (after_results_simp <;> (try simp only [a0, a1, a2, a3, a4, a5, h_main_v2, h_main_v3, h_main_v4, h_main_v5, h_main_v763, h_main_v856, h_main_v859, h_main_v874, h_main_v876]) <;> (first | rfl | assumption))
  · (after_results_simp <;> (try simp only [a0, a1, a2, a3, a4, a5, h_main_v2, h_main_v3, h_main_v4, h_main_v5, h_main_v763, h_main_v856, h_main_v859, h_main_v874, h_main_v876]) <;> (first | rfl | assumption))
  · (after_results_simp <;> (try simp only [a0, a1, a2, a3, a4, a5, h_main_v2, h_main_v3, h_main_v4, h_main_v5, h_main_v763, h_main_v856, h_main_v859, h_main_v874, h_main_v876]) <;> (first | rfl | assumption))
  · (after_results_simp <;> (try simp only [a0, a1, a2, a3, a4, a5, h_main_v2, h_main_v3, h_main_v4, h_main_v5, h_main_v763, h_main_v856, h_main_v859, h_main_v874, h_main_v876]) <;> (first | rfl | assumption))
  · (after_results_simp <;> (try simp only [a0, a1, a2, a3, a4, a5, h_main_v2, h_main_v3, h_main_v4, h_main_v5, h_main_v763, h_main_v856, h_main_v859, h_main_v874, h_main_v876]) <;> (first | rfl | assumption))
  · (after_results_simp <;> (try simp only [a0, a1, a2, a3, a4, a5, h_main_v2, h_main_v3, h_main_v4, h_main_v5, h_main_v763, h_main_v856, h_main_v859, h_main_v874, h_main_v876]) <;> (first | rfl | assumption))
  · (after_results_simp <;> (try simp only [a0, a1, a2, a3, a4, a5, h_main_v2, h_main_v3, h_main_v4, h_main_v5, h_main_v763, h_main_v856, h_main_v859, h_main_v874, h_main_v876]) <;> (first | rfl | assumption))
  · (after_results_simp <;> (try simp only [a0, a1, a2, a3, a4, a5, h_main_v2, h_main_v3, h_main_v4, h_main_v5, h_main_v763, h_main_v856, h_main_v859, h_main_v874, h_main_v876]) <;> (first | rfl | assumption))

end Cert.ReferenceIdeal.RunH

end
-- ==== Proof.RefRun18.lean ====
/- The reference program's @main, statements 1081 … 1140 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops18 : List (HloOp τ sig (Elt F)) :=
  [ unary main_v924 main_v929 (broadcastInDim S64x1 ![] bcast_S_S64x1 : (⟨S_, .f32⟩ : BufTy).Contents (Elt F) → (⟨S64x1, .f32⟩ : BufTy).Contents (Elt F)),
    binary main_v929 main_v928 main_v930 (mulf : (⟨S64x1, .f32⟩ : BufTy).Contents (Elt F) → (⟨S64x1, .f32⟩ : BufTy).Contents (Elt F) → (⟨S64x1, .f32⟩ : BufTy).Contents (Elt F)),
    unary main_arg2 main_v931 ((extractStridedSlice S1 ![3] · slices_S5_S1_3) : (⟨S5, .f32⟩ : BufTy).Contents (Elt F) → (⟨S1, .f32⟩ : BufTy).Contents (Elt F)),
    reshape main_v931 main_v932 rfl shapeCasts_S1_S_,
    nullary main_c_149 (constantI S_ 32 1#32),
    unary main_c_149 main_v933 (broadcastInDim S64 ![] bcast_S_S64 : (⟨S_, .i32⟩ : BufTy).Contents (Elt F) → (⟨S64, .i32⟩ : BufTy).Contents (Elt F)),
    binary main_v933 main_v5 main_v934 (subi : (⟨S64, .i32⟩ : BufTy).Contents (Elt F) → (⟨S64, .i32⟩ : BufTy).Contents (Elt F) → (⟨S64, .i32⟩ : BufTy).Contents (Elt F)),
    unary main_v934 main_v935 (broadcastInDim S1x64 ![1] bcast_S64_S1x64_1 : (⟨S64, .i32⟩ : BufTy).Contents (Elt F) → (⟨S1x64, .i32⟩ : BufTy).Contents (Elt F)),
    unary main_v935 main_v936 (sitofp .f32 : (⟨S1x64, .i32⟩ : BufTy).Contents (Elt F) → (⟨S1x64, .f32⟩ : BufTy).Contents (Elt F)),
    unary main_v932 main_v937 (broadcastInDim S1x64 ![] bcast_S_S1x64 : (⟨S_, .f32⟩ : BufTy).Contents (Elt F) → (⟨S1x64, .f32⟩ : BufTy).Contents (Elt F)),
    binary main_v937 main_v936 main_v938 (mulf : (⟨S1x64, .f32⟩ : BufTy).Contents (Elt F) → (⟨S1x64, .f32⟩ : BufTy).Contents (Elt F) → (⟨S1x64, .f32⟩ : BufTy).Contents (Elt F)),
    unary main_v930 main_v939 (broadcastInDim S64x64 ![0, 1] bcast_S64x1_S64x64_0_1 : (⟨S64x1, .f32⟩ : BufTy).Contents (Elt F) → (⟨S64x64, .f32⟩ : BufTy).Contents (Elt F)),
    unary main_v938 main_v940 (broadcastInDim S64x64 ![0, 1] bcast_S1x64_S64x64_0_1 : (⟨S1x64, .f32⟩ : BufTy).Contents (Elt F) → (⟨S64x64, .f32⟩ : BufTy).Contents (Elt F)),
    binary main_v939 main_v940 main_v941 (addf : (⟨S64x64, .f32⟩ : BufTy).Contents (Elt F) → (⟨S64x64, .f32⟩ : BufTy).Contents (Elt F) → (⟨S64x64, .f32⟩ : BufTy).Contents (Elt F)),
    unary main_v2 main_v942 ((extractStridedSlice S16x64x64x256 ![0, 3, 3, 0] · slices_S16x68x68x256_S16x64x64x256_0_3_3_0) : (⟨S16x68x68x256, .f32⟩ : BufTy).Contents (Elt F) → (⟨S16x64x64x256, .f32⟩ : BufTy).Contents (Elt F)),
    unary main_v3 main_v943 ((extractStridedSlice S16x64x64x256 ![0, 3, 3, 0] · slices_S16x68x68x256_S16x64x64x256_0_3_3_0) : (⟨S16x68x68x256, .f32⟩ : BufTy).Contents (Elt F) → (⟨S16x64x64x256, .f32⟩ : BufTy).Contents (Elt F)),
    unary main_v941 main_v944 (broadcastInDim S1x64x64x1 ![1, 2] bcast_S64x64_S1x64x64x1_1_2 : (⟨S64x64, .f32⟩ : BufTy).Contents (Elt F) → (⟨S1x64x64x1, .f32⟩ : BufTy).Contents (Elt F)),
    unary main_v944 main_v945 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v945 main_v942 main_v946 (addf : (⟨S16x64x64x256, .f32⟩ : BufTy).Contents (Elt F) → (⟨S16x64x64x256, .f32⟩ : BufTy).Contents (Elt F) → (⟨S16x64x64x256, .f32⟩ : BufTy).Contents (Elt F)),
    unary main_v946 main_v947 (Host.exp : (⟨S16x64x64x256, .f32⟩ : BufTy).Contents (Elt F) → (⟨S16x64x64x256, .f32⟩ : BufTy).Contents (Elt F)),
    unary main_v922 main_v948 (broadcastInDim S1x64x64x1 ![1, 2] bcast_S64x64_S1x64x64x1_1_2 : (⟨S64x64, .f32⟩ : BufTy).Contents (Elt F) → (⟨S1x64x64x1, .f32⟩ : BufTy).Contents (Elt F)),
    unary main_v948 main_v949 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v947 main_v949 main_v950 (mulf : (⟨S16x64x64x256, .f32⟩ : BufTy).Contents (Elt F) → (⟨S16x64x64x256, .f32⟩ : BufTy).Contents (Elt F) → (⟨S16x64x64x256, .f32⟩ : BufTy).Contents (Elt F)),
    binary main_v950 main_v943 main_v951 (mulf : (⟨S16x64x64x256, .f32⟩ : BufTy).Contents (Elt F) → (⟨S16x64x64x256, .f32⟩ : BufTy).Contents (Elt F) → (⟨S16x64x64x256, .f32⟩ : BufTy).Contents (Elt F)),
    binary main_v904 main_v951 main_v952 (addf : (⟨S16x64x64x256, .f32⟩ : BufTy).Contents (Elt F) → (⟨S16x64x64x256, .f32⟩ : BufTy).Contents (Elt F) → (⟨S16x64x64x256, .f32⟩ : BufTy).Contents (Elt F)),
    nullary main_cst_150 (constant S_ .f32 0x00000000#32),
    binary main_v950 main_cst_150 main_v953 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v953 main_v954 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v907 main_v954 main_v955 (addf : (⟨S16x64x64x1, .f32⟩ : BufTy).Contents (Elt F) → (⟨S16x64x64x1, .f32⟩ : BufTy).Contents (Elt F) → (⟨S16x64x64x1, .f32⟩ : BufTy).Contents (Elt F)),
    nullary main_c_151 (constantI S_ 32 2#32),
    unary main_c_151 main_v956 (broadcastInDim S64 ![] bcast_S_S64 : (⟨S_, .i32⟩ : BufTy).Contents (Elt F) → (⟨S64, .i32⟩ : BufTy).Contents (Elt F)),
    binary main_v5 main_v956 main_v957 (addi : (⟨S64, .i32⟩ : BufTy).Contents (Elt F) → (⟨S64, .i32⟩ : BufTy).Contents (Elt F) → (⟨S64, .i32⟩ : BufTy).Contents (Elt F)),
    nullary main_c_152 (constantI S_ 32 0#32),
    unary main_c_152 main_v958 (broadcastInDim S64 ![] bcast_S_S64 : (⟨S_, .i32⟩ : BufTy).Contents (Elt F) → (⟨S64, .i32⟩ : BufTy).Contents (Elt F)),
    binary main_v957 main_v958 main_v959 (cmpi .sge : (⟨S64, .i32⟩ : BufTy).Contents (Elt F) → (⟨S64, .i32⟩ : BufTy).Contents (Elt F) → (⟨S64, .i1⟩ : BufTy).Contents (Elt F)),
    nullary main_c_153 (constantI S_ 32 2#32),
    unary main_c_153 main_v960 (broadcastInDim S64 ![] bcast_S_S64 : (⟨S_, .i32⟩ : BufTy).Contents (Elt F) → (⟨S64, .i32⟩ : BufTy).Contents (Elt F)),
    binary main_v5 main_v960 main_v961 (addi : (⟨S64, .i32⟩ : BufTy).Contents (Elt F) → (⟨S64, .i32⟩ : BufTy).Contents (Elt F) → (⟨S64, .i32⟩ : BufTy).Contents (Elt F)),
    nullary main_c_154 (constantI S_ 32 64#32),
    unary main_c_154 main_v962 (broadcastInDim S64 ![] bcast_S_S64 : (⟨S_, .i32⟩ : BufTy).Contents (Elt F) → (⟨S64, .i32⟩ : BufTy).Contents (Elt F)),
    binary main_v961 main_v962 main_v963 (cmpi .slt : (⟨S64, .i32⟩ : BufTy).Contents (Elt F) → (⟨S64, .i32⟩ : BufTy).Contents (Elt F) → (⟨S64, .i1⟩ : BufTy).Contents (Elt F)),
    binary main_v959 main_v963 main_v964 (andi : (⟨S64, .i1⟩ : BufTy).Contents (Elt F) → (⟨S64, .i1⟩ : BufTy).Contents (Elt F) → (⟨S64, .i1⟩ : BufTy).Contents (Elt F)),
    unary main_v763 main_v965 (broadcastInDim S64x1 ![0] bcast_S64_S64x1_0 : (⟨S64, .i1⟩ : BufTy).Contents (Elt F) → (⟨S64x1, .i1⟩ : BufTy).Contents (Elt F)),
    unary main_v964 main_v966 (broadcastInDim S1x64 ![1] bcast_S64_S1x64_1 : (⟨S64, .i1⟩ : BufTy).Contents (Elt F) → (⟨S1x64, .i1⟩ : BufTy).Contents (Elt F)),
    unary main_v965 main_v967 (broadcastInDim S64x64 ![0, 1] bcast_S64x1_S64x64_0_1 : (⟨S64x1, .i1⟩ : BufTy).Contents (Elt F) → (⟨S64x64, .i1⟩ : BufTy).Contents (Elt F)),
    unary main_v966 main_v968 (broadcastInDim S64x64 ![0, 1] bcast_S1x64_S64x64_0_1 : (⟨S1x64, .i1⟩ : BufTy).Contents (Elt F) → (⟨S64x64, .i1⟩ : BufTy).Contents (Elt F)),
    binary main_v967 main_v968 main_v969 (andi : (⟨S64x64, .i1⟩ : BufTy).Contents (Elt F) → (⟨S64x64, .i1⟩ : BufTy).Contents (Elt F) → (⟨S64x64, .i1⟩ : BufTy).Contents (Elt F)),
    unary main_v969 main_v970 (uitofp .f32 : (⟨S64x64, .i1⟩ : BufTy).Contents (Elt F) → (⟨S64x64, .f32⟩ : BufTy).Contents (Elt F)),
    unary main_arg1 main_v971 ((extractStridedSlice S1 ![3] · slices_S5_S1_3) : (⟨S5, .f32⟩ : BufTy).Contents (Elt F) → (⟨S1, .f32⟩ : BufTy).Contents (Elt F)),
    reshape main_v971 main_v972 rfl shapeCasts_S1_S_,
    nullary main_c_155 (constantI S_ 32 1#32),
    unary main_c_155 main_v973 (broadcastInDim S64 ![] bcast_S_S64 : (⟨S_, .i32⟩ : BufTy).Contents (Elt F) → (⟨S64, .i32⟩ : BufTy).Contents (Elt F)),
    binary main_v973 main_v4 main_v974 (subi : (⟨S64, .i32⟩ : BufTy).Contents (Elt F) → (⟨S64, .i32⟩ : BufTy).Contents (Elt F) → (⟨S64, .i32⟩ : BufTy).Contents (Elt F)),
    unary main_v974 main_v975 (broadcastInDim S64x1 ![0] bcast_S64_S64x1_0 : (⟨S64, .i32⟩ : BufTy).Contents (Elt F) → (⟨S64x1, .i32⟩ : BufTy).Contents (Elt F)),
    unary main_v975 main_v976 (sitofp .f32 : (⟨S64x1, .i32⟩ : BufTy).Contents (Elt F) → (⟨S64x1, .f32⟩ : BufTy).Contents (Elt F)),
    unary main_v972 main_v977 (broadcastInDim S64x1 ![] bcast_S_S64x1 : (⟨S_, .f32⟩ : BufTy).Contents (Elt F) → (⟨S64x1, .f32⟩ : BufTy).Contents (Elt F)),
    binary main_v977 main_v976 main_v978 (mulf : (⟨S64x1, .f32⟩ : BufTy).Contents (Elt F) → (⟨S64x1, .f32⟩ : BufTy).Contents (Elt F) → (⟨S64x1, .f32⟩ : BufTy).Contents (Elt F)),
    unary main_arg2 main_v979 ((extractStridedSlice S1 ![4] · slices_S5_S1_4) : (⟨S5, .f32⟩ : BufTy).Contents (Elt F) → (⟨S1, .f32⟩ : BufTy).Contents (Elt F)),
    reshape main_v979 main_v980 rfl shapeCasts_S1_S_,
    nullary main_c_156 (constantI S_ 32 2#32) ]

set_option maxRecDepth 8192 in
set_option maxHeartbeats 4000000 in
theorem part18_eq (d : Dev nD) : main_part18 (F := F) d = seq ops18 := rfl

set_option maxRecDepth 8192 in
theorem ops18_sub : (ops18 : List (HloOp τ sig (Elt F))).Forall fun op => op.bufs ⊆ tcRefs τ sig := by
  unfold ops18
  exact ⟨unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., nullary_bufs_sub ..⟩

set_option maxRecDepth 8192 in
theorem ops18_fresh : ∀ op ∈ (ops18 : List (HloOp τ sig (Elt F))), op.fresh = ∅ := by
  unfold ops18
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value18 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v763 : W (Proc.devRef .tc main_v763) = ReadP.val_main_v763 (F := F))
    (h_main_v904 : W (Proc.devRef .tc main_v904) = ReadP.val_main_v904 (F := F) x0 x1 x2 x3 x4)
    (h_main_v907 : W (Proc.devRef .tc main_v907) = ReadP.val_main_v907 (F := F) x0 x1 x2 x3)
    (h_main_v922 : W (Proc.devRef .tc main_v922) = ReadP.val_main_v922 (F := F))
    (h_main_v924 : W (Proc.devRef .tc main_v924) = ReadP.val_main_v924 (F := F) x1)
    (h_main_v928 : W (Proc.devRef .tc main_v928) = ReadP.val_main_v928 (F := F)) :
    after ops18 W (Proc.devRef .tc main_arg0) = x0 ∧
    after ops18 W (Proc.devRef .tc main_arg1) = x1 ∧
    after ops18 W (Proc.devRef .tc main_arg2) = x2 ∧
    after ops18 W (Proc.devRef .tc main_arg3) = x3 ∧
    after ops18 W (Proc.devRef .tc main_arg4) = x4 ∧
    after ops18 W (Proc.devRef .tc main_arg5) = x5 ∧
    after ops18 W (Proc.devRef .tc main_v2) = ReadP.val_main_v2 (F := F) x0 x3 ∧
    after ops18 W (Proc.devRef .tc main_v3) = ReadP.val_main_v3 (F := F) x0 x4 ∧
    after ops18 W (Proc.devRef .tc main_v4) = ReadP.val_main_v4 (F := F) ∧
    after ops18 W (Proc.devRef .tc main_v5) = ReadP.val_main_v5 (F := F) ∧
    after ops18 W (Proc.devRef .tc main_v952) = ReadP.val_main_v952 (F := F) x0 x1 x2 x3 x4 ∧
    after ops18 W (Proc.devRef .tc main_v955) = ReadP.val_main_v955 (F := F) x0 x1 x2 x3 ∧
    after ops18 W (Proc.devRef .tc main_v970) = ReadP.val_main_v970 (F := F) ∧
    after ops18 W (Proc.devRef .tc main_v978) = ReadP.val_main_v978 (F := F) x1 ∧
    after ops18 W (Proc.devRef .tc main_v980) = ReadP.val_main_v980 (F := F) x2 ∧
    after ops18 W (Proc.devRef .tc main_c_156) = ReadP.val_main_c_156 (F := F) := by
  unfold ops18
  refine ⟨?_, ?_, ?_, ?_, ?_, ?_, ?_, ?_, ?_, ?_, ?_, ?_, ?_, ?_, ?_, ?_⟩
  · (after_results_simp <;> (try simp only [a0, a1, a2, a3, a4, a5, h_main_v2, h_main_v3, h_main_v4, h_main_v5, h_main_v763, h_main_v904, h_main_v907, h_main_v922, h_main_v924, h_main_v928]) <;> (first | rfl | assumption))
  · (after_results_simp <;> (try simp only [a0, a1, a2, a3, a4, a5, h_main_v2, h_main_v3, h_main_v4, h_main_v5, h_main_v763, h_main_v904, h_main_v907, h_main_v922, h_main_v924, h_main_v928]) <;> (first | rfl | assumption))
  · (after_results_simp <;> (try simp only [a0, a1, a2, a3, a4, a5, h_main_v2, h_main_v3, h_main_v4, h_main_v5, h_main_v763, h_main_v904, h_main_v907, h_main_v922, h_main_v924, h_main_v928]) <;> (first | rfl | assumption))
  · (after_results_simp <;> (try simp only [a0, a1, a2, a3, a4, a5, h_main_v2, h_main_v3, h_main_v4, h_main_v5, h_main_v763, h_main_v904, h_main_v907, h_main_v922, h_main_v924, h_main_v928]) <;> (first | rfl | assumption))
  · (after_results_simp <;> (try simp only [a0, a1, a2, a3, a4, a5, h_main_v2, h_main_v3, h_main_v4, h_main_v5, h_main_v763, h_main_v904, h_main_v907, h_main_v922, h_main_v924, h_main_v928]) <;> (first | rfl | assumption))
  · (after_results_simp <;> (try simp only [a0, a1, a2, a3, a4, a5, h_main_v2, h_main_v3, h_main_v4, h_main_v5, h_main_v763, h_main_v904, h_main_v907, h_main_v922, h_main_v924, h_main_v928]) <;> (first | rfl | assumption))
  · (after_results_simp <;> (try simp only [a0, a1, a2, a3, a4, a5, h_main_v2, h_main_v3, h_main_v4, h_main_v5, h_main_v763, h_main_v904, h_main_v907, h_main_v922, h_main_v924, h_main_v928]) <;> (first | rfl | assumption))
  · (after_results_simp <;> (try simp only [a0, a1, a2, a3, a4, a5, h_main_v2, h_main_v3, h_main_v4, h_main_v5, h_main_v763, h_main_v904, h_main_v907, h_main_v922, h_main_v924, h_main_v928]) <;> (first | rfl | assumption))
  · (after_results_simp <;> (try simp only [a0, a1, a2, a3, a4, a5, h_main_v2, h_main_v3, h_main_v4, h_main_v5, h_main_v763, h_main_v904, h_main_v907, h_main_v922, h_main_v924, h_main_v928]) <;> (first | rfl | assumption))
  · (after_results_simp <;> (try simp only [a0, a1, a2, a3, a4, a5, h_main_v2, h_main_v3, h_main_v4, h_main_v5, h_main_v763, h_main_v904, h_main_v907, h_main_v922, h_main_v924, h_main_v928]) <;> (first | rfl | assumption))
  · (after_results_simp <;> (try simp only [a0, a1, a2, a3, a4, a5, h_main_v2, h_main_v3, h_main_v4, h_main_v5, h_main_v763, h_main_v904, h_main_v907, h_main_v922, h_main_v924, h_main_v928]) <;> (first | rfl | assumption))
  · (after_results_simp <;> (try simp only [a0, a1, a2, a3, a4, a5, h_main_v2, h_main_v3, h_main_v4, h_main_v5, h_main_v763, h_main_v904, h_main_v907, h_main_v922, h_main_v924, h_main_v928]) <;> (first | rfl | assumption))
  · (after_results_simp <;> (try simp only [a0, a1, a2, a3, a4, a5, h_main_v2, h_main_v3, h_main_v4, h_main_v5, h_main_v763, h_main_v904, h_main_v907, h_main_v922, h_main_v924, h_main_v928]) <;> (first | rfl | assumption))
  · (after_results_simp <;> (try simp only [a0, a1, a2, a3, a4, a5, h_main_v2, h_main_v3, h_main_v4, h_main_v5, h_main_v763, h_main_v904, h_main_v907, h_main_v922, h_main_v924, h_main_v928]) <;> (first | rfl | assumption))
  · (after_results_simp <;> (try simp only [a0, a1, a2, a3, a4, a5, h_main_v2, h_main_v3, h_main_v4, h_main_v5, h_main_v763, h_main_v904, h_main_v907, h_main_v922, h_main_v924, h_main_v928]) <;> (first | rfl | assumption))
  · (after_results_simp <;> (try simp only [a0, a1, a2, a3, a4, a5, h_main_v2, h_main_v3, h_main_v4, h_main_v5, h_main_v763, h_main_v904, h_main_v907, h_main_v922, h_main_v924, h_main_v928]) <;> (first | rfl | assumption))

end Cert.ReferenceIdeal.RunH

end
-- ==== Proof.RefRun19.lean ====
/- The reference program's @main, statements 1141 … 1200 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops19 : List (HloOp τ sig (Elt F)) :=
  [ unary main_c_156 main_v981 (broadcastInDim S64 ![] bcast_S_S64 : (⟨S_, .i32⟩ : BufTy).Contents (Elt F) → (⟨S64, .i32⟩ : BufTy).Contents (Elt F)),
    binary main_v981 main_v5 main_v982 (subi : (⟨S64, .i32⟩ : BufTy).Contents (Elt F) → (⟨S64, .i32⟩ : BufTy).Contents (Elt F) → (⟨S64, .i32⟩ : BufTy).Contents (Elt F)),
    unary main_v982 main_v983 (broadcastInDim S1x64 ![1] bcast_S64_S1x64_1 : (⟨S64, .i32⟩ : BufTy).Contents (Elt F) → (⟨S1x64, .i32⟩ : BufTy).Contents (Elt F)),
    unary main_v983 main_v984 (sitofp .f32 : (⟨S1x64, .i32⟩ : BufTy).Contents (Elt F) → (⟨S1x64, .f32⟩ : BufTy).Contents (Elt F)),
    unary main_v980 main_v985 (broadcastInDim S1x64 ![] bcast_S_S1x64 : (⟨S_, .f32⟩ : BufTy).Contents (Elt F) → (⟨S1x64, .f32⟩ : BufTy).Contents (Elt F)),
    binary main_v985 main_v984 main_v986 (mulf : (⟨S1x64, .f32⟩ : BufTy).Contents (Elt F) → (⟨S1x64, .f32⟩ : BufTy).Contents (Elt F) → (⟨S1x64, .f32⟩ : BufTy).Contents (Elt F)),
    unary main_v978 main_v987 (broadcastInDim S64x64 ![0, 1] bcast_S64x1_S64x64_0_1 : (⟨S64x1, .f32⟩ : BufTy).Contents (Elt F) → (⟨S64x64, .f32⟩ : BufTy).Contents (Elt F)),
    unary main_v986 main_v988 (broadcastInDim S64x64 ![0, 1] bcast_S1x64_S64x64_0_1 : (⟨S1x64, .f32⟩ : BufTy).Contents (Elt F) → (⟨S64x64, .f32⟩ : BufTy).Contents (Elt F)),
    binary main_v987 main_v988 main_v989 (addf : (⟨S64x64, .f32⟩ : BufTy).Contents (Elt F) → (⟨S64x64, .f32⟩ : BufTy).Contents (Elt F) → (⟨S64x64, .f32⟩ : BufTy).Contents (Elt F)),
    unary main_v2 main_v990 ((extractStridedSlice S16x64x64x256 ![0, 3, 4, 0] · slices_S16x68x68x256_S16x64x64x256_0_3_4_0) : (⟨S16x68x68x256, .f32⟩ : BufTy).Contents (Elt F) → (⟨S16x64x64x256, .f32⟩ : BufTy).Contents (Elt F)),
    unary main_v3 main_v991 ((extractStridedSlice S16x64x64x256 ![0, 3, 4, 0] · slices_S16x68x68x256_S16x64x64x256_0_3_4_0) : (⟨S16x68x68x256, .f32⟩ : BufTy).Contents (Elt F) → (⟨S16x64x64x256, .f32⟩ : BufTy).Contents (Elt F)),
    unary main_v989 main_v992 (broadcastInDim S1x64x64x1 ![1, 2] bcast_S64x64_S1x64x64x1_1_2 : (⟨S64x64, .f32⟩ : BufTy).Contents (Elt F) → (⟨S1x64x64x1, .f32⟩ : BufTy).Contents (Elt F)),
    unary main_v992 main_v993 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v993 main_v990 main_v994 (addf : (⟨S16x64x64x256, .f32⟩ : BufTy).Contents (Elt F) → (⟨S16x64x64x256, .f32⟩ : BufTy).Contents (Elt F) → (⟨S16x64x64x256, .f32⟩ : BufTy).Contents (Elt F)),
    unary main_v994 main_v995 (Host.exp : (⟨S16x64x64x256, .f32⟩ : BufTy).Contents (Elt F) → (⟨S16x64x64x256, .f32⟩ : BufTy).Contents (Elt F)),
    unary main_v970 main_v996 (broadcastInDim S1x64x64x1 ![1, 2] bcast_S64x64_S1x64x64x1_1_2 : (⟨S64x64, .f32⟩ : BufTy).Contents (Elt F) → (⟨S1x64x64x1, .f32⟩ : BufTy).Contents (Elt F)),
    unary main_v996 main_v997 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v995 main_v997 main_v998 (mulf : (⟨S16x64x64x256, .f32⟩ : BufTy).Contents (Elt F) → (⟨S16x64x64x256, .f32⟩ : BufTy).Contents (Elt F) → (⟨S16x64x64x256, .f32⟩ : BufTy).Contents (Elt F)),
    binary main_v998 main_v991 main_v999 (mulf : (⟨S16x64x64x256, .f32⟩ : BufTy).Contents (Elt F) → (⟨S16x64x64x256, .f32⟩ : BufTy).Contents (Elt F) → (⟨S16x64x64x256, .f32⟩ : BufTy).Contents (Elt F)),
    binary main_v952 main_v999 main_v1000 (addf : (⟨S16x64x64x256, .f32⟩ : BufTy).Contents (Elt F) → (⟨S16x64x64x256, .f32⟩ : BufTy).Contents (Elt F) → (⟨S16x64x64x256, .f32⟩ : BufTy).Contents (Elt F)),
    nullary main_cst_157 (constant S_ .f32 0x00000000#32),
    binary main_v998 main_cst_157 main_v1001 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v1001 main_v1002 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v955 main_v1002 main_v1003 (addf : (⟨S16x64x64x1, .f32⟩ : BufTy).Contents (Elt F) → (⟨S16x64x64x1, .f32⟩ : BufTy).Contents (Elt F) → (⟨S16x64x64x1, .f32⟩ : BufTy).Contents (Elt F)),
    nullary main_c_158 (constantI S_ 32 2#32),
    unary main_c_158 main_v1004 (broadcastInDim S64 ![] bcast_S_S64 : (⟨S_, .i32⟩ : BufTy).Contents (Elt F) → (⟨S64, .i32⟩ : BufTy).Contents (Elt F)),
    binary main_v4 main_v1004 main_v1005 (addi : (⟨S64, .i32⟩ : BufTy).Contents (Elt F) → (⟨S64, .i32⟩ : BufTy).Contents (Elt F) → (⟨S64, .i32⟩ : BufTy).Contents (Elt F)),
    nullary main_c_159 (constantI S_ 32 0#32),
    unary main_c_159 main_v1006 (broadcastInDim S64 ![] bcast_S_S64 : (⟨S_, .i32⟩ : BufTy).Contents (Elt F) → (⟨S64, .i32⟩ : BufTy).Contents (Elt F)),
    binary main_v1005 main_v1006 main_v1007 (cmpi .sge : (⟨S64, .i32⟩ : BufTy).Contents (Elt F) → (⟨S64, .i32⟩ : BufTy).Contents (Elt F) → (⟨S64, .i1⟩ : BufTy).Contents (Elt F)),
    nullary main_c_160 (constantI S_ 32 2#32),
    unary main_c_160 main_v1008 (broadcastInDim S64 ![] bcast_S_S64 : (⟨S_, .i32⟩ : BufTy).Contents (Elt F) → (⟨S64, .i32⟩ : BufTy).Contents (Elt F)),
    binary main_v4 main_v1008 main_v1009 (addi : (⟨S64, .i32⟩ : BufTy).Contents (Elt F) → (⟨S64, .i32⟩ : BufTy).Contents (Elt F) → (⟨S64, .i32⟩ : BufTy).Contents (Elt F)),
    nullary main_c_161 (constantI S_ 32 64#32),
    unary main_c_161 main_v1010 (broadcastInDim S64 ![] bcast_S_S64 : (⟨S_, .i32⟩ : BufTy).Contents (Elt F) → (⟨S64, .i32⟩ : BufTy).Contents (Elt F)),
    binary main_v1009 main_v1010 main_v1011 (cmpi .slt : (⟨S64, .i32⟩ : BufTy).Contents (Elt F) → (⟨S64, .i32⟩ : BufTy).Contents (Elt F) → (⟨S64, .i1⟩ : BufTy).Contents (Elt F)),
    binary main_v1007 main_v1011 main_v1012 (andi : (⟨S64, .i1⟩ : BufTy).Contents (Elt F) → (⟨S64, .i1⟩ : BufTy).Contents (Elt F) → (⟨S64, .i1⟩ : BufTy).Contents (Elt F)),
    nullary main_c_162 (constantI S_ 32 4294967294#32),
    unary main_c_162 main_v1013 (broadcastInDim S64 ![] bcast_S_S64 : (⟨S_, .i32⟩ : BufTy).Contents (Elt F) → (⟨S64, .i32⟩ : BufTy).Contents (Elt F)),
    binary main_v5 main_v1013 main_v1014 (addi : (⟨S64, .i32⟩ : BufTy).Contents (Elt F) → (⟨S64, .i32⟩ : BufTy).Contents (Elt F) → (⟨S64, .i32⟩ : BufTy).Contents (Elt F)),
    nullary main_c_163 (constantI S_ 32 0#32),
    unary main_c_163 main_v1015 (broadcastInDim S64 ![] bcast_S_S64 : (⟨S_, .i32⟩ : BufTy).Contents (Elt F) → (⟨S64, .i32⟩ : BufTy).Contents (Elt F)),
    binary main_v1014 main_v1015 main_v1016 (cmpi .sge : (⟨S64, .i32⟩ : BufTy).Contents (Elt F) → (⟨S64, .i32⟩ : BufTy).Contents (Elt F) → (⟨S64, .i1⟩ : BufTy).Contents (Elt F)),
    nullary main_c_164 (constantI S_ 32 4294967294#32),
    unary main_c_164 main_v1017 (broadcastInDim S64 ![] bcast_S_S64 : (⟨S_, .i32⟩ : BufTy).Contents (Elt F) → (⟨S64, .i32⟩ : BufTy).Contents (Elt F)),
    binary main_v5 main_v1017 main_v1018 (addi : (⟨S64, .i32⟩ : BufTy).Contents (Elt F) → (⟨S64, .i32⟩ : BufTy).Contents (Elt F) → (⟨S64, .i32⟩ : BufTy).Contents (Elt F)),
    nullary main_c_165 (constantI S_ 32 64#32),
    unary main_c_165 main_v1019 (broadcastInDim S64 ![] bcast_S_S64 : (⟨S_, .i32⟩ : BufTy).Contents (Elt F) → (⟨S64, .i32⟩ : BufTy).Contents (Elt F)),
    binary main_v1018 main_v1019 main_v1020 (cmpi .slt : (⟨S64, .i32⟩ : BufTy).Contents (Elt F) → (⟨S64, .i32⟩ : BufTy).Contents (Elt F) → (⟨S64, .i1⟩ : BufTy).Contents (Elt F)),
    binary main_v1016 main_v1020 main_v1021 (andi : (⟨S64, .i1⟩ : BufTy).Contents (Elt F) → (⟨S64, .i1⟩ : BufTy).Contents (Elt F) → (⟨S64, .i1⟩ : BufTy).Contents (Elt F)),
    unary main_v1012 main_v1022 (broadcastInDim S64x1 ![0] bcast_S64_S64x1_0 : (⟨S64, .i1⟩ : BufTy).Contents (Elt F) → (⟨S64x1, .i1⟩ : BufTy).Contents (Elt F)),
    unary main_v1021 main_v1023 (broadcastInDim S1x64 ![1] bcast_S64_S1x64_1 : (⟨S64, .i1⟩ : BufTy).Contents (Elt F) → (⟨S1x64, .i1⟩ : BufTy).Contents (Elt F)),
    unary main_v1022 main_v1024 (broadcastInDim S64x64 ![0, 1] bcast_S64x1_S64x64_0_1 : (⟨S64x1, .i1⟩ : BufTy).Contents (Elt F) → (⟨S64x64, .i1⟩ : BufTy).Contents (Elt F)),
    unary main_v1023 main_v1025 (broadcastInDim S64x64 ![0, 1] bcast_S1x64_S64x64_0_1 : (⟨S1x64, .i1⟩ : BufTy).Contents (Elt F) → (⟨S64x64, .i1⟩ : BufTy).Contents (Elt F)),
    binary main_v1024 main_v1025 main_v1026 (andi : (⟨S64x64, .i1⟩ : BufTy).Contents (Elt F) → (⟨S64x64, .i1⟩ : BufTy).Contents (Elt F) → (⟨S64x64, .i1⟩ : BufTy).Contents (Elt F)),
    unary main_v1026 main_v1027 (uitofp .f32 : (⟨S64x64, .i1⟩ : BufTy).Contents (Elt F) → (⟨S64x64, .f32⟩ : BufTy).Contents (Elt F)),
    unary main_arg1 main_v1028 ((extractStridedSlice S1 ![4] · slices_S5_S1_4) : (⟨S5, .f32⟩ : BufTy).Contents (Elt F) → (⟨S1, .f32⟩ : BufTy).Contents (Elt F)),
    reshape main_v1028 main_v1029 rfl shapeCasts_S1_S_,
    nullary main_c_166 (constantI S_ 32 2#32),
    unary main_c_166 main_v1030 (broadcastInDim S64 ![] bcast_S_S64 : (⟨S_, .i32⟩ : BufTy).Contents (Elt F) → (⟨S64, .i32⟩ : BufTy).Contents (Elt F)) ]

set_option maxRecDepth 8192 in
set_option maxHeartbeats 4000000 in
theorem part19_eq (d : Dev nD) : main_part19 (F := F) d = seq ops19 := rfl

set_option maxRecDepth 8192 in
theorem ops19_sub : (ops19 : List (HloOp τ sig (Elt F))).Forall fun op => op.bufs ⊆ tcRefs τ sig := by
  unfold ops19
  exact ⟨unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., reshape_bufs_sub .., nullary_bufs_sub .., unary_bufs_sub ..⟩

set_option maxRecDepth 8192 in
theorem ops19_fresh : ∀ op ∈ (ops19 : List (HloOp τ sig (Elt F))), op.fresh = ∅ := by
  unfold ops19
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value19 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v952 : W (Proc.devRef .tc main_v952) = ReadP.val_main_v952 (F := F) x0 x1 x2 x3 x4)
    (h_main_v955 : W (Proc.devRef .tc main_v955) = ReadP.val_main_v955 (F := F) x0 x1 x2 x3)
    (h_main_v970 : W (Proc.devRef .tc main_v970) = ReadP.val_main_v970 (F := F))
    (h_main_v978 : W (Proc.devRef .tc main_v978) = ReadP.val_main_v978 (F := F) x1)
    (h_main_v980 : W (Proc.devRef .tc main_v980) = ReadP.val_main_v980 (F := F) x2)
    (h_main_c_156 : W (Proc.devRef .tc main_c_156) = ReadP.val_main_c_156 (F := F)) :
    after ops19 W (Proc.devRef .tc main_arg0) = x0 ∧
    after ops19 W (Proc.devRef .tc main_arg1) = x1 ∧
    after ops19 W (Proc.devRef .tc main_arg2) = x2 ∧
    after ops19 W (Proc.devRef .tc main_arg3) = x3 ∧
    after ops19 W (Proc.devRef .tc main_arg4) = x4 ∧
    after ops19 W (Proc.devRef .tc main_arg5) = x5 ∧
    after ops19 W (Proc.devRef .tc main_v2) = ReadP.val_main_v2 (F := F) x0 x3 ∧
    after ops19 W (Proc.devRef .tc main_v3) = ReadP.val_main_v3 (F := F) x0 x4 ∧
    after ops19 W (Proc.devRef .tc main_v4) = ReadP.val_main_v4 (F := F) ∧
    after ops19 W (Proc.devRef .tc main_v5) = ReadP.val_main_v5 (F := F) ∧
    after ops19 W (Proc.devRef .tc main_v1000) = ReadP.val_main_v1000 (F := F) x0 x1 x2 x3 x4 ∧
    after ops19 W (Proc.devRef .tc main_v1003) = ReadP.val_main_v1003 (F := F) x0 x1 x2 x3 ∧
    after ops19 W (Proc.devRef .tc main_v1012) = ReadP.val_main_v1012 (F := F) ∧
    after ops19 W (Proc.devRef .tc main_v1027) = ReadP.val_main_v1027 (F := F) ∧
    after ops19 W (Proc.devRef .tc main_v1029) = ReadP.val_main_v1029 (F := F) x1 ∧
    after ops19 W (Proc.devRef .tc main_v1030) = ReadP.val_main_v1030 (F := F) := by
  unfold ops19
  refine ⟨?_, ?_, ?_, ?_, ?_, ?_, ?_, ?_, ?_, ?_, ?_, ?_, ?_, ?_, ?_, ?_⟩
  · (after_results_simp <;> (try simp only [a0, a1, a2, a3, a4, a5, h_main_v2, h_main_v3, h_main_v4, h_main_v5, h_main_v952, h_main_v955, h_main_v970, h_main_v978, h_main_v980, h_main_c_156]) <;> (first | rfl | assumption))
  · (after_results_simp <;> (try simp only [a0, a1, a2, a3, a4, a5, h_main_v2, h_main_v3, h_main_v4, h_main_v5, h_main_v952, h_main_v955, h_main_v970, h_main_v978, h_main_v980, h_main_c_156]) <;> (first | rfl | assumption))
  · (after_results_simp <;> (try simp only [a0, a1, a2, a3, a4, a5, h_main_v2, h_main_v3, h_main_v4, h_main_v5, h_main_v952, h_main_v955, h_main_v970, h_main_v978, h_main_v980, h_main_c_156]) <;> (first | rfl | assumption))
  · (after_results_simp <;> (try simp only [a0, a1, a2, a3, a4, a5, h_main_v2, h_main_v3, h_main_v4, h_main_v5, h_main_v952, h_main_v955, h_main_v970, h_main_v978, h_main_v980, h_main_c_156]) <;> (first | rfl | assumption))
  · (after_results_simp <;> (try simp only [a0, a1, a2, a3, a4, a5, h_main_v2, h_main_v3, h_main_v4, h_main_v5, h_main_v952, h_main_v955, h_main_v970, h_main_v978, h_main_v980, h_main_c_156]) <;> (first | rfl | assumption))
  · (after_results_simp <;> (try simp only [a0, a1, a2, a3, a4, a5, h_main_v2, h_main_v3, h_main_v4, h_main_v5, h_main_v952, h_main_v955, h_main_v970, h_main_v978, h_main_v980, h_main_c_156]) <;> (first | rfl | assumption))
  · (after_results_simp <;> (try simp only [a0, a1, a2, a3, a4, a5, h_main_v2, h_main_v3, h_main_v4, h_main_v5, h_main_v952, h_main_v955, h_main_v970, h_main_v978, h_main_v980, h_main_c_156]) <;> (first | rfl | assumption))
  · (after_results_simp <;> (try simp only [a0, a1, a2, a3, a4, a5, h_main_v2, h_main_v3, h_main_v4, h_main_v5, h_main_v952, h_main_v955, h_main_v970, h_main_v978, h_main_v980, h_main_c_156]) <;> (first | rfl | assumption))
  · (after_results_simp <;> (try simp only [a0, a1, a2, a3, a4, a5, h_main_v2, h_main_v3, h_main_v4, h_main_v5, h_main_v952, h_main_v955, h_main_v970, h_main_v978, h_main_v980, h_main_c_156]) <;> (first | rfl | assumption))
  · (after_results_simp <;> (try simp only [a0, a1, a2, a3, a4, a5, h_main_v2, h_main_v3, h_main_v4, h_main_v5, h_main_v952, h_main_v955, h_main_v970, h_main_v978, h_main_v980, h_main_c_156]) <;> (first | rfl | assumption))
  · (after_results_simp <;> (try simp only [a0, a1, a2, a3, a4, a5, h_main_v2, h_main_v3, h_main_v4, h_main_v5, h_main_v952, h_main_v955, h_main_v970, h_main_v978, h_main_v980, h_main_c_156]) <;> (first | rfl | assumption))
  · (after_results_simp <;> (try simp only [a0, a1, a2, a3, a4, a5, h_main_v2, h_main_v3, h_main_v4, h_main_v5, h_main_v952, h_main_v955, h_main_v970, h_main_v978, h_main_v980, h_main_c_156]) <;> (first | rfl | assumption))
  · (after_results_simp <;> (try simp only [a0, a1, a2, a3, a4, a5, h_main_v2, h_main_v3, h_main_v4, h_main_v5, h_main_v952, h_main_v955, h_main_v970, h_main_v978, h_main_v980, h_main_c_156]) <;> (first | rfl | assumption))
  · (after_results_simp <;> (try simp only [a0, a1, a2, a3, a4, a5, h_main_v2, h_main_v3, h_main_v4, h_main_v5, h_main_v952, h_main_v955, h_main_v970, h_main_v978, h_main_v980, h_main_c_156]) <;> (first | rfl | assumption))
  · (after_results_simp <;> (try simp only [a0, a1, a2, a3, a4, a5, h_main_v2, h_main_v3, h_main_v4, h_main_v5, h_main_v952, h_main_v955, h_main_v970, h_main_v978, h_main_v980, h_main_c_156]) <;> (first | rfl | assumption))
  · (after_results_simp <;> (try simp only [a0, a1, a2, a3, a4, a5, h_main_v2, h_main_v3, h_main_v4, h_main_v5, h_main_v952, h_main_v955, h_main_v970, h_main_v978, h_main_v980, h_main_c_156]) <;> (first | rfl | assumption))

end Cert.ReferenceIdeal.RunH

end
-- ==== Proof.RefRun20.lean ====
/- The reference program's @main, statements 1201 … 1260 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops20 : List (HloOp τ sig (Elt F)) :=
  [ binary main_v1030 main_v4 main_v1031 (subi : (⟨S64, .i32⟩ : BufTy).Contents (Elt F) → (⟨S64, .i32⟩ : BufTy).Contents (Elt F) → (⟨S64, .i32⟩ : BufTy).Contents (Elt F)),
    unary main_v1031 main_v1032 (broadcastInDim S64x1 ![0] bcast_S64_S64x1_0 : (⟨S64, .i32⟩ : BufTy).Contents (Elt F) → (⟨S64x1, .i32⟩ : BufTy).Contents (Elt F)),
    unary main_v1032 main_v1033 (sitofp .f32 : (⟨S64x1, .i32⟩ : BufTy).Contents (Elt F) → (⟨S64x1, .f32⟩ : BufTy).Contents (Elt F)),
    unary main_v1029 main_v1034 (broadcastInDim S64x1 ![] bcast_S_S64x1 : (⟨S_, .f32⟩ : BufTy).Contents (Elt F) → (⟨S64x1, .f32⟩ : BufTy).Contents (Elt F)),
    binary main_v1034 main_v1033 main_v1035 (mulf : (⟨S64x1, .f32⟩ : BufTy).Contents (Elt F) → (⟨S64x1, .f32⟩ : BufTy).Contents (Elt F) → (⟨S64x1, .f32⟩ : BufTy).Contents (Elt F)),
    unary main_arg2 main_v1036 ((extractStridedSlice S1 ![0] · slices_S5_S1_0) : (⟨S5, .f32⟩ : BufTy).Contents (Elt F) → (⟨S1, .f32⟩ : BufTy).Contents (Elt F)),
    reshape main_v1036 main_v1037 rfl shapeCasts_S1_S_,
    nullary main_c_167 (constantI S_ 32 4294967294#32),
    unary main_c_167 main_v1038 (broadcastInDim S64 ![] bcast_S_S64 : (⟨S_, .i32⟩ : BufTy).Contents (Elt F) → (⟨S64, .i32⟩ : BufTy).Contents (Elt F)),
    binary main_v1038 main_v5 main_v1039 (subi : (⟨S64, .i32⟩ : BufTy).Contents (Elt F) → (⟨S64, .i32⟩ : BufTy).Contents (Elt F) → (⟨S64, .i32⟩ : BufTy).Contents (Elt F)),
    unary main_v1039 main_v1040 (broadcastInDim S1x64 ![1] bcast_S64_S1x64_1 : (⟨S64, .i32⟩ : BufTy).Contents (Elt F) → (⟨S1x64, .i32⟩ : BufTy).Contents (Elt F)),
    unary main_v1040 main_v1041 (sitofp .f32 : (⟨S1x64, .i32⟩ : BufTy).Contents (Elt F) → (⟨S1x64, .f32⟩ : BufTy).Contents (Elt F)),
    unary main_v1037 main_v1042 (broadcastInDim S1x64 ![] bcast_S_S1x64 : (⟨S_, .f32⟩ : BufTy).Contents (Elt F) → (⟨S1x64, .f32⟩ : BufTy).Contents (Elt F)),
    binary main_v1042 main_v1041 main_v1043 (mulf : (⟨S1x64, .f32⟩ : BufTy).Contents (Elt F) → (⟨S1x64, .f32⟩ : BufTy).Contents (Elt F) → (⟨S1x64, .f32⟩ : BufTy).Contents (Elt F)),
    unary main_v1035 main_v1044 (broadcastInDim S64x64 ![0, 1] bcast_S64x1_S64x64_0_1 : (⟨S64x1, .f32⟩ : BufTy).Contents (Elt F) → (⟨S64x64, .f32⟩ : BufTy).Contents (Elt F)),
    unary main_v1043 main_v1045 (broadcastInDim S64x64 ![0, 1] bcast_S1x64_S64x64_0_1 : (⟨S1x64, .f32⟩ : BufTy).Contents (Elt F) → (⟨S64x64, .f32⟩ : BufTy).Contents (Elt F)),
    binary main_v1044 main_v1045 main_v1046 (addf : (⟨S64x64, .f32⟩ : BufTy).Contents (Elt F) → (⟨S64x64, .f32⟩ : BufTy).Contents (Elt F) → (⟨S64x64, .f32⟩ : BufTy).Contents (Elt F)),
    unary main_v2 main_v1047 ((extractStridedSlice S16x64x64x256 ![0, 4, 0, 0] · slices_S16x68x68x256_S16x64x64x256_0_4_0_0) : (⟨S16x68x68x256, .f32⟩ : BufTy).Contents (Elt F) → (⟨S16x64x64x256, .f32⟩ : BufTy).Contents (Elt F)),
    unary main_v3 main_v1048 ((extractStridedSlice S16x64x64x256 ![0, 4, 0, 0] · slices_S16x68x68x256_S16x64x64x256_0_4_0_0) : (⟨S16x68x68x256, .f32⟩ : BufTy).Contents (Elt F) → (⟨S16x64x64x256, .f32⟩ : BufTy).Contents (Elt F)),
    unary main_v1046 main_v1049 (broadcastInDim S1x64x64x1 ![1, 2] bcast_S64x64_S1x64x64x1_1_2 : (⟨S64x64, .f32⟩ : BufTy).Contents (Elt F) → (⟨S1x64x64x1, .f32⟩ : BufTy).Contents (Elt F)),
    unary main_v1049 main_v1050 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v1050 main_v1047 main_v1051 (addf : (⟨S16x64x64x256, .f32⟩ : BufTy).Contents (Elt F) → (⟨S16x64x64x256, .f32⟩ : BufTy).Contents (Elt F) → (⟨S16x64x64x256, .f32⟩ : BufTy).Contents (Elt F)),
    unary main_v1051 main_v1052 (Host.exp : (⟨S16x64x64x256, .f32⟩ : BufTy).Contents (Elt F) → (⟨S16x64x64x256, .f32⟩ : BufTy).Contents (Elt F)),
    unary main_v1027 main_v1053 (broadcastInDim S1x64x64x1 ![1, 2] bcast_S64x64_S1x64x64x1_1_2 : (⟨S64x64, .f32⟩ : BufTy).Contents (Elt F) → (⟨S1x64x64x1, .f32⟩ : BufTy).Contents (Elt F)),
    unary main_v1053 main_v1054 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v1052 main_v1054 main_v1055 (mulf : (⟨S16x64x64x256, .f32⟩ : BufTy).Contents (Elt F) → (⟨S16x64x64x256, .f32⟩ : BufTy).Contents (Elt F) → (⟨S16x64x64x256, .f32⟩ : BufTy).Contents (Elt F)),
    binary main_v1055 main_v1048 main_v1056 (mulf : (⟨S16x64x64x256, .f32⟩ : BufTy).Contents (Elt F) → (⟨S16x64x64x256, .f32⟩ : BufTy).Contents (Elt F) → (⟨S16x64x64x256, .f32⟩ : BufTy).Contents (Elt F)),
    binary main_v1000 main_v1056 main_v1057 (addf : (⟨S16x64x64x256, .f32⟩ : BufTy).Contents (Elt F) → (⟨S16x64x64x256, .f32⟩ : BufTy).Contents (Elt F) → (⟨S16x64x64x256, .f32⟩ : BufTy).Contents (Elt F)),
    nullary main_cst_168 (constant S_ .f32 0x00000000#32),
    binary main_v1055 main_cst_168 main_v1058 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v1058 main_v1059 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v1003 main_v1059 main_v1060 (addf : (⟨S16x64x64x1, .f32⟩ : BufTy).Contents (Elt F) → (⟨S16x64x64x1, .f32⟩ : BufTy).Contents (Elt F) → (⟨S16x64x64x1, .f32⟩ : BufTy).Contents (Elt F)),
    nullary main_c_169 (constantI S_ 32 4294967295#32),
    unary main_c_169 main_v1061 (broadcastInDim S64 ![] bcast_S_S64 : (⟨S_, .i32⟩ : BufTy).Contents (Elt F) → (⟨S64, .i32⟩ : BufTy).Contents (Elt F)),
    binary main_v5 main_v1061 main_v1062 (addi : (⟨S64, .i32⟩ : BufTy).Contents (Elt F) → (⟨S64, .i32⟩ : BufTy).Contents (Elt F) → (⟨S64, .i32⟩ : BufTy).Contents (Elt F)),
    nullary main_c_170 (constantI S_ 32 0#32),
    unary main_c_170 main_v1063 (broadcastInDim S64 ![] bcast_S_S64 : (⟨S_, .i32⟩ : BufTy).Contents (Elt F) → (⟨S64, .i32⟩ : BufTy).Contents (Elt F)),
    binary main_v1062 main_v1063 main_v1064 (cmpi .sge : (⟨S64, .i32⟩ : BufTy).Contents (Elt F) → (⟨S64, .i32⟩ : BufTy).Contents (Elt F) → (⟨S64, .i1⟩ : BufTy).Contents (Elt F)),
    nullary main_c_171 (constantI S_ 32 4294967295#32),
    unary main_c_171 main_v1065 (broadcastInDim S64 ![] bcast_S_S64 : (⟨S_, .i32⟩ : BufTy).Contents (Elt F) → (⟨S64, .i32⟩ : BufTy).Contents (Elt F)),
    binary main_v5 main_v1065 main_v1066 (addi : (⟨S64, .i32⟩ : BufTy).Contents (Elt F) → (⟨S64, .i32⟩ : BufTy).Contents (Elt F) → (⟨S64, .i32⟩ : BufTy).Contents (Elt F)),
    nullary main_c_172 (constantI S_ 32 64#32),
    unary main_c_172 main_v1067 (broadcastInDim S64 ![] bcast_S_S64 : (⟨S_, .i32⟩ : BufTy).Contents (Elt F) → (⟨S64, .i32⟩ : BufTy).Contents (Elt F)),
    binary main_v1066 main_v1067 main_v1068 (cmpi .slt : (⟨S64, .i32⟩ : BufTy).Contents (Elt F) → (⟨S64, .i32⟩ : BufTy).Contents (Elt F) → (⟨S64, .i1⟩ : BufTy).Contents (Elt F)),
    binary main_v1064 main_v1068 main_v1069 (andi : (⟨S64, .i1⟩ : BufTy).Contents (Elt F) → (⟨S64, .i1⟩ : BufTy).Contents (Elt F) → (⟨S64, .i1⟩ : BufTy).Contents (Elt F)),
    unary main_v1012 main_v1070 (broadcastInDim S64x1 ![0] bcast_S64_S64x1_0 : (⟨S64, .i1⟩ : BufTy).Contents (Elt F) → (⟨S64x1, .i1⟩ : BufTy).Contents (Elt F)),
    unary main_v1069 main_v1071 (broadcastInDim S1x64 ![1] bcast_S64_S1x64_1 : (⟨S64, .i1⟩ : BufTy).Contents (Elt F) → (⟨S1x64, .i1⟩ : BufTy).Contents (Elt F)),
    unary main_v1070 main_v1072 (broadcastInDim S64x64 ![0, 1] bcast_S64x1_S64x64_0_1 : (⟨S64x1, .i1⟩ : BufTy).Contents (Elt F) → (⟨S64x64, .i1⟩ : BufTy).Contents (Elt F)),
    unary main_v1071 main_v1073 (broadcastInDim S64x64 ![0, 1] bcast_S1x64_S64x64_0_1 : (⟨S1x64, .i1⟩ : BufTy).Contents (Elt F) → (⟨S64x64, .i1⟩ : BufTy).Contents (Elt F)),
    binary main_v1072 main_v1073 main_v1074 (andi : (⟨S64x64, .i1⟩ : BufTy).Contents (Elt F) → (⟨S64x64, .i1⟩ : BufTy).Contents (Elt F) → (⟨S64x64, .i1⟩ : BufTy).Contents (Elt F)),
    unary main_v1074 main_v1075 (uitofp .f32 : (⟨S64x64, .i1⟩ : BufTy).Contents (Elt F) → (⟨S64x64, .f32⟩ : BufTy).Contents (Elt F)),
    unary main_arg1 main_v1076 ((extractStridedSlice S1 ![4] · slices_S5_S1_4) : (⟨S5, .f32⟩ : BufTy).Contents (Elt F) → (⟨S1, .f32⟩ : BufTy).Contents (Elt F)),
    reshape main_v1076 main_v1077 rfl shapeCasts_S1_S_,
    nullary main_c_173 (constantI S_ 32 2#32),
    unary main_c_173 main_v1078 (broadcastInDim S64 ![] bcast_S_S64 : (⟨S_, .i32⟩ : BufTy).Contents (Elt F) → (⟨S64, .i32⟩ : BufTy).Contents (Elt F)),
    binary main_v1078 main_v4 main_v1079 (subi : (⟨S64, .i32⟩ : BufTy).Contents (Elt F) → (⟨S64, .i32⟩ : BufTy).Contents (Elt F) → (⟨S64, .i32⟩ : BufTy).Contents (Elt F)),
    unary main_v1079 main_v1080 (broadcastInDim S64x1 ![0] bcast_S64_S64x1_0 : (⟨S64, .i32⟩ : BufTy).Contents (Elt F) → (⟨S64x1, .i32⟩ : BufTy).Contents (Elt F)),
    unary main_v1080 main_v1081 (sitofp .f32 : (⟨S64x1, .i32⟩ : BufTy).Contents (Elt F) → (⟨S64x1, .f32⟩ : BufTy).Contents (Elt F)),
    unary main_v1077 main_v1082 (broadcastInDim S64x1 ![] bcast_S_S64x1 : (⟨S_, .f32⟩ : BufTy).Contents (Elt F) → (⟨S64x1, .f32⟩ : BufTy).Contents (Elt F)),
    binary main_v1082 main_v1081 main_v1083 (mulf : (⟨S64x1, .f32⟩ : BufTy).Contents (Elt F) → (⟨S64x1, .f32⟩ : BufTy).Contents (Elt F) → (⟨S64x1, .f32⟩ : BufTy).Contents (Elt F)) ]

set_option maxRecDepth 8192 in
set_option maxHeartbeats 4000000 in
theorem part20_eq (d : Dev nD) : main_part20 (F := F) d = seq ops20 := rfl

set_option maxRecDepth 8192 in
theorem ops20_sub : (ops20 : List (HloOp τ sig (Elt F))).Forall fun op => op.bufs ⊆ tcRefs τ sig := by
  unfold ops20
  exact ⟨binary_bufs_sub .., unary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., reshape_bufs_sub .., nullary_bufs_sub .., unary_bufs_sub .., binary_bufs_sub .., unary_bufs_sub .., unary_bufs_sub .., unary_bufs_sub .., binary_bufs_sub ..⟩

set_option maxRecDepth 8192 in
theorem ops20_fresh : ∀ op ∈ (ops20 : List (HloOp τ sig (Elt F))), op.fresh = ∅ := by
  unfold ops20
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value20 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v1000 : W (Proc.devRef .tc main_v1000) = ReadP.val_main_v1000 (F := F) x0 x1 x2 x3 x4)
    (h_main_v1003 : W (Proc.devRef .tc main_v1003) = ReadP.val_main_v1003 (F := F) x0 x1 x2 x3)
    (h_main_v1012 : W (Proc.devRef .tc main_v1012) = ReadP.val_main_v1012 (F := F))
    (h_main_v1027 : W (Proc.devRef .tc main_v1027) = ReadP.val_main_v1027 (F := F))
    (h_main_v1029 : W (Proc.devRef .tc main_v1029) = ReadP.val_main_v1029 (F := F) x1)
    (h_main_v1030 : W (Proc.devRef .tc main_v1030) = ReadP.val_main_v1030 (F := F)) :
    after ops20 W (Proc.devRef .tc main_arg0) = x0 ∧
    after ops20 W (Proc.devRef .tc main_arg1) = x1 ∧
    after ops20 W (Proc.devRef .tc main_arg2) = x2 ∧
    after ops20 W (Proc.devRef .tc main_arg3) = x3 ∧
    after ops20 W (Proc.devRef .tc main_arg4) = x4 ∧
    after ops20 W (Proc.devRef .tc main_arg5) = x5 ∧
    after ops20 W (Proc.devRef .tc main_v2) = ReadP.val_main_v2 (F := F) x0 x3 ∧
    after ops20 W (Proc.devRef .tc main_v3) = ReadP.val_main_v3 (F := F) x0 x4 ∧
    after ops20 W (Proc.devRef .tc main_v4) = ReadP.val_main_v4 (F := F) ∧
    after ops20 W (Proc.devRef .tc main_v5) = ReadP.val_main_v5 (F := F) ∧
    after ops20 W (Proc.devRef .tc main_v1012) = ReadP.val_main_v1012 (F := F) ∧
    after ops20 W (Proc.devRef .tc main_v1057) = ReadP.val_main_v1057 (F := F) x0 x1 x2 x3 x4 ∧
    after ops20 W (Proc.devRef .tc main_v1060) = ReadP.val_main_v1060 (F := F) x0 x1 x2 x3 ∧
    after ops20 W (Proc.devRef .tc main_v1075) = ReadP.val_main_v1075 (F := F) ∧
    after ops20 W (Proc.devRef .tc main_v1083) = ReadP.val_main_v1083 (F := F) x1 := by
  unfold ops20
  refine ⟨?_, ?_, ?_, ?_, ?_, ?_, ?_, ?_, ?_, ?_, ?_, ?_, ?_, ?_, ?_⟩
  · (after_results_simp <;> (try simp only [a0, a1, a2, a3, a4, a5, h_main_v2, h_main_v3, h_main_v4, h_main_v5, h_main_v1000, h_main_v1003, h_main_v1012, h_main_v1027, h_main_v1029, h_main_v1030]) <;> (first | rfl | assumption))
  · (after_results_simp <;> (try simp only [a0, a1, a2, a3, a4, a5, h_main_v2, h_main_v3, h_main_v4, h_main_v5, h_main_v1000, h_main_v1003, h_main_v1012, h_main_v1027, h_main_v1029, h_main_v1030]) <;> (first | rfl | assumption))
  · (after_results_simp <;> (try simp only [a0, a1, a2, a3, a4, a5, h_main_v2, h_main_v3, h_main_v4, h_main_v5, h_main_v1000, h_main_v1003, h_main_v1012, h_main_v1027, h_main_v1029, h_main_v1030]) <;> (first | rfl | assumption))
  · (after_results_simp <;> (try simp only [a0, a1, a2, a3, a4, a5, h_main_v2, h_main_v3, h_main_v4, h_main_v5, h_main_v1000, h_main_v1003, h_main_v1012, h_main_v1027, h_main_v1029, h_main_v1030]) <;> (first | rfl | assumption))
  · (after_results_simp <;> (try simp only [a0, a1, a2, a3, a4, a5, h_main_v2, h_main_v3, h_main_v4, h_main_v5, h_main_v1000, h_main_v1003, h_main_v1012, h_main_v1027, h_main_v1029, h_main_v1030]) <;> (first | rfl | assumption))
  · (after_results_simp <;> (try simp only [a0, a1, a2, a3, a4, a5, h_main_v2, h_main_v3, h_main_v4, h_main_v5, h_main_v1000, h_main_v1003, h_main_v1012, h_main_v1027, h_main_v1029, h_main_v1030]) <;> (first | rfl | assumption))
  · (after_results_simp <;> (try simp only [a0, a1, a2, a3, a4, a5, h_main_v2, h_main_v3, h_main_v4, h_main_v5, h_main_v1000, h_main_v1003, h_main_v1012, h_main_v1027, h_main_v1029, h_main_v1030]) <;> (first | rfl | assumption))
  · (after_results_simp <;> (try simp only [a0, a1, a2, a3, a4, a5, h_main_v2, h_main_v3, h_main_v4, h_main_v5, h_main_v1000, h_main_v1003, h_main_v1012, h_main_v1027, h_main_v1029, h_main_v1030]) <;> (first | rfl | assumption))
  · (after_results_simp <;> (try simp only [a0, a1, a2, a3, a4, a5, h_main_v2, h_main_v3, h_main_v4, h_main_v5, h_main_v1000, h_main_v1003, h_main_v1012, h_main_v1027, h_main_v1029, h_main_v1030]) <;> (first | rfl | assumption))
  · (after_results_simp <;> (try simp only [a0, a1, a2, a3, a4, a5, h_main_v2, h_main_v3, h_main_v4, h_main_v5, h_main_v1000, h_main_v1003, h_main_v1012, h_main_v1027, h_main_v1029, h_main_v1030]) <;> (first | rfl | assumption))
  · (after_results_simp <;> (try simp only [a0, a1, a2, a3, a4, a5, h_main_v2, h_main_v3, h_main_v4, h_main_v5, h_main_v1000, h_main_v1003, h_main_v1012, h_main_v1027, h_main_v1029, h_main_v1030]) <;> (first | rfl | assumption))
  · (after_results_simp <;> (try simp only [a0, a1, a2, a3, a4, a5, h_main_v2, h_main_v3, h_main_v4, h_main_v5, h_main_v1000, h_main_v1003, h_main_v1012, h_main_v1027, h_main_v1029, h_main_v1030]) <;> (first | rfl | assumption))
  · (after_results_simp <;> (try simp only [a0, a1, a2, a3, a4, a5, h_main_v2, h_main_v3, h_main_v4, h_main_v5, h_main_v1000, h_main_v1003, h_main_v1012, h_main_v1027, h_main_v1029, h_main_v1030]) <;> (first | rfl | assumption))
  · (after_results_simp <;> (try simp only [a0, a1, a2, a3, a4, a5, h_main_v2, h_main_v3, h_main_v4, h_main_v5, h_main_v1000, h_main_v1003, h_main_v1012, h_main_v1027, h_main_v1029, h_main_v1030]) <;> (first | rfl | assumption))
  · (after_results_simp <;> (try simp only [a0, a1, a2, a3, a4, a5, h_main_v2, h_main_v3, h_main_v4, h_main_v5, h_main_v1000, h_main_v1003, h_main_v1012, h_main_v1027, h_main_v1029, h_main_v1030]) <;> (first | rfl | assumption))

end Cert.ReferenceIdeal.RunH

end
-- ==== Proof.RefRun21.lean ====
/- The reference program's @main, statements 1261 … 1320 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops21 : List (HloOp τ sig (Elt F)) :=
  [ unary main_arg2 main_v1084 ((extractStridedSlice S1 ![1] · slices_S5_S1_1) : (⟨S5, .f32⟩ : BufTy).Contents (Elt F) → (⟨S1, .f32⟩ : BufTy).Contents (Elt F)),
    reshape main_v1084 main_v1085 rfl shapeCasts_S1_S_,
    nullary main_c_174 (constantI S_ 32 4294967295#32),
    unary main_c_174 main_v1086 (broadcastInDim S64 ![] bcast_S_S64 : (⟨S_, .i32⟩ : BufTy).Contents (Elt F) → (⟨S64, .i32⟩ : BufTy).Contents (Elt F)),
    binary main_v1086 main_v5 main_v1087 (subi : (⟨S64, .i32⟩ : BufTy).Contents (Elt F) → (⟨S64, .i32⟩ : BufTy).Contents (Elt F) → (⟨S64, .i32⟩ : BufTy).Contents (Elt F)),
    unary main_v1087 main_v1088 (broadcastInDim S1x64 ![1] bcast_S64_S1x64_1 : (⟨S64, .i32⟩ : BufTy).Contents (Elt F) → (⟨S1x64, .i32⟩ : BufTy).Contents (Elt F)),
    unary main_v1088 main_v1089 (sitofp .f32 : (⟨S1x64, .i32⟩ : BufTy).Contents (Elt F) → (⟨S1x64, .f32⟩ : BufTy).Contents (Elt F)),
    unary main_v1085 main_v1090 (broadcastInDim S1x64 ![] bcast_S_S1x64 : (⟨S_, .f32⟩ : BufTy).Contents (Elt F) → (⟨S1x64, .f32⟩ : BufTy).Contents (Elt F)),
    binary main_v1090 main_v1089 main_v1091 (mulf : (⟨S1x64, .f32⟩ : BufTy).Contents (Elt F) → (⟨S1x64, .f32⟩ : BufTy).Contents (Elt F) → (⟨S1x64, .f32⟩ : BufTy).Contents (Elt F)),
    unary main_v1083 main_v1092 (broadcastInDim S64x64 ![0, 1] bcast_S64x1_S64x64_0_1 : (⟨S64x1, .f32⟩ : BufTy).Contents (Elt F) → (⟨S64x64, .f32⟩ : BufTy).Contents (Elt F)),
    unary main_v1091 main_v1093 (broadcastInDim S64x64 ![0, 1] bcast_S1x64_S64x64_0_1 : (⟨S1x64, .f32⟩ : BufTy).Contents (Elt F) → (⟨S64x64, .f32⟩ : BufTy).Contents (Elt F)),
    binary main_v1092 main_v1093 main_v1094 (addf : (⟨S64x64, .f32⟩ : BufTy).Contents (Elt F) → (⟨S64x64, .f32⟩ : BufTy).Contents (Elt F) → (⟨S64x64, .f32⟩ : BufTy).Contents (Elt F)),
    unary main_v2 main_v1095 ((extractStridedSlice S16x64x64x256 ![0, 4, 1, 0] · slices_S16x68x68x256_S16x64x64x256_0_4_1_0) : (⟨S16x68x68x256, .f32⟩ : BufTy).Contents (Elt F) → (⟨S16x64x64x256, .f32⟩ : BufTy).Contents (Elt F)),
    unary main_v3 main_v1096 ((extractStridedSlice S16x64x64x256 ![0, 4, 1, 0] · slices_S16x68x68x256_S16x64x64x256_0_4_1_0) : (⟨S16x68x68x256, .f32⟩ : BufTy).Contents (Elt F) → (⟨S16x64x64x256, .f32⟩ : BufTy).Contents (Elt F)),
    unary main_v1094 main_v1097 (broadcastInDim S1x64x64x1 ![1, 2] bcast_S64x64_S1x64x64x1_1_2 : (⟨S64x64, .f32⟩ : BufTy).Contents (Elt F) → (⟨S1x64x64x1, .f32⟩ : BufTy).Contents (Elt F)),
    unary main_v1097 main_v1098 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v1098 main_v1095 main_v1099 (addf : (⟨S16x64x64x256, .f32⟩ : BufTy).Contents (Elt F) → (⟨S16x64x64x256, .f32⟩ : BufTy).Contents (Elt F) → (⟨S16x64x64x256, .f32⟩ : BufTy).Contents (Elt F)),
    unary main_v1099 main_v1100 (Host.exp : (⟨S16x64x64x256, .f32⟩ : BufTy).Contents (Elt F) → (⟨S16x64x64x256, .f32⟩ : BufTy).Contents (Elt F)),
    unary main_v1075 main_v1101 (broadcastInDim S1x64x64x1 ![1, 2] bcast_S64x64_S1x64x64x1_1_2 : (⟨S64x64, .f32⟩ : BufTy).Contents (Elt F) → (⟨S1x64x64x1, .f32⟩ : BufTy).Contents (Elt F)),
    unary main_v1101 main_v1102 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v1100 main_v1102 main_v1103 (mulf : (⟨S16x64x64x256, .f32⟩ : BufTy).Contents (Elt F) → (⟨S16x64x64x256, .f32⟩ : BufTy).Contents (Elt F) → (⟨S16x64x64x256, .f32⟩ : BufTy).Contents (Elt F)),
    binary main_v1103 main_v1096 main_v1104 (mulf : (⟨S16x64x64x256, .f32⟩ : BufTy).Contents (Elt F) → (⟨S16x64x64x256, .f32⟩ : BufTy).Contents (Elt F) → (⟨S16x64x64x256, .f32⟩ : BufTy).Contents (Elt F)),
    binary main_v1057 main_v1104 main_v1105 (addf : (⟨S16x64x64x256, .f32⟩ : BufTy).Contents (Elt F) → (⟨S16x64x64x256, .f32⟩ : BufTy).Contents (Elt F) → (⟨S16x64x64x256, .f32⟩ : BufTy).Contents (Elt F)),
    nullary main_cst_175 (constant S_ .f32 0x00000000#32),
    binary main_v1103 main_cst_175 main_v1106 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v1106 main_v1107 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v1060 main_v1107 main_v1108 (addf : (⟨S16x64x64x1, .f32⟩ : BufTy).Contents (Elt F) → (⟨S16x64x64x1, .f32⟩ : BufTy).Contents (Elt F) → (⟨S16x64x64x1, .f32⟩ : BufTy).Contents (Elt F)),
    nullary main_c_176 (constantI S_ 32 0#32),
    unary main_c_176 main_v1109 (broadcastInDim S64 ![] bcast_S_S64 : (⟨S_, .i32⟩ : BufTy).Contents (Elt F) → (⟨S64, .i32⟩ : BufTy).Contents (Elt F)),
    binary main_v5 main_v1109 main_v1110 (addi : (⟨S64, .i32⟩ : BufTy).Contents (Elt F) → (⟨S64, .i32⟩ : BufTy).Contents (Elt F) → (⟨S64, .i32⟩ : BufTy).Contents (Elt F)),
    nullary main_c_177 (constantI S_ 32 0#32),
    unary main_c_177 main_v1111 (broadcastInDim S64 ![] bcast_S_S64 : (⟨S_, .i32⟩ : BufTy).Contents (Elt F) → (⟨S64, .i32⟩ : BufTy).Contents (Elt F)),
    binary main_v1110 main_v1111 main_v1112 (cmpi .sge : (⟨S64, .i32⟩ : BufTy).Contents (Elt F) → (⟨S64, .i32⟩ : BufTy).Contents (Elt F) → (⟨S64, .i1⟩ : BufTy).Contents (Elt F)),
    nullary main_c_178 (constantI S_ 32 0#32),
    unary main_c_178 main_v1113 (broadcastInDim S64 ![] bcast_S_S64 : (⟨S_, .i32⟩ : BufTy).Contents (Elt F) → (⟨S64, .i32⟩ : BufTy).Contents (Elt F)),
    binary main_v5 main_v1113 main_v1114 (addi : (⟨S64, .i32⟩ : BufTy).Contents (Elt F) → (⟨S64, .i32⟩ : BufTy).Contents (Elt F) → (⟨S64, .i32⟩ : BufTy).Contents (Elt F)),
    nullary main_c_179 (constantI S_ 32 64#32),
    unary main_c_179 main_v1115 (broadcastInDim S64 ![] bcast_S_S64 : (⟨S_, .i32⟩ : BufTy).Contents (Elt F) → (⟨S64, .i32⟩ : BufTy).Contents (Elt F)),
    binary main_v1114 main_v1115 main_v1116 (cmpi .slt : (⟨S64, .i32⟩ : BufTy).Contents (Elt F) → (⟨S64, .i32⟩ : BufTy).Contents (Elt F) → (⟨S64, .i1⟩ : BufTy).Contents (Elt F)),
    binary main_v1112 main_v1116 main_v1117 (andi : (⟨S64, .i1⟩ : BufTy).Contents (Elt F) → (⟨S64, .i1⟩ : BufTy).Contents (Elt F) → (⟨S64, .i1⟩ : BufTy).Contents (Elt F)),
    unary main_v1012 main_v1118 (broadcastInDim S64x1 ![0] bcast_S64_S64x1_0 : (⟨S64, .i1⟩ : BufTy).Contents (Elt F) → (⟨S64x1, .i1⟩ : BufTy).Contents (Elt F)),
    unary main_v1117 main_v1119 (broadcastInDim S1x64 ![1] bcast_S64_S1x64_1 : (⟨S64, .i1⟩ : BufTy).Contents (Elt F) → (⟨S1x64, .i1⟩ : BufTy).Contents (Elt F)),
    unary main_v1118 main_v1120 (broadcastInDim S64x64 ![0, 1] bcast_S64x1_S64x64_0_1 : (⟨S64x1, .i1⟩ : BufTy).Contents (Elt F) → (⟨S64x64, .i1⟩ : BufTy).Contents (Elt F)),
    unary main_v1119 main_v1121 (broadcastInDim S64x64 ![0, 1] bcast_S1x64_S64x64_0_1 : (⟨S1x64, .i1⟩ : BufTy).Contents (Elt F) → (⟨S64x64, .i1⟩ : BufTy).Contents (Elt F)),
    binary main_v1120 main_v1121 main_v1122 (andi : (⟨S64x64, .i1⟩ : BufTy).Contents (Elt F) → (⟨S64x64, .i1⟩ : BufTy).Contents (Elt F) → (⟨S64x64, .i1⟩ : BufTy).Contents (Elt F)),
    unary main_v1122 main_v1123 (uitofp .f32 : (⟨S64x64, .i1⟩ : BufTy).Contents (Elt F) → (⟨S64x64, .f32⟩ : BufTy).Contents (Elt F)),
    unary main_arg1 main_v1124 ((extractStridedSlice S1 ![4] · slices_S5_S1_4) : (⟨S5, .f32⟩ : BufTy).Contents (Elt F) → (⟨S1, .f32⟩ : BufTy).Contents (Elt F)),
    reshape main_v1124 main_v1125 rfl shapeCasts_S1_S_,
    nullary main_c_180 (constantI S_ 32 2#32),
    unary main_c_180 main_v1126 (broadcastInDim S64 ![] bcast_S_S64 : (⟨S_, .i32⟩ : BufTy).Contents (Elt F) → (⟨S64, .i32⟩ : BufTy).Contents (Elt F)),
    binary main_v1126 main_v4 main_v1127 (subi : (⟨S64, .i32⟩ : BufTy).Contents (Elt F) → (⟨S64, .i32⟩ : BufTy).Contents (Elt F) → (⟨S64, .i32⟩ : BufTy).Contents (Elt F)),
    unary main_v1127 main_v1128 (broadcastInDim S64x1 ![0] bcast_S64_S64x1_0 : (⟨S64, .i32⟩ : BufTy).Contents (Elt F) → (⟨S64x1, .i32⟩ : BufTy).Contents (Elt F)),
    unary main_v1128 main_v1129 (sitofp .f32 : (⟨S64x1, .i32⟩ : BufTy).Contents (Elt F) → (⟨S64x1, .f32⟩ : BufTy).Contents (Elt F)),
    unary main_v1125 main_v1130 (broadcastInDim S64x1 ![] bcast_S_S64x1 : (⟨S_, .f32⟩ : BufTy).Contents (Elt F) → (⟨S64x1, .f32⟩ : BufTy).Contents (Elt F)),
    binary main_v1130 main_v1129 main_v1131 (mulf : (⟨S64x1, .f32⟩ : BufTy).Contents (Elt F) → (⟨S64x1, .f32⟩ : BufTy).Contents (Elt F) → (⟨S64x1, .f32⟩ : BufTy).Contents (Elt F)),
    unary main_arg2 main_v1132 ((extractStridedSlice S1 ![2] · slices_S5_S1_2) : (⟨S5, .f32⟩ : BufTy).Contents (Elt F) → (⟨S1, .f32⟩ : BufTy).Contents (Elt F)),
    reshape main_v1132 main_v1133 rfl shapeCasts_S1_S_,
    nullary main_c_181 (constantI S_ 32 0#32),
    unary main_c_181 main_v1134 (broadcastInDim S64 ![] bcast_S_S64 : (⟨S_, .i32⟩ : BufTy).Contents (Elt F) → (⟨S64, .i32⟩ : BufTy).Contents (Elt F)),
    binary main_v1134 main_v5 main_v1135 (subi : (⟨S64, .i32⟩ : BufTy).Contents (Elt F) → (⟨S64, .i32⟩ : BufTy).Contents (Elt F) → (⟨S64, .i32⟩ : BufTy).Contents (Elt F)) ]

set_option maxRecDepth 8192 in
set_option maxHeartbeats 4000000 in
theorem part21_eq (d : Dev nD) : main_part21 (F := F) d = seq ops21 := rfl

set_option maxRecDepth 8192 in
theorem ops21_sub : (ops21 : List (HloOp τ sig (Elt F))).Forall fun op => op.bufs ⊆ tcRefs τ sig := by
  unfold ops21
  exact ⟨unary_bufs_sub .., reshape_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., nullary_bufs_sub .., unary_bufs_sub .., binary_bufs_sub ..⟩

set_option maxRecDepth 8192 in
theorem ops21_fresh : ∀ op ∈ (ops21 : List (HloOp τ sig (Elt F))), op.fresh = ∅ := by
  unfold ops21
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value21 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v1012 : W (Proc.devRef .tc main_v1012) = ReadP.val_main_v1012 (F := F))
    (h_main_v1057 : W (Proc.devRef .tc main_v1057) = ReadP.val_main_v1057 (F := F) x0 x1 x2 x3 x4)
    (h_main_v1060 : W (Proc.devRef .tc main_v1060) = ReadP.val_main_v1060 (F := F) x0 x1 x2 x3)
    (h_main_v1075 : W (Proc.devRef .tc main_v1075) = ReadP.val_main_v1075 (F := F))
    (h_main_v1083 : W (Proc.devRef .tc main_v1083) = ReadP.val_main_v1083 (F := F) x1) :
    after ops21 W (Proc.devRef .tc main_arg0) = x0 ∧
    after ops21 W (Proc.devRef .tc main_arg1) = x1 ∧
    after ops21 W (Proc.devRef .tc main_arg2) = x2 ∧
    after ops21 W (Proc.devRef .tc main_arg3) = x3 ∧
    after ops21 W (Proc.devRef .tc main_arg4) = x4 ∧
    after ops21 W (Proc.devRef .tc main_arg5) = x5 ∧
    after ops21 W (Proc.devRef .tc main_v2) = ReadP.val_main_v2 (F := F) x0 x3 ∧
    after ops21 W (Proc.devRef .tc main_v3) = ReadP.val_main_v3 (F := F) x0 x4 ∧
    after ops21 W (Proc.devRef .tc main_v4) = ReadP.val_main_v4 (F := F) ∧
    after ops21 W (Proc.devRef .tc main_v5) = ReadP.val_main_v5 (F := F) ∧
    after ops21 W (Proc.devRef .tc main_v1012) = ReadP.val_main_v1012 (F := F) ∧
    after ops21 W (Proc.devRef .tc main_v1105) = ReadP.val_main_v1105 (F := F) x0 x1 x2 x3 x4 ∧
    after ops21 W (Proc.devRef .tc main_v1108) = ReadP.val_main_v1108 (F := F) x0 x1 x2 x3 ∧
    after ops21 W (Proc.devRef .tc main_v1123) = ReadP.val_main_v1123 (F := F) ∧
    after ops21 W (Proc.devRef .tc main_v1131) = ReadP.val_main_v1131 (F := F) x1 ∧
    after ops21 W (Proc.devRef .tc main_v1133) = ReadP.val_main_v1133 (F := F) x2 ∧
    after ops21 W (Proc.devRef .tc main_v1135) = ReadP.val_main_v1135 (F := F) := by
  unfold ops21
  refine ⟨?_, ?_, ?_, ?_, ?_, ?_, ?_, ?_, ?_, ?_, ?_, ?_, ?_, ?_, ?_, ?_, ?_⟩
  · (after_results_simp <;> (try simp only [a0, a1, a2, a3, a4, a5, h_main_v2, h_main_v3, h_main_v4, h_main_v5, h_main_v1012, h_main_v1057, h_main_v1060, h_main_v1075, h_main_v1083]) <;> (first | rfl | assumption))
  · (after_results_simp <;> (try simp only [a0, a1, a2, a3, a4, a5, h_main_v2, h_main_v3, h_main_v4, h_main_v5, h_main_v1012, h_main_v1057, h_main_v1060, h_main_v1075, h_main_v1083]) <;> (first | rfl | assumption))
  · (after_results_simp <;> (try simp only [a0, a1, a2, a3, a4, a5, h_main_v2, h_main_v3, h_main_v4, h_main_v5, h_main_v1012, h_main_v1057, h_main_v1060, h_main_v1075, h_main_v1083]) <;> (first | rfl | assumption))
  · (after_results_simp <;> (try simp only [a0, a1, a2, a3, a4, a5, h_main_v2, h_main_v3, h_main_v4, h_main_v5, h_main_v1012, h_main_v1057, h_main_v1060, h_main_v1075, h_main_v1083]) <;> (first | rfl | assumption))
  · (after_results_simp <;> (try simp only [a0, a1, a2, a3, a4, a5, h_main_v2, h_main_v3, h_main_v4, h_main_v5, h_main_v1012, h_main_v1057, h_main_v1060, h_main_v1075, h_main_v1083]) <;> (first | rfl | assumption))
  · (after_results_simp <;> (try simp only [a0, a1, a2, a3, a4, a5, h_main_v2, h_main_v3, h_main_v4, h_main_v5, h_main_v1012, h_main_v1057, h_main_v1060, h_main_v1075, h_main_v1083]) <;> (first | rfl | assumption))
  · (after_results_simp <;> (try simp only [a0, a1, a2, a3, a4, a5, h_main_v2, h_main_v3, h_main_v4, h_main_v5, h_main_v1012, h_main_v1057, h_main_v1060, h_main_v1075, h_main_v1083]) <;> (first | rfl | assumption))
  · (after_results_simp <;> (try simp only [a0, a1, a2, a3, a4, a5, h_main_v2, h_main_v3, h_main_v4, h_main_v5, h_main_v1012, h_main_v1057, h_main_v1060, h_main_v1075, h_main_v1083]) <;> (first | rfl | assumption))
  · (after_results_simp <;> (try simp only [a0, a1, a2, a3, a4, a5, h_main_v2, h_main_v3, h_main_v4, h_main_v5, h_main_v1012, h_main_v1057, h_main_v1060, h_main_v1075, h_main_v1083]) <;> (first | rfl | assumption))
  · (after_results_simp <;> (try simp only [a0, a1, a2, a3, a4, a5, h_main_v2, h_main_v3, h_main_v4, h_main_v5, h_main_v1012, h_main_v1057, h_main_v1060, h_main_v1075, h_main_v1083]) <;> (first | rfl | assumption))
  · (after_results_simp <;> (try simp only [a0, a1, a2, a3, a4, a5, h_main_v2, h_main_v3, h_main_v4, h_main_v5, h_main_v1012, h_main_v1057, h_main_v1060, h_main_v1075, h_main_v1083]) <;> (first | rfl | assumption))
  · (after_results_simp <;> (try simp only [a0, a1, a2, a3, a4, a5, h_main_v2, h_main_v3, h_main_v4, h_main_v5, h_main_v1012, h_main_v1057, h_main_v1060, h_main_v1075, h_main_v1083]) <;> (first | rfl | assumption))
  · (after_results_simp <;> (try simp only [a0, a1, a2, a3, a4, a5, h_main_v2, h_main_v3, h_main_v4, h_main_v5, h_main_v1012, h_main_v1057, h_main_v1060, h_main_v1075, h_main_v1083]) <;> (first | rfl | assumption))
  · (after_results_simp <;> (try simp only [a0, a1, a2, a3, a4, a5, h_main_v2, h_main_v3, h_main_v4, h_main_v5, h_main_v1012, h_main_v1057, h_main_v1060, h_main_v1075, h_main_v1083]) <;> (first | rfl | assumption))
  · (after_results_simp <;> (try simp only [a0, a1, a2, a3, a4, a5, h_main_v2, h_main_v3, h_main_v4, h_main_v5, h_main_v1012, h_main_v1057, h_main_v1060, h_main_v1075, h_main_v1083]) <;> (first | rfl | assumption))
  · (after_results_simp <;> (try simp only [a0, a1, a2, a3, a4, a5, h_main_v2, h_main_v3, h_main_v4, h_main_v5, h_main_v1012, h_main_v1057, h_main_v1060, h_main_v1075, h_main_v1083]) <;> (first | rfl | assumption))
  · (after_results_simp <;> (try simp only [a0, a1, a2, a3, a4, a5, h_main_v2, h_main_v3, h_main_v4, h_main_v5, h_main_v1012, h_main_v1057, h_main_v1060, h_main_v1075, h_main_v1083]) <;> (first | rfl | assumption))

end Cert.ReferenceIdeal.RunH

end
-- ==== Proof.RefRun22.lean ====
/- The reference program's @main, statements 1321 … 1380 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops22 : List (HloOp τ sig (Elt F)) :=
  [ unary main_v1135 main_v1136 (broadcastInDim S1x64 ![1] bcast_S64_S1x64_1 : (⟨S64, .i32⟩ : BufTy).Contents (Elt F) → (⟨S1x64, .i32⟩ : BufTy).Contents (Elt F)),
    unary main_v1136 main_v1137 (sitofp .f32 : (⟨S1x64, .i32⟩ : BufTy).Contents (Elt F) → (⟨S1x64, .f32⟩ : BufTy).Contents (Elt F)),
    unary main_v1133 main_v1138 (broadcastInDim S1x64 ![] bcast_S_S1x64 : (⟨S_, .f32⟩ : BufTy).Contents (Elt F) → (⟨S1x64, .f32⟩ : BufTy).Contents (Elt F)),
    binary main_v1138 main_v1137 main_v1139 (mulf : (⟨S1x64, .f32⟩ : BufTy).Contents (Elt F) → (⟨S1x64, .f32⟩ : BufTy).Contents (Elt F) → (⟨S1x64, .f32⟩ : BufTy).Contents (Elt F)),
    unary main_v1131 main_v1140 (broadcastInDim S64x64 ![0, 1] bcast_S64x1_S64x64_0_1 : (⟨S64x1, .f32⟩ : BufTy).Contents (Elt F) → (⟨S64x64, .f32⟩ : BufTy).Contents (Elt F)),
    unary main_v1139 main_v1141 (broadcastInDim S64x64 ![0, 1] bcast_S1x64_S64x64_0_1 : (⟨S1x64, .f32⟩ : BufTy).Contents (Elt F) → (⟨S64x64, .f32⟩ : BufTy).Contents (Elt F)),
    binary main_v1140 main_v1141 main_v1142 (addf : (⟨S64x64, .f32⟩ : BufTy).Contents (Elt F) → (⟨S64x64, .f32⟩ : BufTy).Contents (Elt F) → (⟨S64x64, .f32⟩ : BufTy).Contents (Elt F)),
    unary main_v2 main_v1143 ((extractStridedSlice S16x64x64x256 ![0, 4, 2, 0] · slices_S16x68x68x256_S16x64x64x256_0_4_2_0) : (⟨S16x68x68x256, .f32⟩ : BufTy).Contents (Elt F) → (⟨S16x64x64x256, .f32⟩ : BufTy).Contents (Elt F)),
    unary main_v3 main_v1144 ((extractStridedSlice S16x64x64x256 ![0, 4, 2, 0] · slices_S16x68x68x256_S16x64x64x256_0_4_2_0) : (⟨S16x68x68x256, .f32⟩ : BufTy).Contents (Elt F) → (⟨S16x64x64x256, .f32⟩ : BufTy).Contents (Elt F)),
    unary main_v1142 main_v1145 (broadcastInDim S1x64x64x1 ![1, 2] bcast_S64x64_S1x64x64x1_1_2 : (⟨S64x64, .f32⟩ : BufTy).Contents (Elt F) → (⟨S1x64x64x1, .f32⟩ : BufTy).Contents (Elt F)),
    unary main_v1145 main_v1146 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v1146 main_v1143 main_v1147 (addf : (⟨S16x64x64x256, .f32⟩ : BufTy).Contents (Elt F) → (⟨S16x64x64x256, .f32⟩ : BufTy).Contents (Elt F) → (⟨S16x64x64x256, .f32⟩ : BufTy).Contents (Elt F)),
    unary main_v1147 main_v1148 (Host.exp : (⟨S16x64x64x256, .f32⟩ : BufTy).Contents (Elt F) → (⟨S16x64x64x256, .f32⟩ : BufTy).Contents (Elt F)),
    unary main_v1123 main_v1149 (broadcastInDim S1x64x64x1 ![1, 2] bcast_S64x64_S1x64x64x1_1_2 : (⟨S64x64, .f32⟩ : BufTy).Contents (Elt F) → (⟨S1x64x64x1, .f32⟩ : BufTy).Contents (Elt F)),
    unary main_v1149 main_v1150 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v1148 main_v1150 main_v1151 (mulf : (⟨S16x64x64x256, .f32⟩ : BufTy).Contents (Elt F) → (⟨S16x64x64x256, .f32⟩ : BufTy).Contents (Elt F) → (⟨S16x64x64x256, .f32⟩ : BufTy).Contents (Elt F)),
    binary main_v1151 main_v1144 main_v1152 (mulf : (⟨S16x64x64x256, .f32⟩ : BufTy).Contents (Elt F) → (⟨S16x64x64x256, .f32⟩ : BufTy).Contents (Elt F) → (⟨S16x64x64x256, .f32⟩ : BufTy).Contents (Elt F)),
    binary main_v1105 main_v1152 main_v1153 (addf : (⟨S16x64x64x256, .f32⟩ : BufTy).Contents (Elt F) → (⟨S16x64x64x256, .f32⟩ : BufTy).Contents (Elt F) → (⟨S16x64x64x256, .f32⟩ : BufTy).Contents (Elt F)),
    nullary main_cst_182 (constant S_ .f32 0x00000000#32),
    binary main_v1151 main_cst_182 main_v1154 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v1154 main_v1155 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v1108 main_v1155 main_v1156 (addf : (⟨S16x64x64x1, .f32⟩ : BufTy).Contents (Elt F) → (⟨S16x64x64x1, .f32⟩ : BufTy).Contents (Elt F) → (⟨S16x64x64x1, .f32⟩ : BufTy).Contents (Elt F)),
    nullary main_c_183 (constantI S_ 32 1#32),
    unary main_c_183 main_v1157 (broadcastInDim S64 ![] bcast_S_S64 : (⟨S_, .i32⟩ : BufTy).Contents (Elt F) → (⟨S64, .i32⟩ : BufTy).Contents (Elt F)),
    binary main_v5 main_v1157 main_v1158 (addi : (⟨S64, .i32⟩ : BufTy).Contents (Elt F) → (⟨S64, .i32⟩ : BufTy).Contents (Elt F) → (⟨S64, .i32⟩ : BufTy).Contents (Elt F)),
    nullary main_c_184 (constantI S_ 32 0#32),
    unary main_c_184 main_v1159 (broadcastInDim S64 ![] bcast_S_S64 : (⟨S_, .i32⟩ : BufTy).Contents (Elt F) → (⟨S64, .i32⟩ : BufTy).Contents (Elt F)),
    binary main_v1158 main_v1159 main_v1160 (cmpi .sge : (⟨S64, .i32⟩ : BufTy).Contents (Elt F) → (⟨S64, .i32⟩ : BufTy).Contents (Elt F) → (⟨S64, .i1⟩ : BufTy).Contents (Elt F)),
    nullary main_c_185 (constantI S_ 32 1#32),
    unary main_c_185 main_v1161 (broadcastInDim S64 ![] bcast_S_S64 : (⟨S_, .i32⟩ : BufTy).Contents (Elt F) → (⟨S64, .i32⟩ : BufTy).Contents (Elt F)),
    binary main_v5 main_v1161 main_v1162 (addi : (⟨S64, .i32⟩ : BufTy).Contents (Elt F) → (⟨S64, .i32⟩ : BufTy).Contents (Elt F) → (⟨S64, .i32⟩ : BufTy).Contents (Elt F)),
    nullary main_c_186 (constantI S_ 32 64#32),
    unary main_c_186 main_v1163 (broadcastInDim S64 ![] bcast_S_S64 : (⟨S_, .i32⟩ : BufTy).Contents (Elt F) → (⟨S64, .i32⟩ : BufTy).Contents (Elt F)),
    binary main_v1162 main_v1163 main_v1164 (cmpi .slt : (⟨S64, .i32⟩ : BufTy).Contents (Elt F) → (⟨S64, .i32⟩ : BufTy).Contents (Elt F) → (⟨S64, .i1⟩ : BufTy).Contents (Elt F)),
    binary main_v1160 main_v1164 main_v1165 (andi : (⟨S64, .i1⟩ : BufTy).Contents (Elt F) → (⟨S64, .i1⟩ : BufTy).Contents (Elt F) → (⟨S64, .i1⟩ : BufTy).Contents (Elt F)),
    unary main_v1012 main_v1166 (broadcastInDim S64x1 ![0] bcast_S64_S64x1_0 : (⟨S64, .i1⟩ : BufTy).Contents (Elt F) → (⟨S64x1, .i1⟩ : BufTy).Contents (Elt F)),
    unary main_v1165 main_v1167 (broadcastInDim S1x64 ![1] bcast_S64_S1x64_1 : (⟨S64, .i1⟩ : BufTy).Contents (Elt F) → (⟨S1x64, .i1⟩ : BufTy).Contents (Elt F)),
    unary main_v1166 main_v1168 (broadcastInDim S64x64 ![0, 1] bcast_S64x1_S64x64_0_1 : (⟨S64x1, .i1⟩ : BufTy).Contents (Elt F) → (⟨S64x64, .i1⟩ : BufTy).Contents (Elt F)),
    unary main_v1167 main_v1169 (broadcastInDim S64x64 ![0, 1] bcast_S1x64_S64x64_0_1 : (⟨S1x64, .i1⟩ : BufTy).Contents (Elt F) → (⟨S64x64, .i1⟩ : BufTy).Contents (Elt F)),
    binary main_v1168 main_v1169 main_v1170 (andi : (⟨S64x64, .i1⟩ : BufTy).Contents (Elt F) → (⟨S64x64, .i1⟩ : BufTy).Contents (Elt F) → (⟨S64x64, .i1⟩ : BufTy).Contents (Elt F)),
    unary main_v1170 main_v1171 (uitofp .f32 : (⟨S64x64, .i1⟩ : BufTy).Contents (Elt F) → (⟨S64x64, .f32⟩ : BufTy).Contents (Elt F)),
    unary main_arg1 main_v1172 ((extractStridedSlice S1 ![4] · slices_S5_S1_4) : (⟨S5, .f32⟩ : BufTy).Contents (Elt F) → (⟨S1, .f32⟩ : BufTy).Contents (Elt F)),
    reshape main_v1172 main_v1173 rfl shapeCasts_S1_S_,
    nullary main_c_187 (constantI S_ 32 2#32),
    unary main_c_187 main_v1174 (broadcastInDim S64 ![] bcast_S_S64 : (⟨S_, .i32⟩ : BufTy).Contents (Elt F) → (⟨S64, .i32⟩ : BufTy).Contents (Elt F)),
    binary main_v1174 main_v4 main_v1175 (subi : (⟨S64, .i32⟩ : BufTy).Contents (Elt F) → (⟨S64, .i32⟩ : BufTy).Contents (Elt F) → (⟨S64, .i32⟩ : BufTy).Contents (Elt F)),
    unary main_v1175 main_v1176 (broadcastInDim S64x1 ![0] bcast_S64_S64x1_0 : (⟨S64, .i32⟩ : BufTy).Contents (Elt F) → (⟨S64x1, .i32⟩ : BufTy).Contents (Elt F)),
    unary main_v1176 main_v1177 (sitofp .f32 : (⟨S64x1, .i32⟩ : BufTy).Contents (Elt F) → (⟨S64x1, .f32⟩ : BufTy).Contents (Elt F)),
    unary main_v1173 main_v1178 (broadcastInDim S64x1 ![] bcast_S_S64x1 : (⟨S_, .f32⟩ : BufTy).Contents (Elt F) → (⟨S64x1, .f32⟩ : BufTy).Contents (Elt F)),
    binary main_v1178 main_v1177 main_v1179 (mulf : (⟨S64x1, .f32⟩ : BufTy).Contents (Elt F) → (⟨S64x1, .f32⟩ : BufTy).Contents (Elt F) → (⟨S64x1, .f32⟩ : BufTy).Contents (Elt F)),
    unary main_arg2 main_v1180 ((extractStridedSlice S1 ![3] · slices_S5_S1_3) : (⟨S5, .f32⟩ : BufTy).Contents (Elt F) → (⟨S1, .f32⟩ : BufTy).Contents (Elt F)),
    reshape main_v1180 main_v1181 rfl shapeCasts_S1_S_,
    nullary main_c_188 (constantI S_ 32 1#32),
    unary main_c_188 main_v1182 (broadcastInDim S64 ![] bcast_S_S64 : (⟨S_, .i32⟩ : BufTy).Contents (Elt F) → (⟨S64, .i32⟩ : BufTy).Contents (Elt F)),
    binary main_v1182 main_v5 main_v1183 (subi : (⟨S64, .i32⟩ : BufTy).Contents (Elt F) → (⟨S64, .i32⟩ : BufTy).Contents (Elt F) → (⟨S64, .i32⟩ : BufTy).Contents (Elt F)),
    unary main_v1183 main_v1184 (broadcastInDim S1x64 ![1] bcast_S64_S1x64_1 : (⟨S64, .i32⟩ : BufTy).Contents (Elt F) → (⟨S1x64, .i32⟩ : BufTy).Contents (Elt F)),
    unary main_v1184 main_v1185 (sitofp .f32 : (⟨S1x64, .i32⟩ : BufTy).Contents (Elt F) → (⟨S1x64, .f32⟩ : BufTy).Contents (Elt F)),
    unary main_v1181 main_v1186 (broadcastInDim S1x64 ![] bcast_S_S1x64 : (⟨S_, .f32⟩ : BufTy).Contents (Elt F) → (⟨S1x64, .f32⟩ : BufTy).Contents (Elt F)),
    binary main_v1186 main_v1185 main_v1187 (mulf : (⟨S1x64, .f32⟩ : BufTy).Contents (Elt F) → (⟨S1x64, .f32⟩ : BufTy).Contents (Elt F) → (⟨S1x64, .f32⟩ : BufTy).Contents (Elt F)),
    unary main_v1179 main_v1188 (broadcastInDim S64x64 ![0, 1] bcast_S64x1_S64x64_0_1 : (⟨S64x1, .f32⟩ : BufTy).Contents (Elt F) → (⟨S64x64, .f32⟩ : BufTy).Contents (Elt F)) ]

set_option maxRecDepth 8192 in
set_option maxHeartbeats 4000000 in
theorem part22_eq (d : Dev nD) : main_part22 (F := F) d = seq ops22 := rfl

set_option maxRecDepth 8192 in
theorem ops22_sub : (ops22 : List (HloOp τ sig (Elt F))).Forall fun op => op.bufs ⊆ tcRefs τ sig := by
  unfold ops22
  exact ⟨unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub ..⟩

set_option maxRecDepth 8192 in
theorem ops22_fresh : ∀ op ∈ (ops22 : List (HloOp τ sig (Elt F))), op.fresh = ∅ := by
  unfold ops22
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value22 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v1012 : W (Proc.devRef .tc main_v1012) = ReadP.val_main_v1012 (F := F))
    (h_main_v1105 : W (Proc.devRef .tc main_v1105) = ReadP.val_main_v1105 (F := F) x0 x1 x2 x3 x4)
    (h_main_v1108 : W (Proc.devRef .tc main_v1108) = ReadP.val_main_v1108 (F := F) x0 x1 x2 x3)
    (h_main_v1123 : W (Proc.devRef .tc main_v1123) = ReadP.val_main_v1123 (F := F))
    (h_main_v1131 : W (Proc.devRef .tc main_v1131) = ReadP.val_main_v1131 (F := F) x1)
    (h_main_v1133 : W (Proc.devRef .tc main_v1133) = ReadP.val_main_v1133 (F := F) x2)
    (h_main_v1135 : W (Proc.devRef .tc main_v1135) = ReadP.val_main_v1135 (F := F)) :
    after ops22 W (Proc.devRef .tc main_arg0) = x0 ∧
    after ops22 W (Proc.devRef .tc main_arg1) = x1 ∧
    after ops22 W (Proc.devRef .tc main_arg2) = x2 ∧
    after ops22 W (Proc.devRef .tc main_arg3) = x3 ∧
    after ops22 W (Proc.devRef .tc main_arg4) = x4 ∧
    after ops22 W (Proc.devRef .tc main_arg5) = x5 ∧
    after ops22 W (Proc.devRef .tc main_v2) = ReadP.val_main_v2 (F := F) x0 x3 ∧
    after ops22 W (Proc.devRef .tc main_v3) = ReadP.val_main_v3 (F := F) x0 x4 ∧
    after ops22 W (Proc.devRef .tc main_v4) = ReadP.val_main_v4 (F := F) ∧
    after ops22 W (Proc.devRef .tc main_v5) = ReadP.val_main_v5 (F := F) ∧
    after ops22 W (Proc.devRef .tc main_v1012) = ReadP.val_main_v1012 (F := F) ∧
    after ops22 W (Proc.devRef .tc main_v1153) = ReadP.val_main_v1153 (F := F) x0 x1 x2 x3 x4 ∧
    after ops22 W (Proc.devRef .tc main_v1156) = ReadP.val_main_v1156 (F := F) x0 x1 x2 x3 ∧
    after ops22 W (Proc.devRef .tc main_v1171) = ReadP.val_main_v1171 (F := F) ∧
    after ops22 W (Proc.devRef .tc main_v1187) = ReadP.val_main_v1187 (F := F) x2 ∧
    after ops22 W (Proc.devRef .tc main_v1188) = ReadP.val_main_v1188 (F := F) x1 := by
  unfold ops22
  refine ⟨?_, ?_, ?_, ?_, ?_, ?_, ?_, ?_, ?_, ?_, ?_, ?_, ?_, ?_, ?_, ?_⟩
  · (after_results_simp <;> (try simp only [a0, a1, a2, a3, a4, a5, h_main_v2, h_main_v3, h_main_v4, h_main_v5, h_main_v1012, h_main_v1105, h_main_v1108, h_main_v1123, h_main_v1131, h_main_v1133, h_main_v1135]) <;> (first | rfl | assumption))
  · (after_results_simp <;> (try simp only [a0, a1, a2, a3, a4, a5, h_main_v2, h_main_v3, h_main_v4, h_main_v5, h_main_v1012, h_main_v1105, h_main_v1108, h_main_v1123, h_main_v1131, h_main_v1133, h_main_v1135]) <;> (first | rfl | assumption))
  · (after_results_simp <;> (try simp only [a0, a1, a2, a3, a4, a5, h_main_v2, h_main_v3, h_main_v4, h_main_v5, h_main_v1012, h_main_v1105, h_main_v1108, h_main_v1123, h_main_v1131, h_main_v1133, h_main_v1135]) <;> (first | rfl | assumption))
  · (after_results_simp <;> (try simp only [a0, a1, a2, a3, a4, a5, h_main_v2, h_main_v3, h_main_v4, h_main_v5, h_main_v1012, h_main_v1105, h_main_v1108, h_main_v1123, h_main_v1131, h_main_v1133, h_main_v1135]) <;> (first | rfl | assumption))
  · (after_results_simp <;> (try simp only [a0, a1, a2, a3, a4, a5, h_main_v2, h_main_v3, h_main_v4, h_main_v5, h_main_v1012, h_main_v1105, h_main_v1108, h_main_v1123, h_main_v1131, h_main_v1133, h_main_v1135]) <;> (first | rfl | assumption))
  · (after_results_simp <;> (try simp only [a0, a1, a2, a3, a4, a5, h_main_v2, h_main_v3, h_main_v4, h_main_v5, h_main_v1012, h_main_v1105, h_main_v1108, h_main_v1123, h_main_v1131, h_main_v1133, h_main_v1135]) <;> (first | rfl | assumption))
  · (after_results_simp <;> (try simp only [a0, a1, a2, a3, a4, a5, h_main_v2, h_main_v3, h_main_v4, h_main_v5, h_main_v1012, h_main_v1105, h_main_v1108, h_main_v1123, h_main_v1131, h_main_v1133, h_main_v1135]) <;> (first | rfl | assumption))
  · (after_results_simp <;> (try simp only [a0, a1, a2, a3, a4, a5, h_main_v2, h_main_v3, h_main_v4, h_main_v5, h_main_v1012, h_main_v1105, h_main_v1108, h_main_v1123, h_main_v1131, h_main_v1133, h_main_v1135]) <;> (first | rfl | assumption))
  · (after_results_simp <;> (try simp only [a0, a1, a2, a3, a4, a5, h_main_v2, h_main_v3, h_main_v4, h_main_v5, h_main_v1012, h_main_v1105, h_main_v1108, h_main_v1123, h_main_v1131, h_main_v1133, h_main_v1135]) <;> (first | rfl | assumption))
  · (after_results_simp <;> (try simp only [a0, a1, a2, a3, a4, a5, h_main_v2, h_main_v3, h_main_v4, h_main_v5, h_main_v1012, h_main_v1105, h_main_v1108, h_main_v1123, h_main_v1131, h_main_v1133, h_main_v1135]) <;> (first | rfl | assumption))
  · (after_results_simp <;> (try simp only [a0, a1, a2, a3, a4, a5, h_main_v2, h_main_v3, h_main_v4, h_main_v5, h_main_v1012, h_main_v1105, h_main_v1108, h_main_v1123, h_main_v1131, h_main_v1133, h_main_v1135]) <;> (first | rfl | assumption))
  · (after_results_simp <;> (try simp only [a0, a1, a2, a3, a4, a5, h_main_v2, h_main_v3, h_main_v4, h_main_v5, h_main_v1012, h_main_v1105, h_main_v1108, h_main_v1123, h_main_v1131, h_main_v1133, h_main_v1135]) <;> (first | rfl | assumption))
  · (after_results_simp <;> (try simp only [a0, a1, a2, a3, a4, a5, h_main_v2, h_main_v3, h_main_v4, h_main_v5, h_main_v1012, h_main_v1105, h_main_v1108, h_main_v1123, h_main_v1131, h_main_v1133, h_main_v1135]) <;> (first | rfl | assumption))
  · (after_results_simp <;> (try simp only [a0, a1, a2, a3, a4, a5, h_main_v2, h_main_v3, h_main_v4, h_main_v5, h_main_v1012, h_main_v1105, h_main_v1108, h_main_v1123, h_main_v1131, h_main_v1133, h_main_v1135]) <;> (first | rfl | assumption))
  · (after_results_simp <;> (try simp only [a0, a1, a2, a3, a4, a5, h_main_v2, h_main_v3, h_main_v4, h_main_v5, h_main_v1012, h_main_v1105, h_main_v1108, h_main_v1123, h_main_v1131, h_main_v1133, h_main_v1135]) <;> (first | rfl | assumption))
  · (after_results_simp <;> (try simp only [a0, a1, a2, a3, a4, a5, h_main_v2, h_main_v3, h_main_v4, h_main_v5, h_main_v1012, h_main_v1105, h_main_v1108, h_main_v1123, h_main_v1131, h_main_v1133, h_main_v1135]) <;> (first | rfl | assumption))

end Cert.ReferenceIdeal.RunH

end
-- ==== Proof.RefRun23.lean ====
/- The reference program's @main, statements 1381 … 1440 of 1459, as the list of its 60 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops23 : List (HloOp τ sig (Elt F)) :=
  [ unary main_v1187 main_v1189 (broadcastInDim S64x64 ![0, 1] bcast_S1x64_S64x64_0_1 : (⟨S1x64, .f32⟩ : BufTy).Contents (Elt F) → (⟨S64x64, .f32⟩ : BufTy).Contents (Elt F)),
    binary main_v1188 main_v1189 main_v1190 (addf : (⟨S64x64, .f32⟩ : BufTy).Contents (Elt F) → (⟨S64x64, .f32⟩ : BufTy).Contents (Elt F) → (⟨S64x64, .f32⟩ : BufTy).Contents (Elt F)),
    unary main_v2 main_v1191 ((extractStridedSlice S16x64x64x256 ![0, 4, 3, 0] · slices_S16x68x68x256_S16x64x64x256_0_4_3_0) : (⟨S16x68x68x256, .f32⟩ : BufTy).Contents (Elt F) → (⟨S16x64x64x256, .f32⟩ : BufTy).Contents (Elt F)),
    unary main_v3 main_v1192 ((extractStridedSlice S16x64x64x256 ![0, 4, 3, 0] · slices_S16x68x68x256_S16x64x64x256_0_4_3_0) : (⟨S16x68x68x256, .f32⟩ : BufTy).Contents (Elt F) → (⟨S16x64x64x256, .f32⟩ : BufTy).Contents (Elt F)),
    unary main_v1190 main_v1193 (broadcastInDim S1x64x64x1 ![1, 2] bcast_S64x64_S1x64x64x1_1_2 : (⟨S64x64, .f32⟩ : BufTy).Contents (Elt F) → (⟨S1x64x64x1, .f32⟩ : BufTy).Contents (Elt F)),
    unary main_v1193 main_v1194 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v1194 main_v1191 main_v1195 (addf : (⟨S16x64x64x256, .f32⟩ : BufTy).Contents (Elt F) → (⟨S16x64x64x256, .f32⟩ : BufTy).Contents (Elt F) → (⟨S16x64x64x256, .f32⟩ : BufTy).Contents (Elt F)),
    unary main_v1195 main_v1196 (Host.exp : (⟨S16x64x64x256, .f32⟩ : BufTy).Contents (Elt F) → (⟨S16x64x64x256, .f32⟩ : BufTy).Contents (Elt F)),
    unary main_v1171 main_v1197 (broadcastInDim S1x64x64x1 ![1, 2] bcast_S64x64_S1x64x64x1_1_2 : (⟨S64x64, .f32⟩ : BufTy).Contents (Elt F) → (⟨S1x64x64x1, .f32⟩ : BufTy).Contents (Elt F)),
    unary main_v1197 main_v1198 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v1196 main_v1198 main_v1199 (mulf : (⟨S16x64x64x256, .f32⟩ : BufTy).Contents (Elt F) → (⟨S16x64x64x256, .f32⟩ : BufTy).Contents (Elt F) → (⟨S16x64x64x256, .f32⟩ : BufTy).Contents (Elt F)),
    binary main_v1199 main_v1192 main_v1200 (mulf : (⟨S16x64x64x256, .f32⟩ : BufTy).Contents (Elt F) → (⟨S16x64x64x256, .f32⟩ : BufTy).Contents (Elt F) → (⟨S16x64x64x256, .f32⟩ : BufTy).Contents (Elt F)),
    binary main_v1153 main_v1200 main_v1201 (addf : (⟨S16x64x64x256, .f32⟩ : BufTy).Contents (Elt F) → (⟨S16x64x64x256, .f32⟩ : BufTy).Contents (Elt F) → (⟨S16x64x64x256, .f32⟩ : BufTy).Contents (Elt F)),
    nullary main_cst_189 (constant S_ .f32 0x00000000#32),
    binary main_v1199 main_cst_189 main_v1202 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v1202 main_v1203 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v1156 main_v1203 main_v1204 (addf : (⟨S16x64x64x1, .f32⟩ : BufTy).Contents (Elt F) → (⟨S16x64x64x1, .f32⟩ : BufTy).Contents (Elt F) → (⟨S16x64x64x1, .f32⟩ : BufTy).Contents (Elt F)),
    nullary main_c_190 (constantI S_ 32 2#32),
    unary main_c_190 main_v1205 (broadcastInDim S64 ![] bcast_S_S64 : (⟨S_, .i32⟩ : BufTy).Contents (Elt F) → (⟨S64, .i32⟩ : BufTy).Contents (Elt F)),
    binary main_v5 main_v1205 main_v1206 (addi : (⟨S64, .i32⟩ : BufTy).Contents (Elt F) → (⟨S64, .i32⟩ : BufTy).Contents (Elt F) → (⟨S64, .i32⟩ : BufTy).Contents (Elt F)),
    nullary main_c_191 (constantI S_ 32 0#32),
    unary main_c_191 main_v1207 (broadcastInDim S64 ![] bcast_S_S64 : (⟨S_, .i32⟩ : BufTy).Contents (Elt F) → (⟨S64, .i32⟩ : BufTy).Contents (Elt F)),
    binary main_v1206 main_v1207 main_v1208 (cmpi .sge : (⟨S64, .i32⟩ : BufTy).Contents (Elt F) → (⟨S64, .i32⟩ : BufTy).Contents (Elt F) → (⟨S64, .i1⟩ : BufTy).Contents (Elt F)),
    nullary main_c_192 (constantI S_ 32 2#32),
    unary main_c_192 main_v1209 (broadcastInDim S64 ![] bcast_S_S64 : (⟨S_, .i32⟩ : BufTy).Contents (Elt F) → (⟨S64, .i32⟩ : BufTy).Contents (Elt F)),
    binary main_v5 main_v1209 main_v1210 (addi : (⟨S64, .i32⟩ : BufTy).Contents (Elt F) → (⟨S64, .i32⟩ : BufTy).Contents (Elt F) → (⟨S64, .i32⟩ : BufTy).Contents (Elt F)),
    nullary main_c_193 (constantI S_ 32 64#32),
    unary main_c_193 main_v1211 (broadcastInDim S64 ![] bcast_S_S64 : (⟨S_, .i32⟩ : BufTy).Contents (Elt F) → (⟨S64, .i32⟩ : BufTy).Contents (Elt F)),
    binary main_v1210 main_v1211 main_v1212 (cmpi .slt : (⟨S64, .i32⟩ : BufTy).Contents (Elt F) → (⟨S64, .i32⟩ : BufTy).Contents (Elt F) → (⟨S64, .i1⟩ : BufTy).Contents (Elt F)),
    binary main_v1208 main_v1212 main_v1213 (andi : (⟨S64, .i1⟩ : BufTy).Contents (Elt F) → (⟨S64, .i1⟩ : BufTy).Contents (Elt F) → (⟨S64, .i1⟩ : BufTy).Contents (Elt F)),
    unary main_v1012 main_v1214 (broadcastInDim S64x1 ![0] bcast_S64_S64x1_0 : (⟨S64, .i1⟩ : BufTy).Contents (Elt F) → (⟨S64x1, .i1⟩ : BufTy).Contents (Elt F)),
    unary main_v1213 main_v1215 (broadcastInDim S1x64 ![1] bcast_S64_S1x64_1 : (⟨S64, .i1⟩ : BufTy).Contents (Elt F) → (⟨S1x64, .i1⟩ : BufTy).Contents (Elt F)),
    unary main_v1214 main_v1216 (broadcastInDim S64x64 ![0, 1] bcast_S64x1_S64x64_0_1 : (⟨S64x1, .i1⟩ : BufTy).Contents (Elt F) → (⟨S64x64, .i1⟩ : BufTy).Contents (Elt F)),
    unary main_v1215 main_v1217 (broadcastInDim S64x64 ![0, 1] bcast_S1x64_S64x64_0_1 : (⟨S1x64, .i1⟩ : BufTy).Contents (Elt F) → (⟨S64x64, .i1⟩ : BufTy).Contents (Elt F)),
    binary main_v1216 main_v1217 main_v1218 (andi : (⟨S64x64, .i1⟩ : BufTy).Contents (Elt F) → (⟨S64x64, .i1⟩ : BufTy).Contents (Elt F) → (⟨S64x64, .i1⟩ : BufTy).Contents (Elt F)),
    unary main_v1218 main_v1219 (uitofp .f32 : (⟨S64x64, .i1⟩ : BufTy).Contents (Elt F) → (⟨S64x64, .f32⟩ : BufTy).Contents (Elt F)),
    unary main_arg1 main_v1220 ((extractStridedSlice S1 ![4] · slices_S5_S1_4) : (⟨S5, .f32⟩ : BufTy).Contents (Elt F) → (⟨S1, .f32⟩ : BufTy).Contents (Elt F)),
    reshape main_v1220 main_v1221 rfl shapeCasts_S1_S_,
    nullary main_c_194 (constantI S_ 32 2#32),
    unary main_c_194 main_v1222 (broadcastInDim S64 ![] bcast_S_S64 : (⟨S_, .i32⟩ : BufTy).Contents (Elt F) → (⟨S64, .i32⟩ : BufTy).Contents (Elt F)),
    binary main_v1222 main_v4 main_v1223 (subi : (⟨S64, .i32⟩ : BufTy).Contents (Elt F) → (⟨S64, .i32⟩ : BufTy).Contents (Elt F) → (⟨S64, .i32⟩ : BufTy).Contents (Elt F)),
    unary main_v1223 main_v1224 (broadcastInDim S64x1 ![0] bcast_S64_S64x1_0 : (⟨S64, .i32⟩ : BufTy).Contents (Elt F) → (⟨S64x1, .i32⟩ : BufTy).Contents (Elt F)),
    unary main_v1224 main_v1225 (sitofp .f32 : (⟨S64x1, .i32⟩ : BufTy).Contents (Elt F) → (⟨S64x1, .f32⟩ : BufTy).Contents (Elt F)),
    unary main_v1221 main_v1226 (broadcastInDim S64x1 ![] bcast_S_S64x1 : (⟨S_, .f32⟩ : BufTy).Contents (Elt F) → (⟨S64x1, .f32⟩ : BufTy).Contents (Elt F)),
    binary main_v1226 main_v1225 main_v1227 (mulf : (⟨S64x1, .f32⟩ : BufTy).Contents (Elt F) → (⟨S64x1, .f32⟩ : BufTy).Contents (Elt F) → (⟨S64x1, .f32⟩ : BufTy).Contents (Elt F)),
    unary main_arg2 main_v1228 ((extractStridedSlice S1 ![4] · slices_S5_S1_4) : (⟨S5, .f32⟩ : BufTy).Contents (Elt F) → (⟨S1, .f32⟩ : BufTy).Contents (Elt F)),
    reshape main_v1228 main_v1229 rfl shapeCasts_S1_S_,
    nullary main_c_195 (constantI S_ 32 2#32),
    unary main_c_195 main_v1230 (broadcastInDim S64 ![] bcast_S_S64 : (⟨S_, .i32⟩ : BufTy).Contents (Elt F) → (⟨S64, .i32⟩ : BufTy).Contents (Elt F)),
    binary main_v1230 main_v5 main_v1231 (subi : (⟨S64, .i32⟩ : BufTy).Contents (Elt F) → (⟨S64, .i32⟩ : BufTy).Contents (Elt F) → (⟨S64, .i32⟩ : BufTy).Contents (Elt F)),
    unary main_v1231 main_v1232 (broadcastInDim S1x64 ![1] bcast_S64_S1x64_1 : (⟨S64, .i32⟩ : BufTy).Contents (Elt F) → (⟨S1x64, .i32⟩ : BufTy).Contents (Elt F)),
    unary main_v1232 main_v1233 (sitofp .f32 : (⟨S1x64, .i32⟩ : BufTy).Contents (Elt F) → (⟨S1x64, .f32⟩ : BufTy).Contents (Elt F)),
    unary main_v1229 main_v1234 (broadcastInDim S1x64 ![] bcast_S_S1x64 : (⟨S_, .f32⟩ : BufTy).Contents (Elt F) → (⟨S1x64, .f32⟩ : BufTy).Contents (Elt F)),
    binary main_v1234 main_v1233 main_v1235 (mulf : (⟨S1x64, .f32⟩ : BufTy).Contents (Elt F) → (⟨S1x64, .f32⟩ : BufTy).Contents (Elt F) → (⟨S1x64, .f32⟩ : BufTy).Contents (Elt F)),
    unary main_v1227 main_v1236 (broadcastInDim S64x64 ![0, 1] bcast_S64x1_S64x64_0_1 : (⟨S64x1, .f32⟩ : BufTy).Contents (Elt F) → (⟨S64x64, .f32⟩ : BufTy).Contents (Elt F)),
    unary main_v1235 main_v1237 (broadcastInDim S64x64 ![0, 1] bcast_S1x64_S64x64_0_1 : (⟨S1x64, .f32⟩ : BufTy).Contents (Elt F) → (⟨S64x64, .f32⟩ : BufTy).Contents (Elt F)),
    binary main_v1236 main_v1237 main_v1238 (addf : (⟨S64x64, .f32⟩ : BufTy).Contents (Elt F) → (⟨S64x64, .f32⟩ : BufTy).Contents (Elt F) → (⟨S64x64, .f32⟩ : BufTy).Contents (Elt F)),
    unary main_v2 main_v1239 ((extractStridedSlice S16x64x64x256 ![0, 4, 4, 0] · slices_S16x68x68x256_S16x64x64x256_0_4_4_0) : (⟨S16x68x68x256, .f32⟩ : BufTy).Contents (Elt F) → (⟨S16x64x64x256, .f32⟩ : BufTy).Contents (Elt F)),
    unary main_v3 main_v1240 ((extractStridedSlice S16x64x64x256 ![0, 4, 4, 0] · slices_S16x68x68x256_S16x64x64x256_0_4_4_0) : (⟨S16x68x68x256, .f32⟩ : BufTy).Contents (Elt F) → (⟨S16x64x64x256, .f32⟩ : BufTy).Contents (Elt F)),
    unary main_v1238 main_v1241 (broadcastInDim S1x64x64x1 ![1, 2] bcast_S64x64_S1x64x64x1_1_2 : (⟨S64x64, .f32⟩ : BufTy).Contents (Elt F) → (⟨S1x64x64x1, .f32⟩ : BufTy).Contents (Elt F)) ]

set_option maxRecDepth 8192 in
set_option maxHeartbeats 4000000 in
theorem part23_eq (d : Dev nD) : main_part23 (F := F) d = seq ops23 := rfl

set_option maxRecDepth 8192 in
theorem ops23_sub : (ops23 : List (HloOp τ sig (Elt F))).Forall fun op => op.bufs ⊆ tcRefs τ sig := by
  unfold ops23
  exact ⟨unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub ..⟩

set_option maxRecDepth 8192 in
theorem ops23_fresh : ∀ op ∈ (ops23 : List (HloOp τ sig (Elt F))), op.fresh = ∅ := by
  unfold ops23
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value23 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v2 : W (Proc.devRef .tc main_v2) = ReadP.val_main_v2 (F := F) x0 x3)
    (h_main_v3 : W (Proc.devRef .tc main_v3) = ReadP.val_main_v3 (F := F) x0 x4)
    (h_main_v4 : W (Proc.devRef .tc main_v4) = ReadP.val_main_v4 (F := F))
    (h_main_v5 : W (Proc.devRef .tc main_v5) = ReadP.val_main_v5 (F := F))
    (h_main_v1012 : W (Proc.devRef .tc main_v1012) = ReadP.val_main_v1012 (F := F))
    (h_main_v1153 : W (Proc.devRef .tc main_v1153) = ReadP.val_main_v1153 (F := F) x0 x1 x2 x3 x4)
    (h_main_v1156 : W (Proc.devRef .tc main_v1156) = ReadP.val_main_v1156 (F := F) x0 x1 x2 x3)
    (h_main_v1171 : W (Proc.devRef .tc main_v1171) = ReadP.val_main_v1171 (F := F))
    (h_main_v1187 : W (Proc.devRef .tc main_v1187) = ReadP.val_main_v1187 (F := F) x2)
    (h_main_v1188 : W (Proc.devRef .tc main_v1188) = ReadP.val_main_v1188 (F := F) x1) :
    after ops23 W (Proc.devRef .tc main_arg0) = x0 ∧
    after ops23 W (Proc.devRef .tc main_arg1) = x1 ∧
    after ops23 W (Proc.devRef .tc main_arg2) = x2 ∧
    after ops23 W (Proc.devRef .tc main_arg3) = x3 ∧
    after ops23 W (Proc.devRef .tc main_arg4) = x4 ∧
    after ops23 W (Proc.devRef .tc main_arg5) = x5 ∧
    after ops23 W (Proc.devRef .tc main_v1201) = ReadP.val_main_v1201 (F := F) x0 x1 x2 x3 x4 ∧
    after ops23 W (Proc.devRef .tc main_v1204) = ReadP.val_main_v1204 (F := F) x0 x1 x2 x3 ∧
    after ops23 W (Proc.devRef .tc main_v1219) = ReadP.val_main_v1219 (F := F) ∧
    after ops23 W (Proc.devRef .tc main_v1239) = ReadP.val_main_v1239 (F := F) x0 x3 ∧
    after ops23 W (Proc.devRef .tc main_v1240) = ReadP.val_main_v1240 (F := F) x0 x4 ∧
    after ops23 W (Proc.devRef .tc main_v1241) = ReadP.val_main_v1241 (F := F) x1 x2 := by
  unfold ops23
  refine ⟨?_, ?_, ?_, ?_, ?_, ?_, ?_, ?_, ?_, ?_, ?_, ?_⟩
  · (after_results_simp <;> (try simp only [a0, a1, a2, a3, a4, a5, h_main_v2, h_main_v3, h_main_v4, h_main_v5, h_main_v1012, h_main_v1153, h_main_v1156, h_main_v1171, h_main_v1187, h_main_v1188]) <;> (first | rfl | assumption))
  · (after_results_simp <;> (try simp only [a0, a1, a2, a3, a4, a5, h_main_v2, h_main_v3, h_main_v4, h_main_v5, h_main_v1012, h_main_v1153, h_main_v1156, h_main_v1171, h_main_v1187, h_main_v1188]) <;> (first | rfl | assumption))
  · (after_results_simp <;> (try simp only [a0, a1, a2, a3, a4, a5, h_main_v2, h_main_v3, h_main_v4, h_main_v5, h_main_v1012, h_main_v1153, h_main_v1156, h_main_v1171, h_main_v1187, h_main_v1188]) <;> (first | rfl | assumption))
  · (after_results_simp <;> (try simp only [a0, a1, a2, a3, a4, a5, h_main_v2, h_main_v3, h_main_v4, h_main_v5, h_main_v1012, h_main_v1153, h_main_v1156, h_main_v1171, h_main_v1187, h_main_v1188]) <;> (first | rfl | assumption))
  · (after_results_simp <;> (try simp only [a0, a1, a2, a3, a4, a5, h_main_v2, h_main_v3, h_main_v4, h_main_v5, h_main_v1012, h_main_v1153, h_main_v1156, h_main_v1171, h_main_v1187, h_main_v1188]) <;> (first | rfl | assumption))
  · (after_results_simp <;> (try simp only [a0, a1, a2, a3, a4, a5, h_main_v2, h_main_v3, h_main_v4, h_main_v5, h_main_v1012, h_main_v1153, h_main_v1156, h_main_v1171, h_main_v1187, h_main_v1188]) <;> (first | rfl | assumption))
  · (after_results_simp <;> (try simp only [a0, a1, a2, a3, a4, a5, h_main_v2, h_main_v3, h_main_v4, h_main_v5, h_main_v1012, h_main_v1153, h_main_v1156, h_main_v1171, h_main_v1187, h_main_v1188]) <;> (first | rfl | assumption))
  · (after_results_simp <;> (try simp only [a0, a1, a2, a3, a4, a5, h_main_v2, h_main_v3, h_main_v4, h_main_v5, h_main_v1012, h_main_v1153, h_main_v1156, h_main_v1171, h_main_v1187, h_main_v1188]) <;> (first | rfl | assumption))
  · (after_results_simp <;> (try simp only [a0, a1, a2, a3, a4, a5, h_main_v2, h_main_v3, h_main_v4, h_main_v5, h_main_v1012, h_main_v1153, h_main_v1156, h_main_v1171, h_main_v1187, h_main_v1188]) <;> (first | rfl | assumption))
  · (after_results_simp <;> (try simp only [a0, a1, a2, a3, a4, a5, h_main_v2, h_main_v3, h_main_v4, h_main_v5, h_main_v1012, h_main_v1153, h_main_v1156, h_main_v1171, h_main_v1187, h_main_v1188]) <;> (first | rfl | assumption))
  · (after_results_simp <;> (try simp only [a0, a1, a2, a3, a4, a5, h_main_v2, h_main_v3, h_main_v4, h_main_v5, h_main_v1012, h_main_v1153, h_main_v1156, h_main_v1171, h_main_v1187, h_main_v1188]) <;> (first | rfl | assumption))
  · (after_results_simp <;> (try simp only [a0, a1, a2, a3, a4, a5, h_main_v2, h_main_v3, h_main_v4, h_main_v5, h_main_v1012, h_main_v1153, h_main_v1156, h_main_v1171, h_main_v1187, h_main_v1188]) <;> (first | rfl | assumption))

end Cert.ReferenceIdeal.RunH

end
-- ==== Proof.RefRun24.lean ====
/- The reference program's @main, statements 1441 … 1459 of 1459, as the list of its 18 host operations
   (a called function's operations stand in its call's place): the window is that list run in order, every operation touches
   TensorCore buffers only and determines its result, and the list's fold over any buffer contents that hold, at each buffer
   an operation of this or a later window reads, that buffer's stage of the arguments, leaves every buffer a later
   window reads (and the arguments) at its stage. -/
import proofs.«107659_j89111981457894_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
def ops24 : List (HloOp τ sig (Elt F)) :=
  [ unary main_v1241 main_v1242 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v1242 main_v1239 main_v1243 (addf : (⟨S16x64x64x256, .f32⟩ : BufTy).Contents (Elt F) → (⟨S16x64x64x256, .f32⟩ : BufTy).Contents (Elt F) → (⟨S16x64x64x256, .f32⟩ : BufTy).Contents (Elt F)),
    unary main_v1243 main_v1244 (Host.exp : (⟨S16x64x64x256, .f32⟩ : BufTy).Contents (Elt F) → (⟨S16x64x64x256, .f32⟩ : BufTy).Contents (Elt F)),
    unary main_v1219 main_v1245 (broadcastInDim S1x64x64x1 ![1, 2] bcast_S64x64_S1x64x64x1_1_2 : (⟨S64x64, .f32⟩ : BufTy).Contents (Elt F) → (⟨S1x64x64x1, .f32⟩ : BufTy).Contents (Elt F)),
    unary main_v1245 main_v1246 (broadcastInDim S16x64x64x256 ![0, 1, 2, 3] bcast_S1x64x64x1_S16x64x64x256_0_1_2_3 : (⟨S1x64x64x1, .f32⟩ : BufTy).Contents (Elt F) → (⟨S16x64x64x256, .f32⟩ : BufTy).Contents (Elt F)),
    binary main_v1244 main_v1246 main_v1247 (mulf : (⟨S16x64x64x256, .f32⟩ : BufTy).Contents (Elt F) → (⟨S16x64x64x256, .f32⟩ : BufTy).Contents (Elt F) → (⟨S16x64x64x256, .f32⟩ : BufTy).Contents (Elt F)),
    binary main_v1247 main_v1240 main_v1248 (mulf : (⟨S16x64x64x256, .f32⟩ : BufTy).Contents (Elt F) → (⟨S16x64x64x256, .f32⟩ : BufTy).Contents (Elt F) → (⟨S16x64x64x256, .f32⟩ : BufTy).Contents (Elt F)),
    binary main_v1201 main_v1248 main_v1249 (addf : (⟨S16x64x64x256, .f32⟩ : BufTy).Contents (Elt F) → (⟨S16x64x64x256, .f32⟩ : BufTy).Contents (Elt F) → (⟨S16x64x64x256, .f32⟩ : BufTy).Contents (Elt F)),
    nullary main_cst_196 (constant S_ .f32 0x00000000#32),
    binary main_v1247 main_cst_196 main_v1250 ((fun x v => Host.reduceAdd x v reducesTo_S16x64x64x256_S16x64x64_d3 h_S_) : (⟨S16x64x64x256, .f32⟩ : BufTy).Contents (Elt F) → (⟨S_, .f32⟩ : BufTy).Contents (Elt F) → (⟨S16x64x64, .f32⟩ : BufTy).Contents (Elt F)),
    unary main_v1250 main_v1251 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    binary main_v1204 main_v1251 main_v1252 (addf : (⟨S16x64x64x1, .f32⟩ : BufTy).Contents (Elt F) → (⟨S16x64x64x1, .f32⟩ : BufTy).Contents (Elt F) → (⟨S16x64x64x1, .f32⟩ : BufTy).Contents (Elt F)),
    nullary main_cst_197 (constant S_ .f32 0x322BCC77#32),
    unary main_cst_197 main_v1253 (broadcastInDim S16x64x64x1 ![] bcast_S_S16x64x64x1 : (⟨S_, .f32⟩ : BufTy).Contents (Elt F) → (⟨S16x64x64x1, .f32⟩ : BufTy).Contents (Elt F)),
    binary main_v1252 main_v1253 main_v1254 (addf : (⟨S16x64x64x1, .f32⟩ : BufTy).Contents (Elt F) → (⟨S16x64x64x1, .f32⟩ : BufTy).Contents (Elt F) → (⟨S16x64x64x1, .f32⟩ : BufTy).Contents (Elt F)),
    unary main_v1254 main_v1255 (broadcastInDim S16x64x64x256 ![0, 1, 2, 3] bcast_S16x64x64x1_S16x64x64x256_0_1_2_3 : (⟨S16x64x64x1, .f32⟩ : BufTy).Contents (Elt F) → (⟨S16x64x64x256, .f32⟩ : BufTy).Contents (Elt F)),
    binary main_v1249 main_v1255 main_v1256 (Host.divf : (⟨S16x64x64x256, .f32⟩ : BufTy).Contents (Elt F) → (⟨S16x64x64x256, .f32⟩ : BufTy).Contents (Elt F) → (⟨S16x64x64x256, .f32⟩ : BufTy).Contents (Elt F)),
    binary main_v1256 main_arg5 main_v1257 ((fun l r => Host.dotGeneral dot_S16x64x64x256_S256x256_S16x64x64x256_3_1_012_0_n_n none l r) : (⟨S16x64x64x256, .f32⟩ : BufTy).Contents (Elt F) → (⟨S256x256, .f32⟩ : BufTy).Contents (Elt F) → (⟨S16x64x64x256, .f32⟩ : BufTy).Contents (Elt F)) ]

set_option maxRecDepth 8192 in
set_option maxHeartbeats 4000000 in
theorem part24_eq (d : Dev nD) : main_part24 (F := F) d = seq ops24 := rfl

set_option maxRecDepth 8192 in
theorem ops24_sub : (ops24 : List (HloOp τ sig (Elt F))).Forall fun op => op.bufs ⊆ tcRefs τ sig := by
  unfold ops24
  exact ⟨unary_bufs_sub .., binary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., unary_bufs_sub .., binary_bufs_sub .., binary_bufs_sub ..⟩

set_option maxRecDepth 8192 in
theorem ops24_fresh : ∀ op ∈ (ops24 : List (HloOp τ sig (Elt F))), op.fresh = ∅ := by
  unfold ops24
  intro _ h; (repeat (cases h with | head => rfl | tail _ h => ?_)); exact nomatch h

set_option maxRecDepth 8192 in
set_option maxHeartbeats 100000000 in
/-- The chunk's values: from a valuation holding, at every buffer live into the chunk, that buffer's stage of the
    arguments, the chunk's operations leave every buffer live out of the chunk at its stage. -/
theorem value24 (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (h_main_v1201 : W (Proc.devRef .tc main_v1201) = ReadP.val_main_v1201 (F := F) x0 x1 x2 x3 x4)
    (h_main_v1204 : W (Proc.devRef .tc main_v1204) = ReadP.val_main_v1204 (F := F) x0 x1 x2 x3)
    (h_main_v1219 : W (Proc.devRef .tc main_v1219) = ReadP.val_main_v1219 (F := F))
    (h_main_v1239 : W (Proc.devRef .tc main_v1239) = ReadP.val_main_v1239 (F := F) x0 x3)
    (h_main_v1240 : W (Proc.devRef .tc main_v1240) = ReadP.val_main_v1240 (F := F) x0 x4)
    (h_main_v1241 : W (Proc.devRef .tc main_v1241) = ReadP.val_main_v1241 (F := F) x1 x2) :
    after ops24 W (Proc.devRef .tc main_arg0) = x0 ∧
    after ops24 W (Proc.devRef .tc main_arg1) = x1 ∧
    after ops24 W (Proc.devRef .tc main_arg2) = x2 ∧
    after ops24 W (Proc.devRef .tc main_arg3) = x3 ∧
    after ops24 W (Proc.devRef .tc main_arg4) = x4 ∧
    after ops24 W (Proc.devRef .tc main_arg5) = x5 ∧
    after ops24 W (Proc.devRef .tc main_v1257) = ReadP.val_main_v1257 (F := F) x0 x1 x2 x3 x4 x5 := by
  unfold ops24
  refine ⟨?_, ?_, ?_, ?_, ?_, ?_, ?_⟩
  · (after_results_simp <;> (try simp only [a0, a1, a2, a3, a4, a5, h_main_v1201, h_main_v1204, h_main_v1219, h_main_v1239, h_main_v1240, h_main_v1241]) <;> (first | rfl | assumption))
  · (after_results_simp <;> (try simp only [a0, a1, a2, a3, a4, a5, h_main_v1201, h_main_v1204, h_main_v1219, h_main_v1239, h_main_v1240, h_main_v1241]) <;> (first | rfl | assumption))
  · (after_results_simp <;> (try simp only [a0, a1, a2, a3, a4, a5, h_main_v1201, h_main_v1204, h_main_v1219, h_main_v1239, h_main_v1240, h_main_v1241]) <;> (first | rfl | assumption))
  · (after_results_simp <;> (try simp only [a0, a1, a2, a3, a4, a5, h_main_v1201, h_main_v1204, h_main_v1219, h_main_v1239, h_main_v1240, h_main_v1241]) <;> (first | rfl | assumption))
  · (after_results_simp <;> (try simp only [a0, a1, a2, a3, a4, a5, h_main_v1201, h_main_v1204, h_main_v1219, h_main_v1239, h_main_v1240, h_main_v1241]) <;> (first | rfl | assumption))
  · (after_results_simp <;> (try simp only [a0, a1, a2, a3, a4, a5, h_main_v1201, h_main_v1204, h_main_v1219, h_main_v1239, h_main_v1240, h_main_v1241]) <;> (first | rfl | assumption))
  · (after_results_simp <;> (try simp only [a0, a1, a2, a3, a4, a5, h_main_v1201, h_main_v1204, h_main_v1219, h_main_v1239, h_main_v1240, h_main_v1241]) <;> (first | rfl | assumption))

end Cert.ReferenceIdeal.RunH

end
-- ==== Proof.RefRun.lean ====
/- The reference program's run: @main is its 25 windows in order, each a list of host operations, so it is the
   concatenation of the lists run as one line; folding the windows' value lemmas from the launch contents gives the result
   buffer at its last stage of the arguments, and the arguments unchanged. -/
import proofs.«107659_j89111981457894_2_alg».proof.Proof.RefRun0
import proofs.«107659_j89111981457894_2_alg».proof.Proof.RefRun1
import proofs.«107659_j89111981457894_2_alg».proof.Proof.RefRun2
import proofs.«107659_j89111981457894_2_alg».proof.Proof.RefRun3
import proofs.«107659_j89111981457894_2_alg».proof.Proof.RefRun4
import proofs.«107659_j89111981457894_2_alg».proof.Proof.RefRun5
import proofs.«107659_j89111981457894_2_alg».proof.Proof.RefRun6
import proofs.«107659_j89111981457894_2_alg».proof.Proof.RefRun7
import proofs.«107659_j89111981457894_2_alg».proof.Proof.RefRun8
import proofs.«107659_j89111981457894_2_alg».proof.Proof.RefRun9
import proofs.«107659_j89111981457894_2_alg».proof.Proof.RefRun10
import proofs.«107659_j89111981457894_2_alg».proof.Proof.RefRun11
import proofs.«107659_j89111981457894_2_alg».proof.Proof.RefRun12
import proofs.«107659_j89111981457894_2_alg».proof.Proof.RefRun13
import proofs.«107659_j89111981457894_2_alg».proof.Proof.RefRun14
import proofs.«107659_j89111981457894_2_alg».proof.Proof.RefRun15
import proofs.«107659_j89111981457894_2_alg».proof.Proof.RefRun16
import proofs.«107659_j89111981457894_2_alg».proof.Proof.RefRun17
import proofs.«107659_j89111981457894_2_alg».proof.Proof.RefRun18
import proofs.«107659_j89111981457894_2_alg».proof.Proof.RefRun19
import proofs.«107659_j89111981457894_2_alg».proof.Proof.RefRun20
import proofs.«107659_j89111981457894_2_alg».proof.Proof.RefRun21
import proofs.«107659_j89111981457894_2_alg».proof.Proof.RefRun22
import proofs.«107659_j89111981457894_2_alg».proof.Proof.RefRun23
import proofs.«107659_j89111981457894_2_alg».proof.Proof.RefRun24
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- Running two lines one after the other folds the second over what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A property of every operation of two lines holds of every operation of their concatenation. -/
theorem forall_append_of {p : HloOp τ sig (Elt F) → Prop} {l₁ l₂ : List (HloOp τ sig (Elt F))}
    (h₁ : l₁.Forall p) (h₂ : l₂.Forall p) : (l₁ ++ l₂).Forall p :=
  List.forall_append.2 ⟨h₁, h₂⟩

theorem fresh_append_of {l₁ l₂ : List (HloOp τ sig (Elt F))}
    (h₁ : ∀ op ∈ l₁, op.fresh = ∅) (h₂ : ∀ op ∈ l₂, op.fresh = ∅) : ∀ op ∈ l₁ ++ l₂, op.fresh = ∅ :=
  fun op h => (List.mem_append.1 h).elim (h₁ op) (h₂ op)

/-- @main's 1460 operations: the 25 windows' lists, in order. -/
def ops : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17 ++ (ops18 ++ (ops19 ++ (ops20 ++ (ops21 ++ (ops22 ++ (ops23 ++ (ops24))))))))))))))))))))))))

theorem main_eq (d : Dev nD) : main (F := F) d = seq ops := by
  unfold main ops
  simp only [seq_append]
  rw [part0_eq, part1_eq, part2_eq, part3_eq, part4_eq, part5_eq, part6_eq, part7_eq, part8_eq, part9_eq, part10_eq, part11_eq, part12_eq, part13_eq, part14_eq, part15_eq, part16_eq, part17_eq, part18_eq, part19_eq, part20_eq, part21_eq, part22_eq, part23_eq, part24_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  unfold ops
  exact forall_append_of ops0_sub (forall_append_of ops1_sub (forall_append_of ops2_sub (forall_append_of ops3_sub (forall_append_of ops4_sub (forall_append_of ops5_sub (forall_append_of ops6_sub (forall_append_of ops7_sub (forall_append_of ops8_sub (forall_append_of ops9_sub (forall_append_of ops10_sub (forall_append_of ops11_sub (forall_append_of ops12_sub (forall_append_of ops13_sub (forall_append_of ops14_sub (forall_append_of ops15_sub (forall_append_of ops16_sub (forall_append_of ops17_sub (forall_append_of ops18_sub (forall_append_of ops19_sub (forall_append_of ops20_sub (forall_append_of ops21_sub (forall_append_of ops22_sub (forall_append_of ops23_sub (ops24_sub))))))))))))))))))))))))

theorem ops_fresh : ∀ op ∈ (ops : List (HloOp τ sig (Elt F))), op.fresh = ∅ := by
  unfold ops
  exact fresh_append_of ops0_fresh (fresh_append_of ops1_fresh (fresh_append_of ops2_fresh (fresh_append_of ops3_fresh (fresh_append_of ops4_fresh (fresh_append_of ops5_fresh (fresh_append_of ops6_fresh (fresh_append_of ops7_fresh (fresh_append_of ops8_fresh (fresh_append_of ops9_fresh (fresh_append_of ops10_fresh (fresh_append_of ops11_fresh (fresh_append_of ops12_fresh (fresh_append_of ops13_fresh (fresh_append_of ops14_fresh (fresh_append_of ops15_fresh (fresh_append_of ops16_fresh (fresh_append_of ops17_fresh (fresh_append_of ops18_fresh (fresh_append_of ops19_fresh (fresh_append_of ops20_fresh (fresh_append_of ops21_fresh (fresh_append_of ops22_fresh (fresh_append_of ops23_fresh (ops24_fresh))))))))))))))))))))))))

/-- From any valuation holding the arguments, the whole line leaves the result at its last stage of the arguments
    and the arguments as they were: the 25 windows' value lemmas, each handing the next the buffers it reads. -/
theorem values (W : Valuation τ sig (Elt F)) (x0 : (⟨S16x64x64x256, .f32⟩ : BufTy).Contents (Elt F)) (x1 : (⟨S5, .f32⟩ : BufTy).Contents (Elt F)) (x2 : (⟨S5, .f32⟩ : BufTy).Contents (Elt F)) (x3 : (⟨S256x256, .f32⟩ : BufTy).Contents (Elt F)) (x4 : (⟨S256x256, .f32⟩ : BufTy).Contents (Elt F)) (x5 : (⟨S256x256, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5) :
    after ops W (Proc.devRef .tc main_v1257) = ReadP.val_main_v1257 (F := F) x0 x1 x2 x3 x4 x5 ∧
    after ops W (Proc.devRef .tc main_arg0) = x0 ∧
    after ops W (Proc.devRef .tc main_arg1) = x1 ∧
    after ops W (Proc.devRef .tc main_arg2) = x2 ∧
    after ops W (Proc.devRef .tc main_arg3) = x3 ∧
    after ops W (Proc.devRef .tc main_arg4) = x4 ∧
    after ops W (Proc.devRef .tc main_arg5) = x5 := by
  unfold ops
  simp only [after_append]
  obtain ⟨s0_a0, s0_a1, s0_a2, s0_a3, s0_a4, s0_a5, s0_v2, s0_v3, s0_v4, s0_v5, s0_v6, s0_v7, s0_v16, s0_v31, s0_v39, s0_v41, s0_v45⟩ := value0 (F := F) W x0 x1 x2 x3 x4 x5 a0 a1 a2 a3 a4 a5
  obtain ⟨s1_a0, s1_a1, s1_a2, s1_a3, s1_a4, s1_a5, s1_v2, s1_v3, s1_v4, s1_v5, s1_v16, s1_v61, s1_v64, s1_v79, s1_v98⟩ := value1 (F := F) (after ops0 W) x0 x1 x2 x3 x4 x5 s0_a0 s0_a1 s0_a2 s0_a3 s0_a4 s0_a5 s0_v2 s0_v3 s0_v4 s0_v5 s0_v6 s0_v7 s0_v16 s0_v31 s0_v39 s0_v41 s0_v45
  obtain ⟨s2_a0, s2_a1, s2_a2, s2_a3, s2_a4, s2_a5, s2_v2, s2_v3, s2_v4, s2_v5, s2_v16, s2_v109, s2_v112, s2_v127, s2_v148, s2_v151⟩ := value2 (F := F) (after ops1 (after ops0 W)) x0 x1 x2 x3 x4 x5 s1_a0 s1_a1 s1_a2 s1_a3 s1_a4 s1_a5 s1_v2 s1_v3 s1_v4 s1_v5 s1_v16 s1_v61 s1_v64 s1_v79 s1_v98
  obtain ⟨s3_a0, s3_a1, s3_a2, s3_a3, s3_a4, s3_a5, s3_v2, s3_v3, s3_v4, s3_v5, s3_v16, s3_v157, s3_v160, s3_v203, s3_v204⟩ := value3 (F := F) (after ops2 (after ops1 (after ops0 W))) x0 x1 x2 x3 x4 x5 s2_a0 s2_a1 s2_a2 s2_a3 s2_a4 s2_a5 s2_v2 s2_v3 s2_v4 s2_v5 s2_v16 s2_v109 s2_v112 s2_v127 s2_v148 s2_v151
  obtain ⟨s4_a0, s4_a1, s4_a2, s4_a3, s4_a4, s4_a5, s4_v2, s4_v3, s4_v4, s4_v5, s4_v253, s4_v256⟩ := value4 (F := F) (after ops3 (after ops2 (after ops1 (after ops0 W)))) x0 x1 x2 x3 x4 x5 s3_a0 s3_a1 s3_a2 s3_a3 s3_a4 s3_a5 s3_v2 s3_v3 s3_v4 s3_v5 s3_v16 s3_v157 s3_v160 s3_v203 s3_v204
  obtain ⟨s5_a0, s5_a1, s5_a2, s5_a3, s5_a4, s5_a5, s5_v2, s5_v3, s5_v4, s5_v5, s5_v253, s5_v256, s5_v265, s5_v301, s5_v305, s5_v306⟩ := value5 (F := F) (after ops4 (after ops3 (after ops2 (after ops1 (after ops0 W))))) x0 x1 x2 x3 x4 x5 s4_a0 s4_a1 s4_a2 s4_a3 s4_a4 s4_a5 s4_v2 s4_v3 s4_v4 s4_v5 s4_v253 s4_v256
  obtain ⟨s6_a0, s6_a1, s6_a2, s6_a3, s6_a4, s6_a5, s6_v2, s6_v3, s6_v4, s6_v5, s6_v265, s6_v313, s6_v356, s6_v358, s6_cst_58⟩ := value6 (F := F) (after ops5 (after ops4 (after ops3 (after ops2 (after ops1 (after ops0 W)))))) x0 x1 x2 x3 x4 x5 s5_a0 s5_a1 s5_a2 s5_a3 s5_a4 s5_a5 s5_v2 s5_v3 s5_v4 s5_v5 s5_v253 s5_v256 s5_v265 s5_v301 s5_v305 s5_v306
  obtain ⟨s7_a0, s7_a1, s7_a2, s7_a3, s7_a4, s7_a5, s7_v2, s7_v3, s7_v4, s7_v5, s7_v265, s7_v406, s7_v409, s7_v410⟩ := value7 (F := F) (after ops6 (after ops5 (after ops4 (after ops3 (after ops2 (after ops1 (after ops0 W))))))) x0 x1 x2 x3 x4 x5 s6_a0 s6_a1 s6_a2 s6_a3 s6_a4 s6_a5 s6_v2 s6_v3 s6_v4 s6_v5 s6_v265 s6_v313 s6_v356 s6_v358 s6_cst_58
  obtain ⟨s8_a0, s8_a1, s8_a2, s8_a3, s8_a4, s8_a5, s8_v2, s8_v3, s8_v4, s8_v5, s8_v265, s8_v454, s8_v457, s8_v461, s8_c_75⟩ := value8 (F := F) (after ops7 (after ops6 (after ops5 (after ops4 (after ops3 (after ops2 (after ops1 (after ops0 W)))))))) x0 x1 x2 x3 x4 x5 s7_a0 s7_a1 s7_a2 s7_a3 s7_a4 s7_a5 s7_v2 s7_v3 s7_v4 s7_v5 s7_v265 s7_v406 s7_v409 s7_v410
  obtain ⟨s9_a0, s9_a1, s9_a2, s9_a3, s9_a4, s9_a5, s9_v2, s9_v3, s9_v4, s9_v5, s9_v502, s9_v505, s9_v509, s9_v513⟩ := value9 (F := F) (after ops8 (after ops7 (after ops6 (after ops5 (after ops4 (after ops3 (after ops2 (after ops1 (after ops0 W))))))))) x0 x1 x2 x3 x4 x5 s8_a0 s8_a1 s8_a2 s8_a3 s8_a4 s8_a5 s8_v2 s8_v3 s8_v4 s8_v5 s8_v265 s8_v454 s8_v457 s8_v461 s8_c_75
  obtain ⟨s10_a0, s10_a1, s10_a2, s10_a3, s10_a4, s10_a5, s10_v2, s10_v3, s10_v4, s10_v5, s10_v514, s10_v559, s10_v562, s10_v564, s10_c_92⟩ := value10 (F := F) (after ops9 (after ops8 (after ops7 (after ops6 (after ops5 (after ops4 (after ops3 (after ops2 (after ops1 (after ops0 W)))))))))) x0 x1 x2 x3 x4 x5 s9_a0 s9_a1 s9_a2 s9_a3 s9_a4 s9_a5 s9_v2 s9_v3 s9_v4 s9_v5 s9_v502 s9_v505 s9_v509 s9_v513
  obtain ⟨s11_a0, s11_a1, s11_a2, s11_a3, s11_a4, s11_a5, s11_v2, s11_v3, s11_v4, s11_v5, s11_v514, s11_v607, s11_v610, s11_v614, s11_v616⟩ := value11 (F := F) (after ops10 (after ops9 (after ops8 (after ops7 (after ops6 (after ops5 (after ops4 (after ops3 (after ops2 (after ops1 (after ops0 W))))))))))) x0 x1 x2 x3 x4 x5 s10_a0 s10_a1 s10_a2 s10_a3 s10_a4 s10_a5 s10_v2 s10_v3 s10_v4 s10_v5 s10_v514 s10_v559 s10_v562 s10_v564 s10_c_92
  obtain ⟨s12_a0, s12_a1, s12_a2, s12_a3, s12_a4, s12_a5, s12_v2, s12_v3, s12_v4, s12_v5, s12_v514, s12_v655, s12_v658, s12_v667, s12_v668⟩ := value12 (F := F) (after ops11 (after ops10 (after ops9 (after ops8 (after ops7 (after ops6 (after ops5 (after ops4 (after ops3 (after ops2 (after ops1 (after ops0 W)))))))))))) x0 x1 x2 x3 x4 x5 s11_a0 s11_a1 s11_a2 s11_a3 s11_a4 s11_a5 s11_v2 s11_v3 s11_v4 s11_v5 s11_v514 s11_v607 s11_v610 s11_v614 s11_v616
  obtain ⟨s13_a0, s13_a1, s13_a2, s13_a3, s13_a4, s13_a5, s13_v2, s13_v3, s13_v4, s13_v5, s13_v703, s13_v706, s13_v721⟩ := value13 (F := F) (after ops12 (after ops11 (after ops10 (after ops9 (after ops8 (after ops7 (after ops6 (after ops5 (after ops4 (after ops3 (after ops2 (after ops1 (after ops0 W))))))))))))) x0 x1 x2 x3 x4 x5 s12_a0 s12_a1 s12_a2 s12_a3 s12_a4 s12_a5 s12_v2 s12_v3 s12_v4 s12_v5 s12_v514 s12_v655 s12_v658 s12_v667 s12_v668
  obtain ⟨s14_a0, s14_a1, s14_a2, s14_a3, s14_a4, s14_a5, s14_v2, s14_v3, s14_v4, s14_v5, s14_v751, s14_v754, s14_v763, s14_v767, s14_v769, s14_v770⟩ := value14 (F := F) (after ops13 (after ops12 (after ops11 (after ops10 (after ops9 (after ops8 (after ops7 (after ops6 (after ops5 (after ops4 (after ops3 (after ops2 (after ops1 (after ops0 W)))))))))))))) x0 x1 x2 x3 x4 x5 s13_a0 s13_a1 s13_a2 s13_a3 s13_a4 s13_a5 s13_v2 s13_v3 s13_v4 s13_v5 s13_v703 s13_v706 s13_v721
  obtain ⟨s15_a0, s15_a1, s15_a2, s15_a3, s15_a4, s15_a5, s15_v2, s15_v3, s15_v4, s15_v5, s15_v763, s15_v808, s15_v811, s15_v822, s15_v823⟩ := value15 (F := F) (after ops14 (after ops13 (after ops12 (after ops11 (after ops10 (after ops9 (after ops8 (after ops7 (after ops6 (after ops5 (after ops4 (after ops3 (after ops2 (after ops1 (after ops0 W))))))))))))))) x0 x1 x2 x3 x4 x5 s14_a0 s14_a1 s14_a2 s14_a3 s14_a4 s14_a5 s14_v2 s14_v3 s14_v4 s14_v5 s14_v751 s14_v754 s14_v763 s14_v767 s14_v769 s14_v770
  obtain ⟨s16_a0, s16_a1, s16_a2, s16_a3, s16_a4, s16_a5, s16_v2, s16_v3, s16_v4, s16_v5, s16_v763, s16_v856, s16_v859, s16_v874, s16_v876⟩ := value16 (F := F) (after ops15 (after ops14 (after ops13 (after ops12 (after ops11 (after ops10 (after ops9 (after ops8 (after ops7 (after ops6 (after ops5 (after ops4 (after ops3 (after ops2 (after ops1 (after ops0 W)))))))))))))))) x0 x1 x2 x3 x4 x5 s15_a0 s15_a1 s15_a2 s15_a3 s15_a4 s15_a5 s15_v2 s15_v3 s15_v4 s15_v5 s15_v763 s15_v808 s15_v811 s15_v822 s15_v823
  obtain ⟨s17_a0, s17_a1, s17_a2, s17_a3, s17_a4, s17_a5, s17_v2, s17_v3, s17_v4, s17_v5, s17_v763, s17_v904, s17_v907, s17_v922, s17_v924, s17_v928⟩ := value17 (F := F) (after ops16 (after ops15 (after ops14 (after ops13 (after ops12 (after ops11 (after ops10 (after ops9 (after ops8 (after ops7 (after ops6 (after ops5 (after ops4 (after ops3 (after ops2 (after ops1 (after ops0 W))))))))))))))))) x0 x1 x2 x3 x4 x5 s16_a0 s16_a1 s16_a2 s16_a3 s16_a4 s16_a5 s16_v2 s16_v3 s16_v4 s16_v5 s16_v763 s16_v856 s16_v859 s16_v874 s16_v876
  obtain ⟨s18_a0, s18_a1, s18_a2, s18_a3, s18_a4, s18_a5, s18_v2, s18_v3, s18_v4, s18_v5, s18_v952, s18_v955, s18_v970, s18_v978, s18_v980, s18_c_156⟩ := value18 (F := F) (after ops17 (after ops16 (after ops15 (after ops14 (after ops13 (after ops12 (after ops11 (after ops10 (after ops9 (after ops8 (after ops7 (after ops6 (after ops5 (after ops4 (after ops3 (after ops2 (after ops1 (after ops0 W)))))))))))))))))) x0 x1 x2 x3 x4 x5 s17_a0 s17_a1 s17_a2 s17_a3 s17_a4 s17_a5 s17_v2 s17_v3 s17_v4 s17_v5 s17_v763 s17_v904 s17_v907 s17_v922 s17_v924 s17_v928
  obtain ⟨s19_a0, s19_a1, s19_a2, s19_a3, s19_a4, s19_a5, s19_v2, s19_v3, s19_v4, s19_v5, s19_v1000, s19_v1003, s19_v1012, s19_v1027, s19_v1029, s19_v1030⟩ := value19 (F := F) (after ops18 (after ops17 (after ops16 (after ops15 (after ops14 (after ops13 (after ops12 (after ops11 (after ops10 (after ops9 (after ops8 (after ops7 (after ops6 (after ops5 (after ops4 (after ops3 (after ops2 (after ops1 (after ops0 W))))))))))))))))))) x0 x1 x2 x3 x4 x5 s18_a0 s18_a1 s18_a2 s18_a3 s18_a4 s18_a5 s18_v2 s18_v3 s18_v4 s18_v5 s18_v952 s18_v955 s18_v970 s18_v978 s18_v980 s18_c_156
  obtain ⟨s20_a0, s20_a1, s20_a2, s20_a3, s20_a4, s20_a5, s20_v2, s20_v3, s20_v4, s20_v5, s20_v1012, s20_v1057, s20_v1060, s20_v1075, s20_v1083⟩ := value20 (F := F) (after ops19 (after ops18 (after ops17 (after ops16 (after ops15 (after ops14 (after ops13 (after ops12 (after ops11 (after ops10 (after ops9 (after ops8 (after ops7 (after ops6 (after ops5 (after ops4 (after ops3 (after ops2 (after ops1 (after ops0 W)))))))))))))))))))) x0 x1 x2 x3 x4 x5 s19_a0 s19_a1 s19_a2 s19_a3 s19_a4 s19_a5 s19_v2 s19_v3 s19_v4 s19_v5 s19_v1000 s19_v1003 s19_v1012 s19_v1027 s19_v1029 s19_v1030
  obtain ⟨s21_a0, s21_a1, s21_a2, s21_a3, s21_a4, s21_a5, s21_v2, s21_v3, s21_v4, s21_v5, s21_v1012, s21_v1105, s21_v1108, s21_v1123, s21_v1131, s21_v1133, s21_v1135⟩ := value21 (F := F) (after ops20 (after ops19 (after ops18 (after ops17 (after ops16 (after ops15 (after ops14 (after ops13 (after ops12 (after ops11 (after ops10 (after ops9 (after ops8 (after ops7 (after ops6 (after ops5 (after ops4 (after ops3 (after ops2 (after ops1 (after ops0 W))))))))))))))))))))) x0 x1 x2 x3 x4 x5 s20_a0 s20_a1 s20_a2 s20_a3 s20_a4 s20_a5 s20_v2 s20_v3 s20_v4 s20_v5 s20_v1012 s20_v1057 s20_v1060 s20_v1075 s20_v1083
  obtain ⟨s22_a0, s22_a1, s22_a2, s22_a3, s22_a4, s22_a5, s22_v2, s22_v3, s22_v4, s22_v5, s22_v1012, s22_v1153, s22_v1156, s22_v1171, s22_v1187, s22_v1188⟩ := value22 (F := F) (after ops21 (after ops20 (after ops19 (after ops18 (after ops17 (after ops16 (after ops15 (after ops14 (after ops13 (after ops12 (after ops11 (after ops10 (after ops9 (after ops8 (after ops7 (after ops6 (after ops5 (after ops4 (after ops3 (after ops2 (after ops1 (after ops0 W)))))))))))))))))))))) x0 x1 x2 x3 x4 x5 s21_a0 s21_a1 s21_a2 s21_a3 s21_a4 s21_a5 s21_v2 s21_v3 s21_v4 s21_v5 s21_v1012 s21_v1105 s21_v1108 s21_v1123 s21_v1131 s21_v1133 s21_v1135
  obtain ⟨s23_a0, s23_a1, s23_a2, s23_a3, s23_a4, s23_a5, s23_v1201, s23_v1204, s23_v1219, s23_v1239, s23_v1240, s23_v1241⟩ := value23 (F := F) (after ops22 (after ops21 (after ops20 (after ops19 (after ops18 (after ops17 (after ops16 (after ops15 (after ops14 (after ops13 (after ops12 (after ops11 (after ops10 (after ops9 (after ops8 (after ops7 (after ops6 (after ops5 (after ops4 (after ops3 (after ops2 (after ops1 (after ops0 W))))))))))))))))))))))) x0 x1 x2 x3 x4 x5 s22_a0 s22_a1 s22_a2 s22_a3 s22_a4 s22_a5 s22_v2 s22_v3 s22_v4 s22_v5 s22_v1012 s22_v1153 s22_v1156 s22_v1171 s22_v1187 s22_v1188
  obtain ⟨s24_a0, s24_a1, s24_a2, s24_a3, s24_a4, s24_a5, s24_v1257⟩ := value24 (F := F) (after ops23 (after ops22 (after ops21 (after ops20 (after ops19 (after ops18 (after ops17 (after ops16 (after ops15 (after ops14 (after ops13 (after ops12 (after ops11 (after ops10 (after ops9 (after ops8 (after ops7 (after ops6 (after ops5 (after ops4 (after ops3 (after ops2 (after ops1 (after ops0 W)))))))))))))))))))))))) x0 x1 x2 x3 x4 x5 s23_a0 s23_a1 s23_a2 s23_a3 s23_a4 s23_a5 s23_v1201 s23_v1204 s23_v1219 s23_v1239 s23_v1240 s23_v1241
  exact ⟨s24_v1257, s24_a0, s24_a1, s24_a2, s24_a3, s24_a4, s24_a5⟩

/-- On every device, for any float values, from any memory with zero counters: every weakly fair execution of
    @main terminates with the result at its last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1257) = ReadP.val_main_v1257 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
      obtain ⟨k, k0, k1, k2, k3, k4, k5⟩ := values (F := F) (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) rfl rfl rfl rfl rfl rfl
      exact ⟨(h c main_v1257).trans k, (h c main_arg0).trans k0, (h c main_arg1).trans k1, (h c main_arg2).trans k2,
        (h c main_arg3).trans k3, (h c main_arg4).trans k4, (h c main_arg5).trans k5⟩)
    (run_seq scopedRefs_eq scopedSems_eq defs main (fun _ => ops) main_eq (fun _ => ops_sub) m ρ (fun _ => ops_fresh))

end Cert.ReferenceIdeal.RunH

end
-- ==== Proof.Spec.lean ====
/-
  A 5×5-windowed attention over a 64×64 grid of 256-channel pixels, written twice as a function of coordinates.

  Keys and values are the projections `k = x·Wkᵀ`, `v = x·Wvᵀ`. A tap `(ii, jj)` of the window looks from pixel
  `(h, w)` at pixel `(h + ii - 2, w + jj - 2)`; outside the grid the padded key and value are `0` and the tap's
  mask is `0`. With the position bias `β = w_h[ii]·(ii - 2 - h) + w_v[jj]·(jj - 2 - w)`:
  * the reference form adds, tap after tap, `exp(β + k')·mask·v'` to the numerator and `∑_d exp(β + k')·mask` to the
    denominator (`k'`, `v'` the padded, shifted key and value);
  * the factored form adds `(exp β·mask)·(exp k·v)'` and `(exp β·mask)·(∑_d exp k)'`, the shifted quantities padded by `0`.
  Both end with `(numerator / (denominator + ε))·Wpᵀ`. The taps are added in the same order (row by row of the window)
  from `0`, so the two forms agree term by term wherever `exp (β + k) = exp β · exp k` and the product distributes
  over the channel sum: for real entries (`Algebra.lean`).
-/
import Idealize.ShloMosaic.PureOps.Ideal
import Idealize.ShloMosaic.Lib.ValueIdx

noncomputable section

open scoped BigOperators

namespace Cert.Attn

open Idealize.ShloMosaic Idealize.ShloMosaic.ValueIdx

/-- Arrays by coordinates. -/
abbrev Img := Fin 16 → Fin 64 → Fin 64 → Fin 256 → EReal
abbrev Mat := Fin 256 → Fin 256 → EReal
abbrev Vec5 := Fin 5 → EReal

/-- An array of the programs read by coordinates. -/
abbrev co4 (x : (⟨4, ![16, 64, 64, 256]⟩ : Shape).Idx → EReal) : Img := fun b h w c => x (ix4 b h w c)
abbrev co2 (x : (⟨2, ![256, 256]⟩ : Shape).Idx → EReal) : Mat := fun d c => x (ix2 d c)
abbrev co1 (x : (⟨1, ![5]⟩ : Shape).Idx → EReal) : Vec5 := fun i => x (ix1 i)

/-- The projection `x·Wᵀ`: channel `d` of pixel `(b, h, w)` is `∑_c x[b,h,w,c]·W[d,c]`. -/
def proj (x : Img) (W : Mat) : Img := fun b h w d => ∑ c : Fin 256, x b h w c * W d c

/-- Row `p`, column `q` of a padded 64×64 plane whose interior starts at `(2, 2)`: the plane at `(p - 2, q - 2)`
    inside, `0` on the border and beyond. A tap `(ii, jj)` reads it at `(h + ii, w + jj)`. -/
def pad2 (f : Fin 64 → Fin 64 → EReal) (p q : ℕ) : EReal :=
  if hp : (2 ≤ p ∧ p < 66) ∧ (2 ≤ q ∧ q < 66) then f ⟨p - 2, by omega⟩ ⟨q - 2, by omega⟩ else 0

/-- The tap's mask: `1` when the pixel it looks at is on the grid. -/
def mask (ii jj : Fin 5) (h w : Fin 64) : EReal :=
  if (2 ≤ h.val + ii.val ∧ h.val + ii.val < 66) ∧ (2 ≤ w.val + jj.val ∧ w.val + jj.val < 66) then 1 else 0

/-- The position bias of tap `(ii, jj)` at pixel `(h, w)`. -/
def bias (wh wv : Vec5) (ii jj : Fin 5) (h w : Fin 64) : EReal :=
  wh ii * (((((ii.val : ℤ) - 2 - (h.val : ℤ) : ℤ) : ℝ) : EReal))
    + wv jj * (((((jj.val : ℤ) - 2 - (w.val : ℤ) : ℤ) : ℝ) : EReal))

/-- The window's taps in the order both programs add them: tap `t` is row `t / 5`, column `t % 5`. -/
def tapI (t : ℕ) : Fin 5 := ⟨t / 5 % 5, Nat.mod_lt _ (by decide)⟩
def tapJ (t : ℕ) : Fin 5 := ⟨t % 5, Nat.mod_lt _ (by decide)⟩

/-- The stabiliser `ε` both programs add to the denominator: the same binary32 word on both sides. -/
def eps : EReal := Ideal.ofBits .f32 0x322BCC77#32

/-! ## The reference form -/

/-- The weight of tap `(ii, jj)` at a pixel and channel: `exp(β + k')·mask`. -/
def wgtR (k : Img) (wh wv : Vec5) (ii jj : Fin 5) : Img := fun b h w d =>
  Ideal.exp (bias wh wv ii jj h w + pad2 (fun p q => k b p q d) (h.val + ii.val) (w.val + jj.val)) * mask ii jj h w

/-- The numerator after `t` taps. -/
def refOut (k v : Img) (wh wv : Vec5) : ℕ → Img
  | 0 => fun _ _ _ _ => 0
  | t + 1 => fun b h w d => refOut k v wh wv t b h w d
      + wgtR k wh wv (tapI t) (tapJ t) b h w d * pad2 (fun p q => v b p q d) (h.val + (tapI t).val) (w.val + (tapJ t).val)

/-- The denominator after `t` taps. -/
def refNorm (k : Img) (wh wv : Vec5) : ℕ → Fin 16 → Fin 64 → Fin 64 → EReal
  | 0 => fun _ _ _ => 0
  | t + 1 => fun b h w => refNorm k wh wv t b h w + ∑ d : Fin 256, wgtR k wh wv (tapI t) (tapJ t) b h w d

/-- The reference's result: the normalised window sum, projected by `Wp`. -/
def refResult (x : Img) (wh wv : Vec5) (Wk Wv Wp : Mat) : Img := fun b h w o =>
  ∑ d : Fin 256, Ideal.div (refOut (proj x Wk) (proj x Wv) wh wv 25 b h w d)
      (refNorm (proj x Wk) wh wv 25 b h w + eps) * Wp o d

/-! ## The factored form -/

/-- The position table `exp β · mask`. -/
def eb (wh wv : Vec5) (ii jj : Fin 5) (h w : Fin 64) : EReal :=
  Ideal.exp (bias wh wv ii jj h w) * mask ii jj h w

/-- `exp k`, `exp k · v` and the channel sum of `exp k`, computed once per pixel. -/
def ek (k : Img) : Img := fun b h w d => Ideal.exp (k b h w d)
def evk (k v : Img) : Img := fun b h w d => ek k b h w d * v b h w d
def sk (k : Img) : Fin 16 → Fin 64 → Fin 64 → EReal := fun b h w => ∑ d : Fin 256, ek k b h w d

/-- The numerator after `t` taps. -/
def kerOut (k v : Img) (wh wv : Vec5) : ℕ → Img
  | 0 => fun _ _ _ _ => 0
  | t + 1 => fun b h w d => kerOut k v wh wv t b h w d
      + eb wh wv (tapI t) (tapJ t) h w * pad2 (fun p q => evk k v b p q d) (h.val + (tapI t).val) (w.val + (tapJ t).val)

/-- The denominator after `t` taps. -/
def kerNorm (k : Img) (wh wv : Vec5) : ℕ → Fin 16 → Fin 64 → Fin 64 → EReal
  | 0 => fun _ _ _ => 0
  | t + 1 => fun b h w => kerNorm k wh wv t b h w
      + eb wh wv (tapI t) (tapJ t) h w * pad2 (fun p q => sk k b p q) (h.val + (tapI t).val) (w.val + (tapJ t).val)

/-- The kernel's result. -/
def kerResult (x : Img) (wh wv : Vec5) (Wk Wv Wp : Mat) : Img := fun b h w o =>
  ∑ d : Fin 256, Ideal.div (kerOut (proj x Wk) (proj x Wv) wh wv 25 b h w d)
      (kerNorm (proj x Wk) wh wv 25 b h w + eps) * Wp o d

end Cert.Attn

end
-- ==== Proof.RefReadLib.lean ====
/-
  Reading the reference program's layout and integer stages at an index: the padded plane, the rank-0 reshape of a
  one-element slice, and the integer chains behind a tap's mask and position bias.
-/
import Idealize.ShloMosaic.Lib.Pipeline.Value
import Idealize.ShloMosaic.Lib.ValueIdx
import Idealize.ShloMosaic.Lib.KernelVsHost
import Idealize.ShloMosaic.PureOps.Ideal.Laws
import proofs.«107659_j89111981457894_2_alg».proof.Proof.Spec

noncomputable section

open scoped BigOperators

namespace Cert.Attn.Ref

open Idealize.ShloMosaic Idealize.ShloMosaic.ValueIdx

/-! ## The padded plane -/

/-- The image padded by two rows and two columns of `v`'s one element (which is `0`) on each side, read at padded
    coordinates `(p, q)`: the image at `(p - 2, q - 2)` inside, `0` on the border. -/
theorem pad_read (x : (⟨4, ![16, 64, 64, 256]⟩ : Shape).Idx → EReal) (v : (⟨0, ![]⟩ : Shape).Idx → EReal)
    (hp : (⟨4, ![16, 64, 64, 256]⟩ : Shape).Pads (![0, 2, 2, 0] : Fin 4 → Nat) ![0, 2, 2, 0] ![0, 0, 0, 0] ⟨4, ![16, 68, 68, 256]⟩)
    (hu : 0 < (⟨0, ![]⟩ : Shape).numel) (hv : v (Shape.Idx.first hu) = 0) (b : Fin 16) (p q : Fin 68) (c : Fin 256) :
    pad ⟨4, ![16, 68, 68, 256]⟩ ![0, 2, 2, 0] ![0, 2, 2, 0] ![0, 0, 0, 0] x v hp hu (ix4 b p q c)
      = pad2 (fun h w => x (ix4 b h w c)) p.val q.val := by
  unfold pad2
  split
  · next hin =>
    exact pad_apply_of_inside _ _ _ x v hp hu _ (ix4 b ⟨p.val - 2, by omega⟩ ⟨q.val - 2, by omega⟩ c) (fun a => match a with
      | ⟨0, _⟩ => by show b.val = 0 + b.val * (0 + 1); omega
      | ⟨1, _⟩ => by show p.val = 2 + (p.val - 2) * (0 + 1); omega
      | ⟨2, _⟩ => by show q.val = 2 + (q.val - 2) * (0 + 1); omega
      | ⟨3, _⟩ => by show c.val = 0 + c.val * (0 + 1); omega)
  · next hout =>
    rw [← hv]
    by_cases h1 : 2 ≤ p.val ∧ p.val < 66
    · have h2 : ¬(2 ≤ q.val ∧ q.val < 66) := fun h2 => hout ⟨h1, h2⟩
      exact pad_apply_of_not_inside _ _ _ x v hp hu _ ⟨2, by decide⟩ (by
        show ¬(2 ≤ q.val ∧ (q.val - 2) % (0 + 1) = 0 ∧ (q.val - 2) / (0 + 1) < 64); omega)
    · exact pad_apply_of_not_inside _ _ _ x v hp hu _ ⟨1, by decide⟩ (by
        show ¬(2 ≤ p.val ∧ (p.val - 2) % (0 + 1) = 0 ∧ (p.val - 2) / (0 + 1) < 64); omega)

/-- The 64×64 window of the padded image that starts at row `n`, column `m`, read at `(h, w)`: the padded image at
    `(h + n, w + m)`. -/
theorem window_read {α : Type} (y : (⟨4, ![16, 68, 68, 256]⟩ : Shape).Idx → α) (n m : ℕ) (hn : n ≤ 4) (hm : m ≤ 4)
    (hs : (⟨4, ![16, 68, 68, 256]⟩ : Shape).Slices ![0, n, m, 0] ⟨4, ![16, 64, 64, 256]⟩) (b : Fin 16) (h w : Fin 64) (c : Fin 256) :
    extractStridedSlice ⟨4, ![16, 64, 64, 256]⟩ ![0, n, m, 0] y hs (ix4 b h w c)
      = y (ix4 b ⟨h.val + n, by omega⟩ ⟨w.val + m, by omega⟩ c) :=
  extractStridedSlice_apply ![0, n, m, 0] y hs _ _ (fun a => match a with
    | ⟨0, _⟩ => by show b.val = 0 + b.val; omega
    | ⟨1, _⟩ => by show h.val + n = n + h.val; omega
    | ⟨2, _⟩ => by show w.val + m = m + w.val; omega
    | ⟨3, _⟩ => by show c.val = 0 + c.val; omega)

/-! ## One entry of a five-vector as a rank-0 array -/

/-- Entry `n` of a five-vector, sliced out as a one-element vector and reshaped to rank 0, is that entry. -/
theorem entry_read {α : Type} (x : (⟨1, ![5]⟩ : Shape).Idx → α) (n : ℕ) (hn : n < 5)
    (hs : (⟨1, ![5]⟩ : Shape).Slices ![n] ⟨1, ![1]⟩) (hc : (⟨1, ![1]⟩ : Shape).ShapeCasts ⟨0, ![]⟩) (j : (⟨0, ![]⟩ : Shape).Idx) :
    shapeCast ⟨0, ![]⟩ (extractStridedSlice ⟨1, ![1]⟩ ![n] x hs) hc j = x (ix1 ⟨n, hn⟩) := by
  refine (shapeCast_apply _ hc j (ix1 ⟨0, Nat.one_pos⟩) ?_).trans ?_
  · have h1 := ((⟨1, ![1]⟩ : Shape).rowMajor (ix1 ⟨0, Nat.one_pos⟩)).isLt
    have h0 := ((⟨0, ![]⟩ : Shape).rowMajor j).isLt
    have e1 : (⟨1, ![1]⟩ : Shape).numel = 1 := by decide
    have e0 : (⟨0, ![]⟩ : Shape).numel = 1 := by decide
    omega
  · exact extractStridedSlice_apply ![n] x hs _ _ (fun a => match a with
      | ⟨0, _⟩ => by show n = n + 0; omega)

/-! ## The integer chains of a tap -/

theorem toInt_small (n : ℕ) (hn : n < 64) : (BitVec.ofNat 32 n).toInt = (n : ℤ) := by
  rw [BitVec.toInt_eq_toNat_bmod, BitVec.toNat_ofNat]
  simp only [Int.bmod_def]
  omega

theorem key_add (n e : ℕ) (hn : n < 64) (he : e < 5) (c : BitVec 32) (hc : c.toInt = (e : ℤ) - 2) :
    (BitVec.ofNat 32 n + c).toInt = (n : ℤ) + (e : ℤ) - 2 := by
  rw [BitVec.toInt_add, toInt_small n hn, hc]
  simp only [Int.bmod_def]
  omega

theorem key_sub (n e : ℕ) (hn : n < 64) (he : e < 5) (c : BitVec 32) (hc : c.toInt = (e : ℤ) - 2) :
    (c - BitVec.ofNat 32 n).toInt = (e : ℤ) - 2 - (n : ℤ) := by
  rw [BitVec.toInt_sub, toInt_small n hn, hc]
  simp only [Int.bmod_def]
  omega

/-- The row bit of a tap's mask. -/
theorem rowbit (n e : ℕ) (hn : n < 64) (he : e < 5) (c : BitVec 32) (hc : c.toInt = (e : ℤ) - 2) :
    IntOp.andi (IntOp.cmpi .sge (IntOp.addi (BitVec.ofNat 32 n) c) 0#32) (IntOp.cmpi .slt (IntOp.addi (BitVec.ofNat 32 n) c) 64#32)
      = if 2 ≤ n + e ∧ n + e < 66 then 1#1 else 0#1 := by
  have k := key_add n e hn he c hc
  unfold IntOp.andi IntOp.cmpi IntOp.addi
  simp only [BitVec.sle, BitVec.slt, k]
  have z : (0#32).toInt = 0 := by decide
  have s : (64#32).toInt = 64 := by decide
  rw [z, s]
  by_cases h : 2 ≤ n + e ∧ n + e < 66
  · rw [if_pos h, decide_eq_true (by omega), decide_eq_true (by omega)]; decide
  · rw [if_neg h]
    by_cases h2 : 2 ≤ n + e
    · rw [decide_eq_true (by omega : (0:ℤ) ≤ (n:ℤ) + (e:ℤ) - 2), decide_eq_false (by omega : ¬ ((n:ℤ) + (e:ℤ) - 2 < 64))]; decide
    · rw [decide_eq_false (by omega : ¬ ((0:ℤ) ≤ (n:ℤ) + (e:ℤ) - 2)), decide_eq_true (by omega :  ((n:ℤ) + (e:ℤ) - 2 < 64))]; decide

theorem sitofp_read (n e : ℕ) (hn : n < 64) (he : e < 5) (c : BitVec 32) (hc : c.toInt = (e : ℤ) - 2) :
    FloatOps.sitofp (F := Ideal) .f32 (IntOp.subi c (BitVec.ofNat 32 n)) = (((((e : ℤ) - 2 - (n : ℤ) : ℤ) : ℝ) : EReal)) := by
  show ((((c - BitVec.ofNat 32 n).toInt : ℤ) : ℝ) : EReal) = _
  rw [key_sub n e hn he c hc]

theorem uitofp_and (P Q : Prop) [Decidable P] [Decidable Q] :
    FloatOps.uitofp (F := Ideal) .f32 (IntOp.andi (if P then 1#1 else 0#1) (if Q then 1#1 else 0#1)) = if P ∧ Q then (1 : EReal) else 0 := by
  show ((((IntOp.andi (if P then 1#1 else 0#1) (if Q then 1#1 else 0#1)).toNat : ℝ)) : EReal) = _
  by_cases hP : P <;> by_cases hQ : Q <;> simp [hP, hQ, IntOp.andi]

/-! ## A tap's arrays as the program builds them -/

/-- The bits `[0 ≤ h + d < 64]` along one axis as the program computes them, `c` the two's-complement word of the offset `d`. -/
def bitArr (c : BitVec 32) : IVec ⟨1, ![64]⟩ 1 :=
  andi
    (cmpi .sge (addi (iotaInDim ⟨1, ![64]⟩ 32 0) (broadcastInDim ⟨1, ![64]⟩ ![] (by decide) (constantI ⟨0, ![]⟩ 32 c)))
      (broadcastInDim ⟨1, ![64]⟩ ![] (by decide) (constantI ⟨0, ![]⟩ 32 0#32)))
    (cmpi .slt (addi (iotaInDim ⟨1, ![64]⟩ 32 0) (broadcastInDim ⟨1, ![64]⟩ ![] (by decide) (constantI ⟨0, ![]⟩ 32 c)))
      (broadcastInDim ⟨1, ![64]⟩ ![] (by decide) (constantI ⟨0, ![]⟩ 32 64#32)))

theorem bitArr_apply (c : BitVec 32) (h : Fin 64) :
    bitArr c (ix1 h) = IntOp.andi (IntOp.cmpi .sge (IntOp.addi (BitVec.ofNat 32 h.val) c) 0#32)
      (IntOp.cmpi .slt (IntOp.addi (BitVec.ofNat 32 h.val) c) 64#32) := rfl

/-- The tap's mask as a 64×64 float array, from the row bits and the column bits. -/
def maskArr (r q : IVec ⟨1, ![64]⟩ 1) : FVec Ideal ⟨2, ![64, 64]⟩ .f32 :=
  uitofp .f32 (andi
    (broadcastInDim ⟨2, ![64, 64]⟩ ![0, 1] (by decide) (broadcastInDim ⟨2, ![64, 1]⟩ ![0] (by decide) r))
    (broadcastInDim ⟨2, ![64, 64]⟩ ![0, 1] (by decide) (broadcastInDim ⟨2, ![1, 64]⟩ ![1] (by decide) q)))

theorem maskArr_apply (r q : IVec ⟨1, ![64]⟩ 1) (h w : Fin 64) :
    maskArr r q (ix2 h w) = FloatOps.uitofp (F := Ideal) .f32 (IntOp.andi (r (ix1 h)) (q (ix1 w))) := by
  unfold maskArr
  show FloatOps.uitofp (F := Ideal) .f32 (IntOp.andi
    (broadcastInDim ⟨2, ![64, 64]⟩ ![0, 1] _ (broadcastInDim ⟨2, ![64, 1]⟩ ![0] _ r) (ix2 h w))
    (broadcastInDim ⟨2, ![64, 64]⟩ ![0, 1] _ (broadcastInDim ⟨2, ![1, 64]⟩ ![1] _ q) (ix2 h w))) = _
  rw [broadcastInDim_apply _ _ _ (ix2 h w) (ix2 h ⟨0, Nat.one_pos⟩) (fun a => match a with
        | ⟨0, _⟩ => by show h.val = if (64 : Nat) = 1 then 0 else h.val; rw [if_neg (by decide)]
        | ⟨1, _⟩ => by show 0 = if (1 : Nat) = 1 then 0 else w.val; rw [if_pos rfl]),
      broadcastInDim_apply _ _ r (ix2 h ⟨0, Nat.one_pos⟩) (ix1 h) (fun a => match a with
        | ⟨0, _⟩ => by show h.val = if (64 : Nat) = 1 then 0 else h.val; rw [if_neg (by decide)]),
      broadcastInDim_apply _ _ _ (ix2 h w) (ix2 ⟨0, Nat.one_pos⟩ w) (fun a => match a with
        | ⟨0, _⟩ => by show 0 = if (1 : Nat) = 1 then 0 else h.val; rw [if_pos rfl]
        | ⟨1, _⟩ => by show w.val = if (64 : Nat) = 1 then 0 else w.val; rw [if_neg (by decide)]),
      broadcastInDim_apply _ _ q (ix2 ⟨0, Nat.one_pos⟩ w) (ix1 w) (fun a => match a with
        | ⟨0, _⟩ => by show w.val = if (64 : Nat) = 1 then 0 else w.val; rw [if_neg (by decide)])]

theorem bits_read (c : BitVec 32) (e : ℕ) (he : e < 5) (hc : c.toInt = (e : ℤ) - 2) (r : IVec ⟨1, ![64]⟩ 1) (hr : r = bitArr c) (h : Fin 64) :
    r (ix1 h) = if 2 ≤ h.val + e ∧ h.val + e < 66 then 1#1 else 0#1 := by
  subst hr
  rw [bitArr_apply]
  exact rowbit h.val e h.isLt he c hc

/-- The tap's position bias as a 64×64 array, as the program computes it: entry `n` of `x1` times the row offsets plus
    entry `m` of `x2` times the column offsets, `c`, `c'` the words of the two offsets. -/
def biasArr (n m : ℕ) (c c' : BitVec 32) (x1 x2 : FVec Ideal ⟨1, ![5]⟩ .f32)
    (hs1 : (⟨1, ![5]⟩ : Shape).Slices ![n] ⟨1, ![1]⟩) (hs2 : (⟨1, ![5]⟩ : Shape).Slices ![m] ⟨1, ![1]⟩) :
    FVec Ideal ⟨2, ![64, 64]⟩ .f32 :=
  addf
    (broadcastInDim ⟨2, ![64, 64]⟩ ![0, 1] (by decide)
      (mulf (broadcastInDim ⟨2, ![64, 1]⟩ ![] (by decide) (shapeCast ⟨0, ![]⟩ (extractStridedSlice ⟨1, ![1]⟩ ![n] x1 hs1) (by decide)))
        (sitofp .f32 (broadcastInDim ⟨2, ![64, 1]⟩ ![0] (by decide)
          (subi (broadcastInDim ⟨1, ![64]⟩ ![] (by decide) (constantI ⟨0, ![]⟩ 32 c)) (iotaInDim ⟨1, ![64]⟩ 32 0))))))
    (broadcastInDim ⟨2, ![64, 64]⟩ ![0, 1] (by decide)
      (mulf (broadcastInDim ⟨2, ![1, 64]⟩ ![] (by decide) (shapeCast ⟨0, ![]⟩ (extractStridedSlice ⟨1, ![1]⟩ ![m] x2 hs2) (by decide)))
        (sitofp .f32 (broadcastInDim ⟨2, ![1, 64]⟩ ![1] (by decide)
          (subi (broadcastInDim ⟨1, ![64]⟩ ![] (by decide) (constantI ⟨0, ![]⟩ 32 c')) (iotaInDim ⟨1, ![64]⟩ 32 0))))))

theorem biasArr_apply (n m : ℕ) (hn : n < 5) (hm : m < 5) (c c' : BitVec 32) (x1 x2 : FVec Ideal ⟨1, ![5]⟩ .f32)
    (hs1 : (⟨1, ![5]⟩ : Shape).Slices ![n] ⟨1, ![1]⟩) (hs2 : (⟨1, ![5]⟩ : Shape).Slices ![m] ⟨1, ![1]⟩) (h w : Fin 64) :
    biasArr n m c c' x1 x2 hs1 hs2 (ix2 h w)
      = x1 (ix1 ⟨n, hn⟩) * FloatOps.sitofp (F := Ideal) .f32 (IntOp.subi c (BitVec.ofNat 32 h.val))
        + x2 (ix1 ⟨m, hm⟩) * FloatOps.sitofp (F := Ideal) .f32 (IntOp.subi c' (BitVec.ofNat 32 w.val)) := by
  unfold biasArr
  show broadcastInDim (s := ⟨2, ![64, 1]⟩) ⟨2, ![64, 64]⟩ ![0, 1] _ (mulf _ _) (ix2 h w) + broadcastInDim (s := ⟨2, ![1, 64]⟩) ⟨2, ![64, 64]⟩ ![0, 1] _ (mulf _ _) (ix2 h w) = _
  rw [broadcastInDim_apply _ _ _ (ix2 h w) (ix2 h ⟨0, Nat.one_pos⟩) (fun a => match a with
        | ⟨0, _⟩ => by show h.val = if (64 : Nat) = 1 then 0 else h.val; rw [if_neg (by decide)]
        | ⟨1, _⟩ => by show 0 = if (1 : Nat) = 1 then 0 else w.val; rw [if_pos rfl]),
      broadcastInDim_apply _ _ _ (ix2 h w) (ix2 ⟨0, Nat.one_pos⟩ w) (fun a => match a with
        | ⟨0, _⟩ => by show 0 = if (1 : Nat) = 1 then 0 else h.val; rw [if_pos rfl]
        | ⟨1, _⟩ => by show w.val = if (64 : Nat) = 1 then 0 else w.val; rw [if_neg (by decide)])]
  show shapeCast ⟨0, ![]⟩ (extractStridedSlice ⟨1, ![1]⟩ ![n] x1 hs1) _ _ * FloatOps.sitofp (F := Ideal) .f32 (broadcastInDim (s := ⟨1, ![64]⟩) ⟨2, ![64, 1]⟩ ![0] _ _ (ix2 h ⟨0, Nat.one_pos⟩))
      + shapeCast ⟨0, ![]⟩ (extractStridedSlice ⟨1, ![1]⟩ ![m] x2 hs2) _ _ * FloatOps.sitofp (F := Ideal) .f32 (broadcastInDim (s := ⟨1, ![64]⟩) ⟨2, ![1, 64]⟩ ![1] _ _ (ix2 ⟨0, Nat.one_pos⟩ w)) = _
  rw [entry_read x1 n hn, entry_read x2 m hm,
      broadcastInDim_apply _ _ _ (ix2 h ⟨0, Nat.one_pos⟩) (ix1 h) (fun a => match a with
        | ⟨0, _⟩ => by show h.val = if (64 : Nat) = 1 then 0 else h.val; rw [if_neg (by decide)]),
      broadcastInDim_apply _ _ _ (ix2 ⟨0, Nat.one_pos⟩ w) (ix1 w) (fun a => match a with
        | ⟨0, _⟩ => by show w.val = if (64 : Nat) = 1 then 0 else w.val; rw [if_neg (by decide)])]
  rfl

/-- The tap's weight `exp(bias + k')·mask` as the program computes it from the padded keys `kp`, the bias array and the mask array. -/
def wgtArr (n m : ℕ) (kp : FVec Ideal ⟨4, ![16, 68, 68, 256]⟩ .f32) (bias2 mask2 : FVec Ideal ⟨2, ![64, 64]⟩ .f32)
    (hs : (⟨4, ![16, 68, 68, 256]⟩ : Shape).Slices ![0, n, m, 0] ⟨4, ![16, 64, 64, 256]⟩) : FVec Ideal ⟨4, ![16, 64, 64, 256]⟩ .f32 :=
  mulf
    (Host.exp (addf
      (broadcastInDim ⟨4, ![16, 64, 64, 256]⟩ ![0, 1, 2, 3] (by decide) (broadcastInDim ⟨4, ![1, 64, 64, 1]⟩ ![1, 2] (by decide) bias2))
      (extractStridedSlice ⟨4, ![16, 64, 64, 256]⟩ ![0, n, m, 0] kp hs)))
    (broadcastInDim ⟨4, ![16, 64, 64, 256]⟩ ![0, 1, 2, 3] (by decide) (broadcastInDim ⟨4, ![1, 64, 64, 1]⟩ ![1, 2] (by decide) mask2))

/-- A 64×64 plane broadcast over images and channels, read at a pixel. -/
theorem plane_read {α : Type} (f : (⟨2, ![64, 64]⟩ : Shape).Idx → α)
    (h1 : (⟨2, ![64, 64]⟩ : Shape).BroadcastsInDim ⟨4, ![1, 64, 64, 1]⟩ ![1, 2])
    (h2 : (⟨4, ![1, 64, 64, 1]⟩ : Shape).BroadcastsInDim ⟨4, ![16, 64, 64, 256]⟩ ![0, 1, 2, 3])
    (b : Fin 16) (h w : Fin 64) (d : Fin 256) :
    broadcastInDim ⟨4, ![16, 64, 64, 256]⟩ ![0, 1, 2, 3] h2 (broadcastInDim ⟨4, ![1, 64, 64, 1]⟩ ![1, 2] h1 f) (ix4 b h w d) = f (ix2 h w) := by
  rw [broadcastInDim_apply _ h2 _ (ix4 b h w d) (ix4 ⟨0, Nat.one_pos⟩ h w ⟨0, Nat.one_pos⟩) (fun a => match a with
        | ⟨0, _⟩ => by show 0 = if (1 : Nat) = 1 then 0 else b.val; rw [if_pos rfl]
        | ⟨1, _⟩ => by show h.val = if (64 : Nat) = 1 then 0 else h.val; rw [if_neg (by decide)]
        | ⟨2, _⟩ => by show w.val = if (64 : Nat) = 1 then 0 else w.val; rw [if_neg (by decide)]
        | ⟨3, _⟩ => by show 0 = if (1 : Nat) = 1 then 0 else d.val; rw [if_pos rfl]),
      broadcastInDim_apply _ h1 f (ix4 ⟨0, Nat.one_pos⟩ h w ⟨0, Nat.one_pos⟩) (ix2 h w) (fun a => match a with
        | ⟨0, _⟩ => by show h.val = if (64 : Nat) = 1 then 0 else h.val; rw [if_neg (by decide)]
        | ⟨1, _⟩ => by show w.val = if (64 : Nat) = 1 then 0 else w.val; rw [if_neg (by decide)])]

theorem wgtArr_apply (n m : ℕ) (hn : n ≤ 4) (hm : m ≤ 4) (kp : FVec Ideal ⟨4, ![16, 68, 68, 256]⟩ .f32) (bias2 mask2 : FVec Ideal ⟨2, ![64, 64]⟩ .f32)
    (hs : (⟨4, ![16, 68, 68, 256]⟩ : Shape).Slices ![0, n, m, 0] ⟨4, ![16, 64, 64, 256]⟩) (b : Fin 16) (h w : Fin 64) (d : Fin 256) :
    wgtArr n m kp bias2 mask2 hs (ix4 b h w d)
      = Ideal.exp (bias2 (ix2 h w) + kp (ix4 b ⟨h.val + n, by omega⟩ ⟨w.val + m, by omega⟩ d)) * mask2 (ix2 h w) := by
  unfold wgtArr
  show Ideal.exp (broadcastInDim ⟨4, ![16, 64, 64, 256]⟩ ![0, 1, 2, 3] _ (broadcastInDim ⟨4, ![1, 64, 64, 1]⟩ ![1, 2] _ bias2) (ix4 b h w d)
      + extractStridedSlice ⟨4, ![16, 64, 64, 256]⟩ ![0, n, m, 0] kp hs (ix4 b h w d))
    * broadcastInDim ⟨4, ![16, 64, 64, 256]⟩ ![0, 1, 2, 3] _ (broadcastInDim ⟨4, ![1, 64, 64, 1]⟩ ![1, 2] _ mask2) (ix4 b h w d) = _
  rw [plane_read, plane_read, window_read kp n m hn hm hs]

/-- The padding value of the program: the integer `0` converted. -/
theorem padval_zero (hu : 0 < (⟨0, ![]⟩ : Shape).numel) :
    (sitofp (F := Ideal) .f32 (constantI ⟨0, ![]⟩ 32 0#32)) (Shape.Idx.first hu) = 0 := by
  show ((((0#32 : BitVec 32).toInt : ℝ)) : EReal) = 0
  have z : (0#32 : BitVec 32).toInt = 0 := by decide
  rw [z]; simp

/-- A tap's weight array, built by the program from the padded keys, the two five-vectors and the row and column bits,
    is the specification's weight of that tap. -/
theorem wgt_read (ii jj : Fin 5) (n m : ℕ) (hn : ii.val = n) (hm : jj.val = m) (c c' : BitVec 32)
    (hc : c.toInt = (n : ℤ) - 2) (hc' : c'.toInt = (m : ℤ) - 2)
    (k : FVec Ideal ⟨4, ![16, 64, 64, 256]⟩ .f32) (z : (⟨0, ![]⟩ : Shape).Idx → EReal)
    (hp : (⟨4, ![16, 64, 64, 256]⟩ : Shape).Pads (![0, 2, 2, 0] : Fin 4 → Nat) ![0, 2, 2, 0] ![0, 0, 0, 0] ⟨4, ![16, 68, 68, 256]⟩)
    (hu : 0 < (⟨0, ![]⟩ : Shape).numel) (hz : z (Shape.Idx.first hu) = 0)
    (x1 x2 : FVec Ideal ⟨1, ![5]⟩ .f32) (r q : IVec ⟨1, ![64]⟩ 1)
    (hr : ∀ h : Fin 64, r (ix1 h) = if 2 ≤ h.val + n ∧ h.val + n < 66 then 1#1 else 0#1)
    (hq : ∀ w : Fin 64, q (ix1 w) = if 2 ≤ w.val + m ∧ w.val + m < 66 then 1#1 else 0#1)
    (hs1 : (⟨1, ![5]⟩ : Shape).Slices ![n] ⟨1, ![1]⟩) (hs2 : (⟨1, ![5]⟩ : Shape).Slices ![m] ⟨1, ![1]⟩)
    (hs : (⟨4, ![16, 68, 68, 256]⟩ : Shape).Slices ![0, n, m, 0] ⟨4, ![16, 64, 64, 256]⟩)
    (A : FVec Ideal ⟨4, ![16, 64, 64, 256]⟩ .f32)
    (hA : A = wgtArr n m (pad ⟨4, ![16, 68, 68, 256]⟩ ![0, 2, 2, 0] ![0, 2, 2, 0] ![0, 0, 0, 0] k z hp hu)
      (biasArr n m c c' x1 x2 hs1 hs2) (maskArr r q) hs)
    (b : Fin 16) (h w : Fin 64) (d : Fin 256) :
    A (ix4 b h w d) = wgtR (co4 k) (co1 x1) (co1 x2) ii jj b h w d := by
  subst hA hn hm
  have hn5 : ii.val < 5 := ii.isLt
  have hm5 : jj.val < 5 := jj.isLt
  rw [wgtArr_apply ii.val jj.val (by omega) (by omega), biasArr_apply ii.val jj.val hn5 hm5, maskArr_apply, hr, hq, uitofp_and,
      sitofp_read h.val ii.val h.isLt hn5 c hc, sitofp_read w.val jj.val w.isLt hm5 c' hc', pad_read k z hp hu hz]
  rfl

/-- The tap's window of the padded values, read at a pixel and channel. -/
theorem vwin_read (ii jj : Fin 5) (n m : ℕ) (hn : ii.val = n) (hm : jj.val = m)
    (v : FVec Ideal ⟨4, ![16, 64, 64, 256]⟩ .f32) (z : (⟨0, ![]⟩ : Shape).Idx → EReal)
    (hp : (⟨4, ![16, 64, 64, 256]⟩ : Shape).Pads (![0, 2, 2, 0] : Fin 4 → Nat) ![0, 2, 2, 0] ![0, 0, 0, 0] ⟨4, ![16, 68, 68, 256]⟩)
    (hu : 0 < (⟨0, ![]⟩ : Shape).numel) (hz : z (Shape.Idx.first hu) = 0)
    (hs : (⟨4, ![16, 68, 68, 256]⟩ : Shape).Slices ![0, n, m, 0] ⟨4, ![16, 64, 64, 256]⟩)
    (A : FVec Ideal ⟨4, ![16, 64, 64, 256]⟩ .f32)
    (hA : A = extractStridedSlice ⟨4, ![16, 64, 64, 256]⟩ ![0, n, m, 0]
      (pad ⟨4, ![16, 68, 68, 256]⟩ ![0, 2, 2, 0] ![0, 2, 2, 0] ![0, 0, 0, 0] v z hp hu) hs)
    (b : Fin 16) (h w : Fin 64) (d : Fin 256) :
    A (ix4 b h w d) = pad2 (fun p q => co4 v b p q d) (h.val + ii.val) (w.val + jj.val) := by
  subst hA hn hm
  rw [window_read _ ii.val jj.val (by have := ii.isLt; omega) (by have := jj.isLt; omega) hs, pad_read v z hp hu hz]

/-- One tap's step of the denominator: the array `A` the program computes as the previous denominator plus the channel sum
    of the weight array `W` (a sum started from the rank-0 zero), read at a pixel. -/
theorem norm_read (prev : FVec Ideal ⟨4, ![16, 64, 64, 1]⟩ .f32) (W : FVec Ideal ⟨4, ![16, 64, 64, 256]⟩ .f32)
    (hred : (⟨4, ![16, 64, 64, 256]⟩ : Shape).ReducesTo [3] ⟨3, ![16, 64, 64]⟩) (hu : 0 < (⟨0, ![]⟩ : Shape).numel)
    (hb : (⟨3, ![16, 64, 64]⟩ : Shape).BroadcastsInDim ⟨4, ![16, 64, 64, 1]⟩ ![0, 1, 2])
    (A : FVec Ideal ⟨4, ![16, 64, 64, 1]⟩ .f32)
    (hA : A = addf prev (broadcastInDim ⟨4, ![16, 64, 64, 1]⟩ ![0, 1, 2] hb
      (Host.reduceAdd W (constant (F := Ideal) ⟨0, ![]⟩ .f32 0x00000000#32) hred hu)))
    (b : Fin 16) (h w : Fin 64) :
    A (ix4 b h w ⟨0, Nat.one_pos⟩) = prev (ix4 b h w ⟨0, Nat.one_pos⟩) + ∑ d : Fin 256, W (ix4 b h w d) := by
  subst hA
  show prev _ + broadcastInDim (s := ⟨3, ![16, 64, 64]⟩) ⟨4, ![16, 64, 64, 1]⟩ ![0, 1, 2] hb _ (ix4 b h w ⟨0, Nat.one_pos⟩) = _
  rw [broadcastInDim_apply _ hb _ (ix4 b h w ⟨0, Nat.one_pos⟩) (ix3 b h w) (fun a => match a with
        | ⟨0, _⟩ => by show b.val = if (16 : Nat) = 1 then 0 else b.val; rw [if_neg (by decide)]
        | ⟨1, _⟩ => by show h.val = if (64 : Nat) = 1 then 0 else h.val; rw [if_neg (by decide)]
        | ⟨2, _⟩ => by show w.val = if (64 : Nat) = 1 then 0 else w.val; rw [if_neg (by decide)])]
  simp only [Host.reduceAdd, Ideal.hostReduceAdd_def]
  rw [Ideal.hostReduceAdd_single hred (by decide)]
  show prev _ + (Ideal.ofBits .f32 0x00000000#32 + _) = _
  rw [Ideal.ofBits_zero_f32, zero_add]
  refine congrArg (_ + ·) (Finset.sum_congr rfl fun k _ => ?_)
  exact congrArg W (funext fun a => Fin.ext (by match a with | ⟨0, _⟩ => rfl | ⟨1, _⟩ => rfl | ⟨2, _⟩ => rfl | ⟨3, _⟩ => rfl))

/-- The last stages: the quotient of the numerator `O` by the denominator `N` plus `ε`, read at a pixel and channel. -/
theorem quot_read (O : FVec Ideal ⟨4, ![16, 64, 64, 256]⟩ .f32) (N : FVec Ideal ⟨4, ![16, 64, 64, 1]⟩ .f32)
    (hb0 : (⟨0, ![]⟩ : Shape).BroadcastsInDim ⟨4, ![16, 64, 64, 1]⟩ ![])
    (hb : (⟨4, ![16, 64, 64, 1]⟩ : Shape).BroadcastsInDim ⟨4, ![16, 64, 64, 256]⟩ ![0, 1, 2, 3])
    (A : FVec Ideal ⟨4, ![16, 64, 64, 256]⟩ .f32)
    (hA : A = Host.divf O (broadcastInDim ⟨4, ![16, 64, 64, 256]⟩ ![0, 1, 2, 3] hb
      (addf N (broadcastInDim ⟨4, ![16, 64, 64, 1]⟩ ![] hb0 (constant (F := Ideal) ⟨0, ![]⟩ .f32 0x322BCC77#32)))))
    (b : Fin 16) (h w : Fin 64) (d : Fin 256) :
    A (ix4 b h w d) = Ideal.div (O (ix4 b h w d)) (N (ix4 b h w ⟨0, Nat.one_pos⟩) + eps) := by
  subst hA
  show Ideal.div (O _) (broadcastInDim (s := ⟨4, ![16, 64, 64, 1]⟩) ⟨4, ![16, 64, 64, 256]⟩ ![0, 1, 2, 3] hb _ (ix4 b h w d)) = _
  rw [broadcastInDim_apply _ hb _ (ix4 b h w d) (ix4 b h w ⟨0, Nat.one_pos⟩) (fun a => match a with
        | ⟨0, _⟩ => by show b.val = if (16 : Nat) = 1 then 0 else b.val; rw [if_neg (by decide)]
        | ⟨1, _⟩ => by show h.val = if (64 : Nat) = 1 then 0 else h.val; rw [if_neg (by decide)]
        | ⟨2, _⟩ => by show w.val = if (64 : Nat) = 1 then 0 else w.val; rw [if_neg (by decide)]
        | ⟨3, _⟩ => by show 0 = if (1 : Nat) = 1 then 0 else d.val; rw [if_pos rfl])]
  rfl

end Cert.Attn.Ref

end
-- ==== Proof.RefReadBase.lean ====
/-
  The reference program's projections, zero arrays and padding value read at an index.
-/
import proofs.«107659_j89111981457894_2_alg».proof.Proof.RefReadP
import proofs.«107659_j89111981457894_2_alg».proof.Proof.RefReadLib

noncomputable section

open scoped BigOperators

namespace Cert.Attn.Ref

open Idealize.ShloMosaic Idealize.ShloMosaic.ValueIdx Cert.ReferenceIdeal Cert.ReferenceIdeal.ReadP

/-- The keys the program computes are the projection by the first weight matrix. -/
theorem keys_read (x0 : (⟨4, ![16, 64, 64, 256]⟩ : Shape).Idx → EReal) (x3 : (⟨2, ![256, 256]⟩ : Shape).Idx → EReal) :
    co4 (val_main_v0 (F := Ideal) x0 x3) = proj (co4 x0) (co2 x3) := by
  funext b h w d
  show val_main_v0 (F := Ideal) x0 x3 (ix4 b h w d) = ∑ c : Fin 256, x0 (ix4 b h w c) * x3 (ix2 d c)
  rw [val_main_v0_apply]
  refine Finset.sum_congr rfl fun k _ => ?_
  congr 2
  · funext a; match a with | ⟨0, _⟩ => rfl | ⟨1, _⟩ => rfl | ⟨2, _⟩ => rfl | ⟨3, _⟩ => rfl
  · funext a; match a with | ⟨0, _⟩ => rfl | ⟨1, _⟩ => rfl

/-- The values the program computes are the projection by the second weight matrix. -/
theorem values_read (x0 : (⟨4, ![16, 64, 64, 256]⟩ : Shape).Idx → EReal) (x4 : (⟨2, ![256, 256]⟩ : Shape).Idx → EReal) :
    co4 (val_main_v1 (F := Ideal) x0 x4) = proj (co4 x0) (co2 x4) := by
  funext b h w d
  show val_main_v1 (F := Ideal) x0 x4 (ix4 b h w d) = ∑ c : Fin 256, x0 (ix4 b h w c) * x4 (ix2 d c)
  rw [val_main_v1_apply]
  refine Finset.sum_congr rfl fun k _ => ?_
  congr 2
  · funext a; match a with | ⟨0, _⟩ => rfl | ⟨1, _⟩ => rfl | ⟨2, _⟩ => rfl | ⟨3, _⟩ => rfl
  · funext a; match a with | ⟨0, _⟩ => rfl | ⟨1, _⟩ => rfl

/-- The numerator starts from the zero array. -/
theorem out_zero (i : (⟨4, ![16, 64, 64, 256]⟩ : Shape).Idx) : val_main_v6 (F := Ideal) i = 0 := by
  rw [val_main_v6_apply, val_main_cst_apply]
  exact Ideal.ofBits_zero_f32

/-- The denominator starts from the zero array. -/
theorem norm_zero (i : (⟨4, ![16, 64, 64, 1]⟩ : Shape).Idx) : val_main_v7 (F := Ideal) i = 0 := by
  rw [val_main_v7_apply, val_main_cst_1_apply]
  exact Ideal.ofBits_zero_f32

end Cert.Attn.Ref

end
-- ==== Proof.RefReadRow0.lean ====
/-
  Window row 0 of the reference program (taps 0 to 4): each tap's bits, weight array and window of the padded values read at an index, and the numerator and denominator after the tap as the specification's recursion.
-/
import proofs.«107659_j89111981457894_2_alg».proof.Proof.RefReadBase

noncomputable section

open scoped BigOperators

namespace Cert.Attn.Ref

open Idealize.ShloMosaic Idealize.ShloMosaic.ValueIdx Cert.ReferenceIdeal Cert.ReferenceIdeal.ReadP

/-- Window row 0: the row bits. -/
theorem rowbits_0 (h : Fin 64) :
    val_main_v16 (F := Ideal) (ix1 h) = if 2 ≤ h.val + 0 ∧ h.val + 0 < 66 then 1#1 else 0#1 :=
  bits_read 4294967294#32 0 (by decide) (by decide) _ rfl h

/-- Tap 0 (window row 0, column 0): the column bits. -/
theorem colbits_0 (w : Fin 64) :
    val_main_v25 (F := Ideal) (ix1 w) = if 2 ≤ w.val + 0 ∧ w.val + 0 < 66 then 1#1 else 0#1 :=
  bits_read 4294967294#32 0 (by decide) (by decide) _ rfl w

/-- Tap 0: the weight array. -/
theorem wgt_0 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v59 (F := Ideal) x0 x1 x2 x3 (ix4 b h w d)
      = wgtR (co4 (val_main_v0 (F := Ideal) x0 x3)) (co1 x1) (co1 x2) (tapI 0) (tapJ 0) b h w d :=
  wgt_read (tapI 0) (tapJ 0) 0 0 rfl rfl 4294967294#32 4294967294#32 (by decide) (by decide)
    (val_main_v0 (F := Ideal) x0 x3) (val_main_call0_v0 (F := Ideal)) _ _ (padval_zero _) x1 x2
    (val_main_v16 (F := Ideal)) (val_main_v25 (F := Ideal)) rowbits_0 colbits_0 (by decide) (by decide) (by decide)
    (val_main_v59 (F := Ideal) x0 x1 x2 x3) rfl b h w d

/-- Tap 0: the window of the padded values. -/
theorem vwin_0 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v52 (F := Ideal) x0 x4 (ix4 b h w d)
      = pad2 (fun p q => co4 (val_main_v1 (F := Ideal) x0 x4) b p q d) (h.val + (tapI 0).val) (w.val + (tapJ 0).val) :=
  vwin_read (tapI 0) (tapJ 0) 0 0 rfl rfl (val_main_v1 (F := Ideal) x0 x4) (val_main_call1_v0 (F := Ideal)) _ _ (padval_zero _)
    (by decide) (val_main_v52 (F := Ideal) x0 x4) rfl b h w d

/-- After tap 0 the numerator is the specification's after 1 taps. -/
theorem out_0 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v61 (F := Ideal) x0 x1 x2 x3 x4 (ix4 b h w d)
      = refOut (co4 (val_main_v0 (F := Ideal) x0 x3)) (co4 (val_main_v1 (F := Ideal) x0 x4)) (co1 x1) (co1 x2) (0 + 1) b h w d := by
  show val_main_v6 (F := Ideal) (ix4 b h w d) + val_main_v59 (F := Ideal) x0 x1 x2 x3 (ix4 b h w d) * val_main_v52 (F := Ideal) x0 x4 (ix4 b h w d) = _
  rw [out_zero, wgt_0 x0 x1 x2 x3 x4, vwin_0 x0 x1 x2 x3 x4]
  rfl

/-- After tap 0 the denominator is the specification's after 1 taps. -/
theorem norm_0 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v64 (F := Ideal) x0 x1 x2 x3 (ix4 b h w ⟨0, Nat.one_pos⟩)
      = refNorm (co4 (val_main_v0 (F := Ideal) x0 x3)) (co1 x1) (co1 x2) (0 + 1) b h w := by
  rw [norm_read (val_main_v7 (F := Ideal)) (val_main_v59 (F := Ideal) x0 x1 x2 x3) _ _ _ (val_main_v64 (F := Ideal) x0 x1 x2 x3) rfl b h w,
    norm_zero]
  simp only [wgt_0 x0 x1 x2 x3 x4]
  rfl

/-- Tap 1 (window row 0, column 1): the column bits. -/
theorem colbits_1 (w : Fin 64) :
    val_main_v73 (F := Ideal) (ix1 w) = if 2 ≤ w.val + 1 ∧ w.val + 1 < 66 then 1#1 else 0#1 :=
  bits_read 4294967295#32 1 (by decide) (by decide) _ rfl w

/-- Tap 1: the weight array. -/
theorem wgt_1 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v107 (F := Ideal) x0 x1 x2 x3 (ix4 b h w d)
      = wgtR (co4 (val_main_v0 (F := Ideal) x0 x3)) (co1 x1) (co1 x2) (tapI 1) (tapJ 1) b h w d :=
  wgt_read (tapI 1) (tapJ 1) 0 1 rfl rfl 4294967294#32 4294967295#32 (by decide) (by decide)
    (val_main_v0 (F := Ideal) x0 x3) (val_main_call0_v0 (F := Ideal)) _ _ (padval_zero _) x1 x2
    (val_main_v16 (F := Ideal)) (val_main_v73 (F := Ideal)) rowbits_0 colbits_1 (by decide) (by decide) (by decide)
    (val_main_v107 (F := Ideal) x0 x1 x2 x3) rfl b h w d

/-- Tap 1: the window of the padded values. -/
theorem vwin_1 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v100 (F := Ideal) x0 x4 (ix4 b h w d)
      = pad2 (fun p q => co4 (val_main_v1 (F := Ideal) x0 x4) b p q d) (h.val + (tapI 1).val) (w.val + (tapJ 1).val) :=
  vwin_read (tapI 1) (tapJ 1) 0 1 rfl rfl (val_main_v1 (F := Ideal) x0 x4) (val_main_call1_v0 (F := Ideal)) _ _ (padval_zero _)
    (by decide) (val_main_v100 (F := Ideal) x0 x4) rfl b h w d

/-- After tap 1 the numerator is the specification's after 2 taps. -/
theorem out_1 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v109 (F := Ideal) x0 x1 x2 x3 x4 (ix4 b h w d)
      = refOut (co4 (val_main_v0 (F := Ideal) x0 x3)) (co4 (val_main_v1 (F := Ideal) x0 x4)) (co1 x1) (co1 x2) (1 + 1) b h w d := by
  show val_main_v61 (F := Ideal) x0 x1 x2 x3 x4 (ix4 b h w d) + val_main_v107 (F := Ideal) x0 x1 x2 x3 (ix4 b h w d) * val_main_v100 (F := Ideal) x0 x4 (ix4 b h w d) = _
  rw [out_0 x0 x1 x2 x3 x4, wgt_1 x0 x1 x2 x3 x4, vwin_1 x0 x1 x2 x3 x4]
  rfl

/-- After tap 1 the denominator is the specification's after 2 taps. -/
theorem norm_1 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v112 (F := Ideal) x0 x1 x2 x3 (ix4 b h w ⟨0, Nat.one_pos⟩)
      = refNorm (co4 (val_main_v0 (F := Ideal) x0 x3)) (co1 x1) (co1 x2) (1 + 1) b h w := by
  rw [norm_read (val_main_v64 (F := Ideal) x0 x1 x2 x3) (val_main_v107 (F := Ideal) x0 x1 x2 x3) _ _ _ (val_main_v112 (F := Ideal) x0 x1 x2 x3) rfl b h w,
    norm_0 x0 x1 x2 x3 x4]
  simp only [wgt_1 x0 x1 x2 x3 x4]
  rfl

/-- Tap 2 (window row 0, column 2): the column bits. -/
theorem colbits_2 (w : Fin 64) :
    val_main_v121 (F := Ideal) (ix1 w) = if 2 ≤ w.val + 2 ∧ w.val + 2 < 66 then 1#1 else 0#1 :=
  bits_read 0#32 2 (by decide) (by decide) _ rfl w

/-- Tap 2: the weight array. -/
theorem wgt_2 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v155 (F := Ideal) x0 x1 x2 x3 (ix4 b h w d)
      = wgtR (co4 (val_main_v0 (F := Ideal) x0 x3)) (co1 x1) (co1 x2) (tapI 2) (tapJ 2) b h w d :=
  wgt_read (tapI 2) (tapJ 2) 0 2 rfl rfl 4294967294#32 0#32 (by decide) (by decide)
    (val_main_v0 (F := Ideal) x0 x3) (val_main_call0_v0 (F := Ideal)) _ _ (padval_zero _) x1 x2
    (val_main_v16 (F := Ideal)) (val_main_v121 (F := Ideal)) rowbits_0 colbits_2 (by decide) (by decide) (by decide)
    (val_main_v155 (F := Ideal) x0 x1 x2 x3) rfl b h w d

/-- Tap 2: the window of the padded values. -/
theorem vwin_2 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v148 (F := Ideal) x0 x4 (ix4 b h w d)
      = pad2 (fun p q => co4 (val_main_v1 (F := Ideal) x0 x4) b p q d) (h.val + (tapI 2).val) (w.val + (tapJ 2).val) :=
  vwin_read (tapI 2) (tapJ 2) 0 2 rfl rfl (val_main_v1 (F := Ideal) x0 x4) (val_main_call1_v0 (F := Ideal)) _ _ (padval_zero _)
    (by decide) (val_main_v148 (F := Ideal) x0 x4) rfl b h w d

/-- After tap 2 the numerator is the specification's after 3 taps. -/
theorem out_2 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v157 (F := Ideal) x0 x1 x2 x3 x4 (ix4 b h w d)
      = refOut (co4 (val_main_v0 (F := Ideal) x0 x3)) (co4 (val_main_v1 (F := Ideal) x0 x4)) (co1 x1) (co1 x2) (2 + 1) b h w d := by
  show val_main_v109 (F := Ideal) x0 x1 x2 x3 x4 (ix4 b h w d) + val_main_v155 (F := Ideal) x0 x1 x2 x3 (ix4 b h w d) * val_main_v148 (F := Ideal) x0 x4 (ix4 b h w d) = _
  rw [out_1 x0 x1 x2 x3 x4, wgt_2 x0 x1 x2 x3 x4, vwin_2 x0 x1 x2 x3 x4]
  rfl

/-- After tap 2 the denominator is the specification's after 3 taps. -/
theorem norm_2 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v160 (F := Ideal) x0 x1 x2 x3 (ix4 b h w ⟨0, Nat.one_pos⟩)
      = refNorm (co4 (val_main_v0 (F := Ideal) x0 x3)) (co1 x1) (co1 x2) (2 + 1) b h w := by
  rw [norm_read (val_main_v112 (F := Ideal) x0 x1 x2 x3) (val_main_v155 (F := Ideal) x0 x1 x2 x3) _ _ _ (val_main_v160 (F := Ideal) x0 x1 x2 x3) rfl b h w,
    norm_1 x0 x1 x2 x3 x4]
  simp only [wgt_2 x0 x1 x2 x3 x4]
  rfl

/-- Tap 3 (window row 0, column 3): the column bits. -/
theorem colbits_3 (w : Fin 64) :
    val_main_v169 (F := Ideal) (ix1 w) = if 2 ≤ w.val + 3 ∧ w.val + 3 < 66 then 1#1 else 0#1 :=
  bits_read 1#32 3 (by decide) (by decide) _ rfl w

/-- Tap 3: the weight array. -/
theorem wgt_3 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v203 (F := Ideal) x0 x1 x2 x3 (ix4 b h w d)
      = wgtR (co4 (val_main_v0 (F := Ideal) x0 x3)) (co1 x1) (co1 x2) (tapI 3) (tapJ 3) b h w d :=
  wgt_read (tapI 3) (tapJ 3) 0 3 rfl rfl 4294967294#32 1#32 (by decide) (by decide)
    (val_main_v0 (F := Ideal) x0 x3) (val_main_call0_v0 (F := Ideal)) _ _ (padval_zero _) x1 x2
    (val_main_v16 (F := Ideal)) (val_main_v169 (F := Ideal)) rowbits_0 colbits_3 (by decide) (by decide) (by decide)
    (val_main_v203 (F := Ideal) x0 x1 x2 x3) rfl b h w d

/-- Tap 3: the window of the padded values. -/
theorem vwin_3 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v196 (F := Ideal) x0 x4 (ix4 b h w d)
      = pad2 (fun p q => co4 (val_main_v1 (F := Ideal) x0 x4) b p q d) (h.val + (tapI 3).val) (w.val + (tapJ 3).val) :=
  vwin_read (tapI 3) (tapJ 3) 0 3 rfl rfl (val_main_v1 (F := Ideal) x0 x4) (val_main_call1_v0 (F := Ideal)) _ _ (padval_zero _)
    (by decide) (val_main_v196 (F := Ideal) x0 x4) rfl b h w d

/-- After tap 3 the numerator is the specification's after 4 taps. -/
theorem out_3 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v205 (F := Ideal) x0 x1 x2 x3 x4 (ix4 b h w d)
      = refOut (co4 (val_main_v0 (F := Ideal) x0 x3)) (co4 (val_main_v1 (F := Ideal) x0 x4)) (co1 x1) (co1 x2) (3 + 1) b h w d := by
  show val_main_v157 (F := Ideal) x0 x1 x2 x3 x4 (ix4 b h w d) + val_main_v203 (F := Ideal) x0 x1 x2 x3 (ix4 b h w d) * val_main_v196 (F := Ideal) x0 x4 (ix4 b h w d) = _
  rw [out_2 x0 x1 x2 x3 x4, wgt_3 x0 x1 x2 x3 x4, vwin_3 x0 x1 x2 x3 x4]
  rfl

/-- After tap 3 the denominator is the specification's after 4 taps. -/
theorem norm_3 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v208 (F := Ideal) x0 x1 x2 x3 (ix4 b h w ⟨0, Nat.one_pos⟩)
      = refNorm (co4 (val_main_v0 (F := Ideal) x0 x3)) (co1 x1) (co1 x2) (3 + 1) b h w := by
  rw [norm_read (val_main_v160 (F := Ideal) x0 x1 x2 x3) (val_main_v203 (F := Ideal) x0 x1 x2 x3) _ _ _ (val_main_v208 (F := Ideal) x0 x1 x2 x3) rfl b h w,
    norm_2 x0 x1 x2 x3 x4]
  simp only [wgt_3 x0 x1 x2 x3 x4]
  rfl

/-- Tap 4 (window row 0, column 4): the column bits. -/
theorem colbits_4 (w : Fin 64) :
    val_main_v217 (F := Ideal) (ix1 w) = if 2 ≤ w.val + 4 ∧ w.val + 4 < 66 then 1#1 else 0#1 :=
  bits_read 2#32 4 (by decide) (by decide) _ rfl w

/-- Tap 4: the weight array. -/
theorem wgt_4 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v251 (F := Ideal) x0 x1 x2 x3 (ix4 b h w d)
      = wgtR (co4 (val_main_v0 (F := Ideal) x0 x3)) (co1 x1) (co1 x2) (tapI 4) (tapJ 4) b h w d :=
  wgt_read (tapI 4) (tapJ 4) 0 4 rfl rfl 4294967294#32 2#32 (by decide) (by decide)
    (val_main_v0 (F := Ideal) x0 x3) (val_main_call0_v0 (F := Ideal)) _ _ (padval_zero _) x1 x2
    (val_main_v16 (F := Ideal)) (val_main_v217 (F := Ideal)) rowbits_0 colbits_4 (by decide) (by decide) (by decide)
    (val_main_v251 (F := Ideal) x0 x1 x2 x3) rfl b h w d

/-- Tap 4: the window of the padded values. -/
theorem vwin_4 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v244 (F := Ideal) x0 x4 (ix4 b h w d)
      = pad2 (fun p q => co4 (val_main_v1 (F := Ideal) x0 x4) b p q d) (h.val + (tapI 4).val) (w.val + (tapJ 4).val) :=
  vwin_read (tapI 4) (tapJ 4) 0 4 rfl rfl (val_main_v1 (F := Ideal) x0 x4) (val_main_call1_v0 (F := Ideal)) _ _ (padval_zero _)
    (by decide) (val_main_v244 (F := Ideal) x0 x4) rfl b h w d

/-- After tap 4 the numerator is the specification's after 5 taps. -/
theorem out_4 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v253 (F := Ideal) x0 x1 x2 x3 x4 (ix4 b h w d)
      = refOut (co4 (val_main_v0 (F := Ideal) x0 x3)) (co4 (val_main_v1 (F := Ideal) x0 x4)) (co1 x1) (co1 x2) (4 + 1) b h w d := by
  show val_main_v205 (F := Ideal) x0 x1 x2 x3 x4 (ix4 b h w d) + val_main_v251 (F := Ideal) x0 x1 x2 x3 (ix4 b h w d) * val_main_v244 (F := Ideal) x0 x4 (ix4 b h w d) = _
  rw [out_3 x0 x1 x2 x3 x4, wgt_4 x0 x1 x2 x3 x4, vwin_4 x0 x1 x2 x3 x4]
  rfl

/-- After tap 4 the denominator is the specification's after 5 taps. -/
theorem norm_4 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v256 (F := Ideal) x0 x1 x2 x3 (ix4 b h w ⟨0, Nat.one_pos⟩)
      = refNorm (co4 (val_main_v0 (F := Ideal) x0 x3)) (co1 x1) (co1 x2) (4 + 1) b h w := by
  rw [norm_read (val_main_v208 (F := Ideal) x0 x1 x2 x3) (val_main_v251 (F := Ideal) x0 x1 x2 x3) _ _ _ (val_main_v256 (F := Ideal) x0 x1 x2 x3) rfl b h w,
    norm_3 x0 x1 x2 x3 x4]
  simp only [wgt_4 x0 x1 x2 x3 x4]
  rfl

end Cert.Attn.Ref

end
-- ==== Proof.RefReadRow1.lean ====
/-
  Window row 1 of the reference program (taps 5 to 9): each tap's bits, weight array and window of the padded values read at an index, and the numerator and denominator after the tap as the specification's recursion.
-/
import proofs.«107659_j89111981457894_2_alg».proof.Proof.RefReadRow0

noncomputable section

open scoped BigOperators

namespace Cert.Attn.Ref

open Idealize.ShloMosaic Idealize.ShloMosaic.ValueIdx Cert.ReferenceIdeal Cert.ReferenceIdeal.ReadP

/-- Window row 1: the row bits. -/
theorem rowbits_1 (h : Fin 64) :
    val_main_v265 (F := Ideal) (ix1 h) = if 2 ≤ h.val + 1 ∧ h.val + 1 < 66 then 1#1 else 0#1 :=
  bits_read 4294967295#32 1 (by decide) (by decide) _ rfl h

/-- Tap 5 (window row 1, column 0): the column bits. -/
theorem colbits_5 (w : Fin 64) :
    val_main_v274 (F := Ideal) (ix1 w) = if 2 ≤ w.val + 0 ∧ w.val + 0 < 66 then 1#1 else 0#1 :=
  bits_read 4294967294#32 0 (by decide) (by decide) _ rfl w

/-- Tap 5: the weight array. -/
theorem wgt_5 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v308 (F := Ideal) x0 x1 x2 x3 (ix4 b h w d)
      = wgtR (co4 (val_main_v0 (F := Ideal) x0 x3)) (co1 x1) (co1 x2) (tapI 5) (tapJ 5) b h w d :=
  wgt_read (tapI 5) (tapJ 5) 1 0 rfl rfl 4294967295#32 4294967294#32 (by decide) (by decide)
    (val_main_v0 (F := Ideal) x0 x3) (val_main_call0_v0 (F := Ideal)) _ _ (padval_zero _) x1 x2
    (val_main_v265 (F := Ideal)) (val_main_v274 (F := Ideal)) rowbits_1 colbits_5 (by decide) (by decide) (by decide)
    (val_main_v308 (F := Ideal) x0 x1 x2 x3) rfl b h w d

/-- Tap 5: the window of the padded values. -/
theorem vwin_5 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v301 (F := Ideal) x0 x4 (ix4 b h w d)
      = pad2 (fun p q => co4 (val_main_v1 (F := Ideal) x0 x4) b p q d) (h.val + (tapI 5).val) (w.val + (tapJ 5).val) :=
  vwin_read (tapI 5) (tapJ 5) 1 0 rfl rfl (val_main_v1 (F := Ideal) x0 x4) (val_main_call1_v0 (F := Ideal)) _ _ (padval_zero _)
    (by decide) (val_main_v301 (F := Ideal) x0 x4) rfl b h w d

/-- After tap 5 the numerator is the specification's after 6 taps. -/
theorem out_5 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v310 (F := Ideal) x0 x1 x2 x3 x4 (ix4 b h w d)
      = refOut (co4 (val_main_v0 (F := Ideal) x0 x3)) (co4 (val_main_v1 (F := Ideal) x0 x4)) (co1 x1) (co1 x2) (5 + 1) b h w d := by
  show val_main_v253 (F := Ideal) x0 x1 x2 x3 x4 (ix4 b h w d) + val_main_v308 (F := Ideal) x0 x1 x2 x3 (ix4 b h w d) * val_main_v301 (F := Ideal) x0 x4 (ix4 b h w d) = _
  rw [out_4 x0 x1 x2 x3 x4, wgt_5 x0 x1 x2 x3 x4, vwin_5 x0 x1 x2 x3 x4]
  rfl

/-- After tap 5 the denominator is the specification's after 6 taps. -/
theorem norm_5 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v313 (F := Ideal) x0 x1 x2 x3 (ix4 b h w ⟨0, Nat.one_pos⟩)
      = refNorm (co4 (val_main_v0 (F := Ideal) x0 x3)) (co1 x1) (co1 x2) (5 + 1) b h w := by
  rw [norm_read (val_main_v256 (F := Ideal) x0 x1 x2 x3) (val_main_v308 (F := Ideal) x0 x1 x2 x3) _ _ _ (val_main_v313 (F := Ideal) x0 x1 x2 x3) rfl b h w,
    norm_4 x0 x1 x2 x3 x4]
  simp only [wgt_5 x0 x1 x2 x3 x4]
  rfl

/-- Tap 6 (window row 1, column 1): the column bits. -/
theorem colbits_6 (w : Fin 64) :
    val_main_v322 (F := Ideal) (ix1 w) = if 2 ≤ w.val + 1 ∧ w.val + 1 < 66 then 1#1 else 0#1 :=
  bits_read 4294967295#32 1 (by decide) (by decide) _ rfl w

/-- Tap 6: the weight array. -/
theorem wgt_6 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v356 (F := Ideal) x0 x1 x2 x3 (ix4 b h w d)
      = wgtR (co4 (val_main_v0 (F := Ideal) x0 x3)) (co1 x1) (co1 x2) (tapI 6) (tapJ 6) b h w d :=
  wgt_read (tapI 6) (tapJ 6) 1 1 rfl rfl 4294967295#32 4294967295#32 (by decide) (by decide)
    (val_main_v0 (F := Ideal) x0 x3) (val_main_call0_v0 (F := Ideal)) _ _ (padval_zero _) x1 x2
    (val_main_v265 (F := Ideal)) (val_main_v322 (F := Ideal)) rowbits_1 colbits_6 (by decide) (by decide) (by decide)
    (val_main_v356 (F := Ideal) x0 x1 x2 x3) rfl b h w d

/-- Tap 6: the window of the padded values. -/
theorem vwin_6 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v349 (F := Ideal) x0 x4 (ix4 b h w d)
      = pad2 (fun p q => co4 (val_main_v1 (F := Ideal) x0 x4) b p q d) (h.val + (tapI 6).val) (w.val + (tapJ 6).val) :=
  vwin_read (tapI 6) (tapJ 6) 1 1 rfl rfl (val_main_v1 (F := Ideal) x0 x4) (val_main_call1_v0 (F := Ideal)) _ _ (padval_zero _)
    (by decide) (val_main_v349 (F := Ideal) x0 x4) rfl b h w d

/-- After tap 6 the numerator is the specification's after 7 taps. -/
theorem out_6 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v358 (F := Ideal) x0 x1 x2 x3 x4 (ix4 b h w d)
      = refOut (co4 (val_main_v0 (F := Ideal) x0 x3)) (co4 (val_main_v1 (F := Ideal) x0 x4)) (co1 x1) (co1 x2) (6 + 1) b h w d := by
  show val_main_v310 (F := Ideal) x0 x1 x2 x3 x4 (ix4 b h w d) + val_main_v356 (F := Ideal) x0 x1 x2 x3 (ix4 b h w d) * val_main_v349 (F := Ideal) x0 x4 (ix4 b h w d) = _
  rw [out_5 x0 x1 x2 x3 x4, wgt_6 x0 x1 x2 x3 x4, vwin_6 x0 x1 x2 x3 x4]
  rfl

/-- After tap 6 the denominator is the specification's after 7 taps. -/
theorem norm_6 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v361 (F := Ideal) x0 x1 x2 x3 (ix4 b h w ⟨0, Nat.one_pos⟩)
      = refNorm (co4 (val_main_v0 (F := Ideal) x0 x3)) (co1 x1) (co1 x2) (6 + 1) b h w := by
  rw [norm_read (val_main_v313 (F := Ideal) x0 x1 x2 x3) (val_main_v356 (F := Ideal) x0 x1 x2 x3) _ _ _ (val_main_v361 (F := Ideal) x0 x1 x2 x3) rfl b h w,
    norm_5 x0 x1 x2 x3 x4]
  simp only [wgt_6 x0 x1 x2 x3 x4]
  rfl

/-- Tap 7 (window row 1, column 2): the column bits. -/
theorem colbits_7 (w : Fin 64) :
    val_main_v370 (F := Ideal) (ix1 w) = if 2 ≤ w.val + 2 ∧ w.val + 2 < 66 then 1#1 else 0#1 :=
  bits_read 0#32 2 (by decide) (by decide) _ rfl w

/-- Tap 7: the weight array. -/
theorem wgt_7 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v404 (F := Ideal) x0 x1 x2 x3 (ix4 b h w d)
      = wgtR (co4 (val_main_v0 (F := Ideal) x0 x3)) (co1 x1) (co1 x2) (tapI 7) (tapJ 7) b h w d :=
  wgt_read (tapI 7) (tapJ 7) 1 2 rfl rfl 4294967295#32 0#32 (by decide) (by decide)
    (val_main_v0 (F := Ideal) x0 x3) (val_main_call0_v0 (F := Ideal)) _ _ (padval_zero _) x1 x2
    (val_main_v265 (F := Ideal)) (val_main_v370 (F := Ideal)) rowbits_1 colbits_7 (by decide) (by decide) (by decide)
    (val_main_v404 (F := Ideal) x0 x1 x2 x3) rfl b h w d

/-- Tap 7: the window of the padded values. -/
theorem vwin_7 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v397 (F := Ideal) x0 x4 (ix4 b h w d)
      = pad2 (fun p q => co4 (val_main_v1 (F := Ideal) x0 x4) b p q d) (h.val + (tapI 7).val) (w.val + (tapJ 7).val) :=
  vwin_read (tapI 7) (tapJ 7) 1 2 rfl rfl (val_main_v1 (F := Ideal) x0 x4) (val_main_call1_v0 (F := Ideal)) _ _ (padval_zero _)
    (by decide) (val_main_v397 (F := Ideal) x0 x4) rfl b h w d

/-- After tap 7 the numerator is the specification's after 8 taps. -/
theorem out_7 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v406 (F := Ideal) x0 x1 x2 x3 x4 (ix4 b h w d)
      = refOut (co4 (val_main_v0 (F := Ideal) x0 x3)) (co4 (val_main_v1 (F := Ideal) x0 x4)) (co1 x1) (co1 x2) (7 + 1) b h w d := by
  show val_main_v358 (F := Ideal) x0 x1 x2 x3 x4 (ix4 b h w d) + val_main_v404 (F := Ideal) x0 x1 x2 x3 (ix4 b h w d) * val_main_v397 (F := Ideal) x0 x4 (ix4 b h w d) = _
  rw [out_6 x0 x1 x2 x3 x4, wgt_7 x0 x1 x2 x3 x4, vwin_7 x0 x1 x2 x3 x4]
  rfl

/-- After tap 7 the denominator is the specification's after 8 taps. -/
theorem norm_7 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v409 (F := Ideal) x0 x1 x2 x3 (ix4 b h w ⟨0, Nat.one_pos⟩)
      = refNorm (co4 (val_main_v0 (F := Ideal) x0 x3)) (co1 x1) (co1 x2) (7 + 1) b h w := by
  rw [norm_read (val_main_v361 (F := Ideal) x0 x1 x2 x3) (val_main_v404 (F := Ideal) x0 x1 x2 x3) _ _ _ (val_main_v409 (F := Ideal) x0 x1 x2 x3) rfl b h w,
    norm_6 x0 x1 x2 x3 x4]
  simp only [wgt_7 x0 x1 x2 x3 x4]
  rfl

/-- Tap 8 (window row 1, column 3): the column bits. -/
theorem colbits_8 (w : Fin 64) :
    val_main_v418 (F := Ideal) (ix1 w) = if 2 ≤ w.val + 3 ∧ w.val + 3 < 66 then 1#1 else 0#1 :=
  bits_read 1#32 3 (by decide) (by decide) _ rfl w

/-- Tap 8: the weight array. -/
theorem wgt_8 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v452 (F := Ideal) x0 x1 x2 x3 (ix4 b h w d)
      = wgtR (co4 (val_main_v0 (F := Ideal) x0 x3)) (co1 x1) (co1 x2) (tapI 8) (tapJ 8) b h w d :=
  wgt_read (tapI 8) (tapJ 8) 1 3 rfl rfl 4294967295#32 1#32 (by decide) (by decide)
    (val_main_v0 (F := Ideal) x0 x3) (val_main_call0_v0 (F := Ideal)) _ _ (padval_zero _) x1 x2
    (val_main_v265 (F := Ideal)) (val_main_v418 (F := Ideal)) rowbits_1 colbits_8 (by decide) (by decide) (by decide)
    (val_main_v452 (F := Ideal) x0 x1 x2 x3) rfl b h w d

/-- Tap 8: the window of the padded values. -/
theorem vwin_8 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v445 (F := Ideal) x0 x4 (ix4 b h w d)
      = pad2 (fun p q => co4 (val_main_v1 (F := Ideal) x0 x4) b p q d) (h.val + (tapI 8).val) (w.val + (tapJ 8).val) :=
  vwin_read (tapI 8) (tapJ 8) 1 3 rfl rfl (val_main_v1 (F := Ideal) x0 x4) (val_main_call1_v0 (F := Ideal)) _ _ (padval_zero _)
    (by decide) (val_main_v445 (F := Ideal) x0 x4) rfl b h w d

/-- After tap 8 the numerator is the specification's after 9 taps. -/
theorem out_8 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v454 (F := Ideal) x0 x1 x2 x3 x4 (ix4 b h w d)
      = refOut (co4 (val_main_v0 (F := Ideal) x0 x3)) (co4 (val_main_v1 (F := Ideal) x0 x4)) (co1 x1) (co1 x2) (8 + 1) b h w d := by
  show val_main_v406 (F := Ideal) x0 x1 x2 x3 x4 (ix4 b h w d) + val_main_v452 (F := Ideal) x0 x1 x2 x3 (ix4 b h w d) * val_main_v445 (F := Ideal) x0 x4 (ix4 b h w d) = _
  rw [out_7 x0 x1 x2 x3 x4, wgt_8 x0 x1 x2 x3 x4, vwin_8 x0 x1 x2 x3 x4]
  rfl

/-- After tap 8 the denominator is the specification's after 9 taps. -/
theorem norm_8 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v457 (F := Ideal) x0 x1 x2 x3 (ix4 b h w ⟨0, Nat.one_pos⟩)
      = refNorm (co4 (val_main_v0 (F := Ideal) x0 x3)) (co1 x1) (co1 x2) (8 + 1) b h w := by
  rw [norm_read (val_main_v409 (F := Ideal) x0 x1 x2 x3) (val_main_v452 (F := Ideal) x0 x1 x2 x3) _ _ _ (val_main_v457 (F := Ideal) x0 x1 x2 x3) rfl b h w,
    norm_7 x0 x1 x2 x3 x4]
  simp only [wgt_8 x0 x1 x2 x3 x4]
  rfl

/-- Tap 9 (window row 1, column 4): the column bits. -/
theorem colbits_9 (w : Fin 64) :
    val_main_v466 (F := Ideal) (ix1 w) = if 2 ≤ w.val + 4 ∧ w.val + 4 < 66 then 1#1 else 0#1 :=
  bits_read 2#32 4 (by decide) (by decide) _ rfl w

/-- Tap 9: the weight array. -/
theorem wgt_9 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v500 (F := Ideal) x0 x1 x2 x3 (ix4 b h w d)
      = wgtR (co4 (val_main_v0 (F := Ideal) x0 x3)) (co1 x1) (co1 x2) (tapI 9) (tapJ 9) b h w d :=
  wgt_read (tapI 9) (tapJ 9) 1 4 rfl rfl 4294967295#32 2#32 (by decide) (by decide)
    (val_main_v0 (F := Ideal) x0 x3) (val_main_call0_v0 (F := Ideal)) _ _ (padval_zero _) x1 x2
    (val_main_v265 (F := Ideal)) (val_main_v466 (F := Ideal)) rowbits_1 colbits_9 (by decide) (by decide) (by decide)
    (val_main_v500 (F := Ideal) x0 x1 x2 x3) rfl b h w d

/-- Tap 9: the window of the padded values. -/
theorem vwin_9 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v493 (F := Ideal) x0 x4 (ix4 b h w d)
      = pad2 (fun p q => co4 (val_main_v1 (F := Ideal) x0 x4) b p q d) (h.val + (tapI 9).val) (w.val + (tapJ 9).val) :=
  vwin_read (tapI 9) (tapJ 9) 1 4 rfl rfl (val_main_v1 (F := Ideal) x0 x4) (val_main_call1_v0 (F := Ideal)) _ _ (padval_zero _)
    (by decide) (val_main_v493 (F := Ideal) x0 x4) rfl b h w d

/-- After tap 9 the numerator is the specification's after 10 taps. -/
theorem out_9 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v502 (F := Ideal) x0 x1 x2 x3 x4 (ix4 b h w d)
      = refOut (co4 (val_main_v0 (F := Ideal) x0 x3)) (co4 (val_main_v1 (F := Ideal) x0 x4)) (co1 x1) (co1 x2) (9 + 1) b h w d := by
  show val_main_v454 (F := Ideal) x0 x1 x2 x3 x4 (ix4 b h w d) + val_main_v500 (F := Ideal) x0 x1 x2 x3 (ix4 b h w d) * val_main_v493 (F := Ideal) x0 x4 (ix4 b h w d) = _
  rw [out_8 x0 x1 x2 x3 x4, wgt_9 x0 x1 x2 x3 x4, vwin_9 x0 x1 x2 x3 x4]
  rfl

/-- After tap 9 the denominator is the specification's after 10 taps. -/
theorem norm_9 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v505 (F := Ideal) x0 x1 x2 x3 (ix4 b h w ⟨0, Nat.one_pos⟩)
      = refNorm (co4 (val_main_v0 (F := Ideal) x0 x3)) (co1 x1) (co1 x2) (9 + 1) b h w := by
  rw [norm_read (val_main_v457 (F := Ideal) x0 x1 x2 x3) (val_main_v500 (F := Ideal) x0 x1 x2 x3) _ _ _ (val_main_v505 (F := Ideal) x0 x1 x2 x3) rfl b h w,
    norm_8 x0 x1 x2 x3 x4]
  simp only [wgt_9 x0 x1 x2 x3 x4]
  rfl

end Cert.Attn.Ref

end
-- ==== Proof.RefReadRow2.lean ====
/-
  Window row 2 of the reference program (taps 10 to 14): each tap's bits, weight array and window of the padded values read at an index, and the numerator and denominator after the tap as the specification's recursion.
-/
import proofs.«107659_j89111981457894_2_alg».proof.Proof.RefReadRow1

noncomputable section

open scoped BigOperators

namespace Cert.Attn.Ref

open Idealize.ShloMosaic Idealize.ShloMosaic.ValueIdx Cert.ReferenceIdeal Cert.ReferenceIdeal.ReadP

/-- Window row 2: the row bits. -/
theorem rowbits_2 (h : Fin 64) :
    val_main_v514 (F := Ideal) (ix1 h) = if 2 ≤ h.val + 2 ∧ h.val + 2 < 66 then 1#1 else 0#1 :=
  bits_read 0#32 2 (by decide) (by decide) _ rfl h

/-- Tap 10 (window row 2, column 0): the column bits. -/
theorem colbits_10 (w : Fin 64) :
    val_main_v523 (F := Ideal) (ix1 w) = if 2 ≤ w.val + 0 ∧ w.val + 0 < 66 then 1#1 else 0#1 :=
  bits_read 4294967294#32 0 (by decide) (by decide) _ rfl w

/-- Tap 10: the weight array. -/
theorem wgt_10 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v557 (F := Ideal) x0 x1 x2 x3 (ix4 b h w d)
      = wgtR (co4 (val_main_v0 (F := Ideal) x0 x3)) (co1 x1) (co1 x2) (tapI 10) (tapJ 10) b h w d :=
  wgt_read (tapI 10) (tapJ 10) 2 0 rfl rfl 0#32 4294967294#32 (by decide) (by decide)
    (val_main_v0 (F := Ideal) x0 x3) (val_main_call0_v0 (F := Ideal)) _ _ (padval_zero _) x1 x2
    (val_main_v514 (F := Ideal)) (val_main_v523 (F := Ideal)) rowbits_2 colbits_10 (by decide) (by decide) (by decide)
    (val_main_v557 (F := Ideal) x0 x1 x2 x3) rfl b h w d

/-- Tap 10: the window of the padded values. -/
theorem vwin_10 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v550 (F := Ideal) x0 x4 (ix4 b h w d)
      = pad2 (fun p q => co4 (val_main_v1 (F := Ideal) x0 x4) b p q d) (h.val + (tapI 10).val) (w.val + (tapJ 10).val) :=
  vwin_read (tapI 10) (tapJ 10) 2 0 rfl rfl (val_main_v1 (F := Ideal) x0 x4) (val_main_call1_v0 (F := Ideal)) _ _ (padval_zero _)
    (by decide) (val_main_v550 (F := Ideal) x0 x4) rfl b h w d

/-- After tap 10 the numerator is the specification's after 11 taps. -/
theorem out_10 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v559 (F := Ideal) x0 x1 x2 x3 x4 (ix4 b h w d)
      = refOut (co4 (val_main_v0 (F := Ideal) x0 x3)) (co4 (val_main_v1 (F := Ideal) x0 x4)) (co1 x1) (co1 x2) (10 + 1) b h w d := by
  show val_main_v502 (F := Ideal) x0 x1 x2 x3 x4 (ix4 b h w d) + val_main_v557 (F := Ideal) x0 x1 x2 x3 (ix4 b h w d) * val_main_v550 (F := Ideal) x0 x4 (ix4 b h w d) = _
  rw [out_9 x0 x1 x2 x3 x4, wgt_10 x0 x1 x2 x3 x4, vwin_10 x0 x1 x2 x3 x4]
  rfl

/-- After tap 10 the denominator is the specification's after 11 taps. -/
theorem norm_10 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v562 (F := Ideal) x0 x1 x2 x3 (ix4 b h w ⟨0, Nat.one_pos⟩)
      = refNorm (co4 (val_main_v0 (F := Ideal) x0 x3)) (co1 x1) (co1 x2) (10 + 1) b h w := by
  rw [norm_read (val_main_v505 (F := Ideal) x0 x1 x2 x3) (val_main_v557 (F := Ideal) x0 x1 x2 x3) _ _ _ (val_main_v562 (F := Ideal) x0 x1 x2 x3) rfl b h w,
    norm_9 x0 x1 x2 x3 x4]
  simp only [wgt_10 x0 x1 x2 x3 x4]
  rfl

/-- Tap 11 (window row 2, column 1): the column bits. -/
theorem colbits_11 (w : Fin 64) :
    val_main_v571 (F := Ideal) (ix1 w) = if 2 ≤ w.val + 1 ∧ w.val + 1 < 66 then 1#1 else 0#1 :=
  bits_read 4294967295#32 1 (by decide) (by decide) _ rfl w

/-- Tap 11: the weight array. -/
theorem wgt_11 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v605 (F := Ideal) x0 x1 x2 x3 (ix4 b h w d)
      = wgtR (co4 (val_main_v0 (F := Ideal) x0 x3)) (co1 x1) (co1 x2) (tapI 11) (tapJ 11) b h w d :=
  wgt_read (tapI 11) (tapJ 11) 2 1 rfl rfl 0#32 4294967295#32 (by decide) (by decide)
    (val_main_v0 (F := Ideal) x0 x3) (val_main_call0_v0 (F := Ideal)) _ _ (padval_zero _) x1 x2
    (val_main_v514 (F := Ideal)) (val_main_v571 (F := Ideal)) rowbits_2 colbits_11 (by decide) (by decide) (by decide)
    (val_main_v605 (F := Ideal) x0 x1 x2 x3) rfl b h w d

/-- Tap 11: the window of the padded values. -/
theorem vwin_11 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v598 (F := Ideal) x0 x4 (ix4 b h w d)
      = pad2 (fun p q => co4 (val_main_v1 (F := Ideal) x0 x4) b p q d) (h.val + (tapI 11).val) (w.val + (tapJ 11).val) :=
  vwin_read (tapI 11) (tapJ 11) 2 1 rfl rfl (val_main_v1 (F := Ideal) x0 x4) (val_main_call1_v0 (F := Ideal)) _ _ (padval_zero _)
    (by decide) (val_main_v598 (F := Ideal) x0 x4) rfl b h w d

/-- After tap 11 the numerator is the specification's after 12 taps. -/
theorem out_11 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v607 (F := Ideal) x0 x1 x2 x3 x4 (ix4 b h w d)
      = refOut (co4 (val_main_v0 (F := Ideal) x0 x3)) (co4 (val_main_v1 (F := Ideal) x0 x4)) (co1 x1) (co1 x2) (11 + 1) b h w d := by
  show val_main_v559 (F := Ideal) x0 x1 x2 x3 x4 (ix4 b h w d) + val_main_v605 (F := Ideal) x0 x1 x2 x3 (ix4 b h w d) * val_main_v598 (F := Ideal) x0 x4 (ix4 b h w d) = _
  rw [out_10 x0 x1 x2 x3 x4, wgt_11 x0 x1 x2 x3 x4, vwin_11 x0 x1 x2 x3 x4]
  rfl

/-- After tap 11 the denominator is the specification's after 12 taps. -/
theorem norm_11 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v610 (F := Ideal) x0 x1 x2 x3 (ix4 b h w ⟨0, Nat.one_pos⟩)
      = refNorm (co4 (val_main_v0 (F := Ideal) x0 x3)) (co1 x1) (co1 x2) (11 + 1) b h w := by
  rw [norm_read (val_main_v562 (F := Ideal) x0 x1 x2 x3) (val_main_v605 (F := Ideal) x0 x1 x2 x3) _ _ _ (val_main_v610 (F := Ideal) x0 x1 x2 x3) rfl b h w,
    norm_10 x0 x1 x2 x3 x4]
  simp only [wgt_11 x0 x1 x2 x3 x4]
  rfl

/-- Tap 12 (window row 2, column 2): the column bits. -/
theorem colbits_12 (w : Fin 64) :
    val_main_v619 (F := Ideal) (ix1 w) = if 2 ≤ w.val + 2 ∧ w.val + 2 < 66 then 1#1 else 0#1 :=
  bits_read 0#32 2 (by decide) (by decide) _ rfl w

/-- Tap 12: the weight array. -/
theorem wgt_12 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v653 (F := Ideal) x0 x1 x2 x3 (ix4 b h w d)
      = wgtR (co4 (val_main_v0 (F := Ideal) x0 x3)) (co1 x1) (co1 x2) (tapI 12) (tapJ 12) b h w d :=
  wgt_read (tapI 12) (tapJ 12) 2 2 rfl rfl 0#32 0#32 (by decide) (by decide)
    (val_main_v0 (F := Ideal) x0 x3) (val_main_call0_v0 (F := Ideal)) _ _ (padval_zero _) x1 x2
    (val_main_v514 (F := Ideal)) (val_main_v619 (F := Ideal)) rowbits_2 colbits_12 (by decide) (by decide) (by decide)
    (val_main_v653 (F := Ideal) x0 x1 x2 x3) rfl b h w d

/-- Tap 12: the window of the padded values. -/
theorem vwin_12 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v646 (F := Ideal) x0 x4 (ix4 b h w d)
      = pad2 (fun p q => co4 (val_main_v1 (F := Ideal) x0 x4) b p q d) (h.val + (tapI 12).val) (w.val + (tapJ 12).val) :=
  vwin_read (tapI 12) (tapJ 12) 2 2 rfl rfl (val_main_v1 (F := Ideal) x0 x4) (val_main_call1_v0 (F := Ideal)) _ _ (padval_zero _)
    (by decide) (val_main_v646 (F := Ideal) x0 x4) rfl b h w d

/-- After tap 12 the numerator is the specification's after 13 taps. -/
theorem out_12 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v655 (F := Ideal) x0 x1 x2 x3 x4 (ix4 b h w d)
      = refOut (co4 (val_main_v0 (F := Ideal) x0 x3)) (co4 (val_main_v1 (F := Ideal) x0 x4)) (co1 x1) (co1 x2) (12 + 1) b h w d := by
  show val_main_v607 (F := Ideal) x0 x1 x2 x3 x4 (ix4 b h w d) + val_main_v653 (F := Ideal) x0 x1 x2 x3 (ix4 b h w d) * val_main_v646 (F := Ideal) x0 x4 (ix4 b h w d) = _
  rw [out_11 x0 x1 x2 x3 x4, wgt_12 x0 x1 x2 x3 x4, vwin_12 x0 x1 x2 x3 x4]
  rfl

/-- After tap 12 the denominator is the specification's after 13 taps. -/
theorem norm_12 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v658 (F := Ideal) x0 x1 x2 x3 (ix4 b h w ⟨0, Nat.one_pos⟩)
      = refNorm (co4 (val_main_v0 (F := Ideal) x0 x3)) (co1 x1) (co1 x2) (12 + 1) b h w := by
  rw [norm_read (val_main_v610 (F := Ideal) x0 x1 x2 x3) (val_main_v653 (F := Ideal) x0 x1 x2 x3) _ _ _ (val_main_v658 (F := Ideal) x0 x1 x2 x3) rfl b h w,
    norm_11 x0 x1 x2 x3 x4]
  simp only [wgt_12 x0 x1 x2 x3 x4]
  rfl

/-- Tap 13 (window row 2, column 3): the column bits. -/
theorem colbits_13 (w : Fin 64) :
    val_main_v667 (F := Ideal) (ix1 w) = if 2 ≤ w.val + 3 ∧ w.val + 3 < 66 then 1#1 else 0#1 :=
  bits_read 1#32 3 (by decide) (by decide) _ rfl w

/-- Tap 13: the weight array. -/
theorem wgt_13 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v701 (F := Ideal) x0 x1 x2 x3 (ix4 b h w d)
      = wgtR (co4 (val_main_v0 (F := Ideal) x0 x3)) (co1 x1) (co1 x2) (tapI 13) (tapJ 13) b h w d :=
  wgt_read (tapI 13) (tapJ 13) 2 3 rfl rfl 0#32 1#32 (by decide) (by decide)
    (val_main_v0 (F := Ideal) x0 x3) (val_main_call0_v0 (F := Ideal)) _ _ (padval_zero _) x1 x2
    (val_main_v514 (F := Ideal)) (val_main_v667 (F := Ideal)) rowbits_2 colbits_13 (by decide) (by decide) (by decide)
    (val_main_v701 (F := Ideal) x0 x1 x2 x3) rfl b h w d

/-- Tap 13: the window of the padded values. -/
theorem vwin_13 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v694 (F := Ideal) x0 x4 (ix4 b h w d)
      = pad2 (fun p q => co4 (val_main_v1 (F := Ideal) x0 x4) b p q d) (h.val + (tapI 13).val) (w.val + (tapJ 13).val) :=
  vwin_read (tapI 13) (tapJ 13) 2 3 rfl rfl (val_main_v1 (F := Ideal) x0 x4) (val_main_call1_v0 (F := Ideal)) _ _ (padval_zero _)
    (by decide) (val_main_v694 (F := Ideal) x0 x4) rfl b h w d

/-- After tap 13 the numerator is the specification's after 14 taps. -/
theorem out_13 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v703 (F := Ideal) x0 x1 x2 x3 x4 (ix4 b h w d)
      = refOut (co4 (val_main_v0 (F := Ideal) x0 x3)) (co4 (val_main_v1 (F := Ideal) x0 x4)) (co1 x1) (co1 x2) (13 + 1) b h w d := by
  show val_main_v655 (F := Ideal) x0 x1 x2 x3 x4 (ix4 b h w d) + val_main_v701 (F := Ideal) x0 x1 x2 x3 (ix4 b h w d) * val_main_v694 (F := Ideal) x0 x4 (ix4 b h w d) = _
  rw [out_12 x0 x1 x2 x3 x4, wgt_13 x0 x1 x2 x3 x4, vwin_13 x0 x1 x2 x3 x4]
  rfl

/-- After tap 13 the denominator is the specification's after 14 taps. -/
theorem norm_13 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v706 (F := Ideal) x0 x1 x2 x3 (ix4 b h w ⟨0, Nat.one_pos⟩)
      = refNorm (co4 (val_main_v0 (F := Ideal) x0 x3)) (co1 x1) (co1 x2) (13 + 1) b h w := by
  rw [norm_read (val_main_v658 (F := Ideal) x0 x1 x2 x3) (val_main_v701 (F := Ideal) x0 x1 x2 x3) _ _ _ (val_main_v706 (F := Ideal) x0 x1 x2 x3) rfl b h w,
    norm_12 x0 x1 x2 x3 x4]
  simp only [wgt_13 x0 x1 x2 x3 x4]
  rfl

/-- Tap 14 (window row 2, column 4): the column bits. -/
theorem colbits_14 (w : Fin 64) :
    val_main_v715 (F := Ideal) (ix1 w) = if 2 ≤ w.val + 4 ∧ w.val + 4 < 66 then 1#1 else 0#1 :=
  bits_read 2#32 4 (by decide) (by decide) _ rfl w

/-- Tap 14: the weight array. -/
theorem wgt_14 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v749 (F := Ideal) x0 x1 x2 x3 (ix4 b h w d)
      = wgtR (co4 (val_main_v0 (F := Ideal) x0 x3)) (co1 x1) (co1 x2) (tapI 14) (tapJ 14) b h w d :=
  wgt_read (tapI 14) (tapJ 14) 2 4 rfl rfl 0#32 2#32 (by decide) (by decide)
    (val_main_v0 (F := Ideal) x0 x3) (val_main_call0_v0 (F := Ideal)) _ _ (padval_zero _) x1 x2
    (val_main_v514 (F := Ideal)) (val_main_v715 (F := Ideal)) rowbits_2 colbits_14 (by decide) (by decide) (by decide)
    (val_main_v749 (F := Ideal) x0 x1 x2 x3) rfl b h w d

/-- Tap 14: the window of the padded values. -/
theorem vwin_14 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v742 (F := Ideal) x0 x4 (ix4 b h w d)
      = pad2 (fun p q => co4 (val_main_v1 (F := Ideal) x0 x4) b p q d) (h.val + (tapI 14).val) (w.val + (tapJ 14).val) :=
  vwin_read (tapI 14) (tapJ 14) 2 4 rfl rfl (val_main_v1 (F := Ideal) x0 x4) (val_main_call1_v0 (F := Ideal)) _ _ (padval_zero _)
    (by decide) (val_main_v742 (F := Ideal) x0 x4) rfl b h w d

/-- After tap 14 the numerator is the specification's after 15 taps. -/
theorem out_14 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v751 (F := Ideal) x0 x1 x2 x3 x4 (ix4 b h w d)
      = refOut (co4 (val_main_v0 (F := Ideal) x0 x3)) (co4 (val_main_v1 (F := Ideal) x0 x4)) (co1 x1) (co1 x2) (14 + 1) b h w d := by
  show val_main_v703 (F := Ideal) x0 x1 x2 x3 x4 (ix4 b h w d) + val_main_v749 (F := Ideal) x0 x1 x2 x3 (ix4 b h w d) * val_main_v742 (F := Ideal) x0 x4 (ix4 b h w d) = _
  rw [out_13 x0 x1 x2 x3 x4, wgt_14 x0 x1 x2 x3 x4, vwin_14 x0 x1 x2 x3 x4]
  rfl

/-- After tap 14 the denominator is the specification's after 15 taps. -/
theorem norm_14 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v754 (F := Ideal) x0 x1 x2 x3 (ix4 b h w ⟨0, Nat.one_pos⟩)
      = refNorm (co4 (val_main_v0 (F := Ideal) x0 x3)) (co1 x1) (co1 x2) (14 + 1) b h w := by
  rw [norm_read (val_main_v706 (F := Ideal) x0 x1 x2 x3) (val_main_v749 (F := Ideal) x0 x1 x2 x3) _ _ _ (val_main_v754 (F := Ideal) x0 x1 x2 x3) rfl b h w,
    norm_13 x0 x1 x2 x3 x4]
  simp only [wgt_14 x0 x1 x2 x3 x4]
  rfl

end Cert.Attn.Ref

end
-- ==== Proof.RefReadRow3.lean ====
/-
  Window row 3 of the reference program (taps 15 to 19): each tap's bits, weight array and window of the padded values read at an index, and the numerator and denominator after the tap as the specification's recursion.
-/
import proofs.«107659_j89111981457894_2_alg».proof.Proof.RefReadRow2

noncomputable section

open scoped BigOperators

namespace Cert.Attn.Ref

open Idealize.ShloMosaic Idealize.ShloMosaic.ValueIdx Cert.ReferenceIdeal Cert.ReferenceIdeal.ReadP

/-- Window row 3: the row bits. -/
theorem rowbits_3 (h : Fin 64) :
    val_main_v763 (F := Ideal) (ix1 h) = if 2 ≤ h.val + 3 ∧ h.val + 3 < 66 then 1#1 else 0#1 :=
  bits_read 1#32 3 (by decide) (by decide) _ rfl h

/-- Tap 15 (window row 3, column 0): the column bits. -/
theorem colbits_15 (w : Fin 64) :
    val_main_v772 (F := Ideal) (ix1 w) = if 2 ≤ w.val + 0 ∧ w.val + 0 < 66 then 1#1 else 0#1 :=
  bits_read 4294967294#32 0 (by decide) (by decide) _ rfl w

/-- Tap 15: the weight array. -/
theorem wgt_15 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v806 (F := Ideal) x0 x1 x2 x3 (ix4 b h w d)
      = wgtR (co4 (val_main_v0 (F := Ideal) x0 x3)) (co1 x1) (co1 x2) (tapI 15) (tapJ 15) b h w d :=
  wgt_read (tapI 15) (tapJ 15) 3 0 rfl rfl 1#32 4294967294#32 (by decide) (by decide)
    (val_main_v0 (F := Ideal) x0 x3) (val_main_call0_v0 (F := Ideal)) _ _ (padval_zero _) x1 x2
    (val_main_v763 (F := Ideal)) (val_main_v772 (F := Ideal)) rowbits_3 colbits_15 (by decide) (by decide) (by decide)
    (val_main_v806 (F := Ideal) x0 x1 x2 x3) rfl b h w d

/-- Tap 15: the window of the padded values. -/
theorem vwin_15 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v799 (F := Ideal) x0 x4 (ix4 b h w d)
      = pad2 (fun p q => co4 (val_main_v1 (F := Ideal) x0 x4) b p q d) (h.val + (tapI 15).val) (w.val + (tapJ 15).val) :=
  vwin_read (tapI 15) (tapJ 15) 3 0 rfl rfl (val_main_v1 (F := Ideal) x0 x4) (val_main_call1_v0 (F := Ideal)) _ _ (padval_zero _)
    (by decide) (val_main_v799 (F := Ideal) x0 x4) rfl b h w d

/-- After tap 15 the numerator is the specification's after 16 taps. -/
theorem out_15 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v808 (F := Ideal) x0 x1 x2 x3 x4 (ix4 b h w d)
      = refOut (co4 (val_main_v0 (F := Ideal) x0 x3)) (co4 (val_main_v1 (F := Ideal) x0 x4)) (co1 x1) (co1 x2) (15 + 1) b h w d := by
  show val_main_v751 (F := Ideal) x0 x1 x2 x3 x4 (ix4 b h w d) + val_main_v806 (F := Ideal) x0 x1 x2 x3 (ix4 b h w d) * val_main_v799 (F := Ideal) x0 x4 (ix4 b h w d) = _
  rw [out_14 x0 x1 x2 x3 x4, wgt_15 x0 x1 x2 x3 x4, vwin_15 x0 x1 x2 x3 x4]
  rfl

/-- After tap 15 the denominator is the specification's after 16 taps. -/
theorem norm_15 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v811 (F := Ideal) x0 x1 x2 x3 (ix4 b h w ⟨0, Nat.one_pos⟩)
      = refNorm (co4 (val_main_v0 (F := Ideal) x0 x3)) (co1 x1) (co1 x2) (15 + 1) b h w := by
  rw [norm_read (val_main_v754 (F := Ideal) x0 x1 x2 x3) (val_main_v806 (F := Ideal) x0 x1 x2 x3) _ _ _ (val_main_v811 (F := Ideal) x0 x1 x2 x3) rfl b h w,
    norm_14 x0 x1 x2 x3 x4]
  simp only [wgt_15 x0 x1 x2 x3 x4]
  rfl

/-- Tap 16 (window row 3, column 1): the column bits. -/
theorem colbits_16 (w : Fin 64) :
    val_main_v820 (F := Ideal) (ix1 w) = if 2 ≤ w.val + 1 ∧ w.val + 1 < 66 then 1#1 else 0#1 :=
  bits_read 4294967295#32 1 (by decide) (by decide) _ rfl w

/-- Tap 16: the weight array. -/
theorem wgt_16 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v854 (F := Ideal) x0 x1 x2 x3 (ix4 b h w d)
      = wgtR (co4 (val_main_v0 (F := Ideal) x0 x3)) (co1 x1) (co1 x2) (tapI 16) (tapJ 16) b h w d :=
  wgt_read (tapI 16) (tapJ 16) 3 1 rfl rfl 1#32 4294967295#32 (by decide) (by decide)
    (val_main_v0 (F := Ideal) x0 x3) (val_main_call0_v0 (F := Ideal)) _ _ (padval_zero _) x1 x2
    (val_main_v763 (F := Ideal)) (val_main_v820 (F := Ideal)) rowbits_3 colbits_16 (by decide) (by decide) (by decide)
    (val_main_v854 (F := Ideal) x0 x1 x2 x3) rfl b h w d

/-- Tap 16: the window of the padded values. -/
theorem vwin_16 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v847 (F := Ideal) x0 x4 (ix4 b h w d)
      = pad2 (fun p q => co4 (val_main_v1 (F := Ideal) x0 x4) b p q d) (h.val + (tapI 16).val) (w.val + (tapJ 16).val) :=
  vwin_read (tapI 16) (tapJ 16) 3 1 rfl rfl (val_main_v1 (F := Ideal) x0 x4) (val_main_call1_v0 (F := Ideal)) _ _ (padval_zero _)
    (by decide) (val_main_v847 (F := Ideal) x0 x4) rfl b h w d

/-- After tap 16 the numerator is the specification's after 17 taps. -/
theorem out_16 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v856 (F := Ideal) x0 x1 x2 x3 x4 (ix4 b h w d)
      = refOut (co4 (val_main_v0 (F := Ideal) x0 x3)) (co4 (val_main_v1 (F := Ideal) x0 x4)) (co1 x1) (co1 x2) (16 + 1) b h w d := by
  show val_main_v808 (F := Ideal) x0 x1 x2 x3 x4 (ix4 b h w d) + val_main_v854 (F := Ideal) x0 x1 x2 x3 (ix4 b h w d) * val_main_v847 (F := Ideal) x0 x4 (ix4 b h w d) = _
  rw [out_15 x0 x1 x2 x3 x4, wgt_16 x0 x1 x2 x3 x4, vwin_16 x0 x1 x2 x3 x4]
  rfl

/-- After tap 16 the denominator is the specification's after 17 taps. -/
theorem norm_16 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v859 (F := Ideal) x0 x1 x2 x3 (ix4 b h w ⟨0, Nat.one_pos⟩)
      = refNorm (co4 (val_main_v0 (F := Ideal) x0 x3)) (co1 x1) (co1 x2) (16 + 1) b h w := by
  rw [norm_read (val_main_v811 (F := Ideal) x0 x1 x2 x3) (val_main_v854 (F := Ideal) x0 x1 x2 x3) _ _ _ (val_main_v859 (F := Ideal) x0 x1 x2 x3) rfl b h w,
    norm_15 x0 x1 x2 x3 x4]
  simp only [wgt_16 x0 x1 x2 x3 x4]
  rfl

/-- Tap 17 (window row 3, column 2): the column bits. -/
theorem colbits_17 (w : Fin 64) :
    val_main_v868 (F := Ideal) (ix1 w) = if 2 ≤ w.val + 2 ∧ w.val + 2 < 66 then 1#1 else 0#1 :=
  bits_read 0#32 2 (by decide) (by decide) _ rfl w

/-- Tap 17: the weight array. -/
theorem wgt_17 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v902 (F := Ideal) x0 x1 x2 x3 (ix4 b h w d)
      = wgtR (co4 (val_main_v0 (F := Ideal) x0 x3)) (co1 x1) (co1 x2) (tapI 17) (tapJ 17) b h w d :=
  wgt_read (tapI 17) (tapJ 17) 3 2 rfl rfl 1#32 0#32 (by decide) (by decide)
    (val_main_v0 (F := Ideal) x0 x3) (val_main_call0_v0 (F := Ideal)) _ _ (padval_zero _) x1 x2
    (val_main_v763 (F := Ideal)) (val_main_v868 (F := Ideal)) rowbits_3 colbits_17 (by decide) (by decide) (by decide)
    (val_main_v902 (F := Ideal) x0 x1 x2 x3) rfl b h w d

/-- Tap 17: the window of the padded values. -/
theorem vwin_17 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v895 (F := Ideal) x0 x4 (ix4 b h w d)
      = pad2 (fun p q => co4 (val_main_v1 (F := Ideal) x0 x4) b p q d) (h.val + (tapI 17).val) (w.val + (tapJ 17).val) :=
  vwin_read (tapI 17) (tapJ 17) 3 2 rfl rfl (val_main_v1 (F := Ideal) x0 x4) (val_main_call1_v0 (F := Ideal)) _ _ (padval_zero _)
    (by decide) (val_main_v895 (F := Ideal) x0 x4) rfl b h w d

/-- After tap 17 the numerator is the specification's after 18 taps. -/
theorem out_17 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v904 (F := Ideal) x0 x1 x2 x3 x4 (ix4 b h w d)
      = refOut (co4 (val_main_v0 (F := Ideal) x0 x3)) (co4 (val_main_v1 (F := Ideal) x0 x4)) (co1 x1) (co1 x2) (17 + 1) b h w d := by
  show val_main_v856 (F := Ideal) x0 x1 x2 x3 x4 (ix4 b h w d) + val_main_v902 (F := Ideal) x0 x1 x2 x3 (ix4 b h w d) * val_main_v895 (F := Ideal) x0 x4 (ix4 b h w d) = _
  rw [out_16 x0 x1 x2 x3 x4, wgt_17 x0 x1 x2 x3 x4, vwin_17 x0 x1 x2 x3 x4]
  rfl

/-- After tap 17 the denominator is the specification's after 18 taps. -/
theorem norm_17 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v907 (F := Ideal) x0 x1 x2 x3 (ix4 b h w ⟨0, Nat.one_pos⟩)
      = refNorm (co4 (val_main_v0 (F := Ideal) x0 x3)) (co1 x1) (co1 x2) (17 + 1) b h w := by
  rw [norm_read (val_main_v859 (F := Ideal) x0 x1 x2 x3) (val_main_v902 (F := Ideal) x0 x1 x2 x3) _ _ _ (val_main_v907 (F := Ideal) x0 x1 x2 x3) rfl b h w,
    norm_16 x0 x1 x2 x3 x4]
  simp only [wgt_17 x0 x1 x2 x3 x4]
  rfl

/-- Tap 18 (window row 3, column 3): the column bits. -/
theorem colbits_18 (w : Fin 64) :
    val_main_v916 (F := Ideal) (ix1 w) = if 2 ≤ w.val + 3 ∧ w.val + 3 < 66 then 1#1 else 0#1 :=
  bits_read 1#32 3 (by decide) (by decide) _ rfl w

/-- Tap 18: the weight array. -/
theorem wgt_18 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v950 (F := Ideal) x0 x1 x2 x3 (ix4 b h w d)
      = wgtR (co4 (val_main_v0 (F := Ideal) x0 x3)) (co1 x1) (co1 x2) (tapI 18) (tapJ 18) b h w d :=
  wgt_read (tapI 18) (tapJ 18) 3 3 rfl rfl 1#32 1#32 (by decide) (by decide)
    (val_main_v0 (F := Ideal) x0 x3) (val_main_call0_v0 (F := Ideal)) _ _ (padval_zero _) x1 x2
    (val_main_v763 (F := Ideal)) (val_main_v916 (F := Ideal)) rowbits_3 colbits_18 (by decide) (by decide) (by decide)
    (val_main_v950 (F := Ideal) x0 x1 x2 x3) rfl b h w d

/-- Tap 18: the window of the padded values. -/
theorem vwin_18 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v943 (F := Ideal) x0 x4 (ix4 b h w d)
      = pad2 (fun p q => co4 (val_main_v1 (F := Ideal) x0 x4) b p q d) (h.val + (tapI 18).val) (w.val + (tapJ 18).val) :=
  vwin_read (tapI 18) (tapJ 18) 3 3 rfl rfl (val_main_v1 (F := Ideal) x0 x4) (val_main_call1_v0 (F := Ideal)) _ _ (padval_zero _)
    (by decide) (val_main_v943 (F := Ideal) x0 x4) rfl b h w d

/-- After tap 18 the numerator is the specification's after 19 taps. -/
theorem out_18 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v952 (F := Ideal) x0 x1 x2 x3 x4 (ix4 b h w d)
      = refOut (co4 (val_main_v0 (F := Ideal) x0 x3)) (co4 (val_main_v1 (F := Ideal) x0 x4)) (co1 x1) (co1 x2) (18 + 1) b h w d := by
  show val_main_v904 (F := Ideal) x0 x1 x2 x3 x4 (ix4 b h w d) + val_main_v950 (F := Ideal) x0 x1 x2 x3 (ix4 b h w d) * val_main_v943 (F := Ideal) x0 x4 (ix4 b h w d) = _
  rw [out_17 x0 x1 x2 x3 x4, wgt_18 x0 x1 x2 x3 x4, vwin_18 x0 x1 x2 x3 x4]
  rfl

/-- After tap 18 the denominator is the specification's after 19 taps. -/
theorem norm_18 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v955 (F := Ideal) x0 x1 x2 x3 (ix4 b h w ⟨0, Nat.one_pos⟩)
      = refNorm (co4 (val_main_v0 (F := Ideal) x0 x3)) (co1 x1) (co1 x2) (18 + 1) b h w := by
  rw [norm_read (val_main_v907 (F := Ideal) x0 x1 x2 x3) (val_main_v950 (F := Ideal) x0 x1 x2 x3) _ _ _ (val_main_v955 (F := Ideal) x0 x1 x2 x3) rfl b h w,
    norm_17 x0 x1 x2 x3 x4]
  simp only [wgt_18 x0 x1 x2 x3 x4]
  rfl

/-- Tap 19 (window row 3, column 4): the column bits. -/
theorem colbits_19 (w : Fin 64) :
    val_main_v964 (F := Ideal) (ix1 w) = if 2 ≤ w.val + 4 ∧ w.val + 4 < 66 then 1#1 else 0#1 :=
  bits_read 2#32 4 (by decide) (by decide) _ rfl w

/-- Tap 19: the weight array. -/
theorem wgt_19 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v998 (F := Ideal) x0 x1 x2 x3 (ix4 b h w d)
      = wgtR (co4 (val_main_v0 (F := Ideal) x0 x3)) (co1 x1) (co1 x2) (tapI 19) (tapJ 19) b h w d :=
  wgt_read (tapI 19) (tapJ 19) 3 4 rfl rfl 1#32 2#32 (by decide) (by decide)
    (val_main_v0 (F := Ideal) x0 x3) (val_main_call0_v0 (F := Ideal)) _ _ (padval_zero _) x1 x2
    (val_main_v763 (F := Ideal)) (val_main_v964 (F := Ideal)) rowbits_3 colbits_19 (by decide) (by decide) (by decide)
    (val_main_v998 (F := Ideal) x0 x1 x2 x3) rfl b h w d

/-- Tap 19: the window of the padded values. -/
theorem vwin_19 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v991 (F := Ideal) x0 x4 (ix4 b h w d)
      = pad2 (fun p q => co4 (val_main_v1 (F := Ideal) x0 x4) b p q d) (h.val + (tapI 19).val) (w.val + (tapJ 19).val) :=
  vwin_read (tapI 19) (tapJ 19) 3 4 rfl rfl (val_main_v1 (F := Ideal) x0 x4) (val_main_call1_v0 (F := Ideal)) _ _ (padval_zero _)
    (by decide) (val_main_v991 (F := Ideal) x0 x4) rfl b h w d

/-- After tap 19 the numerator is the specification's after 20 taps. -/
theorem out_19 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v1000 (F := Ideal) x0 x1 x2 x3 x4 (ix4 b h w d)
      = refOut (co4 (val_main_v0 (F := Ideal) x0 x3)) (co4 (val_main_v1 (F := Ideal) x0 x4)) (co1 x1) (co1 x2) (19 + 1) b h w d := by
  show val_main_v952 (F := Ideal) x0 x1 x2 x3 x4 (ix4 b h w d) + val_main_v998 (F := Ideal) x0 x1 x2 x3 (ix4 b h w d) * val_main_v991 (F := Ideal) x0 x4 (ix4 b h w d) = _
  rw [out_18 x0 x1 x2 x3 x4, wgt_19 x0 x1 x2 x3 x4, vwin_19 x0 x1 x2 x3 x4]
  rfl

/-- After tap 19 the denominator is the specification's after 20 taps. -/
theorem norm_19 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v1003 (F := Ideal) x0 x1 x2 x3 (ix4 b h w ⟨0, Nat.one_pos⟩)
      = refNorm (co4 (val_main_v0 (F := Ideal) x0 x3)) (co1 x1) (co1 x2) (19 + 1) b h w := by
  rw [norm_read (val_main_v955 (F := Ideal) x0 x1 x2 x3) (val_main_v998 (F := Ideal) x0 x1 x2 x3) _ _ _ (val_main_v1003 (F := Ideal) x0 x1 x2 x3) rfl b h w,
    norm_18 x0 x1 x2 x3 x4]
  simp only [wgt_19 x0 x1 x2 x3 x4]
  rfl

end Cert.Attn.Ref

end
-- ==== Proof.RefReadRow4.lean ====
/-
  Window row 4 of the reference program (taps 20 to 24): each tap's bits, weight array and window of the padded values read at an index, and the numerator and denominator after the tap as the specification's recursion.
-/
import proofs.«107659_j89111981457894_2_alg».proof.Proof.RefReadRow3

noncomputable section

open scoped BigOperators

namespace Cert.Attn.Ref

open Idealize.ShloMosaic Idealize.ShloMosaic.ValueIdx Cert.ReferenceIdeal Cert.ReferenceIdeal.ReadP

/-- Window row 4: the row bits. -/
theorem rowbits_4 (h : Fin 64) :
    val_main_v1012 (F := Ideal) (ix1 h) = if 2 ≤ h.val + 4 ∧ h.val + 4 < 66 then 1#1 else 0#1 :=
  bits_read 2#32 4 (by decide) (by decide) _ rfl h

/-- Tap 20 (window row 4, column 0): the column bits. -/
theorem colbits_20 (w : Fin 64) :
    val_main_v1021 (F := Ideal) (ix1 w) = if 2 ≤ w.val + 0 ∧ w.val + 0 < 66 then 1#1 else 0#1 :=
  bits_read 4294967294#32 0 (by decide) (by decide) _ rfl w

/-- Tap 20: the weight array. -/
theorem wgt_20 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v1055 (F := Ideal) x0 x1 x2 x3 (ix4 b h w d)
      = wgtR (co4 (val_main_v0 (F := Ideal) x0 x3)) (co1 x1) (co1 x2) (tapI 20) (tapJ 20) b h w d :=
  wgt_read (tapI 20) (tapJ 20) 4 0 rfl rfl 2#32 4294967294#32 (by decide) (by decide)
    (val_main_v0 (F := Ideal) x0 x3) (val_main_call0_v0 (F := Ideal)) _ _ (padval_zero _) x1 x2
    (val_main_v1012 (F := Ideal)) (val_main_v1021 (F := Ideal)) rowbits_4 colbits_20 (by decide) (by decide) (by decide)
    (val_main_v1055 (F := Ideal) x0 x1 x2 x3) rfl b h w d

/-- Tap 20: the window of the padded values. -/
theorem vwin_20 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v1048 (F := Ideal) x0 x4 (ix4 b h w d)
      = pad2 (fun p q => co4 (val_main_v1 (F := Ideal) x0 x4) b p q d) (h.val + (tapI 20).val) (w.val + (tapJ 20).val) :=
  vwin_read (tapI 20) (tapJ 20) 4 0 rfl rfl (val_main_v1 (F := Ideal) x0 x4) (val_main_call1_v0 (F := Ideal)) _ _ (padval_zero _)
    (by decide) (val_main_v1048 (F := Ideal) x0 x4) rfl b h w d

/-- After tap 20 the numerator is the specification's after 21 taps. -/
theorem out_20 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v1057 (F := Ideal) x0 x1 x2 x3 x4 (ix4 b h w d)
      = refOut (co4 (val_main_v0 (F := Ideal) x0 x3)) (co4 (val_main_v1 (F := Ideal) x0 x4)) (co1 x1) (co1 x2) (20 + 1) b h w d := by
  show val_main_v1000 (F := Ideal) x0 x1 x2 x3 x4 (ix4 b h w d) + val_main_v1055 (F := Ideal) x0 x1 x2 x3 (ix4 b h w d) * val_main_v1048 (F := Ideal) x0 x4 (ix4 b h w d) = _
  rw [out_19 x0 x1 x2 x3 x4, wgt_20 x0 x1 x2 x3 x4, vwin_20 x0 x1 x2 x3 x4]
  rfl

/-- After tap 20 the denominator is the specification's after 21 taps. -/
theorem norm_20 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v1060 (F := Ideal) x0 x1 x2 x3 (ix4 b h w ⟨0, Nat.one_pos⟩)
      = refNorm (co4 (val_main_v0 (F := Ideal) x0 x3)) (co1 x1) (co1 x2) (20 + 1) b h w := by
  rw [norm_read (val_main_v1003 (F := Ideal) x0 x1 x2 x3) (val_main_v1055 (F := Ideal) x0 x1 x2 x3) _ _ _ (val_main_v1060 (F := Ideal) x0 x1 x2 x3) rfl b h w,
    norm_19 x0 x1 x2 x3 x4]
  simp only [wgt_20 x0 x1 x2 x3 x4]
  rfl

/-- Tap 21 (window row 4, column 1): the column bits. -/
theorem colbits_21 (w : Fin 64) :
    val_main_v1069 (F := Ideal) (ix1 w) = if 2 ≤ w.val + 1 ∧ w.val + 1 < 66 then 1#1 else 0#1 :=
  bits_read 4294967295#32 1 (by decide) (by decide) _ rfl w

/-- Tap 21: the weight array. -/
theorem wgt_21 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v1103 (F := Ideal) x0 x1 x2 x3 (ix4 b h w d)
      = wgtR (co4 (val_main_v0 (F := Ideal) x0 x3)) (co1 x1) (co1 x2) (tapI 21) (tapJ 21) b h w d :=
  wgt_read (tapI 21) (tapJ 21) 4 1 rfl rfl 2#32 4294967295#32 (by decide) (by decide)
    (val_main_v0 (F := Ideal) x0 x3) (val_main_call0_v0 (F := Ideal)) _ _ (padval_zero _) x1 x2
    (val_main_v1012 (F := Ideal)) (val_main_v1069 (F := Ideal)) rowbits_4 colbits_21 (by decide) (by decide) (by decide)
    (val_main_v1103 (F := Ideal) x0 x1 x2 x3) rfl b h w d

/-- Tap 21: the window of the padded values. -/
theorem vwin_21 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v1096 (F := Ideal) x0 x4 (ix4 b h w d)
      = pad2 (fun p q => co4 (val_main_v1 (F := Ideal) x0 x4) b p q d) (h.val + (tapI 21).val) (w.val + (tapJ 21).val) :=
  vwin_read (tapI 21) (tapJ 21) 4 1 rfl rfl (val_main_v1 (F := Ideal) x0 x4) (val_main_call1_v0 (F := Ideal)) _ _ (padval_zero _)
    (by decide) (val_main_v1096 (F := Ideal) x0 x4) rfl b h w d

/-- After tap 21 the numerator is the specification's after 22 taps. -/
theorem out_21 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v1105 (F := Ideal) x0 x1 x2 x3 x4 (ix4 b h w d)
      = refOut (co4 (val_main_v0 (F := Ideal) x0 x3)) (co4 (val_main_v1 (F := Ideal) x0 x4)) (co1 x1) (co1 x2) (21 + 1) b h w d := by
  show val_main_v1057 (F := Ideal) x0 x1 x2 x3 x4 (ix4 b h w d) + val_main_v1103 (F := Ideal) x0 x1 x2 x3 (ix4 b h w d) * val_main_v1096 (F := Ideal) x0 x4 (ix4 b h w d) = _
  rw [out_20 x0 x1 x2 x3 x4, wgt_21 x0 x1 x2 x3 x4, vwin_21 x0 x1 x2 x3 x4]
  rfl

/-- After tap 21 the denominator is the specification's after 22 taps. -/
theorem norm_21 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v1108 (F := Ideal) x0 x1 x2 x3 (ix4 b h w ⟨0, Nat.one_pos⟩)
      = refNorm (co4 (val_main_v0 (F := Ideal) x0 x3)) (co1 x1) (co1 x2) (21 + 1) b h w := by
  rw [norm_read (val_main_v1060 (F := Ideal) x0 x1 x2 x3) (val_main_v1103 (F := Ideal) x0 x1 x2 x3) _ _ _ (val_main_v1108 (F := Ideal) x0 x1 x2 x3) rfl b h w,
    norm_20 x0 x1 x2 x3 x4]
  simp only [wgt_21 x0 x1 x2 x3 x4]
  rfl

/-- Tap 22 (window row 4, column 2): the column bits. -/
theorem colbits_22 (w : Fin 64) :
    val_main_v1117 (F := Ideal) (ix1 w) = if 2 ≤ w.val + 2 ∧ w.val + 2 < 66 then 1#1 else 0#1 :=
  bits_read 0#32 2 (by decide) (by decide) _ rfl w

/-- Tap 22: the weight array. -/
theorem wgt_22 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v1151 (F := Ideal) x0 x1 x2 x3 (ix4 b h w d)
      = wgtR (co4 (val_main_v0 (F := Ideal) x0 x3)) (co1 x1) (co1 x2) (tapI 22) (tapJ 22) b h w d :=
  wgt_read (tapI 22) (tapJ 22) 4 2 rfl rfl 2#32 0#32 (by decide) (by decide)
    (val_main_v0 (F := Ideal) x0 x3) (val_main_call0_v0 (F := Ideal)) _ _ (padval_zero _) x1 x2
    (val_main_v1012 (F := Ideal)) (val_main_v1117 (F := Ideal)) rowbits_4 colbits_22 (by decide) (by decide) (by decide)
    (val_main_v1151 (F := Ideal) x0 x1 x2 x3) rfl b h w d

/-- Tap 22: the window of the padded values. -/
theorem vwin_22 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v1144 (F := Ideal) x0 x4 (ix4 b h w d)
      = pad2 (fun p q => co4 (val_main_v1 (F := Ideal) x0 x4) b p q d) (h.val + (tapI 22).val) (w.val + (tapJ 22).val) :=
  vwin_read (tapI 22) (tapJ 22) 4 2 rfl rfl (val_main_v1 (F := Ideal) x0 x4) (val_main_call1_v0 (F := Ideal)) _ _ (padval_zero _)
    (by decide) (val_main_v1144 (F := Ideal) x0 x4) rfl b h w d

/-- After tap 22 the numerator is the specification's after 23 taps. -/
theorem out_22 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v1153 (F := Ideal) x0 x1 x2 x3 x4 (ix4 b h w d)
      = refOut (co4 (val_main_v0 (F := Ideal) x0 x3)) (co4 (val_main_v1 (F := Ideal) x0 x4)) (co1 x1) (co1 x2) (22 + 1) b h w d := by
  show val_main_v1105 (F := Ideal) x0 x1 x2 x3 x4 (ix4 b h w d) + val_main_v1151 (F := Ideal) x0 x1 x2 x3 (ix4 b h w d) * val_main_v1144 (F := Ideal) x0 x4 (ix4 b h w d) = _
  rw [out_21 x0 x1 x2 x3 x4, wgt_22 x0 x1 x2 x3 x4, vwin_22 x0 x1 x2 x3 x4]
  rfl

/-- After tap 22 the denominator is the specification's after 23 taps. -/
theorem norm_22 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v1156 (F := Ideal) x0 x1 x2 x3 (ix4 b h w ⟨0, Nat.one_pos⟩)
      = refNorm (co4 (val_main_v0 (F := Ideal) x0 x3)) (co1 x1) (co1 x2) (22 + 1) b h w := by
  rw [norm_read (val_main_v1108 (F := Ideal) x0 x1 x2 x3) (val_main_v1151 (F := Ideal) x0 x1 x2 x3) _ _ _ (val_main_v1156 (F := Ideal) x0 x1 x2 x3) rfl b h w,
    norm_21 x0 x1 x2 x3 x4]
  simp only [wgt_22 x0 x1 x2 x3 x4]
  rfl

/-- Tap 23 (window row 4, column 3): the column bits. -/
theorem colbits_23 (w : Fin 64) :
    val_main_v1165 (F := Ideal) (ix1 w) = if 2 ≤ w.val + 3 ∧ w.val + 3 < 66 then 1#1 else 0#1 :=
  bits_read 1#32 3 (by decide) (by decide) _ rfl w

/-- Tap 23: the weight array. -/
theorem wgt_23 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v1199 (F := Ideal) x0 x1 x2 x3 (ix4 b h w d)
      = wgtR (co4 (val_main_v0 (F := Ideal) x0 x3)) (co1 x1) (co1 x2) (tapI 23) (tapJ 23) b h w d :=
  wgt_read (tapI 23) (tapJ 23) 4 3 rfl rfl 2#32 1#32 (by decide) (by decide)
    (val_main_v0 (F := Ideal) x0 x3) (val_main_call0_v0 (F := Ideal)) _ _ (padval_zero _) x1 x2
    (val_main_v1012 (F := Ideal)) (val_main_v1165 (F := Ideal)) rowbits_4 colbits_23 (by decide) (by decide) (by decide)
    (val_main_v1199 (F := Ideal) x0 x1 x2 x3) rfl b h w d

/-- Tap 23: the window of the padded values. -/
theorem vwin_23 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v1192 (F := Ideal) x0 x4 (ix4 b h w d)
      = pad2 (fun p q => co4 (val_main_v1 (F := Ideal) x0 x4) b p q d) (h.val + (tapI 23).val) (w.val + (tapJ 23).val) :=
  vwin_read (tapI 23) (tapJ 23) 4 3 rfl rfl (val_main_v1 (F := Ideal) x0 x4) (val_main_call1_v0 (F := Ideal)) _ _ (padval_zero _)
    (by decide) (val_main_v1192 (F := Ideal) x0 x4) rfl b h w d

/-- After tap 23 the numerator is the specification's after 24 taps. -/
theorem out_23 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v1201 (F := Ideal) x0 x1 x2 x3 x4 (ix4 b h w d)
      = refOut (co4 (val_main_v0 (F := Ideal) x0 x3)) (co4 (val_main_v1 (F := Ideal) x0 x4)) (co1 x1) (co1 x2) (23 + 1) b h w d := by
  show val_main_v1153 (F := Ideal) x0 x1 x2 x3 x4 (ix4 b h w d) + val_main_v1199 (F := Ideal) x0 x1 x2 x3 (ix4 b h w d) * val_main_v1192 (F := Ideal) x0 x4 (ix4 b h w d) = _
  rw [out_22 x0 x1 x2 x3 x4, wgt_23 x0 x1 x2 x3 x4, vwin_23 x0 x1 x2 x3 x4]
  rfl

/-- After tap 23 the denominator is the specification's after 24 taps. -/
theorem norm_23 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v1204 (F := Ideal) x0 x1 x2 x3 (ix4 b h w ⟨0, Nat.one_pos⟩)
      = refNorm (co4 (val_main_v0 (F := Ideal) x0 x3)) (co1 x1) (co1 x2) (23 + 1) b h w := by
  rw [norm_read (val_main_v1156 (F := Ideal) x0 x1 x2 x3) (val_main_v1199 (F := Ideal) x0 x1 x2 x3) _ _ _ (val_main_v1204 (F := Ideal) x0 x1 x2 x3) rfl b h w,
    norm_22 x0 x1 x2 x3 x4]
  simp only [wgt_23 x0 x1 x2 x3 x4]
  rfl

/-- Tap 24 (window row 4, column 4): the column bits. -/
theorem colbits_24 (w : Fin 64) :
    val_main_v1213 (F := Ideal) (ix1 w) = if 2 ≤ w.val + 4 ∧ w.val + 4 < 66 then 1#1 else 0#1 :=
  bits_read 2#32 4 (by decide) (by decide) _ rfl w

/-- Tap 24: the weight array. -/
theorem wgt_24 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v1247 (F := Ideal) x0 x1 x2 x3 (ix4 b h w d)
      = wgtR (co4 (val_main_v0 (F := Ideal) x0 x3)) (co1 x1) (co1 x2) (tapI 24) (tapJ 24) b h w d :=
  wgt_read (tapI 24) (tapJ 24) 4 4 rfl rfl 2#32 2#32 (by decide) (by decide)
    (val_main_v0 (F := Ideal) x0 x3) (val_main_call0_v0 (F := Ideal)) _ _ (padval_zero _) x1 x2
    (val_main_v1012 (F := Ideal)) (val_main_v1213 (F := Ideal)) rowbits_4 colbits_24 (by decide) (by decide) (by decide)
    (val_main_v1247 (F := Ideal) x0 x1 x2 x3) rfl b h w d

/-- Tap 24: the window of the padded values. -/
theorem vwin_24 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v1240 (F := Ideal) x0 x4 (ix4 b h w d)
      = pad2 (fun p q => co4 (val_main_v1 (F := Ideal) x0 x4) b p q d) (h.val + (tapI 24).val) (w.val + (tapJ 24).val) :=
  vwin_read (tapI 24) (tapJ 24) 4 4 rfl rfl (val_main_v1 (F := Ideal) x0 x4) (val_main_call1_v0 (F := Ideal)) _ _ (padval_zero _)
    (by decide) (val_main_v1240 (F := Ideal) x0 x4) rfl b h w d

/-- After tap 24 the numerator is the specification's after 25 taps. -/
theorem out_24 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) (d : Fin 256) :
    val_main_v1249 (F := Ideal) x0 x1 x2 x3 x4 (ix4 b h w d)
      = refOut (co4 (val_main_v0 (F := Ideal) x0 x3)) (co4 (val_main_v1 (F := Ideal) x0 x4)) (co1 x1) (co1 x2) (24 + 1) b h w d := by
  show val_main_v1201 (F := Ideal) x0 x1 x2 x3 x4 (ix4 b h w d) + val_main_v1247 (F := Ideal) x0 x1 x2 x3 (ix4 b h w d) * val_main_v1240 (F := Ideal) x0 x4 (ix4 b h w d) = _
  rw [out_23 x0 x1 x2 x3 x4, wgt_24 x0 x1 x2 x3 x4, vwin_24 x0 x1 x2 x3 x4]
  rfl

/-- After tap 24 the denominator is the specification's after 25 taps. -/
theorem norm_24 (x0 : (⟨4, ![16, 64, 64, 256]⟩ : Shape).Idx → EReal) (x1 x2 : (⟨1, ![5]⟩ : Shape).Idx → EReal) (x3 x4 : (⟨2, ![256, 256]⟩ : Shape).Idx → EReal) (b : Fin 16) (h w : Fin 64) :
    val_main_v1252 (F := Ideal) x0 x1 x2 x3 (ix4 b h w ⟨0, Nat.one_pos⟩)
      = refNorm (co4 (val_main_v0 (F := Ideal) x0 x3)) (co1 x1) (co1 x2) (24 + 1) b h w := by
  rw [norm_read (val_main_v1204 (F := Ideal) x0 x1 x2 x3) (val_main_v1247 (F := Ideal) x0 x1 x2 x3) _ _ _ (val_main_v1252 (F := Ideal) x0 x1 x2 x3) rfl b h w,
    norm_23 x0 x1 x2 x3 x4]
  simp only [wgt_24 x0 x1 x2 x3 x4]
  rfl

end Cert.Attn.Ref

end
-- ==== Proof.RefReadResult.lean ====
/-
  The reference program's result read at an index: the specification's reference form.
-/
import proofs.«107659_j89111981457894_2_alg».proof.Proof.RefReadRow4

noncomputable section

open scoped BigOperators

namespace Cert.Attn.Ref

open Idealize.ShloMosaic Idealize.ShloMosaic.ValueIdx Cert.ReferenceIdeal Cert.ReferenceIdeal.ReadP

/-- The reference program's result, by coordinates, is the specification's reference form of the windowed attention. -/
theorem result_eq (x0 : (⟨4, ![16, 64, 64, 256]⟩ : Shape).Idx → EReal) (x1 x2 : (⟨1, ![5]⟩ : Shape).Idx → EReal)
    (x3 x4 x5 : (⟨2, ![256, 256]⟩ : Shape).Idx → EReal) :
    co4 (val_main_v1257 (F := Ideal) x0 x1 x2 x3 x4 x5) = refResult (co4 x0) (co1 x1) (co1 x2) (co2 x3) (co2 x4) (co2 x5) := by
  funext b h w o
  show val_main_v1257 (F := Ideal) x0 x1 x2 x3 x4 x5 (ix4 b h w o)
    = ∑ d : Fin 256, Ideal.div (refOut (proj (co4 x0) (co2 x3)) (proj (co4 x0) (co2 x4)) (co1 x1) (co1 x2) 25 b h w d)
        (refNorm (proj (co4 x0) (co2 x3)) (co1 x1) (co1 x2) 25 b h w + eps) * x5 (ix2 o d)
  rw [val_main_v1257_apply, ← keys_read, ← values_read]
  refine Finset.sum_congr rfl fun k _ => ?_
  have e1 : lidx_main_v1257 (ix4 b h w o) k = ix4 b h w k := by
    funext a; match a with | ⟨0, _⟩ => rfl | ⟨1, _⟩ => rfl | ⟨2, _⟩ => rfl | ⟨3, _⟩ => rfl
  have e2 : ridx_main_v1257 (ix4 b h w o) k = ix2 o k := by
    funext a; match a with | ⟨0, _⟩ => rfl | ⟨1, _⟩ => rfl
  rw [e1, e2, quot_read (val_main_v1249 (F := Ideal) x0 x1 x2 x3 x4) (val_main_v1252 (F := Ideal) x0 x1 x2 x3) _ _ (val_main_v1256 (F := Ideal) x0 x1 x2 x3 x4) rfl b h w k,
    out_24 x0 x1 x2 x3 x4, norm_24 x0 x1 x2 x3 x4]

end Cert.Attn.Ref

end
-- ==== Proof.LibIdealReal.lean ====
/-
  Real-valued extended reals under the exact float operations.

  At the exact instance a float is an extended real and an operation may leave the reals only at a corner: a sum or a
  product never does, the exponential of a real is a positive real, a quotient stays real when the divisor is a
  nonzero real (`x / 0` is an infinity), and the reciprocal square root stays real when its argument is a POSITIVE
  real (`rsqrt 0 = ⊤`, and a negative argument reads `⊥`). So a value computed from real inputs by sums, products,
  exponentials, quotients by positive quantities and reciprocal square roots of positive quantities is again real:
  the fact a layer of a normalised attention network needs before the distributive law may be used on its output.
-/
import Idealize.ShloMosaic.PureOps.Ideal
import Mathlib.Data.EReal.Inv

namespace IdealReal

open Idealize.ShloMosaic

/-- An extended real that is the image of a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.max {x y : EReal} (hx : IsReal x) (hy : IsReal y) : IsReal (max x y) := by
  rcases max_choice x y with h | h <;> rw [h] <;> assumption

/-- A finite sum of real values is real. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The exponential of a real is the real exponential. -/
theorem exp_coe (r : ℝ) : Ideal.exp (r : EReal) = ((Real.exp r : ℝ) : EReal) := rfl

theorem isReal_exp {x : EReal} (hx : IsReal x) : IsReal (Ideal.exp x) := by
  obtain ⟨a, rfl⟩ := hx
  exact ⟨Real.exp a, exp_coe a⟩

/-- The exponential of a real is strictly positive. -/
theorem exp_pos {x : EReal} (hx : IsReal x) : 0 < Ideal.exp x := by
  obtain ⟨a, rfl⟩ := hx
  rw [exp_coe]
  exact_mod_cast Real.exp_pos a

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem isReal_div {x y : EReal} (hx : IsReal x) (hy : IsReal y) (h0 : y ≠ 0) : IsReal (Ideal.div x y) := by
  obtain ⟨a, rfl⟩ := hx; obtain ⟨b, rfl⟩ := hy
  exact ⟨a / b, div_coe_coe a (by exact_mod_cast h0)⟩

/-- The reciprocal square root of a positive real is the real one. -/
theorem rsqrt_coe_pos {r : ℝ} (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

theorem isReal_rsqrt {x : EReal} (hx : IsReal x) (hpos : 0 < x) : IsReal (Ideal.rsqrt x) := by
  obtain ⟨a, rfl⟩ := hx
  exact ⟨(Real.sqrt a)⁻¹, rsqrt_coe_pos (by exact_mod_cast hpos)⟩

/-- A real value plus a positive real value is positive when the first is nonnegative: the softmax denominator
    `∑ exp + ε` and the variance `var + ε` never vanish. -/
theorem add_pos_of_nonneg_of_pos {x e : EReal} (hx : 0 ≤ x) (he : 0 < e) : 0 < x + e :=
  lt_of_lt_of_le he (le_add_of_nonneg_left hx)

/-- A finite sum of nonnegative values is nonnegative. -/
theorem sum_nonneg {ι : Type*} (s : Finset ι) (f : ι → EReal) (h : ∀ i ∈ s, 0 ≤ f i) : 0 ≤ ∑ i ∈ s, f i :=
  Finset.sum_nonneg h

/-- The square of a real value is nonnegative. -/
theorem mul_self_nonneg {x : EReal} (hx : IsReal x) : 0 ≤ x * x := by
  obtain ⟨a, rfl⟩ := hx
  rw [← EReal.coe_mul]
  exact_mod_cast _root_.mul_self_nonneg a

end IdealReal
-- ==== Proof.LibERealSums.lean ====
/-
  Finite sums of real-valued extended reals.

  An extended real that is the image of a real number adds and multiplies as the real does, so a finite sum of
  products of such values is the image of the real sum of products. Two consequences are stated here: the
  coercion commutes with finite sums, and the product of a row vector with the product of two matrices may be
  bracketed either way, so that a score `(x · A) · p` can be computed as `x · (A · p)`.
  Neither survives an infinite entry (`⊤ + ⊥ = ⊥` and `0 · ⊤ = 0` break distributivity), which is why both are
  stated over real entries.
-/
import Mathlib.Data.EReal.Inv
import Mathlib.Analysis.SpecialFunctions.Pow.Real

namespace ERealSums

open Finset

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of real-valued extended reals is the coercion of the real sum of products. -/
theorem sum_coe_mul_coe {ι : Type*} (s : Finset ι) (f g : ι → ℝ) :
    ∑ i ∈ s, (f i : EReal) * (g i : EReal) = ((∑ i ∈ s, f i * g i : ℝ) : EReal) := by
  rw [coe_sum]
  exact Finset.sum_congr rfl fun i _ => (EReal.coe_mul _ _).symm

/-- Associativity of a row vector times two matrices, entry by entry: contracting `x` with `a` first and the
    result with `p`, or `a` with `p` first and `x` with the result, gives the same extended real when every
    entry is real. Over the reals this is `∑ₖ (∑ⱼ xⱼ aⱼₖ) pₖ = ∑ⱼ xⱼ (∑ₖ aⱼₖ pₖ)`: distribute, swap the two sums. -/
theorem row_mul_assoc {J K : Type*} [Fintype J] [Fintype K] (x : J → ℝ) (a : J → K → ℝ) (p : K → ℝ) :
    ∑ k, (∑ j, (x j : EReal) * (a j k : EReal)) * (p k : EReal)
      = ∑ j, (x j : EReal) * ∑ k, (a j k : EReal) * (p k : EReal) := by
  have hl : ∀ k, (∑ j, (x j : EReal) * (a j k : EReal)) * (p k : EReal)
      = (((∑ j, x j * a j k) * p k : ℝ) : EReal) := fun k => by
    rw [sum_coe_mul_coe, EReal.coe_mul]
  have hr : ∀ j, (x j : EReal) * ∑ k, (a j k : EReal) * (p k : EReal)
      = ((x j * ∑ k, a j k * p k : ℝ) : EReal) := fun j => by
    rw [sum_coe_mul_coe, EReal.coe_mul]
  simp only [hl, hr, ← coe_sum]
  congr 1
  simp only [Finset.sum_mul, Finset.mul_sum]
  rw [Finset.sum_comm]
  exact Finset.sum_congr rfl fun j _ => Finset.sum_congr rfl fun k _ => by ring

end ERealSums
-- ==== Proof.Algebra.lean ====
/-
  The reference form and the factored form of the windowed attention agree for real entries.

  One tap at one pixel. If the tap looks at a pixel on the grid its mask is `1` and the padded values are the values
  there: `exp(β + k)·v = exp β·(exp k·v)` because `exp` of a sum of reals is the product of the `exp`s, and
  `∑_d exp(β + k_d) = exp β·∑_d exp k_d` because a real factor distributes over a finite real sum. If it looks off the
  grid the mask and the padded values are `0` and both forms add `0`. Neither law holds at an infinity (there
  `exp(⊥ + ⊤) ≠ exp ⊥·exp ⊤` is avoided only by convention and distributivity fails), so the entries of `x`, `Wk`,
  `Wv`, `w_h`, `w_v` are assumed real; `Wp` enters both forms in the same place and may be anything.
-/
import proofs.«107659_j89111981457894_2_alg».proof.Proof.Spec
import proofs.«107659_j89111981457894_2_alg».proof.Proof.LibIdealReal
import proofs.«107659_j89111981457894_2_alg».proof.Proof.LibERealSums

noncomputable section

open scoped BigOperators

namespace Cert.Attn

open Idealize.ShloMosaic IdealReal

/-- Every entry of an image / a matrix / a 5-vector is real. -/
def RealImg (x : Img) : Prop := ∀ b h w c, IsReal (x b h w c)
def RealMat (W : Mat) : Prop := ∀ d c, IsReal (W d c)
def RealVec (u : Vec5) : Prop := ∀ i, IsReal (u i)

theorem proj_real {x : Img} {W : Mat} (hx : RealImg x) (hW : RealMat W) : RealImg (proj x W) :=
  fun b h w d => isReal_sum _ _ fun c _ => (hx b h w c).mul (hW d c)

theorem bias_real {wh wv : Vec5} (hh : RealVec wh) (hv : RealVec wv) (ii jj : Fin 5) (h w : Fin 64) :
    IsReal (bias wh wv ii jj h w) :=
  ((hh ii).mul (isReal_coe _)).add ((hv jj).mul (isReal_coe _))

theorem pad2_in {f : Fin 64 → Fin 64 → EReal} {p q : ℕ} (hp : (2 ≤ p ∧ p < 66) ∧ (2 ≤ q ∧ q < 66)) :
    pad2 f p q = f ⟨p - 2, by omega⟩ ⟨q - 2, by omega⟩ := dif_pos hp

theorem pad2_out {f : Fin 64 → Fin 64 → EReal} {p q : ℕ} (hp : ¬ ((2 ≤ p ∧ p < 66) ∧ (2 ≤ q ∧ q < 66))) :
    pad2 f p q = 0 := dif_neg hp

/-- `exp` of a sum of reals is the product of the `exp`s. -/
theorem exp_add_real {a b : EReal} (ha : IsReal a) (hb : IsReal b) :
    Ideal.exp (a + b) = Ideal.exp a * Ideal.exp b := by
  obtain ⟨r, rfl⟩ := ha; obtain ⟨s, rfl⟩ := hb
  rw [← EReal.coe_add, exp_coe, exp_coe, exp_coe, Real.exp_add, EReal.coe_mul]

/-- A real factor distributes over a finite sum of reals. -/
theorem mul_sum_real {ι : Type*} [Fintype ι] {a : EReal} {f : ι → EReal} (ha : IsReal a) (hf : ∀ i, IsReal (f i)) :
    ∑ i, a * f i = a * ∑ i, f i := by
  obtain ⟨r, rfl⟩ := ha
  obtain ⟨g, hg⟩ : ∃ g : ι → ℝ, ∀ i, f i = (g i : EReal) := ⟨fun i => (hf i).choose, fun i => (hf i).choose_spec⟩
  simp only [hg, ← EReal.coe_mul, ← ERealSums.coe_sum, Finset.mul_sum]

/-- ONE TAP OF THE NUMERATOR, both ways. -/
theorem tap_out_eq {k v : Img} {wh wv : Vec5} (hk : RealImg k) (hh : RealVec wh) (hv : RealVec wv)
    (ii jj : Fin 5) (b : Fin 16) (h w : Fin 64) (d : Fin 256) :
    wgtR k wh wv ii jj b h w d * pad2 (fun p q => v b p q d) (h.val + ii.val) (w.val + jj.val)
      = eb wh wv ii jj h w * pad2 (fun p q => evk k v b p q d) (h.val + ii.val) (w.val + jj.val) := by
  unfold wgtR eb mask
  by_cases hp : (2 ≤ h.val + ii.val ∧ h.val + ii.val < 66) ∧ (2 ≤ w.val + jj.val ∧ w.val + jj.val < 66)
  · rw [pad2_in hp, pad2_in hp, pad2_in hp, if_pos hp, mul_one, mul_one]
    unfold evk ek
    rw [exp_add_real (bias_real hh hv ii jj h w) (hk _ _ _ _), mul_assoc]
  · simp only [pad2_out hp, if_neg hp, mul_zero, zero_mul]

/-- ONE TAP OF THE DENOMINATOR, both ways. -/
theorem tap_norm_eq {k : Img} {wh wv : Vec5} (hk : RealImg k) (hh : RealVec wh) (hv : RealVec wv)
    (ii jj : Fin 5) (b : Fin 16) (h w : Fin 64) :
    ∑ d : Fin 256, wgtR k wh wv ii jj b h w d
      = eb wh wv ii jj h w * pad2 (fun p q => sk k b p q) (h.val + ii.val) (w.val + jj.val) := by
  unfold wgtR eb mask
  by_cases hp : (2 ≤ h.val + ii.val ∧ h.val + ii.val < 66) ∧ (2 ≤ w.val + jj.val ∧ w.val + jj.val < 66)
  · rw [pad2_in hp, if_pos hp, mul_one]
    simp only [pad2_in hp, mul_one]
    unfold sk ek
    rw [← mul_sum_real (isReal_exp (bias_real hh hv ii jj h w)) fun d => isReal_exp (hk _ _ _ d)]
    exact Finset.sum_congr rfl fun d _ => exp_add_real (bias_real hh hv ii jj h w) (hk _ _ _ d)
  · rw [pad2_out hp, if_neg hp, mul_zero]
    exact Finset.sum_eq_zero fun d _ => mul_zero _

theorem out_eq {k v : Img} {wh wv : Vec5} (hk : RealImg k) (hh : RealVec wh) (hv : RealVec wv) (t : ℕ) :
    refOut k v wh wv t = kerOut k v wh wv t := by
  induction t with
  | zero => rfl
  | succ t ih =>
    funext b h w d
    show refOut k v wh wv t b h w d + _ = kerOut k v wh wv t b h w d + _
    rw [ih, tap_out_eq hk hh hv]

theorem norm_eq {k : Img} {wh wv : Vec5} (hk : RealImg k) (hh : RealVec wh) (hv : RealVec wv) (t : ℕ) :
    refNorm k wh wv t = kerNorm k wh wv t := by
  induction t with
  | zero => rfl
  | succ t ih =>
    funext b h w
    show refNorm k wh wv t b h w + _ = kerNorm k wh wv t b h w + _
    rw [ih, tap_norm_eq hk hh hv]

/-- THE TWO FORMS AGREE when `x`, `Wk`, `w_h`, `w_v` have real entries. -/
theorem refResult_eq_kerResult {x : Img} {wh wv : Vec5} {Wk : Mat} (Wv Wp : Mat)
    (hx : RealImg x) (hWk : RealMat Wk) (hh : RealVec wh) (hv : RealVec wv) :
    refResult x wh wv Wk Wv Wp = kerResult x wh wv Wk Wv Wp := by
  unfold refResult kerResult
  rw [out_eq (proj_real hx hWk) hh hv, norm_eq (proj_real hx hWk) hh hv]

end Cert.Attn

end
-- ==== Proof.Finite.lean ====
/-
  From the precondition to real entries.

  The precondition says, array by array, that every entry `x` satisfies `|x| < +∞` (the conjunction of six such
  "all entries" tests is `1`). An extended real whose absolute value is below `+∞` is neither infinity, so it is a
  real number: every entry of the six argument arrays is real.
-/
import proofs.«107659_j89111981457894_2_alg».proof.Defs
import proofs.«107659_j89111981457894_2_alg».proof.Proof.LibIdealReal
import Idealize.ShloMosaic.Lib.ReduceAll
import Idealize.ShloMosaic.Lib.ValueIdx

set_option maxRecDepth 16384

noncomputable section

namespace Cert.Attn.Fin

open Idealize.ShloMosaic Idealize.ShloMosaic.ValueIdx IdealReal

/-- The scalar shape has one index. -/
instance : Subsingleton Cert.Pre_finite_inputs.S_.Idx := ⟨fun a b => funext fun d => d.elim0⟩

/-- An extended real whose absolute value tests below the word of `+∞` is a real number. -/
theorem isReal_of_finite_bit (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

variable [Cert.Pre_finite_inputs.Facts]

open Cert.KernelIdeal in
/-- Under the precondition every entry of each of the six argument arrays is real. -/
theorem real_of_pre (m : (ℓ : Loc nD τ sig) → Buf (Elt Ideal) ℓ) (h : Cert.Pre_KernelIdeal m) (c : Dev nD) :
    (∀ i, IsReal ((m ((c.tc : Thread nD τ).loc main_arg0) : S16x64x64x256.Idx → EReal) i))
    ∧ (∀ i, IsReal ((m ((c.tc : Thread nD τ).loc main_arg1) : S5.Idx → EReal) i))
    ∧ (∀ i, IsReal ((m ((c.tc : Thread nD τ).loc main_arg2) : S5.Idx → EReal) i))
    ∧ (∀ i, IsReal ((m ((c.tc : Thread nD τ).loc main_arg3) : S256x256.Idx → EReal) i))
    ∧ (∀ i, IsReal ((m ((c.tc : Thread nD τ).loc main_arg4) : S256x256.Idx → EReal) i))
    ∧ (∀ i, IsReal ((m ((c.tc : Thread nD τ).loc main_arg5) : S256x256.Idx → EReal) i)) := by
  have h0 := congrFun (h c) ValueIdx.ix0
  simp only [Cert.Pre_finite_inputs.fn, Cert.Pre_finite_inputs.fn_part1, andi, IntOp.andi_eq_one] at h0
  obtain ⟨⟨⟨⟨⟨e0, e1⟩, e2⟩, e3⟩, e4⟩, e5⟩ := h0
  exact ⟨fun i => isReal_of_finite_bit _ (Host.reduce_andi_all _ _ _ _ _ e0 i),
    fun i => isReal_of_finite_bit _ (Host.reduce_andi_all _ _ _ _ _ e1 i),
    fun i => isReal_of_finite_bit _ (Host.reduce_andi_all _ _ _ _ _ e2 i),
    fun i => isReal_of_finite_bit _ (Host.reduce_andi_all _ _ _ _ _ e3 i),
    fun i => isReal_of_finite_bit _ (Host.reduce_andi_all _ _ _ _ _ e4 i),
    fun i => isReal_of_finite_bit _ (Host.reduce_andi_all _ _ _ _ _ e5 i)⟩

end Cert.Attn.Fin

end
-- ==== Proof.Claims.lean ====
/-
  The five claims, assembled.

  Three frames: the two kernel programs by their generated frame proofs, the reference by its run with the result
  dropped. No operation was rewritten on the way to the idealized kernel, so nothing is owed for it. The algebraic claim:
  the idealized kernel ends with the factored form of the windowed attention of its arguments, the reference with the
  reference form of the same arguments; under the precondition every argument entry is a real number, and on real
  entries the two forms are one function.
-/
import proofs.«107659_j89111981457894_2_alg».proof.Defs
import proofs.«107659_j89111981457894_2_alg».proof.Proof.Gen.Kernel
import proofs.«107659_j89111981457894_2_alg».proof.Proof.Gen.Kernel.Frame
import proofs.«107659_j89111981457894_2_alg».proof.Proof.Gen.KernelIdeal
import proofs.«107659_j89111981457894_2_alg».proof.Proof.Gen.KernelIdeal.Frame
import proofs.«107659_j89111981457894_2_alg».proof.Proof.Gen.ReferenceIdeal
import proofs.«107659_j89111981457894_2_alg».proof.Proof.Gen.Pre_finite_inputs
import proofs.«107659_j89111981457894_2_alg».proof.Proof.RefRun
import proofs.«107659_j89111981457894_2_alg».proof.Proof.RefReadResult
import proofs.«107659_j89111981457894_2_alg».proof.Proof.Algebra
import proofs.«107659_j89111981457894_2_alg».proof.Proof.Finite

set_option maxRecDepth 16384

noncomputable section

namespace Cert.Proof.Claims

open Idealize.ShloMosaic Idealize.ShloMosaic.TcCoe Idealize.SL.Sem Idealize.ShloMosaic.ValueIdx IdealReal Cert.Attn

/-- The factored form of the six argument arrays, as an array. -/
def Gspec (x0 : (⟨4, ![16, 64, 64, 256]⟩ : Shape).Idx → EReal) (x1 x2 : (⟨1, ![5]⟩ : Shape).Idx → EReal)
    (x3 x4 x5 : (⟨2, ![256, 256]⟩ : Shape).Idx → EReal) : (⟨4, ![16, 64, 64, 256]⟩ : Shape).Idx → EReal :=
  fun i => kerResult (co4 x0) (co1 x1) (co1 x2) (co2 x3) (co2 x4) (co2 x5) (i 0) (i 1) (i 2) (i 3)

/-- On real entries the reference program's result array is the factored form of its arguments. -/
theorem reference_is_factored (x0 : (⟨4, ![16, 64, 64, 256]⟩ : Shape).Idx → EReal) (x1 x2 : (⟨1, ![5]⟩ : Shape).Idx → EReal)
    (x3 x4 x5 : (⟨2, ![256, 256]⟩ : Shape).Idx → EReal)
    (h0 : ∀ i, IsReal (x0 i)) (h1 : ∀ i, IsReal (x1 i)) (h2 : ∀ i, IsReal (x2 i)) (h3 : ∀ i, IsReal (x3 i)) :
    Cert.ReferenceIdeal.ReadP.val_main_v1257 (F := Ideal) x0 x1 x2 x3 x4 x5 = Gspec x0 x1 x2 x3 x4 x5 := by
  funext i
  obtain ⟨b, h, w, o, rfl⟩ : ∃ (b : Fin 16) (h w : Fin 64) (o : Fin 256), i = ix4 b h w o := ⟨i 0, i 1, i 2, i 3, eq_ix4 i⟩
  have e := congrFun (congrFun (congrFun (congrFun (Cert.Attn.Ref.result_eq x0 x1 x2 x3 x4 x5) b) h) w) o
  rw [refResult_eq_kerResult (co2 x4) (co2 x5) (fun b h w c => h0 (ix4 b h w c)) (fun d c => h3 (ix2 d c))
    (fun i => h1 (ix1 i)) (fun i => h2 (ix1 i))] at e
  exact e

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunH.run (F := Ideal) m ρ)

theorem preserves : Cert.preserves_Kernel_KernelIdeal := trivial

section Algebraic
open Cert.KernelIdeal

/-- The idealized kernel's result array: the factored form of its six arguments. -/
def G (m : (ℓ : Loc nD τ sig) → Buf (Elt Ideal) ℓ) (c : Dev nD) : S16x64x64x256.Idx → EReal :=
  Gspec (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

variable (Gk : (m : (ℓ : Loc nD τ sig) → Buf (Elt Ideal) ℓ) → (c : Dev nD) → Buf (Elt Ideal) ((c.tc : Thread nD τ).loc main_v63))
  (hG : ∀ m c, Gk m c = G m c)
  (hrun : ∀ (m : (ℓ : Loc nD τ sig) → Buf (Elt Ideal) ℓ) (ρ : Dev nD → PrngReg),
    θ_run (defs (F := Ideal)) (onTc (τ := τ) (main (F := Ideal))) ⟨m, fun _ => 0, ρ⟩ fun r => ∀ c : Dev nD,
      r.2.mem ((c.tc : Thread nD τ).loc main_v63) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
include hG hrun

theorem algebraic : Cert.algebraic_KernelIdeal_ReferenceIdeal := by
  intro m ρ m' ρ' hpre hagree
  refine ⟨fun c => Gk m c, hrun m ρ, ?_⟩
  refine (θ_run Cert.ReferenceIdeal.defs _ _).mono (fun _ h c => ⟨(h c).1.trans ?_, (h c).2⟩)
    (Cert.ReferenceIdeal.RunH.run (F := Ideal) m' ρ')
  obtain ⟨a0, a1, a2, a3, a4, a5⟩ := hagree c
  obtain ⟨r0, r1, r2, r3, _, _⟩ := Cert.Attn.Fin.real_of_pre m hpre c
  rw [a0, a1, a2, a3, a4, a5]
  exact (reference_is_factored _ _ _ _ _ _ r0 r1 r2 r3).trans (hG m c).symm

/-- All five claims, from the idealized kernel's run. -/
theorem claim_of : Cert.Claim :=
  ⟨Cert.Kernel.Gen.facts, Cert.KernelIdeal.Gen.facts, Cert.ReferenceIdeal.Gen.facts, Cert.Pre_finite_inputs.Gen.facts,
    frame_k, frame_ki, frame_ri, preserves, algebraic Gk hG hrun⟩

end Algebraic

end Cert.Proof.Claims

end
-- ==== Proof.KerLay.lean ====
/-
  Small facts about reading arrays by coordinates, at the shapes a 64×64×256 image tile meets:
  unit axes added or dropped by a shape cast, a per-pixel value broadcast along the channel axis, the flattening of the
  two spatial axes, and what a zero-filled 72×72 buffer holds after a 64×64 tile is written at offset (4, 4):
  the tile inside rows and columns 4 … 67, the fill elsewhere.
-/
import Idealize.ShloMosaic.PureOps.Ideal
import Idealize.ShloMosaic.Lib.ValueIdx
import Idealize.ShloMosaic.Lib.ValueLayout
import Idealize.ShloMosaic.Lib.Pipeline.Value

noncomputable section

namespace Cert.Attn.Lay

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c]` array cast to `[a·b, c]` reads, at `(i·b + j, k)`, the operand at `(i, j, k)`. -/
theorem shapeCast_abc_Mc_apply {a b c M : ℕ} (x : (⟨3, ![a, b, c]⟩ : Shape).Idx → α)
    (h : (⟨3, ![a, b, c]⟩ : Shape).ShapeCasts ⟨2, ![M, c]⟩) (i : Fin a) (j : Fin b) (k : Fin c) (r : Fin M)
    (hr : r.val = i.val * b + j.val) :
    shapeCast ⟨2, ![M, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[a·b, c]` array cast to `[a, b, c]` reads, at `(i, j, k)`, the operand at `(i·b + j, k)`. -/
theorem shapeCast_Mc_abc_apply {a b c M : ℕ} (x : (⟨2, ![M, c]⟩ : Shape).Idx → α)
    (h : (⟨2, ![M, c]⟩ : Shape).ShapeCasts ⟨3, ![a, b, c]⟩) (i : Fin a) (j : Fin b) (k : Fin c) (r : Fin M)
    (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

/-- The row of the flattened `[4096, ·]` array that pixel `(h, w)` of a 64×64 tile becomes. -/
def flat (h w : Fin 64) : Fin 4096 := ⟨h.val * 64 + w.val, by omega⟩

theorem flat_val (h w : Fin 64) : (flat h w).val = h.val * 64 + w.val := rfl

section Pad

variable {Val : EltTy → Type} [∀ e, Nonempty (Val e)] {e : EltTy}

/-- A 72×72×256 buffer filled with `z`, then written with a 64×64×256 tile `w` at offset (4, 4, 0): at
    `(p, q, d)` it holds the tile at `(p - 4, q - 4, d)` when `4 ≤ p, q < 68`, and the fill otherwise. -/
theorem canon_tile3 (inbI : ∀ a, (![4, 4, 0] : Fin 3 → ℕ) a + (![64, 64, 256] : Fin 3 → ℕ) a ≤ (⟨3, ![72, 72, 256]⟩ : Shape).size a)
    (inbZ : ∀ a, (![0, 0, 0] : Fin 3 → ℕ) a + (⟨3, ![72, 72, 256]⟩ : Shape).size a ≤ (⟨3, ![72, 72, 256]⟩ : Shape).size a)
    (w : (⟨3, ![64, 64, 256]⟩ : Shape).Idx → Val e) (z : (⟨3, ![72, 72, 256]⟩ : Shape).Idx → Val e)
    (p q : Fin 72) (d : Fin 256) :
    View.canon [(⟨Rect.unit (s := ⟨3, ![72, 72, 256]⟩) ![4, 4, 0] ![64, 64, 256] inbI, w⟩ : View.Piece Val ⟨3, ![72, 72, 256]⟩ e),
        ⟨Rect.unit (s := ⟨3, ![72, 72, 256]⟩) ![0, 0, 0] (⟨3, ![72, 72, 256]⟩ : Shape).size inbZ, z⟩] (ix3 p q d)
      = if hp : (4 ≤ p.val ∧ p.val < 68) ∧ (4 ≤ q.val ∧ q.val < 68)
        then w (ix3 (⟨p.val - 4, by omega⟩ : Fin 64) (⟨q.val - 4, by omega⟩ : Fin 64) d) else z (ix3 p q d) := by
  by_cases hp : (4 ≤ p.val ∧ p.val < 68) ∧ (4 ≤ q.val ∧ q.val < 68)
  · rw [dif_pos hp]
    have e1 : ix3 p q d = (Rect.unit (s := ⟨3, ![72, 72, 256]⟩) ![4, 4, 0] ![64, 64, 256] inbI).emb
        (ix3 (⟨p.val - 4, by omega⟩ : Fin 64) (⟨q.val - 4, by omega⟩ : Fin 64) d) :=
      funext fun a => Fin.ext (by
        match a with
        | ⟨0, _⟩ => show p.val = 4 + 1 * (p.val - 4); omega
        | ⟨1, _⟩ => show q.val = 4 + 1 * (q.val - 4); omega
        | ⟨2, _⟩ => show d.val = 0 + 1 * d.val; omega)
    rw [e1]
    exact View.canon_cons_emb (Rect.unit (s := ⟨3, ![72, 72, 256]⟩) ![4, 4, 0] ![64, 64, 256] inbI) w _ _
  · rw [dif_neg hp, View.canon_cons_of_not_mem _ _ (by
      rw [Rect.mem_set_unit]
      intro hm
      apply hp
      have h0 : 4 ≤ p.val ∧ p.val < 4 + 64 := hm (0 : Fin 3)
      have h1 : 4 ≤ q.val ∧ q.val < 4 + 64 := hm (1 : Fin 3)
      omega)]
    exact congrFun (View.canon_unit_zero (funext fun a => by match a with | ⟨0, _⟩ => rfl | ⟨1, _⟩ => rfl | ⟨2, _⟩ => rfl) inbZ z) _

/-- The same for a 72×72 plane and a 64×64 tile at offset (4, 4). -/
theorem canon_tile2 (inbI : ∀ a, (![4, 4] : Fin 2 → ℕ) a + (![64, 64] : Fin 2 → ℕ) a ≤ (⟨2, ![72, 72]⟩ : Shape).size a)
    (inbZ : ∀ a, (![0, 0] : Fin 2 → ℕ) a + (⟨2, ![72, 72]⟩ : Shape).size a ≤ (⟨2, ![72, 72]⟩ : Shape).size a)
    (w : (⟨2, ![64, 64]⟩ : Shape).Idx → Val e) (z : (⟨2, ![72, 72]⟩ : Shape).Idx → Val e)
    (p q : Fin 72) :
    View.canon [(⟨Rect.unit (s := ⟨2, ![72, 72]⟩) ![4, 4] ![64, 64] inbI, w⟩ : View.Piece Val ⟨2, ![72, 72]⟩ e),
        ⟨Rect.unit (s := ⟨2, ![72, 72]⟩) ![0, 0] (⟨2, ![72, 72]⟩ : Shape).size inbZ, z⟩] (ix2 p q)
      = if hp : (4 ≤ p.val ∧ p.val < 68) ∧ (4 ≤ q.val ∧ q.val < 68)
        then w (ix2 (⟨p.val - 4, by omega⟩ : Fin 64) (⟨q.val - 4, by omega⟩ : Fin 64)) else z (ix2 p q) := by
  by_cases hp : (4 ≤ p.val ∧ p.val < 68) ∧ (4 ≤ q.val ∧ q.val < 68)
  · rw [dif_pos hp]
    have e1 : ix2 p q = (Rect.unit (s := ⟨2, ![72, 72]⟩) ![4, 4] ![64, 64] inbI).emb
        (ix2 (⟨p.val - 4, by omega⟩ : Fin 64) (⟨q.val - 4, by omega⟩ : Fin 64)) :=
      funext fun a => Fin.ext (by
        match a with
        | ⟨0, _⟩ => show p.val = 4 + 1 * (p.val - 4); omega
        | ⟨1, _⟩ => show q.val = 4 + 1 * (q.val - 4); omega)
    rw [e1]
    exact View.canon_cons_emb (Rect.unit (s := ⟨2, ![72, 72]⟩) ![4, 4] ![64, 64] inbI) w _ _
  · rw [dif_neg hp, View.canon_cons_of_not_mem _ _ (by
      rw [Rect.mem_set_unit]
      intro hm
      apply hp
      have h0 : 4 ≤ p.val ∧ p.val < 4 + 64 := hm (0 : Fin 2)
      have h1 : 4 ≤ q.val ∧ q.val < 4 + 64 := hm (1 : Fin 2)
      omega)]
    exact congrFun (View.canon_unit_zero (funext fun a => by match a with | ⟨0, _⟩ => rfl | ⟨1, _⟩ => rfl) inbZ z) _

end Pad

end Cert.Attn.Lay

end
-- ==== Proof.KerPay.lean ====
/-
  What each store of one tap writes into the numerator, read at a pixel and channel.

  A tap's store adds to the running numerator the position table's entry for that pixel times the shifted
  `exp k · v`: at `(h, w, d)` the stored value is `acc(h, w, d) + e(h, w) · p(h, w, d)`, whatever unit axes the
  three operands carry (the accumulator is a `[1, 64, 64, 256]` block, the table entry a `[1, 1, 64, 64]` tile
  broadcast along the channel axis, `p` a `[64, 64, 256]` window). The body prints this arithmetic once per tap
  under 25 different names (and at three taps split in two stages, at three others with the table tile cast beforehand);
  every one of them is the same expression, read here once and instantiated per name.
-/
import proofs.«107659_j89111981457894_2_alg».proof.Proof.Gen.KernelIdeal.Skeleton
import proofs.«107659_j89111981457894_2_alg».proof.Proof.KerLay
import Idealize.ShloMosaic.PureOps.Ideal.Laws

noncomputable section

namespace Cert.Attn.Ker

open Cert.KernelIdeal Cert.KernelIdeal.Gen Idealize.ShloMosaic Idealize.ShloMosaic.ValueIdx Cert.Attn

/-- The table tile cast from `[1, 1, 64, 64]` to `[64, 64]`. -/
theorem tile_core (sc : S1x1x64x64.ShapeCasts S64x64) (ebt : Vec Ideal S1x1x64x64 .f32) (h w : Fin 64) :
    shapeCast S64x64 ebt sc (ix2 h w) = ebt (ix4 (0 : Fin 1) (0 : Fin 1) h w) :=
  Lay.shapeCast_11ab_ab_apply ebt sc h w

/-- The per-pixel factor broadcast along the channels. -/
theorem bcast_core (sc : S64x64.ShapeCasts S64x64x1) (bc : S64x64x1.Broadcasts S64x64x256) (e2 : FVec Ideal S64x64 .f32)
    (h w : Fin 64) (d : Fin 256) :
    broadcastTo S64x64x256 (shapeCast S64x64x1 e2 sc) bc (ix3 h w d) = e2 (ix2 h w) :=
  (Lay.broadcastTo_ab1_abc_apply _ bc h w d).trans (Lay.shapeCast_ab_ab1_apply e2 sc h w 0)

/-- One tap's update before it is cast back to the block's shape: `acc + e·p` at `(h, w, d)`. -/
theorem upd_core (sc1 : S1x64x64x256.ShapeCasts S64x64x256) (sc3 : S64x64.ShapeCasts S64x64x1)
    (bc : S64x64x1.Broadcasts S64x64x256) (ev : Vec Ideal S64x64x256 .f32) (e2 : FVec Ideal S64x64 .f32)
    (acc : Vec Ideal S1x64x64x256 .f32) (h w : Fin 64) (d : Fin 256) :
    addf (shapeCast S64x64x256 acc sc1) (mulf (broadcastTo S64x64x256 (shapeCast S64x64x1 e2 sc3) bc) ev) (ix3 h w d)
      = acc (ix4 (0 : Fin 1) h w d) + e2 (ix2 h w) * ev (ix3 h w d) :=
  congrArg₂ (· + ·) (shapeCast_1abc_abc_apply acc sc1 h w d) (congrArg (· * ev (ix3 h w d)) (bcast_core sc3 bc e2 h w d))

/-- The update cast to the block's shape `[1, 64, 64, 256]`. -/
theorem blk_core (sc4 : S64x64x256.ShapeCasts S1x64x64x256) (v : FVec Ideal S64x64x256 .f32) (h w : Fin 64) (d : Fin 256) :
    shapeCast S1x64x64x256 v sc4 (ix4 (0 : Fin 1) h w d) = v (ix3 h w d) :=
  shapeCast_abc_1abc_apply v sc4 (0 : Fin 1) h w d

theorem pay16_apply (ebt : Vec Ideal S1x1x64x64 .f32) (h w : Fin 64) :
    k0_pay16 (F := Ideal) ebt (ix2 h w) = ebt (ix4 (0 : Fin 1) (0 : Fin 1) h w) :=
  tile_core _ ebt h w

theorem pay17_apply (ev : Vec Ideal S64x64x256 .f32) (ebt : Vec Ideal S1x1x64x64 .f32) (acc : Vec Ideal S1x64x64x256 .f32)
    (h w : Fin 64) (d : Fin 256) :
    k0_pay17 (F := Ideal) ev ebt acc (ix3 h w d)
      = acc (ix4 (0 : Fin 1) h w d) + ebt (ix4 (0 : Fin 1) (0 : Fin 1) h w) * ev (ix3 h w d) :=
  (upd_core _ _ _ ev _ acc h w d).trans
    (congrArg (fun e => acc (ix4 (0 : Fin 1) h w d) + e * ev (ix3 h w d)) (tile_core _ ebt h w))

theorem pay18_apply (v : FVec Ideal S64x64x256 .f32) (h w : Fin 64) (d : Fin 256) :
    k0_pay18 (F := Ideal) v (ix4 (0 : Fin 1) h w d) = v (ix3 h w d) :=
  blk_core _ v h w d

theorem pay20_apply (ebt : Vec Ideal S1x1x64x64 .f32) (h w : Fin 64) :
    k0_pay20 (F := Ideal) ebt (ix2 h w) = ebt (ix4 (0 : Fin 1) (0 : Fin 1) h w) :=
  tile_core _ ebt h w

theorem pay21_apply (ev : Vec Ideal S64x64x256 .f32) (ebt : Vec Ideal S1x1x64x64 .f32) (acc : Vec Ideal S1x64x64x256 .f32)
    (h w : Fin 64) (d : Fin 256) :
    k0_pay21 (F := Ideal) ev ebt acc (ix4 (0 : Fin 1) h w d)
      = acc (ix4 (0 : Fin 1) h w d) + ebt (ix4 (0 : Fin 1) (0 : Fin 1) h w) * ev (ix3 h w d) :=
  ((blk_core _ _ h w d).trans (upd_core _ _ _ ev _ acc h w d)).trans
    (congrArg (fun e => acc (ix4 (0 : Fin 1) h w d) + e * ev (ix3 h w d)) (tile_core _ ebt h w))

theorem pay23_apply (ebt : Vec Ideal S1x1x64x64 .f32) (h w : Fin 64) :
    k0_pay23 (F := Ideal) ebt (ix2 h w) = ebt (ix4 (0 : Fin 1) (0 : Fin 1) h w) :=
  tile_core _ ebt h w

theorem pay24_apply (ev : Vec Ideal S64x64x256 .f32) (ebt : Vec Ideal S1x1x64x64 .f32) (acc : Vec Ideal S1x64x64x256 .f32)
    (h w : Fin 64) (d : Fin 256) :
    k0_pay24 (F := Ideal) ev ebt acc (ix4 (0 : Fin 1) h w d)
      = acc (ix4 (0 : Fin 1) h w d) + ebt (ix4 (0 : Fin 1) (0 : Fin 1) h w) * ev (ix3 h w d) :=
  ((blk_core _ _ h w d).trans (upd_core _ _ _ ev _ acc h w d)).trans
    (congrArg (fun e => acc (ix4 (0 : Fin 1) h w d) + e * ev (ix3 h w d)) (tile_core _ ebt h w))

theorem pay26_apply (ebt : Vec Ideal S1x1x64x64 .f32) (h w : Fin 64) :
    k0_pay26 (F := Ideal) ebt (ix2 h w) = ebt (ix4 (0 : Fin 1) (0 : Fin 1) h w) :=
  tile_core _ ebt h w

theorem pay27_apply (ev : Vec Ideal S64x64x256 .f32) (e2 : FVec Ideal S64x64 .f32) (acc : Vec Ideal S1x64x64x256 .f32)
    (h w : Fin 64) (d : Fin 256) :
    k0_pay27 (F := Ideal) ev e2 acc (ix4 (0 : Fin 1) h w d)
      = acc (ix4 (0 : Fin 1) h w d) + e2 (ix2 h w) * ev (ix3 h w d) :=
  (blk_core _ _ h w d).trans (upd_core _ _ _ ev e2 acc h w d)

theorem pay29_apply (ebt : Vec Ideal S1x1x64x64 .f32) (h w : Fin 64) :
    k0_pay29 (F := Ideal) ebt (ix2 h w) = ebt (ix4 (0 : Fin 1) (0 : Fin 1) h w) :=
  tile_core _ ebt h w

theorem pay30_apply (ev : Vec Ideal S64x64x256 .f32) (ebt : Vec Ideal S1x1x64x64 .f32) (acc : Vec Ideal S1x64x64x256 .f32)
    (h w : Fin 64) (d : Fin 256) :
    k0_pay30 (F := Ideal) ev ebt acc (ix4 (0 : Fin 1) h w d)
      = acc (ix4 (0 : Fin 1) h w d) + ebt (ix4 (0 : Fin 1) (0 : Fin 1) h w) * ev (ix3 h w d) :=
  ((blk_core _ _ h w d).trans (upd_core _ _ _ ev _ acc h w d)).trans
    (congrArg (fun e => acc (ix4 (0 : Fin 1) h w d) + e * ev (ix3 h w d)) (tile_core _ ebt h w))

theorem pay33_apply (ebt : Vec Ideal S1x1x64x64 .f32) (h w : Fin 64) :
    k0_pay33 (F := Ideal) ebt (ix2 h w) = ebt (ix4 (0 : Fin 1) (0 : Fin 1) h w) :=
  tile_core _ ebt h w

theorem pay34_apply (ev : Vec Ideal S64x64x256 .f32) (ebt : Vec Ideal S1x1x64x64 .f32) (acc : Vec Ideal S1x64x64x256 .f32)
    (h w : Fin 64) (d : Fin 256) :
    k0_pay34 (F := Ideal) ev ebt acc (ix4 (0 : Fin 1) h w d)
      = acc (ix4 (0 : Fin 1) h w d) + ebt (ix4 (0 : Fin 1) (0 : Fin 1) h w) * ev (ix3 h w d) :=
  ((blk_core _ _ h w d).trans (upd_core _ _ _ ev _ acc h w d)).trans
    (congrArg (fun e => acc (ix4 (0 : Fin 1) h w d) + e * ev (ix3 h w d)) (tile_core _ ebt h w))

theorem pay36_apply (ebt : Vec Ideal S1x1x64x64 .f32) (h w : Fin 64) :
    k0_pay36 (F := Ideal) ebt (ix2 h w) = ebt (ix4 (0 : Fin 1) (0 : Fin 1) h w) :=
  tile_core _ ebt h w

theorem pay37_apply (ev : Vec Ideal S64x64x256 .f32) (ebt : Vec Ideal S1x1x64x64 .f32) (acc : Vec Ideal S1x64x64x256 .f32)
    (h w : Fin 64) (d : Fin 256) :
    k0_pay37 (F := Ideal) ev ebt acc (ix4 (0 : Fin 1) h w d)
      = acc (ix4 (0 : Fin 1) h w d) + ebt (ix4 (0 : Fin 1) (0 : Fin 1) h w) * ev (ix3 h w d) :=
  ((blk_core _ _ h w d).trans (upd_core _ _ _ ev _ acc h w d)).trans
    (congrArg (fun e => acc (ix4 (0 : Fin 1) h w d) + e * ev (ix3 h w d)) (tile_core _ ebt h w))

theorem pay39_apply (ebt : Vec Ideal S1x1x64x64 .f32) (h w : Fin 64) :
    k0_pay39 (F := Ideal) ebt (ix2 h w) = ebt (ix4 (0 : Fin 1) (0 : Fin 1) h w) :=
  tile_core _ ebt h w

theorem pay40_apply (ev : Vec Ideal S64x64x256 .f32) (ebt : Vec Ideal S1x1x64x64 .f32) (acc : Vec Ideal S1x64x64x256 .f32)
    (h w : Fin 64) (d : Fin 256) :
    k0_pay40 (F := Ideal) ev ebt acc (ix4 (0 : Fin 1) h w d)
      = acc (ix4 (0 : Fin 1) h w d) + ebt (ix4 (0 : Fin 1) (0 : Fin 1) h w) * ev (ix3 h w d) :=
  ((blk_core _ _ h w d).trans (upd_core _ _ _ ev _ acc h w d)).trans
    (congrArg (fun e => acc (ix4 (0 : Fin 1) h w d) + e * ev (ix3 h w d)) (tile_core _ ebt h w))

theorem pay42_apply (ebt : Vec Ideal S1x1x64x64 .f32) (h w : Fin 64) :
    k0_pay42 (F := Ideal) ebt (ix2 h w) = ebt (ix4 (0 : Fin 1) (0 : Fin 1) h w) :=
  tile_core _ ebt h w

theorem pay43_apply (ev : Vec Ideal S64x64x256 .f32) (ebt : Vec Ideal S1x1x64x64 .f32) (acc : Vec Ideal S1x64x64x256 .f32)
    (h w : Fin 64) (d : Fin 256) :
    k0_pay43 (F := Ideal) ev ebt acc (ix4 (0 : Fin 1) h w d)
      = acc (ix4 (0 : Fin 1) h w d) + ebt (ix4 (0 : Fin 1) (0 : Fin 1) h w) * ev (ix3 h w d) :=
  ((blk_core _ _ h w d).trans (upd_core _ _ _ ev _ acc h w d)).trans
    (congrArg (fun e => acc (ix4 (0 : Fin 1) h w d) + e * ev (ix3 h w d)) (tile_core _ ebt h w))

theorem pay45_apply (ebt : Vec Ideal S1x1x64x64 .f32) (h w : Fin 64) :
    k0_pay45 (F := Ideal) ebt (ix2 h w) = ebt (ix4 (0 : Fin 1) (0 : Fin 1) h w) :=
  tile_core _ ebt h w

theorem pay46_apply (ev : Vec Ideal S64x64x256 .f32) (ebt : Vec Ideal S1x1x64x64 .f32) (acc : Vec Ideal S1x64x64x256 .f32)
    (h w : Fin 64) (d : Fin 256) :
    k0_pay46 (F := Ideal) ev ebt acc (ix4 (0 : Fin 1) h w d)
      = acc (ix4 (0 : Fin 1) h w d) + ebt (ix4 (0 : Fin 1) (0 : Fin 1) h w) * ev (ix3 h w d) :=
  ((blk_core _ _ h w d).trans (upd_core _ _ _ ev _ acc h w d)).trans
    (congrArg (fun e => acc (ix4 (0 : Fin 1) h w d) + e * ev (ix3 h w d)) (tile_core _ ebt h w))

theorem pay48_apply (ebt : Vec Ideal S1x1x64x64 .f32) (h w : Fin 64) :
    k0_pay48 (F := Ideal) ebt (ix2 h w) = ebt (ix4 (0 : Fin 1) (0 : Fin 1) h w) :=
  tile_core _ ebt h w

theorem pay49_apply (ev : Vec Ideal S64x64x256 .f32) (ebt : Vec Ideal S1x1x64x64 .f32) (acc : Vec Ideal S1x64x64x256 .f32)
    (h w : Fin 64) (d : Fin 256) :
    k0_pay49 (F := Ideal) ev ebt acc (ix3 h w d)
      = acc (ix4 (0 : Fin 1) h w d) + ebt (ix4 (0 : Fin 1) (0 : Fin 1) h w) * ev (ix3 h w d) :=
  (upd_core _ _ _ ev _ acc h w d).trans
    (congrArg (fun e => acc (ix4 (0 : Fin 1) h w d) + e * ev (ix3 h w d)) (tile_core _ ebt h w))

theorem pay50_apply (v : FVec Ideal S64x64x256 .f32) (h w : Fin 64) (d : Fin 256) :
    k0_pay50 (F := Ideal) v (ix4 (0 : Fin 1) h w d) = v (ix3 h w d) :=
  blk_core _ v h w d

theorem pay52_apply (ebt : Vec Ideal S1x1x64x64 .f32) (h w : Fin 64) :
    k0_pay52 (F := Ideal) ebt (ix2 h w) = ebt (ix4 (0 : Fin 1) (0 : Fin 1) h w) :=
  tile_core _ ebt h w

theorem pay53_apply (ev : Vec Ideal S64x64x256 .f32) (ebt : Vec Ideal S1x1x64x64 .f32) (acc : Vec Ideal S1x64x64x256 .f32)
    (h w : Fin 64) (d : Fin 256) :
    k0_pay53 (F := Ideal) ev ebt acc (ix4 (0 : Fin 1) h w d)
      = acc (ix4 (0 : Fin 1) h w d) + ebt (ix4 (0 : Fin 1) (0 : Fin 1) h w) * ev (ix3 h w d) :=
  ((blk_core _ _ h w d).trans (upd_core _ _ _ ev _ acc h w d)).trans
    (congrArg (fun e => acc (ix4 (0 : Fin 1) h w d) + e * ev (ix3 h w d)) (tile_core _ ebt h w))

theorem pay55_apply (ebt : Vec Ideal S1x1x64x64 .f32) (h w : Fin 64) :
    k0_pay55 (F := Ideal) ebt (ix2 h w) = ebt (ix4 (0 : Fin 1) (0 : Fin 1) h w) :=
  tile_core _ ebt h w

theorem pay56_apply (ev : Vec Ideal S64x64x256 .f32) (ebt : Vec Ideal S1x1x64x64 .f32) (acc : Vec Ideal S1x64x64x256 .f32)
    (h w : Fin 64) (d : Fin 256) :
    k0_pay56 (F := Ideal) ev ebt acc (ix4 (0 : Fin 1) h w d)
      = acc (ix4 (0 : Fin 1) h w d) + ebt (ix4 (0 : Fin 1) (0 : Fin 1) h w) * ev (ix3 h w d) :=
  ((blk_core _ _ h w d).trans (upd_core _ _ _ ev _ acc h w d)).trans
    (congrArg (fun e => acc (ix4 (0 : Fin 1) h w d) + e * ev (ix3 h w d)) (tile_core _ ebt h w))

theorem pay58_apply (ebt : Vec Ideal S1x1x64x64 .f32) (h w : Fin 64) :
    k0_pay58 (F := Ideal) ebt (ix2 h w) = ebt (ix4 (0 : Fin 1) (0 : Fin 1) h w) :=
  tile_core _ ebt h w

theorem pay59_apply (ev : Vec Ideal S64x64x256 .f32) (e2 : FVec Ideal S64x64 .f32) (acc : Vec Ideal S1x64x64x256 .f32)
    (h w : Fin 64) (d : Fin 256) :
    k0_pay59 (F := Ideal) ev e2 acc (ix4 (0 : Fin 1) h w d)
      = acc (ix4 (0 : Fin 1) h w d) + e2 (ix2 h w) * ev (ix3 h w d) :=
  (blk_core _ _ h w d).trans (upd_core _ _ _ ev e2 acc h w d)

theorem pay61_apply (ebt : Vec Ideal S1x1x64x64 .f32) (h w : Fin 64) :
    k0_pay61 (F := Ideal) ebt (ix2 h w) = ebt (ix4 (0 : Fin 1) (0 : Fin 1) h w) :=
  tile_core _ ebt h w

theorem pay62_apply (ev : Vec Ideal S64x64x256 .f32) (ebt : Vec Ideal S1x1x64x64 .f32) (acc : Vec Ideal S1x64x64x256 .f32)
    (h w : Fin 64) (d : Fin 256) :
    k0_pay62 (F := Ideal) ev ebt acc (ix4 (0 : Fin 1) h w d)
      = acc (ix4 (0 : Fin 1) h w d) + ebt (ix4 (0 : Fin 1) (0 : Fin 1) h w) * ev (ix3 h w d) :=
  ((blk_core _ _ h w d).trans (upd_core _ _ _ ev _ acc h w d)).trans
    (congrArg (fun e => acc (ix4 (0 : Fin 1) h w d) + e * ev (ix3 h w d)) (tile_core _ ebt h w))

theorem pay65_apply (ebt : Vec Ideal S1x1x64x64 .f32) (h w : Fin 64) :
    k0_pay65 (F := Ideal) ebt (ix2 h w) = ebt (ix4 (0 : Fin 1) (0 : Fin 1) h w) :=
  tile_core _ ebt h w

theorem pay66_apply (ev : Vec Ideal S64x64x256 .f32) (ebt : Vec Ideal S1x1x64x64 .f32) (acc : Vec Ideal S1x64x64x256 .f32)
    (h w : Fin 64) (d : Fin 256) :
    k0_pay66 (F := Ideal) ev ebt acc (ix4 (0 : Fin 1) h w d)
      = acc (ix4 (0 : Fin 1) h w d) + ebt (ix4 (0 : Fin 1) (0 : Fin 1) h w) * ev (ix3 h w d) :=
  ((blk_core _ _ h w d).trans (upd_core _ _ _ ev _ acc h w d)).trans
    (congrArg (fun e => acc (ix4 (0 : Fin 1) h w d) + e * ev (ix3 h w d)) (tile_core _ ebt h w))

theorem pay68_apply (ebt : Vec Ideal S1x1x64x64 .f32) (h w : Fin 64) :
    k0_pay68 (F := Ideal) ebt (ix2 h w) = ebt (ix4 (0 : Fin 1) (0 : Fin 1) h w) :=
  tile_core _ ebt h w

theorem pay69_apply (ev : Vec Ideal S64x64x256 .f32) (ebt : Vec Ideal S1x1x64x64 .f32) (acc : Vec Ideal S1x64x64x256 .f32)
    (h w : Fin 64) (d : Fin 256) :
    k0_pay69 (F := Ideal) ev ebt acc (ix4 (0 : Fin 1) h w d)
      = acc (ix4 (0 : Fin 1) h w d) + ebt (ix4 (0 : Fin 1) (0 : Fin 1) h w) * ev (ix3 h w d) :=
  ((blk_core _ _ h w d).trans (upd_core _ _ _ ev _ acc h w d)).trans
    (congrArg (fun e => acc (ix4 (0 : Fin 1) h w d) + e * ev (ix3 h w d)) (tile_core _ ebt h w))

theorem pay71_apply (ebt : Vec Ideal S1x1x64x64 .f32) (h w : Fin 64) :
    k0_pay71 (F := Ideal) ebt (ix2 h w) = ebt (ix4 (0 : Fin 1) (0 : Fin 1) h w) :=
  tile_core _ ebt h w

theorem pay72_apply (ev : Vec Ideal S64x64x256 .f32) (ebt : Vec Ideal S1x1x64x64 .f32) (acc : Vec Ideal S1x64x64x256 .f32)
    (h w : Fin 64) (d : Fin 256) :
    k0_pay72 (F := Ideal) ev ebt acc (ix4 (0 : Fin 1) h w d)
      = acc (ix4 (0 : Fin 1) h w d) + ebt (ix4 (0 : Fin 1) (0 : Fin 1) h w) * ev (ix3 h w d) :=
  ((blk_core _ _ h w d).trans (upd_core _ _ _ ev _ acc h w d)).trans
    (congrArg (fun e => acc (ix4 (0 : Fin 1) h w d) + e * ev (ix3 h w d)) (tile_core _ ebt h w))

theorem pay74_apply (ebt : Vec Ideal S1x1x64x64 .f32) (h w : Fin 64) :
    k0_pay74 (F := Ideal) ebt (ix2 h w) = ebt (ix4 (0 : Fin 1) (0 : Fin 1) h w) :=
  tile_core _ ebt h w

theorem pay75_apply (ev : Vec Ideal S64x64x256 .f32) (ebt : Vec Ideal S1x1x64x64 .f32) (acc : Vec Ideal S1x64x64x256 .f32)
    (h w : Fin 64) (d : Fin 256) :
    k0_pay75 (F := Ideal) ev ebt acc (ix4 (0 : Fin 1) h w d)
      = acc (ix4 (0 : Fin 1) h w d) + ebt (ix4 (0 : Fin 1) (0 : Fin 1) h w) * ev (ix3 h w d) :=
  ((blk_core _ _ h w d).trans (upd_core _ _ _ ev _ acc h w d)).trans
    (congrArg (fun e => acc (ix4 (0 : Fin 1) h w d) + e * ev (ix3 h w d)) (tile_core _ ebt h w))

theorem pay77_apply (ebt : Vec Ideal S1x1x64x64 .f32) (h w : Fin 64) :
    k0_pay77 (F := Ideal) ebt (ix2 h w) = ebt (ix4 (0 : Fin 1) (0 : Fin 1) h w) :=
  tile_core _ ebt h w

theorem pay78_apply (ev : Vec Ideal S64x64x256 .f32) (ebt : Vec Ideal S1x1x64x64 .f32) (acc : Vec Ideal S1x64x64x256 .f32)
    (h w : Fin 64) (d : Fin 256) :
    k0_pay78 (F := Ideal) ev ebt acc (ix4 (0 : Fin 1) h w d)
      = acc (ix4 (0 : Fin 1) h w d) + ebt (ix4 (0 : Fin 1) (0 : Fin 1) h w) * ev (ix3 h w d) :=
  ((blk_core _ _ h w d).trans (upd_core _ _ _ ev _ acc h w d)).trans
    (congrArg (fun e => acc (ix4 (0 : Fin 1) h w d) + e * ev (ix3 h w d)) (tile_core _ ebt h w))

theorem pay80_apply (ebt : Vec Ideal S1x1x64x64 .f32) (h w : Fin 64) :
    k0_pay80 (F := Ideal) ebt (ix2 h w) = ebt (ix4 (0 : Fin 1) (0 : Fin 1) h w) :=
  tile_core _ ebt h w

theorem pay81_apply (ev : Vec Ideal S64x64x256 .f32) (ebt : Vec Ideal S1x1x64x64 .f32) (acc : Vec Ideal S1x64x64x256 .f32)
    (h w : Fin 64) (d : Fin 256) :
    k0_pay81 (F := Ideal) ev ebt acc (ix3 h w d)
      = acc (ix4 (0 : Fin 1) h w d) + ebt (ix4 (0 : Fin 1) (0 : Fin 1) h w) * ev (ix3 h w d) :=
  (upd_core _ _ _ ev _ acc h w d).trans
    (congrArg (fun e => acc (ix4 (0 : Fin 1) h w d) + e * ev (ix3 h w d)) (tile_core _ ebt h w))

theorem pay82_apply (v : FVec Ideal S64x64x256 .f32) (h w : Fin 64) (d : Fin 256) :
    k0_pay82 (F := Ideal) v (ix4 (0 : Fin 1) h w d) = v (ix3 h w d) :=
  blk_core _ v h w d

theorem pay84_apply (ebt : Vec Ideal S1x1x64x64 .f32) (h w : Fin 64) :
    k0_pay84 (F := Ideal) ebt (ix2 h w) = ebt (ix4 (0 : Fin 1) (0 : Fin 1) h w) :=
  tile_core _ ebt h w

theorem pay85_apply (ev : Vec Ideal S64x64x256 .f32) (ebt : Vec Ideal S1x1x64x64 .f32) (acc : Vec Ideal S1x64x64x256 .f32)
    (h w : Fin 64) (d : Fin 256) :
    k0_pay85 (F := Ideal) ev ebt acc (ix4 (0 : Fin 1) h w d)
      = acc (ix4 (0 : Fin 1) h w d) + ebt (ix4 (0 : Fin 1) (0 : Fin 1) h w) * ev (ix3 h w d) :=
  ((blk_core _ _ h w d).trans (upd_core _ _ _ ev _ acc h w d)).trans
    (congrArg (fun e => acc (ix4 (0 : Fin 1) h w d) + e * ev (ix3 h w d)) (tile_core _ ebt h w))

theorem pay87_apply (ebt : Vec Ideal S1x1x64x64 .f32) (h w : Fin 64) :
    k0_pay87 (F := Ideal) ebt (ix2 h w) = ebt (ix4 (0 : Fin 1) (0 : Fin 1) h w) :=
  tile_core _ ebt h w

theorem pay88_apply (ev : Vec Ideal S64x64x256 .f32) (ebt : Vec Ideal S1x1x64x64 .f32) (acc : Vec Ideal S1x64x64x256 .f32)
    (h w : Fin 64) (d : Fin 256) :
    k0_pay88 (F := Ideal) ev ebt acc (ix4 (0 : Fin 1) h w d)
      = acc (ix4 (0 : Fin 1) h w d) + ebt (ix4 (0 : Fin 1) (0 : Fin 1) h w) * ev (ix3 h w d) :=
  ((blk_core _ _ h w d).trans (upd_core _ _ _ ev _ acc h w d)).trans
    (congrArg (fun e => acc (ix4 (0 : Fin 1) h w d) + e * ev (ix3 h w d)) (tile_core _ ebt h w))

theorem pay90_apply (ebt : Vec Ideal S1x1x64x64 .f32) (h w : Fin 64) :
    k0_pay90 (F := Ideal) ebt (ix2 h w) = ebt (ix4 (0 : Fin 1) (0 : Fin 1) h w) :=
  tile_core _ ebt h w

theorem pay91_apply (ev : Vec Ideal S64x64x256 .f32) (e2 : FVec Ideal S64x64 .f32) (acc : Vec Ideal S1x64x64x256 .f32)
    (h w : Fin 64) (d : Fin 256) :
    k0_pay91 (F := Ideal) ev e2 acc (ix4 (0 : Fin 1) h w d)
      = acc (ix4 (0 : Fin 1) h w d) + e2 (ix2 h w) * ev (ix3 h w d) :=
  (blk_core _ _ h w d).trans (upd_core _ _ _ ev e2 acc h w d)

theorem pay93_apply (ebt : Vec Ideal S1x1x64x64 .f32) (h w : Fin 64) :
    k0_pay93 (F := Ideal) ebt (ix2 h w) = ebt (ix4 (0 : Fin 1) (0 : Fin 1) h w) :=
  tile_core _ ebt h w

theorem pay94_apply (ev : Vec Ideal S64x64x256 .f32) (ebt : Vec Ideal S1x1x64x64 .f32) (acc : Vec Ideal S1x64x64x256 .f32)
    (h w : Fin 64) (d : Fin 256) :
    k0_pay94 (F := Ideal) ev ebt acc (ix4 (0 : Fin 1) h w d)
      = acc (ix4 (0 : Fin 1) h w d) + ebt (ix4 (0 : Fin 1) (0 : Fin 1) h w) * ev (ix3 h w d) :=
  ((blk_core _ _ h w d).trans (upd_core _ _ _ ev _ acc h w d)).trans
    (congrArg (fun e => acc (ix4 (0 : Fin 1) h w d) + e * ev (ix3 h w d)) (tile_core _ ebt h w))

/-- The zero fills: the numerator block, and the padded buffer of `exp k · v`, start at `0` everywhere (a constant
    seen through a shape cast is the constant). -/
theorem pay14_apply (i : S1x64x64x256.Idx) : k0_pay14 (F := Ideal) i = 0 := by
  unfold k0_pay14 shapeCast
  exact Ideal.ofBits_zero_f32

theorem pay9_apply (i : S72x72x256.Idx) : k0_pay9 (F := Ideal) i = 0 := by
  unfold k0_pay9 shapeCast
  exact Ideal.ofBits_zero_f32

/-- The tile of `exp k · v` goes into the padded buffer as it is. -/
theorem pay12_eq (v : FVec Ideal S64x64x256 .f32) : k0_pay12 (F := Ideal) v = v :=
  shapeCast_self v _

end Cert.Attn.Ker

end
-- ==== Proof.KerSpec.lean ====
/-
  The factored form of the windowed attention over an ARBITRARY position table.

  The kernel's body never sees `w_h`, `w_v`: it is handed the table `E[ii, jj, h, w]` (which the host computed as
  `exp β · mask`) and, for one image, accumulates tap after tap `E·P'` into the numerator and `E·S'` into the
  denominator, `P = exp k · v` and `S = ∑_d exp k` shifted by the tap and padded by `0`. Stated over any table `E`, any
  slab `P` and any plane `S`; at `E = exp β · mask` it is the factored form of `Spec.lean`.
-/
import proofs.«107659_j89111981457894_2_alg».proof.Proof.Spec

noncomputable section

open scoped BigOperators

namespace Cert.Attn

open Idealize.ShloMosaic

abbrev Plane := Fin 64 → Fin 64 → EReal
abbrev Slab := Fin 64 → Fin 64 → Fin 256 → EReal
abbrev Tbl := Fin 5 → Fin 5 → Fin 64 → Fin 64 → EReal

/-- The numerator of one image after `t` taps. -/
def facOut (E : Tbl) (P : Slab) : ℕ → Slab
  | 0 => fun _ _ _ => 0
  | t + 1 => fun h w d => facOut E P t h w d
      + E (tapI t) (tapJ t) h w * pad2 (fun p q => P p q d) (h.val + (tapI t).val) (w.val + (tapJ t).val)

/-- The denominator of one image after `t` taps. -/
def facNorm (E : Tbl) (S : Plane) : ℕ → Plane
  | 0 => fun _ _ => 0
  | t + 1 => fun h w => facNorm E S t h w
      + E (tapI t) (tapJ t) h w * pad2 S (h.val + (tapI t).val) (w.val + (tapJ t).val)

theorem facOut_succ (E : Tbl) (P : Slab) (t : ℕ) (h w : Fin 64) (d : Fin 256) :
    facOut E P (t + 1) h w d = facOut E P t h w d
      + E (tapI t) (tapJ t) h w * pad2 (fun p q => P p q d) (h.val + (tapI t).val) (w.val + (tapJ t).val) := rfl

theorem facNorm_succ (E : Tbl) (S : Plane) (t : ℕ) (h w : Fin 64) :
    facNorm E S (t + 1) h w = facNorm E S t h w
      + E (tapI t) (tapJ t) h w * pad2 S (h.val + (tapI t).val) (w.val + (tapJ t).val) := rfl

/-- The result for one image from its numerator slab and denominator plane. -/
def finish (N : Slab) (D : Plane) (Wp : Mat) : Slab := fun h w o =>
  ∑ d : Fin 256, Ideal.div (N h w d) (D h w + eps) * Wp o d

/-- What the body leaves for one image, over an arbitrary table. -/
def imgResult (E : Tbl) (P : Slab) (S : Plane) (Wp : Mat) : Slab :=
  finish (facOut E P 25) (facNorm E S 25) Wp

/-! ## One image tile as the body sees it -/

/-- The body's image tile `[1, 64, 64, 256]` as an image (the same tile whatever the batch coordinate). -/
def tileImg (x0 : (⟨4, ![1, 64, 64, 256]⟩ : Shape).Idx → EReal) : Img :=
  fun _ h w c => x0 (ValueIdx.ix4 (0 : Fin 1) h w c)

/-- The body's position table by coordinates. -/
def tbl (x4 : (⟨4, ![5, 5, 64, 64]⟩ : Shape).Idx → EReal) : Tbl := fun ii jj h w => x4 (ValueIdx.ix4 ii jj h w)

/-- `exp k · v` of the tile, and the channel sum of `exp k`. -/
def tileP (x0 : (⟨4, ![1, 64, 64, 256]⟩ : Shape).Idx → EReal) (x1 x2 : (⟨2, ![256, 256]⟩ : Shape).Idx → EReal) : Slab :=
  evk (proj (tileImg x0) (co2 x1)) (proj (tileImg x0) (co2 x2)) 0
def tileS (x0 : (⟨4, ![1, 64, 64, 256]⟩ : Shape).Idx → EReal) (x1 : (⟨2, ![256, 256]⟩ : Shape).Idx → EReal) : Plane :=
  sk (proj (tileImg x0) (co2 x1)) 0

theorem kerOut_eq_fac (k v : Img) (wh wv : Vec5) (t : ℕ) (b : Fin 16) :
    kerOut k v wh wv t b = facOut (eb wh wv) (evk k v b) t := by
  induction t with
  | zero => rfl
  | succ t ih =>
    funext h w d
    show kerOut k v wh wv t b h w d + _ = facOut (eb wh wv) (evk k v b) t h w d + _
    rw [ih]

theorem kerNorm_eq_fac (k : Img) (wh wv : Vec5) (t : ℕ) (b : Fin 16) :
    kerNorm k wh wv t b = facNorm (eb wh wv) (sk k b) t := by
  induction t with
  | zero => rfl
  | succ t ih =>
    funext h w
    show kerNorm k wh wv t b h w + _ = facNorm (eb wh wv) (sk k b) t h w + _
    rw [ih]

/-- The factored form of `Spec.lean` is the per-image form at the table `exp β · mask`. -/
theorem kerResult_eq_img (x : Img) (wh wv : Vec5) (Wk Wv Wp : Mat) (b : Fin 16) :
    kerResult x wh wv Wk Wv Wp b
      = imgResult (eb wh wv) (evk (proj x Wk) (proj x Wv) b) (sk (proj x Wk) b) Wp := by
  funext h w o
  show ∑ d : Fin 256, Ideal.div (kerOut (proj x Wk) (proj x Wv) wh wv 25 b h w d)
      (kerNorm (proj x Wk) wh wv 25 b h w + eps) * Wp o d = _
  rw [kerOut_eq_fac, kerNorm_eq_fac]
  rfl

end Cert.Attn

end
-- ==== Proof.KerMat.lean ====
/-
  The three payloads of the kernel body that contain a matrix product, read at an index: the slab `exp k · v`, the plane
  `∑_d exp k`, and the final normalised projection.
-/
import proofs.«107659_j89111981457894_2_alg».proof.Proof.Gen.KernelIdeal.Skeleton
import proofs.«107659_j89111981457894_2_alg».proof.Proof.KerLay
import proofs.«107659_j89111981457894_2_alg».proof.Proof.KerSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Attn.Ker

open Idealize.ShloMosaic Idealize.ShloMosaic.ValueIdx Cert.KernelIdeal Cert.KernelIdeal.Gen Cert.Attn.Lay

/-- The dimension numbers of the body's matrix products: `[4096, 256] × [256, 256]`, contracting the second axis of the
    left operand with the first of the right. -/
abbrev MM : DotDims S4096x256 S256x256 S4096x256 := dot_S4096x256_S256x256_S4096x256_1_0_0_1_n_n

theorem mm_lhs0 (i : S4096x256.Idx) (q : MM.contr.Idx) : (MM.lhsIdx i q 0).val = (i 0).val := by
  unfold DotDims.lhsIdx
  rw [dif_neg (show ¬(0 : Fin S4096x256.rank) ∈ MM.lhsBatch by decide), dif_pos (show (0 : Fin S4096x256.rank) ∈ MM.lhsNonContracting by decide)]
  rfl

theorem mm_lhs1 (i : S4096x256.Idx) (q : MM.contr.Idx) : (MM.lhsIdx i q 1).val = (q ⟨0, by decide⟩).val :=
  MM.lhsIdx_val_of_single rfl i q

theorem mm_rhs0 (i : S4096x256.Idx) (q : MM.contr.Idx) : (MM.rhsIdx i q 0).val = (q ⟨0, by decide⟩).val :=
  MM.rhsIdx_val_of_single rfl i q

theorem mm_rhs1 (i : S4096x256.Idx) (q : MM.contr.Idx) : (MM.rhsIdx i q 1).val = (i 1).val := by
  unfold DotDims.rhsIdx
  rw [dif_neg (show ¬(1 : Fin S256x256.rank) ∈ MM.rhsBatch by decide), dif_pos (show (1 : Fin S256x256.rank) ∈ MM.rhsNonContracting by decide)]
  rfl

/-- The body's matrix product into a zero accumulator, at row `r` and column `d`: `∑_k lhs[r, k] · rhs[k, d]`. -/
theorem mm_apply {φ₁ φ₂ : FTy} (lhs : FVec Ideal S4096x256 φ₁) (rhs : FVec Ideal S256x256 φ₂) (r : Fin 4096) (d : Fin 256) :
    matmul MM none lhs rhs (constant (F := Ideal) S4096x256 .f32 0x00000000#32) (ix2 r d)
      = ∑ k : Fin 256, lhs (ix2 r k) * rhs (ix2 k d) := by
  simp only [matmul]
  rw [Ideal.matmul_constant_zero_apply, ← Equiv.sum_comp (ValueIdx.contrEquiv1 MM 256 rfl rfl).symm]
  refine Finset.sum_congr rfl fun k _ => ?_
  have hk := ValueIdx.contrEquiv1_symm_val MM 256 rfl rfl k
  have el : MM.lhsIdx (ix2 r d) ((ValueIdx.contrEquiv1 MM 256 rfl rfl).symm k) = ix2 r k := funext fun a => Fin.ext (by
    match a with
    | ⟨0, _⟩ => exact mm_lhs0 _ _
    | ⟨1, _⟩ => exact (mm_lhs1 _ _).trans hk)
  have er : MM.rhsIdx (ix2 r d) ((ValueIdx.contrEquiv1 MM 256 rfl rfl).symm k) = ix2 k d := funext fun a => Fin.ext (by
    match a with
    | ⟨0, _⟩ => exact (mm_rhs0 _ _).trans hk
    | ⟨1, _⟩ => exact mm_rhs1 _ _)
  rw [el, er]

variable {α : Type}

/-- A `[1, 64, 64, 256]` tile cast to `[64, 64, 256]` reads, at `(h, w, c)`, the tile at `(0, h, w, c)`. -/
theorem drop1_apply (x : S1x64x64x256.Idx → α) (hc : S1x64x64x256.ShapeCasts S64x64x256) (h w : Fin 64) (c : Fin 256) :
    shapeCast S64x64x256 x hc (ix3 h w c) = x (ix4 (0 : Fin 1) h w c) :=
  shapeCast_apply x hc _ _ (by
    rw [Shape.rowMajor_val_four, Shape.rowMajor_val_three]
    show ((0 * 64 + h.val) * 64 + w.val) * 256 + c.val = (h.val * 64 + w.val) * 256 + c.val
    simp)

/-- A `[64, 64, 256]` slab cast to `[1, 64, 64, 256]` reads, at `(0, h, w, c)`, the slab at `(h, w, c)`. -/
theorem add1_apply (x : S64x64x256.Idx → α) (hc : S64x64x256.ShapeCasts S1x64x64x256) (h w : Fin 64) (c : Fin 256) :
    shapeCast S1x64x64x256 x hc (ix4 (0 : Fin 1) h w c) = x (ix3 h w c) :=
  shapeCast_apply x hc _ _ (by
    rw [Shape.rowMajor_val_three, Shape.rowMajor_val_four]
    show (h.val * 64 + w.val) * 256 + c.val = ((0 * 64 + h.val) * 64 + w.val) * 256 + c.val
    simp)

/-- A slab flattened to `[4096, 256]`, multiplied by a `[256, 256]` matrix transposed, and cast back to
    `[64, 64, 256]`: at pixel `(h, w)`, channel `d`, it is `∑_k slab[h, w, k] · W[d, k]`. -/
theorem slab_mm_read {φ₁ φ₂ : FTy} (y : FVec Ideal S64x64x256 φ₁) (W : FVec Ideal S256x256 φ₂)
    (hc2 : S64x64x256.ShapeCasts S4096x256) (hc3 : S4096x256.ShapeCasts S64x64x256)
    (ht : S256x256.Transposes [1, 0] S256x256) (h w : Fin 64) (d : Fin 256) :
    shapeCast S64x64x256 (matmul MM none (shapeCast S4096x256 y hc2) (transpose S256x256 [1, 0] W ht)
        (constant (F := Ideal) S4096x256 .f32 0x00000000#32)) hc3 (ix3 h w d)
      = ∑ k : Fin 256, y (ix3 h w k) * W (ix2 d k) := by
  refine (shapeCast_Mc_abc_apply _ hc3 h w d (flat h w) rfl).trans ?_
  refine (mm_apply _ _ (flat h w) d).trans ?_
  refine Finset.sum_congr rfl fun k _ => ?_
  rw [shapeCast_abc_Mc_apply y hc2 h w k (flat h w) rfl, transpose_ix2_apply]

/-- The tile's projection by a weight matrix as the body computes it. -/
theorem tile_proj_read (x0 : FVec Ideal S1x64x64x256 .bf16) (W : FVec Ideal S256x256 .bf16)
    (hc1 : S1x64x64x256.ShapeCasts S64x64x256) (hc2 : S64x64x256.ShapeCasts S4096x256) (hc3 : S4096x256.ShapeCasts S64x64x256)
    (hs : S256x256.ShapeCasts S256x256) (ht : S256x256.Transposes [1, 0] S256x256) (h w : Fin 64) (d : Fin 256) :
    shapeCast S64x64x256 (matmul MM none (shapeCast S4096x256 (shapeCast S64x64x256 x0 hc1) hc2)
        (transpose S256x256 [1, 0] (shapeCast S256x256 W hs) ht) (constant (F := Ideal) S4096x256 .f32 0x00000000#32)) hc3 (ix3 h w d)
      = proj (tileImg x0) (co2 W) 0 h w d := by
  refine (slab_mm_read _ _ hc2 hc3 ht h w d).trans ?_
  refine Finset.sum_congr rfl fun k _ => ?_
  rw [drop1_apply, shapeCast_self]
  rfl

/-- `exp k` of the tile, as the body computes it. -/
theorem pay5_apply (x0 : Vec Ideal S1x64x64x256 .bf16) (x1 : Vec Ideal S256x256 .bf16) (h w : Fin 64) (d : Fin 256) :
    k0_pay5 (F := Ideal) x0 x1 (ix3 h w d) = ek (proj (tileImg x0) (co2 x1)) 0 h w d :=
  congrArg Ideal.exp (tile_proj_read x0 x1 _ _ _ _ _ h w d)

/-- The slab `exp k · v` of the tile, as the body computes it. -/
theorem pay6_apply (x0 : Vec Ideal S1x64x64x256 .bf16) (x1 x2 : Vec Ideal S256x256 .bf16) (h w : Fin 64) (d : Fin 256) :
    k0_pay6 (F := Ideal) x0 x1 x2 (ix3 h w d) = tileP x0 x1 x2 h w d := by
  show k0_pay5 (F := Ideal) x0 x1 (ix3 h w d) * _ = _
  rw [pay5_apply]
  exact congrArg (_ * ·) (tile_proj_read x0 x2 _ _ _ _ _ h w d)

/-- The channel sum of `exp k` of the tile, as the body computes it. -/
theorem pay7_apply (x0 : Vec Ideal S1x64x64x256 .bf16) (x1 : Vec Ideal S256x256 .bf16) (h w : Fin 64) :
    k0_pay7 (F := Ideal) x0 x1 (ix2 h w) = tileS x0 x1 h w := by
  refine (Ideal.multiReduction_add_single (k0_pay5 (F := Ideal) x0 x1) 0x00000000#32 reduces_S64x64x256_S64x64 (.inl rfl) rfl (ix2 h w)).trans ?_
  refine Finset.sum_congr rfl fun d _ => ?_
  refine Eq.trans ?_ (pay5_apply x0 x1 h w d)
  exact congrArg (k0_pay5 (F := Ideal) x0 x1) (funext fun a => Fin.ext (by match a with | ⟨0, _⟩ => rfl | ⟨1, _⟩ => rfl | ⟨2, _⟩ => rfl))

/-- The final payload: the numerator over the denominator plus `ε`, projected by the output weights. -/
theorem pay2_apply (wp : FVec Ideal S256x256 .bf16) (acc : Vec Ideal S1x64x64x256 .f32) (nrm : Vec Ideal S64x64 .f32)
    (h w : Fin 64) (o : Fin 256) :
    k0_pay2 (F := Ideal) wp acc nrm (ix4 (0 : Fin 1) h w o)
      = finish (fun h w d => acc (ix4 (0 : Fin 1) h w d)) (fun h w => nrm (ix2 h w)) (co2 wp) h w o := by
  unfold k0_pay2
  refine (add1_apply _ _ h w o).trans ?_
  refine (slab_mm_read _ wp _ _ _ h w o).trans ?_
  refine Finset.sum_congr rfl fun d _ => ?_
  show Ideal.div (shapeCast S64x64x256 acc _ (ix3 h w d)) (broadcastTo S64x64x256 _ _ (ix3 h w d)) * wp (ix2 o d) = _
  rw [drop1_apply, broadcastTo_ab1_abc_apply]
  show Ideal.div _ (shapeCast S64x64x1 nrm _ (ix3 h w (0 : Fin 1)) + eps) * _ = _
  rw [shapeCast_ab_ab1_apply]

end Cert.Attn.Ker

end
-- ==== Proof.KerChain.lean ====
/-
  The numerator the body leaves, tap by tap.

  The body zeroes its output block, then for each of the 25 taps reads the block back, adds the table entry times the
  shifted `exp k · v` and stores the sum. The shifted `exp k · v` is read from a 72×72×256 buffer that was zero-filled
  and then written with the 64×64×256 tile at offset (4, 4): tap `(ii, jj)` reads it at offset `(2 + ii, 2 + jj)`, so
  pixel `(h, w)` sees the tile at `(h + ii - 2, w + jj - 2)` when that is on the grid and `0` otherwise — the padded read
  `pad2` of the specification. Read back after tap `t`, the block is the specification's numerator after `t + 1` taps.
-/
import proofs.«107659_j89111981457894_2_alg».proof.Proof.Gen.KernelIdeal.Frame
import proofs.«107659_j89111981457894_2_alg».proof.Proof.KerPay
import proofs.«107659_j89111981457894_2_alg».proof.Proof.KerSpec
import proofs.«107659_j89111981457894_2_alg».proof.Proof.KerMat

set_option maxRecDepth 16384

noncomputable section

namespace Cert.Attn.Ker

open Cert.KernelIdeal Cert.KernelIdeal.Gen Idealize.ShloMosaic Idealize.ShloMosaic.ValueIdx Cert.Attn
open Idealize.SL.Sem

/-- A whole-buffer read of a staged input block is the block. -/
theorem block_read {S : Shape} {e : EltTy} {sp : Space} (arg : Memref sig .tc sp S e) (harg : arg.IsWhole) (x : Vec Ideal S e)
    {off : Fin S.rank → ℕ} (hz : off = fun _ => 0) (inb : ∀ a, off a + S.size a ≤ S.size a) :
    View.readAt (Elt Ideal) arg.view (Rect.unit off S.size inb).toLoadRect (harg.unread x) = x := by
  rw [View.readAt_eq_ld, harg.read_unread, View.ld_unit_zero hz]

/-- The table's tile for tap `(ii, jj)`, read at pixel `(h, w)`, is the table at `(ii, jj, h, w)`. -/
theorem eb_read (arg5 : Memref sig .tc .vmem S5x5x64x64 .f32) (harg5 : arg5.IsWhole) (x4 : Vec Ideal S5x5x64x64 .f32)
    (ii jj : Fin 5) (inb : ∀ a, (![ii.val, jj.val, 0, 0] : Fin 4 → ℕ) a + S1x1x64x64.size a ≤ S5x5x64x64.size a)
    (h w : Fin 64) :
    View.readAt (Elt Ideal) arg5.view (Rect.unit (s := S5x5x64x64) ![ii.val, jj.val, 0, 0] S1x1x64x64.size inb).toLoadRect (harg5.unread x4)
        (ix4 (0 : Fin 1) (0 : Fin 1) h w) = x4 (ix4 ii jj h w) := by
  rw [View.readAt_eq_ld, harg5.read_unread]
  refine congrArg x4 (funext fun a => Fin.ext ?_)
  match a with
  | ⟨0, _⟩ => show ii.val + 1 * 0 = ii.val; omega
  | ⟨1, _⟩ => show jj.val + 1 * 0 = jj.val; omega
  | ⟨2, _⟩ => show 0 + 1 * h.val = h.val; omega
  | ⟨3, _⟩ => show 0 + 1 * w.val = w.val; omega

/-- THE SHIFTED READ of the padded `exp k · v` buffer by tap `(ii, jj)`, at `(h, w, d)`. -/
theorem evbuf_read (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg9 : Memref sig .tc .vmem S72x72x256 .f32) (x0 : Vec Ideal S1x64x64x256 .bf16) (x1 : Vec Ideal S256x256 .bf16) (x2 : Vec Ideal S256x256 .bf16)
    (ii jj : Fin 5) (inb : ∀ a, (![2 + ii.val, 2 + jj.val, 0] : Fin 3 → ℕ) a + S64x64x256.size a ≤ S72x72x256.size a)
    (h w : Fin 64) (d : Fin 256) :
    arg9.view.readCov (kernelRun0_A.sl.HS2_2 (F := Ideal) c arg1 harg1 arg2 harg2 arg3 harg3 x0 x1 x2)
        (Rect.unit (s := S72x72x256) ![2 + ii.val, 2 + jj.val, 0] S64x64x256.size inb).toLoadRect (ix3 h w d)
      = pad2 (fun p q => tileP x0 x1 x2 p q d) (h.val + ii.val) (w.val + jj.val) := by
  rw [View.readCov_eq_canon']
  unfold kernelRun0_A.sl.HS2_2
  have eidx : (Rect.unit (s := S72x72x256) ![2 + ii.val, 2 + jj.val, 0] S64x64x256.size inb).toLoadRect.idx (ix3 h w d)
      = ix3 (⟨2 + ii.val + h.val, by omega⟩ : Fin 72) (⟨2 + jj.val + w.val, by omega⟩ : Fin 72) d :=
    funext fun a => Fin.ext (by
      match a with
      | ⟨0, _⟩ => show 2 + ii.val + 1 * h.val = 2 + ii.val + h.val; omega
      | ⟨1, _⟩ => show 2 + jj.val + 1 * w.val = 2 + jj.val + w.val; omega
      | ⟨2, _⟩ => show 0 + 1 * d.val = d.val; omega)
  dsimp only
  rw [eidx, Lay.canon_tile3]
  unfold pad2
  by_cases hp : (4 ≤ 2 + ii.val + h.val ∧ 2 + ii.val + h.val < 68) ∧ (4 ≤ 2 + jj.val + w.val ∧ 2 + jj.val + w.val < 68)
  · have hq : (2 ≤ h.val + ii.val ∧ h.val + ii.val < 66) ∧ (2 ≤ w.val + jj.val ∧ w.val + jj.val < 66) := by omega
    rw [dif_pos hp, dif_pos hq, pay12_eq]
    unfold kernelRun0_A.sl.r_2
    rw [block_read arg1 harg1 x0 (funext fun a => by match a with | ⟨0, _⟩ => rfl | ⟨1, _⟩ => rfl | ⟨2, _⟩ => rfl | ⟨3, _⟩ => rfl),
      block_read arg2 harg2 x1 (funext fun a => by match a with | ⟨0, _⟩ => rfl | ⟨1, _⟩ => rfl),
      block_read arg3 harg3 x2 (funext fun a => by match a with | ⟨0, _⟩ => rfl | ⟨1, _⟩ => rfl), pay6_apply]
    have e0 : (⟨2 + ii.val + h.val - 4, by omega⟩ : Fin 64) = ⟨h.val + ii.val - 2, by omega⟩ := Fin.ext (by show 2 + ii.val + h.val - 4 = h.val + ii.val - 2; omega)
    have e1 : (⟨2 + jj.val + w.val - 4, by omega⟩ : Fin 64) = ⟨w.val + jj.val - 2, by omega⟩ := Fin.ext (by show 2 + jj.val + w.val - 4 = w.val + jj.val - 2; omega)
    rw [e0, e1]
  · have hq : ¬ ((2 ≤ h.val + ii.val ∧ h.val + ii.val < 66) ∧ (2 ≤ w.val + jj.val ∧ w.val + jj.val < 66)) := by omega
    rw [dif_neg hp, dif_neg hq, pay9_apply]

/-- Before any tap the block holds `0`. -/
theorem out_0 (arg6 : Memref sig .tc .vmem S1x64x64x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_1 (F := Ideal)) (Rect.unit ![0, 0, 0, 0] S1x64x64x256.size inb_S1x64x64x256_S1x64x64x256_0_0_0_0).toLoadRect (ix4 (0 : Fin 1) h w d)
      = facOut (tbl x4) (tileP x0 x1 x2) 0 h w d := by
  unfold kernelRun0_A.sl.H5_1
  rw [View.readCov_cons_toLoadRect]
  exact pay14_apply _

/-- After tap 0 (row 0, column 0 of the window). -/
theorem out_1 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_2 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 1 h w d := by
  unfold kernelRun0_A.sl.H5_2
  rw [View.readCov_cons_toLoadRect]
  refine Eq.trans ?_ (facOut_succ (tbl x4) (tileP x0 x1 x2) 0 h w d).symm
  refine (pay18_apply _ h w d).trans ?_
  unfold kernelRun0_A.sl.r_5
  refine (pay17_apply _ _ _ h w d).trans ?_
  exact congrArg₂ (· + ·) (out_0 arg6 x0 x1 x2 x4 h w d)
    (congrArg₂ (· * ·) (eb_read arg5 harg5 x4 (tapI 0) (tapJ 0) _ h w)
      (evbuf_read c arg1 harg1 arg2 harg2 arg3 harg3 arg9 x0 x1 x2 (tapI 0) (tapJ 0) _ h w d))

/-- After tap 1 (row 0, column 1 of the window). -/
theorem out_2 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_3 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 2 h w d := by
  unfold kernelRun0_A.sl.H5_3
  rw [View.readCov_cons_toLoadRect]
  refine Eq.trans ?_ (facOut_succ (tbl x4) (tileP x0 x1 x2) 1 h w d).symm
  refine (pay21_apply _ _ _ h w d).trans ?_
  exact congrArg₂ (· + ·) (out_1 c arg1 harg1 arg2 harg2 arg3 harg3 arg5 harg5 arg6 arg9 x0 x1 x2 x4 h w d)
    (congrArg₂ (· * ·) (eb_read arg5 harg5 x4 (tapI 1) (tapJ 1) _ h w)
      (evbuf_read c arg1 harg1 arg2 harg2 arg3 harg3 arg9 x0 x1 x2 (tapI 1) (tapJ 1) _ h w d))

/-- After tap 2 (row 0, column 2 of the window). -/
theorem out_3 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_4 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 3 h w d := by
  unfold kernelRun0_A.sl.H5_4
  rw [View.readCov_cons_toLoadRect]
  refine Eq.trans ?_ (facOut_succ (tbl x4) (tileP x0 x1 x2) 2 h w d).symm
  refine (pay24_apply _ _ _ h w d).trans ?_
  exact congrArg₂ (· + ·) (out_2 c arg1 harg1 arg2 harg2 arg3 harg3 arg5 harg5 arg6 arg9 x0 x1 x2 x4 h w d)
    (congrArg₂ (· * ·) (eb_read arg5 harg5 x4 (tapI 2) (tapJ 2) _ h w)
      (evbuf_read c arg1 harg1 arg2 harg2 arg3 harg3 arg9 x0 x1 x2 (tapI 2) (tapJ 2) _ h w d))

/-- After tap 3 (row 0, column 3 of the window). -/
theorem out_4 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_5 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 4 h w d := by
  unfold kernelRun0_A.sl.H5_5
  rw [View.readCov_cons_toLoadRect]
  refine Eq.trans ?_ (facOut_succ (tbl x4) (tileP x0 x1 x2) 3 h w d).symm
  refine (pay27_apply _ _ _ h w d).trans ?_
  unfold kernelRun0_A.sl.r_6
  exact congrArg₂ (· + ·) (out_3 c arg1 harg1 arg2 harg2 arg3 harg3 arg5 harg5 arg6 arg9 x0 x1 x2 x4 h w d)
    (congrArg₂ (· * ·) ((pay26_apply _ h w).trans (eb_read arg5 harg5 x4 (tapI 3) (tapJ 3) _ h w))
      (evbuf_read c arg1 harg1 arg2 harg2 arg3 harg3 arg9 x0 x1 x2 (tapI 3) (tapJ 3) _ h w d))

/-- After tap 4 (row 0, column 4 of the window). -/
theorem out_5 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_6 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 5 h w d := by
  unfold kernelRun0_A.sl.H5_6
  rw [View.readCov_cons_toLoadRect]
  refine Eq.trans ?_ (facOut_succ (tbl x4) (tileP x0 x1 x2) 4 h w d).symm
  refine (pay30_apply _ _ _ h w d).trans ?_
  exact congrArg₂ (· + ·) (out_4 c arg1 harg1 arg2 harg2 arg3 harg3 arg5 harg5 arg6 arg9 x0 x1 x2 x4 h w d)
    (congrArg₂ (· * ·) (eb_read arg5 harg5 x4 (tapI 4) (tapJ 4) _ h w)
      (evbuf_read c arg1 harg1 arg2 harg2 arg3 harg3 arg9 x0 x1 x2 (tapI 4) (tapJ 4) _ h w d))

/-- After tap 5 (row 1, column 0 of the window). -/
theorem out_6 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_7 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 6 h w d := by
  unfold kernelRun0_A.sl.H5_7
  rw [View.readCov_cons_toLoadRect]
  refine Eq.trans ?_ (facOut_succ (tbl x4) (tileP x0 x1 x2) 5 h w d).symm
  refine (pay34_apply _ _ _ h w d).trans ?_
  exact congrArg₂ (· + ·) (out_5 c arg1 harg1 arg2 harg2 arg3 harg3 arg5 harg5 arg6 arg9 x0 x1 x2 x4 h w d)
    (congrArg₂ (· * ·) (eb_read arg5 harg5 x4 (tapI 5) (tapJ 5) _ h w)
      (evbuf_read c arg1 harg1 arg2 harg2 arg3 harg3 arg9 x0 x1 x2 (tapI 5) (tapJ 5) _ h w d))

/-- After tap 6 (row 1, column 1 of the window). -/
theorem out_7 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_8 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 7 h w d := by
  unfold kernelRun0_A.sl.H5_8
  rw [View.readCov_cons_toLoadRect]
  refine Eq.trans ?_ (facOut_succ (tbl x4) (tileP x0 x1 x2) 6 h w d).symm
  refine (pay37_apply _ _ _ h w d).trans ?_
  unfold kernelRun0_A.sl.r_8
  exact congrArg₂ (· + ·) (out_6 c arg1 harg1 arg2 harg2 arg3 harg3 arg5 harg5 arg6 arg9 x0 x1 x2 x4 h w d)
    (congrArg₂ (· * ·) (eb_read arg5 harg5 x4 (tapI 6) (tapJ 6) _ h w)
      (evbuf_read c arg1 harg1 arg2 harg2 arg3 harg3 arg9 x0 x1 x2 (tapI 6) (tapJ 6) _ h w d))

/-- After tap 7 (row 1, column 2 of the window). -/
theorem out_8 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_9 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 8 h w d := by
  unfold kernelRun0_A.sl.H5_9
  rw [View.readCov_cons_toLoadRect]
  refine Eq.trans ?_ (facOut_succ (tbl x4) (tileP x0 x1 x2) 7 h w d).symm
  unfold kernelRun0_A.sl.r_10
  refine (pay40_apply _ _ _ h w d).trans ?_
  exact congrArg₂ (· + ·) (out_7 c arg1 harg1 arg2 harg2 arg3 harg3 arg5 harg5 arg6 arg9 x0 x1 x2 x4 h w d)
    (congrArg₂ (· * ·) (eb_read arg5 harg5 x4 (tapI 7) (tapJ 7) _ h w)
      (evbuf_read c arg1 harg1 arg2 harg2 arg3 harg3 arg9 x0 x1 x2 (tapI 7) (tapJ 7) _ h w d))

/-- After tap 8 (row 1, column 3 of the window). -/
theorem out_9 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_10 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 9 h w d := by
  unfold kernelRun0_A.sl.H5_10
  rw [View.readCov_cons_toLoadRect]
  refine Eq.trans ?_ (facOut_succ (tbl x4) (tileP x0 x1 x2) 8 h w d).symm
  refine (pay43_apply _ _ _ h w d).trans ?_
  exact congrArg₂ (· + ·) (out_8 c arg1 harg1 arg2 harg2 arg3 harg3 arg5 harg5 arg6 arg9 x0 x1 x2 x4 h w d)
    (congrArg₂ (· * ·) (eb_read arg5 harg5 x4 (tapI 8) (tapJ 8) _ h w)
      (evbuf_read c arg1 harg1 arg2 harg2 arg3 harg3 arg9 x0 x1 x2 (tapI 8) (tapJ 8) _ h w d))

/-- After tap 9 (row 1, column 4 of the window). -/
theorem out_10 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_11 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 10 h w d := by
  unfold kernelRun0_A.sl.H5_11
  rw [View.readCov_cons_toLoadRect]
  refine Eq.trans ?_ (facOut_succ (tbl x4) (tileP x0 x1 x2) 9 h w d).symm
  refine (pay46_apply _ _ _ h w d).trans ?_
  exact congrArg₂ (· + ·) (out_9 c arg1 harg1 arg2 harg2 arg3 harg3 arg5 harg5 arg6 arg9 x0 x1 x2 x4 h w d)
    (congrArg₂ (· * ·) (eb_read arg5 harg5 x4 (tapI 9) (tapJ 9) _ h w)
      (evbuf_read c arg1 harg1 arg2 harg2 arg3 harg3 arg9 x0 x1 x2 (tapI 9) (tapJ 9) _ h w d))

/-- After tap 10 (row 2, column 0 of the window). -/
theorem out_11 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_12 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 11 h w d := by
  unfold kernelRun0_A.sl.H5_12
  rw [View.readCov_cons_toLoadRect]
  refine Eq.trans ?_ (facOut_succ (tbl x4) (tileP x0 x1 x2) 10 h w d).symm
  refine (pay50_apply _ h w d).trans ?_
  unfold kernelRun0_A.sl.r_12
  refine (pay49_apply _ _ _ h w d).trans ?_
  exact congrArg₂ (· + ·) (out_10 c arg1 harg1 arg2 harg2 arg3 harg3 arg5 harg5 arg6 arg9 x0 x1 x2 x4 h w d)
    (congrArg₂ (· * ·) (eb_read arg5 harg5 x4 (tapI 10) (tapJ 10) _ h w)
      (evbuf_read c arg1 harg1 arg2 harg2 arg3 harg3 arg9 x0 x1 x2 (tapI 10) (tapJ 10) _ h w d))

/-- After tap 11 (row 2, column 1 of the window). -/
theorem out_12 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_13 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 12 h w d := by
  unfold kernelRun0_A.sl.H5_13
  rw [View.readCov_cons_toLoadRect]
  refine Eq.trans ?_ (facOut_succ (tbl x4) (tileP x0 x1 x2) 11 h w d).symm
  refine (pay53_apply _ _ _ h w d).trans ?_
  exact congrArg₂ (· + ·) (out_11 c arg1 harg1 arg2 harg2 arg3 harg3 arg5 harg5 arg6 arg9 x0 x1 x2 x4 h w d)
    (congrArg₂ (· * ·) (eb_read arg5 harg5 x4 (tapI 11) (tapJ 11) _ h w)
      (evbuf_read c arg1 harg1 arg2 harg2 arg3 harg3 arg9 x0 x1 x2 (tapI 11) (tapJ 11) _ h w d))

/-- After tap 12 (row 2, column 2 of the window). -/
theorem out_13 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_14 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 13 h w d := by
  unfold kernelRun0_A.sl.H5_14
  rw [View.readCov_cons_toLoadRect]
  refine Eq.trans ?_ (facOut_succ (tbl x4) (tileP x0 x1 x2) 12 h w d).symm
  refine (pay56_apply _ _ _ h w d).trans ?_
  exact congrArg₂ (· + ·) (out_12 c arg1 harg1 arg2 harg2 arg3 harg3 arg5 harg5 arg6 arg9 x0 x1 x2 x4 h w d)
    (congrArg₂ (· * ·) (eb_read arg5 harg5 x4 (tapI 12) (tapJ 12) _ h w)
      (evbuf_read c arg1 harg1 arg2 harg2 arg3 harg3 arg9 x0 x1 x2 (tapI 12) (tapJ 12) _ h w d))

/-- After tap 13 (row 2, column 3 of the window). -/
theorem out_14 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_15 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 14 h w d := by
  unfold kernelRun0_A.sl.H5_15
  rw [View.readCov_cons_toLoadRect]
  refine Eq.trans ?_ (facOut_succ (tbl x4) (tileP x0 x1 x2) 13 h w d).symm
  refine (pay59_apply _ _ _ h w d).trans ?_
  unfold kernelRun0_A.sl.r_13
  exact congrArg₂ (· + ·) (out_13 c arg1 harg1 arg2 harg2 arg3 harg3 arg5 harg5 arg6 arg9 x0 x1 x2 x4 h w d)
    (congrArg₂ (· * ·) ((pay58_apply _ h w).trans (eb_read arg5 harg5 x4 (tapI 13) (tapJ 13) _ h w))
      (evbuf_read c arg1 harg1 arg2 harg2 arg3 harg3 arg9 x0 x1 x2 (tapI 13) (tapJ 13) _ h w d))

/-- After tap 14 (row 2, column 4 of the window). -/
theorem out_15 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_16 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 15 h w d := by
  unfold kernelRun0_A.sl.H5_16
  rw [View.readCov_cons_toLoadRect]
  refine Eq.trans ?_ (facOut_succ (tbl x4) (tileP x0 x1 x2) 14 h w d).symm
  refine (pay62_apply _ _ _ h w d).trans ?_
  exact congrArg₂ (· + ·) (out_14 c arg1 harg1 arg2 harg2 arg3 harg3 arg5 harg5 arg6 arg9 x0 x1 x2 x4 h w d)
    (congrArg₂ (· * ·) (eb_read arg5 harg5 x4 (tapI 14) (tapJ 14) _ h w)
      (evbuf_read c arg1 harg1 arg2 harg2 arg3 harg3 arg9 x0 x1 x2 (tapI 14) (tapJ 14) _ h w d))

/-- After tap 15 (row 3, column 0 of the window). -/
theorem out_16 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_17 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 16 h w d := by
  unfold kernelRun0_A.sl.H5_17
  rw [View.readCov_cons_toLoadRect]
  refine Eq.trans ?_ (facOut_succ (tbl x4) (tileP x0 x1 x2) 15 h w d).symm
  refine (pay66_apply _ _ _ h w d).trans ?_
  exact congrArg₂ (· + ·) (out_15 c arg1 harg1 arg2 harg2 arg3 harg3 arg5 harg5 arg6 arg9 x0 x1 x2 x4 h w d)
    (congrArg₂ (· * ·) (eb_read arg5 harg5 x4 (tapI 15) (tapJ 15) _ h w)
      (evbuf_read c arg1 harg1 arg2 harg2 arg3 harg3 arg9 x0 x1 x2 (tapI 15) (tapJ 15) _ h w d))

/-- After tap 16 (row 3, column 1 of the window). -/
theorem out_17 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_18 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 17 h w d := by
  unfold kernelRun0_A.sl.H5_18
  rw [View.readCov_cons_toLoadRect]
  refine Eq.trans ?_ (facOut_succ (tbl x4) (tileP x0 x1 x2) 16 h w d).symm
  refine (pay69_apply _ _ _ h w d).trans ?_
  unfold kernelRun0_A.sl.r_15
  exact congrArg₂ (· + ·) (out_16 c arg1 harg1 arg2 harg2 arg3 harg3 arg5 harg5 arg6 arg9 x0 x1 x2 x4 h w d)
    (congrArg₂ (· * ·) (eb_read arg5 harg5 x4 (tapI 16) (tapJ 16) _ h w)
      (evbuf_read c arg1 harg1 arg2 harg2 arg3 harg3 arg9 x0 x1 x2 (tapI 16) (tapJ 16) _ h w d))

/-- After tap 17 (row 3, column 2 of the window). -/
theorem out_18 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_19 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 18 h w d := by
  unfold kernelRun0_A.sl.H5_19
  rw [View.readCov_cons_toLoadRect]
  refine Eq.trans ?_ (facOut_succ (tbl x4) (tileP x0 x1 x2) 17 h w d).symm
  unfold kernelRun0_A.sl.r_17
  refine (pay72_apply _ _ _ h w d).trans ?_
  exact congrArg₂ (· + ·) (out_17 c arg1 harg1 arg2 harg2 arg3 harg3 arg5 harg5 arg6 arg9 x0 x1 x2 x4 h w d)
    (congrArg₂ (· * ·) (eb_read arg5 harg5 x4 (tapI 17) (tapJ 17) _ h w)
      (evbuf_read c arg1 harg1 arg2 harg2 arg3 harg3 arg9 x0 x1 x2 (tapI 17) (tapJ 17) _ h w d))

/-- After tap 18 (row 3, column 3 of the window). -/
theorem out_19 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_20 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 19 h w d := by
  unfold kernelRun0_A.sl.H5_20
  rw [View.readCov_cons_toLoadRect]
  refine Eq.trans ?_ (facOut_succ (tbl x4) (tileP x0 x1 x2) 18 h w d).symm
  refine (pay75_apply _ _ _ h w d).trans ?_
  exact congrArg₂ (· + ·) (out_18 c arg1 harg1 arg2 harg2 arg3 harg3 arg5 harg5 arg6 arg9 x0 x1 x2 x4 h w d)
    (congrArg₂ (· * ·) (eb_read arg5 harg5 x4 (tapI 18) (tapJ 18) _ h w)
      (evbuf_read c arg1 harg1 arg2 harg2 arg3 harg3 arg9 x0 x1 x2 (tapI 18) (tapJ 18) _ h w d))

/-- After tap 19 (row 3, column 4 of the window). -/
theorem out_20 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_21 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 20 h w d := by
  unfold kernelRun0_A.sl.H5_21
  rw [View.readCov_cons_toLoadRect]
  refine Eq.trans ?_ (facOut_succ (tbl x4) (tileP x0 x1 x2) 19 h w d).symm
  refine (pay78_apply _ _ _ h w d).trans ?_
  exact congrArg₂ (· + ·) (out_19 c arg1 harg1 arg2 harg2 arg3 harg3 arg5 harg5 arg6 arg9 x0 x1 x2 x4 h w d)
    (congrArg₂ (· * ·) (eb_read arg5 harg5 x4 (tapI 19) (tapJ 19) _ h w)
      (evbuf_read c arg1 harg1 arg2 harg2 arg3 harg3 arg9 x0 x1 x2 (tapI 19) (tapJ 19) _ h w d))

/-- After tap 20 (row 4, column 0 of the window). -/
theorem out_21 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_22 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 21 h w d := by
  unfold kernelRun0_A.sl.H5_22
  rw [View.readCov_cons_toLoadRect]
  refine Eq.trans ?_ (facOut_succ (tbl x4) (tileP x0 x1 x2) 20 h w d).symm
  refine (pay82_apply _ h w d).trans ?_
  unfold kernelRun0_A.sl.r_19
  refine (pay81_apply _ _ _ h w d).trans ?_
  exact congrArg₂ (· + ·) (out_20 c arg1 harg1 arg2 harg2 arg3 harg3 arg5 harg5 arg6 arg9 x0 x1 x2 x4 h w d)
    (congrArg₂ (· * ·) (eb_read arg5 harg5 x4 (tapI 20) (tapJ 20) _ h w)
      (evbuf_read c arg1 harg1 arg2 harg2 arg3 harg3 arg9 x0 x1 x2 (tapI 20) (tapJ 20) _ h w d))

/-- After tap 21 (row 4, column 1 of the window). -/
theorem out_22 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_23 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 22 h w d := by
  unfold kernelRun0_A.sl.H5_23
  rw [View.readCov_cons_toLoadRect]
  refine Eq.trans ?_ (facOut_succ (tbl x4) (tileP x0 x1 x2) 21 h w d).symm
  refine (pay85_apply _ _ _ h w d).trans ?_
  exact congrArg₂ (· + ·) (out_21 c arg1 harg1 arg2 harg2 arg3 harg3 arg5 harg5 arg6 arg9 x0 x1 x2 x4 h w d)
    (congrArg₂ (· * ·) (eb_read arg5 harg5 x4 (tapI 21) (tapJ 21) _ h w)
      (evbuf_read c arg1 harg1 arg2 harg2 arg3 harg3 arg9 x0 x1 x2 (tapI 21) (tapJ 21) _ h w d))

/-- After tap 22 (row 4, column 2 of the window). -/
theorem out_23 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_24 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 23 h w d := by
  unfold kernelRun0_A.sl.H5_24
  rw [View.readCov_cons_toLoadRect]
  refine Eq.trans ?_ (facOut_succ (tbl x4) (tileP x0 x1 x2) 22 h w d).symm
  refine (pay88_apply _ _ _ h w d).trans ?_
  exact congrArg₂ (· + ·) (out_22 c arg1 harg1 arg2 harg2 arg3 harg3 arg5 harg5 arg6 arg9 x0 x1 x2 x4 h w d)
    (congrArg₂ (· * ·) (eb_read arg5 harg5 x4 (tapI 22) (tapJ 22) _ h w)
      (evbuf_read c arg1 harg1 arg2 harg2 arg3 harg3 arg9 x0 x1 x2 (tapI 22) (tapJ 22) _ h w d))

/-- After tap 23 (row 4, column 3 of the window). -/
theorem out_24 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_25 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 24 h w d := by
  unfold kernelRun0_A.sl.H5_25
  rw [View.readCov_cons_toLoadRect]
  refine Eq.trans ?_ (facOut_succ (tbl x4) (tileP x0 x1 x2) 23 h w d).symm
  refine (pay91_apply _ _ _ h w d).trans ?_
  unfold kernelRun0_A.sl.r_20
  exact congrArg₂ (· + ·) (out_23 c arg1 harg1 arg2 harg2 arg3 harg3 arg5 harg5 arg6 arg9 x0 x1 x2 x4 h w d)
    (congrArg₂ (· * ·) ((pay90_apply _ h w).trans (eb_read arg5 harg5 x4 (tapI 23) (tapJ 23) _ h w))
      (evbuf_read c arg1 harg1 arg2 harg2 arg3 harg3 arg9 x0 x1 x2 (tapI 23) (tapJ 23) _ h w d))

/-- After tap 24 (row 4, column 4 of the window). -/
theorem out_25 (c : Dev nD) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg5 : Memref sig .tc .vmem S5x5x64x64 .f32) (harg5 : arg5.IsWhole) (arg6 : Memref sig .tc .vmem S1x64x64x256 .f32) (arg9 : Memref sig .tc .vmem S72x72x256 .f32) (x0 : Vec Ideal S1x64x64x256 .bf16) (x1 : Vec Ideal S256x256 .bf16) (x2 : Vec Ideal S256x256 .bf16) (x4 : Vec Ideal S5x5x64x64 .f32) (h w : Fin 64) (d : Fin 256) :
    arg6.view.readCov (kernelRun0_A.sl.H5_26 (F := Ideal) c arg1 harg1 arg2 harg2 arg3 harg3 arg5 harg5 arg6 arg9 x0 x1 x2 x4) (Rect.unit ![0, 0, 0, 0] S1x64x64x256.size inb_S1x64x64x256_S1x64x64x256_0_0_0_0).toLoadRect (ix4 (0 : Fin 1) h w d)
      = facOut (tbl x4) (tileP x0 x1 x2) 25 h w d := by
  unfold kernelRun0_A.sl.H5_26
  rw [View.readCov_cons_toLoadRect]
  refine Eq.trans ?_ (facOut_succ (tbl x4) (tileP x0 x1 x2) 24 h w d).symm
  refine (pay94_apply _ _ _ h w d).trans ?_
  exact congrArg₂ (· + ·) (out_24 c arg1 harg1 arg2 harg2 arg3 harg3 arg5 harg5 arg6 arg9 x0 x1 x2 x4 h w d)
    (congrArg₂ (· * ·) (eb_read arg5 harg5 x4 (tapI 24) (tapJ 24) _ h w)
      (evbuf_read c arg1 harg1 arg2 harg2 arg3 harg3 arg9 x0 x1 x2 (tapI 24) (tapJ 24) _ h w d))

end Cert.Attn.Ker

end
-- ==== Proof.KerNorm.lean ====
/-
  The denominator of the windowed attention as the kernel's body accumulates it: the small steps.

  The body keeps the denominator in a 64×64 scratch plane. It zero-fills the plane, and for each of the 25 taps reads the
  plane back, adds `E[ii, jj] · S'` (the tap's table tile times the channel-sum plane `S` read at the tap's shift from a
  zero-bordered 72×72 copy) and writes the plane again. Here: what a read of the whole plane after a list of writes holds,
  what a tap's table tile and a shifted read of the bordered copy hold at a pixel, and what one tap's arithmetic gives at a pixel.
-/
import proofs.«107659_j89111981457894_2_alg».proof.Proof.Gen.KernelIdeal.Frame
import proofs.«107659_j89111981457894_2_alg».proof.Proof.KerLay
import proofs.«107659_j89111981457894_2_alg».proof.Proof.KerSpec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Attn.Ker

open Cert.KernelIdeal Cert.KernelIdeal.Gen Idealize.ShloMosaic Idealize.ShloMosaic.ValueIdx

/-- The zero offset of a plane. -/
theorem off2_zero : (![0, 0] : Fin 2 → ℕ) = fun _ => 0 :=
  funext fun a => by match a with | ⟨0, _⟩ => rfl | ⟨1, _⟩ => rfl

/-! ## Reads -/

/-- The whole plane read back after a list of writes holds what the writes left. -/
theorem plane_read (arg7 : Memref sig .tc .vmem S64x64 .f32) (L : List (View.Piece (Elt Ideal) S64x64 .f32))
    (inb : ∀ a, (![0, 0] : Fin 2 → ℕ) a + S64x64.size a ≤ S64x64.size a) (h w : Fin 64) :
    arg7.view.readCov L (Rect.unit (s := S64x64) ![0, 0] S64x64.size inb).toLoadRect (ix2 h w) = View.canon L (ix2 h w) := by
  rw [View.readCov_eq_canon']
  refine congrArg (View.canon L) (funext fun a => Fin.ext ?_)
  match a with
  | ⟨0, _⟩ => show 0 + 1 * h.val = h.val; omega
  | ⟨1, _⟩ => show 0 + 1 * w.val = w.val; omega

/-- Tap `(i, j)`'s tile of the table, read at pixel `(h, w)`, is the table's entry `(i, j, h, w)`. -/
theorem tile_read (arg5 : Memref sig .tc .vmem S5x5x64x64 .f32) (harg5 : arg5.IsWhole) (x4 : Vec Ideal S5x5x64x64 .f32)
    (a b : ℕ) (i j : Fin 5) (ha : a = i.val) (hb : b = j.val)
    (inb : ∀ ax, (![a, b, 0, 0] : Fin 4 → ℕ) ax + S1x1x64x64.size ax ≤ S5x5x64x64.size ax) (h w : Fin 64) :
    View.readAt (Elt Ideal) arg5.view (Rect.unit (s := S5x5x64x64) ![a, b, 0, 0] S1x1x64x64.size inb).toLoadRect (harg5.unread x4)
        (ix4 (0 : Fin 1) (0 : Fin 1) h w) = x4 (ix4 i j h w) := by
  rw [View.readAt_apply, harg5.read_unread]
  refine congrArg x4 (funext fun ax => Fin.ext ?_)
  match ax with
  | ⟨0, _⟩ => show a + 1 * 0 = i.val; omega
  | ⟨1, _⟩ => show b + 1 * 0 = j.val; omega
  | ⟨2, _⟩ => show 0 + 1 * h.val = h.val; omega
  | ⟨3, _⟩ => show 0 + 1 * w.val = w.val; omega

/-! ## One tap's arithmetic at a pixel -/

/-- A tile `[1, 1, 64, 64]` cast to a plane. -/
theorem tile_cast (ebt : Vec Ideal S1x1x64x64 .f32) (hc : S1x1x64x64.ShapeCasts S64x64) (h w : Fin 64) :
    shapeCast S64x64 ebt hc (ix2 h w) = ebt (ix4 (0 : Fin 1) (0 : Fin 1) h w) :=
  Lay.shapeCast_11ab_ab_apply ebt hc h w

/-- A plane cast to its own shape. -/
theorem plane_cast (v : Vec Ideal S64x64 .f32) (hc : S64x64.ShapeCasts S64x64) (h w : Fin 64) :
    shapeCast S64x64 v hc (ix2 h w) = v (ix2 h w) :=
  congrFun (shapeCast_self v hc) _

/-- The tap with the tile cast inside: `cast (prev + cast tile · s)`. -/
theorem tapA (s : Vec Ideal S64x64 .f32) (ebt : Vec Ideal S1x1x64x64 .f32) (prev : Vec Ideal S64x64 .f32)
    (hc1 : S1x1x64x64.ShapeCasts S64x64) (hc2 : S64x64.ShapeCasts S64x64) (h w : Fin 64) :
    shapeCast S64x64 (addf prev (mulf (shapeCast S64x64 ebt hc1 : FVec Ideal S64x64 .f32) s) : FVec Ideal S64x64 .f32) hc2 (ix2 h w)
      = prev (ix2 h w) + ebt (ix4 (0 : Fin 1) (0 : Fin 1) h w) * s (ix2 h w) :=
  (plane_cast _ hc2 h w).trans
    (congrArg (fun e => prev (ix2 h w) + e * s (ix2 h w)) (tile_cast ebt hc1 h w))

/-- The tap with the tile already a plane: `cast (prev + e · s)`. -/
theorem tapB (s : Vec Ideal S64x64 .f32) (e : FVec Ideal S64x64 .f32) (prev : Vec Ideal S64x64 .f32)
    (hc2 : S64x64.ShapeCasts S64x64) (h w : Fin 64) :
    shapeCast S64x64 (addf prev (mulf e s) : FVec Ideal S64x64 .f32) hc2 (ix2 h w)
      = prev (ix2 h w) + e (ix2 h w) * s (ix2 h w) :=
  plane_cast _ hc2 h w

/-- The tap without the outer cast: `prev + cast tile · s`. -/
theorem tapC (s : Vec Ideal S64x64 .f32) (ebt : Vec Ideal S1x1x64x64 .f32) (prev : Vec Ideal S64x64 .f32)
    (hc1 : S1x1x64x64.ShapeCasts S64x64) (h w : Fin 64) :
    (addf prev (mulf (shapeCast S64x64 ebt hc1 : FVec Ideal S64x64 .f32) s) : FVec Ideal S64x64 .f32) (ix2 h w)
      = prev (ix2 h w) + ebt (ix4 (0 : Fin 1) (0 : Fin 1) h w) * s (ix2 h w) :=
  congrArg (fun e => prev (ix2 h w) + e * s (ix2 h w)) (tile_cast ebt hc1 h w)

/-- One tap of the recurrence: from the three values at a pixel to the next partial denominator. -/
theorem tap_step (E : Tbl) (S : Plane) (t : ℕ) (i j : Fin 5) (hi : tapI t = i) (hj : tapJ t = j)
    (pv ev sv : EReal) (h w : Fin 64)
    (hp : pv = facNorm E S t h w) (he : ev = E i j h w) (hs : sv = pad2 S (h.val + i.val) (w.val + j.val)) :
    pv + ev * sv = facNorm E S (t + 1) h w := by
  rw [facNorm_succ, hi, hj, hp, he, hs]

/-! ## The fills -/

/-- The plane's zero fill. -/
theorem fill_plane (h w : Fin 64) : k0_pay15 (F := Ideal) (ix2 h w) = 0 := by
  unfold k0_pay15
  refine (plane_cast _ _ h w).trans ?_
  exact Ideal.ofBits_zero_f32

/-- The bordered copy's zero fill. -/
theorem fill_border (p q : Fin 72) : k0_pay10 (F := Ideal) (ix2 p q) = 0 := by
  unfold k0_pay10
  refine (congrFun (shapeCast_self _ _) _).trans ?_
  exact Ideal.ofBits_zero_f32

/-! ## The bordered copy of the channel sums -/

/-- A whole array read back from a buffer that holds it. -/
theorem whole_read {s : Shape} {e : EltTy} (M : Memref sig .tc .vmem s e) (hM : M.IsWhole) (X : s.Idx → Elt Ideal e)
    {off : Fin s.rank → ℕ} (hz : off = fun _ => 0) (inb : ∀ a, off a + s.size a ≤ s.size a) :
    View.readAt (Elt Ideal) M.view (Rect.unit off s.size inb).toLoadRect (hM.unread X) = X := by
  rw [View.readAt_eq_ld, hM.read_unread]
  exact View.ld_unit_zero hz inb X

theorem off4_zero : (![0, 0, 0, 0] : Fin 4 → ℕ) = fun _ => 0 :=
  funext fun a => by match a with | ⟨0, _⟩ => rfl | ⟨1, _⟩ => rfl | ⟨2, _⟩ => rfl | ⟨3, _⟩ => rfl

/-- A plane's value depends on the coordinates' numbers only. -/
theorem plane_congr (S : Plane) {p p' q q' : Fin 64} (hp : p.val = p'.val) (hq : q.val = q'.val) : S p q = S p' q' := by
  rw [Fin.ext hp, Fin.ext hq]

section Border

variable (hpay7 : ∀ (x0 : Vec Ideal S1x64x64x256 .bf16) (x1 : Vec Ideal S256x256 .bf16) (h w : Fin 64),
    k0_pay7 (F := Ideal) x0 x1 (ix2 h w) = tileS x0 x1 h w)
include hpay7

variable (c : Dev nD) (arg1 : Memref sig .tc .vmem S1x64x64x256 .bf16) (harg1 : arg1.IsWhole)
  (arg2 : Memref sig .tc .vmem S256x256 .bf16) (harg2 : arg2.IsWhole)
  (x0 : Vec Ideal S1x64x64x256 .bf16) (x1 : Vec Ideal S256x256 .bf16)

/-- The tile the body writes into the bordered copy is the channel-sum plane `S`. -/
theorem sum_tile (h w : Fin 64) :
    k0_pay13 (kernelRun0_A.sl.r_3 (F := Ideal) c arg1 harg1 arg2 harg2 x0 x1) (ix2 h w) = tileS x0 x1 h w := by
  unfold k0_pay13 kernelRun0_A.sl.r_3
  refine (plane_cast _ _ h w).trans ?_
  rw [whole_read arg1 harg1 x0 off4_zero, whole_read arg2 harg2 x1 off2_zero]
  exact hpay7 x0 x1 h w

/-- The bordered copy: `S` inside rows and columns 4 … 67, zero on the border. -/
theorem border_canon (p q : Fin 72) :
    View.canon (kernelRun0_A.sl.HS3_2 (F := Ideal) c arg1 harg1 arg2 harg2 x0 x1) (ix2 p q)
      = if hp : (4 ≤ p.val ∧ p.val < 68) ∧ (4 ≤ q.val ∧ q.val < 68)
        then tileS x0 x1 ⟨p.val - 4, by omega⟩ ⟨q.val - 4, by omega⟩ else 0 := by
  unfold kernelRun0_A.sl.HS3_2
  refine (Lay.canon_tile2 _ _ _ _ p q).trans ?_
  split
  · exact sum_tile hpay7 c arg1 harg1 arg2 harg2 x0 x1 _ _
  · exact fill_border p q

/-- THE SHIFTED READ of the bordered copy by tap `(i, j)`, at offset `(2 + i, 2 + j)`: the zero-padded plane at `(h + i, w + j)`. -/
theorem border_read (arg10 : Memref sig .tc .vmem S72x72 .f32) (a b : ℕ) (i j : Fin 5) (ha : a = 2 + i.val) (hb : b = 2 + j.val)
    (inb : ∀ ax, (![a, b] : Fin 2 → ℕ) ax + S64x64.size ax ≤ S72x72.size ax) (h w : Fin 64) :
    arg10.view.readCov (kernelRun0_A.sl.HS3_2 (F := Ideal) c arg1 harg1 arg2 harg2 x0 x1)
        (Rect.unit (s := S72x72) ![a, b] S64x64.size inb).toLoadRect (ix2 h w)
      = pad2 (tileS x0 x1) (h.val + i.val) (w.val + j.val) := by
  obtain ⟨P, hP⟩ : ∃ P : Fin 72, P.val = a + h.val := ⟨⟨a + h.val, by omega⟩, rfl⟩
  obtain ⟨Q, hQ⟩ : ∃ Q : Fin 72, Q.val = b + w.val := ⟨⟨b + w.val, by omega⟩, rfl⟩
  have e : (Rect.unit (s := S72x72) ![a, b] S64x64.size inb).toLoadRect.idx (ix2 h w) = ix2 P Q :=
    funext fun ax => Fin.ext (by
      match ax with
      | ⟨0, _⟩ => show a + 1 * h.val = P.val; omega
      | ⟨1, _⟩ => show b + 1 * w.val = Q.val; omega)
  rw [View.readCov_eq_canon']
  show View.canon _ ((Rect.unit (s := S72x72) ![a, b] S64x64.size inb).toLoadRect.idx (ix2 h w)) = _
  rw [e, border_canon hpay7]
  unfold pad2
  by_cases hp : (2 ≤ h.val + i.val ∧ h.val + i.val < 66) ∧ (2 ≤ w.val + j.val ∧ w.val + j.val < 66)
  · have hp' : (4 ≤ P.val ∧ P.val < 68) ∧ (4 ≤ Q.val ∧ Q.val < 68) := by omega
    rw [dif_pos hp, dif_pos hp']
    exact plane_congr _ (by show P.val - 4 = h.val + i.val - 2; omega) (by show Q.val - 4 = w.val + j.val - 2; omega)
  · have hp' : ¬((4 ≤ P.val ∧ P.val < 68) ∧ (4 ≤ Q.val ∧ Q.val < 68)) := by omega
    rw [dif_neg hp, dif_neg hp']

end Border

end Cert.Attn.Ker

end
-- ==== Proof.KerNorm2.lean ====
/-
  The denominator of the windowed attention as the kernel's body accumulates it: the 25 taps in order.

  After the zero fill the plane holds `0`; after tap `t` (window row `t / 5`, column `t % 5`) it holds the partial
  denominator of `t + 1` taps, `facNorm E S (t + 1)`, with `E` the table handed to the body and `S` the channel-sum
  plane: each tap reads the plane back whole, adds the tap's table tile times the shifted read of the bordered copy of
  `S`, and writes the plane whole again, so the last write is what the plane holds.
-/
import proofs.«107659_j89111981457894_2_alg».proof.Proof.KerNorm

set_option maxRecDepth 16384

noncomputable section

namespace Cert.Attn.Ker

open Cert.KernelIdeal Cert.KernelIdeal.Gen Idealize.ShloMosaic Idealize.ShloMosaic.ValueIdx

/-- After the zero fill the plane holds the empty sum. -/
theorem norm_init (E : Tbl) (S : Plane) (h w : Fin 64) :
    View.canon (kernelRun0_A.sl.HS0_1 (F := Ideal)) (ix2 h w) = facNorm E S 0 h w := by
  unfold kernelRun0_A.sl.HS0_1
  rw [View.canon_unit_zero off2_zero]
  exact fill_plane h w

variable (hpay7 : ∀ (x0 : Vec Ideal S1x64x64x256 .bf16) (x1 : Vec Ideal S256x256 .bf16) (h w : Fin 64),
    k0_pay7 (F := Ideal) x0 x1 (ix2 h w) = tileS x0 x1 h w)
include hpay7

variable (c : Dev nD) (arg1 : Memref sig .tc .vmem S1x64x64x256 .bf16) (harg1 : arg1.IsWhole)
  (arg2 : Memref sig .tc .vmem S256x256 .bf16) (harg2 : arg2.IsWhole)
  (arg5 : Memref sig .tc .vmem S5x5x64x64 .f32) (harg5 : arg5.IsWhole)
  (arg7 : Memref sig .tc .vmem S64x64 .f32) (arg10 : Memref sig .tc .vmem S72x72 .f32)
  (x0 : Vec Ideal S1x64x64x256 .bf16) (x1 : Vec Ideal S256x256 .bf16) (x4 : Vec Ideal S5x5x64x64 .f32)

/-- After tap 0 (window row 0, column 0) the plane holds the partial denominator of 1 tap. -/
theorem norm_0 (h w : Fin 64) :
    View.canon (kernelRun0_A.sl.HS0_2 (F := Ideal) c arg1 harg1 arg2 harg2 arg5 harg5 arg7 arg10 x0 x1 x4) (ix2 h w)
      = facNorm (tbl x4) (tileS x0 x1) (0 + 1) h w := by
  unfold kernelRun0_A.sl.HS0_2
  rw [View.canon_cons_unit_zero off2_zero]
  unfold k0_pay19
  refine (tapB _ _ _ _ h w).trans ?_
  refine tap_step (tbl x4) (tileS x0 x1) 0 0 0 (by decide) (by decide) _ _ _ h w ?_ ?_ ?_
  · unfold kernelRun0_A.sl.v60
    exact (plane_read arg7 _ _ h w).trans (norm_init _ _ h w)
  · unfold kernelRun0_A.sl.r_4 k0_pay16
    exact (tile_cast _ _ h w).trans (tile_read arg5 harg5 x4 _ _ 0 0 rfl rfl _ h w)
  · unfold kernelRun0_A.sl.v48
    exact border_read hpay7 c arg1 harg1 arg2 harg2 x0 x1 arg10 _ _ 0 0 rfl rfl _ h w

/-- After tap 1 (window row 0, column 1) the plane holds the partial denominator of 2 taps. -/
theorem norm_1 (h w : Fin 64) :
    View.canon (kernelRun0_A.sl.HS0_3 (F := Ideal) c arg1 harg1 arg2 harg2 arg5 harg5 arg7 arg10 x0 x1 x4) (ix2 h w)
      = facNorm (tbl x4) (tileS x0 x1) (1 + 1) h w := by
  unfold kernelRun0_A.sl.HS0_3
  rw [View.canon_cons_unit_zero off2_zero]
  unfold k0_pay22
  refine (tapA _ _ _ _ _ h w).trans ?_
  refine tap_step (tbl x4) (tileS x0 x1) 1 0 1 (by decide) (by decide) _ _ _ h w ?_ ?_ ?_
  · unfold kernelRun0_A.sl.v79
    exact (plane_read arg7 _ _ h w).trans (norm_0 hpay7 c arg1 harg1 arg2 harg2 arg5 harg5 arg7 arg10 x0 x1 x4 h w)
  · exact tile_read arg5 harg5 x4 _ _ 0 1 rfl rfl _ h w
  · unfold kernelRun0_A.sl.v67
    exact border_read hpay7 c arg1 harg1 arg2 harg2 x0 x1 arg10 _ _ 0 1 rfl rfl _ h w

/-- After tap 2 (window row 0, column 2) the plane holds the partial denominator of 3 taps. -/
theorem norm_2 (h w : Fin 64) :
    View.canon (kernelRun0_A.sl.HS0_4 (F := Ideal) c arg1 harg1 arg2 harg2 arg5 harg5 arg7 arg10 x0 x1 x4) (ix2 h w)
      = facNorm (tbl x4) (tileS x0 x1) (2 + 1) h w := by
  unfold kernelRun0_A.sl.HS0_4
  rw [View.canon_cons_unit_zero off2_zero]
  unfold k0_pay25
  refine (tapA _ _ _ _ _ h w).trans ?_
  refine tap_step (tbl x4) (tileS x0 x1) 2 0 2 (by decide) (by decide) _ _ _ h w ?_ ?_ ?_
  · unfold kernelRun0_A.sl.v98
    exact (plane_read arg7 _ _ h w).trans (norm_1 hpay7 c arg1 harg1 arg2 harg2 arg5 harg5 arg7 arg10 x0 x1 x4 h w)
  · exact tile_read arg5 harg5 x4 _ _ 0 2 rfl rfl _ h w
  · unfold kernelRun0_A.sl.v86
    exact border_read hpay7 c arg1 harg1 arg2 harg2 x0 x1 arg10 _ _ 0 2 rfl rfl _ h w

/-- After tap 3 (window row 0, column 3) the plane holds the partial denominator of 4 taps. -/
theorem norm_3 (h w : Fin 64) :
    View.canon (kernelRun0_A.sl.HS0_5 (F := Ideal) c arg1 harg1 arg2 harg2 arg5 harg5 arg7 arg10 x0 x1 x4) (ix2 h w)
      = facNorm (tbl x4) (tileS x0 x1) (3 + 1) h w := by
  unfold kernelRun0_A.sl.HS0_5
  rw [View.canon_cons_unit_zero off2_zero]
  unfold k0_pay28
  refine (tapB _ _ _ _ h w).trans ?_
  refine tap_step (tbl x4) (tileS x0 x1) 3 0 3 (by decide) (by decide) _ _ _ h w ?_ ?_ ?_
  · unfold kernelRun0_A.sl.v117
    exact (plane_read arg7 _ _ h w).trans (norm_2 hpay7 c arg1 harg1 arg2 harg2 arg5 harg5 arg7 arg10 x0 x1 x4 h w)
  · unfold kernelRun0_A.sl.r_6 k0_pay26
    exact (tile_cast _ _ h w).trans (tile_read arg5 harg5 x4 _ _ 0 3 rfl rfl _ h w)
  · unfold kernelRun0_A.sl.v105
    exact border_read hpay7 c arg1 harg1 arg2 harg2 x0 x1 arg10 _ _ 0 3 rfl rfl _ h w

/-- After tap 4 (window row 0, column 4) the plane holds the partial denominator of 5 taps. -/
theorem norm_4 (h w : Fin 64) :
    View.canon (kernelRun0_A.sl.HS0_6 (F := Ideal) c arg1 harg1 arg2 harg2 arg5 harg5 arg7 arg10 x0 x1 x4) (ix2 h w)
      = facNorm (tbl x4) (tileS x0 x1) (4 + 1) h w := by
  unfold kernelRun0_A.sl.HS0_6
  rw [View.canon_cons_unit_zero off2_zero]
  unfold k0_pay32 kernelRun0_A.sl.r_7 k0_pay31
  refine (plane_cast _ _ h w).trans ?_
  refine (tapC _ _ _ _ h w).trans ?_
  refine tap_step (tbl x4) (tileS x0 x1) 4 0 4 (by decide) (by decide) _ _ _ h w ?_ ?_ ?_
  · unfold kernelRun0_A.sl.v136
    exact (plane_read arg7 _ _ h w).trans (norm_3 hpay7 c arg1 harg1 arg2 harg2 arg5 harg5 arg7 arg10 x0 x1 x4 h w)
  · exact tile_read arg5 harg5 x4 _ _ 0 4 rfl rfl _ h w
  · unfold kernelRun0_A.sl.v124
    exact border_read hpay7 c arg1 harg1 arg2 harg2 x0 x1 arg10 _ _ 0 4 rfl rfl _ h w

/-- After tap 5 (window row 1, column 0) the plane holds the partial denominator of 6 taps. -/
theorem norm_5 (h w : Fin 64) :
    View.canon (kernelRun0_A.sl.HS0_7 (F := Ideal) c arg1 harg1 arg2 harg2 arg5 harg5 arg7 arg10 x0 x1 x4) (ix2 h w)
      = facNorm (tbl x4) (tileS x0 x1) (5 + 1) h w := by
  unfold kernelRun0_A.sl.HS0_7
  rw [View.canon_cons_unit_zero off2_zero]
  unfold k0_pay35
  refine (tapA _ _ _ _ _ h w).trans ?_
  refine tap_step (tbl x4) (tileS x0 x1) 5 1 0 (by decide) (by decide) _ _ _ h w ?_ ?_ ?_
  · unfold kernelRun0_A.sl.v155
    exact (plane_read arg7 _ _ h w).trans (norm_4 hpay7 c arg1 harg1 arg2 harg2 arg5 harg5 arg7 arg10 x0 x1 x4 h w)
  · exact tile_read arg5 harg5 x4 _ _ 1 0 rfl rfl _ h w
  · unfold kernelRun0_A.sl.v143
    exact border_read hpay7 c arg1 harg1 arg2 harg2 x0 x1 arg10 _ _ 1 0 rfl rfl _ h w

/-- After tap 6 (window row 1, column 1) the plane holds the partial denominator of 7 taps. -/
theorem norm_6 (h w : Fin 64) :
    View.canon (kernelRun0_A.sl.HS0_8 (F := Ideal) c arg1 harg1 arg2 harg2 arg5 harg5 arg7 arg10 x0 x1 x4) (ix2 h w)
      = facNorm (tbl x4) (tileS x0 x1) (6 + 1) h w := by
  unfold kernelRun0_A.sl.HS0_8
  rw [View.canon_cons_unit_zero off2_zero]
  unfold k0_pay38
  refine (tapA _ _ _ _ _ h w).trans ?_
  refine tap_step (tbl x4) (tileS x0 x1) 6 1 1 (by decide) (by decide) _ _ _ h w ?_ ?_ ?_
  · unfold kernelRun0_A.sl.v174
    exact (plane_read arg7 _ _ h w).trans (norm_5 hpay7 c arg1 harg1 arg2 harg2 arg5 harg5 arg7 arg10 x0 x1 x4 h w)
  · unfold kernelRun0_A.sl.r_8
    exact tile_read arg5 harg5 x4 _ _ 1 1 rfl rfl _ h w
  · unfold kernelRun0_A.sl.v162
    exact border_read hpay7 c arg1 harg1 arg2 harg2 x0 x1 arg10 _ _ 1 1 rfl rfl _ h w

/-- After tap 7 (window row 1, column 2) the plane holds the partial denominator of 8 taps. -/
theorem norm_7 (h w : Fin 64) :
    View.canon (kernelRun0_A.sl.HS0_9 (F := Ideal) c arg1 harg1 arg2 harg2 arg5 harg5 arg7 arg10 x0 x1 x4) (ix2 h w)
      = facNorm (tbl x4) (tileS x0 x1) (7 + 1) h w := by
  unfold kernelRun0_A.sl.HS0_9
  rw [View.canon_cons_unit_zero off2_zero]
  unfold k0_pay41
  refine (tapB _ _ _ _ h w).trans ?_
  refine tap_step (tbl x4) (tileS x0 x1) 7 1 2 (by decide) (by decide) _ _ _ h w ?_ ?_ ?_
  · unfold kernelRun0_A.sl.v193
    exact (plane_read arg7 _ _ h w).trans (norm_6 hpay7 c arg1 harg1 arg2 harg2 arg5 harg5 arg7 arg10 x0 x1 x4 h w)
  · unfold kernelRun0_A.sl.r_9 k0_pay39
    exact (tile_cast _ _ h w).trans (tile_read arg5 harg5 x4 _ _ 1 2 rfl rfl _ h w)
  · unfold kernelRun0_A.sl.v181
    exact border_read hpay7 c arg1 harg1 arg2 harg2 x0 x1 arg10 _ _ 1 2 rfl rfl _ h w

/-- After tap 8 (window row 1, column 3) the plane holds the partial denominator of 9 taps. -/
theorem norm_8 (h w : Fin 64) :
    View.canon (kernelRun0_A.sl.HS0_10 (F := Ideal) c arg1 harg1 arg2 harg2 arg5 harg5 arg7 arg10 x0 x1 x4) (ix2 h w)
      = facNorm (tbl x4) (tileS x0 x1) (8 + 1) h w := by
  unfold kernelRun0_A.sl.HS0_10
  rw [View.canon_cons_unit_zero off2_zero]
  unfold k0_pay44
  refine (tapA _ _ _ _ _ h w).trans ?_
  refine tap_step (tbl x4) (tileS x0 x1) 8 1 3 (by decide) (by decide) _ _ _ h w ?_ ?_ ?_
  · unfold kernelRun0_A.sl.v212
    exact (plane_read arg7 _ _ h w).trans (norm_7 hpay7 c arg1 harg1 arg2 harg2 arg5 harg5 arg7 arg10 x0 x1 x4 h w)
  · exact tile_read arg5 harg5 x4 _ _ 1 3 rfl rfl _ h w
  · unfold kernelRun0_A.sl.v200
    exact border_read hpay7 c arg1 harg1 arg2 harg2 x0 x1 arg10 _ _ 1 3 rfl rfl _ h w

/-- After tap 9 (window row 1, column 4) the plane holds the partial denominator of 10 taps. -/
theorem norm_9 (h w : Fin 64) :
    View.canon (kernelRun0_A.sl.HS0_11 (F := Ideal) c arg1 harg1 arg2 harg2 arg5 harg5 arg7 arg10 x0 x1 x4) (ix2 h w)
      = facNorm (tbl x4) (tileS x0 x1) (9 + 1) h w := by
  unfold kernelRun0_A.sl.HS0_11
  rw [View.canon_cons_unit_zero off2_zero]
  unfold k0_pay47
  refine (tapA _ _ _ _ _ h w).trans ?_
  refine tap_step (tbl x4) (tileS x0 x1) 9 1 4 (by decide) (by decide) _ _ _ h w ?_ ?_ ?_
  · unfold kernelRun0_A.sl.v231
    exact (plane_read arg7 _ _ h w).trans (norm_8 hpay7 c arg1 harg1 arg2 harg2 arg5 harg5 arg7 arg10 x0 x1 x4 h w)
  · exact tile_read arg5 harg5 x4 _ _ 1 4 rfl rfl _ h w
  · unfold kernelRun0_A.sl.v219
    exact border_read hpay7 c arg1 harg1 arg2 harg2 x0 x1 arg10 _ _ 1 4 rfl rfl _ h w

/-- After tap 10 (window row 2, column 0) the plane holds the partial denominator of 11 taps. -/
theorem norm_10 (h w : Fin 64) :
    View.canon (kernelRun0_A.sl.HS0_12 (F := Ideal) c arg1 harg1 arg2 harg2 arg5 harg5 arg7 arg10 x0 x1 x4) (ix2 h w)
      = facNorm (tbl x4) (tileS x0 x1) (10 + 1) h w := by
  unfold kernelRun0_A.sl.HS0_12
  rw [View.canon_cons_unit_zero off2_zero]
  unfold k0_pay51
  refine (tapB _ _ _ _ h w).trans ?_
  refine tap_step (tbl x4) (tileS x0 x1) 10 2 0 (by decide) (by decide) _ _ _ h w ?_ ?_ ?_
  · unfold kernelRun0_A.sl.v250
    exact (plane_read arg7 _ _ h w).trans (norm_9 hpay7 c arg1 harg1 arg2 harg2 arg5 harg5 arg7 arg10 x0 x1 x4 h w)
  · unfold kernelRun0_A.sl.r_11 k0_pay48
    exact (tile_cast _ _ h w).trans (tile_read arg5 harg5 x4 _ _ 2 0 rfl rfl _ h w)
  · unfold kernelRun0_A.sl.v238
    exact border_read hpay7 c arg1 harg1 arg2 harg2 x0 x1 arg10 _ _ 2 0 rfl rfl _ h w

/-- After tap 11 (window row 2, column 1) the plane holds the partial denominator of 12 taps. -/
theorem norm_11 (h w : Fin 64) :
    View.canon (kernelRun0_A.sl.HS0_13 (F := Ideal) c arg1 harg1 arg2 harg2 arg5 harg5 arg7 arg10 x0 x1 x4) (ix2 h w)
      = facNorm (tbl x4) (tileS x0 x1) (11 + 1) h w := by
  unfold kernelRun0_A.sl.HS0_13
  rw [View.canon_cons_unit_zero off2_zero]
  unfold k0_pay54
  refine (tapA _ _ _ _ _ h w).trans ?_
  refine tap_step (tbl x4) (tileS x0 x1) 11 2 1 (by decide) (by decide) _ _ _ h w ?_ ?_ ?_
  · unfold kernelRun0_A.sl.v269
    exact (plane_read arg7 _ _ h w).trans (norm_10 hpay7 c arg1 harg1 arg2 harg2 arg5 harg5 arg7 arg10 x0 x1 x4 h w)
  · exact tile_read arg5 harg5 x4 _ _ 2 1 rfl rfl _ h w
  · unfold kernelRun0_A.sl.v257
    exact border_read hpay7 c arg1 harg1 arg2 harg2 x0 x1 arg10 _ _ 2 1 rfl rfl _ h w

/-- After tap 12 (window row 2, column 2) the plane holds the partial denominator of 13 taps. -/
theorem norm_12 (h w : Fin 64) :
    View.canon (kernelRun0_A.sl.HS0_14 (F := Ideal) c arg1 harg1 arg2 harg2 arg5 harg5 arg7 arg10 x0 x1 x4) (ix2 h w)
      = facNorm (tbl x4) (tileS x0 x1) (12 + 1) h w := by
  unfold kernelRun0_A.sl.HS0_14
  rw [View.canon_cons_unit_zero off2_zero]
  unfold k0_pay57
  refine (tapA _ _ _ _ _ h w).trans ?_
  refine tap_step (tbl x4) (tileS x0 x1) 12 2 2 (by decide) (by decide) _ _ _ h w ?_ ?_ ?_
  · unfold kernelRun0_A.sl.v288
    exact (plane_read arg7 _ _ h w).trans (norm_11 hpay7 c arg1 harg1 arg2 harg2 arg5 harg5 arg7 arg10 x0 x1 x4 h w)
  · exact tile_read arg5 harg5 x4 _ _ 2 2 rfl rfl _ h w
  · unfold kernelRun0_A.sl.v276
    exact border_read hpay7 c arg1 harg1 arg2 harg2 x0 x1 arg10 _ _ 2 2 rfl rfl _ h w

/-- After tap 13 (window row 2, column 3) the plane holds the partial denominator of 14 taps. -/
theorem norm_13 (h w : Fin 64) :
    View.canon (kernelRun0_A.sl.HS0_15 (F := Ideal) c arg1 harg1 arg2 harg2 arg5 harg5 arg7 arg10 x0 x1 x4) (ix2 h w)
      = facNorm (tbl x4) (tileS x0 x1) (13 + 1) h w := by
  unfold kernelRun0_A.sl.HS0_15
  rw [View.canon_cons_unit_zero off2_zero]
  unfold k0_pay60
  refine (tapB _ _ _ _ h w).trans ?_
  refine tap_step (tbl x4) (tileS x0 x1) 13 2 3 (by decide) (by decide) _ _ _ h w ?_ ?_ ?_
  · unfold kernelRun0_A.sl.v307
    exact (plane_read arg7 _ _ h w).trans (norm_12 hpay7 c arg1 harg1 arg2 harg2 arg5 harg5 arg7 arg10 x0 x1 x4 h w)
  · unfold kernelRun0_A.sl.r_13 k0_pay58
    exact (tile_cast _ _ h w).trans (tile_read arg5 harg5 x4 _ _ 2 3 rfl rfl _ h w)
  · unfold kernelRun0_A.sl.v295
    exact border_read hpay7 c arg1 harg1 arg2 harg2 x0 x1 arg10 _ _ 2 3 rfl rfl _ h w

/-- After tap 14 (window row 2, column 4) the plane holds the partial denominator of 15 taps. -/
theorem norm_14 (h w : Fin 64) :
    View.canon (kernelRun0_A.sl.HS0_16 (F := Ideal) c arg1 harg1 arg2 harg2 arg5 harg5 arg7 arg10 x0 x1 x4) (ix2 h w)
      = facNorm (tbl x4) (tileS x0 x1) (14 + 1) h w := by
  unfold kernelRun0_A.sl.HS0_16
  rw [View.canon_cons_unit_zero off2_zero]
  unfold k0_pay64 kernelRun0_A.sl.r_14 k0_pay63
  refine (plane_cast _ _ h w).trans ?_
  refine (tapC _ _ _ _ h w).trans ?_
  refine tap_step (tbl x4) (tileS x0 x1) 14 2 4 (by decide) (by decide) _ _ _ h w ?_ ?_ ?_
  · unfold kernelRun0_A.sl.v326
    exact (plane_read arg7 _ _ h w).trans (norm_13 hpay7 c arg1 harg1 arg2 harg2 arg5 harg5 arg7 arg10 x0 x1 x4 h w)
  · exact tile_read arg5 harg5 x4 _ _ 2 4 rfl rfl _ h w
  · unfold kernelRun0_A.sl.v314
    exact border_read hpay7 c arg1 harg1 arg2 harg2 x0 x1 arg10 _ _ 2 4 rfl rfl _ h w

/-- After tap 15 (window row 3, column 0) the plane holds the partial denominator of 16 taps. -/
theorem norm_15 (h w : Fin 64) :
    View.canon (kernelRun0_A.sl.HS0_17 (F := Ideal) c arg1 harg1 arg2 harg2 arg5 harg5 arg7 arg10 x0 x1 x4) (ix2 h w)
      = facNorm (tbl x4) (tileS x0 x1) (15 + 1) h w := by
  unfold kernelRun0_A.sl.HS0_17
  rw [View.canon_cons_unit_zero off2_zero]
  unfold k0_pay67
  refine (tapA _ _ _ _ _ h w).trans ?_
  refine tap_step (tbl x4) (tileS x0 x1) 15 3 0 (by decide) (by decide) _ _ _ h w ?_ ?_ ?_
  · unfold kernelRun0_A.sl.v345
    exact (plane_read arg7 _ _ h w).trans (norm_14 hpay7 c arg1 harg1 arg2 harg2 arg5 harg5 arg7 arg10 x0 x1 x4 h w)
  · exact tile_read arg5 harg5 x4 _ _ 3 0 rfl rfl _ h w
  · unfold kernelRun0_A.sl.v333
    exact border_read hpay7 c arg1 harg1 arg2 harg2 x0 x1 arg10 _ _ 3 0 rfl rfl _ h w

/-- After tap 16 (window row 3, column 1) the plane holds the partial denominator of 17 taps. -/
theorem norm_16 (h w : Fin 64) :
    View.canon (kernelRun0_A.sl.HS0_18 (F := Ideal) c arg1 harg1 arg2 harg2 arg5 harg5 arg7 arg10 x0 x1 x4) (ix2 h w)
      = facNorm (tbl x4) (tileS x0 x1) (16 + 1) h w := by
  unfold kernelRun0_A.sl.HS0_18
  rw [View.canon_cons_unit_zero off2_zero]
  unfold k0_pay70
  refine (tapA _ _ _ _ _ h w).trans ?_
  refine tap_step (tbl x4) (tileS x0 x1) 16 3 1 (by decide) (by decide) _ _ _ h w ?_ ?_ ?_
  · unfold kernelRun0_A.sl.v364
    exact (plane_read arg7 _ _ h w).trans (norm_15 hpay7 c arg1 harg1 arg2 harg2 arg5 harg5 arg7 arg10 x0 x1 x4 h w)
  · unfold kernelRun0_A.sl.r_15
    exact tile_read arg5 harg5 x4 _ _ 3 1 rfl rfl _ h w
  · unfold kernelRun0_A.sl.v352
    exact border_read hpay7 c arg1 harg1 arg2 harg2 x0 x1 arg10 _ _ 3 1 rfl rfl _ h w

/-- After tap 17 (window row 3, column 2) the plane holds the partial denominator of 18 taps. -/
theorem norm_17 (h w : Fin 64) :
    View.canon (kernelRun0_A.sl.HS0_19 (F := Ideal) c arg1 harg1 arg2 harg2 arg5 harg5 arg7 arg10 x0 x1 x4) (ix2 h w)
      = facNorm (tbl x4) (tileS x0 x1) (17 + 1) h w := by
  unfold kernelRun0_A.sl.HS0_19
  rw [View.canon_cons_unit_zero off2_zero]
  unfold k0_pay73
  refine (tapB _ _ _ _ h w).trans ?_
  refine tap_step (tbl x4) (tileS x0 x1) 17 3 2 (by decide) (by decide) _ _ _ h w ?_ ?_ ?_
  · unfold kernelRun0_A.sl.v383
    exact (plane_read arg7 _ _ h w).trans (norm_16 hpay7 c arg1 harg1 arg2 harg2 arg5 harg5 arg7 arg10 x0 x1 x4 h w)
  · unfold kernelRun0_A.sl.r_16 k0_pay71
    exact (tile_cast _ _ h w).trans (tile_read arg5 harg5 x4 _ _ 3 2 rfl rfl _ h w)
  · unfold kernelRun0_A.sl.v371
    exact border_read hpay7 c arg1 harg1 arg2 harg2 x0 x1 arg10 _ _ 3 2 rfl rfl _ h w

/-- After tap 18 (window row 3, column 3) the plane holds the partial denominator of 19 taps. -/
theorem norm_18 (h w : Fin 64) :
    View.canon (kernelRun0_A.sl.HS0_20 (F := Ideal) c arg1 harg1 arg2 harg2 arg5 harg5 arg7 arg10 x0 x1 x4) (ix2 h w)
      = facNorm (tbl x4) (tileS x0 x1) (18 + 1) h w := by
  unfold kernelRun0_A.sl.HS0_20
  rw [View.canon_cons_unit_zero off2_zero]
  unfold k0_pay76
  refine (tapA _ _ _ _ _ h w).trans ?_
  refine tap_step (tbl x4) (tileS x0 x1) 18 3 3 (by decide) (by decide) _ _ _ h w ?_ ?_ ?_
  · unfold kernelRun0_A.sl.v402
    exact (plane_read arg7 _ _ h w).trans (norm_17 hpay7 c arg1 harg1 arg2 harg2 arg5 harg5 arg7 arg10 x0 x1 x4 h w)
  · exact tile_read arg5 harg5 x4 _ _ 3 3 rfl rfl _ h w
  · unfold kernelRun0_A.sl.v390
    exact border_read hpay7 c arg1 harg1 arg2 harg2 x0 x1 arg10 _ _ 3 3 rfl rfl _ h w

/-- After tap 19 (window row 3, column 4) the plane holds the partial denominator of 20 taps. -/
theorem norm_19 (h w : Fin 64) :
    View.canon (kernelRun0_A.sl.HS0_21 (F := Ideal) c arg1 harg1 arg2 harg2 arg5 harg5 arg7 arg10 x0 x1 x4) (ix2 h w)
      = facNorm (tbl x4) (tileS x0 x1) (19 + 1) h w := by
  unfold kernelRun0_A.sl.HS0_21
  rw [View.canon_cons_unit_zero off2_zero]
  unfold k0_pay79
  refine (tapA _ _ _ _ _ h w).trans ?_
  refine tap_step (tbl x4) (tileS x0 x1) 19 3 4 (by decide) (by decide) _ _ _ h w ?_ ?_ ?_
  · unfold kernelRun0_A.sl.v421
    exact (plane_read arg7 _ _ h w).trans (norm_18 hpay7 c arg1 harg1 arg2 harg2 arg5 harg5 arg7 arg10 x0 x1 x4 h w)
  · exact tile_read arg5 harg5 x4 _ _ 3 4 rfl rfl _ h w
  · unfold kernelRun0_A.sl.v409
    exact border_read hpay7 c arg1 harg1 arg2 harg2 x0 x1 arg10 _ _ 3 4 rfl rfl _ h w

/-- After tap 20 (window row 4, column 0) the plane holds the partial denominator of 21 taps. -/
theorem norm_20 (h w : Fin 64) :
    View.canon (kernelRun0_A.sl.HS0_22 (F := Ideal) c arg1 harg1 arg2 harg2 arg5 harg5 arg7 arg10 x0 x1 x4) (ix2 h w)
      = facNorm (tbl x4) (tileS x0 x1) (20 + 1) h w := by
  unfold kernelRun0_A.sl.HS0_22
  rw [View.canon_cons_unit_zero off2_zero]
  unfold k0_pay83
  refine (tapB _ _ _ _ h w).trans ?_
  refine tap_step (tbl x4) (tileS x0 x1) 20 4 0 (by decide) (by decide) _ _ _ h w ?_ ?_ ?_
  · unfold kernelRun0_A.sl.v440
    exact (plane_read arg7 _ _ h w).trans (norm_19 hpay7 c arg1 harg1 arg2 harg2 arg5 harg5 arg7 arg10 x0 x1 x4 h w)
  · unfold kernelRun0_A.sl.r_18 k0_pay80
    exact (tile_cast _ _ h w).trans (tile_read arg5 harg5 x4 _ _ 4 0 rfl rfl _ h w)
  · unfold kernelRun0_A.sl.v428
    exact border_read hpay7 c arg1 harg1 arg2 harg2 x0 x1 arg10 _ _ 4 0 rfl rfl _ h w

/-- After tap 21 (window row 4, column 1) the plane holds the partial denominator of 22 taps. -/
theorem norm_21 (h w : Fin 64) :
    View.canon (kernelRun0_A.sl.HS0_23 (F := Ideal) c arg1 harg1 arg2 harg2 arg5 harg5 arg7 arg10 x0 x1 x4) (ix2 h w)
      = facNorm (tbl x4) (tileS x0 x1) (21 + 1) h w := by
  unfold kernelRun0_A.sl.HS0_23
  rw [View.canon_cons_unit_zero off2_zero]
  unfold k0_pay86
  refine (tapA _ _ _ _ _ h w).trans ?_
  refine tap_step (tbl x4) (tileS x0 x1) 21 4 1 (by decide) (by decide) _ _ _ h w ?_ ?_ ?_
  · unfold kernelRun0_A.sl.v459
    exact (plane_read arg7 _ _ h w).trans (norm_20 hpay7 c arg1 harg1 arg2 harg2 arg5 harg5 arg7 arg10 x0 x1 x4 h w)
  · exact tile_read arg5 harg5 x4 _ _ 4 1 rfl rfl _ h w
  · unfold kernelRun0_A.sl.v447
    exact border_read hpay7 c arg1 harg1 arg2 harg2 x0 x1 arg10 _ _ 4 1 rfl rfl _ h w

/-- After tap 22 (window row 4, column 2) the plane holds the partial denominator of 23 taps. -/
theorem norm_22 (h w : Fin 64) :
    View.canon (kernelRun0_A.sl.HS0_24 (F := Ideal) c arg1 harg1 arg2 harg2 arg5 harg5 arg7 arg10 x0 x1 x4) (ix2 h w)
      = facNorm (tbl x4) (tileS x0 x1) (22 + 1) h w := by
  unfold kernelRun0_A.sl.HS0_24
  rw [View.canon_cons_unit_zero off2_zero]
  unfold k0_pay89
  refine (tapA _ _ _ _ _ h w).trans ?_
  refine tap_step (tbl x4) (tileS x0 x1) 22 4 2 (by decide) (by decide) _ _ _ h w ?_ ?_ ?_
  · unfold kernelRun0_A.sl.v478
    exact (plane_read arg7 _ _ h w).trans (norm_21 hpay7 c arg1 harg1 arg2 harg2 arg5 harg5 arg7 arg10 x0 x1 x4 h w)
  · exact tile_read arg5 harg5 x4 _ _ 4 2 rfl rfl _ h w
  · unfold kernelRun0_A.sl.v466
    exact border_read hpay7 c arg1 harg1 arg2 harg2 x0 x1 arg10 _ _ 4 2 rfl rfl _ h w

/-- After tap 23 (window row 4, column 3) the plane holds the partial denominator of 24 taps. -/
theorem norm_23 (h w : Fin 64) :
    View.canon (kernelRun0_A.sl.HS0_25 (F := Ideal) c arg1 harg1 arg2 harg2 arg5 harg5 arg7 arg10 x0 x1 x4) (ix2 h w)
      = facNorm (tbl x4) (tileS x0 x1) (23 + 1) h w := by
  unfold kernelRun0_A.sl.HS0_25
  rw [View.canon_cons_unit_zero off2_zero]
  unfold k0_pay92
  refine (tapB _ _ _ _ h w).trans ?_
  refine tap_step (tbl x4) (tileS x0 x1) 23 4 3 (by decide) (by decide) _ _ _ h w ?_ ?_ ?_
  · unfold kernelRun0_A.sl.v497
    exact (plane_read arg7 _ _ h w).trans (norm_22 hpay7 c arg1 harg1 arg2 harg2 arg5 harg5 arg7 arg10 x0 x1 x4 h w)
  · unfold kernelRun0_A.sl.r_20 k0_pay90
    exact (tile_cast _ _ h w).trans (tile_read arg5 harg5 x4 _ _ 4 3 rfl rfl _ h w)
  · unfold kernelRun0_A.sl.v485
    exact border_read hpay7 c arg1 harg1 arg2 harg2 x0 x1 arg10 _ _ 4 3 rfl rfl _ h w

/-- After tap 24 (window row 4, column 4) the plane holds the partial denominator of 25 taps. -/
theorem norm_24 (h w : Fin 64) :
    View.canon (kernelRun0_A.sl.HS0_26 (F := Ideal) c arg1 harg1 arg2 harg2 arg5 harg5 arg7 arg10 x0 x1 x4) (ix2 h w)
      = facNorm (tbl x4) (tileS x0 x1) (24 + 1) h w := by
  unfold kernelRun0_A.sl.HS0_26
  rw [View.canon_cons_unit_zero off2_zero]
  unfold k0_pay1 kernelRun0_A.sl.r_21 k0_pay95
  refine (plane_cast _ _ h w).trans ?_
  refine (tapC _ _ _ _ h w).trans ?_
  refine tap_step (tbl x4) (tileS x0 x1) 24 4 4 (by decide) (by decide) _ _ _ h w ?_ ?_ ?_
  · unfold kernelRun0_A.sl.v516
    exact (plane_read arg7 _ _ h w).trans (norm_23 hpay7 c arg1 harg1 arg2 harg2 arg5 harg5 arg7 arg10 x0 x1 x4 h w)
  · exact tile_read arg5 harg5 x4 _ _ 4 4 rfl rfl _ h w
  · unfold kernelRun0_A.sl.v504
    exact border_read hpay7 c arg1 harg1 arg2 harg2 x0 x1 arg10 _ _ 4 4 rfl rfl _ h w

/-- THE DENOMINATOR PLANE the body leaves: after all 25 taps, `facNorm E S 25` at every pixel. -/
theorem norm_chain (h w : Fin 64) :
    View.canon (kernelRun0_A.sl.HS0_26 (F := Ideal) c arg1 harg1 arg2 harg2 arg5 harg5 arg7 arg10 x0 x1 x4) (ix2 h w)
      = facNorm (tbl x4) (tileS x0 x1) 25 h w :=
  norm_24 hpay7 c arg1 harg1 arg2 harg2 arg5 harg5 arg7 arg10 x0 x1 x4 h w

end Cert.Attn.Ker

end
-- ==== Proof.KerBody.lean ====
/-
  What the body leaves in its output block.

  After the 25 taps the body reads the numerator block and the denominator plane back, divides the first by the second
  plus `ε` pixel by pixel, and projects the quotient by `Wp`; this last store covers the whole block, so the block
  ends holding exactly that: the per-image result of the specification, over the table and the tiles the body was handed.
-/
import proofs.«107659_j89111981457894_2_alg».proof.Proof.KerChain
import proofs.«107659_j89111981457894_2_alg».proof.Proof.KerNorm2

set_option maxRecDepth 16384

noncomputable section

namespace Cert.Attn.Ker

open Cert.KernelIdeal Cert.KernelIdeal.Gen Idealize.ShloMosaic Idealize.ShloMosaic.ValueIdx Cert.Attn
open Idealize.SL.Sem

/-- THE BODY'S VALUE: the output block at `(h, w, o)` is the specification's per-image result. -/
theorem body_value (c : Dev nD) (i : grid0.Coords) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S5x5x64x64 .f32) (harg5 : arg5.IsWhole) (arg6 : Memref sig .tc .vmem S1x64x64x256 .f32) (harg6 : arg6.IsWhole) (arg7 : Memref sig .tc .vmem S64x64 .f32) (harg7 : arg7.IsWhole) (arg8 : Memref sig .tc .vmem S72x72x256 .f32) (harg8 : arg8.IsWhole) (arg9 : Memref sig .tc .vmem S72x72x256 .f32) (harg9 : arg9.IsWhole) (arg10 : Memref sig .tc .vmem S72x72 .f32) (harg10 : arg10.IsWhole) (x0 : Vec Ideal S1x64x64x256 .bf16) (x1 : Vec Ideal S256x256 .bf16) (x2 : Vec Ideal S256x256 .bf16) (x3 : Vec Ideal S256x256 .bf16) (x4 : Vec Ideal S5x5x64x64 .f32)
    (h w : Fin 64) (o : Fin 256) :
    out0_A_5 (F := Ideal) c i arg1 harg1 arg2 harg2 arg3 harg3 arg4 harg4 arg5 harg5 arg6 harg6 arg7 harg7 arg8 harg8 arg9 harg9 arg10 harg10 x0 x1 x2 x3 x4 (ix4 (0 : Fin 1) h w o)
      = imgResult (tbl x4) (tileP x0 x1 x2) (tileS x0 x1) (co2 x3) h w o := by
  unfold out0_A_5
  rw [View.read_writes_junk_eq_canon]
  unfold kernelRun0_A
  dsimp only
  rw [View.canon_cons_unit_zero (funext fun a => by match a with | ⟨0, _⟩ => rfl | ⟨1, _⟩ => rfl | ⟨2, _⟩ => rfl | ⟨3, _⟩ => rfl)]
  refine (pay2_apply _ _ _ h w o).trans ?_
  have e3 : co2 (kernelRun0_A.sl.r (F := Ideal) c arg4 harg4 x3) = co2 x3 := by
    unfold kernelRun0_A.sl.r k0_pay4
    rw [shapeCast_self, block_read arg4 harg4 x3 (funext fun a => by match a with | ⟨0, _⟩ => rfl | ⟨1, _⟩ => rfl)]
  have e1 : (fun (h w : Fin 64) (d : Fin 256) =>
      kernelRun0_A.sl.v522 (F := Ideal) c arg1 harg1 arg2 harg2 arg3 harg3 arg5 harg5 arg6 arg9 x0 x1 x2 x4 (ix4 (0 : Fin 1) h w d))
      = facOut (tbl x4) (tileP x0 x1 x2) 25 :=
    funext fun h => funext fun w => funext fun d => out_25 c arg1 harg1 arg2 harg2 arg3 harg3 arg5 harg5 arg6 arg9 x0 x1 x2 x4 h w d
  have e2 : (fun (h w : Fin 64) =>
      kernelRun0_A.sl.v524 (F := Ideal) c arg1 harg1 arg2 harg2 arg5 harg5 arg7 arg10 x0 x1 x4 (ix2 h w))
      = facNorm (tbl x4) (tileS x0 x1) 25 :=
    funext fun h => funext fun w =>
      (plane_read arg7 _ _ h w).trans (norm_chain pay7_apply c arg1 harg1 arg2 harg2 arg5 harg5 arg7 arg10 x0 x1 x4 h w)
  rw [e1, e2, e3]
  rfl

end Cert.Attn.Ker

end
-- ==== Proof.HostTable.lean ====
/-
  The position table of the windowed attention, as the host computes it before the kernel is launched, read entry by entry.

  The host builds, from the two bias vectors `w_h`, `w_v : f32[5]`, the array `T[ii, jj, h, w] = exp(w_h[ii]·(ii - 2 - h) + w_v[jj]·(jj - 2 - w)) · [0 ≤ h + ii - 2 < 64 ∧ 0 ≤ w + jj - 2 < 64]`
  out of iotas, 32-bit integer differences, comparisons, broadcasts and one exponential. Here the chain of operations is
  written once as a term over the two vectors (`table`), and each stage is read at an index: the integer words never
  wrap (all of them lie in `[-66, 66]`), so their signed readings are the integers one expects, the two comparisons say
  `2 ≤ h + ii < 66`, and the converted mask bit is `1` or `0`.
-/
import proofs.«107659_j89111981457894_2_alg».proof.Proof.Gen.KernelIdeal
import proofs.«107659_j89111981457894_2_alg».proof.Proof.Spec
import Idealize.ShloMosaic.Lib.Pipeline.Value
import Idealize.ShloMosaic.Lib.IdealHost
import Idealize.ShloMosaic.Lib.Affine

set_option maxRecDepth 16384

noncomputable section

namespace Cert.Attn.Host

open Cert.KernelIdeal Cert.KernelIdeal.Facts₀ Idealize.ShloMosaic Idealize.ShloMosaic.ValueIdx

/-! ## Broadcasts of the literal shapes, read at an index -/

section Broadcasts
variable {α : Type}

/-- A vector laid as the one row of a `1 × 64` matrix. -/
theorem bc_row (hb : S64.BroadcastsInDim S1x64 ![1]) (x : S64.Idx → α) (a : Fin 1) (q : Fin 64) :
    broadcastInDim S1x64 ![1] hb x (ix2 a q) = x (ix1 q) :=
  broadcastInDim_apply _ _ _ _ _ (fun d => match d with | ⟨0, _⟩ => rfl)

/-- A vector laid as the one column of a `5 × 1` matrix. -/
theorem bc_col (hb : S5.BroadcastsInDim S5x1 ![0]) (x : S5.Idx → α) (p : Fin 5) (a : Fin 1) :
    broadcastInDim S5x1 ![0] hb x (ix2 p a) = x (ix1 p) :=
  broadcastInDim_apply _ _ _ _ _ (fun d => match d with | ⟨0, _⟩ => rfl)

/-- The one row repeated down five rows. -/
theorem bc_row_full (hb : S1x64.BroadcastsInDim S5x64 ![0, 1]) (x : S1x64.Idx → α) (p : Fin 5) (q : Fin 64) :
    broadcastInDim S5x64 ![0, 1] hb x (ix2 p q) = x (ix2 0 q) :=
  broadcastInDim_apply _ _ _ _ _ (fun d => match d with | ⟨0, _⟩ => rfl | ⟨1, _⟩ => rfl)

/-- The one column repeated along sixty-four columns. -/
theorem bc_col_full (hb : S5x1.BroadcastsInDim S5x64 ![0, 1]) (x : S5x1.Idx → α) (p : Fin 5) (q : Fin 64) :
    broadcastInDim S5x64 ![0, 1] hb x (ix2 p q) = x (ix2 p 0) :=
  broadcastInDim_apply _ _ _ _ _ (fun d => match d with | ⟨0, _⟩ => rfl | ⟨1, _⟩ => rfl)

/-- A `5 × 64` matrix placed on axes 0 and 2 of a `5 × 1 × 64 × 1` array. -/
theorem bc_02 (hb : S5x64.BroadcastsInDim S5x1x64x1 ![0, 2]) (x : S5x64.Idx → α) (p : Fin 5) (a : Fin 1) (q : Fin 64) (b : Fin 1) :
    broadcastInDim S5x1x64x1 ![0, 2] hb x (ix4 p a q b) = x (ix2 p q) :=
  broadcastInDim_apply _ _ _ _ _ (fun d => match d with | ⟨0, _⟩ => rfl | ⟨1, _⟩ => rfl)

/-- A `5 × 64` matrix placed on axes 1 and 3 of a `1 × 5 × 1 × 64` array. -/
theorem bc_13 (hb : S5x64.BroadcastsInDim S1x5x1x64 ![1, 3]) (x : S5x64.Idx → α) (a : Fin 1) (p : Fin 5) (b : Fin 1) (q : Fin 64) :
    broadcastInDim S1x5x1x64 ![1, 3] hb x (ix4 a p b q) = x (ix2 p q) :=
  broadcastInDim_apply _ _ _ _ _ (fun d => match d with | ⟨0, _⟩ => rfl | ⟨1, _⟩ => rfl)

/-- A `5 × 1 × 64 × 1` array repeated along its two unit axes. -/
theorem bc_02_full (hb : S5x1x64x1.BroadcastsInDim S5x5x64x64 ![0, 1, 2, 3]) (x : S5x1x64x1.Idx → α)
    (ii jj : Fin 5) (h w : Fin 64) :
    broadcastInDim S5x5x64x64 ![0, 1, 2, 3] hb x (ix4 ii jj h w) = x (ix4 ii 0 h 0) :=
  broadcastInDim_apply _ _ _ _ _ (fun d => match d with | ⟨0, _⟩ => rfl | ⟨1, _⟩ => rfl | ⟨2, _⟩ => rfl | ⟨3, _⟩ => rfl)

/-- A `1 × 5 × 1 × 64` array repeated along its two unit axes. -/
theorem bc_13_full (hb : S1x5x1x64.BroadcastsInDim S5x5x64x64 ![0, 1, 2, 3]) (x : S1x5x1x64.Idx → α)
    (ii jj : Fin 5) (h w : Fin 64) :
    broadcastInDim S5x5x64x64 ![0, 1, 2, 3] hb x (ix4 ii jj h w) = x (ix4 0 jj 0 w) :=
  broadcastInDim_apply _ _ _ _ _ (fun d => match d with | ⟨0, _⟩ => rfl | ⟨1, _⟩ => rfl | ⟨2, _⟩ => rfl | ⟨3, _⟩ => rfl)

end Broadcasts

/-! ## The integer words: no wrap-around -/

/-- The tap offset minus the pixel coordinate, `(ii - 2) - h` on 32-bit words, read signed, is that integer:
    it lies in `[-65, 2]`. (Decided over the 5 · 64 pairs.) -/
theorem toInt_delta : ∀ (p : Fin 5) (q : Fin 64),
    (BitVec.ofNat 32 p.val - 2#32 - BitVec.ofNat 32 q.val).toInt = (p.val : ℤ) - 2 - (q.val : ℤ) := by
  decide +kernel

/-- The pixel coordinate plus the tap offset, `h + (ii - 2)` on 32-bit words, read signed, is that integer:
    it lies in `[-2, 65]`. (Decided over the 5 · 64 pairs.) -/
theorem toInt_pos : ∀ (p : Fin 5) (q : Fin 64),
    (BitVec.ofNat 32 q.val + (BitVec.ofNat 32 p.val - 2#32)).toInt = (q.val : ℤ) + ((p.val : ℤ) - 2) := by
  decide +kernel

/-- The two comparisons `0 ≤ h + (ii - 2)` and `h + (ii - 2) < 64` both hold exactly when `2 ≤ h + ii < 66`. -/
theorem inside_bit (p : Fin 5) (q : Fin 64) :
    IntOp.andi (IntOp.cmpi .sge (BitVec.ofNat 32 q.val + (BitVec.ofNat 32 p.val - 2#32)) 0#32)
        (IntOp.cmpi .slt (BitVec.ofNat 32 q.val + (BitVec.ofNat 32 p.val - 2#32)) 64#32) = 1#1
      ↔ (2 ≤ q.val + p.val ∧ q.val + p.val < 66) := by
  have h0 : (0#32 : BitVec 32).toInt = 0 := by decide
  have h64 : (64#32 : BitVec 32).toInt = 64 := by decide
  rw [IntOp.andi_eq_one, IntOp.cmpi_sge, IntOp.cmpi_slt, toInt_pos, h0, h64]
  omega

/-- A one-bit word converted to a float is `1` or `0` according to what the bit says. -/
theorem bit_cast (b : BitVec 1) (R : Prop) [Decidable R] (h : b = 1#1 ↔ R) :
    (((b.toNat : ℝ)) : EReal) = if R then 1 else 0 := by
  by_cases hR : R
  · rw [if_pos hR, h.mpr hR]; simp
  · rw [if_neg hR, eq_zero_of_ne_one (fun hb => hR (h.mp hb))]; simp

/-! ## The host's chain of operations, as a term over the two bias vectors -/

/-- The tap offsets `ii - 2`, `ii = 0 … 4`. -/
def off : IVec S5 32 := subi (iotaInDim S5 32 0) (broadcastInDim S5 ![] bcast_S_S5 (constantI S_ 32 2#32))

/-- `pos[ii, h] = h + (ii - 2)`: the coordinate a tap looks at. -/
def pos : IVec S5x64 32 :=
  addi (broadcastInDim S5x64 ![0, 1] bcast_S1x64_S5x64_0_1 (broadcastInDim S1x64 ![1] bcast_S64_S1x64_1 (iotaInDim S64 32 0)))
    (broadcastInDim S5x64 ![0, 1] bcast_S5x1_S5x64_0_1 (broadcastInDim S5x1 ![0] bcast_S5_S5x1_0 off))

/-- `inside[ii, h]`: the bit `0 ≤ pos ∧ pos < 64`. -/
def inside : IVec S5x64 1 :=
  andi (cmpi .sge pos (broadcastInDim S5x64 ![] bcast_S_S5x64 (constantI S_ 32 0#32)))
    (cmpi .slt pos (broadcastInDim S5x64 ![] bcast_S_S5x64 (constantI S_ 32 64#32)))

/-- The mask `inside[ii, h] ∧ inside[jj, w]` as a float array. -/
def maskv : FVec Ideal S5x5x64x64 .f32 :=
  uitofp .f32
    (andi
      (broadcastInDim S5x5x64x64 ![0, 1, 2, 3] bcast_S5x1x64x1_S5x5x64x64_0_1_2_3
        (broadcastInDim S5x1x64x1 ![0, 2] bcast_S5x64_S5x1x64x1_0_2 inside))
      (broadcastInDim S5x5x64x64 ![0, 1, 2, 3] bcast_S1x5x1x64_S5x5x64x64_0_1_2_3
        (broadcastInDim S1x5x1x64 ![1, 3] bcast_S5x64_S1x5x1x64_1_3 inside)))

/-- `delta[ii, h] = (ii - 2) - h`. -/
def delta : IVec S5x64 32 :=
  subi (broadcastInDim S5x64 ![0, 1] bcast_S5x1_S5x64_0_1 (broadcastInDim S5x1 ![0] bcast_S5_S5x1_0 off))
    (broadcastInDim S5x64 ![0, 1] bcast_S1x64_S5x64_0_1 (broadcastInDim S1x64 ![1] bcast_S64_S1x64_1 (iotaInDim S64 32 0)))

/-- One half of the bias: `lin u [ii, h] = u[ii] · (ii - 2 - h)`. -/
def lin (u : FVec Ideal S5 .f32) : FVec Ideal S5x64 .f32 :=
  mulf (broadcastInDim S5x64 ![0, 1] bcast_S5x1_S5x64_0_1 (broadcastInDim S5x1 ![0] bcast_S5_S5x1_0 u))
    (sitofp .f32 delta)

/-- The whole table: `exp(lin w_h [ii, h] + lin w_v [jj, w]) · mask`. -/
def table (wh wv : FVec Ideal S5 .f32) : FVec Ideal S5x5x64x64 .f32 :=
  mulf
    (Host.exp
      (addf
        (broadcastInDim S5x5x64x64 ![0, 1, 2, 3] bcast_S5x1x64x1_S5x5x64x64_0_1_2_3
          (broadcastInDim S5x1x64x1 ![0, 2] bcast_S5x64_S5x1x64x1_0_2 (lin wh)))
        (broadcastInDim S5x5x64x64 ![0, 1, 2, 3] bcast_S1x5x1x64_S5x5x64x64_0_1_2_3
          (broadcastInDim S1x5x1x64 ![1, 3] bcast_S5x64_S1x5x1x64_1_3 (lin wv)))))
    maskv

/-! ## Each stage at an index -/

theorem off_apply (p : Fin 5) : off (ix1 p) = BitVec.ofNat 32 p.val - 2#32 := rfl

theorem pos_apply (p : Fin 5) (q : Fin 64) :
    pos (ix2 p q) = BitVec.ofNat 32 q.val + (BitVec.ofNat 32 p.val - 2#32) := by
  show IntOp.addi
      (broadcastInDim S5x64 ![0, 1] bcast_S1x64_S5x64_0_1 (broadcastInDim S1x64 ![1] bcast_S64_S1x64_1 (iotaInDim S64 32 0)) (ix2 p q))
      (broadcastInDim S5x64 ![0, 1] bcast_S5x1_S5x64_0_1 (broadcastInDim S5x1 ![0] bcast_S5_S5x1_0 off) (ix2 p q)) = _
  rw [bc_row_full, bc_row, bc_col_full, bc_col, off_apply]
  rfl

theorem delta_apply (p : Fin 5) (q : Fin 64) :
    delta (ix2 p q) = BitVec.ofNat 32 p.val - 2#32 - BitVec.ofNat 32 q.val := by
  show IntOp.subi
      (broadcastInDim S5x64 ![0, 1] bcast_S5x1_S5x64_0_1 (broadcastInDim S5x1 ![0] bcast_S5_S5x1_0 off) (ix2 p q))
      (broadcastInDim S5x64 ![0, 1] bcast_S1x64_S5x64_0_1 (broadcastInDim S1x64 ![1] bcast_S64_S1x64_1 (iotaInDim S64 32 0)) (ix2 p q)) = _
  rw [bc_row_full, bc_row, bc_col_full, bc_col, off_apply]
  rfl

theorem inside_apply (p : Fin 5) (q : Fin 64) :
    inside (ix2 p q) = 1#1 ↔ (2 ≤ q.val + p.val ∧ q.val + p.val < 66) := by
  show IntOp.andi (IntOp.cmpi .sge (pos (ix2 p q)) 0#32) (IntOp.cmpi .slt (pos (ix2 p q)) 64#32) = 1#1 ↔ _
  rw [pos_apply]
  exact inside_bit p q

theorem maskv_apply (ii jj : Fin 5) (h w : Fin 64) :
    maskv (ix4 ii jj h w)
      = if (2 ≤ h.val + ii.val ∧ h.val + ii.val < 66) ∧ (2 ≤ w.val + jj.val ∧ w.val + jj.val < 66) then 1 else 0 := by
  show ((((IntOp.andi
      (broadcastInDim S5x5x64x64 ![0, 1, 2, 3] bcast_S5x1x64x1_S5x5x64x64_0_1_2_3
        (broadcastInDim S5x1x64x1 ![0, 2] bcast_S5x64_S5x1x64x1_0_2 inside) (ix4 ii jj h w))
      (broadcastInDim S5x5x64x64 ![0, 1, 2, 3] bcast_S1x5x1x64_S5x5x64x64_0_1_2_3
        (broadcastInDim S1x5x1x64 ![1, 3] bcast_S5x64_S1x5x1x64_1_3 inside) (ix4 ii jj h w))).toNat : ℝ)) : EReal) = _
  rw [bc_02_full, bc_02, bc_13_full, bc_13]
  exact bit_cast _ _ (by rw [IntOp.andi_eq_one, inside_apply, inside_apply])

theorem lin_apply (u : FVec Ideal S5 .f32) (p : Fin 5) (q : Fin 64) :
    lin u (ix2 p q) = u (ix1 p) * ((((p.val : ℤ) - 2 - (q.val : ℤ) : ℤ) : ℝ) : EReal) := by
  show (broadcastInDim S5x64 ![0, 1] bcast_S5x1_S5x64_0_1 (broadcastInDim S5x1 ![0] bcast_S5_S5x1_0 u) (ix2 p q) : EReal)
      * ((((delta (ix2 p q)).toInt : ℝ)) : EReal) = _
  rw [bc_col_full, bc_col, delta_apply, toInt_delta]

/-- THE TABLE AT AN ENTRY is the specification's `exp β · mask`. -/
theorem table_apply (wh wv : FVec Ideal S5 .f32) (ii jj : Fin 5) (h w : Fin 64) :
    table wh wv (ix4 ii jj h w) = Cert.Attn.eb (Cert.Attn.co1 wh) (Cert.Attn.co1 wv) ii jj h w := by
  show Ideal.exp
      ((broadcastInDim S5x5x64x64 ![0, 1, 2, 3] bcast_S5x1x64x1_S5x5x64x64_0_1_2_3
          (broadcastInDim S5x1x64x1 ![0, 2] bcast_S5x64_S5x1x64x1_0_2 (lin wh)) (ix4 ii jj h w) : EReal)
        + (broadcastInDim S5x5x64x64 ![0, 1, 2, 3] bcast_S1x5x1x64_S5x5x64x64_0_1_2_3
          (broadcastInDim S1x5x1x64 ![1, 3] bcast_S5x64_S1x5x1x64_1_3 (lin wv)) (ix4 ii jj h w) : EReal))
      * maskv (ix4 ii jj h w) = _
  rw [bc_02_full, bc_02, bc_13_full, bc_13, lin_apply, lin_apply, maskv_apply]
  rfl

end Cert.Attn.Host

end
-- ==== Proof.HostTable2.lean ====
/-
  The arrays the kernel's region finds: the position table and the four arguments after their change of format.

  Before the kernel is launched the host writes the position table (read entry by entry in `HostTable`) and converts
  the image and the three weight matrices to a narrower float format; on extended reals a change of format is the
  identity, so each converted array is its argument entry by entry.
-/
import proofs.«107659_j89111981457894_2_alg».proof.Proof.Gen.KernelIdeal.Frame.Runs
import proofs.«107659_j89111981457894_2_alg».proof.Proof.HostTable

set_option maxRecDepth 16384

noncomputable section

namespace Cert.Attn.Host

open Cert.KernelIdeal Cert.KernelIdeal.Gen Cert.KernelIdeal.Facts₀ Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 40000000 in
/-- The table buffer, as the region finds it, is the host's chain of operations over the two bias vectors. -/
theorem table_buffer (c : Dev nD) :
    (V m c main_v58 : S5x5x64x64.Idx → EReal)
      = table (m ((c : Thread nD τ).loc main_arg1)) (m ((c : Thread nD τ).loc main_arg2)) := by
  dsimp only [Gen.V, Gen.hostOps0]
  after_results_simp
  rfl

/-- THE TABLE BUFFER AT AN ENTRY is the specification's `exp β · mask` of the two bias vectors. -/
theorem table_entry (c : Dev nD) (ii jj : Fin 5) (h w : Fin 64) :
    (V m c main_v58 : S5x5x64x64.Idx → EReal) (ix4 ii jj h w)
      = Cert.Attn.eb (Cert.Attn.co1 (m ((c : Thread nD τ).loc main_arg1))) (Cert.Attn.co1 (m ((c : Thread nD τ).loc main_arg2)))
          ii jj h w := by
  rw [table_buffer]
  exact table_apply _ _ ii jj h w

set_option maxHeartbeats 40000000 in
/-- The converted image is the image, entry by entry. -/
theorem image_entry (c : Dev nD) (i : S16x64x64x256.Idx) :
    (V m c main_v59 : S16x64x64x256.Idx → EReal) i = (m ((c : Thread nD τ).loc main_arg0) : S16x64x64x256.Idx → EReal) i := by
  have e : (V m c main_v59 : S16x64x64x256.Idx → EReal) = fun j => (m ((c : Thread nD τ).loc main_arg0) : S16x64x64x256.Idx → EReal) j := by
    dsimp only [Gen.V, Gen.hostOps0]
    after_results_simp
    rfl
  rw [e]

set_option maxHeartbeats 40000000 in
/-- The converted key weights are the key weights, entry by entry. -/
theorem wk_entry (c : Dev nD) (i : S256x256.Idx) :
    (V m c main_v60 : S256x256.Idx → EReal) i = (m ((c : Thread nD τ).loc main_arg3) : S256x256.Idx → EReal) i := by
  have e : (V m c main_v60 : S256x256.Idx → EReal) = fun j => (m ((c : Thread nD τ).loc main_arg3) : S256x256.Idx → EReal) j := by
    dsimp only [Gen.V, Gen.hostOps0]
    after_results_simp
    rfl
  rw [e]

set_option maxHeartbeats 40000000 in
/-- The converted value weights are the value weights, entry by entry. -/
theorem wv_entry (c : Dev nD) (i : S256x256.Idx) :
    (V m c main_v61 : S256x256.Idx → EReal) i = (m ((c : Thread nD τ).loc main_arg4) : S256x256.Idx → EReal) i := by
  have e : (V m c main_v61 : S256x256.Idx → EReal) = fun j => (m ((c : Thread nD τ).loc main_arg4) : S256x256.Idx → EReal) j := by
    dsimp only [Gen.V, Gen.hostOps0]
    after_results_simp
    rfl
  rw [e]

set_option maxHeartbeats 40000000 in
/-- The converted output weights are the output weights, entry by entry. -/
theorem wp_entry (c : Dev nD) (i : S256x256.Idx) :
    (V m c main_v62 : S256x256.Idx → EReal) i = (m ((c : Thread nD τ).loc main_arg5) : S256x256.Idx → EReal) i := by
  have e : (V m c main_v62 : S256x256.Idx → EReal) = fun j => (m ((c : Thread nD τ).loc main_arg5) : S256x256.Idx → EReal) j := by
    dsimp only [Gen.V, Gen.hostOps0]
    after_results_simp
    rfl
  rw [e]

end Cert.Attn.Host

end
-- ==== Proof.KerValue.lean ====
/-
  From the blocks the kernel writes to the whole result array.

  The kernel's grid has one point per image. At point `t` the body reads image `t` (one block of the image array), the
  three weight matrices and the position table whole, and writes image `t` of the result. Given what the body computes
  from the blocks it is handed (`BodyValue`), each written block is that image of the factored form of the windowed
  attention, the sixteen blocks cover the result array, and so the array ends holding the factored form.
-/
import proofs.«107659_j89111981457894_2_alg».proof.Proof.Gen.KernelIdeal.Value
import proofs.«107659_j89111981457894_2_alg».proof.Proof.HostTable2
import proofs.«107659_j89111981457894_2_alg».proof.Proof.KerSpec
import proofs.«107659_j89111981457894_2_alg».proof.Proof.Spec

noncomputable section

open scoped BigOperators

namespace Cert.Attn.Ker

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps, decided over the sixteen grid points: the image window and the result window are at block
    `t` along the image axis and at block `0` along the others; the weight windows and the table window are at block `0`. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_5.index t (0 : Fin 4) = t.val ∧ win0_5.index t (1 : Fin 4) = 0 ∧ win0_5.index t (2 : Fin 4) = 0 ∧ win0_5.index t (3 : Fin 4) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 4) = 0 ∧ win0_4.index t (1 : Fin 4) = 0 ∧ win0_4.index t (2 : Fin 4) = 0 ∧ win0_4.index t (3 : Fin 4) = 0) :=
  (by decide +kernel : ∀ t : Fin grid0.N, _)

theorem points_lt (t : Fin cfg0.N) : t.val < 16 := t.isLt

/-- The image block at point `t` is image `t` of the first argument. -/
theorem img_block (c : Dev nD) (t : Fin cfg0.N) (h w : Fin 64) (ch : Fin 256) :
    (iblk m c 0 t : Vec Ideal S1x64x64x256 .bf16) (ix4 (0 : Fin 1) h w ch)
      = (m ((c : Thread nD τ).loc main_arg0) : S16x64x64x256.Idx → EReal) (ix4 (⟨t.val, points_lt t⟩ : Fin 16) h w ch) := by
  obtain ⟨⟨e0, e1, e2, e3⟩, -⟩ := idx_facts t
  unfold iblk
  rw [View.read_apply]
  show (V m c main_v59 : S16x64x64x256.Idx → EReal) _ = _
  rw [Cert.Attn.Host.image_entry]
  congr 1
  funext a
  apply Fin.ext
  match a with
  | ⟨0, _⟩ => show win0_0.index t (0 : Fin 4) * 1 + 1 * 0 = t.val; omega
  | ⟨1, _⟩ => show win0_0.index t (1 : Fin 4) * 64 + 1 * h.val = h.val; omega
  | ⟨2, _⟩ => show win0_0.index t (2 : Fin 4) * 64 + 1 * w.val = w.val; omega
  | ⟨3, _⟩ => show win0_0.index t (3 : Fin 4) * 256 + 1 * ch.val = ch.val; omega

/-- The key-weight block at any point is the fourth argument, whole. -/
theorem wk_block (c : Dev nD) (t : Fin cfg0.N) (d k : Fin 256) :
    (iblk m c 1 t : Vec Ideal S256x256 .bf16) (ix2 d k)
      = (m ((c : Thread nD τ).loc main_arg3) : S256x256.Idx → EReal) (ix2 d k) := by
  obtain ⟨-, -, ⟨e0, e1⟩, -⟩ := idx_facts t
  unfold iblk
  rw [View.read_apply]
  show (V m c main_v60 : S256x256.Idx → EReal) _ = _
  rw [Cert.Attn.Host.wk_entry]
  congr 1
  funext a
  apply Fin.ext
  match a with
  | ⟨0, _⟩ => show win0_1.index t (0 : Fin 2) * 256 + 1 * d.val = d.val; omega
  | ⟨1, _⟩ => show win0_1.index t (1 : Fin 2) * 256 + 1 * k.val = k.val; omega

/-- The value-weight block at any point is the fifth argument, whole. -/
theorem wv_block (c : Dev nD) (t : Fin cfg0.N) (d k : Fin 256) :
    (iblk m c 2 t : Vec Ideal S256x256 .bf16) (ix2 d k)
      = (m ((c : Thread nD τ).loc main_arg4) : S256x256.Idx → EReal) (ix2 d k) := by
  obtain ⟨-, -, -, ⟨e0, e1⟩, -⟩ := idx_facts t
  unfold iblk
  rw [View.read_apply]
  show (V m c main_v61 : S256x256.Idx → EReal) _ = _
  rw [Cert.Attn.Host.wv_entry]
  congr 1
  funext a
  apply Fin.ext
  match a with
  | ⟨0, _⟩ => show win0_2.index t (0 : Fin 2) * 256 + 1 * d.val = d.val; omega
  | ⟨1, _⟩ => show win0_2.index t (1 : Fin 2) * 256 + 1 * k.val = k.val; omega

/-- The output-weight block at any point is the sixth argument, whole. -/
theorem wp_block (c : Dev nD) (t : Fin cfg0.N) (d k : Fin 256) :
    (iblk m c 3 t : Vec Ideal S256x256 .bf16) (ix2 d k)
      = (m ((c : Thread nD τ).loc main_arg5) : S256x256.Idx → EReal) (ix2 d k) := by
  obtain ⟨-, -, -, -, ⟨e0, e1⟩, -⟩ := idx_facts t
  unfold iblk
  rw [View.read_apply]
  show (V m c main_v62 : S256x256.Idx → EReal) _ = _
  rw [Cert.Attn.Host.wp_entry]
  congr 1
  funext a
  apply Fin.ext
  match a with
  | ⟨0, _⟩ => show win0_3.index t (0 : Fin 2) * 256 + 1 * d.val = d.val; omega
  | ⟨1, _⟩ => show win0_3.index t (1 : Fin 2) * 256 + 1 * k.val = k.val; omega

/-- The table block at any point is the whole position table: `exp β · mask` of the two bias vectors. -/
theorem tbl_block (c : Dev nD) (t : Fin cfg0.N) (ii jj : Fin 5) (h w : Fin 64) :
    (iblk m c 4 t : Vec Ideal S5x5x64x64 .f32) (ix4 ii jj h w)
      = eb (co1 (m ((c : Thread nD τ).loc main_arg1))) (co1 (m ((c : Thread nD τ).loc main_arg2))) ii jj h w := by
  obtain ⟨-, -, -, -, -, ⟨e0, e1, e2, e3⟩⟩ := idx_facts t
  unfold iblk
  rw [View.read_apply]
  show (V m c main_v58 : S5x5x64x64.Idx → EReal) _ = _
  refine Eq.trans ?_ (Cert.Attn.Host.table_entry m c ii jj h w)
  congr 1
  funext a
  apply Fin.ext
  match a with
  | ⟨0, _⟩ => show win0_4.index t (0 : Fin 4) * 5 + 1 * ii.val = ii.val; omega
  | ⟨1, _⟩ => show win0_4.index t (1 : Fin 4) * 5 + 1 * jj.val = jj.val; omega
  | ⟨2, _⟩ => show win0_4.index t (2 : Fin 4) * 64 + 1 * h.val = h.val; omega
  | ⟨3, _⟩ => show win0_4.index t (3 : Fin 4) * 64 + 1 * w.val = w.val; omega

/-! ## The per-image form over blocks that are the arguments' -/

/-- The slab `exp k · v` of a tile that is image `T` of `X`, with weight blocks that are `Wk`, `Wv`. -/
theorem tileP_of_blocks (x0 : (⟨4, ![1, 64, 64, 256]⟩ : Shape).Idx → EReal) (x1 x2 : (⟨2, ![256, 256]⟩ : Shape).Idx → EReal)
    (X : Img) (Wk Wv : Mat) (T : Fin 16)
    (h0 : ∀ (h w : Fin 64) (c : Fin 256), x0 (ix4 (0 : Fin 1) h w c) = X T h w c)
    (h1 : ∀ d c : Fin 256, x1 (ix2 d c) = Wk d c) (h2 : ∀ d c : Fin 256, x2 (ix2 d c) = Wv d c) :
    tileP x0 x1 x2 = evk (proj X Wk) (proj X Wv) T := by
  funext h w d
  show Ideal.exp (∑ c : Fin 256, x0 (ix4 (0 : Fin 1) h w c) * x1 (ix2 d c)) * (∑ c : Fin 256, x0 (ix4 (0 : Fin 1) h w c) * x2 (ix2 d c))
    = Ideal.exp (∑ c : Fin 256, X T h w c * Wk d c) * ∑ c : Fin 256, X T h w c * Wv d c
  simp only [h0, h1, h2]

/-- The plane `∑_d exp k` of a tile that is image `T` of `X`, with a weight block that is `Wk`. -/
theorem tileS_of_blocks (x0 : (⟨4, ![1, 64, 64, 256]⟩ : Shape).Idx → EReal) (x1 : (⟨2, ![256, 256]⟩ : Shape).Idx → EReal)
    (X : Img) (Wk : Mat) (T : Fin 16)
    (h0 : ∀ (h w : Fin 64) (c : Fin 256), x0 (ix4 (0 : Fin 1) h w c) = X T h w c)
    (h1 : ∀ d c : Fin 256, x1 (ix2 d c) = Wk d c) :
    tileS x0 x1 = sk (proj X Wk) T := by
  funext h w
  show (∑ d : Fin 256, Ideal.exp (∑ c : Fin 256, x0 (ix4 (0 : Fin 1) h w c) * x1 (ix2 d c)))
    = ∑ d : Fin 256, Ideal.exp (∑ c : Fin 256, X T h w c * Wk d c)
  simp only [h0, h1]

/-- The per-image result over blocks that are the arguments' is image `T` of the factored form. -/
theorem imgResult_of_blocks (x0 : (⟨4, ![1, 64, 64, 256]⟩ : Shape).Idx → EReal) (x1 x2 x3 : (⟨2, ![256, 256]⟩ : Shape).Idx → EReal)
    (x4 : (⟨4, ![5, 5, 64, 64]⟩ : Shape).Idx → EReal) (X : Img) (wh wv : Vec5) (Wk Wv Wp : Mat) (T : Fin 16)
    (h0 : ∀ (h w : Fin 64) (c : Fin 256), x0 (ix4 (0 : Fin 1) h w c) = X T h w c)
    (h1 : ∀ d c : Fin 256, x1 (ix2 d c) = Wk d c) (h2 : ∀ d c : Fin 256, x2 (ix2 d c) = Wv d c)
    (h3 : ∀ d c : Fin 256, x3 (ix2 d c) = Wp d c)
    (h4 : ∀ (ii jj : Fin 5) (h w : Fin 64), x4 (ix4 ii jj h w) = eb wh wv ii jj h w) :
    imgResult (tbl x4) (tileP x0 x1 x2) (tileS x0 x1) (co2 x3) = kerResult X wh wv Wk Wv Wp T := by
  rw [kerResult_eq_img, tileP_of_blocks x0 x1 x2 X Wk Wv T h0 h1 h2, tileS_of_blocks x0 x1 X Wk T h0 h1]
  have e4 : tbl x4 = eb wh wv := by funext ii jj h w; exact h4 ii jj h w
  have e3 : co2 x3 = Wp := by funext d c; exact h3 d c
  rw [e4, e3]

/-! ## The written blocks, the cover, the run -/

/-- WHAT THE BODY COMPUTES from the blocks it is handed, whatever the staging memrefs: the per-image form of the windowed
    attention over the table block, the tile's `exp k · v` and `∑_d exp k`, and the output-weight block. -/
def BodyValue : Prop :=
  ∀ (c : Dev nD) (i : grid0.Coords) (arg1 : Memref sig .tc .vmem S1x64x64x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S5x5x64x64 .f32) (harg5 : arg5.IsWhole) (arg6 : Memref sig .tc .vmem S1x64x64x256 .f32) (harg6 : arg6.IsWhole) (arg7 : Memref sig .tc .vmem S64x64 .f32) (harg7 : arg7.IsWhole) (arg8 : Memref sig .tc .vmem S72x72x256 .f32) (harg8 : arg8.IsWhole) (arg9 : Memref sig .tc .vmem S72x72x256 .f32) (harg9 : arg9.IsWhole) (arg10 : Memref sig .tc .vmem S72x72 .f32) (harg10 : arg10.IsWhole)
    (x0 : Vec Ideal S1x64x64x256 .bf16) (x1 x2 x3 : Vec Ideal S256x256 .bf16) (x4 : Vec Ideal S5x5x64x64 .f32)
    (h w : Fin 64) (o : Fin 256),
    out0_A_5 (F := Ideal) c i arg1 harg1 arg2 harg2 arg3 harg3 arg4 harg4 arg5 harg5 arg6 harg6 arg7 harg7 arg8 harg8 arg9 harg9 arg10 harg10 x0 x1 x2 x3 x4 (ix4 (0 : Fin 1) h w o)
      = imgResult (tbl x4) (tileP x0 x1 x2) (tileS x0 x1) (co2 x3) h w o

/-- The result array as one function of the six arguments: the factored form of the windowed attention. -/
def G (c : Dev nD) : S16x64x64x256.Idx → EReal := fun i =>
  kerResult (co4 (m ((c : Thread nD τ).loc main_arg0))) (co1 (m ((c : Thread nD τ).loc main_arg1))) (co1 (m ((c : Thread nD τ).loc main_arg2))) (co2 (m ((c : Thread nD τ).loc main_arg3))) (co2 (m ((c : Thread nD τ).loc main_arg4))) (co2 (m ((c : Thread nD τ).loc main_arg5))) (i 0) (i 1) (i 2) (i 3)

/-- An index of a `[1, 64, 64, 256]` tile is `(0, h, w, o)`. -/
theorem tile_idx (j : S1x64x64x256.Idx) : ∃ (h w : Fin 64) (o : Fin 256), j = ix4 (0 : Fin 1) h w o := by
  have z : j 0 = (0 : Fin 1) := Fin.ext (by have h0 : (j 0).val < 1 := (j 0).isLt; show (j 0).val = 0; omega)
  exact ⟨j 1, j 2, j 3, (eq_ix4 j).trans (congrArg (fun q => ix4 q (j 1) (j 2) (j 3)) z)⟩

/-- WHAT POINT `t` WRITES BACK is block `t` — image `t` — of `G`. -/
theorem flushed5_eq (hbody : BodyValue) (c : Dev nD) (t : Fin cfg0.N) :
    (dats m 0 c).flushed 5 t = ((cfg0.win 5).blk t).view.read (Elt Ideal) (G m c) := by
  obtain ⟨-, ⟨e0, e1, e2, e3⟩, -⟩ := idx_facts t
  rw [Cert.KernelIdeal.Value.flushed5_A]
  funext j
  obtain ⟨h, w, o, rfl⟩ := tile_idx j
  refine Eq.trans (hbody c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) h w o) ?_
  refine Eq.trans (congrFun (congrFun (congrFun (imgResult_of_blocks (iblk m c 0 t) (iblk m c 1 t) (iblk m c 2 t) (iblk m c 3 t) (iblk m c 4 t)
    (co4 (m ((c : Thread nD τ).loc main_arg0))) (co1 (m ((c : Thread nD τ).loc main_arg1))) (co1 (m ((c : Thread nD τ).loc main_arg2))) (co2 (m ((c : Thread nD τ).loc main_arg3))) (co2 (m ((c : Thread nD τ).loc main_arg4))) (co2 (m ((c : Thread nD τ).loc main_arg5))) (⟨t.val, points_lt t⟩ : Fin 16)
    (fun h w ch => img_block m c t h w ch) (fun d k => wk_block m c t d k) (fun d k => wv_block m c t d k) (fun d k => wp_block m c t d k)
    (fun ii jj h w => tbl_block m c t ii jj h w)) h) w) o) ?_
  rw [View.read_apply]
  show _ = G m c (((cfg0.win 5).blk t).view.emb (ix4 (0 : Fin 1) h w o))
  have hemb : ((cfg0.win 5).blk t).view.emb (ix4 (0 : Fin 1) h w o) = ix4 (⟨t.val, points_lt t⟩ : Fin 16) h w o := by
    funext a
    apply Fin.ext
    match a with
    | ⟨0, _⟩ => show win0_5.index t (0 : Fin 4) * 1 + 1 * 0 = t.val; omega
    | ⟨1, _⟩ => show win0_5.index t (1 : Fin 4) * 64 + 1 * h.val = h.val; omega
    | ⟨2, _⟩ => show win0_5.index t (2 : Fin 4) * 64 + 1 * w.val = w.val; omega
    | ⟨3, _⟩ => show win0_5.index t (3 : Fin 4) * 256 + 1 * o.val = o.val; omega
  rw [hemb]
  rfl

/-- An index of the result array is in point `t`'s block iff each coordinate is in the block's range on its axis. -/
theorem mem_blk5 (t : Fin cfg0.N) (i : S16x64x64x256.Idx) :
    i ∈ ((cfg0.win 5).blk t).view.set ↔ ∀ a : Fin 4, win0_5.index t a * S1x64x64x256.size a ≤ (i a).val
      ∧ (i a).val < win0_5.index t a * S1x64x64x256.size a + S1x64x64x256.size a := by
  show i ∈ ((View.whole main_v63).slice (win0_5.rect t)).set ↔ _
  rw [View.set_slice_whole, Rect.mem_set_unit]
  exact Iff.rfl

/-- THE ARRAY after the run is `G`: the sixteen images' blocks cover it. -/
theorem final5 (hbody : BodyValue) (c : Dev nD) : (dats m 0 c).arrAt 5 cfg0.N = G m c :=
  (dats m 0 c).arrAt_eq_of_cover 5 (G m c) (fun t _ => flushed5_eq m hbody c t) (fun i => by
    have hi0 : (i 0).val < 16 := (i 0).isLt
    have hi1 : (i 1).val < 64 := (i 1).isLt
    have hi2 : (i 2).val < 64 := (i 2).isLt
    have hi3 : (i 3).val < 256 := (i 3).isLt
    obtain ⟨t, ht⟩ : ∃ t : Fin cfg0.N, t.val = (i 0).val := ⟨⟨(i 0).val, hi0⟩, rfl⟩
    obtain ⟨-, ⟨e0, e1, e2, e3⟩, -⟩ := idx_facts t
    refine ⟨t, flush0_5 t, ?_⟩
    rw [mem_blk5]
    intro a
    match a with
    | ⟨0, _⟩ => show win0_5.index t (0 : Fin 4) * 1 ≤ (i 0).val ∧ (i 0).val < win0_5.index t (0 : Fin 4) * 1 + 1; omega
    | ⟨1, _⟩ => show win0_5.index t (1 : Fin 4) * 64 ≤ (i 1).val ∧ (i 1).val < win0_5.index t (1 : Fin 4) * 64 + 64; omega
    | ⟨2, _⟩ => show win0_5.index t (2 : Fin 4) * 64 ≤ (i 2).val ∧ (i 2).val < win0_5.index t (2 : Fin 4) * 64 + 64; omega
    | ⟨3, _⟩ => show win0_5.index t (3 : Fin 4) * 256 ≤ (i 3).val ∧ (i 3).val < win0_5.index t (3 : Fin 4) * 256 + 256; omega)

/-- The kernel's run, read: the result array at the factored form of the windowed attention, the six arguments unchanged. -/
theorem run_value (hbody : BodyValue) :
    θ_run defs (onTc (τ := τ) (main (F := Ideal))) ⟨m, fun _ => 0, ρ⟩ fun r => ∀ c : Dev nD,
      r.2.mem ((c : Thread nD τ).loc main_v63) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final5 m hbody c), (h c).2⟩)
    (Cert.KernelIdeal.Value.run_blocks m ρ)

end Cert.Attn.Ker

end
-- ==== Proof.lean ====
/-
  A 5×5-windowed attention on a 64×64 grid (16 images, 256 channels), as a Pallas kernel against its jnp reference:
  the five claims of `Cert.Claim`.

  THE MATHEMATICS. With keys and values `k = x·Wkᵀ`, `v = x·Wvᵀ`, tap `(ii, jj)` of the window looks from pixel `(h, w)`
  at pixel `(h + ii - 2, w + jj - 2)` with the position bias `β = w_h[ii]·(ii - 2 - h) + w_v[jj]·(jj - 2 - w)`. The
  reference adds, tap after tap, `exp(β + k')·mask·v'` to a numerator and `∑_d exp(β + k')·mask` to a denominator
  (`k'`, `v'` zero-padded and shifted), and returns `(numerator / (denominator + ε))·Wpᵀ`. The kernel computes the
  table `exp β·mask` on the host and, per image, `exp k·v` and `∑_d exp k` once, stores them zero-padded, and adds
  `table·(exp k·v)'` and `table·(∑_d exp k)'` tap after tap in the same order. The two agree term by term because
  `exp(β + k) = exp β·exp k` and a real factor distributes over the channel sum: laws of the REALS, which the extended
  reals lose at the infinities, so the precondition (every input finite) is used, for `x`, `Wk`, `w_h`, `w_v`; off the
  grid both sides add `0`. The same word `ε` stands on both sides and is never evaluated.

  THE PARTS. `Spec.lean` states both forms by coordinates and `Algebra.lean` proves them equal for real entries.
  The reference: its run is written over its 1460 host operations in 25 consecutive pieces (`RefRun*.lean`), ending at
  the stage function of its last operation; `RefRead*.lean` read that stage index by index as the reference form.
  The kernel: `HostTable*.lean` read the host-computed table and the four format changes (identities here);
  `KerPay.lean`, `KerMat.lean`, `KerChain.lean`, `KerNorm*.lean`, `KerBody.lean` read what the body's stores leave in its
  output block — the per-image factored form over the table and tiles it was handed; `KerValue.lean` passes from the
  blocks to the whole array; `Finite.lean` turns the precondition into "every entry is a real"; `Claims.lean` assembles.
  The kernel's idealization rewrote nothing, so `preserves` is `True`.
-/
import proofs.«107659_j89111981457894_2_alg».proof.Defs
import proofs.«107659_j89111981457894_2_alg».proof.Proof.Claims
import proofs.«107659_j89111981457894_2_alg».proof.Proof.KerBody
import proofs.«107659_j89111981457894_2_alg».proof.Proof.KerValue
import Idealize.ShloMosaic.Adequacy
import Idealize.ShloMosaic.Init

noncomputable section

namespace Cert.Proof

/-- The kernel's result array is the factored form of the arguments (`KerValue.lean` over `KerBody.lean`), the
    reference's is the reference form, and the two forms agree on finite inputs. -/
theorem claim : Cert.Claim :=
  Cert.Proof.Claims.claim_of (fun m c => Cert.Attn.Ker.G m c) (fun _ _ => rfl)
    (fun m ρ => Cert.Attn.Ker.run_value m ρ Cert.Attn.Ker.body_value)

end Cert.Proof

end
